-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v140)) (v1 : (c : Dev Cert.KernelIdeal.nD) → Buf (Elt Ideal) ((c.tc : Thread Cert.KernelIdeal.nD Cert.KernelIdeal.τ).loc Cert.KernelIdeal.main_v59)) (v2 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v140) = v0 c
          ∧ r.2.mem ((c.tc : Thread Cert.KernelIdeal.nD Cert.KernelIdeal.τ).loc Cert.KernelIdeal.main_v59) = v1 c
          ∧ r.2.mem ((c.tc : Thread Cert.KernelIdeal.nD Cert.KernelIdeal.τ).loc Cert.KernelIdeal.main_v86) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v221) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_v126) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x256 : Shape := ⟨2, ![128, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part4 {F : FTy → Type} [FloatOps F] (main_arg15 : FVec F S256 .f32) (main_arg16 : FVec F S256 .f32) (main_arg17 : FVec F S256 .f32) (main_v63 : IVec S_ 1) (main_v67 : IVec S_ 1) : IVec S_ 1 :=
  let main_v68 : IVec S_ 1 := andi main_v63 main_v67
  let main_v69 : FVec F S256 .f32 := Host.absf main_arg15
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg16
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256 .f32 := Host.absf main_arg17
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  main_v83

def fn_part3 {F : FTy → Type} [FloatOps F] (main_arg12 : FVec F S128 .f32) (main_arg13 : FVec F S128 .f32) (main_arg14 : FVec F S128x256 .f32) (main_arg15 : FVec F S256 .f32) (main_arg16 : FVec F S256 .f32) (main_arg17 : FVec F S256 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x256 .f32 := Host.absf main_arg14
  let main_cst_24 : FVec F S_ .f32 := constant S_ .f32 0x7F800000#32
  let main_v65 : FVec F S128x256 .f32 := broadcastInDim S128x256 ![] bcast_S_S128x256 main_cst_24
  let main_v66 : IVec S128x256 1 := cmpf .olt main_v64 main_v65
  let main_c_25 : IVec S_ 1 := constantI S_ 1 1#1
  let main_v67 : IVec S_ 1 := (fun x v => Host.reduce IntOp.andi x v reducesTo_S128x256_S_d0_1 h_S_) main_v66 main_c_25
  fn_part4 (F := F) main_arg15 main_arg16 main_arg17 main_v63 main_v67

def fn_part2 {F : FTy → Type} [FloatOps F] (main_arg8 : FVec F S64 .f32) (main_arg9 : FVec F S64 .f32) (main_arg10 : FVec F S64x128 .f32) (main_arg11 : FVec F S128 .f32) (main_arg12 : FVec F S128 .f32) (main_arg13 : FVec F S128 .f32) (main_arg14 : FVec F S128x256 .f32) (main_arg15 : FVec F S256 .f32) (main_arg16 : FVec F S256 .f32) (main_arg17 : FVec F S256 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x128 .f32 := Host.absf main_arg10
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_v48 main_v49 main_v50

def fn_part1 {F : FTy → Type} [FloatOps F] (main_arg5 : FVec F S128 .f32) (main_arg6 : FVec F S128x64 .f32) (main_arg7 : FVec F S64 .f32) (main_arg8 : FVec F S64 .f32) (main_arg9 : FVec F S64 .f32) (main_arg10 : FVec F S64x128 .f32) (main_arg11 : FVec F S128 .f32) (main_arg12 : FVec F S128 .f32) (main_arg13 : FVec F S128 .f32) (main_arg14 : FVec F S128x256 .f32) (main_arg15 : FVec F S256 .f32) (main_arg16 : FVec F S256 .f32) (main_arg17 : FVec F S256 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S50000x256 .f32) (main_arg1 : IVec S2x800000 32) (main_arg2 : FVec F S256x128 .f32) (main_arg3 : FVec F S128 .f32) (main_arg4 : FVec F S128 .f32) (main_arg5 : FVec F S128 .f32) (main_arg6 : FVec F S128x64 .f32) (main_arg7 : FVec F S64 .f32) (main_arg8 : FVec F S64 .f32) (main_arg9 : FVec F S64 .f32) (main_arg10 : FVec F S64x128 .f32) (main_arg11 : FVec F S128 .f32) (main_arg12 : FVec F S128 .f32) (main_arg13 : FVec F S128 .f32) (main_arg14 : FVec F S128x256 .f32) (main_arg15 : FVec F S256 .f32) (main_arg16 : FVec F S256 .f32) (main_arg17 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x256 : Shape := ⟨2, ![128, 256]⟩
abbrev S256 : Shape := ⟨1, ![256]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x128 : Shape := ⟨2, ![1, 128]⟩
abbrev S50000x128 : Shape := ⟨2, ![50000, 128]⟩
abbrev S2000x256 : Shape := ⟨2, ![2000, 256]⟩
abbrev S2000x128 : Shape := ⟨2, ![2000, 128]⟩
abbrev S800000x128 : Shape := ⟨2, ![800000, 128]⟩
abbrev S2000x1 : Shape := ⟨2, ![2000, 1]⟩
abbrev S1x64 : Shape := ⟨2, ![1, 64]⟩
abbrev S50000x64 : Shape := ⟨2, ![50000, 64]⟩
abbrev S2000x64 : Shape := ⟨2, ![2000, 64]⟩
abbrev S800000x64 : Shape := ⟨2, ![800000, 64]⟩
abbrev S1x256 : Shape := ⟨2, ![1, 256]⟩
abbrev S800000x256 : Shape := ⟨2, ![800000, 256]⟩

abbrev nBuf : Space → Nat
  | .hbm => 200
  | .vmem => 96
  | .smem => 0
  | _ => 0

abbrev hbmTy0_0 (i : Nat) : BufTy := match i % 128 with
  | 0 => ⟨S50000x256, .f32⟩
  | 1 => ⟨S2x800000, .i32⟩
  | 2 => ⟨S256x128, .f32⟩
  | 3 => ⟨S128, .f32⟩
  | 4 => ⟨S128, .f32⟩
  | 5 => ⟨S128, .f32⟩
  | 6 => ⟨S128x64, .f32⟩
  | 7 => ⟨S64, .f32⟩
  | 8 => ⟨S64, .f32⟩
  | 9 => ⟨S64, .f32⟩
  | 10 => ⟨S64x128, .f32⟩
  | 11 => ⟨S128, .f32⟩
  | 12 => ⟨S128, .f32⟩
  | 13 => ⟨S128, .f32⟩
  | 14 => ⟨S128x256, .f32⟩
  | 15 => ⟨S256, .f32⟩
  | 16 => ⟨S256, .f32⟩
  | 17 => ⟨S256, .f32⟩
  | 18 => ⟨S1x800000, .i32⟩
  | 19 => ⟨S800000, .i32⟩
  | 20 => ⟨S1x800000, .i32⟩
  | 21 => ⟨S800000, .i32⟩
  | 22 => ⟨S_, .f32⟩
  | 23 => ⟨S50000, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S_, .f32⟩
  | 33 => ⟨S800000, .f32⟩
  | 34 => ⟨S50000, .f32⟩
  | 35 => ⟨S_, .f32⟩
  | 36 => ⟨S50000, .f32⟩
  | 37 => ⟨S50000, .f32⟩
  | 38 => ⟨S50000, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000, .f32⟩
  | 57 => ⟨S800000, .f32⟩
  | 58 => ⟨S50000, .f32⟩
  | 59 => ⟨S50000x1, .f32⟩
  | 60 => ⟨S1x128, .f32⟩
  | 61 => ⟨S50000x128, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x128, .f32⟩
  | 71 => ⟨S800000x1, .f32⟩
  | 72 => ⟨S800000x128, .f32⟩
  | 73 => ⟨S800000x128, .f32⟩
  | 74 => ⟨S_, .f32⟩
  | 75 => ⟨S50000x128, .f32⟩
  | 76 => ⟨S800000x1, .i32⟩
  | 77 => ⟨S50000x128, .f32⟩
  | 78 => ⟨S50000x128, .f32⟩
  | 79 => ⟨S1x128, .f32⟩
  | 80 => ⟨S1x128, .f32⟩
  | 81 => ⟨S_, .f32⟩
  | 82 => ⟨S1x128, .f32⟩
  | 83 => ⟨S1x128, .f32⟩
  | 84 => ⟨S_, .f32⟩
  | 85 => ⟨S1x128, .f32⟩
  | 86 => ⟨S1x128, .f32⟩
  | 87 => ⟨S1x128, .f32⟩
  | 88 => ⟨S1x128, .f32⟩
  | 89 => ⟨S_, .f32⟩
  | 90 => ⟨S1x128, .f32⟩
  | 91 => ⟨S1x128, .f32⟩
  | 92 => ⟨S1x128, .f32⟩
  | 93 => ⟨S1x128, .f32⟩
  | 94 => ⟨S50000x128, .f32⟩
  | 95 => ⟨S1x64, .f32⟩
  | 96 => ⟨S50000x64, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x64, .f32⟩
  | 106 => ⟨S800000x1, .f32⟩
  | 107 => ⟨S800000x64, .f32⟩
  | 108 => ⟨S800000x64, .f32⟩
  | 109 => ⟨S_, .f32⟩
  | 110 => ⟨S50000x64, .f32⟩
  | 111 => ⟨S800000x1, .i32⟩
  | 112 => ⟨S50000x64, .f32⟩
  | 113 => ⟨S50000x64, .f32⟩
  | 114 => ⟨S1x64, .f32⟩
  | 115 => ⟨S1x64, .f32⟩
  | 116 => ⟨S_, .f32⟩
  | 117 => ⟨S1x64, .f32⟩
  | 118 => ⟨S1x64, .f32⟩
  | 119 => ⟨S_, .f32⟩
  | 120 => ⟨S1x64, .f32⟩
  | 121 => ⟨S1x64, .f32⟩
  | 122 => ⟨S1x64, .f32⟩
  | 123 => ⟨S1x64, .f32⟩
  | 124 => ⟨S_, .f32⟩
  | 125 => ⟨S1x64, .f32⟩
  | 126 => ⟨S1x64, .f32⟩
  | 127 => ⟨S1x64, .f32⟩
  | _ => ⟨S50000x256, .f32⟩

abbrev hbmTy0_1 (i : Nat) : BufTy := match i % 128 with
  | 0 => ⟨S1x64, .f32⟩
  | 1 => ⟨S50000x64, .f32⟩
  | 2 => ⟨S1x128, .f32⟩
  | 3 => ⟨S50000x128, .f32⟩
  | 4 => ⟨S_, .i32⟩
  | 5 => ⟨S800000, .i32⟩
  | 6 => ⟨S800000, .i1⟩
  | 7 => ⟨S_, .i32⟩
  | 8 => ⟨S800000, .i32⟩
  | 9 => ⟨S800000, .i32⟩
  | 10 => ⟨S800000, .i32⟩
  | 11 => ⟨S800000x1, .i32⟩
  | 12 => ⟨S800000x128, .f32⟩
  | 13 => ⟨S800000x1, .f32⟩
  | 14 => ⟨S800000x128, .f32⟩
  | 15 => ⟨S800000x128, .f32⟩
  | 16 => ⟨S_, .f32⟩
  | 17 => ⟨S50000x128, .f32⟩
  | 18 => ⟨S800000x1, .i32⟩
  | 19 => ⟨S50000x128, .f32⟩
  | 20 => ⟨S50000x128, .f32⟩
  | 21 => ⟨S1x128, .f32⟩
  | 22 => ⟨S1x128, .f32⟩
  | 23 => ⟨S_, .f32⟩
  | 24 => ⟨S1x128, .f32⟩
  | 25 => ⟨S1x128, .f32⟩
  | 26 => ⟨S_, .f32⟩
  | 27 => ⟨S1x128, .f32⟩
  | 28 => ⟨S1x128, .f32⟩
  | 29 => ⟨S1x128, .f32⟩
  | 30 => ⟨S1x128, .f32⟩
  | 31 => ⟨S_, .f32⟩
  | 32 => ⟨S1x128, .f32⟩
  | 33 => ⟨S1x128, .f32⟩
  | 34 => ⟨S1x128, .f32⟩
  | 35 => ⟨S1x128, .f32⟩
  | 36 => ⟨S50000x128, .f32⟩
  | 37 => ⟨S1x256, .f32⟩
  | 38 => ⟨S50000x256, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000x256, .f32⟩
  | 48 => ⟨S800000x1, .f32⟩
  | 49 => ⟨S800000x256, .f32⟩
  | 50 => ⟨S800000x256, .f32⟩
  | 51 => ⟨S_, .f32⟩
  | 52 => ⟨S50000x256, .f32⟩
  | 53 => ⟨S800000x1, .i32⟩
  | 54 => ⟨S50000x256, .f32⟩
  | 55 => ⟨S50000x256, .f32⟩
  | 56 => ⟨S1x256, .f32⟩
  | 57 => ⟨S1x256, .f32⟩
  | 58 => ⟨S_, .f32⟩
  | 59 => ⟨S1x256, .f32⟩
  | 60 => ⟨S1x256, .f32⟩
  | 61 => ⟨S_, .f32⟩
  | 62 => ⟨S1x256, .f32⟩
  | 63 => ⟨S1x256, .f32⟩
  | 64 => ⟨S1x256, .f32⟩
  | 65 => ⟨S1x256, .f32⟩
  | 66 => ⟨S_, .f32⟩
  | 67 => ⟨S1x256, .f32⟩
  | 68 => ⟨S1x256, .f32⟩
  | 69 => ⟨S1x256, .f32⟩
  | 70 => ⟨S1x256, .f32⟩
  | 71 => ⟨S50000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x1, .f32⟩
  | .local _ .vmem, ⟨11, _⟩ => ⟨S2000x1, .f32⟩
  | .local _ .vmem, ⟨12, _⟩ => ⟨S2000x128, .f32⟩
  | .local _ .vmem, ⟨13, _⟩ => ⟨S2000x128, .f32⟩
  | .local _ .vmem, ⟨14, _⟩ => ⟨S1x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S128x64, .f32⟩
  | .local _ .vmem, ⟨27, _⟩ => ⟨S1x64, .f32⟩
  | .local _ .vmem, ⟨28, _⟩ => ⟨S2000x64, .f32⟩
  | .local _ .vmem, ⟨29, _⟩ => ⟨S2000x64, .f32⟩
  | .local _ .vmem, ⟨30, _⟩ => ⟨S2000x64, .f32⟩
  | .local _ .vmem, ⟨31, _⟩ => ⟨S2000x64, .f32⟩
  | .local _ .vmem, ⟨32, _⟩ => ⟨S2000x64, .f32⟩
  | .local _ .vmem, ⟨33, _⟩ => ⟨S2000x64, .f32⟩
  | .local _ .vmem, ⟨34, _⟩ => ⟨S2000x1, .f32⟩
  | .local _ .vmem, ⟨35, _⟩ => ⟨S2000x1, .f32⟩
  | .local _ .vmem, ⟨36, _⟩ => ⟨S2000x64, .f32⟩
  | .local _ .vmem, ⟨37, _⟩ => ⟨S2000x64, .f32⟩
  | .local _ .vmem, ⟨38, _⟩ => ⟨S1x64, .f32⟩
  | .local _ .vmem, ⟨39, _⟩ => ⟨S1x64, .f32⟩
  | .local _ .vmem, ⟨40, _⟩ => ⟨S2000x64, .f32⟩
  | .local _ .vmem, ⟨41, _⟩ => ⟨S2000x64, .f32⟩
  | .local _ .vmem, ⟨42, _⟩ => ⟨S1x64, .f32⟩
  | .local _ .vmem, ⟨43, _⟩ => ⟨S1x64, .f32⟩
  | .local _ .vmem, ⟨44, _⟩ => ⟨S1x64, .f32⟩
  | .local _ .vmem, ⟨45, _⟩ => ⟨S1x64, .f32⟩
  | .local _ .vmem, ⟨46, _⟩ => ⟨S2000x64, .f32⟩
  | .local _ .vmem, ⟨47, _⟩ => ⟨S2000x64, .f32⟩
  | .local _ .vmem, ⟨48, _⟩ => ⟨S2000x64, .f32⟩
  | .local _ .vmem, ⟨49, _⟩ => ⟨S2000x64, .f32⟩
  | .local _ .vmem, ⟨50, _⟩ => ⟨S64x128, .f32⟩
  | .local _ .vmem, ⟨51, _⟩ => ⟨S1x128, .f32⟩
  | .local _ .vmem, ⟨52, _⟩ => ⟨S2000x128, .f32⟩
  | .local _ .vmem, ⟨53, _⟩ => ⟨S2000x128, .f32⟩
  | .local _ .vmem, ⟨54, _⟩ => ⟨S2000x128, .f32⟩
  | .local _ .vmem, ⟨55, _⟩ => ⟨S2000x128, .f32⟩
  | .local _ .vmem, ⟨56, _⟩ => ⟨S2000x128, .f32⟩
  | .local _ .vmem, ⟨57, _⟩ => ⟨S2000x128, .f32⟩
  | .local _ .vmem, ⟨58, _⟩ => ⟨S2000x1, .f32⟩
  | .local _ .vmem, ⟨59, _⟩ => ⟨S2000x1, .f32⟩
  | .local _ .vmem, ⟨60, _⟩ => ⟨S2000x128, .f32⟩
  | .local _ .vmem, ⟨61, _⟩ => ⟨S2000x128, .f32⟩
  | .local _ .vmem, ⟨62, _⟩ => ⟨S1x128, .f32⟩
  | .local _ .vmem, ⟨63, _⟩ => ⟨S1x128, .f32⟩
  | .local _ .vmem, ⟨64, _⟩ => ⟨S2000x128, .f32⟩
  | .local _ .vmem, ⟨65, _⟩ => ⟨S2000x128, .f32⟩
  | .local _ .vmem, ⟨66, _⟩ => ⟨S1x128, .f32⟩
  | .local _ .vmem, ⟨67, _⟩ => ⟨S1x128, .f32⟩
  | .local _ .vmem, ⟨68, _⟩ => ⟨S1x128, .f32⟩
  | .local _ .vmem, ⟨69, _⟩ => ⟨S1x128, .f32⟩
  | .local _ .vmem, ⟨70, _⟩ => ⟨S2000x128, .f32⟩
  | .local _ .vmem, ⟨71, _⟩ => ⟨S2000x128, .f32⟩
  | .local _ .vmem, ⟨72, _⟩ => ⟨S2000x128, .f32⟩
  | .local _ .vmem, ⟨73, _⟩ => ⟨S2000x128, .f32⟩
  | .local _ .vmem, ⟨74, _⟩ => ⟨S128x256, .f32⟩
  | .local _ .vmem, ⟨75, _⟩ => ⟨S1x256, .f32⟩
  | .local _ .vmem, ⟨76, _⟩ => ⟨S2000x256, .f32⟩
  | .local _ .vmem, ⟨77, _⟩ => ⟨S2000x256, .f32⟩
  | .local _ .vmem, ⟨78, _⟩ => ⟨S2000x256, .f32⟩
  | .local _ .vmem, ⟨79, _⟩ => ⟨S2000x256, .f32⟩
  | .local _ .vmem, ⟨80, _⟩ => ⟨S2000x256, .f32⟩
  | .local _ .vmem, ⟨81, _⟩ => ⟨S2000x256, .f32⟩
  | .local _ .vmem, ⟨82, _⟩ => ⟨S2000x1, .f32⟩
  | .local _ .vmem, ⟨83, _⟩ => ⟨S2000x1, .f32⟩
  | .local _ .vmem, ⟨84, _⟩ => ⟨S2000x256, .f32⟩
  | .local _ .vmem, ⟨85, _⟩ => ⟨S2000x256, .f32⟩
  | .local _ .vmem, ⟨86, _⟩ => ⟨S1x256, .f32⟩
  | .local _ .vmem, ⟨87, _⟩ => ⟨S1x256, .f32⟩
  | .local _ .vmem, ⟨88, _⟩ => ⟨S2000x256, .f32⟩
  | .local _ .vmem, ⟨89, _⟩ => ⟨S2000x256, .f32⟩
  | .local _ .vmem, ⟨90, _⟩ => ⟨S1x256, .f32⟩
  | .local _ .vmem, ⟨91, _⟩ => ⟨S1x256, .f32⟩
  | .local _ .vmem, ⟨92, _⟩ => ⟨S1x256, .f32⟩
  | .local _ .vmem, ⟨93, _⟩ => ⟨S1x256, .f32⟩
  | .local _ .vmem, ⟨94, _⟩ => ⟨S2000x256, .f32⟩
  | .local _ .vmem, ⟨95, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | _, _ => false

abbrev semScoped : Fin 0 → Bool
  | ⟨_, h⟩ => absurd h (Nat.not_lt_zero _)

abbrev dmaSemScoped : Fin 96 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | _ => false

abbrev sig : RefSig :=
  ofTc nBuf bufTy 0 96 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_c : Ref sig .tc := ⟨.hbm, 24, rfl⟩
abbrev main_v5 : Ref sig .tc := ⟨.hbm, 25, rfl⟩
abbrev main_v6 : Ref sig .tc := ⟨.hbm, 26, rfl⟩
abbrev main_c_0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_1 : Ref sig .tc := ⟨.hbm, 32, rfl⟩
abbrev main_v11 : Ref sig .tc := ⟨.hbm, 33, rfl⟩
abbrev main_v12 : Ref sig .tc := ⟨.hbm, 34, rfl⟩
abbrev main_cst_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_c_3 : Ref sig .tc := ⟨.hbm, 39, rfl⟩
abbrev main_v16 : Ref sig .tc := ⟨.hbm, 40, rfl⟩
abbrev main_v17 : Ref sig .tc := ⟨.hbm, 41, rfl⟩
abbrev main_c_4 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_c_5 : Ref sig .tc := ⟨.hbm, 48, rfl⟩
abbrev main_v23 : Ref sig .tc := ⟨.hbm, 49, rfl⟩
abbrev main_v24 : Ref sig .tc := ⟨.hbm, 50, rfl⟩
abbrev main_c_6 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_c_7 : Ref sig .tc := ⟨.hbm, 62, rfl⟩
abbrev main_v35 : Ref sig .tc := ⟨.hbm, 63, rfl⟩
abbrev main_v36 : Ref sig .tc := ⟨.hbm, 64, rfl⟩
abbrev main_c_8 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_9 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48_0 : Ref sig .tc := ⟨.hbm, 78, rfl⟩
abbrev main_v48_1 : Ref sig .tc := ⟨.hbm, 79, rfl⟩
abbrev main_v48_2 : Ref sig .tc := ⟨.hbm, 80, rfl⟩
abbrev main_cst_10 : Ref sig .tc := ⟨.hbm, 81, rfl⟩
abbrev main_v49 : Ref sig .tc := ⟨.hbm, 82, rfl⟩
abbrev main_v50 : Ref sig .tc := ⟨.hbm, 83, rfl⟩
abbrev main_cst_11 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_12 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_c_13 : Ref sig .tc := ⟨.hbm, 97, rfl⟩
abbrev main_v62 : Ref sig .tc := ⟨.hbm, 98, rfl⟩
abbrev main_v63 : Ref sig .tc := ⟨.hbm, 99, rfl⟩
abbrev main_c_14 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_15 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75_0 : Ref sig .tc := ⟨.hbm, 113, rfl⟩
abbrev main_v75_1 : Ref sig .tc := ⟨.hbm, 114, rfl⟩
abbrev main_v75_2 : Ref sig .tc := ⟨.hbm, 115, rfl⟩
abbrev main_cst_16 : Ref sig .tc := ⟨.hbm, 116, rfl⟩
abbrev main_v76 : Ref sig .tc := ⟨.hbm, 117, rfl⟩
abbrev main_v77 : Ref sig .tc := ⟨.hbm, 118, rfl⟩
abbrev main_cst_17 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_cst_18 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_c_19 : Ref sig .tc := ⟨.hbm, 132, rfl⟩
abbrev main_v89 : Ref sig .tc := ⟨.hbm, 133, rfl⟩
abbrev main_v90 : Ref sig .tc := ⟨.hbm, 134, rfl⟩
abbrev main_c_20 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_21 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102_0 : Ref sig .tc := ⟨.hbm, 148, rfl⟩
abbrev main_v102_1 : Ref sig .tc := ⟨.hbm, 149, rfl⟩
abbrev main_v102_2 : Ref sig .tc := ⟨.hbm, 150, rfl⟩
abbrev main_cst_22 : Ref sig .tc := ⟨.hbm, 151, rfl⟩
abbrev main_v103 : Ref sig .tc := ⟨.hbm, 152, rfl⟩
abbrev main_v104 : Ref sig .tc := ⟨.hbm, 153, rfl⟩
abbrev main_cst_23 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_cst_24 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_c_25 : Ref sig .tc := ⟨.hbm, 167, rfl⟩
abbrev main_v116 : Ref sig .tc := ⟨.hbm, 168, rfl⟩
abbrev main_v117 : Ref sig .tc := ⟨.hbm, 169, rfl⟩
abbrev main_c_26 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_cst_27 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129_0 : Ref sig .tc := ⟨.hbm, 183, rfl⟩
abbrev main_v129_1 : Ref sig .tc := ⟨.hbm, 184, rfl⟩
abbrev main_v129_2 : Ref sig .tc := ⟨.hbm, 185, rfl⟩
abbrev main_cst_28 : Ref sig .tc := ⟨.hbm, 186, rfl⟩
abbrev main_v130 : Ref sig .tc := ⟨.hbm, 187, rfl⟩
abbrev main_v131 : Ref sig .tc := ⟨.hbm, 188, rfl⟩
abbrev main_cst_29 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_cst_30 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg2_1 : Ref sig .tc := ⟨.vmem, 35, rfl⟩
abbrev cc4_stg3_0 : Ref sig .tc := ⟨.vmem, 36, rfl⟩
abbrev cc4_stg3_1 : Ref sig .tc := ⟨.vmem, 37, rfl⟩
abbrev cc4_stg4_0 : Ref sig .tc := ⟨.vmem, 38, rfl⟩
abbrev cc4_stg5_0 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg3_0 : Ref sig .tc := ⟨.vmem, 52, rfl⟩
abbrev cc6_stg3_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg1_1 : Ref sig .tc := ⟨.vmem, 57, rfl⟩
abbrev cc7_stg2_0 : Ref sig .tc := ⟨.vmem, 58, rfl⟩
abbrev cc7_stg2_1 : Ref sig .tc := ⟨.vmem, 59, rfl⟩
abbrev cc7_stg3_0 : Ref sig .tc := ⟨.vmem, 60, rfl⟩
abbrev cc7_stg3_1 : Ref sig .tc := ⟨.vmem, 61, rfl⟩
abbrev cc7_stg4_0 : Ref sig .tc := ⟨.vmem, 62, rfl⟩
abbrev cc7_stg5_0 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg2_0 : Ref sig .tc := ⟨.vmem, 67, rfl⟩
abbrev cc8_stg3_0 : Ref sig .tc := ⟨.vmem, 68, rfl⟩
abbrev cc8_stg4_0 : Ref sig .tc := ⟨.vmem, 69, rfl⟩
abbrev cc8_stg5_0 : Ref sig .tc := ⟨.vmem, 70, rfl⟩
abbrev cc8_stg5_1 : Ref sig .tc := ⟨.vmem, 71, rfl⟩
abbrev cc9_stg0_0 : Ref sig .tc := ⟨.vmem, 72, rfl⟩
abbrev cc9_stg0_1 : Ref sig .tc := ⟨.vmem, 73, rfl⟩
abbrev cc9_stg1_0 : Ref sig .tc := ⟨.vmem, 74, rfl⟩
abbrev cc9_stg2_0 : Ref sig .tc := ⟨.vmem, 75, rfl⟩
abbrev cc9_stg3_0 : Ref sig .tc := ⟨.vmem, 76, rfl⟩
abbrev cc9_stg3_1 : Ref sig .tc := ⟨.vmem, 77, rfl⟩
abbrev cc10_stg0_0 : Ref sig .tc := ⟨.vmem, 78, rfl⟩
abbrev cc10_stg0_1 : Ref sig .tc := ⟨.vmem, 79, rfl⟩
abbrev cc10_stg1_0 : Ref sig .tc := ⟨.vmem, 80, rfl⟩
abbrev cc10_stg1_1 : Ref sig .tc := ⟨.vmem, 81, rfl⟩
abbrev cc10_stg2_0 : Ref sig .tc := ⟨.vmem, 82, rfl⟩
abbrev cc10_stg2_1 : Ref sig .tc := ⟨.vmem, 83, rfl⟩
abbrev cc10_stg3_0 : Ref sig .tc := ⟨.vmem, 84, rfl⟩
abbrev cc10_stg3_1 : Ref sig .tc := ⟨.vmem, 85, rfl⟩
abbrev cc10_stg4_0 : Ref sig .tc := ⟨.vmem, 86, rfl⟩
abbrev cc10_stg5_0 : Ref sig .tc := ⟨.vmem, 87, rfl⟩
abbrev cc11_stg0_0 : Ref sig .tc := ⟨.vmem, 88, rfl⟩
abbrev cc11_stg0_1 : Ref sig .tc := ⟨.vmem, 89, rfl⟩
abbrev cc11_stg1_0 : Ref sig .tc := ⟨.vmem, 90, rfl⟩
abbrev cc11_stg2_0 : Ref sig .tc := ⟨.vmem, 91, rfl⟩
abbrev cc11_stg3_0 : Ref sig .tc := ⟨.vmem, 92, rfl⟩
abbrev cc11_stg4_0 : Ref sig .tc := ⟨.vmem, 93, rfl⟩
abbrev cc11_stg5_0 : Ref sig .tc := ⟨.vmem, 94, rfl⟩
abbrev cc11_stg5_1 : Ref sig .tc := ⟨.vmem, 95, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem3_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem2_1 : DmaSem sig := 35
abbrev cc4_sem3_0 : DmaSem sig := 36
abbrev cc4_sem3_1 : DmaSem sig := 37
abbrev cc4_sem4_0 : DmaSem sig := 38
abbrev cc4_sem5_0 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem3_0 : DmaSem sig := 52
abbrev cc6_sem3_1 : DmaSem sig := 53
abbrev cc7_sem0_0 : DmaSem sig := 54
abbrev cc7_sem0_1 : DmaSem sig := 55
abbrev cc7_sem1_0 : DmaSem sig := 56
abbrev cc7_sem1_1 : DmaSem sig := 57
abbrev cc7_sem2_0 : DmaSem sig := 58
abbrev cc7_sem2_1 : DmaSem sig := 59
abbrev cc7_sem3_0 : DmaSem sig := 60
abbrev cc7_sem3_1 : DmaSem sig := 61
abbrev cc7_sem4_0 : DmaSem sig := 62
abbrev cc7_sem5_0 : DmaSem sig := 63
abbrev cc8_sem0_0 : DmaSem sig := 64
abbrev cc8_sem0_1 : DmaSem sig := 65
abbrev cc8_sem1_0 : DmaSem sig := 66
abbrev cc8_sem2_0 : DmaSem sig := 67
abbrev cc8_sem3_0 : DmaSem sig := 68
abbrev cc8_sem4_0 : DmaSem sig := 69
abbrev cc8_sem5_0 : DmaSem sig := 70
abbrev cc8_sem5_1 : DmaSem sig := 71
abbrev cc9_sem0_0 : DmaSem sig := 72
abbrev cc9_sem0_1 : DmaSem sig := 73
abbrev cc9_sem1_0 : DmaSem sig := 74
abbrev cc9_sem2_0 : DmaSem sig := 75
abbrev cc9_sem3_0 : DmaSem sig := 76
abbrev cc9_sem3_1 : DmaSem sig := 77
abbrev cc10_sem0_0 : DmaSem sig := 78
abbrev cc10_sem0_1 : DmaSem sig := 79
abbrev cc10_sem1_0 : DmaSem sig := 80
abbrev cc10_sem1_1 : DmaSem sig := 81
abbrev cc10_sem2_0 : DmaSem sig := 82
abbrev cc10_sem2_1 : DmaSem sig := 83
abbrev cc10_sem3_0 : DmaSem sig := 84
abbrev cc10_sem3_1 : DmaSem sig := 85
abbrev cc10_sem4_0 : DmaSem sig := 86
abbrev cc10_sem5_0 : DmaSem sig := 87
abbrev cc11_sem0_0 : DmaSem sig := 88
abbrev cc11_sem0_1 : DmaSem sig := 89
abbrev cc11_sem1_0 : DmaSem sig := 90
abbrev cc11_sem2_0 : DmaSem sig := 91
abbrev cc11_sem3_0 : DmaSem sig := 92
abbrev cc11_sem4_0 : DmaSem sig := 93
abbrev cc11_sem5_0 : DmaSem sig := 94
abbrev cc11_sem5_1 : DmaSem sig := 95

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def k1_cond1 (i : grid1.Coords) : BitVec 1 :=
  let arg0 : BitVec 32 := BitVec.ofNat 32 (i 0).val
  let c0_i32 : BitVec 32 := 0#32
  let v17 : BitVec 1 := Scalar.cmpi .eq arg0 c0_i32
  let v18 : BitVec 32 := Scalar.extui v17
  let c0_i32_9 : BitVec 32 := 0#32
  let v19 : BitVec 1 := Scalar.cmpi .ne v18 c0_i32_9
  v19

def k1_cond2 (i : grid1.Coords) : BitVec 1 :=
  let arg0 : BitVec 32 := BitVec.ofNat 32 (i 0).val
  let c0_i32_10 : BitVec 32 := 0#32
  let v20 : BitVec 1 := Scalar.cmpi .ne arg0 c0_i32_10
  let v21 : BitVec 32 := Scalar.extui v20
  let c0_i32_11 : BitVec 32 := 0#32
  let v22 : BitVec 1 := Scalar.cmpi .ne v21 c0_i32_11
  v22

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def k4_cond1 (i : grid4.Coords) : BitVec 1 :=
  let arg0 : BitVec 32 := BitVec.ofNat 32 (i 0).val
  let c0_i32 : BitVec 32 := 0#32
  let v17 : BitVec 1 := Scalar.cmpi .eq arg0 c0_i32
  let v18 : BitVec 32 := Scalar.extui v17
  let c0_i32_9 : BitVec 32 := 0#32
  let v19 : BitVec 1 := Scalar.cmpi .ne v18 c0_i32_9
  v19

def k4_cond2 (i : grid4.Coords) : BitVec 1 :=
  let arg0 : BitVec 32 := BitVec.ofNat 32 (i 0).val
  let c0_i32_10 : BitVec 32 := 0#32
  let v20 : BitVec 1 := Scalar.cmpi .ne arg0 c0_i32_10
  let v21 : BitVec 32 := Scalar.extui v20
  let c0_i32_11 : BitVec 32 := 0#32
  let v22 : BitVec 1 := Scalar.cmpi .ne v21 c0_i32_11
  v22

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![25], ![false]⟩

def k7_cond1 (i : grid7.Coords) : BitVec 1 :=
  let arg0 : BitVec 32 := BitVec.ofNat 32 (i 0).val
  let c0_i32 : BitVec 32 := 0#32
  let v17 : BitVec 1 := Scalar.cmpi .eq arg0 c0_i32
  let v18 : BitVec 32 := Scalar.extui v17
  let c0_i32_9 : BitVec 32 := 0#32
  let v19 : BitVec 1 := Scalar.cmpi .ne v18 c0_i32_9
  v19

def k7_cond2 (i : grid7.Coords) : BitVec 1 :=
  let arg0 : BitVec 32 := BitVec.ofNat 32 (i 0).val
  let c0_i32_10 : BitVec 32 := 0#32
  let v20 : BitVec 1 := Scalar.cmpi .ne arg0 c0_i32_10
  let v21 : BitVec 32 := Scalar.extui v20
  let c0_i32_11 : BitVec 32 := 0#32
  let v22 : BitVec 1 := Scalar.cmpi .ne v21 c0_i32_11
  v22

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S2000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S2000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x256 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x256 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S2000x256 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![25], ![false]⟩

def k10_cond1 (i : grid10.Coords) : BitVec 1 :=
  let arg0 : BitVec 32 := BitVec.ofNat 32 (i 0).val
  let c0_i32 : BitVec 32 := 0#32
  let v17 : BitVec 1 := Scalar.cmpi .eq arg0 c0_i32
  let v18 : BitVec 32 := Scalar.extui v17
  let c0_i32_9 : BitVec 32 := 0#32
  let v19 : BitVec 1 := Scalar.cmpi .ne v18 c0_i32_9
  v19

def k10_cond2 (i : grid10.Coords) : BitVec 1 :=
  let arg0 : BitVec 32 := BitVec.ofNat 32 (i 0).val
  let c0_i32_10 : BitVec 32 := 0#32
  let v20 : BitVec 1 := Scalar.cmpi .ne arg0 c0_i32_10
  let v21 : BitVec 32 := Scalar.extui v20
  let c0_i32_11 : BitVec 32 := 0#32
  let v22 : BitVec 1 := Scalar.cmpi .ne v21 c0_i32_11
  v22

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S2000x256 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S2000x256 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S2000x1 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 2 → Memref sig .tc .vmem S2000x256 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev stage10_4 : Fin 1 → Memref sig .tc .vmem S1x256 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S1x256 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev grid11 : Pipeline.Grid := ⟨1, ![25], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x256 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x256 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x256 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x256 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x256 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S2000x256 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  shapeCasts_S50000_S50000x1 : S50000.ShapeCasts S50000x1
  shapeCasts_S128_S1x128 : S128.ShapeCasts S1x128
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  reduces_S2000x128_S128 : S2000x128.Reduces [0] S128
  bcast_S_S1x128 : S_.BroadcastsInDim S1x128 (![] : Fin 0 → Fin S1x128.rank)
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S2000x64_S2000x64 : S2000x64.ShapeCasts S2000x64
  broadcasts_S2000x1_S2000x64 : S2000x1.Broadcasts S2000x64
  reduces_S2000x64_S64 : S2000x64.Reduces [0] S64
  bcast_S_S1x64 : S_.BroadcastsInDim S1x64 (![] : Fin 0 → Fin S1x64.rank)
  inb_S64x128_S64x128_0_0 : ∀ a, (![0, 0] : Fin 2 → Nat) a + S64x128.size a ≤ S64x128.size a
  h_S64x128 : 0 < S64x128.numel
  shapeCasts_S256_S1x256 : S256.ShapeCasts S1x256
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S2000x256_S2000x256 : S2000x256.ShapeCasts S2000x256
  broadcasts_S2000x1_S2000x256 : S2000x1.Broadcasts S2000x256
  reduces_S2000x256_S256 : S2000x256.Reduces [0] S256
  bcast_S_S1x256 : S_.BroadcastsInDim S1x256 (![] : Fin 0 → Fin S1x256.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x64_S2000x64_1_0_0_1_n_n_wf : DotDims.WF S2000x128 S128x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x128_S2000x128_1_0_0_1_n_n_wf : DotDims.WF S2000x64 S64x128 S2000x128 [1] [0] [0] [1] [] []
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x64.size a ≤ S50000x64.size a
  hwx3_3 : ∀ i : grid3.Coords, EltTy.bits .f32 = 32 ∨ (Rect.block (s := S50000x64) S2000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x64.size a ≤ S50000x64.size a
  hwx4_1 : ∀ i : grid4.Coords, EltTy.bits .f32 = 32 ∨ (Rect.block (s := S50000x64) S2000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S50000x1.size a
  hwx4_2 : ∀ i : grid4.Coords, EltTy.bits .f32 = 32 ∨ (Rect.block (s := S50000x1) S2000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x64.size a ≤ S50000x64.size a
  hwx4_3 : ∀ i : grid4.Coords, EltTy.bits .f32 = 32 ∨ (Rect.block (s := S50000x64) S2000x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S50000x64.size a
  hwx5_0 : ∀ i : grid5.Coords, EltTy.bits .f32 = 32 ∨ (Rect.block (s := S50000x64) S2000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x64.size a ≤ S50000x64.size a
  hwx5_5 : ∀ i : grid5.Coords, EltTy.bits .f32 = 32 ∨ (Rect.block (s := S50000x64) S2000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S50000x64.size a
  hwx6_0 : ∀ i : grid6.Coords, EltTy.bits .f32 = 32 ∨ (Rect.block (s := S50000x64) S2000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x128.size a ≤ S64x128.size a
  hwx6_1 : ∀ i : grid6.Coords, EltTy.bits .f32 = 32 ∨ (Rect.block (s := S64x128) S64x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x128.size a ≤ S50000x128.size a
  hwx6_3 : ∀ i : grid6.Coords, EltTy.bits .f32 = 32 ∨ (Rect.block (s := S50000x128) S2000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x128.size a ≤ S50000x128.size a
  hwx7_1 : ∀ i : grid7.Coords, EltTy.bits .f32 = 32 ∨ (Rect.block (s := S50000x128) S2000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x1.size a ≤ S50000x1.size a
  hwx7_2 : ∀ i : grid7.Coords, EltTy.bits .f32 = 32 ∨ (Rect.block (s := S50000x1) S2000x1.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x128.size a ≤ S50000x128.size a
  hwx7_3 : ∀ i : grid7.Coords, EltTy.bits .f32 = 32 ∨ (Rect.block (s := S50000x128) S2000x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S50000x128.size a
  hwx8_0 : ∀ i : grid8.Coords, EltTy.bits .f32 = 32 ∨ (Rect.block (s := S50000x128) S2000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S2000x128.size a ≤ S50000x128.size a
  hwx8_5 : ∀ i : grid8.Coords, EltTy.bits .f32 = 32 ∨ (Rect.block (s := S50000x128) S2000x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S50000x128.size a
  hwx9_0 : ∀ i : grid9.Coords, EltTy.bits .f32 = 32 ∨ (Rect.block (s := S50000x128) S2000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x256.size a ≤ S128x256.size a
  hwx9_1 : ∀ i : grid9.Coords, EltTy.bits .f32 = 32 ∨ (Rect.block (s := S128x256) S128x256.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x256.size a ≤ S1x256.size a
  hwx9_2 : ∀ i : grid9.Coords, EltTy.bits .f32 = 32 ∨ (Rect.block (s := S1x256) S1x256.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S2000x256.size a ≤ S50000x256.size a
  hwx9_3 : ∀ i : grid9.Coords, EltTy.bits .f32 = 32 ∨ (Rect.block (s := S50000x256) S2000x256.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x256.size a ≤ S50000x256.size a
  hwx10_0 : ∀ i : grid10.Coords, EltTy.bits .f32 = 32 ∨ (Rect.block (s := S50000x256) S2000x256.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S2000x256.size a ≤ S50000x256.size a
  hwx10_1 : ∀ i : grid10.Coords, EltTy.bits .f32 = 32 ∨ (Rect.block (s := S50000x256) S2000x256.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S2000x1.size a ≤ S50000x1.size a
  hwx10_2 : ∀ i : grid10.Coords, EltTy.bits .f32 = 32 ∨ (Rect.block (s := S50000x1) S2000x1.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S2000x256.size a ≤ S50000x256.size a
  hwx10_3 : ∀ i : grid10.Coords, EltTy.bits .f32 = 32 ∨ (Rect.block (s := S50000x256) S2000x256.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x256.size a ≤ S1x256.size a
  hwx10_4 : ∀ i : grid10.Coords, EltTy.bits .f32 = 32 ∨ (Rect.block (s := S1x256) S1x256.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S1x256.size a ≤ S1x256.size a
  hwx10_5 : ∀ i : grid10.Coords, EltTy.bits .f32 = 32 ∨ (Rect.block (s := S1x256) S1x256.size (cc10_transform_5 i) (hinb10_5 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x256.size a ≤ S50000x256.size a
  hwx11_0 : ∀ i : grid11.Coords, EltTy.bits .f32 = 32 ∨ (Rect.block (s := S50000x256) S2000x256.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x256.size a ≤ S1x256.size a
  hwx11_1 : ∀ i : grid11.Coords, EltTy.bits .f32 = 32 ∨ (Rect.block (s := S1x256) S1x256.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x256.size a ≤ S1x256.size a
  hwx11_2 : ∀ i : grid11.Coords, EltTy.bits .f32 = 32 ∨ (Rect.block (s := S1x256) S1x256.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x256.size a ≤ S1x256.size a
  hwx11_3 : ∀ i : grid11.Coords, EltTy.bits .f32 = 32 ∨ (Rect.block (s := S1x256) S1x256.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x256.size a ≤ S1x256.size a
  hwx11_4 : ∀ i : grid11.Coords, EltTy.bits .f32 = 32 ∨ (Rect.block (s := S1x256) S1x256.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S2000x256.size a ≤ S50000x256.size a
  hwx11_5 : ∀ i : grid11.Coords, EltTy.bits .f32 = 32 ∨ (Rect.block (s := S50000x256) S2000x256.size (cc11_transform_5 i) (hinb11_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v47) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v48_0) S2000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v48_1) S1x128.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48_2) S1x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun i => !(k1_cond1 i == 1#1) && !(k1_cond2 i == 1#1) | 5 => fun i => !(k1_cond1 i == 1#1) && !(k1_cond2 i == 1#1) | ⟨_ + 6, h⟩ => absurd h (Nat.not_lt.2 (Nat.le_add_left _ _))

abbrev win2_0 : Pipeline.Window sig grid2 :=
  Pipeline.Window.ofSpec (Memref.whole main_v48_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v59) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v61) S2000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v74) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v61) S2000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v32) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v75_0) S2000x64.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v75_1) S1x64.size cc4_transform_4 reads4_4 true true 1 stage4_4 sem4_4
    hrank4 hreads4_4 hinb4_4 nbuf4_4 (Memref.isWhole_whole _) hwx4_4 hstage4_4

abbrev win4_5 : Pipeline.Window sig grid4 :=
  Pipeline.Window.ofSpec (Memref.whole main_v75_2) S1x64.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev idle4 : Fin 6 → grid4.Coords → Bool := fun | 0 => fun _ => false | 1 => fun _ => false | 2 => fun _ => false | 3 => fun _ => false | 4 => fun i => !(k4_cond1 i == 1#1) && !(k4_cond2 i == 1#1) | 5 => fun i => !(k4_cond1 i == 1#1) && !(k4_cond2 i == 1#1) | ⟨_ + 6, h⟩ => absurd h (Nat.not_lt.2 (Nat.le_add_left _ _))

abbrev win5_0 : Pipeline.Window sig grid5 :=
  Pipeline.Window.ofSpec (Memref.whole main_v75_0) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v77) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v83) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v84) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v85) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v86) S2000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v86) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S64x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v87) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v88) S2000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v101) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v88) S2000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v32) S2000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v102_0) S2000x128.size cc7_transform_3 reads7_3 true false 2 stage7_3 sem7_3
    hrank7 hreads7_3 hinb7_3 nbuf7_3 (Memref.isWhole_whole _) hwx7_3 hstage7_3

abbrev win7_4 : Pipeline.Window sig grid7 :=
  Pipeline.Window.ofSpec (Memref.whole main_v102_1) S1x128.size cc7_transform_4 reads7_4 true true 1 stage7_4 sem7_4
    hrank7 hreads7_4 hinb7_4 nbuf7_4 (Memref.isWhole_whole _) hwx7_4 hstage7_4

abbrev win7_5 : Pipeline.Window sig grid7 :=
  Pipeline.Window.ofSpec (Memref.whole main_v102_2) S1x128.size cc7_transform_5 reads7_5 true true 1 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev idle7 : Fin 6 → grid7.Coords → Bool := fun | 0 => fun _ => false | 1 => fun _ => false | 2 => fun _ => false | 3 => fun _ => false | 4 => fun i => !(k7_cond1 i == 1#1) && !(k7_cond2 i == 1#1) | 5 => fun i => !(k7_cond1 i == 1#1) && !(k7_cond2 i == 1#1) | ⟨_ + 6, h⟩ => absurd h (Nat.not_lt.2 (Nat.le_add_left _ _))

abbrev win8_0 : Pipeline.Window sig grid8 :=
  Pipeline.Window.ofSpec (Memref.whole main_v102_0) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v104) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v110) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v111) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v112) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v113) S2000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v113) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg14) S128x256.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v114) S1x256.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v115) S2000x256.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v128) S2000x256.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v115) S2000x256.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v32) S2000x1.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v129_0) S2000x256.size cc10_transform_3 reads10_3 true false 2 stage10_3 sem10_3
    hrank10 hreads10_3 hinb10_3 nbuf10_3 (Memref.isWhole_whole _) hwx10_3 hstage10_3

abbrev win10_4 : Pipeline.Window sig grid10 :=
  Pipeline.Window.ofSpec (Memref.whole main_v129_1) S1x256.size cc10_transform_4 reads10_4 true true 1 stage10_4 sem10_4
    hrank10 hreads10_4 hinb10_4 nbuf10_4 (Memref.isWhole_whole _) hwx10_4 hstage10_4

abbrev win10_5 : Pipeline.Window sig grid10 :=
  Pipeline.Window.ofSpec (Memref.whole main_v129_2) S1x256.size cc10_transform_5 reads10_5 true true 1 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

abbrev idle10 : Fin 6 → grid10.Coords → Bool := fun | 0 => fun _ => false | 1 => fun _ => false | 2 => fun _ => false | 3 => fun _ => false | 4 => fun i => !(k10_cond1 i == 1#1) && !(k10_cond2 i == 1#1) | 5 => fun i => !(k10_cond1 i == 1#1) && !(k10_cond2 i == 1#1) | ⟨_ + 6, h⟩ => absurd h (Nat.not_lt.2 (Nat.le_add_left _ _))

abbrev win11_0 : Pipeline.Window sig grid11 :=
  Pipeline.Window.ofSpec (Memref.whole main_v129_0) S2000x256.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v131) S1x256.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v137) S1x256.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v138) S1x256.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v139) S1x256.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v140) S2000x256.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x256 : Shape := ⟨2, ![128, 256]⟩
abbrev S256 : Shape := ⟨1, ![256]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x128 : Shape := ⟨2, ![50000, 128]⟩
abbrev S1x128 : Shape := ⟨2, ![1, 128]⟩
abbrev S800000x128 : Shape := ⟨2, ![800000, 128]⟩
abbrev S50000x1 : Shape := ⟨2, ![50000, 1]⟩
abbrev S50000x64 : Shape := ⟨2, ![50000, 64]⟩
abbrev S1x64 : Shape := ⟨2, ![1, 64]⟩
abbrev S800000x64 : Shape := ⟨2, ![800000, 64]⟩
abbrev S1x256 : Shape := ⟨2, ![1, 256]⟩
abbrev S800000x256 : Shape := ⟨2, ![800000, 256]⟩

abbrev nBuf : Space → Nat
  | .hbm => 293
  | .vmem => 0
  | .smem => 0
  | _ => 0

abbrev hbmTy0_0 (i : Nat) : BufTy := match i % 128 with
  | 0 => ⟨S50000x256, .f32⟩
  | 1 => ⟨S2x800000, .i32⟩
  | 2 => ⟨S256x128, .f32⟩
  | 3 => ⟨S128, .f32⟩
  | 4 => ⟨S128, .f32⟩
  | 5 => ⟨S128, .f32⟩
  | 6 => ⟨S128x64, .f32⟩
  | 7 => ⟨S64, .f32⟩
  | 8 => ⟨S64, .f32⟩
  | 9 => ⟨S64, .f32⟩
  | 10 => ⟨S64x128, .f32⟩
  | 11 => ⟨S128, .f32⟩
  | 12 => ⟨S128, .f32⟩
  | 13 => ⟨S128, .f32⟩
  | 14 => ⟨S128x256, .f32⟩
  | 15 => ⟨S256, .f32⟩
  | 16 => ⟨S256, .f32⟩
  | 17 => ⟨S256, .f32⟩
  | 18 => ⟨S1x800000, .i32⟩
  | 19 => ⟨S800000, .i32⟩
  | 20 => ⟨S1x800000, .i32⟩
  | 21 => ⟨S800000, .i32⟩
  | 22 => ⟨S_, .f32⟩
  | 23 => ⟨S50000, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S_, .f32⟩
  | 33 => ⟨S800000, .f32⟩
  | 34 => ⟨S50000, .f32⟩
  | 35 => ⟨S_, .f32⟩
  | 36 => ⟨S50000, .f32⟩
  | 37 => ⟨S50000, .f32⟩
  | 38 => ⟨S50000, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000, .f32⟩
  | 57 => ⟨S800000, .f32⟩
  | 58 => ⟨S50000, .f32⟩
  | 59 => ⟨S50000x128, .f32⟩
  | 60 => ⟨S1x128, .f32⟩
  | 61 => ⟨S50000x128, .f32⟩
  | 62 => ⟨S50000x128, .f32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S800000x128, .f32⟩
  | 72 => ⟨S800000x1, .f32⟩
  | 73 => ⟨S800000x128, .f32⟩
  | 74 => ⟨S800000x128, .f32⟩
  | 75 => ⟨S_, .f32⟩
  | 76 => ⟨S50000x128, .f32⟩
  | 77 => ⟨S800000x1, .i32⟩
  | 78 => ⟨S50000x128, .f32⟩
  | 79 => ⟨S50000x1, .f32⟩
  | 80 => ⟨S50000x128, .f32⟩
  | 81 => ⟨S50000x128, .f32⟩
  | 82 => ⟨S50000x128, .f32⟩
  | 83 => ⟨S_, .f32⟩
  | 84 => ⟨S50000x128, .f32⟩
  | 85 => ⟨S50000x128, .f32⟩
  | 86 => ⟨S_, .f32⟩
  | 87 => ⟨S128, .f32⟩
  | 88 => ⟨S_, .f32⟩
  | 89 => ⟨S128, .f32⟩
  | 90 => ⟨S128, .f32⟩
  | 91 => ⟨S1x128, .f32⟩
  | 92 => ⟨S50000x128, .f32⟩
  | 93 => ⟨S50000x128, .f32⟩
  | 94 => ⟨S50000x128, .f32⟩
  | 95 => ⟨S_, .f32⟩
  | 96 => ⟨S128, .f32⟩
  | 97 => ⟨S_, .f32⟩
  | 98 => ⟨S128, .f32⟩
  | 99 => ⟨S128, .f32⟩
  | 100 => ⟨S1x128, .f32⟩
  | 101 => ⟨S50000x128, .f32⟩
  | 102 => ⟨S50000x128, .f32⟩
  | 103 => ⟨S1x128, .f32⟩
  | 104 => ⟨S50000x128, .f32⟩
  | 105 => ⟨S50000x128, .f32⟩
  | 106 => ⟨S_, .f32⟩
  | 107 => ⟨S128, .f32⟩
  | 108 => ⟨S128, .f32⟩
  | 109 => ⟨S128, .f32⟩
  | 110 => ⟨S1x128, .f32⟩
  | 111 => ⟨S50000x128, .f32⟩
  | 112 => ⟨S50000x128, .f32⟩
  | 113 => ⟨S1x128, .f32⟩
  | 114 => ⟨S50000x128, .f32⟩
  | 115 => ⟨S50000x128, .f32⟩
  | 116 => ⟨S_, .f32⟩
  | 117 => ⟨S50000x128, .f32⟩
  | 118 => ⟨S50000x128, .f32⟩
  | 119 => ⟨S50000x64, .f32⟩
  | 120 => ⟨S1x64, .f32⟩
  | 121 => ⟨S50000x64, .f32⟩
  | 122 => ⟨S50000x64, .f32⟩
  | 123 => ⟨S_, .i32⟩
  | 124 => ⟨S800000, .i32⟩
  | 125 => ⟨S800000, .i1⟩
  | 126 => ⟨S_, .i32⟩
  | 127 => ⟨S800000, .i32⟩
  | _ => ⟨S50000x256, .f32⟩

abbrev hbmTy0_1 (i : Nat) : BufTy := match i % 128 with
  | 0 => ⟨S800000, .i32⟩
  | 1 => ⟨S800000, .i32⟩
  | 2 => ⟨S800000x1, .i32⟩
  | 3 => ⟨S800000x64, .f32⟩
  | 4 => ⟨S800000x1, .f32⟩
  | 5 => ⟨S800000x64, .f32⟩
  | 6 => ⟨S800000x64, .f32⟩
  | 7 => ⟨S_, .f32⟩
  | 8 => ⟨S50000x64, .f32⟩
  | 9 => ⟨S800000x1, .i32⟩
  | 10 => ⟨S50000x64, .f32⟩
  | 11 => ⟨S50000x1, .f32⟩
  | 12 => ⟨S50000x64, .f32⟩
  | 13 => ⟨S50000x64, .f32⟩
  | 14 => ⟨S50000x64, .f32⟩
  | 15 => ⟨S_, .f32⟩
  | 16 => ⟨S50000x64, .f32⟩
  | 17 => ⟨S50000x64, .f32⟩
  | 18 => ⟨S_, .f32⟩
  | 19 => ⟨S64, .f32⟩
  | 20 => ⟨S_, .f32⟩
  | 21 => ⟨S64, .f32⟩
  | 22 => ⟨S64, .f32⟩
  | 23 => ⟨S1x64, .f32⟩
  | 24 => ⟨S50000x64, .f32⟩
  | 25 => ⟨S50000x64, .f32⟩
  | 26 => ⟨S50000x64, .f32⟩
  | 27 => ⟨S_, .f32⟩
  | 28 => ⟨S64, .f32⟩
  | 29 => ⟨S_, .f32⟩
  | 30 => ⟨S64, .f32⟩
  | 31 => ⟨S64, .f32⟩
  | 32 => ⟨S1x64, .f32⟩
  | 33 => ⟨S50000x64, .f32⟩
  | 34 => ⟨S50000x64, .f32⟩
  | 35 => ⟨S1x64, .f32⟩
  | 36 => ⟨S50000x64, .f32⟩
  | 37 => ⟨S50000x64, .f32⟩
  | 38 => ⟨S_, .f32⟩
  | 39 => ⟨S64, .f32⟩
  | 40 => ⟨S64, .f32⟩
  | 41 => ⟨S64, .f32⟩
  | 42 => ⟨S1x64, .f32⟩
  | 43 => ⟨S50000x64, .f32⟩
  | 44 => ⟨S50000x64, .f32⟩
  | 45 => ⟨S1x64, .f32⟩
  | 46 => ⟨S50000x64, .f32⟩
  | 47 => ⟨S50000x64, .f32⟩
  | 48 => ⟨S50000x128, .f32⟩
  | 49 => ⟨S1x128, .f32⟩
  | 50 => ⟨S50000x128, .f32⟩
  | 51 => ⟨S50000x128, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x128, .f32⟩
  | 61 => ⟨S800000x1, .f32⟩
  | 62 => ⟨S800000x128, .f32⟩
  | 63 => ⟨S800000x128, .f32⟩
  | 64 => ⟨S_, .f32⟩
  | 65 => ⟨S50000x128, .f32⟩
  | 66 => ⟨S800000x1, .i32⟩
  | 67 => ⟨S50000x128, .f32⟩
  | 68 => ⟨S50000x1, .f32⟩
  | 69 => ⟨S50000x128, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S_, .f32⟩
  | 76 => ⟨S128, .f32⟩
  | 77 => ⟨S_, .f32⟩
  | 78 => ⟨S128, .f32⟩
  | 79 => ⟨S128, .f32⟩
  | 80 => ⟨S1x128, .f32⟩
  | 81 => ⟨S50000x128, .f32⟩
  | 82 => ⟨S50000x128, .f32⟩
  | 83 => ⟨S50000x128, .f32⟩
  | 84 => ⟨S_, .f32⟩
  | 85 => ⟨S128, .f32⟩
  | 86 => ⟨S_, .f32⟩
  | 87 => ⟨S128, .f32⟩
  | 88 => ⟨S128, .f32⟩
  | 89 => ⟨S1x128, .f32⟩
  | 90 => ⟨S50000x128, .f32⟩
  | 91 => ⟨S50000x128, .f32⟩
  | 92 => ⟨S1x128, .f32⟩
  | 93 => ⟨S50000x128, .f32⟩
  | 94 => ⟨S50000x128, .f32⟩
  | 95 => ⟨S_, .f32⟩
  | 96 => ⟨S128, .f32⟩
  | 97 => ⟨S128, .f32⟩
  | 98 => ⟨S128, .f32⟩
  | 99 => ⟨S1x128, .f32⟩
  | 100 => ⟨S50000x128, .f32⟩
  | 101 => ⟨S50000x128, .f32⟩
  | 102 => ⟨S1x128, .f32⟩
  | 103 => ⟨S50000x128, .f32⟩
  | 104 => ⟨S50000x128, .f32⟩
  | 105 => ⟨S_, .f32⟩
  | 106 => ⟨S50000x128, .f32⟩
  | 107 => ⟨S50000x128, .f32⟩
  | 108 => ⟨S50000x256, .f32⟩
  | 109 => ⟨S1x256, .f32⟩
  | 110 => ⟨S50000x256, .f32⟩
  | 111 => ⟨S50000x256, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000x256, .f32⟩
  | 121 => ⟨S800000x1, .f32⟩
  | 122 => ⟨S800000x256, .f32⟩
  | 123 => ⟨S800000x256, .f32⟩
  | 124 => ⟨S_, .f32⟩
  | 125 => ⟨S50000x256, .f32⟩
  | 126 => ⟨S800000x1, .i32⟩
  | 127 => ⟨S50000x256, .f32⟩
  | _ => ⟨S50000x256, .f32⟩

abbrev hbmTy0_2 (i : Nat) : BufTy := match i % 128 with
  | 0 => ⟨S50000x1, .f32⟩
  | 1 => ⟨S50000x256, .f32⟩
  | 2 => ⟨S50000x256, .f32⟩
  | 3 => ⟨S50000x256, .f32⟩
  | 4 => ⟨S_, .f32⟩
  | 5 => ⟨S50000x256, .f32⟩
  | 6 => ⟨S50000x256, .f32⟩
  | 7 => ⟨S_, .f32⟩
  | 8 => ⟨S256, .f32⟩
  | 9 => ⟨S_, .f32⟩
  | 10 => ⟨S256, .f32⟩
  | 11 => ⟨S256, .f32⟩
  | 12 => ⟨S1x256, .f32⟩
  | 13 => ⟨S50000x256, .f32⟩
  | 14 => ⟨S50000x256, .f32⟩
  | 15 => ⟨S50000x256, .f32⟩
  | 16 => ⟨S_, .f32⟩
  | 17 => ⟨S256, .f32⟩
  | 18 => ⟨S_, .f32⟩
  | 19 => ⟨S256, .f32⟩
  | 20 => ⟨S256, .f32⟩
  | 21 => ⟨S1x256, .f32⟩
  | 22 => ⟨S50000x256, .f32⟩
  | 23 => ⟨S50000x256, .f32⟩
  | 24 => ⟨S1x256, .f32⟩
  | 25 => ⟨S50000x256, .f32⟩
  | 26 => ⟨S50000x256, .f32⟩
  | 27 => ⟨S_, .f32⟩
  | 28 => ⟨S256, .f32⟩
  | 29 => ⟨S256, .f32⟩
  | 30 => ⟨S256, .f32⟩
  | 31 => ⟨S1x256, .f32⟩
  | 32 => ⟨S50000x256, .f32⟩
  | 33 => ⟨S50000x256, .f32⟩
  | 34 => ⟨S1x256, .f32⟩
  | 35 => ⟨S50000x256, .f32⟩
  | 36 => ⟨S50000x256, .f32⟩
  | _ => ⟨S50000x256, .f32⟩

abbrev hbmTy (i : Nat) : BufTy := match i / 128 with
  | 0 => hbmTy0_0 i
  | 1 => hbmTy0_1 i
  | 2 => hbmTy0_2 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_c : Ref sig .tc := ⟨.hbm, 24, rfl⟩
abbrev main_v5 : Ref sig .tc := ⟨.hbm, 25, rfl⟩
abbrev main_v6 : Ref sig .tc := ⟨.hbm, 26, rfl⟩
abbrev main_c_0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_1 : Ref sig .tc := ⟨.hbm, 32, rfl⟩
abbrev main_v11 : Ref sig .tc := ⟨.hbm, 33, rfl⟩
abbrev main_v12 : Ref sig .tc := ⟨.hbm, 34, rfl⟩
abbrev main_cst_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_c_3 : Ref sig .tc := ⟨.hbm, 39, rfl⟩
abbrev main_v16 : Ref sig .tc := ⟨.hbm, 40, rfl⟩
abbrev main_v17 : Ref sig .tc := ⟨.hbm, 41, rfl⟩
abbrev main_c_4 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_c_5 : Ref sig .tc := ⟨.hbm, 48, rfl⟩
abbrev main_v23 : Ref sig .tc := ⟨.hbm, 49, rfl⟩
abbrev main_v24 : Ref sig .tc := ⟨.hbm, 50, rfl⟩
abbrev main_c_6 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_c_7 : Ref sig .tc := ⟨.hbm, 63, rfl⟩
abbrev main_v36 : Ref sig .tc := ⟨.hbm, 64, rfl⟩
abbrev main_v37 : Ref sig .tc := ⟨.hbm, 65, rfl⟩
abbrev main_c_8 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_9 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_call0_cst : Ref sig .tc := ⟨.hbm, 83, rfl⟩
abbrev main_call0_v0 : Ref sig .tc := ⟨.hbm, 84, rfl⟩
abbrev main_v53 : Ref sig .tc := ⟨.hbm, 85, rfl⟩
abbrev main_cst_10 : Ref sig .tc := ⟨.hbm, 86, rfl⟩
abbrev main_v54 : Ref sig .tc := ⟨.hbm, 87, rfl⟩
abbrev main_cst_11 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_12 : Ref sig .tc := ⟨.hbm, 95, rfl⟩
abbrev main_v61 : Ref sig .tc := ⟨.hbm, 96, rfl⟩
abbrev main_cst_13 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_14 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_call1_cst : Ref sig .tc := ⟨.hbm, 116, rfl⟩
abbrev main_call1_v0 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_c_15 : Ref sig .tc := ⟨.hbm, 123, rfl⟩
abbrev main_v84 : Ref sig .tc := ⟨.hbm, 124, rfl⟩
abbrev main_v85 : Ref sig .tc := ⟨.hbm, 125, rfl⟩
abbrev main_c_16 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_cst_17 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_call2_cst : Ref sig .tc := ⟨.hbm, 143, rfl⟩
abbrev main_call2_v0 : Ref sig .tc := ⟨.hbm, 144, rfl⟩
abbrev main_v101 : Ref sig .tc := ⟨.hbm, 145, rfl⟩
abbrev main_cst_18 : Ref sig .tc := ⟨.hbm, 146, rfl⟩
abbrev main_v102 : Ref sig .tc := ⟨.hbm, 147, rfl⟩
abbrev main_cst_19 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_cst_20 : Ref sig .tc := ⟨.hbm, 155, rfl⟩
abbrev main_v109 : Ref sig .tc := ⟨.hbm, 156, rfl⟩
abbrev main_cst_21 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_cst_22 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_c_23 : Ref sig .tc := ⟨.hbm, 180, rfl⟩
abbrev main_v131 : Ref sig .tc := ⟨.hbm, 181, rfl⟩
abbrev main_v132 : Ref sig .tc := ⟨.hbm, 182, rfl⟩
abbrev main_c_24 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_cst_25 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_call3_cst : Ref sig .tc := ⟨.hbm, 200, rfl⟩
abbrev main_call3_v0 : Ref sig .tc := ⟨.hbm, 201, rfl⟩
abbrev main_v148 : Ref sig .tc := ⟨.hbm, 202, rfl⟩
abbrev main_cst_26 : Ref sig .tc := ⟨.hbm, 203, rfl⟩
abbrev main_v149 : Ref sig .tc := ⟨.hbm, 204, rfl⟩
abbrev main_cst_27 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_cst_28 : Ref sig .tc := ⟨.hbm, 212, rfl⟩
abbrev main_v156 : Ref sig .tc := ⟨.hbm, 213, rfl⟩
abbrev main_cst_29 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_cst_30 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_call4_cst : Ref sig .tc := ⟨.hbm, 233, rfl⟩
abbrev main_call4_v0 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_c_31 : Ref sig .tc := ⟨.hbm, 240, rfl⟩
abbrev main_v179 : Ref sig .tc := ⟨.hbm, 241, rfl⟩
abbrev main_v180 : Ref sig .tc := ⟨.hbm, 242, rfl⟩
abbrev main_c_32 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_cst_33 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_v195 : Ref sig .tc := ⟨.hbm, 259, rfl⟩
abbrev main_call5_cst : Ref sig .tc := ⟨.hbm, 260, rfl⟩
abbrev main_call5_v0 : Ref sig .tc := ⟨.hbm, 261, rfl⟩
abbrev main_v196 : Ref sig .tc := ⟨.hbm, 262, rfl⟩
abbrev main_cst_34 : Ref sig .tc := ⟨.hbm, 263, rfl⟩
abbrev main_v197 : Ref sig .tc := ⟨.hbm, 264, rfl⟩
abbrev main_cst_35 : Ref sig .tc := ⟨.hbm, 265, rfl⟩
abbrev main_v198 : Ref sig .tc := ⟨.hbm, 266, rfl⟩
abbrev main_v199 : Ref sig .tc := ⟨.hbm, 267, rfl⟩
abbrev main_v200 : Ref sig .tc := ⟨.hbm, 268, rfl⟩
abbrev main_v201 : Ref sig .tc := ⟨.hbm, 269, rfl⟩
abbrev main_v202 : Ref sig .tc := ⟨.hbm, 270, rfl⟩
abbrev main_v203 : Ref sig .tc := ⟨.hbm, 271, rfl⟩
abbrev main_cst_36 : Ref sig .tc := ⟨.hbm, 272, rfl⟩
abbrev main_v204 : Ref sig .tc := ⟨.hbm, 273, rfl⟩
abbrev main_cst_37 : Ref sig .tc := ⟨.hbm, 274, rfl⟩
abbrev main_v205 : Ref sig .tc := ⟨.hbm, 275, rfl⟩
abbrev main_v206 : Ref sig .tc := ⟨.hbm, 276, rfl⟩
abbrev main_v207 : Ref sig .tc := ⟨.hbm, 277, rfl⟩
abbrev main_v208 : Ref sig .tc := ⟨.hbm, 278, rfl⟩
abbrev main_v209 : Ref sig .tc := ⟨.hbm, 279, rfl⟩
abbrev main_v210 : Ref sig .tc := ⟨.hbm, 280, rfl⟩
abbrev main_v211 : Ref sig .tc := ⟨.hbm, 281, rfl⟩
abbrev main_v212 : Ref sig .tc := ⟨.hbm, 282, rfl⟩
abbrev main_cst_38 : Ref sig .tc := ⟨.hbm, 283, rfl⟩
abbrev main_v213 : Ref sig .tc := ⟨.hbm, 284, rfl⟩
abbrev main_v214 : Ref sig .tc := ⟨.hbm, 285, rfl⟩
abbrev main_v215 : Ref sig .tc := ⟨.hbm, 286, rfl⟩
abbrev main_v216 : Ref sig .tc := ⟨.hbm, 287, rfl⟩
abbrev main_v217 : Ref sig .tc := ⟨.hbm, 288, rfl⟩
abbrev main_v218 : Ref sig .tc := ⟨.hbm, 289, rfl⟩
abbrev main_v219 : Ref sig .tc := ⟨.hbm, 290, rfl⟩
abbrev main_v220 : Ref sig .tc := ⟨.hbm, 291, rfl⟩
abbrev main_v221 : Ref sig .tc := ⟨.hbm, 292, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  reducesTo_S50000x64_S64_d0 : S50000x64.ReducesTo [0] S64
  bcast_S_S64 : S_.BroadcastsInDim S64 (![] : Fin 0 → Fin S64.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  reducesTo_S50000x256_S256_d0 : S50000x256.ReducesTo [0] S256
  bcast_S_S256 : S_.BroadcastsInDim S256 (![] : Fin 0 → Fin S256.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x128_S50000x128_1_0_0_1_n_n_wf : DotDims.WF S50000x64 S64x128 S50000x128 [1] [0] [0] [1] [] []
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

class Facts : Prop extends Facts₀ where

variable [Facts]
-- ==== Proof.KLin0.lean ====
import proofs.«165059_j7095285973648_2_alg».proof.Proof.Gen.Kernel.Launch
import proofs.«165059_j7095285973648_2_alg».proof.Proof.Gen.Kernel.Skeleton
import proofs.«165059_j7095285973648_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the dense layer of a row block, `x·W + b` with `x` a block of 2000 rows, `W` whole (256×128) and `b` a row of 128

The region reads each input window's block whole, computes one value of the output block's shape from
them, and stores it over the whole output block. So after the body at a grid point every input buffer still
holds its block and the output buffer holds that value; nothing is carried from one point to the next. -/

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds the window's block at every point, whether the point fetched it or the
    block index had not moved since the point that did. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's buffer holds the window's block at every point, whether the point fetched it or the
    block index had not moved since the point that did. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's buffer holds the window's block at every point, whether the point fetched it or the
    block index had not moved since the point that did. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole output block as a rectangle. -/
abbrev r0_o : Rect S2000x128 := Rect.unit (s := S2000x128) ![0, 0] S2000x128.size inb_S2000x128_S2000x128_0_0

/-- What the body leaves in the output window's buffer, from the input blocks: its one store. -/
def out0 (x0 : Vec F S2000x256 .f32) (x1 : Vec F S256x128 .f32) (x2 : Vec F S1x128 .f32) : Vec F S2000x128 .f32 :=
  View.canon [⟨r0_o, k0_pay1 (View.ld x0 (Rect.unit (s := S2000x256) ![0, 0] S2000x256.size inb_S2000x256_S2000x256_0_0)) (View.ld x1 (Rect.unit (s := S256x128) ![0, 0] S256x128.size inb_S256x128_S256x128_0_0)) (View.ld x2 (Rect.unit (s := S1x128) ![0, 0] S1x128.size inb_S1x128_S1x128_0_0))⟩]

/-- The one store covers the output block. -/
theorem cover0 (p0 : Vec F S2000x128 .f32) (y : S2000x128.Idx) :
    ∃ pc ∈ ([⟨r0_o, p0⟩] : List (View.Piece (Elt F) S2000x128 .f32)), y ∈ pc.1.set :=
  View.cover_of_tiled [⟨r0_o, p0⟩] S2000x128.size (by rfl) y

set_option maxHeartbeats 1000000 in
/-- The body on whole buffers: the inputs' at contents `x_w`, the output's at anything; it ends with the inputs'
    unchanged and the output's at `out0` of them. -/
theorem sound_kernel0 (c : Dev nD) (E : Set ℕ) (i : grid0.Coords) (arg1 : Memref sig .tc .vmem S2000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S2000x128 .f32) (harg4 : arg4.IsWhole)
    (x0 : Vec F S2000x256 .f32) (x1 : Vec F S256x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-- The region's proof data on core `c`: the arrays as the region finds them; after the body at point `t` each
    input buffer at its block and the output buffer at `out0` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is entered with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so `sound_kernel0` applies; the invariant and what
    the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region, at every point. -/
theorem body_obligation0 (c : Dev nD) : BodyObligation (dat0 (F := F) V c) (defs₀ (F := F)) Variants.none () Set.univ := fun t => by
  rw [bigSep_W0, bigSep_W0]
  exact sound_body0 V c t

end Cert.Kernel.Gen

end
-- ==== Proof.KCombDat1.lean ====
import proofs.«165059_j7095285973648_2_alg».proof.Proof.Gen.Kernel.Launch
import proofs.«165059_j7095285973648_2_alg».proof.Proof.Gen.Kernel.Skeleton
import proofs.«165059_j7095285973648_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: a row block's combine–rectify step and its column statistics

At a grid point the region reads a block of 2000 rows of the aggregated messages, the same rows of the dense
layer's output and the rows' self weights (one column), and forms `y = max(agg + h * dself, 0)` row by row. It
stores `y` over its whole output block. Two more outputs, one row each, accumulate over the grid the column
sums of `y` and of `y * y`: the first grid point stores the block's own column sums, every later point adds
the block's column sums to what the point before left. Those two windows are written back only after the last
point, so between points their buffers keep what the body left. -/

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole block of 2000 rows as a rectangle. -/
abbrev r1_y : Rect S2000x128 := Rect.unit (s := S2000x128) ![0, 0] S2000x128.size inb_S2000x128_S2000x128_0_0
/-- The whole one-column block of the self weights as a rectangle. -/
abbrev r1_d : Rect S2000x1 := Rect.unit (s := S2000x1) ![0, 0] S2000x1.size inb_S2000x1_S2000x1_0_0
/-- The whole one-row block of a column statistic as a rectangle. -/
abbrev r1_s : Rect S1x128 := Rect.unit (s := S1x128) ![0, 0] S1x128.size inb_S1x128_S1x128_0_0

/-- What the body leaves in the buffer of `y`, from the three input blocks: its one store. -/
def out1_3 (x0 : Vec F S2000x128 .f32) (x1 : Vec F S2000x128 .f32) (x2 : Vec F S2000x1 .f32) : Vec F S2000x128 .f32 :=
  View.canon [⟨r1_y, k1_pay1 (View.ld x0 r1_y) (View.ld x1 r1_y) (View.ld x2 r1_d)⟩]

/-- What the FIRST grid point leaves in the buffer of the column sums of `y`: the block's own column sums. -/
def out1_4_first (x0 : Vec F S2000x128 .f32) (x1 : Vec F S2000x128 .f32) (x2 : Vec F S2000x1 .f32) : Vec F S1x128 .f32 :=
  View.canon [⟨r1_s, k1_pay2 (View.ld x0 r1_y) (View.ld x1 r1_y) (View.ld x2 r1_d)⟩]

/-- What the FIRST grid point leaves in the buffer of the column sums of `y * y`: the block's own. -/
def out1_5_first (x0 : Vec F S2000x128 .f32) (x1 : Vec F S2000x128 .f32) (x2 : Vec F S2000x1 .f32) : Vec F S1x128 .f32 :=
  View.canon [⟨r1_s, k1_pay3 (View.ld x0 r1_y) (View.ld x1 r1_y) (View.ld x2 r1_d)⟩]

/-- What a LATER grid point leaves in the buffer of the column sums of `y`, which it found at `a`: `a` plus the
    block's column sums. -/
def out1_4_next (x0 : Vec F S2000x128 .f32) (x1 : Vec F S2000x128 .f32) (x2 : Vec F S2000x1 .f32) (a : Vec F S1x128 .f32) : Vec F S1x128 .f32 :=
  View.canon [⟨r1_s, k1_pay4 (View.ld x0 r1_y) (View.ld x1 r1_y) (View.ld x2 r1_d) (View.ld a r1_s)⟩]

/-- What a LATER grid point leaves in the buffer of the column sums of `y * y`, which it found at `a`. -/
def out1_5_next (x0 : Vec F S2000x128 .f32) (x1 : Vec F S2000x128 .f32) (x2 : Vec F S2000x1 .f32) (a : Vec F S1x128 .f32) : Vec F S1x128 .f32 :=
  View.canon [⟨r1_s, k1_pay5 (View.ld x0 r1_y) (View.ld x1 r1_y) (View.ld x2 r1_d) (View.ld a r1_s)⟩]

/-- The running column sums of `y` after grid point `n`: the first point's own, then each point's added to what
    the point before left. -/
def acc1_4 (c : Dev nD) : (n : ℕ) → n < cfg1.N → Vec F S1x128 .f32
  | 0, hn => out1_4_first (iblk1 V c 0 ⟨0, hn⟩) (iblk1 V c 1 ⟨0, hn⟩) (iblk1 V c 2 ⟨0, hn⟩)
  | n + 1, hn => out1_4_next (iblk1 V c 0 ⟨n + 1, hn⟩) (iblk1 V c 1 ⟨n + 1, hn⟩) (iblk1 V c 2 ⟨n + 1, hn⟩)
      (acc1_4 c n (Nat.lt_of_succ_lt hn))

/-- The running column sums of `y * y` after grid point `n`, likewise. -/
def acc1_5 (c : Dev nD) : (n : ℕ) → n < cfg1.N → Vec F S1x128 .f32
  | 0, hn => out1_5_first (iblk1 V c 0 ⟨0, hn⟩) (iblk1 V c 1 ⟨0, hn⟩) (iblk1 V c 2 ⟨0, hn⟩)
  | n + 1, hn => out1_5_next (iblk1 V c 0 ⟨n + 1, hn⟩) (iblk1 V c 1 ⟨n + 1, hn⟩) (iblk1 V c 2 ⟨n + 1, hn⟩)
      (acc1_5 c n (Nat.lt_of_succ_lt hn))

/-- The recursion's two equations, for the sums of `y`, -/
theorem acc1_4_zero (c : Dev nD) (hn : 0 < cfg1.N) :
    acc1_4 V c 0 hn = out1_4_first (iblk1 V c 0 ⟨0, hn⟩) (iblk1 V c 1 ⟨0, hn⟩) (iblk1 V c 2 ⟨0, hn⟩) := rfl
theorem acc1_4_succ (c : Dev nD) (n : ℕ) (hn : n + 1 < cfg1.N) :
    acc1_4 V c (n + 1) hn = out1_4_next (iblk1 V c 0 ⟨n + 1, hn⟩) (iblk1 V c 1 ⟨n + 1, hn⟩) (iblk1 V c 2 ⟨n + 1, hn⟩)
      (acc1_4 V c n (Nat.lt_of_succ_lt hn)) := rfl
/-- and for the sums of `y * y`. -/
theorem acc1_5_zero (c : Dev nD) (hn : 0 < cfg1.N) :
    acc1_5 V c 0 hn = out1_5_first (iblk1 V c 0 ⟨0, hn⟩) (iblk1 V c 1 ⟨0, hn⟩) (iblk1 V c 2 ⟨0, hn⟩) := rfl
theorem acc1_5_succ (c : Dev nD) (n : ℕ) (hn : n + 1 < cfg1.N) :
    acc1_5 V c (n + 1) hn = out1_5_next (iblk1 V c 0 ⟨n + 1, hn⟩) (iblk1 V c 1 ⟨n + 1, hn⟩) (iblk1 V c 2 ⟨n + 1, hn⟩)
      (acc1_5 V c n (Nat.lt_of_succ_lt hn)) := rfl

/-- The region's proof data on core `c`: the arrays as the region finds them; after the body at point `t` each
    input buffer at its block, the buffer of `y` at `out1_3` of the input blocks, and the two accumulators'
    buffers at the running sums up to `t`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => acc1_4 V c t.val t.isLt
    | ⟨5, _⟩ => acc1_5 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = acc1_4 V c t.val t.isLt := by dsimp only [dat1]
theorem after1_5 (c : Dev nD) (t : Fin cfg1.N) : (dat1 V c).after 5 t = acc1_5 V c t.val t.isLt := by dsimp only [dat1]

end Cert.Kernel.Gen

end
-- ==== Proof.KBn2.lean ====
import proofs.«165059_j7095285973648_2_alg».proof.Proof.Gen.Kernel.Launch
import proofs.«165059_j7095285973648_2_alg».proof.Proof.Gen.Kernel.Skeleton
import proofs.«165059_j7095285973648_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the batch-norm affine map of a row block, `g·(y − mean)·rsqrt(var + ε) + b` followed by a maximum with zero, with `y` a block of 2000 rows and `mean`, `var`, `g`, `b` rows of 128

The region reads each input window's block whole, computes one value of the output block's shape from
them, and stores it over the whole output block. So after the body at a grid point every input buffer still
holds its block and the output buffer holds that value; nothing is carried from one point to the next. -/

/-- Window `w`'s block at grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's buffer holds the window's block at every point, whether the point fetched it or the
    block index had not moved since the point that did. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's buffer holds the window's block at every point, whether the point fetched it or the
    block index had not moved since the point that did. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An input window's buffer holds the window's block at every point, whether the point fetched it or the
    block index had not moved since the point that did. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- An input window's buffer holds the window's block at every point, whether the point fetched it or the
    block index had not moved since the point that did. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- An input window's buffer holds the window's block at every point, whether the point fetched it or the
    block index had not moved since the point that did. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The whole output block as a rectangle. -/
abbrev r2_o : Rect S2000x128 := Rect.unit (s := S2000x128) ![0, 0] S2000x128.size inb_S2000x128_S2000x128_0_0

/-- What the body leaves in the output window's buffer, from the input blocks: its one store. -/
def out2 (x0 : Vec F S2000x128 .f32) (x1 : Vec F S1x128 .f32) (x2 : Vec F S1x128 .f32) (x3 : Vec F S1x128 .f32) (x4 : Vec F S1x128 .f32) : Vec F S2000x128 .f32 :=
  View.canon [⟨r2_o, k2_pay1 (View.ld x0 (Rect.unit (s := S2000x128) ![0, 0] S2000x128.size inb_S2000x128_S2000x128_0_0)) (View.ld x1 (Rect.unit (s := S1x128) ![0, 0] S1x128.size inb_S1x128_S1x128_0_0)) (View.ld x2 (Rect.unit (s := S1x128) ![0, 0] S1x128.size inb_S1x128_S1x128_0_0)) (View.ld x3 (Rect.unit (s := S1x128) ![0, 0] S1x128.size inb_S1x128_S1x128_0_0)) (View.ld x4 (Rect.unit (s := S1x128) ![0, 0] S1x128.size inb_S1x128_S1x128_0_0))⟩]

/-- The one store covers the output block. -/
theorem cover2 (p0 : Vec F S2000x128 .f32) (y : S2000x128.Idx) :
    ∃ pc ∈ ([⟨r2_o, p0⟩] : List (View.Piece (Elt F) S2000x128 .f32)), y ∈ pc.1.set :=
  View.cover_of_tiled [⟨r2_o, p0⟩] S2000x128.size (by rfl) y

set_option maxHeartbeats 1000000 in
/-- The body on whole buffers: the inputs' at contents `x_w`, the output's at anything; it ends with the inputs'
    unchanged and the output's at `out2` of them. -/
theorem sound_kernel2 (c : Dev nD) (E : Set ℕ) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2 x0 x1 x2 x3 x4)) -∗ K ⟨⟩))
      ⊢ wp frame (wpE (defs₀ (F := F)) Variants.none c none) E (cc2__bn_apply_kernel i arg1 harg1 arg2 harg2 arg3 harg3 arg4 harg4 arg5 harg5 arg6 harg6) K := by
  simp only [cc2__bn_apply_kernel_eq_skeleton]; unfold cc2__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2 _)

/-- The region's proof data on core `c`: the arrays as the region finds them; after the body at point `t` each
    input buffer at its block and the output buffer at `out2` of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is entered with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the input buffers hold their blocks, so `sound_kernel2` applies; the invariant and what
    the core owes pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region, at every point. -/
theorem body_obligation2 (c : Dev nD) : BodyObligation (dat2 (F := F) V c) (defs₀ (F := F)) Variants.none () Set.univ := fun t => by
  rw [bigSep_W2, bigSep_W2]
  exact sound_body2 V c t

end Cert.Kernel.Gen

end
-- ==== Proof.KLin3.lean ====
import proofs.«165059_j7095285973648_2_alg».proof.Proof.Gen.Kernel.Launch
import proofs.«165059_j7095285973648_2_alg».proof.Proof.Gen.Kernel.Skeleton
import proofs.«165059_j7095285973648_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: the dense layer of a row block, `x·W + b` with `x` a block of 2000 rows, `W` whole (128×64) and `b` a row of 64

The region reads each input window's block whole, computes one value of the output block's shape from
them, and stores it over the whole output block. So after the body at a grid point every input buffer still
holds its block and the output buffer holds that value; nothing is carried from one point to the next. -/

/-- Window `w`'s block at grid point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's buffer holds the window's block at every point, whether the point fetched it or the
    block index had not moved since the point that did. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- An input window's buffer holds the window's block at every point, whether the point fetched it or the
    block index had not moved since the point that did. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- An input window's buffer holds the window's block at every point, whether the point fetched it or the
    block index had not moved since the point that did. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole output block as a rectangle. -/
abbrev r3_o : Rect S2000x64 := Rect.unit (s := S2000x64) ![0, 0] S2000x64.size inb_S2000x64_S2000x64_0_0

/-- What the body leaves in the output window's buffer, from the input blocks: its one store. -/
def out3 (x0 : Vec F S2000x128 .f32) (x1 : Vec F S128x64 .f32) (x2 : Vec F S1x64 .f32) : Vec F S2000x64 .f32 :=
  View.canon [⟨r3_o, k3_pay1 (View.ld x0 (Rect.unit (s := S2000x128) ![0, 0] S2000x128.size inb_S2000x128_S2000x128_0_0)) (View.ld x1 (Rect.unit (s := S128x64) ![0, 0] S128x64.size inb_S128x64_S128x64_0_0)) (View.ld x2 (Rect.unit (s := S1x64) ![0, 0] S1x64.size inb_S1x64_S1x64_0_0))⟩]

/-- The one store covers the output block. -/
theorem cover3 (p0 : Vec F S2000x64 .f32) (y : S2000x64.Idx) :
    ∃ pc ∈ ([⟨r3_o, p0⟩] : List (View.Piece (Elt F) S2000x64 .f32)), y ∈ pc.1.set :=
  View.cover_of_tiled [⟨r3_o, p0⟩] S2000x64.size (by rfl) y

set_option maxHeartbeats 1000000 in
/-- The body on whole buffers: the inputs' at contents `x_w`, the output's at anything; it ends with the inputs'
    unchanged and the output's at `out3` of them. -/
theorem sound_kernel3 (c : Dev nD) (E : Set ℕ) (i : grid3.Coords) (arg1 : Memref sig .tc .vmem S2000x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S2000x64 .f32) (harg4 : arg4.IsWhole)
    (x0 : Vec F S2000x128 .f32) (x1 : Vec F S128x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3 x0 x1 x2)) -∗ K ⟨⟩))
      ⊢ wp frame (wpE (defs₀ (F := F)) Variants.none c none) E (cc3__linear_kernel i arg1 harg1 arg2 harg2 arg3 harg3 arg4 harg4) K := by
  simp only [cc3__linear_kernel_eq_skeleton]; unfold cc3__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-- The region's proof data on core `c`: the arrays as the region finds them; after the body at point `t` each
    input buffer at its block and the output buffer at `out3` of the input blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is entered with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the input buffers hold their blocks, so `sound_kernel3` applies; the invariant and what
    the core owes pass through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region, at every point. -/
theorem body_obligation3 (c : Dev nD) : BodyObligation (dat3 (F := F) V c) (defs₀ (F := F)) Variants.none () Set.univ := fun t => by
  rw [bigSep_W3, bigSep_W3]
  exact sound_body3 V c t

end Cert.Kernel.Gen

end
-- ==== Proof.KCombDat4.lean ====
import proofs.«165059_j7095285973648_2_alg».proof.Proof.Gen.Kernel.Launch
import proofs.«165059_j7095285973648_2_alg».proof.Proof.Gen.Kernel.Skeleton
import proofs.«165059_j7095285973648_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4: a row block's combine–rectify step and its column statistics

At a grid point the region reads a block of 2000 rows of the aggregated messages, the same rows of the dense
layer's output and the rows' self weights (one column), and forms `y = max(agg + h * dself, 0)` row by row. It
stores `y` over its whole output block. Two more outputs, one row each, accumulate over the grid the column
sums of `y` and of `y * y`: the first grid point stores the block's own column sums, every later point adds
the block's column sums to what the point before left. Those two windows are written back only after the last
point, so between points their buffers keep what the body left. -/

/-- Window `w`'s block at grid point `t`, read off the window's array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The whole block of 2000 rows as a rectangle. -/
abbrev r4_y : Rect S2000x64 := Rect.unit (s := S2000x64) ![0, 0] S2000x64.size inb_S2000x64_S2000x64_0_0
/-- The whole one-column block of the self weights as a rectangle. -/
abbrev r4_d : Rect S2000x1 := Rect.unit (s := S2000x1) ![0, 0] S2000x1.size inb_S2000x1_S2000x1_0_0
/-- The whole one-row block of a column statistic as a rectangle. -/
abbrev r4_s : Rect S1x64 := Rect.unit (s := S1x64) ![0, 0] S1x64.size inb_S1x64_S1x64_0_0

/-- What the body leaves in the buffer of `y`, from the three input blocks: its one store. -/
def out4_3 (x0 : Vec F S2000x64 .f32) (x1 : Vec F S2000x64 .f32) (x2 : Vec F S2000x1 .f32) : Vec F S2000x64 .f32 :=
  View.canon [⟨r4_y, k4_pay1 (View.ld x0 r4_y) (View.ld x1 r4_y) (View.ld x2 r4_d)⟩]

/-- What the FIRST grid point leaves in the buffer of the column sums of `y`: the block's own column sums. -/
def out4_4_first (x0 : Vec F S2000x64 .f32) (x1 : Vec F S2000x64 .f32) (x2 : Vec F S2000x1 .f32) : Vec F S1x64 .f32 :=
  View.canon [⟨r4_s, k4_pay2 (View.ld x0 r4_y) (View.ld x1 r4_y) (View.ld x2 r4_d)⟩]

/-- What the FIRST grid point leaves in the buffer of the column sums of `y * y`: the block's own. -/
def out4_5_first (x0 : Vec F S2000x64 .f32) (x1 : Vec F S2000x64 .f32) (x2 : Vec F S2000x1 .f32) : Vec F S1x64 .f32 :=
  View.canon [⟨r4_s, k4_pay3 (View.ld x0 r4_y) (View.ld x1 r4_y) (View.ld x2 r4_d)⟩]

/-- What a LATER grid point leaves in the buffer of the column sums of `y`, which it found at `a`: `a` plus the
    block's column sums. -/
def out4_4_next (x0 : Vec F S2000x64 .f32) (x1 : Vec F S2000x64 .f32) (x2 : Vec F S2000x1 .f32) (a : Vec F S1x64 .f32) : Vec F S1x64 .f32 :=
  View.canon [⟨r4_s, k4_pay4 (View.ld x0 r4_y) (View.ld x1 r4_y) (View.ld x2 r4_d) (View.ld a r4_s)⟩]

/-- What a LATER grid point leaves in the buffer of the column sums of `y * y`, which it found at `a`. -/
def out4_5_next (x0 : Vec F S2000x64 .f32) (x1 : Vec F S2000x64 .f32) (x2 : Vec F S2000x1 .f32) (a : Vec F S1x64 .f32) : Vec F S1x64 .f32 :=
  View.canon [⟨r4_s, k4_pay5 (View.ld x0 r4_y) (View.ld x1 r4_y) (View.ld x2 r4_d) (View.ld a r4_s)⟩]

/-- The running column sums of `y` after grid point `n`: the first point's own, then each point's added to what
    the point before left. -/
def acc4_4 (c : Dev nD) : (n : ℕ) → n < cfg4.N → Vec F S1x64 .f32
  | 0, hn => out4_4_first (iblk4 V c 0 ⟨0, hn⟩) (iblk4 V c 1 ⟨0, hn⟩) (iblk4 V c 2 ⟨0, hn⟩)
  | n + 1, hn => out4_4_next (iblk4 V c 0 ⟨n + 1, hn⟩) (iblk4 V c 1 ⟨n + 1, hn⟩) (iblk4 V c 2 ⟨n + 1, hn⟩)
      (acc4_4 c n (Nat.lt_of_succ_lt hn))

/-- The running column sums of `y * y` after grid point `n`, likewise. -/
def acc4_5 (c : Dev nD) : (n : ℕ) → n < cfg4.N → Vec F S1x64 .f32
  | 0, hn => out4_5_first (iblk4 V c 0 ⟨0, hn⟩) (iblk4 V c 1 ⟨0, hn⟩) (iblk4 V c 2 ⟨0, hn⟩)
  | n + 1, hn => out4_5_next (iblk4 V c 0 ⟨n + 1, hn⟩) (iblk4 V c 1 ⟨n + 1, hn⟩) (iblk4 V c 2 ⟨n + 1, hn⟩)
      (acc4_5 c n (Nat.lt_of_succ_lt hn))

/-- The recursion's two equations, for the sums of `y`, -/
theorem acc4_4_zero (c : Dev nD) (hn : 0 < cfg4.N) :
    acc4_4 V c 0 hn = out4_4_first (iblk4 V c 0 ⟨0, hn⟩) (iblk4 V c 1 ⟨0, hn⟩) (iblk4 V c 2 ⟨0, hn⟩) := rfl
theorem acc4_4_succ (c : Dev nD) (n : ℕ) (hn : n + 1 < cfg4.N) :
    acc4_4 V c (n + 1) hn = out4_4_next (iblk4 V c 0 ⟨n + 1, hn⟩) (iblk4 V c 1 ⟨n + 1, hn⟩) (iblk4 V c 2 ⟨n + 1, hn⟩)
      (acc4_4 V c n (Nat.lt_of_succ_lt hn)) := rfl
/-- and for the sums of `y * y`. -/
theorem acc4_5_zero (c : Dev nD) (hn : 0 < cfg4.N) :
    acc4_5 V c 0 hn = out4_5_first (iblk4 V c 0 ⟨0, hn⟩) (iblk4 V c 1 ⟨0, hn⟩) (iblk4 V c 2 ⟨0, hn⟩) := rfl
theorem acc4_5_succ (c : Dev nD) (n : ℕ) (hn : n + 1 < cfg4.N) :
    acc4_5 V c (n + 1) hn = out4_5_next (iblk4 V c 0 ⟨n + 1, hn⟩) (iblk4 V c 1 ⟨n + 1, hn⟩) (iblk4 V c 2 ⟨n + 1, hn⟩)
      (acc4_5 V c n (Nat.lt_of_succ_lt hn)) := rfl

/-- The region's proof data on core `c`: the arrays as the region finds them; after the body at point `t` each
    input buffer at its block, the buffer of `y` at `out4_3` of the input blocks, and the two accumulators'
    buffers at the running sums up to `t`. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
    | ⟨4, _⟩ => acc4_4 V c t.val t.isLt
    | ⟨5, _⟩ => acc4_5 V c t.val t.isLt
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]
theorem after4_4 (c : Dev nD) (t : Fin cfg4.N) : (dat4 V c).after 4 t = acc4_4 V c t.val t.isLt := by dsimp only [dat4]
theorem after4_5 (c : Dev nD) (t : Fin cfg4.N) : (dat4 V c).after 5 t = acc4_5 V c t.val t.isLt := by dsimp only [dat4]

end Cert.Kernel.Gen

end
-- ==== Proof.KBn5.lean ====
import proofs.«165059_j7095285973648_2_alg».proof.Proof.Gen.Kernel.Launch
import proofs.«165059_j7095285973648_2_alg».proof.Proof.Gen.Kernel.Skeleton
import proofs.«165059_j7095285973648_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 5: the batch-norm affine map of a row block, `g·(y − mean)·rsqrt(var + ε) + b`, with `y` a block of 2000 rows and `mean`, `var`, `g`, `b` rows of 64

The region reads each input window's block whole, computes one value of the output block's shape from
them, and stores it over the whole output block. So after the body at a grid point every input buffer still
holds its block and the output buffer holds that value; nothing is carried from one point to the next. -/

/-- Window `w`'s block at grid point `t`, read off the window's array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's buffer holds the window's block at every point, whether the point fetched it or the
    block index had not moved since the point that did. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- An input window's buffer holds the window's block at every point, whether the point fetched it or the
    block index had not moved since the point that did. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- An input window's buffer holds the window's block at every point, whether the point fetched it or the
    block index had not moved since the point that did. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- An input window's buffer holds the window's block at every point, whether the point fetched it or the
    block index had not moved since the point that did. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- An input window's buffer holds the window's block at every point, whether the point fetched it or the
    block index had not moved since the point that did. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- The whole output block as a rectangle. -/
abbrev r5_o : Rect S2000x64 := Rect.unit (s := S2000x64) ![0, 0] S2000x64.size inb_S2000x64_S2000x64_0_0

/-- What the body leaves in the output window's buffer, from the input blocks: its one store. -/
def out5 (x0 : Vec F S2000x64 .f32) (x1 : Vec F S1x64 .f32) (x2 : Vec F S1x64 .f32) (x3 : Vec F S1x64 .f32) (x4 : Vec F S1x64 .f32) : Vec F S2000x64 .f32 :=
  View.canon [⟨r5_o, k5_pay1 (View.ld x0 (Rect.unit (s := S2000x64) ![0, 0] S2000x64.size inb_S2000x64_S2000x64_0_0)) (View.ld x1 (Rect.unit (s := S1x64) ![0, 0] S1x64.size inb_S1x64_S1x64_0_0)) (View.ld x2 (Rect.unit (s := S1x64) ![0, 0] S1x64.size inb_S1x64_S1x64_0_0)) (View.ld x3 (Rect.unit (s := S1x64) ![0, 0] S1x64.size inb_S1x64_S1x64_0_0)) (View.ld x4 (Rect.unit (s := S1x64) ![0, 0] S1x64.size inb_S1x64_S1x64_0_0))⟩]

/-- The one store covers the output block. -/
theorem cover5 (p0 : Vec F S2000x64 .f32) (y : S2000x64.Idx) :
    ∃ pc ∈ ([⟨r5_o, p0⟩] : List (View.Piece (Elt F) S2000x64 .f32)), y ∈ pc.1.set :=
  View.cover_of_tiled [⟨r5_o, p0⟩] S2000x64.size (by rfl) y

set_option maxHeartbeats 1000000 in
/-- The body on whole buffers: the inputs' at contents `x_w`, the output's at anything; it ends with the inputs'
    unchanged and the output's at `out5` of them. -/
theorem sound_kernel5 (c : Dev nD) (E : Set ℕ) (i : grid5.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S2000x64 .f32) (harg6 : arg6.IsWhole)
    (x0 : Vec F S2000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5 x0 x1 x2 x3 x4)) -∗ K ⟨⟩))
      ⊢ wp frame (wpE (defs₀ (F := F)) Variants.none c none) E (cc5__bn_apply_kernel i arg1 harg1 arg2 harg2 arg3 harg3 arg4 harg4 arg5 harg5 arg6 harg6) K := by
  simp only [cc5__bn_apply_kernel_eq_skeleton]; unfold cc5__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

/-- The region's proof data on core `c`: the arrays as the region finds them; after the body at point `t` each
    input buffer at its block and the output buffer at `out5` of the input blocks. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is entered with at point `t`, window by window, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the input buffers hold their blocks, so `sound_kernel5` applies; the invariant and what
    the core owes pass through untouched. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region, at every point. -/
theorem body_obligation5 (c : Dev nD) : BodyObligation (dat5 (F := F) V c) (defs₀ (F := F)) Variants.none () Set.univ := fun t => by
  rw [bigSep_W5, bigSep_W5]
  exact sound_body5 V c t

end Cert.Kernel.Gen

end
-- ==== Proof.KLin6.lean ====
import proofs.«165059_j7095285973648_2_alg».proof.Proof.Gen.Kernel.Launch
import proofs.«165059_j7095285973648_2_alg».proof.Proof.Gen.Kernel.Skeleton
import proofs.«165059_j7095285973648_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 6: the dense layer of a row block, `x·W + b` with `x` a block of 2000 rows, `W` whole (64×128) and `b` a row of 128

The region reads each input window's block whole, computes one value of the output block's shape from
them, and stores it over the whole output block. So after the body at a grid point every input buffer still
holds its block and the output buffer holds that value; nothing is carried from one point to the next. -/

/-- Window `w`'s block at grid point `t`, read off the window's array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's buffer holds the window's block at every point, whether the point fetched it or the
    block index had not moved since the point that did. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- An input window's buffer holds the window's block at every point, whether the point fetched it or the
    block index had not moved since the point that did. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- An input window's buffer holds the window's block at every point, whether the point fetched it or the
    block index had not moved since the point that did. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- The whole output block as a rectangle. -/
abbrev r6_o : Rect S2000x128 := Rect.unit (s := S2000x128) ![0, 0] S2000x128.size inb_S2000x128_S2000x128_0_0

/-- What the body leaves in the output window's buffer, from the input blocks: its one store. -/
def out6 (x0 : Vec F S2000x64 .f32) (x1 : Vec F S64x128 .f32) (x2 : Vec F S1x128 .f32) : Vec F S2000x128 .f32 :=
  View.canon [⟨r6_o, k6_pay1 (View.ld x0 (Rect.unit (s := S2000x64) ![0, 0] S2000x64.size inb_S2000x64_S2000x64_0_0)) (View.ld x1 (Rect.unit (s := S64x128) ![0, 0] S64x128.size inb_S64x128_S64x128_0_0)) (View.ld x2 (Rect.unit (s := S1x128) ![0, 0] S1x128.size inb_S1x128_S1x128_0_0))⟩]

/-- The one store covers the output block. -/
theorem cover6 (p0 : Vec F S2000x128 .f32) (y : S2000x128.Idx) :
    ∃ pc ∈ ([⟨r6_o, p0⟩] : List (View.Piece (Elt F) S2000x128 .f32)), y ∈ pc.1.set :=
  View.cover_of_tiled [⟨r6_o, p0⟩] S2000x128.size (by rfl) y

set_option maxHeartbeats 1000000 in
/-- The body on whole buffers: the inputs' at contents `x_w`, the output's at anything; it ends with the inputs'
    unchanged and the output's at `out6` of them. -/
theorem sound_kernel6 (c : Dev nD) (E : Set ℕ) (i : grid6.Coords) (arg1 : Memref sig .tc .vmem S2000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S2000x128 .f32) (harg4 : arg4.IsWhole)
    (x0 : Vec F S2000x64 .f32) (x1 : Vec F S64x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6 x0 x1 x2)) -∗ K ⟨⟩))
      ⊢ wp frame (wpE (defs₀ (F := F)) Variants.none c none) E (cc6__linear_kernel i arg1 harg1 arg2 harg2 arg3 harg3 arg4 harg4) K := by
  simp only [cc6__linear_kernel_eq_skeleton]; unfold cc6__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6 _)

/-- The region's proof data on core `c`: the arrays as the region finds them; after the body at point `t` each
    input buffer at its block and the output buffer at `out6` of the input blocks. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is entered with at point `t`, window by window, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the input buffers hold their blocks, so `sound_kernel6` applies; the invariant and what
    the core owes pass through untouched. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region, at every point. -/
theorem body_obligation6 (c : Dev nD) : BodyObligation (dat6 (F := F) V c) (defs₀ (F := F)) Variants.none () Set.univ := fun t => by
  rw [bigSep_W6, bigSep_W6]
  exact sound_body6 V c t

end Cert.Kernel.Gen

end
-- ==== Proof.KCombDat7.lean ====
import proofs.«165059_j7095285973648_2_alg».proof.Proof.Gen.Kernel.Launch
import proofs.«165059_j7095285973648_2_alg».proof.Proof.Gen.Kernel.Skeleton
import proofs.«165059_j7095285973648_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 7: a row block's combine–rectify step and its column statistics

At a grid point the region reads a block of 2000 rows of the aggregated messages, the same rows of the dense
layer's output and the rows' self weights (one column), and forms `y = max(agg + h * dself, 0)` row by row. It
stores `y` over its whole output block. Two more outputs, one row each, accumulate over the grid the column
sums of `y` and of `y * y`: the first grid point stores the block's own column sums, every later point adds
the block's column sums to what the point before left. Those two windows are written back only after the last
point, so between points their buffers keep what the body left. -/

/-- Window `w`'s block at grid point `t`, read off the window's array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The whole block of 2000 rows as a rectangle. -/
abbrev r7_y : Rect S2000x128 := Rect.unit (s := S2000x128) ![0, 0] S2000x128.size inb_S2000x128_S2000x128_0_0
/-- The whole one-column block of the self weights as a rectangle. -/
abbrev r7_d : Rect S2000x1 := Rect.unit (s := S2000x1) ![0, 0] S2000x1.size inb_S2000x1_S2000x1_0_0
/-- The whole one-row block of a column statistic as a rectangle. -/
abbrev r7_s : Rect S1x128 := Rect.unit (s := S1x128) ![0, 0] S1x128.size inb_S1x128_S1x128_0_0

/-- What the body leaves in the buffer of `y`, from the three input blocks: its one store. -/
def out7_3 (x0 : Vec F S2000x128 .f32) (x1 : Vec F S2000x128 .f32) (x2 : Vec F S2000x1 .f32) : Vec F S2000x128 .f32 :=
  View.canon [⟨r7_y, k7_pay1 (View.ld x0 r7_y) (View.ld x1 r7_y) (View.ld x2 r7_d)⟩]

/-- What the FIRST grid point leaves in the buffer of the column sums of `y`: the block's own column sums. -/
def out7_4_first (x0 : Vec F S2000x128 .f32) (x1 : Vec F S2000x128 .f32) (x2 : Vec F S2000x1 .f32) : Vec F S1x128 .f32 :=
  View.canon [⟨r7_s, k7_pay2 (View.ld x0 r7_y) (View.ld x1 r7_y) (View.ld x2 r7_d)⟩]

/-- What the FIRST grid point leaves in the buffer of the column sums of `y * y`: the block's own. -/
def out7_5_first (x0 : Vec F S2000x128 .f32) (x1 : Vec F S2000x128 .f32) (x2 : Vec F S2000x1 .f32) : Vec F S1x128 .f32 :=
  View.canon [⟨r7_s, k7_pay3 (View.ld x0 r7_y) (View.ld x1 r7_y) (View.ld x2 r7_d)⟩]

/-- What a LATER grid point leaves in the buffer of the column sums of `y`, which it found at `a`: `a` plus the
    block's column sums. -/
def out7_4_next (x0 : Vec F S2000x128 .f32) (x1 : Vec F S2000x128 .f32) (x2 : Vec F S2000x1 .f32) (a : Vec F S1x128 .f32) : Vec F S1x128 .f32 :=
  View.canon [⟨r7_s, k7_pay4 (View.ld x0 r7_y) (View.ld x1 r7_y) (View.ld x2 r7_d) (View.ld a r7_s)⟩]

/-- What a LATER grid point leaves in the buffer of the column sums of `y * y`, which it found at `a`. -/
def out7_5_next (x0 : Vec F S2000x128 .f32) (x1 : Vec F S2000x128 .f32) (x2 : Vec F S2000x1 .f32) (a : Vec F S1x128 .f32) : Vec F S1x128 .f32 :=
  View.canon [⟨r7_s, k7_pay5 (View.ld x0 r7_y) (View.ld x1 r7_y) (View.ld x2 r7_d) (View.ld a r7_s)⟩]

/-- The running column sums of `y` after grid point `n`: the first point's own, then each point's added to what
    the point before left. -/
def acc7_4 (c : Dev nD) : (n : ℕ) → n < cfg7.N → Vec F S1x128 .f32
  | 0, hn => out7_4_first (iblk7 V c 0 ⟨0, hn⟩) (iblk7 V c 1 ⟨0, hn⟩) (iblk7 V c 2 ⟨0, hn⟩)
  | n + 1, hn => out7_4_next (iblk7 V c 0 ⟨n + 1, hn⟩) (iblk7 V c 1 ⟨n + 1, hn⟩) (iblk7 V c 2 ⟨n + 1, hn⟩)
      (acc7_4 c n (Nat.lt_of_succ_lt hn))

/-- The running column sums of `y * y` after grid point `n`, likewise. -/
def acc7_5 (c : Dev nD) : (n : ℕ) → n < cfg7.N → Vec F S1x128 .f32
  | 0, hn => out7_5_first (iblk7 V c 0 ⟨0, hn⟩) (iblk7 V c 1 ⟨0, hn⟩) (iblk7 V c 2 ⟨0, hn⟩)
  | n + 1, hn => out7_5_next (iblk7 V c 0 ⟨n + 1, hn⟩) (iblk7 V c 1 ⟨n + 1, hn⟩) (iblk7 V c 2 ⟨n + 1, hn⟩)
      (acc7_5 c n (Nat.lt_of_succ_lt hn))

/-- The recursion's two equations, for the sums of `y`, -/
theorem acc7_4_zero (c : Dev nD) (hn : 0 < cfg7.N) :
    acc7_4 V c 0 hn = out7_4_first (iblk7 V c 0 ⟨0, hn⟩) (iblk7 V c 1 ⟨0, hn⟩) (iblk7 V c 2 ⟨0, hn⟩) := rfl
theorem acc7_4_succ (c : Dev nD) (n : ℕ) (hn : n + 1 < cfg7.N) :
    acc7_4 V c (n + 1) hn = out7_4_next (iblk7 V c 0 ⟨n + 1, hn⟩) (iblk7 V c 1 ⟨n + 1, hn⟩) (iblk7 V c 2 ⟨n + 1, hn⟩)
      (acc7_4 V c n (Nat.lt_of_succ_lt hn)) := rfl
/-- and for the sums of `y * y`. -/
theorem acc7_5_zero (c : Dev nD) (hn : 0 < cfg7.N) :
    acc7_5 V c 0 hn = out7_5_first (iblk7 V c 0 ⟨0, hn⟩) (iblk7 V c 1 ⟨0, hn⟩) (iblk7 V c 2 ⟨0, hn⟩) := rfl
theorem acc7_5_succ (c : Dev nD) (n : ℕ) (hn : n + 1 < cfg7.N) :
    acc7_5 V c (n + 1) hn = out7_5_next (iblk7 V c 0 ⟨n + 1, hn⟩) (iblk7 V c 1 ⟨n + 1, hn⟩) (iblk7 V c 2 ⟨n + 1, hn⟩)
      (acc7_5 V c n (Nat.lt_of_succ_lt hn)) := rfl

/-- The region's proof data on core `c`: the arrays as the region finds them; after the body at point `t` each
    input buffer at its block, the buffer of `y` at `out7_3` of the input blocks, and the two accumulators'
    buffers at the running sums up to `t`. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
    | ⟨4, _⟩ => acc7_4 V c t.val t.isLt
    | ⟨5, _⟩ => acc7_5 V c t.val t.isLt
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]
theorem after7_4 (c : Dev nD) (t : Fin cfg7.N) : (dat7 V c).after 4 t = acc7_4 V c t.val t.isLt := by dsimp only [dat7]
theorem after7_5 (c : Dev nD) (t : Fin cfg7.N) : (dat7 V c).after 5 t = acc7_5 V c t.val t.isLt := by dsimp only [dat7]

end Cert.Kernel.Gen

end
-- ==== Proof.KBn8.lean ====
import proofs.«165059_j7095285973648_2_alg».proof.Proof.Gen.Kernel.Launch
import proofs.«165059_j7095285973648_2_alg».proof.Proof.Gen.Kernel.Skeleton
import proofs.«165059_j7095285973648_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 8: the batch-norm affine map of a row block, `g·(y − mean)·rsqrt(var + ε) + b` followed by a maximum with zero, with `y` a block of 2000 rows and `mean`, `var`, `g`, `b` rows of 128

The region reads each input window's block whole, computes one value of the output block's shape from
them, and stores it over the whole output block. So after the body at a grid point every input buffer still
holds its block and the output buffer holds that value; nothing is carried from one point to the next. -/

/-- Window `w`'s block at grid point `t`, read off the window's array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's buffer holds the window's block at every point, whether the point fetched it or the
    block index had not moved since the point that did. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- An input window's buffer holds the window's block at every point, whether the point fetched it or the
    block index had not moved since the point that did. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- An input window's buffer holds the window's block at every point, whether the point fetched it or the
    block index had not moved since the point that did. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- An input window's buffer holds the window's block at every point, whether the point fetched it or the
    block index had not moved since the point that did. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- An input window's buffer holds the window's block at every point, whether the point fetched it or the
    block index had not moved since the point that did. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- The whole output block as a rectangle. -/
abbrev r8_o : Rect S2000x128 := Rect.unit (s := S2000x128) ![0, 0] S2000x128.size inb_S2000x128_S2000x128_0_0

/-- What the body leaves in the output window's buffer, from the input blocks: its one store. -/
def out8 (x0 : Vec F S2000x128 .f32) (x1 : Vec F S1x128 .f32) (x2 : Vec F S1x128 .f32) (x3 : Vec F S1x128 .f32) (x4 : Vec F S1x128 .f32) : Vec F S2000x128 .f32 :=
  View.canon [⟨r8_o, k8_pay1 (View.ld x0 (Rect.unit (s := S2000x128) ![0, 0] S2000x128.size inb_S2000x128_S2000x128_0_0)) (View.ld x1 (Rect.unit (s := S1x128) ![0, 0] S1x128.size inb_S1x128_S1x128_0_0)) (View.ld x2 (Rect.unit (s := S1x128) ![0, 0] S1x128.size inb_S1x128_S1x128_0_0)) (View.ld x3 (Rect.unit (s := S1x128) ![0, 0] S1x128.size inb_S1x128_S1x128_0_0)) (View.ld x4 (Rect.unit (s := S1x128) ![0, 0] S1x128.size inb_S1x128_S1x128_0_0))⟩]

/-- The one store covers the output block. -/
theorem cover8 (p0 : Vec F S2000x128 .f32) (y : S2000x128.Idx) :
    ∃ pc ∈ ([⟨r8_o, p0⟩] : List (View.Piece (Elt F) S2000x128 .f32)), y ∈ pc.1.set :=
  View.cover_of_tiled [⟨r8_o, p0⟩] S2000x128.size (by rfl) y

set_option maxHeartbeats 1000000 in
/-- The body on whole buffers: the inputs' at contents `x_w`, the output's at anything; it ends with the inputs'
    unchanged and the output's at `out8` of them. -/
theorem sound_kernel8 (c : Dev nD) (E : Set ℕ) (i : grid8.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out8 x0 x1 x2 x3 x4)) -∗ K ⟨⟩))
      ⊢ wp frame (wpE (defs₀ (F := F)) Variants.none c none) E (cc8__bn_apply_kernel i arg1 harg1 arg2 harg2 arg3 harg3 arg4 harg4 arg5 harg5 arg6 harg6) K := by
  simp only [cc8__bn_apply_kernel_eq_skeleton]; unfold cc8__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8 _)

/-- The region's proof data on core `c`: the arrays as the region finds them; after the body at point `t` each
    input buffer at its block and the output buffer at `out8` of the input blocks. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = out8 (iblk8 V c 0 t) (iblk8 V c 1 t) (iblk8 V c 2 t) (iblk8 V c 3 t) (iblk8 V c 4 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-- What the body is entered with at point `t`, window by window, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any point: the input buffers hold their blocks, so `sound_kernel8` applies; the invariant and what
    the core owes pass through untouched. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region, at every point. -/
theorem body_obligation8 (c : Dev nD) : BodyObligation (dat8 (F := F) V c) (defs₀ (F := F)) Variants.none () Set.univ := fun t => by
  rw [bigSep_W8, bigSep_W8]
  exact sound_body8 V c t

end Cert.Kernel.Gen

end
-- ==== Proof.KLin9.lean ====
import proofs.«165059_j7095285973648_2_alg».proof.Proof.Gen.Kernel.Launch
import proofs.«165059_j7095285973648_2_alg».proof.Proof.Gen.Kernel.Skeleton
import proofs.«165059_j7095285973648_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 9: the dense layer of a row block, `x·W + b` with `x` a block of 2000 rows, `W` whole (128×256) and `b` a row of 256

The region reads each input window's block whole, computes one value of the output block's shape from
them, and stores it over the whole output block. So after the body at a grid point every input buffer still
holds its block and the output buffer holds that value; nothing is carried from one point to the next. -/

/-- Window `w`'s block at grid point `t`, read off the window's array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's buffer holds the window's block at every point, whether the point fetched it or the
    block index had not moved since the point that did. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- An input window's buffer holds the window's block at every point, whether the point fetched it or the
    block index had not moved since the point that did. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- An input window's buffer holds the window's block at every point, whether the point fetched it or the
    block index had not moved since the point that did. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- The whole output block as a rectangle. -/
abbrev r9_o : Rect S2000x256 := Rect.unit (s := S2000x256) ![0, 0] S2000x256.size inb_S2000x256_S2000x256_0_0

/-- What the body leaves in the output window's buffer, from the input blocks: its one store. -/
def out9 (x0 : Vec F S2000x128 .f32) (x1 : Vec F S128x256 .f32) (x2 : Vec F S1x256 .f32) : Vec F S2000x256 .f32 :=
  View.canon [⟨r9_o, k9_pay1 (View.ld x0 (Rect.unit (s := S2000x128) ![0, 0] S2000x128.size inb_S2000x128_S2000x128_0_0)) (View.ld x1 (Rect.unit (s := S128x256) ![0, 0] S128x256.size inb_S128x256_S128x256_0_0)) (View.ld x2 (Rect.unit (s := S1x256) ![0, 0] S1x256.size inb_S1x256_S1x256_0_0))⟩]

/-- The one store covers the output block. -/
theorem cover9 (p0 : Vec F S2000x256 .f32) (y : S2000x256.Idx) :
    ∃ pc ∈ ([⟨r9_o, p0⟩] : List (View.Piece (Elt F) S2000x256 .f32)), y ∈ pc.1.set :=
  View.cover_of_tiled [⟨r9_o, p0⟩] S2000x256.size (by rfl) y

set_option maxHeartbeats 1000000 in
/-- The body on whole buffers: the inputs' at contents `x_w`, the output's at anything; it ends with the inputs'
    unchanged and the output's at `out9` of them. -/
theorem sound_kernel9 (c : Dev nD) (E : Set ℕ) (i : grid9.Coords) (arg1 : Memref sig .tc .vmem S2000x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S2000x256 .f32) (harg4 : arg4.IsWhole)
    (x0 : Vec F S2000x128 .f32) (x1 : Vec F S128x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out9 x0 x1 x2)) -∗ K ⟨⟩))
      ⊢ wp frame (wpE (defs₀ (F := F)) Variants.none c none) E (cc9__linear_kernel i arg1 harg1 arg2 harg2 arg3 harg3 arg4 harg4) K := by
  simp only [cc9__linear_kernel_eq_skeleton]; unfold cc9__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9 _)

/-- The region's proof data on core `c`: the arrays as the region finds them; after the body at point `t` each
    input buffer at its block and the output buffer at `out9` of the input blocks. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9 (iblk9 V c 0 t) (iblk9 V c 1 t) (iblk9 V c 2 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = out9 (iblk9 V c 0 t) (iblk9 V c 1 t) (iblk9 V c 2 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-- What the body is entered with at point `t`, window by window, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

/-- The body at any point: the input buffers hold their blocks, so `sound_kernel9` applies; the invariant and what
    the core owes pass through untouched. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ _ _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region, at every point. -/
theorem body_obligation9 (c : Dev nD) : BodyObligation (dat9 (F := F) V c) (defs₀ (F := F)) Variants.none () Set.univ := fun t => by
  rw [bigSep_W9, bigSep_W9]
  exact sound_body9 V c t

end Cert.Kernel.Gen

end
-- ==== Proof.KCombDat10.lean ====
import proofs.«165059_j7095285973648_2_alg».proof.Proof.Gen.Kernel.Launch
import proofs.«165059_j7095285973648_2_alg».proof.Proof.Gen.Kernel.Skeleton
import proofs.«165059_j7095285973648_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 10: a row block's combine–rectify step and its column statistics

At a grid point the region reads a block of 2000 rows of the aggregated messages, the same rows of the dense
layer's output and the rows' self weights (one column), and forms `y = max(agg + h * dself, 0)` row by row. It
stores `y` over its whole output block. Two more outputs, one row each, accumulate over the grid the column
sums of `y` and of `y * y`: the first grid point stores the block's own column sums, every later point adds
the block's column sums to what the point before left. Those two windows are written back only after the last
point, so between points their buffers keep what the body left. -/

/-- Window `w`'s block at grid point `t`, read off the window's array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- The whole block of 2000 rows as a rectangle. -/
abbrev r10_y : Rect S2000x256 := Rect.unit (s := S2000x256) ![0, 0] S2000x256.size inb_S2000x256_S2000x256_0_0
/-- The whole one-column block of the self weights as a rectangle. -/
abbrev r10_d : Rect S2000x1 := Rect.unit (s := S2000x1) ![0, 0] S2000x1.size inb_S2000x1_S2000x1_0_0
/-- The whole one-row block of a column statistic as a rectangle. -/
abbrev r10_s : Rect S1x256 := Rect.unit (s := S1x256) ![0, 0] S1x256.size inb_S1x256_S1x256_0_0

/-- What the body leaves in the buffer of `y`, from the three input blocks: its one store. -/
def out10_3 (x0 : Vec F S2000x256 .f32) (x1 : Vec F S2000x256 .f32) (x2 : Vec F S2000x1 .f32) : Vec F S2000x256 .f32 :=
  View.canon [⟨r10_y, k10_pay1 (View.ld x0 r10_y) (View.ld x1 r10_y) (View.ld x2 r10_d)⟩]

/-- What the FIRST grid point leaves in the buffer of the column sums of `y`: the block's own column sums. -/
def out10_4_first (x0 : Vec F S2000x256 .f32) (x1 : Vec F S2000x256 .f32) (x2 : Vec F S2000x1 .f32) : Vec F S1x256 .f32 :=
  View.canon [⟨r10_s, k10_pay2 (View.ld x0 r10_y) (View.ld x1 r10_y) (View.ld x2 r10_d)⟩]

/-- What the FIRST grid point leaves in the buffer of the column sums of `y * y`: the block's own. -/
def out10_5_first (x0 : Vec F S2000x256 .f32) (x1 : Vec F S2000x256 .f32) (x2 : Vec F S2000x1 .f32) : Vec F S1x256 .f32 :=
  View.canon [⟨r10_s, k10_pay3 (View.ld x0 r10_y) (View.ld x1 r10_y) (View.ld x2 r10_d)⟩]

/-- What a LATER grid point leaves in the buffer of the column sums of `y`, which it found at `a`: `a` plus the
    block's column sums. -/
def out10_4_next (x0 : Vec F S2000x256 .f32) (x1 : Vec F S2000x256 .f32) (x2 : Vec F S2000x1 .f32) (a : Vec F S1x256 .f32) : Vec F S1x256 .f32 :=
  View.canon [⟨r10_s, k10_pay4 (View.ld x0 r10_y) (View.ld x1 r10_y) (View.ld x2 r10_d) (View.ld a r10_s)⟩]

/-- What a LATER grid point leaves in the buffer of the column sums of `y * y`, which it found at `a`. -/
def out10_5_next (x0 : Vec F S2000x256 .f32) (x1 : Vec F S2000x256 .f32) (x2 : Vec F S2000x1 .f32) (a : Vec F S1x256 .f32) : Vec F S1x256 .f32 :=
  View.canon [⟨r10_s, k10_pay5 (View.ld x0 r10_y) (View.ld x1 r10_y) (View.ld x2 r10_d) (View.ld a r10_s)⟩]

/-- The running column sums of `y` after grid point `n`: the first point's own, then each point's added to what
    the point before left. -/
def acc10_4 (c : Dev nD) : (n : ℕ) → n < cfg10.N → Vec F S1x256 .f32
  | 0, hn => out10_4_first (iblk10 V c 0 ⟨0, hn⟩) (iblk10 V c 1 ⟨0, hn⟩) (iblk10 V c 2 ⟨0, hn⟩)
  | n + 1, hn => out10_4_next (iblk10 V c 0 ⟨n + 1, hn⟩) (iblk10 V c 1 ⟨n + 1, hn⟩) (iblk10 V c 2 ⟨n + 1, hn⟩)
      (acc10_4 c n (Nat.lt_of_succ_lt hn))

/-- The running column sums of `y * y` after grid point `n`, likewise. -/
def acc10_5 (c : Dev nD) : (n : ℕ) → n < cfg10.N → Vec F S1x256 .f32
  | 0, hn => out10_5_first (iblk10 V c 0 ⟨0, hn⟩) (iblk10 V c 1 ⟨0, hn⟩) (iblk10 V c 2 ⟨0, hn⟩)
  | n + 1, hn => out10_5_next (iblk10 V c 0 ⟨n + 1, hn⟩) (iblk10 V c 1 ⟨n + 1, hn⟩) (iblk10 V c 2 ⟨n + 1, hn⟩)
      (acc10_5 c n (Nat.lt_of_succ_lt hn))

/-- The recursion's two equations, for the sums of `y`, -/
theorem acc10_4_zero (c : Dev nD) (hn : 0 < cfg10.N) :
    acc10_4 V c 0 hn = out10_4_first (iblk10 V c 0 ⟨0, hn⟩) (iblk10 V c 1 ⟨0, hn⟩) (iblk10 V c 2 ⟨0, hn⟩) := rfl
theorem acc10_4_succ (c : Dev nD) (n : ℕ) (hn : n + 1 < cfg10.N) :
    acc10_4 V c (n + 1) hn = out10_4_next (iblk10 V c 0 ⟨n + 1, hn⟩) (iblk10 V c 1 ⟨n + 1, hn⟩) (iblk10 V c 2 ⟨n + 1, hn⟩)
      (acc10_4 V c n (Nat.lt_of_succ_lt hn)) := rfl
/-- and for the sums of `y * y`. -/
theorem acc10_5_zero (c : Dev nD) (hn : 0 < cfg10.N) :
    acc10_5 V c 0 hn = out10_5_first (iblk10 V c 0 ⟨0, hn⟩) (iblk10 V c 1 ⟨0, hn⟩) (iblk10 V c 2 ⟨0, hn⟩) := rfl
theorem acc10_5_succ (c : Dev nD) (n : ℕ) (hn : n + 1 < cfg10.N) :
    acc10_5 V c (n + 1) hn = out10_5_next (iblk10 V c 0 ⟨n + 1, hn⟩) (iblk10 V c 1 ⟨n + 1, hn⟩) (iblk10 V c 2 ⟨n + 1, hn⟩)
      (acc10_5 V c n (Nat.lt_of_succ_lt hn)) := rfl

/-- The region's proof data on core `c`: the arrays as the region finds them; after the body at point `t` each
    input buffer at its block, the buffer of `y` at `out10_3` of the input blocks, and the two accumulators'
    buffers at the running sums up to `t`. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10_3 (iblk10 V c 0 t) (iblk10 V c 1 t) (iblk10 V c 2 t)
    | ⟨4, _⟩ => acc10_4 V c t.val t.isLt
    | ⟨5, _⟩ => acc10_5 V c t.val t.isLt
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = out10_3 (iblk10 V c 0 t) (iblk10 V c 1 t) (iblk10 V c 2 t) := by dsimp only [dat10]
theorem after10_4 (c : Dev nD) (t : Fin cfg10.N) : (dat10 V c).after 4 t = acc10_4 V c t.val t.isLt := by dsimp only [dat10]
theorem after10_5 (c : Dev nD) (t : Fin cfg10.N) : (dat10 V c).after 5 t = acc10_5 V c t.val t.isLt := by dsimp only [dat10]

end Cert.Kernel.Gen

end
-- ==== Proof.KBn11.lean ====
import proofs.«165059_j7095285973648_2_alg».proof.Proof.Gen.Kernel.Launch
import proofs.«165059_j7095285973648_2_alg».proof.Proof.Gen.Kernel.Skeleton
import proofs.«165059_j7095285973648_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 11: the batch-norm affine map of a row block, `g·(y − mean)·rsqrt(var + ε) + b`, with `y` a block of 2000 rows and `mean`, `var`, `g`, `b` rows of 256

The region reads each input window's block whole, computes one value of the output block's shape from
them, and stores it over the whole output block. So after the body at a grid point every input buffer still
holds its block and the output buffer holds that value; nothing is carried from one point to the next. -/

/-- Window `w`'s block at grid point `t`, read off the window's array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An input window's buffer holds the window's block at every point, whether the point fetched it or the
    block index had not moved since the point that did. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- An input window's buffer holds the window's block at every point, whether the point fetched it or the
    block index had not moved since the point that did. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- An input window's buffer holds the window's block at every point, whether the point fetched it or the
    block index had not moved since the point that did. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- An input window's buffer holds the window's block at every point, whether the point fetched it or the
    block index had not moved since the point that did. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

/-- An input window's buffer holds the window's block at every point, whether the point fetched it or the
    block index had not moved since the point that did. -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-- The whole output block as a rectangle. -/
abbrev r11_o : Rect S2000x256 := Rect.unit (s := S2000x256) ![0, 0] S2000x256.size inb_S2000x256_S2000x256_0_0

/-- What the body leaves in the output window's buffer, from the input blocks: its one store. -/
def out11 (x0 : Vec F S2000x256 .f32) (x1 : Vec F S1x256 .f32) (x2 : Vec F S1x256 .f32) (x3 : Vec F S1x256 .f32) (x4 : Vec F S1x256 .f32) : Vec F S2000x256 .f32 :=
  View.canon [⟨r11_o, k11_pay1 (View.ld x0 (Rect.unit (s := S2000x256) ![0, 0] S2000x256.size inb_S2000x256_S2000x256_0_0)) (View.ld x1 (Rect.unit (s := S1x256) ![0, 0] S1x256.size inb_S1x256_S1x256_0_0)) (View.ld x2 (Rect.unit (s := S1x256) ![0, 0] S1x256.size inb_S1x256_S1x256_0_0)) (View.ld x3 (Rect.unit (s := S1x256) ![0, 0] S1x256.size inb_S1x256_S1x256_0_0)) (View.ld x4 (Rect.unit (s := S1x256) ![0, 0] S1x256.size inb_S1x256_S1x256_0_0))⟩]

/-- The one store covers the output block. -/
theorem cover11 (p0 : Vec F S2000x256 .f32) (y : S2000x256.Idx) :
    ∃ pc ∈ ([⟨r11_o, p0⟩] : List (View.Piece (Elt F) S2000x256 .f32)), y ∈ pc.1.set :=
  View.cover_of_tiled [⟨r11_o, p0⟩] S2000x256.size (by rfl) y

set_option maxHeartbeats 1000000 in
/-- The body on whole buffers: the inputs' at contents `x_w`, the output's at anything; it ends with the inputs'
    unchanged and the output's at `out11` of them. -/
theorem sound_kernel11 (c : Dev nD) (E : Set ℕ) (i : grid11.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole)
    (x0 : Vec F S2000x256 .f32) (x1 : Vec F S1x256 .f32) (x2 : Vec F S1x256 .f32) (x3 : Vec F S1x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out11 x0 x1 x2 x3 x4)) -∗ K ⟨⟩))
      ⊢ wp frame (wpE (defs₀ (F := F)) Variants.none c none) E (cc11__bn_apply_kernel i arg1 harg1 arg2 harg2 arg3 harg3 arg4 harg4 arg5 harg5 arg6 harg6) K := by
  simp only [cc11__bn_apply_kernel_eq_skeleton]; unfold cc11__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover11 _)

/-- The region's proof data on core `c`: the arrays as the region finds them; after the body at point `t` each
    input buffer at its block and the output buffer at `out11` of the input blocks. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out11 (iblk11 V c 0 t) (iblk11 V c 1 t) (iblk11 V c 2 t) (iblk11 V c 3 t) (iblk11 V c 4 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = out11 (iblk11 V c 0 t) (iblk11 V c 1 t) (iblk11 V c 2 t) (iblk11 V c 3 t) (iblk11 V c 4 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d

/-- What the body is entered with at point `t`, window by window, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t))

/-- The body at any point: the input buffers hold their blocks, so `sound_kernel11` applies; the invariant and what
    the core owes pass through untouched. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4]
  rw [show (dat11 V c).Φ t.succ = (dat11 V c).Φ t.castSucc from rfl,
    show (dat11 V c).owesAt () t.succ = (dat11 V c).owesAt () t.castSucc from rfl,
    after11_0, after11_1, after11_2, after11_3, after11_4, after11_5]
  iintro ⟨HΦ, Ho, ⟨%d0, H0⟩, ⟨%d1, H1⟩, ⟨%d2, H2⟩, ⟨%d3, H3⟩, ⟨%d4, H4⟩, ⟨%d5, H5⟩⟩
  iapply (sound_kernel11 c Set.univ _ _ _ _ _ _ _ _ _ _ _ _ _ (iblk11 V c 0 t) (iblk11 V c 1 t) (iblk11 V c 2 t) (iblk11 V c 3 t) (iblk11 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region, at every point. -/
theorem body_obligation11 (c : Dev nD) : BodyObligation (dat11 (F := F) V c) (defs₀ (F := F)) Variants.none () Set.univ := fun t => by
  rw [bigSep_W11, bigSep_W11]
  exact sound_body11 V c t

end Cert.Kernel.Gen

end
-- ==== Proof.KAsmVals.lean ====
import proofs.«165059_j7095285973648_2_alg».proof.Proof.Gen.Kernel.Regions
import proofs.«165059_j7095285973648_2_alg».proof.Proof.KLin0
import proofs.«165059_j7095285973648_2_alg».proof.Proof.KCombDat1
import proofs.«165059_j7095285973648_2_alg».proof.Proof.KBn2
import proofs.«165059_j7095285973648_2_alg».proof.Proof.KLin3
import proofs.«165059_j7095285973648_2_alg».proof.Proof.KCombDat4
import proofs.«165059_j7095285973648_2_alg».proof.Proof.KBn5
import proofs.«165059_j7095285973648_2_alg».proof.Proof.KLin6
import proofs.«165059_j7095285973648_2_alg».proof.Proof.KCombDat7
import proofs.«165059_j7095285973648_2_alg».proof.Proof.KBn8
import proofs.«165059_j7095285973648_2_alg».proof.Proof.KLin9
import proofs.«165059_j7095285973648_2_alg».proof.Proof.KCombDat10
import proofs.«165059_j7095285973648_2_alg».proof.Proof.KBn11
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The buffers' contents between the items of the program

The program is twelve kernel regions between stretches of host operations. Between two items every unscoped
buffer of a core holds a definite array: after a host stretch what its operations compute from the buffers
before it, after a region the buffers as before except that each of the region's output arrays holds what the
region's write-backs leave. `UJ` names the contents after item J−1, from the launch memory `m`. -/

/-- Three updates at three distinct keys, each value read back from the updated function, give that function. -/
theorem update3_read {α : Type} [DecidableEq α] {β : α → Type} (f : ∀ a, β a) (a b d : α) (hab : a ≠ b) (had : a ≠ d) (hbd : b ≠ d)
    (x : β a) (y : β b) (z : β d) :
    Function.update (Function.update (Function.update f a
        (Function.update (Function.update (Function.update f a x) b y) d z a)) b
        (Function.update (Function.update (Function.update f a x) b y) d z b)) d
        (Function.update (Function.update (Function.update f a x) b y) d z d)
      = Function.update (Function.update (Function.update f a x) b y) d z := by
  rw [Function.update_self, Function.update_of_ne hbd, Function.update_self, Function.update_of_ne had,
    Function.update_of_ne hab, Function.update_self]

variable (m : (ℓ : Loc nD τ sig) → Buf (Elt F) ℓ)

/-- A core's buffer contents read at the TensorCore's references. -/
abbrev atTc (W : Dev nD → Valuation τ sig (Elt F)) : (c : Dev nD) → (b : Ref sig .tc) → Buf (Elt F) ((c : Thread nD τ).loc b) :=
  fun c b => W c b

/-- After the first host stretch. -/
abbrev U1 (c : Dev nD) : Valuation τ sig (Elt F) := StableHlo.after hostOps0 (V0 m c)
/-- After region 0: its output array at what the write-backs leave, every other buffer as before. -/
def U2 (c : Dev nD) : Valuation τ sig (Elt F) :=
  (Function.update (U1 m c) main_v34 ((dat0 (atTc (U1 m)) c).arrAt 3 cfg0.N))
/-- After the host stretch that follows it. -/
abbrev U3 (c : Dev nD) : Valuation τ sig (Elt F) := StableHlo.after hostOps1 (U2 m c)
/-- After region 1: its output arrays at what the write-backs leave, every other buffer as before. -/
def U4 (c : Dev nD) : Valuation τ sig (Elt F) :=
  (Function.update (Function.update (Function.update (U3 m c) main_v48_0 ((dat1 (atTc (U3 m)) c).arrAt 3 cfg1.N)) main_v48_1 ((dat1 (atTc (U3 m)) c).arrAt 4 cfg1.N)) main_v48_2 ((dat1 (atTc (U3 m)) c).arrAt 5 cfg1.N))
/-- After the host stretch that follows it. -/
abbrev U5 (c : Dev nD) : Valuation τ sig (Elt F) := StableHlo.after hostOps2 (U4 m c)
/-- After region 2: its output array at what the write-backs leave, every other buffer as before. -/
def U6 (c : Dev nD) : Valuation τ sig (Elt F) :=
  (Function.update (U5 m c) main_v59 ((dat2 (atTc (U5 m)) c).arrAt 5 cfg2.N))
/-- After the host stretch that follows it. -/
abbrev U7 (c : Dev nD) : Valuation τ sig (Elt F) := StableHlo.after hostOps3 (U6 m c)
/-- After region 3: its output array at what the write-backs leave, every other buffer as before. -/
def U8 (c : Dev nD) : Valuation τ sig (Elt F) :=
  (Function.update (U7 m c) main_v61 ((dat3 (atTc (U7 m)) c).arrAt 3 cfg3.N))
/-- After the host stretch that follows it. -/
abbrev U9 (c : Dev nD) : Valuation τ sig (Elt F) := StableHlo.after hostOps4 (U8 m c)
/-- After region 4: its output arrays at what the write-backs leave, every other buffer as before. -/
def U10 (c : Dev nD) : Valuation τ sig (Elt F) :=
  (Function.update (Function.update (Function.update (U9 m c) main_v75_0 ((dat4 (atTc (U9 m)) c).arrAt 3 cfg4.N)) main_v75_1 ((dat4 (atTc (U9 m)) c).arrAt 4 cfg4.N)) main_v75_2 ((dat4 (atTc (U9 m)) c).arrAt 5 cfg4.N))
/-- After the host stretch that follows it. -/
abbrev U11 (c : Dev nD) : Valuation τ sig (Elt F) := StableHlo.after hostOps5 (U10 m c)
/-- After region 5: its output array at what the write-backs leave, every other buffer as before. -/
def U12 (c : Dev nD) : Valuation τ sig (Elt F) :=
  (Function.update (U11 m c) main_v86 ((dat5 (atTc (U11 m)) c).arrAt 5 cfg5.N))
/-- After the host stretch that follows it. -/
abbrev U13 (c : Dev nD) : Valuation τ sig (Elt F) := StableHlo.after hostOps6 (U12 m c)
/-- After region 6: its output array at what the write-backs leave, every other buffer as before. -/
def U14 (c : Dev nD) : Valuation τ sig (Elt F) :=
  (Function.update (U13 m c) main_v88 ((dat6 (atTc (U13 m)) c).arrAt 3 cfg6.N))
/-- After the host stretch that follows it. -/
abbrev U15 (c : Dev nD) : Valuation τ sig (Elt F) := StableHlo.after hostOps7 (U14 m c)
/-- After region 7: its output arrays at what the write-backs leave, every other buffer as before. -/
def U16 (c : Dev nD) : Valuation τ sig (Elt F) :=
  (Function.update (Function.update (Function.update (U15 m c) main_v102_0 ((dat7 (atTc (U15 m)) c).arrAt 3 cfg7.N)) main_v102_1 ((dat7 (atTc (U15 m)) c).arrAt 4 cfg7.N)) main_v102_2 ((dat7 (atTc (U15 m)) c).arrAt 5 cfg7.N))
/-- After the host stretch that follows it. -/
abbrev U17 (c : Dev nD) : Valuation τ sig (Elt F) := StableHlo.after hostOps8 (U16 m c)
/-- After region 8: its output array at what the write-backs leave, every other buffer as before. -/
def U18 (c : Dev nD) : Valuation τ sig (Elt F) :=
  (Function.update (U17 m c) main_v113 ((dat8 (atTc (U17 m)) c).arrAt 5 cfg8.N))
/-- After the host stretch that follows it. -/
abbrev U19 (c : Dev nD) : Valuation τ sig (Elt F) := StableHlo.after hostOps9 (U18 m c)
/-- After region 9: its output array at what the write-backs leave, every other buffer as before. -/
def U20 (c : Dev nD) : Valuation τ sig (Elt F) :=
  (Function.update (U19 m c) main_v115 ((dat9 (atTc (U19 m)) c).arrAt 3 cfg9.N))
/-- After the host stretch that follows it. -/
abbrev U21 (c : Dev nD) : Valuation τ sig (Elt F) := StableHlo.after hostOps10 (U20 m c)
/-- After region 10: its output arrays at what the write-backs leave, every other buffer as before. -/
def U22 (c : Dev nD) : Valuation τ sig (Elt F) :=
  (Function.update (Function.update (Function.update (U21 m c) main_v129_0 ((dat10 (atTc (U21 m)) c).arrAt 3 cfg10.N)) main_v129_1 ((dat10 (atTc (U21 m)) c).arrAt 4 cfg10.N)) main_v129_2 ((dat10 (atTc (U21 m)) c).arrAt 5 cfg10.N))
/-- After the host stretch that follows it. -/
abbrev U23 (c : Dev nD) : Valuation τ sig (Elt F) := StableHlo.after hostOps11 (U22 m c)
/-- After region 11: its output array at what the write-backs leave, every other buffer as before. -/
def U24 (c : Dev nD) : Valuation τ sig (Elt F) :=
  (Function.update (U23 m c) main_v140 ((dat11 (atTc (U23 m)) c).arrAt 5 cfg11.N))

/-- What each region leaves in the buffers it may change, read off the contents after it. -/
def outs : Outs (F := F) := fun J r c => match J with
  | 2 => U2 m c r
  | 4 => U4 m c r
  | 6 => U6 m c r
  | 8 => U8 m c r
  | 10 => U10 m c r
  | 12 => U12 m c r
  | 14 => U14 m c r
  | 16 => U16 m c r
  | 18 => U18 m c r
  | 20 => U20 m c r
  | 22 => U22 m c r
  | 24 => U24 m c r
  | _ => U1 m c r

/-! ## These are the contents the conditional frame speaks of -/

theorem V1_eq (c : Dev nD) : V1 m c = U1 m c := rfl
theorem V2_eq (c : Dev nD) : V2 m (outs m) c = U2 m c := by
  show Function.update (V1 m c) main_v34 (U2 m c main_v34) = U2 m c
  rw [V1_eq]; unfold U2; rw [Function.update_self]
theorem V3_eq (c : Dev nD) : V3 m (outs m) c = U3 m c := by
  show StableHlo.after hostOps1 (V2 m (outs m) c) = _
  rw [V2_eq]
theorem V4_eq (c : Dev nD) : V4 m (outs m) c = U4 m c := by
  show Function.update (Function.update (Function.update (V3 m (outs m) c) main_v48_0 (U4 m c main_v48_0)) main_v48_1 (U4 m c main_v48_1)) main_v48_2 (U4 m c main_v48_2) = U4 m c
  rw [V3_eq]; unfold U4
  exact update3_read _ _ _ _ (StableHlo.devRef_ne_of_ne (by decide)) (StableHlo.devRef_ne_of_ne (by decide)) (StableHlo.devRef_ne_of_ne (by decide)) _ _ _
theorem V5_eq (c : Dev nD) : V5 m (outs m) c = U5 m c := by
  show StableHlo.after hostOps2 (V4 m (outs m) c) = _
  rw [V4_eq]
theorem V6_eq (c : Dev nD) : V6 m (outs m) c = U6 m c := by
  show Function.update (V5 m (outs m) c) main_v59 (U6 m c main_v59) = U6 m c
  rw [V5_eq]; unfold U6; rw [Function.update_self]
theorem V7_eq (c : Dev nD) : V7 m (outs m) c = U7 m c := by
  show StableHlo.after hostOps3 (V6 m (outs m) c) = _
  rw [V6_eq]
theorem V8_eq (c : Dev nD) : V8 m (outs m) c = U8 m c := by
  show Function.update (V7 m (outs m) c) main_v61 (U8 m c main_v61) = U8 m c
  rw [V7_eq]; unfold U8; rw [Function.update_self]
theorem V9_eq (c : Dev nD) : V9 m (outs m) c = U9 m c := by
  show StableHlo.after hostOps4 (V8 m (outs m) c) = _
  rw [V8_eq]
theorem V10_eq (c : Dev nD) : V10 m (outs m) c = U10 m c := by
  show Function.update (Function.update (Function.update (V9 m (outs m) c) main_v75_0 (U10 m c main_v75_0)) main_v75_1 (U10 m c main_v75_1)) main_v75_2 (U10 m c main_v75_2) = U10 m c
  rw [V9_eq]; unfold U10
  exact update3_read _ _ _ _ (StableHlo.devRef_ne_of_ne (by decide)) (StableHlo.devRef_ne_of_ne (by decide)) (StableHlo.devRef_ne_of_ne (by decide)) _ _ _
theorem V11_eq (c : Dev nD) : V11 m (outs m) c = U11 m c := by
  show StableHlo.after hostOps5 (V10 m (outs m) c) = _
  rw [V10_eq]
theorem V12_eq (c : Dev nD) : V12 m (outs m) c = U12 m c := by
  show Function.update (V11 m (outs m) c) main_v86 (U12 m c main_v86) = U12 m c
  rw [V11_eq]; unfold U12; rw [Function.update_self]
theorem V13_eq (c : Dev nD) : V13 m (outs m) c = U13 m c := by
  show StableHlo.after hostOps6 (V12 m (outs m) c) = _
  rw [V12_eq]
theorem V14_eq (c : Dev nD) : V14 m (outs m) c = U14 m c := by
  show Function.update (V13 m (outs m) c) main_v88 (U14 m c main_v88) = U14 m c
  rw [V13_eq]; unfold U14; rw [Function.update_self]
theorem V15_eq (c : Dev nD) : V15 m (outs m) c = U15 m c := by
  show StableHlo.after hostOps7 (V14 m (outs m) c) = _
  rw [V14_eq]
theorem V16_eq (c : Dev nD) : V16 m (outs m) c = U16 m c := by
  show Function.update (Function.update (Function.update (V15 m (outs m) c) main_v102_0 (U16 m c main_v102_0)) main_v102_1 (U16 m c main_v102_1)) main_v102_2 (U16 m c main_v102_2) = U16 m c
  rw [V15_eq]; unfold U16
  exact update3_read _ _ _ _ (StableHlo.devRef_ne_of_ne (by decide)) (StableHlo.devRef_ne_of_ne (by decide)) (StableHlo.devRef_ne_of_ne (by decide)) _ _ _
theorem V17_eq (c : Dev nD) : V17 m (outs m) c = U17 m c := by
  show StableHlo.after hostOps8 (V16 m (outs m) c) = _
  rw [V16_eq]
theorem V18_eq (c : Dev nD) : V18 m (outs m) c = U18 m c := by
  show Function.update (V17 m (outs m) c) main_v113 (U18 m c main_v113) = U18 m c
  rw [V17_eq]; unfold U18; rw [Function.update_self]
theorem V19_eq (c : Dev nD) : V19 m (outs m) c = U19 m c := by
  show StableHlo.after hostOps9 (V18 m (outs m) c) = _
  rw [V18_eq]
theorem V20_eq (c : Dev nD) : V20 m (outs m) c = U20 m c := by
  show Function.update (V19 m (outs m) c) main_v115 (U20 m c main_v115) = U20 m c
  rw [V19_eq]; unfold U20; rw [Function.update_self]
theorem V21_eq (c : Dev nD) : V21 m (outs m) c = U21 m c := by
  show StableHlo.after hostOps10 (V20 m (outs m) c) = _
  rw [V20_eq]
theorem V22_eq (c : Dev nD) : V22 m (outs m) c = U22 m c := by
  show Function.update (Function.update (Function.update (V21 m (outs m) c) main_v129_0 (U22 m c main_v129_0)) main_v129_1 (U22 m c main_v129_1)) main_v129_2 (U22 m c main_v129_2) = U22 m c
  rw [V21_eq]; unfold U22
  exact update3_read _ _ _ _ (StableHlo.devRef_ne_of_ne (by decide)) (StableHlo.devRef_ne_of_ne (by decide)) (StableHlo.devRef_ne_of_ne (by decide)) _ _ _
theorem V23_eq (c : Dev nD) : V23 m (outs m) c = U23 m c := by
  show StableHlo.after hostOps11 (V22 m (outs m) c) = _
  rw [V22_eq]
theorem V24_eq (c : Dev nD) : V24 m (outs m) c = U24 m c := by
  show Function.update (V23 m (outs m) c) main_v140 (U24 m c main_v140) = U24 m c
  rw [V23_eq]; unfold U24; rw [Function.update_self]

/-! ## Each region's arrays at its exit

At a region's exit each of its output arrays holds what its write-backs leave and each of its input arrays what it
held at entry (an input window never writes back); no other buffer changes. -/
set_option maxHeartbeats 4000000 in
theorem hF0 (c : Dev nD) : ∀ w : Fin cfg0.W, (dat0 (atTc (U1 m)) c).arrAt w cfg0.N = atTc (U2 m) c (Pipeline.arrRef spec0 w)
  | ⟨0, _⟩ => by
    show _ = U2 m c (Proc.devRef .tc main_arg0)
    unfold U2
    rw [Function.update_of_ne (show (Proc.devRef (τ := τ) .tc main_arg0) ≠ Proc.devRef .tc main_v34 from StableHlo.devRef_ne_of_ne (by decide))]
    exact ((dat0 (atTc (U1 m)) c).arrAt_in 0 rfl _).trans (A_eq0 (atTc (U1 m)) c 0)
  | ⟨1, _⟩ => by
    show _ = U2 m c (Proc.devRef .tc main_arg2)
    unfold U2
    rw [Function.update_of_ne (show (Proc.devRef (τ := τ) .tc main_arg2) ≠ Proc.devRef .tc main_v34 from StableHlo.devRef_ne_of_ne (by decide))]
    exact ((dat0 (atTc (U1 m)) c).arrAt_in 1 rfl _).trans (A_eq0 (atTc (U1 m)) c 1)
  | ⟨2, _⟩ => by
    show _ = U2 m c (Proc.devRef .tc main_v33)
    unfold U2
    rw [Function.update_of_ne (show (Proc.devRef (τ := τ) .tc main_v33) ≠ Proc.devRef .tc main_v34 from StableHlo.devRef_ne_of_ne (by decide))]
    exact ((dat0 (atTc (U1 m)) c).arrAt_in 2 rfl _).trans (A_eq0 (atTc (U1 m)) c 2)
  | ⟨3, _⟩ => by
    show _ = U2 m c (Proc.devRef .tc main_v34)
    unfold U2
    rw [Function.update_self]
    try rfl
theorem hrest0 (c : Dev nD) : ∀ b, b ∉ Finset.univ.image (Pipeline.arrRef spec0) → atTc (U2 m) c b = atTc (U1 m) c b := fun b hb => by
  have h3 : main_v34 ≠ b := fun e => hb (Finset.mem_image.mpr ⟨3, Finset.mem_univ _, e⟩)
  show U2 m c (Proc.devRef .tc b) = U1 m c (Proc.devRef .tc b)
  unfold U2
  rw [Function.update_of_ne (StableHlo.devRef_ne_of_ne h3.symm)]
set_option maxHeartbeats 4000000 in
theorem hF1 (c : Dev nD) : ∀ w : Fin cfg1.W, (dat1 (atTc (U3 m)) c).arrAt w cfg1.N = atTc (U4 m) c (Pipeline.arrRef spec1 w)
  | ⟨0, _⟩ => by
    show _ = U4 m c (Proc.devRef .tc main_v47)
    unfold U4
    rw [Function.update_of_ne (show (Proc.devRef (τ := τ) .tc main_v47) ≠ Proc.devRef .tc main_v48_2 from StableHlo.devRef_ne_of_ne (by decide)),
      Function.update_of_ne (show (Proc.devRef (τ := τ) .tc main_v47) ≠ Proc.devRef .tc main_v48_1 from StableHlo.devRef_ne_of_ne (by decide)),
      Function.update_of_ne (show (Proc.devRef (τ := τ) .tc main_v47) ≠ Proc.devRef .tc main_v48_0 from StableHlo.devRef_ne_of_ne (by decide))]
    exact ((dat1 (atTc (U3 m)) c).arrAt_in 0 rfl _).trans (A_eq1 (atTc (U3 m)) c 0)
  | ⟨1, _⟩ => by
    show _ = U4 m c (Proc.devRef .tc main_v34)
    unfold U4
    rw [Function.update_of_ne (show (Proc.devRef (τ := τ) .tc main_v34) ≠ Proc.devRef .tc main_v48_2 from StableHlo.devRef_ne_of_ne (by decide)),
      Function.update_of_ne (show (Proc.devRef (τ := τ) .tc main_v34) ≠ Proc.devRef .tc main_v48_1 from StableHlo.devRef_ne_of_ne (by decide)),
      Function.update_of_ne (show (Proc.devRef (τ := τ) .tc main_v34) ≠ Proc.devRef .tc main_v48_0 from StableHlo.devRef_ne_of_ne (by decide))]
    exact ((dat1 (atTc (U3 m)) c).arrAt_in 1 rfl _).trans (A_eq1 (atTc (U3 m)) c 1)
  | ⟨2, _⟩ => by
    show _ = U4 m c (Proc.devRef .tc main_v32)
    unfold U4
    rw [Function.update_of_ne (show (Proc.devRef (τ := τ) .tc main_v32) ≠ Proc.devRef .tc main_v48_2 from StableHlo.devRef_ne_of_ne (by decide)),
      Function.update_of_ne (show (Proc.devRef (τ := τ) .tc main_v32) ≠ Proc.devRef .tc main_v48_1 from StableHlo.devRef_ne_of_ne (by decide)),
      Function.update_of_ne (show (Proc.devRef (τ := τ) .tc main_v32) ≠ Proc.devRef .tc main_v48_0 from StableHlo.devRef_ne_of_ne (by decide))]
    exact ((dat1 (atTc (U3 m)) c).arrAt_in 2 rfl _).trans (A_eq1 (atTc (U3 m)) c 2)
  | ⟨3, _⟩ => by
    show _ = U4 m c (Proc.devRef .tc main_v48_0)
    unfold U4
    rw [Function.update_of_ne (show (Proc.devRef (τ := τ) .tc main_v48_0) ≠ Proc.devRef .tc main_v48_2 from StableHlo.devRef_ne_of_ne (by decide)),
      Function.update_of_ne (show (Proc.devRef (τ := τ) .tc main_v48_0) ≠ Proc.devRef .tc main_v48_1 from StableHlo.devRef_ne_of_ne (by decide)),
      Function.update_self]
    try rfl
  | ⟨4, _⟩ => by
    show _ = U4 m c (Proc.devRef .tc main_v48_1)
    unfold U4
    rw [Function.update_of_ne (show (Proc.devRef (τ := τ) .tc main_v48_1) ≠ Proc.devRef .tc main_v48_2 from StableHlo.devRef_ne_of_ne (by decide)),
      Function.update_self]
    try rfl
  | ⟨5, _⟩ => by
    show _ = U4 m c (Proc.devRef .tc main_v48_2)
    unfold U4
    rw [Function.update_self]
    try rfl
theorem hrest1 (c : Dev nD) : ∀ b, b ∉ Finset.univ.image (Pipeline.arrRef spec1) → atTc (U4 m) c b = atTc (U3 m) c b := fun b hb => by
  have h3 : main_v48_0 ≠ b := fun e => hb (Finset.mem_image.mpr ⟨3, Finset.mem_univ _, e⟩)
  have h4 : main_v48_1 ≠ b := fun e => hb (Finset.mem_image.mpr ⟨4, Finset.mem_univ _, e⟩)
  have h5 : main_v48_2 ≠ b := fun e => hb (Finset.mem_image.mpr ⟨5, Finset.mem_univ _, e⟩)
  show U4 m c (Proc.devRef .tc b) = U3 m c (Proc.devRef .tc b)
  unfold U4
  rw [Function.update_of_ne (StableHlo.devRef_ne_of_ne h5.symm), Function.update_of_ne (StableHlo.devRef_ne_of_ne h4.symm), Function.update_of_ne (StableHlo.devRef_ne_of_ne h3.symm)]
set_option maxHeartbeats 4000000 in
theorem hF2 (c : Dev nD) : ∀ w : Fin cfg2.W, (dat2 (atTc (U5 m)) c).arrAt w cfg2.N = atTc (U6 m) c (Pipeline.arrRef spec2 w)
  | ⟨0, _⟩ => by
    show _ = U6 m c (Proc.devRef .tc main_v48_0)
    unfold U6
    rw [Function.update_of_ne (show (Proc.devRef (τ := τ) .tc main_v48_0) ≠ Proc.devRef .tc main_v59 from StableHlo.devRef_ne_of_ne (by decide))]
    exact ((dat2 (atTc (U5 m)) c).arrAt_in 0 rfl _).trans (A_eq2 (atTc (U5 m)) c 0)
  | ⟨1, _⟩ => by
    show _ = U6 m c (Proc.devRef .tc main_v50)
    unfold U6
    rw [Function.update_of_ne (show (Proc.devRef (τ := τ) .tc main_v50) ≠ Proc.devRef .tc main_v59 from StableHlo.devRef_ne_of_ne (by decide))]
    exact ((dat2 (atTc (U5 m)) c).arrAt_in 1 rfl _).trans (A_eq2 (atTc (U5 m)) c 1)
  | ⟨2, _⟩ => by
    show _ = U6 m c (Proc.devRef .tc main_v56)
    unfold U6
    rw [Function.update_of_ne (show (Proc.devRef (τ := τ) .tc main_v56) ≠ Proc.devRef .tc main_v59 from StableHlo.devRef_ne_of_ne (by decide))]
    exact ((dat2 (atTc (U5 m)) c).arrAt_in 2 rfl _).trans (A_eq2 (atTc (U5 m)) c 2)
  | ⟨3, _⟩ => by
    show _ = U6 m c (Proc.devRef .tc main_v57)
    unfold U6
    rw [Function.update_of_ne (show (Proc.devRef (τ := τ) .tc main_v57) ≠ Proc.devRef .tc main_v59 from StableHlo.devRef_ne_of_ne (by decide))]
    exact ((dat2 (atTc (U5 m)) c).arrAt_in 3 rfl _).trans (A_eq2 (atTc (U5 m)) c 3)
  | ⟨4, _⟩ => by
    show _ = U6 m c (Proc.devRef .tc main_v58)
    unfold U6
    rw [Function.update_of_ne (show (Proc.devRef (τ := τ) .tc main_v58) ≠ Proc.devRef .tc main_v59 from StableHlo.devRef_ne_of_ne (by decide))]
    exact ((dat2 (atTc (U5 m)) c).arrAt_in 4 rfl _).trans (A_eq2 (atTc (U5 m)) c 4)
  | ⟨5, _⟩ => by
    show _ = U6 m c (Proc.devRef .tc main_v59)
    unfold U6
    rw [Function.update_self]
    try rfl
theorem hrest2 (c : Dev nD) : ∀ b, b ∉ Finset.univ.image (Pipeline.arrRef spec2) → atTc (U6 m) c b = atTc (U5 m) c b := fun b hb => by
  have h5 : main_v59 ≠ b := fun e => hb (Finset.mem_image.mpr ⟨5, Finset.mem_univ _, e⟩)
  show U6 m c (Proc.devRef .tc b) = U5 m c (Proc.devRef .tc b)
  unfold U6
  rw [Function.update_of_ne (StableHlo.devRef_ne_of_ne h5.symm)]
set_option maxHeartbeats 4000000 in
theorem hF3 (c : Dev nD) : ∀ w : Fin cfg3.W, (dat3 (atTc (U7 m)) c).arrAt w cfg3.N = atTc (U8 m) c (Pipeline.arrRef spec3 w)
  | ⟨0, _⟩ => by
    show _ = U8 m c (Proc.devRef .tc main_v59)
    unfold U8
    rw [Function.update_of_ne (show (Proc.devRef (τ := τ) .tc main_v59) ≠ Proc.devRef .tc main_v61 from StableHlo.devRef_ne_of_ne (by decide))]
    exact ((dat3 (atTc (U7 m)) c).arrAt_in 0 rfl _).trans (A_eq3 (atTc (U7 m)) c 0)
  | ⟨1, _⟩ => by
    show _ = U8 m c (Proc.devRef .tc main_arg6)
    unfold U8
    rw [Function.update_of_ne (show (Proc.devRef (τ := τ) .tc main_arg6) ≠ Proc.devRef .tc main_v61 from StableHlo.devRef_ne_of_ne (by decide))]
    exact ((dat3 (atTc (U7 m)) c).arrAt_in 1 rfl _).trans (A_eq3 (atTc (U7 m)) c 1)
  | ⟨2, _⟩ => by
    show _ = U8 m c (Proc.devRef .tc main_v60)
    unfold U8
    rw [Function.update_of_ne (show (Proc.devRef (τ := τ) .tc main_v60) ≠ Proc.devRef .tc main_v61 from StableHlo.devRef_ne_of_ne (by decide))]
    exact ((dat3 (atTc (U7 m)) c).arrAt_in 2 rfl _).trans (A_eq3 (atTc (U7 m)) c 2)
  | ⟨3, _⟩ => by
    show _ = U8 m c (Proc.devRef .tc main_v61)
    unfold U8
    rw [Function.update_self]
    try rfl
theorem hrest3 (c : Dev nD) : ∀ b, b ∉ Finset.univ.image (Pipeline.arrRef spec3) → atTc (U8 m) c b = atTc (U7 m) c b := fun b hb => by
  have h3 : main_v61 ≠ b := fun e => hb (Finset.mem_image.mpr ⟨3, Finset.mem_univ _, e⟩)
  show U8 m c (Proc.devRef .tc b) = U7 m c (Proc.devRef .tc b)
  unfold U8
  rw [Function.update_of_ne (StableHlo.devRef_ne_of_ne h3.symm)]
set_option maxHeartbeats 4000000 in
theorem hF4 (c : Dev nD) : ∀ w : Fin cfg4.W, (dat4 (atTc (U9 m)) c).arrAt w cfg4.N = atTc (U10 m) c (Pipeline.arrRef spec4 w)
  | ⟨0, _⟩ => by
    show _ = U10 m c (Proc.devRef .tc main_v74)
    unfold U10
    rw [Function.update_of_ne (show (Proc.devRef (τ := τ) .tc main_v74) ≠ Proc.devRef .tc main_v75_2 from StableHlo.devRef_ne_of_ne (by decide)),
      Function.update_of_ne (show (Proc.devRef (τ := τ) .tc main_v74) ≠ Proc.devRef .tc main_v75_1 from StableHlo.devRef_ne_of_ne (by decide)),
      Function.update_of_ne (show (Proc.devRef (τ := τ) .tc main_v74) ≠ Proc.devRef .tc main_v75_0 from StableHlo.devRef_ne_of_ne (by decide))]
    exact ((dat4 (atTc (U9 m)) c).arrAt_in 0 rfl _).trans (A_eq4 (atTc (U9 m)) c 0)
  | ⟨1, _⟩ => by
    show _ = U10 m c (Proc.devRef .tc main_v61)
    unfold U10
    rw [Function.update_of_ne (show (Proc.devRef (τ := τ) .tc main_v61) ≠ Proc.devRef .tc main_v75_2 from StableHlo.devRef_ne_of_ne (by decide)),
      Function.update_of_ne (show (Proc.devRef (τ := τ) .tc main_v61) ≠ Proc.devRef .tc main_v75_1 from StableHlo.devRef_ne_of_ne (by decide)),
      Function.update_of_ne (show (Proc.devRef (τ := τ) .tc main_v61) ≠ Proc.devRef .tc main_v75_0 from StableHlo.devRef_ne_of_ne (by decide))]
    exact ((dat4 (atTc (U9 m)) c).arrAt_in 1 rfl _).trans (A_eq4 (atTc (U9 m)) c 1)
  | ⟨2, _⟩ => by
    show _ = U10 m c (Proc.devRef .tc main_v32)
    unfold U10
    rw [Function.update_of_ne (show (Proc.devRef (τ := τ) .tc main_v32) ≠ Proc.devRef .tc main_v75_2 from StableHlo.devRef_ne_of_ne (by decide)),
      Function.update_of_ne (show (Proc.devRef (τ := τ) .tc main_v32) ≠ Proc.devRef .tc main_v75_1 from StableHlo.devRef_ne_of_ne (by decide)),
      Function.update_of_ne (show (Proc.devRef (τ := τ) .tc main_v32) ≠ Proc.devRef .tc main_v75_0 from StableHlo.devRef_ne_of_ne (by decide))]
    exact ((dat4 (atTc (U9 m)) c).arrAt_in 2 rfl _).trans (A_eq4 (atTc (U9 m)) c 2)
  | ⟨3, _⟩ => by
    show _ = U10 m c (Proc.devRef .tc main_v75_0)
    unfold U10
    rw [Function.update_of_ne (show (Proc.devRef (τ := τ) .tc main_v75_0) ≠ Proc.devRef .tc main_v75_2 from StableHlo.devRef_ne_of_ne (by decide)),
      Function.update_of_ne (show (Proc.devRef (τ := τ) .tc main_v75_0) ≠ Proc.devRef .tc main_v75_1 from StableHlo.devRef_ne_of_ne (by decide)),
      Function.update_self]
    try rfl
  | ⟨4, _⟩ => by
    show _ = U10 m c (Proc.devRef .tc main_v75_1)
    unfold U10
    rw [Function.update_of_ne (show (Proc.devRef (τ := τ) .tc main_v75_1) ≠ Proc.devRef .tc main_v75_2 from StableHlo.devRef_ne_of_ne (by decide)),
      Function.update_self]
    try rfl
  | ⟨5, _⟩ => by
    show _ = U10 m c (Proc.devRef .tc main_v75_2)
    unfold U10
    rw [Function.update_self]
    try rfl
theorem hrest4 (c : Dev nD) : ∀ b, b ∉ Finset.univ.image (Pipeline.arrRef spec4) → atTc (U10 m) c b = atTc (U9 m) c b := fun b hb => by
  have h3 : main_v75_0 ≠ b := fun e => hb (Finset.mem_image.mpr ⟨3, Finset.mem_univ _, e⟩)
  have h4 : main_v75_1 ≠ b := fun e => hb (Finset.mem_image.mpr ⟨4, Finset.mem_univ _, e⟩)
  have h5 : main_v75_2 ≠ b := fun e => hb (Finset.mem_image.mpr ⟨5, Finset.mem_univ _, e⟩)
  show U10 m c (Proc.devRef .tc b) = U9 m c (Proc.devRef .tc b)
  unfold U10
  rw [Function.update_of_ne (StableHlo.devRef_ne_of_ne h5.symm), Function.update_of_ne (StableHlo.devRef_ne_of_ne h4.symm), Function.update_of_ne (StableHlo.devRef_ne_of_ne h3.symm)]
set_option maxHeartbeats 4000000 in
theorem hF5 (c : Dev nD) : ∀ w : Fin cfg5.W, (dat5 (atTc (U11 m)) c).arrAt w cfg5.N = atTc (U12 m) c (Pipeline.arrRef spec5 w)
  | ⟨0, _⟩ => by
    show _ = U12 m c (Proc.devRef .tc main_v75_0)
    unfold U12
    rw [Function.update_of_ne (show (Proc.devRef (τ := τ) .tc main_v75_0) ≠ Proc.devRef .tc main_v86 from StableHlo.devRef_ne_of_ne (by decide))]
    exact ((dat5 (atTc (U11 m)) c).arrAt_in 0 rfl _).trans (A_eq5 (atTc (U11 m)) c 0)
  | ⟨1, _⟩ => by
    show _ = U12 m c (Proc.devRef .tc main_v77)
    unfold U12
    rw [Function.update_of_ne (show (Proc.devRef (τ := τ) .tc main_v77) ≠ Proc.devRef .tc main_v86 from StableHlo.devRef_ne_of_ne (by decide))]
    exact ((dat5 (atTc (U11 m)) c).arrAt_in 1 rfl _).trans (A_eq5 (atTc (U11 m)) c 1)
  | ⟨2, _⟩ => by
    show _ = U12 m c (Proc.devRef .tc main_v83)
    unfold U12
    rw [Function.update_of_ne (show (Proc.devRef (τ := τ) .tc main_v83) ≠ Proc.devRef .tc main_v86 from StableHlo.devRef_ne_of_ne (by decide))]
    exact ((dat5 (atTc (U11 m)) c).arrAt_in 2 rfl _).trans (A_eq5 (atTc (U11 m)) c 2)
  | ⟨3, _⟩ => by
    show _ = U12 m c (Proc.devRef .tc main_v84)
    unfold U12
    rw [Function.update_of_ne (show (Proc.devRef (τ := τ) .tc main_v84) ≠ Proc.devRef .tc main_v86 from StableHlo.devRef_ne_of_ne (by decide))]
    exact ((dat5 (atTc (U11 m)) c).arrAt_in 3 rfl _).trans (A_eq5 (atTc (U11 m)) c 3)
  | ⟨4, _⟩ => by
    show _ = U12 m c (Proc.devRef .tc main_v85)
    unfold U12
    rw [Function.update_of_ne (show (Proc.devRef (τ := τ) .tc main_v85) ≠ Proc.devRef .tc main_v86 from StableHlo.devRef_ne_of_ne (by decide))]
    exact ((dat5 (atTc (U11 m)) c).arrAt_in 4 rfl _).trans (A_eq5 (atTc (U11 m)) c 4)
  | ⟨5, _⟩ => by
    show _ = U12 m c (Proc.devRef .tc main_v86)
    unfold U12
    rw [Function.update_self]
    try rfl
theorem hrest5 (c : Dev nD) : ∀ b, b ∉ Finset.univ.image (Pipeline.arrRef spec5) → atTc (U12 m) c b = atTc (U11 m) c b := fun b hb => by
  have h5 : main_v86 ≠ b := fun e => hb (Finset.mem_image.mpr ⟨5, Finset.mem_univ _, e⟩)
  show U12 m c (Proc.devRef .tc b) = U11 m c (Proc.devRef .tc b)
  unfold U12
  rw [Function.update_of_ne (StableHlo.devRef_ne_of_ne h5.symm)]
set_option maxHeartbeats 4000000 in
theorem hF6 (c : Dev nD) : ∀ w : Fin cfg6.W, (dat6 (atTc (U13 m)) c).arrAt w cfg6.N = atTc (U14 m) c (Pipeline.arrRef spec6 w)
  | ⟨0, _⟩ => by
    show _ = U14 m c (Proc.devRef .tc main_v86)
    unfold U14
    rw [Function.update_of_ne (show (Proc.devRef (τ := τ) .tc main_v86) ≠ Proc.devRef .tc main_v88 from StableHlo.devRef_ne_of_ne (by decide))]
    exact ((dat6 (atTc (U13 m)) c).arrAt_in 0 rfl _).trans (A_eq6 (atTc (U13 m)) c 0)
  | ⟨1, _⟩ => by
    show _ = U14 m c (Proc.devRef .tc main_arg10)
    unfold U14
    rw [Function.update_of_ne (show (Proc.devRef (τ := τ) .tc main_arg10) ≠ Proc.devRef .tc main_v88 from StableHlo.devRef_ne_of_ne (by decide))]
    exact ((dat6 (atTc (U13 m)) c).arrAt_in 1 rfl _).trans (A_eq6 (atTc (U13 m)) c 1)
  | ⟨2, _⟩ => by
    show _ = U14 m c (Proc.devRef .tc main_v87)
    unfold U14
    rw [Function.update_of_ne (show (Proc.devRef (τ := τ) .tc main_v87) ≠ Proc.devRef .tc main_v88 from StableHlo.devRef_ne_of_ne (by decide))]
    exact ((dat6 (atTc (U13 m)) c).arrAt_in 2 rfl _).trans (A_eq6 (atTc (U13 m)) c 2)
  | ⟨3, _⟩ => by
    show _ = U14 m c (Proc.devRef .tc main_v88)
    unfold U14
    rw [Function.update_self]
    try rfl
theorem hrest6 (c : Dev nD) : ∀ b, b ∉ Finset.univ.image (Pipeline.arrRef spec6) → atTc (U14 m) c b = atTc (U13 m) c b := fun b hb => by
  have h3 : main_v88 ≠ b := fun e => hb (Finset.mem_image.mpr ⟨3, Finset.mem_univ _, e⟩)
  show U14 m c (Proc.devRef .tc b) = U13 m c (Proc.devRef .tc b)
  unfold U14
  rw [Function.update_of_ne (StableHlo.devRef_ne_of_ne h3.symm)]
set_option maxHeartbeats 4000000 in
theorem hF7 (c : Dev nD) : ∀ w : Fin cfg7.W, (dat7 (atTc (U15 m)) c).arrAt w cfg7.N = atTc (U16 m) c (Pipeline.arrRef spec7 w)
  | ⟨0, _⟩ => by
    show _ = U16 m c (Proc.devRef .tc main_v101)
    unfold U16
    rw [Function.update_of_ne (show (Proc.devRef (τ := τ) .tc main_v101) ≠ Proc.devRef .tc main_v102_2 from StableHlo.devRef_ne_of_ne (by decide)),
      Function.update_of_ne (show (Proc.devRef (τ := τ) .tc main_v101) ≠ Proc.devRef .tc main_v102_1 from StableHlo.devRef_ne_of_ne (by decide)),
      Function.update_of_ne (show (Proc.devRef (τ := τ) .tc main_v101) ≠ Proc.devRef .tc main_v102_0 from StableHlo.devRef_ne_of_ne (by decide))]
    exact ((dat7 (atTc (U15 m)) c).arrAt_in 0 rfl _).trans (A_eq7 (atTc (U15 m)) c 0)
  | ⟨1, _⟩ => by
    show _ = U16 m c (Proc.devRef .tc main_v88)
    unfold U16
    rw [Function.update_of_ne (show (Proc.devRef (τ := τ) .tc main_v88) ≠ Proc.devRef .tc main_v102_2 from StableHlo.devRef_ne_of_ne (by decide)),
      Function.update_of_ne (show (Proc.devRef (τ := τ) .tc main_v88) ≠ Proc.devRef .tc main_v102_1 from StableHlo.devRef_ne_of_ne (by decide)),
      Function.update_of_ne (show (Proc.devRef (τ := τ) .tc main_v88) ≠ Proc.devRef .tc main_v102_0 from StableHlo.devRef_ne_of_ne (by decide))]
    exact ((dat7 (atTc (U15 m)) c).arrAt_in 1 rfl _).trans (A_eq7 (atTc (U15 m)) c 1)
  | ⟨2, _⟩ => by
    show _ = U16 m c (Proc.devRef .tc main_v32)
    unfold U16
    rw [Function.update_of_ne (show (Proc.devRef (τ := τ) .tc main_v32) ≠ Proc.devRef .tc main_v102_2 from StableHlo.devRef_ne_of_ne (by decide)),
      Function.update_of_ne (show (Proc.devRef (τ := τ) .tc main_v32) ≠ Proc.devRef .tc main_v102_1 from StableHlo.devRef_ne_of_ne (by decide)),
      Function.update_of_ne (show (Proc.devRef (τ := τ) .tc main_v32) ≠ Proc.devRef .tc main_v102_0 from StableHlo.devRef_ne_of_ne (by decide))]
    exact ((dat7 (atTc (U15 m)) c).arrAt_in 2 rfl _).trans (A_eq7 (atTc (U15 m)) c 2)
  | ⟨3, _⟩ => by
    show _ = U16 m c (Proc.devRef .tc main_v102_0)
    unfold U16
    rw [Function.update_of_ne (show (Proc.devRef (τ := τ) .tc main_v102_0) ≠ Proc.devRef .tc main_v102_2 from StableHlo.devRef_ne_of_ne (by decide)),
      Function.update_of_ne (show (Proc.devRef (τ := τ) .tc main_v102_0) ≠ Proc.devRef .tc main_v102_1 from StableHlo.devRef_ne_of_ne (by decide)),
      Function.update_self]
    try rfl
  | ⟨4, _⟩ => by
    show _ = U16 m c (Proc.devRef .tc main_v102_1)
    unfold U16
    rw [Function.update_of_ne (show (Proc.devRef (τ := τ) .tc main_v102_1) ≠ Proc.devRef .tc main_v102_2 from StableHlo.devRef_ne_of_ne (by decide)),
      Function.update_self]
    try rfl
  | ⟨5, _⟩ => by
    show _ = U16 m c (Proc.devRef .tc main_v102_2)
    unfold U16
    rw [Function.update_self]
    try rfl
theorem hrest7 (c : Dev nD) : ∀ b, b ∉ Finset.univ.image (Pipeline.arrRef spec7) → atTc (U16 m) c b = atTc (U15 m) c b := fun b hb => by
  have h3 : main_v102_0 ≠ b := fun e => hb (Finset.mem_image.mpr ⟨3, Finset.mem_univ _, e⟩)
  have h4 : main_v102_1 ≠ b := fun e => hb (Finset.mem_image.mpr ⟨4, Finset.mem_univ _, e⟩)
  have h5 : main_v102_2 ≠ b := fun e => hb (Finset.mem_image.mpr ⟨5, Finset.mem_univ _, e⟩)
  show U16 m c (Proc.devRef .tc b) = U15 m c (Proc.devRef .tc b)
  unfold U16
  rw [Function.update_of_ne (StableHlo.devRef_ne_of_ne h5.symm), Function.update_of_ne (StableHlo.devRef_ne_of_ne h4.symm), Function.update_of_ne (StableHlo.devRef_ne_of_ne h3.symm)]
set_option maxHeartbeats 4000000 in
theorem hF8 (c : Dev nD) : ∀ w : Fin cfg8.W, (dat8 (atTc (U17 m)) c).arrAt w cfg8.N = atTc (U18 m) c (Pipeline.arrRef spec8 w)
  | ⟨0, _⟩ => by
    show _ = U18 m c (Proc.devRef .tc main_v102_0)
    unfold U18
    rw [Function.update_of_ne (show (Proc.devRef (τ := τ) .tc main_v102_0) ≠ Proc.devRef .tc main_v113 from StableHlo.devRef_ne_of_ne (by decide))]
    exact ((dat8 (atTc (U17 m)) c).arrAt_in 0 rfl _).trans (A_eq8 (atTc (U17 m)) c 0)
  | ⟨1, _⟩ => by
    show _ = U18 m c (Proc.devRef .tc main_v104)
    unfold U18
    rw [Function.update_of_ne (show (Proc.devRef (τ := τ) .tc main_v104) ≠ Proc.devRef .tc main_v113 from StableHlo.devRef_ne_of_ne (by decide))]
    exact ((dat8 (atTc (U17 m)) c).arrAt_in 1 rfl _).trans (A_eq8 (atTc (U17 m)) c 1)
  | ⟨2, _⟩ => by
    show _ = U18 m c (Proc.devRef .tc main_v110)
    unfold U18
    rw [Function.update_of_ne (show (Proc.devRef (τ := τ) .tc main_v110) ≠ Proc.devRef .tc main_v113 from StableHlo.devRef_ne_of_ne (by decide))]
    exact ((dat8 (atTc (U17 m)) c).arrAt_in 2 rfl _).trans (A_eq8 (atTc (U17 m)) c 2)
  | ⟨3, _⟩ => by
    show _ = U18 m c (Proc.devRef .tc main_v111)
    unfold U18
    rw [Function.update_of_ne (show (Proc.devRef (τ := τ) .tc main_v111) ≠ Proc.devRef .tc main_v113 from StableHlo.devRef_ne_of_ne (by decide))]
    exact ((dat8 (atTc (U17 m)) c).arrAt_in 3 rfl _).trans (A_eq8 (atTc (U17 m)) c 3)
  | ⟨4, _⟩ => by
    show _ = U18 m c (Proc.devRef .tc main_v112)
    unfold U18
    rw [Function.update_of_ne (show (Proc.devRef (τ := τ) .tc main_v112) ≠ Proc.devRef .tc main_v113 from StableHlo.devRef_ne_of_ne (by decide))]
    exact ((dat8 (atTc (U17 m)) c).arrAt_in 4 rfl _).trans (A_eq8 (atTc (U17 m)) c 4)
  | ⟨5, _⟩ => by
    show _ = U18 m c (Proc.devRef .tc main_v113)
    unfold U18
    rw [Function.update_self]
    try rfl
theorem hrest8 (c : Dev nD) : ∀ b, b ∉ Finset.univ.image (Pipeline.arrRef spec8) → atTc (U18 m) c b = atTc (U17 m) c b := fun b hb => by
  have h5 : main_v113 ≠ b := fun e => hb (Finset.mem_image.mpr ⟨5, Finset.mem_univ _, e⟩)
  show U18 m c (Proc.devRef .tc b) = U17 m c (Proc.devRef .tc b)
  unfold U18
  rw [Function.update_of_ne (StableHlo.devRef_ne_of_ne h5.symm)]
set_option maxHeartbeats 4000000 in
theorem hF9 (c : Dev nD) : ∀ w : Fin cfg9.W, (dat9 (atTc (U19 m)) c).arrAt w cfg9.N = atTc (U20 m) c (Pipeline.arrRef spec9 w)
  | ⟨0, _⟩ => by
    show _ = U20 m c (Proc.devRef .tc main_v113)
    unfold U20
    rw [Function.update_of_ne (show (Proc.devRef (τ := τ) .tc main_v113) ≠ Proc.devRef .tc main_v115 from StableHlo.devRef_ne_of_ne (by decide))]
    exact ((dat9 (atTc (U19 m)) c).arrAt_in 0 rfl _).trans (A_eq9 (atTc (U19 m)) c 0)
  | ⟨1, _⟩ => by
    show _ = U20 m c (Proc.devRef .tc main_arg14)
    unfold U20
    rw [Function.update_of_ne (show (Proc.devRef (τ := τ) .tc main_arg14) ≠ Proc.devRef .tc main_v115 from StableHlo.devRef_ne_of_ne (by decide))]
    exact ((dat9 (atTc (U19 m)) c).arrAt_in 1 rfl _).trans (A_eq9 (atTc (U19 m)) c 1)
  | ⟨2, _⟩ => by
    show _ = U20 m c (Proc.devRef .tc main_v114)
    unfold U20
    rw [Function.update_of_ne (show (Proc.devRef (τ := τ) .tc main_v114) ≠ Proc.devRef .tc main_v115 from StableHlo.devRef_ne_of_ne (by decide))]
    exact ((dat9 (atTc (U19 m)) c).arrAt_in 2 rfl _).trans (A_eq9 (atTc (U19 m)) c 2)
  | ⟨3, _⟩ => by
    show _ = U20 m c (Proc.devRef .tc main_v115)
    unfold U20
    rw [Function.update_self]
    try rfl
theorem hrest9 (c : Dev nD) : ∀ b, b ∉ Finset.univ.image (Pipeline.arrRef spec9) → atTc (U20 m) c b = atTc (U19 m) c b := fun b hb => by
  have h3 : main_v115 ≠ b := fun e => hb (Finset.mem_image.mpr ⟨3, Finset.mem_univ _, e⟩)
  show U20 m c (Proc.devRef .tc b) = U19 m c (Proc.devRef .tc b)
  unfold U20
  rw [Function.update_of_ne (StableHlo.devRef_ne_of_ne h3.symm)]
set_option maxHeartbeats 4000000 in
theorem hF10 (c : Dev nD) : ∀ w : Fin cfg10.W, (dat10 (atTc (U21 m)) c).arrAt w cfg10.N = atTc (U22 m) c (Pipeline.arrRef spec10 w)
  | ⟨0, _⟩ => by
    show _ = U22 m c (Proc.devRef .tc main_v128)
    unfold U22
    rw [Function.update_of_ne (show (Proc.devRef (τ := τ) .tc main_v128) ≠ Proc.devRef .tc main_v129_2 from StableHlo.devRef_ne_of_ne (by decide)),
      Function.update_of_ne (show (Proc.devRef (τ := τ) .tc main_v128) ≠ Proc.devRef .tc main_v129_1 from StableHlo.devRef_ne_of_ne (by decide)),
      Function.update_of_ne (show (Proc.devRef (τ := τ) .tc main_v128) ≠ Proc.devRef .tc main_v129_0 from StableHlo.devRef_ne_of_ne (by decide))]
    exact ((dat10 (atTc (U21 m)) c).arrAt_in 0 rfl _).trans (A_eq10 (atTc (U21 m)) c 0)
  | ⟨1, _⟩ => by
    show _ = U22 m c (Proc.devRef .tc main_v115)
    unfold U22
    rw [Function.update_of_ne (show (Proc.devRef (τ := τ) .tc main_v115) ≠ Proc.devRef .tc main_v129_2 from StableHlo.devRef_ne_of_ne (by decide)),
      Function.update_of_ne (show (Proc.devRef (τ := τ) .tc main_v115) ≠ Proc.devRef .tc main_v129_1 from StableHlo.devRef_ne_of_ne (by decide)),
      Function.update_of_ne (show (Proc.devRef (τ := τ) .tc main_v115) ≠ Proc.devRef .tc main_v129_0 from StableHlo.devRef_ne_of_ne (by decide))]
    exact ((dat10 (atTc (U21 m)) c).arrAt_in 1 rfl _).trans (A_eq10 (atTc (U21 m)) c 1)
  | ⟨2, _⟩ => by
    show _ = U22 m c (Proc.devRef .tc main_v32)
    unfold U22
    rw [Function.update_of_ne (show (Proc.devRef (τ := τ) .tc main_v32) ≠ Proc.devRef .tc main_v129_2 from StableHlo.devRef_ne_of_ne (by decide)),
      Function.update_of_ne (show (Proc.devRef (τ := τ) .tc main_v32) ≠ Proc.devRef .tc main_v129_1 from StableHlo.devRef_ne_of_ne (by decide)),
      Function.update_of_ne (show (Proc.devRef (τ := τ) .tc main_v32) ≠ Proc.devRef .tc main_v129_0 from StableHlo.devRef_ne_of_ne (by decide))]
    exact ((dat10 (atTc (U21 m)) c).arrAt_in 2 rfl _).trans (A_eq10 (atTc (U21 m)) c 2)
  | ⟨3, _⟩ => by
    show _ = U22 m c (Proc.devRef .tc main_v129_0)
    unfold U22
    rw [Function.update_of_ne (show (Proc.devRef (τ := τ) .tc main_v129_0) ≠ Proc.devRef .tc main_v129_2 from StableHlo.devRef_ne_of_ne (by decide)),
      Function.update_of_ne (show (Proc.devRef (τ := τ) .tc main_v129_0) ≠ Proc.devRef .tc main_v129_1 from StableHlo.devRef_ne_of_ne (by decide)),
      Function.update_self]
    try rfl
  | ⟨4, _⟩ => by
    show _ = U22 m c (Proc.devRef .tc main_v129_1)
    unfold U22
    rw [Function.update_of_ne (show (Proc.devRef (τ := τ) .tc main_v129_1) ≠ Proc.devRef .tc main_v129_2 from StableHlo.devRef_ne_of_ne (by decide)),
      Function.update_self]
    try rfl
  | ⟨5, _⟩ => by
    show _ = U22 m c (Proc.devRef .tc main_v129_2)
    unfold U22
    rw [Function.update_self]
    try rfl
theorem hrest10 (c : Dev nD) : ∀ b, b ∉ Finset.univ.image (Pipeline.arrRef spec10) → atTc (U22 m) c b = atTc (U21 m) c b := fun b hb => by
  have h3 : main_v129_0 ≠ b := fun e => hb (Finset.mem_image.mpr ⟨3, Finset.mem_univ _, e⟩)
  have h4 : main_v129_1 ≠ b := fun e => hb (Finset.mem_image.mpr ⟨4, Finset.mem_univ _, e⟩)
  have h5 : main_v129_2 ≠ b := fun e => hb (Finset.mem_image.mpr ⟨5, Finset.mem_univ _, e⟩)
  show U22 m c (Proc.devRef .tc b) = U21 m c (Proc.devRef .tc b)
  unfold U22
  rw [Function.update_of_ne (StableHlo.devRef_ne_of_ne h5.symm), Function.update_of_ne (StableHlo.devRef_ne_of_ne h4.symm), Function.update_of_ne (StableHlo.devRef_ne_of_ne h3.symm)]
set_option maxHeartbeats 4000000 in
theorem hF11 (c : Dev nD) : ∀ w : Fin cfg11.W, (dat11 (atTc (U23 m)) c).arrAt w cfg11.N = atTc (U24 m) c (Pipeline.arrRef spec11 w)
  | ⟨0, _⟩ => by
    show _ = U24 m c (Proc.devRef .tc main_v129_0)
    unfold U24
    rw [Function.update_of_ne (show (Proc.devRef (τ := τ) .tc main_v129_0) ≠ Proc.devRef .tc main_v140 from StableHlo.devRef_ne_of_ne (by decide))]
    exact ((dat11 (atTc (U23 m)) c).arrAt_in 0 rfl _).trans (A_eq11 (atTc (U23 m)) c 0)
  | ⟨1, _⟩ => by
    show _ = U24 m c (Proc.devRef .tc main_v131)
    unfold U24
    rw [Function.update_of_ne (show (Proc.devRef (τ := τ) .tc main_v131) ≠ Proc.devRef .tc main_v140 from StableHlo.devRef_ne_of_ne (by decide))]
    exact ((dat11 (atTc (U23 m)) c).arrAt_in 1 rfl _).trans (A_eq11 (atTc (U23 m)) c 1)
  | ⟨2, _⟩ => by
    show _ = U24 m c (Proc.devRef .tc main_v137)
    unfold U24
    rw [Function.update_of_ne (show (Proc.devRef (τ := τ) .tc main_v137) ≠ Proc.devRef .tc main_v140 from StableHlo.devRef_ne_of_ne (by decide))]
    exact ((dat11 (atTc (U23 m)) c).arrAt_in 2 rfl _).trans (A_eq11 (atTc (U23 m)) c 2)
  | ⟨3, _⟩ => by
    show _ = U24 m c (Proc.devRef .tc main_v138)
    unfold U24
    rw [Function.update_of_ne (show (Proc.devRef (τ := τ) .tc main_v138) ≠ Proc.devRef .tc main_v140 from StableHlo.devRef_ne_of_ne (by decide))]
    exact ((dat11 (atTc (U23 m)) c).arrAt_in 3 rfl _).trans (A_eq11 (atTc (U23 m)) c 3)
  | ⟨4, _⟩ => by
    show _ = U24 m c (Proc.devRef .tc main_v139)
    unfold U24
    rw [Function.update_of_ne (show (Proc.devRef (τ := τ) .tc main_v139) ≠ Proc.devRef .tc main_v140 from StableHlo.devRef_ne_of_ne (by decide))]
    exact ((dat11 (atTc (U23 m)) c).arrAt_in 4 rfl _).trans (A_eq11 (atTc (U23 m)) c 4)
  | ⟨5, _⟩ => by
    show _ = U24 m c (Proc.devRef .tc main_v140)
    unfold U24
    rw [Function.update_self]
    try rfl
theorem hrest11 (c : Dev nD) : ∀ b, b ∉ Finset.univ.image (Pipeline.arrRef spec11) → atTc (U24 m) c b = atTc (U23 m) c b := fun b hb => by
  have h5 : main_v140 ≠ b := fun e => hb (Finset.mem_image.mpr ⟨5, Finset.mem_univ _, e⟩)
  show U24 m c (Proc.devRef .tc b) = U23 m c (Proc.devRef .tc b)
  unfold U24
  rw [Function.update_of_ne (StableHlo.devRef_ne_of_ne h5.symm)]

end Cert.Kernel.Gen

end
-- ==== Proof.KAsmRegs.lean ====
import proofs.«165059_j7095285973648_2_alg».proof.Proof.Gen.Kernel.Regions
import proofs.«165059_j7095285973648_2_alg».proof.Proof.KAsmVals
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The proof data of the twelve regions, and what rides beside the buffers -/

/-- Every region's proof data, each at the contents its region is entered with. -/
def pdats : (p : Fin 12) → (c : Dev nD) → Dat τ (Elt F) Unit ℕ (UR sig nD τ) ℕ (cfgs p) c
  | ⟨0, _⟩ => fun c => dat0 (atTc (U1 m)) c
  | ⟨1, _⟩ => fun c => dat1 (atTc (U3 m)) c
  | ⟨2, _⟩ => fun c => dat2 (atTc (U5 m)) c
  | ⟨3, _⟩ => fun c => dat3 (atTc (U7 m)) c
  | ⟨4, _⟩ => fun c => dat4 (atTc (U9 m)) c
  | ⟨5, _⟩ => fun c => dat5 (atTc (U11 m)) c
  | ⟨6, _⟩ => fun c => dat6 (atTc (U13 m)) c
  | ⟨7, _⟩ => fun c => dat7 (atTc (U15 m)) c
  | ⟨8, _⟩ => fun c => dat8 (atTc (U17 m)) c
  | ⟨9, _⟩ => fun c => dat9 (atTc (U19 m)) c
  | ⟨10, _⟩ => fun c => dat10 (atTc (U21 m)) c
  | ⟨11, _⟩ => fun c => dat11 (atTc (U23 m)) c

/-- No core owes another anything: no level is assigned. -/
abbrev noLv : GSem nD τ sig → Finset Unit := fun _ => ∅
abbrev lvZero : GSem nD τ sig → Unit → ℕ := fun _ _ => 0
/-- Beside the buffers a core carries its generator register, at some state, and owes nothing. -/
abbrev Rest (c : Dev nD) : sProp 𝕄 := iprop((∃ r, prngReg c r) ∗ ∃ W, owes (c : Thread nD τ) (0 : CellTallies nD τ sig Unit) W)

/-! ## The regions as segments

A region is entered with every unscoped buffer at the contents before it and left with them at the contents after
it: its arrays are split out of the buffers at entry and put back, at what the write-backs leave, at exit; the
generator register goes into the region's invariant and comes back; nothing is owed; the kernel has no
semaphore of its own. -/

set_option backward.isDefEq.respectTransparency.types false in
def reg0 : Pipeline.RegionSeg (pcfgs (F := F)) adm (pdats m) () defs₀ Variants.none noLv lvZero 0 where
  win := launch0.win.to₀
  block_pos := launch0.block_pos
  stage_whole := launch0.stage_whole
  K := PEmpty
  osem k := k.elim
  ho := Pipeline.OwnSemFacts.none _
  hbody c := (body_obligation0 (atTc (U1 m)) c).loose
  hwaits := Pipeline.hwaits_of_owed_zero _ _ _ _ noLv lvZero 0 fun _ _ => rfl
  pre c := iprop(StableHlo.held (c : Thread nD τ) (Pipeline.ucRefs τ sig) (U1 m c) ∗ Rest c)
  post c := iprop(StableHlo.held (c : Thread nD τ) (Pipeline.ucRefs τ sig) (U2 m c) ∗ Rest c)
  X c := iprop(∃ r, prngReg c r)
  Y c := iprop(∃ r, prngReg c r)
  Z c := Pipeline.unscopedRest (Ix := Unit) (Name := ℕ) (U := UR sig nD τ) (Lvl := ℕ) spec0 c (atTc (U1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (U1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (U1 m) c) (atTc (U2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 (hb : ∀ c : Dev nD, BodyObligation (dat1 (F := F) (atTc (U3 m)) c) (defs₀ (F := F)) Variants.none () Set.univ) : Pipeline.RegionSeg (pcfgs (F := F)) adm (pdats m) () defs₀ Variants.none noLv lvZero 1 where
  win := launch1.win.to₀
  block_pos := launch1.block_pos
  stage_whole := launch1.stage_whole
  K := PEmpty
  osem k := k.elim
  ho := Pipeline.OwnSemFacts.none _
  hbody c := (hb c).loose
  hwaits := Pipeline.hwaits_of_owed_zero _ _ _ _ noLv lvZero 1 fun _ _ => rfl
  pre c := iprop(StableHlo.held (c : Thread nD τ) (Pipeline.ucRefs τ sig) (U3 m c) ∗ Rest c)
  post c := iprop(StableHlo.held (c : Thread nD τ) (Pipeline.ucRefs τ sig) (U4 m c) ∗ Rest c)
  X c := iprop(∃ r, prngReg c r)
  Y c := iprop(∃ r, prngReg c r)
  Z c := Pipeline.unscopedRest (Ix := Unit) (Name := ℕ) (U := UR sig nD τ) (Lvl := ℕ) spec1 c (atTc (U3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (U3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (U3 m) c) (atTc (U4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m) () defs₀ Variants.none noLv lvZero 2 where
  win := launch2.win.to₀
  block_pos := launch2.block_pos
  stage_whole := launch2.stage_whole
  K := PEmpty
  osem k := k.elim
  ho := Pipeline.OwnSemFacts.none _
  hbody c := (body_obligation2 (atTc (U5 m)) c).loose
  hwaits := Pipeline.hwaits_of_owed_zero _ _ _ _ noLv lvZero 2 fun _ _ => rfl
  pre c := iprop(StableHlo.held (c : Thread nD τ) (Pipeline.ucRefs τ sig) (U5 m c) ∗ Rest c)
  post c := iprop(StableHlo.held (c : Thread nD τ) (Pipeline.ucRefs τ sig) (U6 m c) ∗ Rest c)
  X c := iprop(∃ r, prngReg c r)
  Y c := iprop(∃ r, prngReg c r)
  Z c := Pipeline.unscopedRest (Ix := Unit) (Name := ℕ) (U := UR sig nD τ) (Lvl := ℕ) spec2 c (atTc (U5 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (U5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (U5 m) c) (atTc (U6 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg3 : Pipeline.RegionSeg (pcfgs (F := F)) adm (pdats m) () defs₀ Variants.none noLv lvZero 3 where
  win := launch3.win.to₀
  block_pos := launch3.block_pos
  stage_whole := launch3.stage_whole
  K := PEmpty
  osem k := k.elim
  ho := Pipeline.OwnSemFacts.none _
  hbody c := (body_obligation3 (atTc (U7 m)) c).loose
  hwaits := Pipeline.hwaits_of_owed_zero _ _ _ _ noLv lvZero 3 fun _ _ => rfl
  pre c := iprop(StableHlo.held (c : Thread nD τ) (Pipeline.ucRefs τ sig) (U7 m c) ∗ Rest c)
  post c := iprop(StableHlo.held (c : Thread nD τ) (Pipeline.ucRefs τ sig) (U8 m c) ∗ Rest c)
  X c := iprop(∃ r, prngReg c r)
  Y c := iprop(∃ r, prngReg c r)
  Z c := Pipeline.unscopedRest (Ix := Unit) (Name := ℕ) (U := UR sig nD τ) (Lvl := ℕ) spec3 c (atTc (U7 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (U7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (U7 m) c) (atTc (U8 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg4 (hb : ∀ c : Dev nD, BodyObligation (dat4 (F := F) (atTc (U9 m)) c) (defs₀ (F := F)) Variants.none () Set.univ) : Pipeline.RegionSeg (pcfgs (F := F)) adm (pdats m) () defs₀ Variants.none noLv lvZero 4 where
  win := launch4.win.to₀
  block_pos := launch4.block_pos
  stage_whole := launch4.stage_whole
  K := PEmpty
  osem k := k.elim
  ho := Pipeline.OwnSemFacts.none _
  hbody c := (hb c).loose
  hwaits := Pipeline.hwaits_of_owed_zero _ _ _ _ noLv lvZero 4 fun _ _ => rfl
  pre c := iprop(StableHlo.held (c : Thread nD τ) (Pipeline.ucRefs τ sig) (U9 m c) ∗ Rest c)
  post c := iprop(StableHlo.held (c : Thread nD τ) (Pipeline.ucRefs τ sig) (U10 m c) ∗ Rest c)
  X c := iprop(∃ r, prngReg c r)
  Y c := iprop(∃ r, prngReg c r)
  Z c := Pipeline.unscopedRest (Ix := Unit) (Name := ℕ) (U := UR sig nD τ) (Lvl := ℕ) spec4 c (atTc (U9 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atTc (U9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atTc (U9 m) c) (atTc (U10 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg5 : Pipeline.RegionSeg (pcfgs (F := F)) adm (pdats m) () defs₀ Variants.none noLv lvZero 5 where
  win := launch5.win.to₀
  block_pos := launch5.block_pos
  stage_whole := launch5.stage_whole
  K := PEmpty
  osem k := k.elim
  ho := Pipeline.OwnSemFacts.none _
  hbody c := (body_obligation5 (atTc (U11 m)) c).loose
  hwaits := Pipeline.hwaits_of_owed_zero _ _ _ _ noLv lvZero 5 fun _ _ => rfl
  pre c := iprop(StableHlo.held (c : Thread nD τ) (Pipeline.ucRefs τ sig) (U11 m c) ∗ Rest c)
  post c := iprop(StableHlo.held (c : Thread nD τ) (Pipeline.ucRefs τ sig) (U12 m c) ∗ Rest c)
  X c := iprop(∃ r, prngReg c r)
  Y c := iprop(∃ r, prngReg c r)
  Z c := Pipeline.unscopedRest (Ix := Unit) (Name := ℕ) (U := UR sig nD τ) (Lvl := ℕ) spec5 c (atTc (U11 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (atTc (U11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (atTc (U11 m) c) (atTc (U12 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg6 : Pipeline.RegionSeg (pcfgs (F := F)) adm (pdats m) () defs₀ Variants.none noLv lvZero 6 where
  win := launch6.win.to₀
  block_pos := launch6.block_pos
  stage_whole := launch6.stage_whole
  K := PEmpty
  osem k := k.elim
  ho := Pipeline.OwnSemFacts.none _
  hbody c := (body_obligation6 (atTc (U13 m)) c).loose
  hwaits := Pipeline.hwaits_of_owed_zero _ _ _ _ noLv lvZero 6 fun _ _ => rfl
  pre c := iprop(StableHlo.held (c : Thread nD τ) (Pipeline.ucRefs τ sig) (U13 m c) ∗ Rest c)
  post c := iprop(StableHlo.held (c : Thread nD τ) (Pipeline.ucRefs τ sig) (U14 m c) ∗ Rest c)
  X c := iprop(∃ r, prngReg c r)
  Y c := iprop(∃ r, prngReg c r)
  Z c := Pipeline.unscopedRest (Ix := Unit) (Name := ℕ) (U := UR sig nD τ) (Lvl := ℕ) spec6 c (atTc (U13 m) c)
  hentry c := by
    rw [Pipeline.ownSems0_none]
    have hsplit := Pipeline.arrays_of_unscopedBufs (p := 6) (pcfgs (F := F)) adm (pdats m) launch6.win launch6.arr_whole c
      ((pdats m 6 c).share_full fun _ => rfl) (atTc (U13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (atTc (U13 m) c) (atTc (U14 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg7 (hb : ∀ c : Dev nD, BodyObligation (dat7 (F := F) (atTc (U15 m)) c) (defs₀ (F := F)) Variants.none () Set.univ) : Pipeline.RegionSeg (pcfgs (F := F)) adm (pdats m) () defs₀ Variants.none noLv lvZero 7 where
  win := launch7.win.to₀
  block_pos := launch7.block_pos
  stage_whole := launch7.stage_whole
  K := PEmpty
  osem k := k.elim
  ho := Pipeline.OwnSemFacts.none _
  hbody c := (hb c).loose
  hwaits := Pipeline.hwaits_of_owed_zero _ _ _ _ noLv lvZero 7 fun _ _ => rfl
  pre c := iprop(StableHlo.held (c : Thread nD τ) (Pipeline.ucRefs τ sig) (U15 m c) ∗ Rest c)
  post c := iprop(StableHlo.held (c : Thread nD τ) (Pipeline.ucRefs τ sig) (U16 m c) ∗ Rest c)
  X c := iprop(∃ r, prngReg c r)
  Y c := iprop(∃ r, prngReg c r)
  Z c := Pipeline.unscopedRest (Ix := Unit) (Name := ℕ) (U := UR sig nD τ) (Lvl := ℕ) spec7 c (atTc (U15 m) c)
  hentry c := by
    rw [Pipeline.ownSems0_none]
    have hsplit := Pipeline.arrays_of_unscopedBufs (p := 7) (pcfgs (F := F)) adm (pdats m) launch7.win launch7.arr_whole c
      ((pdats m 7 c).share_full fun _ => rfl) (atTc (U15 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (atTc (U15 m) c) (atTc (U16 m) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg8 : Pipeline.RegionSeg (pcfgs (F := F)) adm (pdats m) () defs₀ Variants.none noLv lvZero 8 where
  win := launch8.win.to₀
  block_pos := launch8.block_pos
  stage_whole := launch8.stage_whole
  K := PEmpty
  osem k := k.elim
  ho := Pipeline.OwnSemFacts.none _
  hbody c := (body_obligation8 (atTc (U17 m)) c).loose
  hwaits := Pipeline.hwaits_of_owed_zero _ _ _ _ noLv lvZero 8 fun _ _ => rfl
  pre c := iprop(StableHlo.held (c : Thread nD τ) (Pipeline.ucRefs τ sig) (U17 m c) ∗ Rest c)
  post c := iprop(StableHlo.held (c : Thread nD τ) (Pipeline.ucRefs τ sig) (U18 m c) ∗ Rest c)
  X c := iprop(∃ r, prngReg c r)
  Y c := iprop(∃ r, prngReg c r)
  Z c := Pipeline.unscopedRest (Ix := Unit) (Name := ℕ) (U := UR sig nD τ) (Lvl := ℕ) spec8 c (atTc (U17 m) c)
  hentry c := by
    rw [Pipeline.ownSems0_none]
    have hsplit := Pipeline.arrays_of_unscopedBufs (p := 8) (pcfgs (F := F)) adm (pdats m) launch8.win launch8.arr_whole c
      ((pdats m 8 c).share_full fun _ => rfl) (atTc (U17 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (atTc (U17 m) c) (atTc (U18 m) c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg9 : Pipeline.RegionSeg (pcfgs (F := F)) adm (pdats m) () defs₀ Variants.none noLv lvZero 9 where
  win := launch9.win.to₀
  block_pos := launch9.block_pos
  stage_whole := launch9.stage_whole
  K := PEmpty
  osem k := k.elim
  ho := Pipeline.OwnSemFacts.none _
  hbody c := (body_obligation9 (atTc (U19 m)) c).loose
  hwaits := Pipeline.hwaits_of_owed_zero _ _ _ _ noLv lvZero 9 fun _ _ => rfl
  pre c := iprop(StableHlo.held (c : Thread nD τ) (Pipeline.ucRefs τ sig) (U19 m c) ∗ Rest c)
  post c := iprop(StableHlo.held (c : Thread nD τ) (Pipeline.ucRefs τ sig) (U20 m c) ∗ Rest c)
  X c := iprop(∃ r, prngReg c r)
  Y c := iprop(∃ r, prngReg c r)
  Z c := Pipeline.unscopedRest (Ix := Unit) (Name := ℕ) (U := UR sig nD τ) (Lvl := ℕ) spec9 c (atTc (U19 m) c)
  hentry c := by
    rw [Pipeline.ownSems0_none]
    have hsplit := Pipeline.arrays_of_unscopedBufs (p := 9) (pcfgs (F := F)) adm (pdats m) launch9.win launch9.arr_whole c
      ((pdats m 9 c).share_full fun _ => rfl) (atTc (U19 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (atTc (U19 m) c) (atTc (U20 m) c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg10 (hb : ∀ c : Dev nD, BodyObligation (dat10 (F := F) (atTc (U21 m)) c) (defs₀ (F := F)) Variants.none () Set.univ) : Pipeline.RegionSeg (pcfgs (F := F)) adm (pdats m) () defs₀ Variants.none noLv lvZero 10 where
  win := launch10.win.to₀
  block_pos := launch10.block_pos
  stage_whole := launch10.stage_whole
  K := PEmpty
  osem k := k.elim
  ho := Pipeline.OwnSemFacts.none _
  hbody c := (hb c).loose
  hwaits := Pipeline.hwaits_of_owed_zero _ _ _ _ noLv lvZero 10 fun _ _ => rfl
  pre c := iprop(StableHlo.held (c : Thread nD τ) (Pipeline.ucRefs τ sig) (U21 m c) ∗ Rest c)
  post c := iprop(StableHlo.held (c : Thread nD τ) (Pipeline.ucRefs τ sig) (U22 m c) ∗ Rest c)
  X c := iprop(∃ r, prngReg c r)
  Y c := iprop(∃ r, prngReg c r)
  Z c := Pipeline.unscopedRest (Ix := Unit) (Name := ℕ) (U := UR sig nD τ) (Lvl := ℕ) spec10 c (atTc (U21 m) c)
  hentry c := by
    rw [Pipeline.ownSems0_none]
    have hsplit := Pipeline.arrays_of_unscopedBufs (p := 10) (pcfgs (F := F)) adm (pdats m) launch10.win launch10.arr_whole c
      ((pdats m 10 c).share_full fun _ => rfl) (atTc (U21 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (atTc (U21 m) c) (atTc (U22 m) c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg11 : Pipeline.RegionSeg (pcfgs (F := F)) adm (pdats m) () defs₀ Variants.none noLv lvZero 11 where
  win := launch11.win.to₀
  block_pos := launch11.block_pos
  stage_whole := launch11.stage_whole
  K := PEmpty
  osem k := k.elim
  ho := Pipeline.OwnSemFacts.none _
  hbody c := (body_obligation11 (atTc (U23 m)) c).loose
  hwaits := Pipeline.hwaits_of_owed_zero _ _ _ _ noLv lvZero 11 fun _ _ => rfl
  pre c := iprop(StableHlo.held (c : Thread nD τ) (Pipeline.ucRefs τ sig) (U23 m c) ∗ Rest c)
  post c := iprop(StableHlo.held (c : Thread nD τ) (Pipeline.ucRefs τ sig) (U24 m c) ∗ Rest c)
  X c := iprop(∃ r, prngReg c r)
  Y c := iprop(∃ r, prngReg c r)
  Z c := Pipeline.unscopedRest (Ix := Unit) (Name := ℕ) (U := UR sig nD τ) (Lvl := ℕ) spec11 c (atTc (U23 m) c)
  hentry c := by
    rw [Pipeline.ownSems0_none]
    have hsplit := Pipeline.arrays_of_unscopedBufs (p := 11) (pcfgs (F := F)) adm (pdats m) launch11.win launch11.arr_whole c
      ((pdats m 11 c).share_full fun _ => rfl) (atTc (U23 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (atTc (U23 m) c) (atTc (U24 m) c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KAsmFrame.lean ====
import proofs.«165059_j7095285973648_2_alg».proof.Proof.Gen.Kernel.Regions
import proofs.«165059_j7095285973648_2_alg».proof.Proof.KAsmRegs
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The launch over the twelve regions

Given the body obligations of the four regions that accumulate column sums (the other eight regions' are proved
with their proof data), every weakly fair execution of the program from memory `m` with zero counters terminates,
nothing faulting; every unscoped buffer of every core ends holding the last contents `U24`; in particular each
argument array ends as launched. -/

/-- At the launch a core's semaphores, what it owes and its generator register make its rest state. -/
theorem launchRest1 (ρ : Dev nD → PrngReg) (c : Dev nD) :
    (iprop(unscopedSems0 c ∗ owes (c : Thread nD τ) (0 : CellTallies nD τ sig Unit) ∅
        ∗ Pipeline.launchCred (0 : Dev nD → CellTallies nD τ sig Unit) c ∗ prngReg c (ρ c) ∗ iprop(emp)) : sProp 𝕄)
      ⊢ Rest (F := F) c := by
  iintro ⟨-, HO, -, Hp, -⟩
  isplitl [Hp]; · iexists _; iexact Hp
  iexists ∅; iexact HO

/-- The same on every core at once. -/
theorem launchRest (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (fun _ : Dev nD => (iprop(emp) : sProp 𝕄)) c)) ∗ levAts noLv lvZero)
      ⊢ (|={Set.univ}=> bigSep Finset.univ (fun c : Dev nD => Rest (F := F) c) : sProp 𝕄) := by
  have hmono : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (fun _ : Dev nD => (iprop(emp) : sProp 𝕄)) c))
      ⊢ (bigSep Finset.univ (fun c : Dev nD => Rest (F := F) c) : sProp 𝕄) := bigSep_mono fun c _ => launchRest1 ρ c
  iintro ⟨H, -⟩
  imodintro
  iapply hmono
  iexact H

set_option backward.isDefEq.respectTransparency.types false in
theorem frame_of_bodies (ρ : Dev nD → PrngReg)
    (hb1 : ∀ c : Dev nD, BodyObligation (dat1 (F := F) (atTc (U3 m)) c) (defs₀ (F := F)) Variants.none () Set.univ)
    (hb4 : ∀ c : Dev nD, BodyObligation (dat4 (F := F) (atTc (U9 m)) c) (defs₀ (F := F)) Variants.none () Set.univ)
    (hb7 : ∀ c : Dev nD, BodyObligation (dat7 (F := F) (atTc (U15 m)) c) (defs₀ (F := F)) Variants.none () Set.univ)
    (hb10 : ∀ c : Dev nD, BodyObligation (dat10 (F := F) (atTc (U21 m)) c) (defs₀ (F := F)) Variants.none () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_cond (m := m) (EP := emb₁) (ι := ()) (𝒱₀ := Variants.none) (L := noLv) (lv := lvZero) (hL := fun _ _ => rfl) (ρ := ρ) (outs := outs m)
    (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rest c)
    (hE0 := launchRest ρ)
    (hE12 := fun c => by
      iintro ⟨-, HO⟩
      iexact HO)
    (R0 := reg0 m) (hpre0 := fun c => by rw [V1_eq]; exact .rfl) (hpost0 := fun c => by rw [V2_eq]; exact .rfl)
    (R1 := reg1 m hb1) (hpre1 := fun c => by rw [V3_eq]; exact .rfl) (hpost1 := fun c => by rw [V4_eq]; exact .rfl)
    (R2 := reg2 m) (hpre2 := fun c => by rw [V5_eq]; exact .rfl) (hpost2 := fun c => by rw [V6_eq]; exact .rfl)
    (R3 := reg3 m) (hpre3 := fun c => by rw [V7_eq]; exact .rfl) (hpost3 := fun c => by rw [V8_eq]; exact .rfl)
    (R4 := reg4 m hb4) (hpre4 := fun c => by rw [V9_eq]; exact .rfl) (hpost4 := fun c => by rw [V10_eq]; exact .rfl)
    (R5 := reg5 m) (hpre5 := fun c => by rw [V11_eq]; exact .rfl) (hpost5 := fun c => by rw [V12_eq]; exact .rfl)
    (R6 := reg6 m) (hpre6 := fun c => by rw [V13_eq]; exact .rfl) (hpost6 := fun c => by rw [V14_eq]; exact .rfl)
    (R7 := reg7 m hb7) (hpre7 := fun c => by rw [V15_eq]; exact .rfl) (hpost7 := fun c => by rw [V16_eq]; exact .rfl)
    (R8 := reg8 m) (hpre8 := fun c => by rw [V17_eq]; exact .rfl) (hpost8 := fun c => by rw [V18_eq]; exact .rfl)
    (R9 := reg9 m) (hpre9 := fun c => by rw [V19_eq]; exact .rfl) (hpost9 := fun c => by rw [V20_eq]; exact .rfl)
    (R10 := reg10 m hb10) (hpre10 := fun c => by rw [V21_eq]; exact .rfl) (hpost10 := fun c => by rw [V22_eq]; exact .rfl)
    (R11 := reg11 m) (hpre11 := fun c => by rw [V23_eq]; exact .rfl) (hpost11 := fun c => by rw [V24_eq]; exact .rfl)

end Cert.Kernel.Gen

end
-- ==== Proof.KComb1.lean ====
import proofs.«165059_j7095285973648_2_alg».proof.Proof.Gen.Kernel.Launch
import proofs.«165059_j7095285973648_2_alg».proof.Proof.Gen.Kernel.Skeleton
import proofs.«165059_j7095285973648_2_alg».proof.Proof.Gen.Kernel.Points
import proofs.«165059_j7095285973648_2_alg».proof.Proof.KCombDat1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the body's triples and the body obligation

The body reads its three input blocks whole, stores `y` over its whole block, and then takes exactly one of two
branches: at the first grid point it stores the block's column sums of `y` and of `y * y` over the two
accumulator blocks; at every later point it reads each accumulator, adds the block's column sums, and stores
the result over it. The two conditions are decided over the grid in closed form, one triple is proved per case,
and at a later point the accumulators' buffers hold what the point before left, since they are written back only
after the last point. -/

/-- An input window's buffer holds the window's block at every point, whether the point fetched it or the
    block index had not moved since the point that did. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's buffer holds the window's block at every point, whether the point fetched it or the
    block index had not moved since the point that did. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's buffer holds the window's block at every point, whether the point fetched it or the
    block index had not moved since the point that did. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The one store of `y` covers its block. -/
theorem cover1_y (p0 : Vec F S2000x128 .f32) (y : S2000x128.Idx) :
    ∃ pc ∈ ([⟨r1_y, p0⟩] : List (View.Piece (Elt F) S2000x128 .f32)), y ∈ pc.1.set :=
  View.cover_of_tiled [⟨r1_y, p0⟩] S2000x128.size (by rfl) y

/-- The one store of a column statistic covers its block. -/
theorem cover1_s (p0 : Vec F S1x128 .f32) (y : S1x128.Idx) :
    ∃ pc ∈ ([⟨r1_s, p0⟩] : List (View.Piece (Elt F) S1x128 .f32)), y ∈ pc.1.set :=
  View.cover_of_tiled [⟨r1_s, p0⟩] S1x128.size (by rfl) y

/-! ## The branch conditions over the grid -/

/-- The first branch (store the block's own sums) is taken at the first grid point only. -/
theorem hcond1_1 : ∀ t : Fin cfg1.N, k1_cond1 (grid1.coords t) = 1#1 ↔ t.val = 0 :=
  (by decide +kernel : ∀ t : Fin grid1.N, k1_cond1 (grid1.coords t) = 1#1 ↔ t.val = 0)
/-- The second branch (add to the running sums) is taken at every other point. -/
theorem hcond1_2 : ∀ t : Fin cfg1.N, k1_cond2 (grid1.coords t) = 1#1 ↔ t.val ≠ 0 :=
  (by decide +kernel : ∀ t : Fin grid1.N, k1_cond2 (grid1.coords t) = 1#1 ↔ t.val ≠ 0)

/-- One of the two branches stores into each accumulator at every grid point: no point is idle for them. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false :=
  (by decide +kernel : ∀ t : Fin grid1.N, cfg1.idle 4 (grid1.coords t) = false)
theorem liveAt1_5 : ∀ t : Fin cfg1.N, cfg1.idle 5 (grid1.coords t) = false :=
  (by decide +kernel : ∀ t : Fin grid1.N, cfg1.idle 5 (grid1.coords t) = false)

/-! ## The body's triples, one per case -/

set_option maxHeartbeats 2000000 in
/-- The body at the FIRST grid point, on whole buffers: the inputs' at contents `x_w`, the three outputs' at
    anything; it ends with the inputs' unchanged, `y`'s at `out1_3` and the accumulators' at the block's own
    column sums. -/
theorem sound_kernel1_first (c : Dev nD) (E : Set ℕ) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole)
    (hc1 : k1_cond1 i = 1#1) (hc2 : ¬k1_cond2 i = 1#1)
    (x0 : Vec F S2000x128 .f32) (x1 : Vec F S2000x128 .f32) (x2 : Vec F S2000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2) ∗ owns (c : Thread nD τ) arg5 fullShare (out1_4_first x0 x1 x2) ∗ owns (c : Thread nD τ) arg6 fullShare (out1_5_first x0 x1 x2)) -∗ K ⟨⟩))
      ⊢ wp frame (wpE (defs₀ (F := F)) Variants.none c none) E (cc1__combine_relu_stats_kernel i arg1 harg1 arg2 harg2 arg3 harg3 arg4 harg4 arg5 harg5 arg6 harg6) K := by
  simp only [cc1__combine_relu_stats_kernel_eq_skeleton]; unfold cc1__combine_relu_stats_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_y _)
  isplitl [H4]
  · iexists _; isplitr
    swap; · iexact H4
    ipureintro
    exact View.read_writes_eq_canon _ _ _ (cover1_s _)
  iexists _; isplitr
  swap; · iexact H5
  ipureintro
  exact View.read_writes_eq_canon _ _ _ (cover1_s _)

set_option maxHeartbeats 2000000 in
/-- The body at a LATER grid point, on whole buffers: the inputs' at contents `x_w`, `y`'s at anything, the
    accumulators' at contents `a4`, `a5`; it ends with the inputs' unchanged, `y`'s at `out1_3` and the
    accumulators' at `a4`, `a5` plus the block's column sums. -/
theorem sound_kernel1_next (c : Dev nD) (E : Set ℕ) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole)
    (hc1 : ¬k1_cond1 i = 1#1) (hc2 : k1_cond2 i = 1#1)
    (x0 : Vec F S2000x128 .f32) (x1 : Vec F S2000x128 .f32) (x2 : Vec F S2000x1 .f32) (a4 : Vec F S1x128 .f32) (a5 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare a4 ∗ owns (c : Thread nD τ) arg6 fullShare a5
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2) ∗ owns (c : Thread nD τ) arg5 fullShare (out1_4_next x0 x1 x2 a4) ∗ owns (c : Thread nD τ) arg6 fullShare (out1_5_next x0 x1 x2 a5)) -∗ K ⟨⟩))
      ⊢ wp frame (wpE (defs₀ (F := F)) Variants.none c none) E (cc1__combine_relu_stats_kernel i arg1 harg1 arg2 harg2 arg3 harg3 arg4 harg4 arg5 harg5 arg6 harg6) K := by
  simp only [cc1__combine_relu_stats_kernel_eq_skeleton]; unfold cc1__combine_relu_stats_kernel_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  subst hf0 hf1 hf2 hf4 hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_y _)
  isplitl [H4]
  · iexists _; isplitr
    swap; · iexact H4
    ipureintro
    exact View.read_writes_eq_canon _ _ _ (cover1_s _)
  iexists _; isplitr
  swap; · iexact H5
  ipureintro
  exact View.read_writes_eq_canon _ _ _ (cover1_s _)

/-! ## What the body finds in each buffer -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- No setting of the grid coordinate is idle for the accumulators: one of the two branches runs. -/
theorem live1_4 : ∀ i : grid1.Coords, cfg1.idle 4 i = false := by
  intro i
  have h : ∀ n : Fin 25, (!(Scalar.cmpi .ne (Scalar.extui (Scalar.cmpi .eq (BitVec.ofNat 32 n.val) 0#32)) 0#32 == 1#1)
      && !(Scalar.cmpi .ne (Scalar.extui (Scalar.cmpi .ne (BitVec.ofNat 32 n.val) 0#32)) 0#32 == 1#1)) = false := by decide
  exact h (i 0)
theorem live1_5 : ∀ i : grid1.Coords, cfg1.idle 5 i = false := live1_4

/-- At a later grid point the buffer of the column sums of `y` holds what the point before left: the window is an
    output, not written back between the two points, live and uncut. -/
theorem before1_4_next (c : Dev nD) (t : Fin cfg1.N) (h0 : t.val ≠ 0) (d) :
    (dat1 V c).before 4 t d = acc1_4 V c (t.val - 1) (Nat.lt_of_le_of_lt (Nat.sub_le _ _) t.isLt) := by
  have hN : t.val < 25 := lt_of_lt_of_eq t.isLt (show cfg1.N = 25 from N_1)
  rw [Dat.before_out_kept _ 4 rfl t h0 (Bool.eq_false_iff.mpr fun h => by have := (flush1_4 _).mp h; dsimp only at this; omega)
    live1_4 (fun _ _ => rfl)]
  dsimp only [dat1]

/-- The same for the column sums of `y * y`. -/
theorem before1_5_next (c : Dev nD) (t : Fin cfg1.N) (h0 : t.val ≠ 0) (d) :
    (dat1 V c).before 5 t d = acc1_5 V c (t.val - 1) (Nat.lt_of_le_of_lt (Nat.sub_le _ _) t.isLt) := by
  have hN : t.val < 25 := lt_of_lt_of_eq t.isLt (show cfg1.N = 25 from N_1)
  rw [Dat.before_out_kept _ 5 rfl t h0 (Bool.eq_false_iff.mpr fun h => by have := (flush1_5 _).mp h; dsimp only at this; omega)
    live1_5 (fun _ _ => rfl)]
  dsimp only [dat1]

/-- The running sums at a later point, from those at the point before. -/
theorem acc1_4_pos (c : Dev nD) (t : Fin cfg1.N) (h0 : t.val ≠ 0) :
    acc1_4 V c t.val t.isLt = out1_4_next (iblk1 V c 0 t) (iblk1 V c 1 t) (iblk1 V c 2 t)
      (acc1_4 V c (t.val - 1) (Nat.lt_of_le_of_lt (Nat.sub_le _ _) t.isLt)) := by
  obtain ⟨n, hn⟩ := t
  cases n with
  | zero => exact absurd rfl h0
  | succ n => rfl
theorem acc1_5_pos (c : Dev nD) (t : Fin cfg1.N) (h0 : t.val ≠ 0) :
    acc1_5 V c t.val t.isLt = out1_5_next (iblk1 V c 0 t) (iblk1 V c 1 t) (iblk1 V c 2 t)
      (acc1_5 V c (t.val - 1) (Nat.lt_of_le_of_lt (Nat.sub_le _ _) t.isLt)) := by
  obtain ⟨n, hn⟩ := t
  cases n with
  | zero => exact absurd rfl h0
  | succ n => rfl
/-- The running sums at the first point. -/
theorem acc1_4_first (c : Dev nD) (t : Fin cfg1.N) (h0 : t.val = 0) :
    acc1_4 V c t.val t.isLt = out1_4_first (iblk1 V c 0 t) (iblk1 V c 1 t) (iblk1 V c 2 t) := by
  obtain ⟨n, hn⟩ := t
  cases n with
  | zero => rfl
  | succ n => exact absurd h0 (Nat.succ_ne_zero n)
theorem acc1_5_first (c : Dev nD) (t : Fin cfg1.N) (h0 : t.val = 0) :
    acc1_5 V c t.val t.isLt = out1_5_first (iblk1 V c 0 t) (iblk1 V c 1 t) (iblk1 V c 2 t) := by
  obtain ⟨n, hn⟩ := t
  cases n with
  | zero => rfl
  | succ n => exact absurd h0 (Nat.succ_ne_zero n)

/-! ## The body obligation -/

/-- What the body is entered with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

/-- At every point each window's buffer is left at the proof data's stated contents: no point is idle. -/
theorem leaves1_0 (c : Dev nD) (t : Fin cfg1.N) : (dat1 V c).leavesExact 0 t = owns (c : Thread nD τ) (st1_0 t) fullShare (iblk1 V c 0 t) := by
  unfold Dat.leavesExact; rw [liveAt1_0 t, after1_0]
theorem leaves1_1 (c : Dev nD) (t : Fin cfg1.N) : (dat1 V c).leavesExact 1 t = owns (c : Thread nD τ) (st1_1 t) fullShare (iblk1 V c 1 t) := by
  unfold Dat.leavesExact; rw [liveAt1_1 t, after1_1]
theorem leaves1_2 (c : Dev nD) (t : Fin cfg1.N) : (dat1 V c).leavesExact 2 t = owns (c : Thread nD τ) (st1_2 t) fullShare (iblk1 V c 2 t) := by
  unfold Dat.leavesExact; rw [liveAt1_2 t, after1_2]
theorem leaves1_3 (c : Dev nD) (t : Fin cfg1.N) : (dat1 V c).leavesExact 3 t = owns (c : Thread nD τ) (st1_3 t) fullShare (out1_3 (iblk1 V c 0 t) (iblk1 V c 1 t) (iblk1 V c 2 t)) := by
  unfold Dat.leavesExact; rw [liveAt1_3 t, after1_3]
theorem leaves1_4 (c : Dev nD) (t : Fin cfg1.N) : (dat1 V c).leavesExact 4 t = owns (c : Thread nD τ) (st1_4 t) fullShare (acc1_4 V c t.val t.isLt) := by
  unfold Dat.leavesExact; rw [liveAt1_4 t, after1_4]
theorem leaves1_5 (c : Dev nD) (t : Fin cfg1.N) : (dat1 V c).leavesExact 5 t = owns (c : Thread nD τ) (st1_5 t) fullShare (acc1_5 V c t.val t.isLt) := by
  unfold Dat.leavesExact; rw [liveAt1_5 t, after1_5]

set_option maxHeartbeats 1000000 in
/-- The body at any point: the input buffers hold their blocks; the closed forms say which branch the point takes;
    at a later point the accumulators' buffers hold what the point before left; so that case's triple applies. The
    invariant and what the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    leaves1_0, leaves1_1, leaves1_2, leaves1_3, leaves1_4, leaves1_5]
  by_cases h0 : t.val = 0
  · rw [acc1_4_first V c t h0, acc1_5_first V c t h0]
    iintro ⟨HΦ, Ho, ⟨%d0, H0⟩, ⟨%d1, H1⟩, ⟨%d2, H2⟩, ⟨%d3, H3⟩, ⟨%d4, H4⟩, ⟨%d5, H5⟩⟩
    iapply (sound_kernel1_first c Set.univ (grid1.coords t) _ _ _ _ _ _ _ _ _ _ _ _ ((hcond1_1 t).mpr h0) (fun h => (hcond1_2 t).mp h h0)
      (iblk1 V c 0 t) (iblk1 V c 1 t) (iblk1 V c 2 t) _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc1_4_pos V c t h0, acc1_5_pos V c t h0]
    simp only [before1_4_next V c t h0, before1_5_next V c t h0]
    iintro ⟨HΦ, Ho, ⟨%d0, H0⟩, ⟨%d1, H1⟩, ⟨%d2, H2⟩, ⟨%d3, H3⟩, ⟨%d4, H4⟩, ⟨%d5, H5⟩⟩
    iapply (sound_kernel1_next c Set.univ (grid1.coords t) _ _ _ _ _ _ _ _ _ _ _ _ (fun h => h0 ((hcond1_1 t).mp h)) ((hcond1_2 t).mpr h0)
      (iblk1 V c 0 t) (iblk1 V c 1 t) (iblk1 V c 2 t) _ _ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The body obligation of the region, at every point. -/
theorem body_obligation1 (c : Dev nD) : BodyObligation (dat1 (F := F) V c) (defs₀ (F := F)) Variants.none () Set.univ := fun t => by
  rw [bigSep_W1, bigSep_W1]
  exact sound_body1 V c t

end Cert.Kernel.Gen

end
-- ==== Proof.KComb4.lean ====
import proofs.«165059_j7095285973648_2_alg».proof.Proof.Gen.Kernel.Launch
import proofs.«165059_j7095285973648_2_alg».proof.Proof.Gen.Kernel.Skeleton
import proofs.«165059_j7095285973648_2_alg».proof.Proof.Gen.Kernel.Points
import proofs.«165059_j7095285973648_2_alg».proof.Proof.KCombDat4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4: the body's triples and the body obligation

The body reads its three input blocks whole, stores `y` over its whole block, and then takes exactly one of two
branches: at the first grid point it stores the block's column sums of `y` and of `y * y` over the two
accumulator blocks; at every later point it reads each accumulator, adds the block's column sums, and stores
the result over it. The two conditions are decided over the grid in closed form, one triple is proved per case,
and at a later point the accumulators' buffers hold what the point before left, since they are written back only
after the last point. -/

/-- An input window's buffer holds the window's block at every point, whether the point fetched it or the
    block index had not moved since the point that did. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- An input window's buffer holds the window's block at every point, whether the point fetched it or the
    block index had not moved since the point that did. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- An input window's buffer holds the window's block at every point, whether the point fetched it or the
    block index had not moved since the point that did. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The one store of `y` covers its block. -/
theorem cover4_y (p0 : Vec F S2000x64 .f32) (y : S2000x64.Idx) :
    ∃ pc ∈ ([⟨r4_y, p0⟩] : List (View.Piece (Elt F) S2000x64 .f32)), y ∈ pc.1.set :=
  View.cover_of_tiled [⟨r4_y, p0⟩] S2000x64.size (by rfl) y

/-- The one store of a column statistic covers its block. -/
theorem cover4_s (p0 : Vec F S1x64 .f32) (y : S1x64.Idx) :
    ∃ pc ∈ ([⟨r4_s, p0⟩] : List (View.Piece (Elt F) S1x64 .f32)), y ∈ pc.1.set :=
  View.cover_of_tiled [⟨r4_s, p0⟩] S1x64.size (by rfl) y

/-! ## The branch conditions over the grid -/

/-- The first branch (store the block's own sums) is taken at the first grid point only. -/
theorem hcond4_1 : ∀ t : Fin cfg4.N, k4_cond1 (grid4.coords t) = 1#1 ↔ t.val = 0 :=
  (by decide +kernel : ∀ t : Fin grid4.N, k4_cond1 (grid4.coords t) = 1#1 ↔ t.val = 0)
/-- The second branch (add to the running sums) is taken at every other point. -/
theorem hcond4_2 : ∀ t : Fin cfg4.N, k4_cond2 (grid4.coords t) = 1#1 ↔ t.val ≠ 0 :=
  (by decide +kernel : ∀ t : Fin grid4.N, k4_cond2 (grid4.coords t) = 1#1 ↔ t.val ≠ 0)

/-- One of the two branches stores into each accumulator at every grid point: no point is idle for them. -/
theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl
theorem liveAt4_3 : ∀ t : Fin cfg4.N, cfg4.idle 3 (grid4.coords t) = false := fun _ => rfl
theorem liveAt4_4 : ∀ t : Fin cfg4.N, cfg4.idle 4 (grid4.coords t) = false :=
  (by decide +kernel : ∀ t : Fin grid4.N, cfg4.idle 4 (grid4.coords t) = false)
theorem liveAt4_5 : ∀ t : Fin cfg4.N, cfg4.idle 5 (grid4.coords t) = false :=
  (by decide +kernel : ∀ t : Fin grid4.N, cfg4.idle 5 (grid4.coords t) = false)

/-! ## The body's triples, one per case -/

set_option maxHeartbeats 2000000 in
/-- The body at the FIRST grid point, on whole buffers: the inputs' at contents `x_w`, the three outputs' at
    anything; it ends with the inputs' unchanged, `y`'s at `out4_3` and the accumulators' at the block's own
    column sums. -/
theorem sound_kernel4_first (c : Dev nD) (E : Set ℕ) (i : grid4.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole)
    (hc1 : k4_cond1 i = 1#1) (hc2 : ¬k4_cond2 i = 1#1)
    (x0 : Vec F S2000x64 .f32) (x1 : Vec F S2000x64 .f32) (x2 : Vec F S2000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2) ∗ owns (c : Thread nD τ) arg5 fullShare (out4_4_first x0 x1 x2) ∗ owns (c : Thread nD τ) arg6 fullShare (out4_5_first x0 x1 x2)) -∗ K ⟨⟩))
      ⊢ wp frame (wpE (defs₀ (F := F)) Variants.none c none) E (cc4__combine_relu_stats_kernel i arg1 harg1 arg2 harg2 arg3 harg3 arg4 harg4 arg5 harg5 arg6 harg6) K := by
  simp only [cc4__combine_relu_stats_kernel_eq_skeleton]; unfold cc4__combine_relu_stats_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover4_y _)
  isplitl [H4]
  · iexists _; isplitr
    swap; · iexact H4
    ipureintro
    exact View.read_writes_eq_canon _ _ _ (cover4_s _)
  iexists _; isplitr
  swap; · iexact H5
  ipureintro
  exact View.read_writes_eq_canon _ _ _ (cover4_s _)

set_option maxHeartbeats 2000000 in
/-- The body at a LATER grid point, on whole buffers: the inputs' at contents `x_w`, `y`'s at anything, the
    accumulators' at contents `a4`, `a5`; it ends with the inputs' unchanged, `y`'s at `out4_3` and the
    accumulators' at `a4`, `a5` plus the block's column sums. -/
theorem sound_kernel4_next (c : Dev nD) (E : Set ℕ) (i : grid4.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole)
    (hc1 : ¬k4_cond1 i = 1#1) (hc2 : k4_cond2 i = 1#1)
    (x0 : Vec F S2000x64 .f32) (x1 : Vec F S2000x64 .f32) (x2 : Vec F S2000x1 .f32) (a4 : Vec F S1x64 .f32) (a5 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare a4 ∗ owns (c : Thread nD τ) arg6 fullShare a5
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2) ∗ owns (c : Thread nD τ) arg5 fullShare (out4_4_next x0 x1 x2 a4) ∗ owns (c : Thread nD τ) arg6 fullShare (out4_5_next x0 x1 x2 a5)) -∗ K ⟨⟩))
      ⊢ wp frame (wpE (defs₀ (F := F)) Variants.none c none) E (cc4__combine_relu_stats_kernel i arg1 harg1 arg2 harg2 arg3 harg3 arg4 harg4 arg5 harg5 arg6 harg6) K := by
  simp only [cc4__combine_relu_stats_kernel_eq_skeleton]; unfold cc4__combine_relu_stats_kernel_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  subst hf0 hf1 hf2 hf4 hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover4_y _)
  isplitl [H4]
  · iexists _; isplitr
    swap; · iexact H4
    ipureintro
    exact View.read_writes_eq_canon _ _ _ (cover4_s _)
  iexists _; isplitr
  swap; · iexact H5
  ipureintro
  exact View.read_writes_eq_canon _ _ _ (cover4_s _)

/-! ## What the body finds in each buffer -/

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- No setting of the grid coordinate is idle for the accumulators: one of the two branches runs. -/
theorem live4_4 : ∀ i : grid4.Coords, cfg4.idle 4 i = false := by
  intro i
  have h : ∀ n : Fin 25, (!(Scalar.cmpi .ne (Scalar.extui (Scalar.cmpi .eq (BitVec.ofNat 32 n.val) 0#32)) 0#32 == 1#1)
      && !(Scalar.cmpi .ne (Scalar.extui (Scalar.cmpi .ne (BitVec.ofNat 32 n.val) 0#32)) 0#32 == 1#1)) = false := by decide
  exact h (i 0)
theorem live4_5 : ∀ i : grid4.Coords, cfg4.idle 5 i = false := live4_4

/-- At a later grid point the buffer of the column sums of `y` holds what the point before left: the window is an
    output, not written back between the two points, live and uncut. -/
theorem before4_4_next (c : Dev nD) (t : Fin cfg4.N) (h0 : t.val ≠ 0) (d) :
    (dat4 V c).before 4 t d = acc4_4 V c (t.val - 1) (Nat.lt_of_le_of_lt (Nat.sub_le _ _) t.isLt) := by
  have hN : t.val < 25 := lt_of_lt_of_eq t.isLt (show cfg4.N = 25 from N_4)
  rw [Dat.before_out_kept _ 4 rfl t h0 (Bool.eq_false_iff.mpr fun h => by have := (flush4_4 _).mp h; dsimp only at this; omega)
    live4_4 (fun _ _ => rfl)]
  dsimp only [dat4]

/-- The same for the column sums of `y * y`. -/
theorem before4_5_next (c : Dev nD) (t : Fin cfg4.N) (h0 : t.val ≠ 0) (d) :
    (dat4 V c).before 5 t d = acc4_5 V c (t.val - 1) (Nat.lt_of_le_of_lt (Nat.sub_le _ _) t.isLt) := by
  have hN : t.val < 25 := lt_of_lt_of_eq t.isLt (show cfg4.N = 25 from N_4)
  rw [Dat.before_out_kept _ 5 rfl t h0 (Bool.eq_false_iff.mpr fun h => by have := (flush4_5 _).mp h; dsimp only at this; omega)
    live4_5 (fun _ _ => rfl)]
  dsimp only [dat4]

/-- The running sums at a later point, from those at the point before. -/
theorem acc4_4_pos (c : Dev nD) (t : Fin cfg4.N) (h0 : t.val ≠ 0) :
    acc4_4 V c t.val t.isLt = out4_4_next (iblk4 V c 0 t) (iblk4 V c 1 t) (iblk4 V c 2 t)
      (acc4_4 V c (t.val - 1) (Nat.lt_of_le_of_lt (Nat.sub_le _ _) t.isLt)) := by
  obtain ⟨n, hn⟩ := t
  cases n with
  | zero => exact absurd rfl h0
  | succ n => rfl
theorem acc4_5_pos (c : Dev nD) (t : Fin cfg4.N) (h0 : t.val ≠ 0) :
    acc4_5 V c t.val t.isLt = out4_5_next (iblk4 V c 0 t) (iblk4 V c 1 t) (iblk4 V c 2 t)
      (acc4_5 V c (t.val - 1) (Nat.lt_of_le_of_lt (Nat.sub_le _ _) t.isLt)) := by
  obtain ⟨n, hn⟩ := t
  cases n with
  | zero => exact absurd rfl h0
  | succ n => rfl
/-- The running sums at the first point. -/
theorem acc4_4_first (c : Dev nD) (t : Fin cfg4.N) (h0 : t.val = 0) :
    acc4_4 V c t.val t.isLt = out4_4_first (iblk4 V c 0 t) (iblk4 V c 1 t) (iblk4 V c 2 t) := by
  obtain ⟨n, hn⟩ := t
  cases n with
  | zero => rfl
  | succ n => exact absurd h0 (Nat.succ_ne_zero n)
theorem acc4_5_first (c : Dev nD) (t : Fin cfg4.N) (h0 : t.val = 0) :
    acc4_5 V c t.val t.isLt = out4_5_first (iblk4 V c 0 t) (iblk4 V c 1 t) (iblk4 V c 2 t) := by
  obtain ⟨n, hn⟩ := t
  cases n with
  | zero => rfl
  | succ n => exact absurd h0 (Nat.succ_ne_zero n)

/-! ## The body obligation -/

/-- What the body is entered with at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t)

/-- At every point each window's buffer is left at the proof data's stated contents: no point is idle. -/
theorem leaves4_0 (c : Dev nD) (t : Fin cfg4.N) : (dat4 V c).leavesExact 0 t = owns (c : Thread nD τ) (st4_0 t) fullShare (iblk4 V c 0 t) := by
  unfold Dat.leavesExact; rw [liveAt4_0 t, after4_0]
theorem leaves4_1 (c : Dev nD) (t : Fin cfg4.N) : (dat4 V c).leavesExact 1 t = owns (c : Thread nD τ) (st4_1 t) fullShare (iblk4 V c 1 t) := by
  unfold Dat.leavesExact; rw [liveAt4_1 t, after4_1]
theorem leaves4_2 (c : Dev nD) (t : Fin cfg4.N) : (dat4 V c).leavesExact 2 t = owns (c : Thread nD τ) (st4_2 t) fullShare (iblk4 V c 2 t) := by
  unfold Dat.leavesExact; rw [liveAt4_2 t, after4_2]
theorem leaves4_3 (c : Dev nD) (t : Fin cfg4.N) : (dat4 V c).leavesExact 3 t = owns (c : Thread nD τ) (st4_3 t) fullShare (out4_3 (iblk4 V c 0 t) (iblk4 V c 1 t) (iblk4 V c 2 t)) := by
  unfold Dat.leavesExact; rw [liveAt4_3 t, after4_3]
theorem leaves4_4 (c : Dev nD) (t : Fin cfg4.N) : (dat4 V c).leavesExact 4 t = owns (c : Thread nD τ) (st4_4 t) fullShare (acc4_4 V c t.val t.isLt) := by
  unfold Dat.leavesExact; rw [liveAt4_4 t, after4_4]
theorem leaves4_5 (c : Dev nD) (t : Fin cfg4.N) : (dat4 V c).leavesExact 5 t = owns (c : Thread nD τ) (st4_5 t) fullShare (acc4_5 V c t.val t.isLt) := by
  unfold Dat.leavesExact; rw [liveAt4_5 t, after4_5]

set_option maxHeartbeats 1000000 in
/-- The body at any point: the input buffers hold their blocks; the closed forms say which branch the point takes;
    at a later point the accumulators' buffers hold what the point before left; so that case's triple applies. The
    invariant and what the core owes pass through untouched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    leaves4_0, leaves4_1, leaves4_2, leaves4_3, leaves4_4, leaves4_5]
  by_cases h0 : t.val = 0
  · rw [acc4_4_first V c t h0, acc4_5_first V c t h0]
    iintro ⟨HΦ, Ho, ⟨%d0, H0⟩, ⟨%d1, H1⟩, ⟨%d2, H2⟩, ⟨%d3, H3⟩, ⟨%d4, H4⟩, ⟨%d5, H5⟩⟩
    iapply (sound_kernel4_first c Set.univ (grid4.coords t) _ _ _ _ _ _ _ _ _ _ _ _ ((hcond4_1 t).mpr h0) (fun h => (hcond4_2 t).mp h h0)
      (iblk4 V c 0 t) (iblk4 V c 1 t) (iblk4 V c 2 t) _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc4_4_pos V c t h0, acc4_5_pos V c t h0]
    simp only [before4_4_next V c t h0, before4_5_next V c t h0]
    iintro ⟨HΦ, Ho, ⟨%d0, H0⟩, ⟨%d1, H1⟩, ⟨%d2, H2⟩, ⟨%d3, H3⟩, ⟨%d4, H4⟩, ⟨%d5, H5⟩⟩
    iapply (sound_kernel4_next c Set.univ (grid4.coords t) _ _ _ _ _ _ _ _ _ _ _ _ (fun h => h0 ((hcond4_1 t).mp h)) ((hcond4_2 t).mpr h0)
      (iblk4 V c 0 t) (iblk4 V c 1 t) (iblk4 V c 2 t) _ _ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The body obligation of the region, at every point. -/
theorem body_obligation4 (c : Dev nD) : BodyObligation (dat4 (F := F) V c) (defs₀ (F := F)) Variants.none () Set.univ := fun t => by
  rw [bigSep_W4, bigSep_W4]
  exact sound_body4 V c t

end Cert.Kernel.Gen

end
-- ==== Proof.KComb7.lean ====
import proofs.«165059_j7095285973648_2_alg».proof.Proof.Gen.Kernel.Launch
import proofs.«165059_j7095285973648_2_alg».proof.Proof.Gen.Kernel.Skeleton
import proofs.«165059_j7095285973648_2_alg».proof.Proof.Gen.Kernel.Points
import proofs.«165059_j7095285973648_2_alg».proof.Proof.KCombDat7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 7: the body's triples and the body obligation

The body reads its three input blocks whole, stores `y` over its whole block, and then takes exactly one of two
branches: at the first grid point it stores the block's column sums of `y` and of `y * y` over the two
accumulator blocks; at every later point it reads each accumulator, adds the block's column sums, and stores
the result over it. The two conditions are decided over the grid in closed form, one triple is proved per case,
and at a later point the accumulators' buffers hold what the point before left, since they are written back only
after the last point. -/

/-- An input window's buffer holds the window's block at every point, whether the point fetched it or the
    block index had not moved since the point that did. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- An input window's buffer holds the window's block at every point, whether the point fetched it or the
    block index had not moved since the point that did. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- An input window's buffer holds the window's block at every point, whether the point fetched it or the
    block index had not moved since the point that did. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- The one store of `y` covers its block. -/
theorem cover7_y (p0 : Vec F S2000x128 .f32) (y : S2000x128.Idx) :
    ∃ pc ∈ ([⟨r7_y, p0⟩] : List (View.Piece (Elt F) S2000x128 .f32)), y ∈ pc.1.set :=
  View.cover_of_tiled [⟨r7_y, p0⟩] S2000x128.size (by rfl) y

/-- The one store of a column statistic covers its block. -/
theorem cover7_s (p0 : Vec F S1x128 .f32) (y : S1x128.Idx) :
    ∃ pc ∈ ([⟨r7_s, p0⟩] : List (View.Piece (Elt F) S1x128 .f32)), y ∈ pc.1.set :=
  View.cover_of_tiled [⟨r7_s, p0⟩] S1x128.size (by rfl) y

/-! ## The branch conditions over the grid -/

/-- The first branch (store the block's own sums) is taken at the first grid point only. -/
theorem hcond7_1 : ∀ t : Fin cfg7.N, k7_cond1 (grid7.coords t) = 1#1 ↔ t.val = 0 :=
  (by decide +kernel : ∀ t : Fin grid7.N, k7_cond1 (grid7.coords t) = 1#1 ↔ t.val = 0)
/-- The second branch (add to the running sums) is taken at every other point. -/
theorem hcond7_2 : ∀ t : Fin cfg7.N, k7_cond2 (grid7.coords t) = 1#1 ↔ t.val ≠ 0 :=
  (by decide +kernel : ∀ t : Fin grid7.N, k7_cond2 (grid7.coords t) = 1#1 ↔ t.val ≠ 0)

/-- One of the two branches stores into each accumulator at every grid point: no point is idle for them. -/
theorem liveAt7_0 : ∀ t : Fin cfg7.N, cfg7.idle 0 (grid7.coords t) = false := fun _ => rfl
theorem liveAt7_1 : ∀ t : Fin cfg7.N, cfg7.idle 1 (grid7.coords t) = false := fun _ => rfl
theorem liveAt7_2 : ∀ t : Fin cfg7.N, cfg7.idle 2 (grid7.coords t) = false := fun _ => rfl
theorem liveAt7_3 : ∀ t : Fin cfg7.N, cfg7.idle 3 (grid7.coords t) = false := fun _ => rfl
theorem liveAt7_4 : ∀ t : Fin cfg7.N, cfg7.idle 4 (grid7.coords t) = false :=
  (by decide +kernel : ∀ t : Fin grid7.N, cfg7.idle 4 (grid7.coords t) = false)
theorem liveAt7_5 : ∀ t : Fin cfg7.N, cfg7.idle 5 (grid7.coords t) = false :=
  (by decide +kernel : ∀ t : Fin grid7.N, cfg7.idle 5 (grid7.coords t) = false)

/-! ## The body's triples, one per case -/

set_option maxHeartbeats 2000000 in
/-- The body at the FIRST grid point, on whole buffers: the inputs' at contents `x_w`, the three outputs' at
    anything; it ends with the inputs' unchanged, `y`'s at `out7_3` and the accumulators' at the block's own
    column sums. -/
theorem sound_kernel7_first (c : Dev nD) (E : Set ℕ) (i : grid7.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole)
    (hc1 : k7_cond1 i = 1#1) (hc2 : ¬k7_cond2 i = 1#1)
    (x0 : Vec F S2000x128 .f32) (x1 : Vec F S2000x128 .f32) (x2 : Vec F S2000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out7_3 x0 x1 x2) ∗ owns (c : Thread nD τ) arg5 fullShare (out7_4_first x0 x1 x2) ∗ owns (c : Thread nD τ) arg6 fullShare (out7_5_first x0 x1 x2)) -∗ K ⟨⟩))
      ⊢ wp frame (wpE (defs₀ (F := F)) Variants.none c none) E (cc7__combine_relu_stats_kernel i arg1 harg1 arg2 harg2 arg3 harg3 arg4 harg4 arg5 harg5 arg6 harg6) K := by
  simp only [cc7__combine_relu_stats_kernel_eq_skeleton]; unfold cc7__combine_relu_stats_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover7_y _)
  isplitl [H4]
  · iexists _; isplitr
    swap; · iexact H4
    ipureintro
    exact View.read_writes_eq_canon _ _ _ (cover7_s _)
  iexists _; isplitr
  swap; · iexact H5
  ipureintro
  exact View.read_writes_eq_canon _ _ _ (cover7_s _)

set_option maxHeartbeats 2000000 in
/-- The body at a LATER grid point, on whole buffers: the inputs' at contents `x_w`, `y`'s at anything, the
    accumulators' at contents `a4`, `a5`; it ends with the inputs' unchanged, `y`'s at `out7_3` and the
    accumulators' at `a4`, `a5` plus the block's column sums. -/
theorem sound_kernel7_next (c : Dev nD) (E : Set ℕ) (i : grid7.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole)
    (hc1 : ¬k7_cond1 i = 1#1) (hc2 : k7_cond2 i = 1#1)
    (x0 : Vec F S2000x128 .f32) (x1 : Vec F S2000x128 .f32) (x2 : Vec F S2000x1 .f32) (a4 : Vec F S1x128 .f32) (a5 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare a4 ∗ owns (c : Thread nD τ) arg6 fullShare a5
        ∗ (iprop(owns (c : Thread nD τ) arg1 fullShare x0 ∗ owns (c : Thread nD τ) arg2 fullShare x1 ∗ owns (c : Thread nD τ) arg3 fullShare x2 ∗ owns (c : Thread nD τ) arg4 fullShare (out7_3 x0 x1 x2) ∗ owns (c : Thread nD τ) arg5 fullShare (out7_4_next x0 x1 x2 a4) ∗ owns (c : Thread nD τ) arg6 fullShare (out7_5_next x0 x1 x2 a5)) -∗ K ⟨⟩))
      ⊢ wp frame (wpE (defs₀ (F := F)) Variants.none c none) E (cc7__combine_relu_stats_kernel i arg1 harg1 arg2 harg2 arg3 harg3 arg4 harg4 arg5 harg5 arg6 harg6) K := by
  simp only [cc7__combine_relu_stats_kernel_eq_skeleton]; unfold cc7__combine_relu_stats_kernel_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  subst hf0 hf1 hf2 hf4 hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover7_y _)
  isplitl [H4]
  · iexists _; isplitr
    swap; · iexact H4
    ipureintro
    exact View.read_writes_eq_canon _ _ _ (cover7_s _)
  iexists _; isplitr
  swap; · iexact H5
  ipureintro
  exact View.read_writes_eq_canon _ _ _ (cover7_s _)

/-! ## What the body finds in each buffer -/

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-- No setting of the grid coordinate is idle for the accumulators: one of the two branches runs. -/
theorem live7_4 : ∀ i : grid7.Coords, cfg7.idle 4 i = false := by
  intro i
  have h : ∀ n : Fin 25, (!(Scalar.cmpi .ne (Scalar.extui (Scalar.cmpi .eq (BitVec.ofNat 32 n.val) 0#32)) 0#32 == 1#1)
      && !(Scalar.cmpi .ne (Scalar.extui (Scalar.cmpi .ne (BitVec.ofNat 32 n.val) 0#32)) 0#32 == 1#1)) = false := by decide
  exact h (i 0)
theorem live7_5 : ∀ i : grid7.Coords, cfg7.idle 5 i = false := live7_4

/-- At a later grid point the buffer of the column sums of `y` holds what the point before left: the window is an
    output, not written back between the two points, live and uncut. -/
theorem before7_4_next (c : Dev nD) (t : Fin cfg7.N) (h0 : t.val ≠ 0) (d) :
    (dat7 V c).before 4 t d = acc7_4 V c (t.val - 1) (Nat.lt_of_le_of_lt (Nat.sub_le _ _) t.isLt) := by
  have hN : t.val < 25 := lt_of_lt_of_eq t.isLt (show cfg7.N = 25 from N_7)
  rw [Dat.before_out_kept _ 4 rfl t h0 (Bool.eq_false_iff.mpr fun h => by have := (flush7_4 _).mp h; dsimp only at this; omega)
    live7_4 (fun _ _ => rfl)]
  dsimp only [dat7]

/-- The same for the column sums of `y * y`. -/
theorem before7_5_next (c : Dev nD) (t : Fin cfg7.N) (h0 : t.val ≠ 0) (d) :
    (dat7 V c).before 5 t d = acc7_5 V c (t.val - 1) (Nat.lt_of_le_of_lt (Nat.sub_le _ _) t.isLt) := by
  have hN : t.val < 25 := lt_of_lt_of_eq t.isLt (show cfg7.N = 25 from N_7)
  rw [Dat.before_out_kept _ 5 rfl t h0 (Bool.eq_false_iff.mpr fun h => by have := (flush7_5 _).mp h; dsimp only at this; omega)
    live7_5 (fun _ _ => rfl)]
  dsimp only [dat7]

/-- The running sums at a later point, from those at the point before. -/
theorem acc7_4_pos (c : Dev nD) (t : Fin cfg7.N) (h0 : t.val ≠ 0) :
    acc7_4 V c t.val t.isLt = out7_4_next (iblk7 V c 0 t) (iblk7 V c 1 t) (iblk7 V c 2 t)
      (acc7_4 V c (t.val - 1) (Nat.lt_of_le_of_lt (Nat.sub_le _ _) t.isLt)) := by
  obtain ⟨n, hn⟩ := t
  cases n with
  | zero => exact absurd rfl h0
  | succ n => rfl
theorem acc7_5_pos (c : Dev nD) (t : Fin cfg7.N) (h0 : t.val ≠ 0) :
    acc7_5 V c t.val t.isLt = out7_5_next (iblk7 V c 0 t) (iblk7 V c 1 t) (iblk7 V c 2 t)
      (acc7_5 V c (t.val - 1) (Nat.lt_of_le_of_lt (Nat.sub_le _ _) t.isLt)) := by
  obtain ⟨n, hn⟩ := t
  cases n with
  | zero => exact absurd rfl h0
  | succ n => rfl
/-- The running sums at the first point. -/
theorem acc7_4_first (c : Dev nD) (t : Fin cfg7.N) (h0 : t.val = 0) :
    acc7_4 V c t.val t.isLt = out7_4_first (iblk7 V c 0 t) (iblk7 V c 1 t) (iblk7 V c 2 t) := by
  obtain ⟨n, hn⟩ := t
  cases n with
  | zero => rfl
  | succ n => exact absurd h0 (Nat.succ_ne_zero n)
theorem acc7_5_first (c : Dev nD) (t : Fin cfg7.N) (h0 : t.val = 0) :
    acc7_5 V c t.val t.isLt = out7_5_first (iblk7 V c 0 t) (iblk7 V c 1 t) (iblk7 V c 2 t) := by
  obtain ⟨n, hn⟩ := t
  cases n with
  | zero => rfl
  | succ n => exact absurd h0 (Nat.succ_ne_zero n)

/-! ## The body obligation -/

/-- What the body is entered with at point `t`, window by window, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t)

/-- At every point each window's buffer is left at the proof data's stated contents: no point is idle. -/
theorem leaves7_0 (c : Dev nD) (t : Fin cfg7.N) : (dat7 V c).leavesExact 0 t = owns (c : Thread nD τ) (st7_0 t) fullShare (iblk7 V c 0 t) := by
  unfold Dat.leavesExact; rw [liveAt7_0 t, after7_0]
theorem leaves7_1 (c : Dev nD) (t : Fin cfg7.N) : (dat7 V c).leavesExact 1 t = owns (c : Thread nD τ) (st7_1 t) fullShare (iblk7 V c 1 t) := by
  unfold Dat.leavesExact; rw [liveAt7_1 t, after7_1]
theorem leaves7_2 (c : Dev nD) (t : Fin cfg7.N) : (dat7 V c).leavesExact 2 t = owns (c : Thread nD τ) (st7_2 t) fullShare (iblk7 V c 2 t) := by
  unfold Dat.leavesExact; rw [liveAt7_2 t, after7_2]
theorem leaves7_3 (c : Dev nD) (t : Fin cfg7.N) : (dat7 V c).leavesExact 3 t = owns (c : Thread nD τ) (st7_3 t) fullShare (out7_3 (iblk7 V c 0 t) (iblk7 V c 1 t) (iblk7 V c 2 t)) := by
  unfold Dat.leavesExact; rw [liveAt7_3 t, after7_3]
theorem leaves7_4 (c : Dev nD) (t : Fin cfg7.N) : (dat7 V c).leavesExact 4 t = owns (c : Thread nD τ) (st7_4 t) fullShare (acc7_4 V c t.val t.isLt) := by
  unfold Dat.leavesExact; rw [liveAt7_4 t, after7_4]
theorem leaves7_5 (c : Dev nD) (t : Fin cfg7.N) : (dat7 V c).leavesExact 5 t = owns (c : Thread nD τ) (st7_5 t) fullShare (acc7_5 V c t.val t.isLt) := by
  unfold Dat.leavesExact; rw [liveAt7_5 t, after7_5]

set_option maxHeartbeats 1000000 in
/-- The body at any point: the input buffers hold their blocks; the closed forms say which branch the point takes;
    at a later point the accumulators' buffers hold what the point before left; so that case's triple applies. The
    invariant and what the core owes pass through untouched. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    leaves7_0, leaves7_1, leaves7_2, leaves7_3, leaves7_4, leaves7_5]
  by_cases h0 : t.val = 0
  · rw [acc7_4_first V c t h0, acc7_5_first V c t h0]
    iintro ⟨HΦ, Ho, ⟨%d0, H0⟩, ⟨%d1, H1⟩, ⟨%d2, H2⟩, ⟨%d3, H3⟩, ⟨%d4, H4⟩, ⟨%d5, H5⟩⟩
    iapply (sound_kernel7_first c Set.univ (grid7.coords t) _ _ _ _ _ _ _ _ _ _ _ _ ((hcond7_1 t).mpr h0) (fun h => (hcond7_2 t).mp h h0)
      (iblk7 V c 0 t) (iblk7 V c 1 t) (iblk7 V c 2 t) _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc7_4_pos V c t h0, acc7_5_pos V c t h0]
    simp only [before7_4_next V c t h0, before7_5_next V c t h0]
    iintro ⟨HΦ, Ho, ⟨%d0, H0⟩, ⟨%d1, H1⟩, ⟨%d2, H2⟩, ⟨%d3, H3⟩, ⟨%d4, H4⟩, ⟨%d5, H5⟩⟩
    iapply (sound_kernel7_next c Set.univ (grid7.coords t) _ _ _ _ _ _ _ _ _ _ _ _ (fun h => h0 ((hcond7_1 t).mp h)) ((hcond7_2 t).mpr h0)
      (iblk7 V c 0 t) (iblk7 V c 1 t) (iblk7 V c 2 t) _ _ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The body obligation of the region, at every point. -/
theorem body_obligation7 (c : Dev nD) : BodyObligation (dat7 (F := F) V c) (defs₀ (F := F)) Variants.none () Set.univ := fun t => by
  rw [bigSep_W7, bigSep_W7]
  exact sound_body7 V c t

end Cert.Kernel.Gen

end
-- ==== Proof.KComb10.lean ====
import proofs.«165059_j7095285973648_2_alg».proof.Proof.Gen.Kernel.Launch
import proofs.«165059_j7095285973648_2_alg».proof.Proof.Gen.Kernel.Skeleton
import proofs.«165059_j7095285973648_2_alg».proof.Proof.Gen.Kernel.Points
import proofs.«165059_j7095285973648_2_alg».proof.Proof.KCombDat10
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 10: the body's triples and the body obligation

The body reads its three input blocks whole, stores `y` over its whole block, and then takes exactly one of two
branches: at the first grid point it stores the block's column sums of `y` and of `y * y` over the two
accumulator blocks; at every later point it reads each accumulator, adds the block's column sums, and stores
the result over it. The two conditions are decided over the grid in closed form, one triple is proved per case,
and at a later point the accumulators' buffers hold what the point before left, since they are written back only
after the last point. -/

/-- An input window's buffer holds the window's block at every point, whether the point fetched it or the
    block index had not moved since the point that did. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- An input window's buffer holds the window's block at every point, whether the point fetched it or the
    block index had not moved since the point that did. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- An input window's buffer holds the window's block at every point, whether the point fetched it or the
    block index had not moved since the point that did. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- The one store of `y` covers its block. -/
theorem cover10_y (p0 : Vec F S2000x256 .f32) (y : S2000x256.Idx) :
    ∃ pc ∈ ([⟨r10_y, p0⟩] : List (View.Piece (Elt F) S2000x256 .f32)), y ∈ pc.1.set :=
  View.cover_of_tiled [⟨r10_y, p0⟩] S2000x256.size (by rfl) y

/-- The one store of a column statistic covers its block. -/
theorem cover10_s (p0 : Vec F S1x256 .f32) (y : S1x256.Idx) :
    ∃ pc ∈ ([⟨r10_s, p0⟩] : List (View.Piece (Elt F) S1x256 .f32)), y ∈ pc.1.set :=
  View.cover_of_tiled [⟨r10_s, p0⟩] S1x256.size (by rfl) y

/-! ## The branch conditions over the grid -/

/-- The first branch (store the block's own sums) is taken at the first grid point only. -/
theorem hcond10_1 : ∀ t : Fin cfg10.N, k10_cond1 (grid10.coords t) = 1#1 ↔ t.val = 0 :=
  (by decide +kernel : ∀ t : Fin grid10.N, k10_cond1 (grid10.coords t) = 1#1 ↔ t.val = 0)
/-- The second branch (add to the running sums) is taken at every other point. -/
theorem hcond10_2 : ∀ t : Fin cfg10.N, k10_cond2 (grid10.coords t) = 1#1 ↔ t.val ≠ 0 :=
  (by decide +kernel : ∀ t : Fin grid10.N, k10_cond2 (grid10.coords t) = 1#1 ↔ t.val ≠ 0)

/-- One of the two branches stores into each accumulator at every grid point: no point is idle for them. -/
theorem liveAt10_0 : ∀ t : Fin cfg10.N, cfg10.idle 0 (grid10.coords t) = false := fun _ => rfl
theorem liveAt10_1 : ∀ t : Fin cfg10.N, cfg10.idle 1 (grid10.coords t) = false := fun _ => rfl
theorem liveAt10_2 : ∀ t : Fin cfg10.N, cfg10.idle 2 (grid10.coords t) = false := fun _ => rfl
theorem liveAt10_3 : ∀ t : Fin cfg10.N, cfg10.idle 3 (grid10.coords t) = false := fun _ => rfl
theorem liveAt10_4 : ∀ t : Fin cfg10.N, cfg10.idle 4 (grid10.coords t) = false :=
  (by decide +kernel : ∀ t : Fin grid10.N, cfg10.idle 4 (grid10.coords t) = false)
theorem liveAt10_5 : ∀ t : Fin cfg10.N, cfg10.idle 5 (grid10.coords t) = false :=
  (by decide +kernel : ∀ t : Fin grid10.N, cfg10.idle 5 (grid10.coords t) = false)

/-! ## The body's triples, one per case -/

set_option maxHeartbeats 2000000 in
/-- The body at the FIRST grid point, on whole buffers: the inputs' at contents `x_w`, the three outputs' at
    anything; it ends with the inputs' unchanged, `y`'s at `out10_3` and the accumulators' at the block's own
    column sums. -/
theorem sound_kernel10_first (c : Dev nD) (E : Set ℕ) (i : grid10.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S2000x256 .f32) (harg4 : arg4.IsWhole) (arg5 : Memref sig .tc .vmem S1x256 .f32) (harg5 : arg5.IsWhole) (arg6 : Memref sig .tc .vmem S1x256 .f32) (harg6 : arg6.IsWhole)
    (hc1 : k10_cond1 i = 1#1) (hc2 : ¬k10_cond2 i = 1#1)
    (x0 : Vec F S2000x256 .f32) (x1 : Vec F S2000x256 .f32) (x2 : Vec F S2000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out10_3 x0 x1 x2) ∗ owns (c : Thread nD τ) arg5 fullShare (out10_4_first x0 x1 x2) ∗ owns (c : Thread nD τ) arg6 fullShare (out10_5_first x0 x1 x2)) -∗ K ⟨⟩))
      ⊢ wp frame (wpE (defs₀ (F := F)) Variants.none c none) E (cc10__combine_relu_stats_kernel i arg1 harg1 arg2 harg2 arg3 harg3 arg4 harg4 arg5 harg5 arg6 harg6) K := by
  simp only [cc10__combine_relu_stats_kernel_eq_skeleton]; unfold cc10__combine_relu_stats_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover10_y _)
  isplitl [H4]
  · iexists _; isplitr
    swap; · iexact H4
    ipureintro
    exact View.read_writes_eq_canon _ _ _ (cover10_s _)
  iexists _; isplitr
  swap; · iexact H5
  ipureintro
  exact View.read_writes_eq_canon _ _ _ (cover10_s _)

set_option maxHeartbeats 2000000 in
/-- The body at a LATER grid point, on whole buffers: the inputs' at contents `x_w`, `y`'s at anything, the
    accumulators' at contents `a4`, `a5`; it ends with the inputs' unchanged, `y`'s at `out10_3` and the
    accumulators' at `a4`, `a5` plus the block's column sums. -/
theorem sound_kernel10_next (c : Dev nD) (E : Set ℕ) (i : grid10.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S2000x256 .f32) (harg4 : arg4.IsWhole) (arg5 : Memref sig .tc .vmem S1x256 .f32) (harg5 : arg5.IsWhole) (arg6 : Memref sig .tc .vmem S1x256 .f32) (harg6 : arg6.IsWhole)
    (hc1 : ¬k10_cond1 i = 1#1) (hc2 : k10_cond2 i = 1#1)
    (x0 : Vec F S2000x256 .f32) (x1 : Vec F S2000x256 .f32) (x2 : Vec F S2000x1 .f32) (a4 : Vec F S1x256 .f32) (a5 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare a4 ∗ owns (c : Thread nD τ) arg6 fullShare a5
        ∗ (iprop(owns (c : Thread nD τ) arg1 fullShare x0 ∗ owns (c : Thread nD τ) arg2 fullShare x1 ∗ owns (c : Thread nD τ) arg3 fullShare x2 ∗ owns (c : Thread nD τ) arg4 fullShare (out10_3 x0 x1 x2) ∗ owns (c : Thread nD τ) arg5 fullShare (out10_4_next x0 x1 x2 a4) ∗ owns (c : Thread nD τ) arg6 fullShare (out10_5_next x0 x1 x2 a5)) -∗ K ⟨⟩))
      ⊢ wp frame (wpE (defs₀ (F := F)) Variants.none c none) E (cc10__combine_relu_stats_kernel i arg1 harg1 arg2 harg2 arg3 harg3 arg4 harg4 arg5 harg5 arg6 harg6) K := by
  simp only [cc10__combine_relu_stats_kernel_eq_skeleton]; unfold cc10__combine_relu_stats_kernel_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  subst hf0 hf1 hf2 hf4 hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover10_y _)
  isplitl [H4]
  · iexists _; isplitr
    swap; · iexact H4
    ipureintro
    exact View.read_writes_eq_canon _ _ _ (cover10_s _)
  iexists _; isplitr
  swap; · iexact H5
  ipureintro
  exact View.read_writes_eq_canon _ _ _ (cover10_s _)

/-! ## What the body finds in each buffer -/

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d

/-- No setting of the grid coordinate is idle for the accumulators: one of the two branches runs. -/
theorem live10_4 : ∀ i : grid10.Coords, cfg10.idle 4 i = false := by
  intro i
  have h : ∀ n : Fin 25, (!(Scalar.cmpi .ne (Scalar.extui (Scalar.cmpi .eq (BitVec.ofNat 32 n.val) 0#32)) 0#32 == 1#1)
      && !(Scalar.cmpi .ne (Scalar.extui (Scalar.cmpi .ne (BitVec.ofNat 32 n.val) 0#32)) 0#32 == 1#1)) = false := by decide
  exact h (i 0)
theorem live10_5 : ∀ i : grid10.Coords, cfg10.idle 5 i = false := live10_4

/-- At a later grid point the buffer of the column sums of `y` holds what the point before left: the window is an
    output, not written back between the two points, live and uncut. -/
theorem before10_4_next (c : Dev nD) (t : Fin cfg10.N) (h0 : t.val ≠ 0) (d) :
    (dat10 V c).before 4 t d = acc10_4 V c (t.val - 1) (Nat.lt_of_le_of_lt (Nat.sub_le _ _) t.isLt) := by
  have hN : t.val < 25 := lt_of_lt_of_eq t.isLt (show cfg10.N = 25 from N_10)
  rw [Dat.before_out_kept _ 4 rfl t h0 (Bool.eq_false_iff.mpr fun h => by have := (flush10_4 _).mp h; dsimp only at this; omega)
    live10_4 (fun _ _ => rfl)]
  dsimp only [dat10]

/-- The same for the column sums of `y * y`. -/
theorem before10_5_next (c : Dev nD) (t : Fin cfg10.N) (h0 : t.val ≠ 0) (d) :
    (dat10 V c).before 5 t d = acc10_5 V c (t.val - 1) (Nat.lt_of_le_of_lt (Nat.sub_le _ _) t.isLt) := by
  have hN : t.val < 25 := lt_of_lt_of_eq t.isLt (show cfg10.N = 25 from N_10)
  rw [Dat.before_out_kept _ 5 rfl t h0 (Bool.eq_false_iff.mpr fun h => by have := (flush10_5 _).mp h; dsimp only at this; omega)
    live10_5 (fun _ _ => rfl)]
  dsimp only [dat10]

/-- The running sums at a later point, from those at the point before. -/
theorem acc10_4_pos (c : Dev nD) (t : Fin cfg10.N) (h0 : t.val ≠ 0) :
    acc10_4 V c t.val t.isLt = out10_4_next (iblk10 V c 0 t) (iblk10 V c 1 t) (iblk10 V c 2 t)
      (acc10_4 V c (t.val - 1) (Nat.lt_of_le_of_lt (Nat.sub_le _ _) t.isLt)) := by
  obtain ⟨n, hn⟩ := t
  cases n with
  | zero => exact absurd rfl h0
  | succ n => rfl
theorem acc10_5_pos (c : Dev nD) (t : Fin cfg10.N) (h0 : t.val ≠ 0) :
    acc10_5 V c t.val t.isLt = out10_5_next (iblk10 V c 0 t) (iblk10 V c 1 t) (iblk10 V c 2 t)
      (acc10_5 V c (t.val - 1) (Nat.lt_of_le_of_lt (Nat.sub_le _ _) t.isLt)) := by
  obtain ⟨n, hn⟩ := t
  cases n with
  | zero => exact absurd rfl h0
  | succ n => rfl
/-- The running sums at the first point. -/
theorem acc10_4_first (c : Dev nD) (t : Fin cfg10.N) (h0 : t.val = 0) :
    acc10_4 V c t.val t.isLt = out10_4_first (iblk10 V c 0 t) (iblk10 V c 1 t) (iblk10 V c 2 t) := by
  obtain ⟨n, hn⟩ := t
  cases n with
  | zero => rfl
  | succ n => exact absurd h0 (Nat.succ_ne_zero n)
theorem acc10_5_first (c : Dev nD) (t : Fin cfg10.N) (h0 : t.val = 0) :
    acc10_5 V c t.val t.isLt = out10_5_first (iblk10 V c 0 t) (iblk10 V c 1 t) (iblk10 V c 2 t) := by
  obtain ⟨n, hn⟩ := t
  cases n with
  | zero => rfl
  | succ n => exact absurd h0 (Nat.succ_ne_zero n)

/-! ## The body obligation -/

/-- What the body is entered with at point `t`, window by window, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d)))

/-- and what it returns. -/
def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t
    ∗ (dat10 V c).leavesExact 4 t
    ∗ (dat10 V c).leavesExact 5 t)

/-- At every point each window's buffer is left at the proof data's stated contents: no point is idle. -/
theorem leaves10_0 (c : Dev nD) (t : Fin cfg10.N) : (dat10 V c).leavesExact 0 t = owns (c : Thread nD τ) (st10_0 t) fullShare (iblk10 V c 0 t) := by
  unfold Dat.leavesExact; rw [liveAt10_0 t, after10_0]
theorem leaves10_1 (c : Dev nD) (t : Fin cfg10.N) : (dat10 V c).leavesExact 1 t = owns (c : Thread nD τ) (st10_1 t) fullShare (iblk10 V c 1 t) := by
  unfold Dat.leavesExact; rw [liveAt10_1 t, after10_1]
theorem leaves10_2 (c : Dev nD) (t : Fin cfg10.N) : (dat10 V c).leavesExact 2 t = owns (c : Thread nD τ) (st10_2 t) fullShare (iblk10 V c 2 t) := by
  unfold Dat.leavesExact; rw [liveAt10_2 t, after10_2]
theorem leaves10_3 (c : Dev nD) (t : Fin cfg10.N) : (dat10 V c).leavesExact 3 t = owns (c : Thread nD τ) (st10_3 t) fullShare (out10_3 (iblk10 V c 0 t) (iblk10 V c 1 t) (iblk10 V c 2 t)) := by
  unfold Dat.leavesExact; rw [liveAt10_3 t, after10_3]
theorem leaves10_4 (c : Dev nD) (t : Fin cfg10.N) : (dat10 V c).leavesExact 4 t = owns (c : Thread nD τ) (st10_4 t) fullShare (acc10_4 V c t.val t.isLt) := by
  unfold Dat.leavesExact; rw [liveAt10_4 t, after10_4]
theorem leaves10_5 (c : Dev nD) (t : Fin cfg10.N) : (dat10 V c).leavesExact 5 t = owns (c : Thread nD τ) (st10_5 t) fullShare (acc10_5 V c t.val t.isLt) := by
  unfold Dat.leavesExact; rw [liveAt10_5 t, after10_5]

set_option maxHeartbeats 1000000 in
/-- The body at any point: the input buffers hold their blocks; the closed forms say which branch the point takes;
    at a later point the accumulators' buffers hold what the point before left; so that case's triple applies. The
    invariant and what the core owes pass through untouched. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2]
  rw [show (dat10 V c).Φ t.succ = (dat10 V c).Φ t.castSucc from rfl,
    show (dat10 V c).owesAt () t.succ = (dat10 V c).owesAt () t.castSucc from rfl,
    leaves10_0, leaves10_1, leaves10_2, leaves10_3, leaves10_4, leaves10_5]
  by_cases h0 : t.val = 0
  · rw [acc10_4_first V c t h0, acc10_5_first V c t h0]
    iintro ⟨HΦ, Ho, ⟨%d0, H0⟩, ⟨%d1, H1⟩, ⟨%d2, H2⟩, ⟨%d3, H3⟩, ⟨%d4, H4⟩, ⟨%d5, H5⟩⟩
    iapply (sound_kernel10_first c Set.univ (grid10.coords t) _ _ _ _ _ _ _ _ _ _ _ _ ((hcond10_1 t).mpr h0) (fun h => (hcond10_2 t).mp h h0)
      (iblk10 V c 0 t) (iblk10 V c 1 t) (iblk10 V c 2 t) _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc10_4_pos V c t h0, acc10_5_pos V c t h0]
    simp only [before10_4_next V c t h0, before10_5_next V c t h0]
    iintro ⟨HΦ, Ho, ⟨%d0, H0⟩, ⟨%d1, H1⟩, ⟨%d2, H2⟩, ⟨%d3, H3⟩, ⟨%d4, H4⟩, ⟨%d5, H5⟩⟩
    iapply (sound_kernel10_next c Set.univ (grid10.coords t) _ _ _ _ _ _ _ _ _ _ _ _ (fun h => h0 ((hcond10_1 t).mp h)) ((hcond10_2 t).mpr h0)
      (iblk10 V c 0 t) (iblk10 V c 1 t) (iblk10 V c 2 t) _ _ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The body obligation of the region, at every point. -/
theorem body_obligation10 (c : Dev nD) : BodyObligation (dat10 (F := F) V c) (defs₀ (F := F)) Variants.none () Set.univ := fun t => by
  rw [bigSep_W10, bigSep_W10]
  exact sound_body10 V c t

end Cert.Kernel.Gen

end
-- ==== Proof.Lin0.lean ====
import proofs.«165059_j7095285973648_2_alg».proof.Proof.Gen.KernelIdeal.Launch
import proofs.«165059_j7095285973648_2_alg».proof.Proof.Gen.KernelIdeal.Skeleton
import proofs.«165059_j7095285973648_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the dense layer of a row block, `x·W + b` with `x` a block of 2000 rows, `W` whole (256×128) and `b` a row of 128

The region reads each input window's block whole, computes one value of the output block's shape from
them, and stores it over the whole output block. So after the body at a grid point every input buffer still
holds its block and the output buffer holds that value; nothing is carried from one point to the next. -/

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds the window's block at every point, whether the point fetched it or the
    block index had not moved since the point that did. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's buffer holds the window's block at every point, whether the point fetched it or the
    block index had not moved since the point that did. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's buffer holds the window's block at every point, whether the point fetched it or the
    block index had not moved since the point that did. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole output block as a rectangle. -/
abbrev r0_o : Rect S2000x128 := Rect.unit (s := S2000x128) ![0, 0] S2000x128.size inb_S2000x128_S2000x128_0_0

/-- What the body leaves in the output window's buffer, from the input blocks: its one store. -/
def out0 (x0 : Vec F S2000x256 .f32) (x1 : Vec F S256x128 .f32) (x2 : Vec F S1x128 .f32) : Vec F S2000x128 .f32 :=
  View.canon [⟨r0_o, k0_pay1 (View.ld x0 (Rect.unit (s := S2000x256) ![0, 0] S2000x256.size inb_S2000x256_S2000x256_0_0)) (View.ld x1 (Rect.unit (s := S256x128) ![0, 0] S256x128.size inb_S256x128_S256x128_0_0)) (View.ld x2 (Rect.unit (s := S1x128) ![0, 0] S1x128.size inb_S1x128_S1x128_0_0))⟩]

/-- The one store covers the output block. -/
theorem cover0 (p0 : Vec F S2000x128 .f32) (y : S2000x128.Idx) :
    ∃ pc ∈ ([⟨r0_o, p0⟩] : List (View.Piece (Elt F) S2000x128 .f32)), y ∈ pc.1.set :=
  View.cover_of_tiled [⟨r0_o, p0⟩] S2000x128.size (by rfl) y

set_option maxHeartbeats 1000000 in
/-- The body on whole buffers: the inputs' at contents `x_w`, the output's at anything; it ends with the inputs'
    unchanged and the output's at `out0` of them. -/
theorem sound_kernel0 (c : Dev nD) (E : Set ℕ) (i : grid0.Coords) (arg1 : Memref sig .tc .vmem S2000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S2000x128 .f32) (harg4 : arg4.IsWhole)
    (x0 : Vec F S2000x256 .f32) (x1 : Vec F S256x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-- The region's proof data on core `c`: the arrays as the region finds them; after the body at point `t` each
    input buffer at its block and the output buffer at `out0` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is entered with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so `sound_kernel0` applies; the invariant and what
    the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Gen

end
-- ==== Proof.CombDat1.lean ====
import proofs.«165059_j7095285973648_2_alg».proof.Proof.Gen.KernelIdeal.Launch
import proofs.«165059_j7095285973648_2_alg».proof.Proof.Gen.KernelIdeal.Skeleton
import proofs.«165059_j7095285973648_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: a row block's combine–rectify step and its column statistics

At a grid point the region reads a block of 2000 rows of the aggregated messages, the same rows of the dense
layer's output and the rows' self weights (one column), and forms `y = max(agg + h * dself, 0)` row by row. It
stores `y` over its whole output block. Two more outputs, one row each, accumulate over the grid the column
sums of `y` and of `y * y`: the first grid point stores the block's own column sums, every later point adds
the block's column sums to what the point before left. Those two windows are written back only after the last
point, so between points their buffers keep what the body left. -/

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole block of 2000 rows as a rectangle. -/
abbrev r1_y : Rect S2000x128 := Rect.unit (s := S2000x128) ![0, 0] S2000x128.size inb_S2000x128_S2000x128_0_0
/-- The whole one-column block of the self weights as a rectangle. -/
abbrev r1_d : Rect S2000x1 := Rect.unit (s := S2000x1) ![0, 0] S2000x1.size inb_S2000x1_S2000x1_0_0
/-- The whole one-row block of a column statistic as a rectangle. -/
abbrev r1_s : Rect S1x128 := Rect.unit (s := S1x128) ![0, 0] S1x128.size inb_S1x128_S1x128_0_0

/-- What the body leaves in the buffer of `y`, from the three input blocks: its one store. -/
def out1_3 (x0 : Vec F S2000x128 .f32) (x1 : Vec F S2000x128 .f32) (x2 : Vec F S2000x1 .f32) : Vec F S2000x128 .f32 :=
  View.canon [⟨r1_y, k1_pay1 (View.ld x0 r1_y) (View.ld x1 r1_y) (View.ld x2 r1_d)⟩]

/-- What the FIRST grid point leaves in the buffer of the column sums of `y`: the block's own column sums. -/
def out1_4_first (x0 : Vec F S2000x128 .f32) (x1 : Vec F S2000x128 .f32) (x2 : Vec F S2000x1 .f32) : Vec F S1x128 .f32 :=
  View.canon [⟨r1_s, k1_pay2 (View.ld x0 r1_y) (View.ld x1 r1_y) (View.ld x2 r1_d)⟩]

/-- What the FIRST grid point leaves in the buffer of the column sums of `y * y`: the block's own. -/
def out1_5_first (x0 : Vec F S2000x128 .f32) (x1 : Vec F S2000x128 .f32) (x2 : Vec F S2000x1 .f32) : Vec F S1x128 .f32 :=
  View.canon [⟨r1_s, k1_pay3 (View.ld x0 r1_y) (View.ld x1 r1_y) (View.ld x2 r1_d)⟩]

/-- What a LATER grid point leaves in the buffer of the column sums of `y`, which it found at `a`: `a` plus the
    block's column sums. -/
def out1_4_next (x0 : Vec F S2000x128 .f32) (x1 : Vec F S2000x128 .f32) (x2 : Vec F S2000x1 .f32) (a : Vec F S1x128 .f32) : Vec F S1x128 .f32 :=
  View.canon [⟨r1_s, k1_pay4 (View.ld x0 r1_y) (View.ld x1 r1_y) (View.ld x2 r1_d) (View.ld a r1_s)⟩]

/-- What a LATER grid point leaves in the buffer of the column sums of `y * y`, which it found at `a`. -/
def out1_5_next (x0 : Vec F S2000x128 .f32) (x1 : Vec F S2000x128 .f32) (x2 : Vec F S2000x1 .f32) (a : Vec F S1x128 .f32) : Vec F S1x128 .f32 :=
  View.canon [⟨r1_s, k1_pay5 (View.ld x0 r1_y) (View.ld x1 r1_y) (View.ld x2 r1_d) (View.ld a r1_s)⟩]

/-- The running column sums of `y` after grid point `n`: the first point's own, then each point's added to what
    the point before left. -/
def acc1_4 (c : Dev nD) : (n : ℕ) → n < cfg1.N → Vec F S1x128 .f32
  | 0, hn => out1_4_first (iblk1 V c 0 ⟨0, hn⟩) (iblk1 V c 1 ⟨0, hn⟩) (iblk1 V c 2 ⟨0, hn⟩)
  | n + 1, hn => out1_4_next (iblk1 V c 0 ⟨n + 1, hn⟩) (iblk1 V c 1 ⟨n + 1, hn⟩) (iblk1 V c 2 ⟨n + 1, hn⟩)
      (acc1_4 c n (Nat.lt_of_succ_lt hn))

/-- The running column sums of `y * y` after grid point `n`, likewise. -/
def acc1_5 (c : Dev nD) : (n : ℕ) → n < cfg1.N → Vec F S1x128 .f32
  | 0, hn => out1_5_first (iblk1 V c 0 ⟨0, hn⟩) (iblk1 V c 1 ⟨0, hn⟩) (iblk1 V c 2 ⟨0, hn⟩)
  | n + 1, hn => out1_5_next (iblk1 V c 0 ⟨n + 1, hn⟩) (iblk1 V c 1 ⟨n + 1, hn⟩) (iblk1 V c 2 ⟨n + 1, hn⟩)
      (acc1_5 c n (Nat.lt_of_succ_lt hn))

/-- The recursion's two equations, for the sums of `y`, -/
theorem acc1_4_zero (c : Dev nD) (hn : 0 < cfg1.N) :
    acc1_4 V c 0 hn = out1_4_first (iblk1 V c 0 ⟨0, hn⟩) (iblk1 V c 1 ⟨0, hn⟩) (iblk1 V c 2 ⟨0, hn⟩) := rfl
theorem acc1_4_succ (c : Dev nD) (n : ℕ) (hn : n + 1 < cfg1.N) :
    acc1_4 V c (n + 1) hn = out1_4_next (iblk1 V c 0 ⟨n + 1, hn⟩) (iblk1 V c 1 ⟨n + 1, hn⟩) (iblk1 V c 2 ⟨n + 1, hn⟩)
      (acc1_4 V c n (Nat.lt_of_succ_lt hn)) := rfl
/-- and for the sums of `y * y`. -/
theorem acc1_5_zero (c : Dev nD) (hn : 0 < cfg1.N) :
    acc1_5 V c 0 hn = out1_5_first (iblk1 V c 0 ⟨0, hn⟩) (iblk1 V c 1 ⟨0, hn⟩) (iblk1 V c 2 ⟨0, hn⟩) := rfl
theorem acc1_5_succ (c : Dev nD) (n : ℕ) (hn : n + 1 < cfg1.N) :
    acc1_5 V c (n + 1) hn = out1_5_next (iblk1 V c 0 ⟨n + 1, hn⟩) (iblk1 V c 1 ⟨n + 1, hn⟩) (iblk1 V c 2 ⟨n + 1, hn⟩)
      (acc1_5 V c n (Nat.lt_of_succ_lt hn)) := rfl

/-- The region's proof data on core `c`: the arrays as the region finds them; after the body at point `t` each
    input buffer at its block, the buffer of `y` at `out1_3` of the input blocks, and the two accumulators'
    buffers at the running sums up to `t`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => acc1_4 V c t.val t.isLt
    | ⟨5, _⟩ => acc1_5 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = acc1_4 V c t.val t.isLt := by dsimp only [dat1]
theorem after1_5 (c : Dev nD) (t : Fin cfg1.N) : (dat1 V c).after 5 t = acc1_5 V c t.val t.isLt := by dsimp only [dat1]

end Cert.KernelIdeal.Gen

end
-- ==== Proof.Bn2.lean ====
import proofs.«165059_j7095285973648_2_alg».proof.Proof.Gen.KernelIdeal.Launch
import proofs.«165059_j7095285973648_2_alg».proof.Proof.Gen.KernelIdeal.Skeleton
import proofs.«165059_j7095285973648_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the batch-norm affine map of a row block, `g·(y − mean)·rsqrt(var + ε) + b` followed by a maximum with zero, with `y` a block of 2000 rows and `mean`, `var`, `g`, `b` rows of 128

The region reads each input window's block whole, computes one value of the output block's shape from
them, and stores it over the whole output block. So after the body at a grid point every input buffer still
holds its block and the output buffer holds that value; nothing is carried from one point to the next. -/

/-- Window `w`'s block at grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's buffer holds the window's block at every point, whether the point fetched it or the
    block index had not moved since the point that did. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's buffer holds the window's block at every point, whether the point fetched it or the
    block index had not moved since the point that did. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An input window's buffer holds the window's block at every point, whether the point fetched it or the
    block index had not moved since the point that did. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- An input window's buffer holds the window's block at every point, whether the point fetched it or the
    block index had not moved since the point that did. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- An input window's buffer holds the window's block at every point, whether the point fetched it or the
    block index had not moved since the point that did. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The whole output block as a rectangle. -/
abbrev r2_o : Rect S2000x128 := Rect.unit (s := S2000x128) ![0, 0] S2000x128.size inb_S2000x128_S2000x128_0_0

/-- What the body leaves in the output window's buffer, from the input blocks: its one store. -/
def out2 (x0 : Vec F S2000x128 .f32) (x1 : Vec F S1x128 .f32) (x2 : Vec F S1x128 .f32) (x3 : Vec F S1x128 .f32) (x4 : Vec F S1x128 .f32) : Vec F S2000x128 .f32 :=
  View.canon [⟨r2_o, k2_pay1 (View.ld x0 (Rect.unit (s := S2000x128) ![0, 0] S2000x128.size inb_S2000x128_S2000x128_0_0)) (View.ld x1 (Rect.unit (s := S1x128) ![0, 0] S1x128.size inb_S1x128_S1x128_0_0)) (View.ld x2 (Rect.unit (s := S1x128) ![0, 0] S1x128.size inb_S1x128_S1x128_0_0)) (View.ld x3 (Rect.unit (s := S1x128) ![0, 0] S1x128.size inb_S1x128_S1x128_0_0)) (View.ld x4 (Rect.unit (s := S1x128) ![0, 0] S1x128.size inb_S1x128_S1x128_0_0))⟩]

/-- The one store covers the output block. -/
theorem cover2 (p0 : Vec F S2000x128 .f32) (y : S2000x128.Idx) :
    ∃ pc ∈ ([⟨r2_o, p0⟩] : List (View.Piece (Elt F) S2000x128 .f32)), y ∈ pc.1.set :=
  View.cover_of_tiled [⟨r2_o, p0⟩] S2000x128.size (by rfl) y

set_option maxHeartbeats 1000000 in
/-- The body on whole buffers: the inputs' at contents `x_w`, the output's at anything; it ends with the inputs'
    unchanged and the output's at `out2` of them. -/
theorem sound_kernel2 (c : Dev nD) (E : Set ℕ) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2 x0 x1 x2 x3 x4)) -∗ K ⟨⟩))
      ⊢ wp frame (wpE (defs₀ (F := F)) Variants.none c none) E (cc2__bn_apply_kernel i arg1 harg1 arg2 harg2 arg3 harg3 arg4 harg4 arg5 harg5 arg6 harg6) K := by
  simp only [cc2__bn_apply_kernel_eq_skeleton]; unfold cc2__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2 _)

/-- The region's proof data on core `c`: the arrays as the region finds them; after the body at point `t` each
    input buffer at its block and the output buffer at `out2` of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is entered with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the input buffers hold their blocks, so `sound_kernel2` applies; the invariant and what
    the core owes pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Gen

end
-- ==== Proof.Lin3.lean ====
import proofs.«165059_j7095285973648_2_alg».proof.Proof.Gen.KernelIdeal.Launch
import proofs.«165059_j7095285973648_2_alg».proof.Proof.Gen.KernelIdeal.Skeleton
import proofs.«165059_j7095285973648_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: the dense layer of a row block, `x·W + b` with `x` a block of 2000 rows, `W` whole (128×64) and `b` a row of 64

The region reads each input window's block whole, computes one value of the output block's shape from
them, and stores it over the whole output block. So after the body at a grid point every input buffer still
holds its block and the output buffer holds that value; nothing is carried from one point to the next. -/

/-- Window `w`'s block at grid point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's buffer holds the window's block at every point, whether the point fetched it or the
    block index had not moved since the point that did. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- An input window's buffer holds the window's block at every point, whether the point fetched it or the
    block index had not moved since the point that did. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- An input window's buffer holds the window's block at every point, whether the point fetched it or the
    block index had not moved since the point that did. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole output block as a rectangle. -/
abbrev r3_o : Rect S2000x64 := Rect.unit (s := S2000x64) ![0, 0] S2000x64.size inb_S2000x64_S2000x64_0_0

/-- What the body leaves in the output window's buffer, from the input blocks: its one store. -/
def out3 (x0 : Vec F S2000x128 .f32) (x1 : Vec F S128x64 .f32) (x2 : Vec F S1x64 .f32) : Vec F S2000x64 .f32 :=
  View.canon [⟨r3_o, k3_pay1 (View.ld x0 (Rect.unit (s := S2000x128) ![0, 0] S2000x128.size inb_S2000x128_S2000x128_0_0)) (View.ld x1 (Rect.unit (s := S128x64) ![0, 0] S128x64.size inb_S128x64_S128x64_0_0)) (View.ld x2 (Rect.unit (s := S1x64) ![0, 0] S1x64.size inb_S1x64_S1x64_0_0))⟩]

/-- The one store covers the output block. -/
theorem cover3 (p0 : Vec F S2000x64 .f32) (y : S2000x64.Idx) :
    ∃ pc ∈ ([⟨r3_o, p0⟩] : List (View.Piece (Elt F) S2000x64 .f32)), y ∈ pc.1.set :=
  View.cover_of_tiled [⟨r3_o, p0⟩] S2000x64.size (by rfl) y

set_option maxHeartbeats 1000000 in
/-- The body on whole buffers: the inputs' at contents `x_w`, the output's at anything; it ends with the inputs'
    unchanged and the output's at `out3` of them. -/
theorem sound_kernel3 (c : Dev nD) (E : Set ℕ) (i : grid3.Coords) (arg1 : Memref sig .tc .vmem S2000x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S2000x64 .f32) (harg4 : arg4.IsWhole)
    (x0 : Vec F S2000x128 .f32) (x1 : Vec F S128x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3 x0 x1 x2)) -∗ K ⟨⟩))
      ⊢ wp frame (wpE (defs₀ (F := F)) Variants.none c none) E (cc3__linear_kernel i arg1 harg1 arg2 harg2 arg3 harg3 arg4 harg4) K := by
  simp only [cc3__linear_kernel_eq_skeleton]; unfold cc3__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-- The region's proof data on core `c`: the arrays as the region finds them; after the body at point `t` each
    input buffer at its block and the output buffer at `out3` of the input blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is entered with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the input buffers hold their blocks, so `sound_kernel3` applies; the invariant and what
    the core owes pass through untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Gen

end
-- ==== Proof.CombDat4.lean ====
import proofs.«165059_j7095285973648_2_alg».proof.Proof.Gen.KernelIdeal.Launch
import proofs.«165059_j7095285973648_2_alg».proof.Proof.Gen.KernelIdeal.Skeleton
import proofs.«165059_j7095285973648_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4: a row block's combine–rectify step and its column statistics

At a grid point the region reads a block of 2000 rows of the aggregated messages, the same rows of the dense
layer's output and the rows' self weights (one column), and forms `y = max(agg + h * dself, 0)` row by row. It
stores `y` over its whole output block. Two more outputs, one row each, accumulate over the grid the column
sums of `y` and of `y * y`: the first grid point stores the block's own column sums, every later point adds
the block's column sums to what the point before left. Those two windows are written back only after the last
point, so between points their buffers keep what the body left. -/

/-- Window `w`'s block at grid point `t`, read off the window's array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The whole block of 2000 rows as a rectangle. -/
abbrev r4_y : Rect S2000x64 := Rect.unit (s := S2000x64) ![0, 0] S2000x64.size inb_S2000x64_S2000x64_0_0
/-- The whole one-column block of the self weights as a rectangle. -/
abbrev r4_d : Rect S2000x1 := Rect.unit (s := S2000x1) ![0, 0] S2000x1.size inb_S2000x1_S2000x1_0_0
/-- The whole one-row block of a column statistic as a rectangle. -/
abbrev r4_s : Rect S1x64 := Rect.unit (s := S1x64) ![0, 0] S1x64.size inb_S1x64_S1x64_0_0

/-- What the body leaves in the buffer of `y`, from the three input blocks: its one store. -/
def out4_3 (x0 : Vec F S2000x64 .f32) (x1 : Vec F S2000x64 .f32) (x2 : Vec F S2000x1 .f32) : Vec F S2000x64 .f32 :=
  View.canon [⟨r4_y, k4_pay1 (View.ld x0 r4_y) (View.ld x1 r4_y) (View.ld x2 r4_d)⟩]

/-- What the FIRST grid point leaves in the buffer of the column sums of `y`: the block's own column sums. -/
def out4_4_first (x0 : Vec F S2000x64 .f32) (x1 : Vec F S2000x64 .f32) (x2 : Vec F S2000x1 .f32) : Vec F S1x64 .f32 :=
  View.canon [⟨r4_s, k4_pay2 (View.ld x0 r4_y) (View.ld x1 r4_y) (View.ld x2 r4_d)⟩]

/-- What the FIRST grid point leaves in the buffer of the column sums of `y * y`: the block's own. -/
def out4_5_first (x0 : Vec F S2000x64 .f32) (x1 : Vec F S2000x64 .f32) (x2 : Vec F S2000x1 .f32) : Vec F S1x64 .f32 :=
  View.canon [⟨r4_s, k4_pay3 (View.ld x0 r4_y) (View.ld x1 r4_y) (View.ld x2 r4_d)⟩]

/-- What a LATER grid point leaves in the buffer of the column sums of `y`, which it found at `a`: `a` plus the
    block's column sums. -/
def out4_4_next (x0 : Vec F S2000x64 .f32) (x1 : Vec F S2000x64 .f32) (x2 : Vec F S2000x1 .f32) (a : Vec F S1x64 .f32) : Vec F S1x64 .f32 :=
  View.canon [⟨r4_s, k4_pay4 (View.ld x0 r4_y) (View.ld x1 r4_y) (View.ld x2 r4_d) (View.ld a r4_s)⟩]

/-- What a LATER grid point leaves in the buffer of the column sums of `y * y`, which it found at `a`. -/
def out4_5_next (x0 : Vec F S2000x64 .f32) (x1 : Vec F S2000x64 .f32) (x2 : Vec F S2000x1 .f32) (a : Vec F S1x64 .f32) : Vec F S1x64 .f32 :=
  View.canon [⟨r4_s, k4_pay5 (View.ld x0 r4_y) (View.ld x1 r4_y) (View.ld x2 r4_d) (View.ld a r4_s)⟩]

/-- The running column sums of `y` after grid point `n`: the first point's own, then each point's added to what
    the point before left. -/
def acc4_4 (c : Dev nD) : (n : ℕ) → n < cfg4.N → Vec F S1x64 .f32
  | 0, hn => out4_4_first (iblk4 V c 0 ⟨0, hn⟩) (iblk4 V c 1 ⟨0, hn⟩) (iblk4 V c 2 ⟨0, hn⟩)
  | n + 1, hn => out4_4_next (iblk4 V c 0 ⟨n + 1, hn⟩) (iblk4 V c 1 ⟨n + 1, hn⟩) (iblk4 V c 2 ⟨n + 1, hn⟩)
      (acc4_4 c n (Nat.lt_of_succ_lt hn))

/-- The running column sums of `y * y` after grid point `n`, likewise. -/
def acc4_5 (c : Dev nD) : (n : ℕ) → n < cfg4.N → Vec F S1x64 .f32
  | 0, hn => out4_5_first (iblk4 V c 0 ⟨0, hn⟩) (iblk4 V c 1 ⟨0, hn⟩) (iblk4 V c 2 ⟨0, hn⟩)
  | n + 1, hn => out4_5_next (iblk4 V c 0 ⟨n + 1, hn⟩) (iblk4 V c 1 ⟨n + 1, hn⟩) (iblk4 V c 2 ⟨n + 1, hn⟩)
      (acc4_5 c n (Nat.lt_of_succ_lt hn))

/-- The recursion's two equations, for the sums of `y`, -/
theorem acc4_4_zero (c : Dev nD) (hn : 0 < cfg4.N) :
    acc4_4 V c 0 hn = out4_4_first (iblk4 V c 0 ⟨0, hn⟩) (iblk4 V c 1 ⟨0, hn⟩) (iblk4 V c 2 ⟨0, hn⟩) := rfl
theorem acc4_4_succ (c : Dev nD) (n : ℕ) (hn : n + 1 < cfg4.N) :
    acc4_4 V c (n + 1) hn = out4_4_next (iblk4 V c 0 ⟨n + 1, hn⟩) (iblk4 V c 1 ⟨n + 1, hn⟩) (iblk4 V c 2 ⟨n + 1, hn⟩)
      (acc4_4 V c n (Nat.lt_of_succ_lt hn)) := rfl
/-- and for the sums of `y * y`. -/
theorem acc4_5_zero (c : Dev nD) (hn : 0 < cfg4.N) :
    acc4_5 V c 0 hn = out4_5_first (iblk4 V c 0 ⟨0, hn⟩) (iblk4 V c 1 ⟨0, hn⟩) (iblk4 V c 2 ⟨0, hn⟩) := rfl
theorem acc4_5_succ (c : Dev nD) (n : ℕ) (hn : n + 1 < cfg4.N) :
    acc4_5 V c (n + 1) hn = out4_5_next (iblk4 V c 0 ⟨n + 1, hn⟩) (iblk4 V c 1 ⟨n + 1, hn⟩) (iblk4 V c 2 ⟨n + 1, hn⟩)
      (acc4_5 V c n (Nat.lt_of_succ_lt hn)) := rfl

/-- The region's proof data on core `c`: the arrays as the region finds them; after the body at point `t` each
    input buffer at its block, the buffer of `y` at `out4_3` of the input blocks, and the two accumulators'
    buffers at the running sums up to `t`. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
    | ⟨4, _⟩ => acc4_4 V c t.val t.isLt
    | ⟨5, _⟩ => acc4_5 V c t.val t.isLt
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]
theorem after4_4 (c : Dev nD) (t : Fin cfg4.N) : (dat4 V c).after 4 t = acc4_4 V c t.val t.isLt := by dsimp only [dat4]
theorem after4_5 (c : Dev nD) (t : Fin cfg4.N) : (dat4 V c).after 5 t = acc4_5 V c t.val t.isLt := by dsimp only [dat4]

end Cert.KernelIdeal.Gen

end
-- ==== Proof.Bn5.lean ====
import proofs.«165059_j7095285973648_2_alg».proof.Proof.Gen.KernelIdeal.Launch
import proofs.«165059_j7095285973648_2_alg».proof.Proof.Gen.KernelIdeal.Skeleton
import proofs.«165059_j7095285973648_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 5: the batch-norm affine map of a row block, `g·(y − mean)·rsqrt(var + ε) + b`, with `y` a block of 2000 rows and `mean`, `var`, `g`, `b` rows of 64

The region reads each input window's block whole, computes one value of the output block's shape from
them, and stores it over the whole output block. So after the body at a grid point every input buffer still
holds its block and the output buffer holds that value; nothing is carried from one point to the next. -/

/-- Window `w`'s block at grid point `t`, read off the window's array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's buffer holds the window's block at every point, whether the point fetched it or the
    block index had not moved since the point that did. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- An input window's buffer holds the window's block at every point, whether the point fetched it or the
    block index had not moved since the point that did. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- An input window's buffer holds the window's block at every point, whether the point fetched it or the
    block index had not moved since the point that did. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- An input window's buffer holds the window's block at every point, whether the point fetched it or the
    block index had not moved since the point that did. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- An input window's buffer holds the window's block at every point, whether the point fetched it or the
    block index had not moved since the point that did. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- The whole output block as a rectangle. -/
abbrev r5_o : Rect S2000x64 := Rect.unit (s := S2000x64) ![0, 0] S2000x64.size inb_S2000x64_S2000x64_0_0

/-- What the body leaves in the output window's buffer, from the input blocks: its one store. -/
def out5 (x0 : Vec F S2000x64 .f32) (x1 : Vec F S1x64 .f32) (x2 : Vec F S1x64 .f32) (x3 : Vec F S1x64 .f32) (x4 : Vec F S1x64 .f32) : Vec F S2000x64 .f32 :=
  View.canon [⟨r5_o, k5_pay1 (View.ld x0 (Rect.unit (s := S2000x64) ![0, 0] S2000x64.size inb_S2000x64_S2000x64_0_0)) (View.ld x1 (Rect.unit (s := S1x64) ![0, 0] S1x64.size inb_S1x64_S1x64_0_0)) (View.ld x2 (Rect.unit (s := S1x64) ![0, 0] S1x64.size inb_S1x64_S1x64_0_0)) (View.ld x3 (Rect.unit (s := S1x64) ![0, 0] S1x64.size inb_S1x64_S1x64_0_0)) (View.ld x4 (Rect.unit (s := S1x64) ![0, 0] S1x64.size inb_S1x64_S1x64_0_0))⟩]

/-- The one store covers the output block. -/
theorem cover5 (p0 : Vec F S2000x64 .f32) (y : S2000x64.Idx) :
    ∃ pc ∈ ([⟨r5_o, p0⟩] : List (View.Piece (Elt F) S2000x64 .f32)), y ∈ pc.1.set :=
  View.cover_of_tiled [⟨r5_o, p0⟩] S2000x64.size (by rfl) y

set_option maxHeartbeats 1000000 in
/-- The body on whole buffers: the inputs' at contents `x_w`, the output's at anything; it ends with the inputs'
    unchanged and the output's at `out5` of them. -/
theorem sound_kernel5 (c : Dev nD) (E : Set ℕ) (i : grid5.Coords) (arg1 : Memref sig .tc .vmem S2000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S2000x64 .f32) (harg6 : arg6.IsWhole)
    (x0 : Vec F S2000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5 x0 x1 x2 x3 x4)) -∗ K ⟨⟩))
      ⊢ wp frame (wpE (defs₀ (F := F)) Variants.none c none) E (cc5__bn_apply_kernel i arg1 harg1 arg2 harg2 arg3 harg3 arg4 harg4 arg5 harg5 arg6 harg6) K := by
  simp only [cc5__bn_apply_kernel_eq_skeleton]; unfold cc5__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

/-- The region's proof data on core `c`: the arrays as the region finds them; after the body at point `t` each
    input buffer at its block and the output buffer at `out5` of the input blocks. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is entered with at point `t`, window by window, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the input buffers hold their blocks, so `sound_kernel5` applies; the invariant and what
    the core owes pass through untouched. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Gen

end
-- ==== Proof.Lin6.lean ====
import proofs.«165059_j7095285973648_2_alg».proof.Proof.Gen.KernelIdeal.Launch
import proofs.«165059_j7095285973648_2_alg».proof.Proof.Gen.KernelIdeal.Skeleton
import proofs.«165059_j7095285973648_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 6: the dense layer of a row block, `x·W + b` with `x` a block of 2000 rows, `W` whole (64×128) and `b` a row of 128

The region reads each input window's block whole, computes one value of the output block's shape from
them, and stores it over the whole output block. So after the body at a grid point every input buffer still
holds its block and the output buffer holds that value; nothing is carried from one point to the next. -/

/-- Window `w`'s block at grid point `t`, read off the window's array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's buffer holds the window's block at every point, whether the point fetched it or the
    block index had not moved since the point that did. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- An input window's buffer holds the window's block at every point, whether the point fetched it or the
    block index had not moved since the point that did. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- An input window's buffer holds the window's block at every point, whether the point fetched it or the
    block index had not moved since the point that did. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- The whole output block as a rectangle. -/
abbrev r6_o : Rect S2000x128 := Rect.unit (s := S2000x128) ![0, 0] S2000x128.size inb_S2000x128_S2000x128_0_0

/-- What the body leaves in the output window's buffer, from the input blocks: its one store. -/
def out6 (x0 : Vec F S2000x64 .f32) (x1 : Vec F S64x128 .f32) (x2 : Vec F S1x128 .f32) : Vec F S2000x128 .f32 :=
  View.canon [⟨r6_o, k6_pay1 (View.ld x0 (Rect.unit (s := S2000x64) ![0, 0] S2000x64.size inb_S2000x64_S2000x64_0_0)) (View.ld x1 (Rect.unit (s := S64x128) ![0, 0] S64x128.size inb_S64x128_S64x128_0_0)) (View.ld x2 (Rect.unit (s := S1x128) ![0, 0] S1x128.size inb_S1x128_S1x128_0_0))⟩]

/-- The one store covers the output block. -/
theorem cover6 (p0 : Vec F S2000x128 .f32) (y : S2000x128.Idx) :
    ∃ pc ∈ ([⟨r6_o, p0⟩] : List (View.Piece (Elt F) S2000x128 .f32)), y ∈ pc.1.set :=
  View.cover_of_tiled [⟨r6_o, p0⟩] S2000x128.size (by rfl) y

set_option maxHeartbeats 1000000 in
/-- The body on whole buffers: the inputs' at contents `x_w`, the output's at anything; it ends with the inputs'
    unchanged and the output's at `out6` of them. -/
theorem sound_kernel6 (c : Dev nD) (E : Set ℕ) (i : grid6.Coords) (arg1 : Memref sig .tc .vmem S2000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S2000x128 .f32) (harg4 : arg4.IsWhole)
    (x0 : Vec F S2000x64 .f32) (x1 : Vec F S64x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6 x0 x1 x2)) -∗ K ⟨⟩))
      ⊢ wp frame (wpE (defs₀ (F := F)) Variants.none c none) E (cc6__linear_kernel i arg1 harg1 arg2 harg2 arg3 harg3 arg4 harg4) K := by
  simp only [cc6__linear_kernel_eq_skeleton]; unfold cc6__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6 _)

/-- The region's proof data on core `c`: the arrays as the region finds them; after the body at point `t` each
    input buffer at its block and the output buffer at `out6` of the input blocks. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is entered with at point `t`, window by window, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the input buffers hold their blocks, so `sound_kernel6` applies; the invariant and what
    the core owes pass through untouched. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Gen

end
-- ==== Proof.CombDat7.lean ====
import proofs.«165059_j7095285973648_2_alg».proof.Proof.Gen.KernelIdeal.Launch
import proofs.«165059_j7095285973648_2_alg».proof.Proof.Gen.KernelIdeal.Skeleton
import proofs.«165059_j7095285973648_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 7: a row block's combine–rectify step and its column statistics

At a grid point the region reads a block of 2000 rows of the aggregated messages, the same rows of the dense
layer's output and the rows' self weights (one column), and forms `y = max(agg + h * dself, 0)` row by row. It
stores `y` over its whole output block. Two more outputs, one row each, accumulate over the grid the column
sums of `y` and of `y * y`: the first grid point stores the block's own column sums, every later point adds
the block's column sums to what the point before left. Those two windows are written back only after the last
point, so between points their buffers keep what the body left. -/

/-- Window `w`'s block at grid point `t`, read off the window's array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The whole block of 2000 rows as a rectangle. -/
abbrev r7_y : Rect S2000x128 := Rect.unit (s := S2000x128) ![0, 0] S2000x128.size inb_S2000x128_S2000x128_0_0
/-- The whole one-column block of the self weights as a rectangle. -/
abbrev r7_d : Rect S2000x1 := Rect.unit (s := S2000x1) ![0, 0] S2000x1.size inb_S2000x1_S2000x1_0_0
/-- The whole one-row block of a column statistic as a rectangle. -/
abbrev r7_s : Rect S1x128 := Rect.unit (s := S1x128) ![0, 0] S1x128.size inb_S1x128_S1x128_0_0

/-- What the body leaves in the buffer of `y`, from the three input blocks: its one store. -/
def out7_3 (x0 : Vec F S2000x128 .f32) (x1 : Vec F S2000x128 .f32) (x2 : Vec F S2000x1 .f32) : Vec F S2000x128 .f32 :=
  View.canon [⟨r7_y, k7_pay1 (View.ld x0 r7_y) (View.ld x1 r7_y) (View.ld x2 r7_d)⟩]

/-- What the FIRST grid point leaves in the buffer of the column sums of `y`: the block's own column sums. -/
def out7_4_first (x0 : Vec F S2000x128 .f32) (x1 : Vec F S2000x128 .f32) (x2 : Vec F S2000x1 .f32) : Vec F S1x128 .f32 :=
  View.canon [⟨r7_s, k7_pay2 (View.ld x0 r7_y) (View.ld x1 r7_y) (View.ld x2 r7_d)⟩]

/-- What the FIRST grid point leaves in the buffer of the column sums of `y * y`: the block's own. -/
def out7_5_first (x0 : Vec F S2000x128 .f32) (x1 : Vec F S2000x128 .f32) (x2 : Vec F S2000x1 .f32) : Vec F S1x128 .f32 :=
  View.canon [⟨r7_s, k7_pay3 (View.ld x0 r7_y) (View.ld x1 r7_y) (View.ld x2 r7_d)⟩]

/-- What a LATER grid point leaves in the buffer of the column sums of `y`, which it found at `a`: `a` plus the
    block's column sums. -/
def out7_4_next (x0 : Vec F S2000x128 .f32) (x1 : Vec F S2000x128 .f32) (x2 : Vec F S2000x1 .f32) (a : Vec F S1x128 .f32) : Vec F S1x128 .f32 :=
  View.canon [⟨r7_s, k7_pay4 (View.ld x0 r7_y) (View.ld x1 r7_y) (View.ld x2 r7_d) (View.ld a r7_s)⟩]

/-- What a LATER grid point leaves in the buffer of the column sums of `y * y`, which it found at `a`. -/
def out7_5_next (x0 : Vec F S2000x128 .f32) (x1 : Vec F S2000x128 .f32) (x2 : Vec F S2000x1 .f32) (a : Vec F S1x128 .f32) : Vec F S1x128 .f32 :=
  View.canon [⟨r7_s, k7_pay5 (View.ld x0 r7_y) (View.ld x1 r7_y) (View.ld x2 r7_d) (View.ld a r7_s)⟩]

/-- The running column sums of `y` after grid point `n`: the first point's own, then each point's added to what
    the point before left. -/
def acc7_4 (c : Dev nD) : (n : ℕ) → n < cfg7.N → Vec F S1x128 .f32
  | 0, hn => out7_4_first (iblk7 V c 0 ⟨0, hn⟩) (iblk7 V c 1 ⟨0, hn⟩) (iblk7 V c 2 ⟨0, hn⟩)
  | n + 1, hn => out7_4_next (iblk7 V c 0 ⟨n + 1, hn⟩) (iblk7 V c 1 ⟨n + 1, hn⟩) (iblk7 V c 2 ⟨n + 1, hn⟩)
      (acc7_4 c n (Nat.lt_of_succ_lt hn))

/-- The running column sums of `y * y` after grid point `n`, likewise. -/
def acc7_5 (c : Dev nD) : (n : ℕ) → n < cfg7.N → Vec F S1x128 .f32
  | 0, hn => out7_5_first (iblk7 V c 0 ⟨0, hn⟩) (iblk7 V c 1 ⟨0, hn⟩) (iblk7 V c 2 ⟨0, hn⟩)
  | n + 1, hn => out7_5_next (iblk7 V c 0 ⟨n + 1, hn⟩) (iblk7 V c 1 ⟨n + 1, hn⟩) (iblk7 V c 2 ⟨n + 1, hn⟩)
      (acc7_5 c n (Nat.lt_of_succ_lt hn))

/-- The recursion's two equations, for the sums of `y`, -/
theorem acc7_4_zero (c : Dev nD) (hn : 0 < cfg7.N) :
    acc7_4 V c 0 hn = out7_4_first (iblk7 V c 0 ⟨0, hn⟩) (iblk7 V c 1 ⟨0, hn⟩) (iblk7 V c 2 ⟨0, hn⟩) := rfl
theorem acc7_4_succ (c : Dev nD) (n : ℕ) (hn : n + 1 < cfg7.N) :
    acc7_4 V c (n + 1) hn = out7_4_next (iblk7 V c 0 ⟨n + 1, hn⟩) (iblk7 V c 1 ⟨n + 1, hn⟩) (iblk7 V c 2 ⟨n + 1, hn⟩)
      (acc7_4 V c n (Nat.lt_of_succ_lt hn)) := rfl
/-- and for the sums of `y * y`. -/
theorem acc7_5_zero (c : Dev nD) (hn : 0 < cfg7.N) :
    acc7_5 V c 0 hn = out7_5_first (iblk7 V c 0 ⟨0, hn⟩) (iblk7 V c 1 ⟨0, hn⟩) (iblk7 V c 2 ⟨0, hn⟩) := rfl
theorem acc7_5_succ (c : Dev nD) (n : ℕ) (hn : n + 1 < cfg7.N) :
    acc7_5 V c (n + 1) hn = out7_5_next (iblk7 V c 0 ⟨n + 1, hn⟩) (iblk7 V c 1 ⟨n + 1, hn⟩) (iblk7 V c 2 ⟨n + 1, hn⟩)
      (acc7_5 V c n (Nat.lt_of_succ_lt hn)) := rfl

/-- The region's proof data on core `c`: the arrays as the region finds them; after the body at point `t` each
    input buffer at its block, the buffer of `y` at `out7_3` of the input blocks, and the two accumulators'
    buffers at the running sums up to `t`. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
    | ⟨4, _⟩ => acc7_4 V c t.val t.isLt
    | ⟨5, _⟩ => acc7_5 V c t.val t.isLt
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]
theorem after7_4 (c : Dev nD) (t : Fin cfg7.N) : (dat7 V c).after 4 t = acc7_4 V c t.val t.isLt := by dsimp only [dat7]
theorem after7_5 (c : Dev nD) (t : Fin cfg7.N) : (dat7 V c).after 5 t = acc7_5 V c t.val t.isLt := by dsimp only [dat7]

end Cert.KernelIdeal.Gen

end
-- ==== Proof.Bn8.lean ====
import proofs.«165059_j7095285973648_2_alg».proof.Proof.Gen.KernelIdeal.Launch
import proofs.«165059_j7095285973648_2_alg».proof.Proof.Gen.KernelIdeal.Skeleton
import proofs.«165059_j7095285973648_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 8: the batch-norm affine map of a row block, `g·(y − mean)·rsqrt(var + ε) + b` followed by a maximum with zero, with `y` a block of 2000 rows and `mean`, `var`, `g`, `b` rows of 128

The region reads each input window's block whole, computes one value of the output block's shape from
them, and stores it over the whole output block. So after the body at a grid point every input buffer still
holds its block and the output buffer holds that value; nothing is carried from one point to the next. -/

/-- Window `w`'s block at grid point `t`, read off the window's array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's buffer holds the window's block at every point, whether the point fetched it or the
    block index had not moved since the point that did. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- An input window's buffer holds the window's block at every point, whether the point fetched it or the
    block index had not moved since the point that did. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- An input window's buffer holds the window's block at every point, whether the point fetched it or the
    block index had not moved since the point that did. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- An input window's buffer holds the window's block at every point, whether the point fetched it or the
    block index had not moved since the point that did. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- An input window's buffer holds the window's block at every point, whether the point fetched it or the
    block index had not moved since the point that did. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- The whole output block as a rectangle. -/
abbrev r8_o : Rect S2000x128 := Rect.unit (s := S2000x128) ![0, 0] S2000x128.size inb_S2000x128_S2000x128_0_0

/-- What the body leaves in the output window's buffer, from the input blocks: its one store. -/
def out8 (x0 : Vec F S2000x128 .f32) (x1 : Vec F S1x128 .f32) (x2 : Vec F S1x128 .f32) (x3 : Vec F S1x128 .f32) (x4 : Vec F S1x128 .f32) : Vec F S2000x128 .f32 :=
  View.canon [⟨r8_o, k8_pay1 (View.ld x0 (Rect.unit (s := S2000x128) ![0, 0] S2000x128.size inb_S2000x128_S2000x128_0_0)) (View.ld x1 (Rect.unit (s := S1x128) ![0, 0] S1x128.size inb_S1x128_S1x128_0_0)) (View.ld x2 (Rect.unit (s := S1x128) ![0, 0] S1x128.size inb_S1x128_S1x128_0_0)) (View.ld x3 (Rect.unit (s := S1x128) ![0, 0] S1x128.size inb_S1x128_S1x128_0_0)) (View.ld x4 (Rect.unit (s := S1x128) ![0, 0] S1x128.size inb_S1x128_S1x128_0_0))⟩]

/-- The one store covers the output block. -/
theorem cover8 (p0 : Vec F S2000x128 .f32) (y : S2000x128.Idx) :
    ∃ pc ∈ ([⟨r8_o, p0⟩] : List (View.Piece (Elt F) S2000x128 .f32)), y ∈ pc.1.set :=
  View.cover_of_tiled [⟨r8_o, p0⟩] S2000x128.size (by rfl) y

set_option maxHeartbeats 1000000 in
/-- The body on whole buffers: the inputs' at contents `x_w`, the output's at anything; it ends with the inputs'
    unchanged and the output's at `out8` of them. -/
theorem sound_kernel8 (c : Dev nD) (E : Set ℕ) (i : grid8.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out8 x0 x1 x2 x3 x4)) -∗ K ⟨⟩))
      ⊢ wp frame (wpE (defs₀ (F := F)) Variants.none c none) E (cc8__bn_apply_kernel i arg1 harg1 arg2 harg2 arg3 harg3 arg4 harg4 arg5 harg5 arg6 harg6) K := by
  simp only [cc8__bn_apply_kernel_eq_skeleton]; unfold cc8__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8 _)

/-- The region's proof data on core `c`: the arrays as the region finds them; after the body at point `t` each
    input buffer at its block and the output buffer at `out8` of the input blocks. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = out8 (iblk8 V c 0 t) (iblk8 V c 1 t) (iblk8 V c 2 t) (iblk8 V c 3 t) (iblk8 V c 4 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-- What the body is entered with at point `t`, window by window, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any point: the input buffers hold their blocks, so `sound_kernel8` applies; the invariant and what
    the core owes pass through untouched. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Gen

end
-- ==== Proof.Lin9.lean ====
import proofs.«165059_j7095285973648_2_alg».proof.Proof.Gen.KernelIdeal.Launch
import proofs.«165059_j7095285973648_2_alg».proof.Proof.Gen.KernelIdeal.Skeleton
import proofs.«165059_j7095285973648_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 9: the dense layer of a row block, `x·W + b` with `x` a block of 2000 rows, `W` whole (128×256) and `b` a row of 256

The region reads each input window's block whole, computes one value of the output block's shape from
them, and stores it over the whole output block. So after the body at a grid point every input buffer still
holds its block and the output buffer holds that value; nothing is carried from one point to the next. -/

/-- Window `w`'s block at grid point `t`, read off the window's array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's buffer holds the window's block at every point, whether the point fetched it or the
    block index had not moved since the point that did. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- An input window's buffer holds the window's block at every point, whether the point fetched it or the
    block index had not moved since the point that did. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- An input window's buffer holds the window's block at every point, whether the point fetched it or the
    block index had not moved since the point that did. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- The whole output block as a rectangle. -/
abbrev r9_o : Rect S2000x256 := Rect.unit (s := S2000x256) ![0, 0] S2000x256.size inb_S2000x256_S2000x256_0_0

/-- What the body leaves in the output window's buffer, from the input blocks: its one store. -/
def out9 (x0 : Vec F S2000x128 .f32) (x1 : Vec F S128x256 .f32) (x2 : Vec F S1x256 .f32) : Vec F S2000x256 .f32 :=
  View.canon [⟨r9_o, k9_pay1 (View.ld x0 (Rect.unit (s := S2000x128) ![0, 0] S2000x128.size inb_S2000x128_S2000x128_0_0)) (View.ld x1 (Rect.unit (s := S128x256) ![0, 0] S128x256.size inb_S128x256_S128x256_0_0)) (View.ld x2 (Rect.unit (s := S1x256) ![0, 0] S1x256.size inb_S1x256_S1x256_0_0))⟩]

/-- The one store covers the output block. -/
theorem cover9 (p0 : Vec F S2000x256 .f32) (y : S2000x256.Idx) :
    ∃ pc ∈ ([⟨r9_o, p0⟩] : List (View.Piece (Elt F) S2000x256 .f32)), y ∈ pc.1.set :=
  View.cover_of_tiled [⟨r9_o, p0⟩] S2000x256.size (by rfl) y

set_option maxHeartbeats 1000000 in
/-- The body on whole buffers: the inputs' at contents `x_w`, the output's at anything; it ends with the inputs'
    unchanged and the output's at `out9` of them. -/
theorem sound_kernel9 (c : Dev nD) (E : Set ℕ) (i : grid9.Coords) (arg1 : Memref sig .tc .vmem S2000x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S2000x256 .f32) (harg4 : arg4.IsWhole)
    (x0 : Vec F S2000x128 .f32) (x1 : Vec F S128x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out9 x0 x1 x2)) -∗ K ⟨⟩))
      ⊢ wp frame (wpE (defs₀ (F := F)) Variants.none c none) E (cc9__linear_kernel i arg1 harg1 arg2 harg2 arg3 harg3 arg4 harg4) K := by
  simp only [cc9__linear_kernel_eq_skeleton]; unfold cc9__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9 _)

/-- The region's proof data on core `c`: the arrays as the region finds them; after the body at point `t` each
    input buffer at its block and the output buffer at `out9` of the input blocks. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9 (iblk9 V c 0 t) (iblk9 V c 1 t) (iblk9 V c 2 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = out9 (iblk9 V c 0 t) (iblk9 V c 1 t) (iblk9 V c 2 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-- What the body is entered with at point `t`, window by window, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

/-- The body at any point: the input buffers hold their blocks, so `sound_kernel9` applies; the invariant and what
    the core owes pass through untouched. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ _ _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Gen

end
-- ==== Proof.CombDat10.lean ====
import proofs.«165059_j7095285973648_2_alg».proof.Proof.Gen.KernelIdeal.Launch
import proofs.«165059_j7095285973648_2_alg».proof.Proof.Gen.KernelIdeal.Skeleton
import proofs.«165059_j7095285973648_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 10: a row block's combine–rectify step and its column statistics

At a grid point the region reads a block of 2000 rows of the aggregated messages, the same rows of the dense
layer's output and the rows' self weights (one column), and forms `y = max(agg + h * dself, 0)` row by row. It
stores `y` over its whole output block. Two more outputs, one row each, accumulate over the grid the column
sums of `y` and of `y * y`: the first grid point stores the block's own column sums, every later point adds
the block's column sums to what the point before left. Those two windows are written back only after the last
point, so between points their buffers keep what the body left. -/

/-- Window `w`'s block at grid point `t`, read off the window's array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- The whole block of 2000 rows as a rectangle. -/
abbrev r10_y : Rect S2000x256 := Rect.unit (s := S2000x256) ![0, 0] S2000x256.size inb_S2000x256_S2000x256_0_0
/-- The whole one-column block of the self weights as a rectangle. -/
abbrev r10_d : Rect S2000x1 := Rect.unit (s := S2000x1) ![0, 0] S2000x1.size inb_S2000x1_S2000x1_0_0
/-- The whole one-row block of a column statistic as a rectangle. -/
abbrev r10_s : Rect S1x256 := Rect.unit (s := S1x256) ![0, 0] S1x256.size inb_S1x256_S1x256_0_0

/-- What the body leaves in the buffer of `y`, from the three input blocks: its one store. -/
def out10_3 (x0 : Vec F S2000x256 .f32) (x1 : Vec F S2000x256 .f32) (x2 : Vec F S2000x1 .f32) : Vec F S2000x256 .f32 :=
  View.canon [⟨r10_y, k10_pay1 (View.ld x0 r10_y) (View.ld x1 r10_y) (View.ld x2 r10_d)⟩]

/-- What the FIRST grid point leaves in the buffer of the column sums of `y`: the block's own column sums. -/
def out10_4_first (x0 : Vec F S2000x256 .f32) (x1 : Vec F S2000x256 .f32) (x2 : Vec F S2000x1 .f32) : Vec F S1x256 .f32 :=
  View.canon [⟨r10_s, k10_pay2 (View.ld x0 r10_y) (View.ld x1 r10_y) (View.ld x2 r10_d)⟩]

/-- What the FIRST grid point leaves in the buffer of the column sums of `y * y`: the block's own. -/
def out10_5_first (x0 : Vec F S2000x256 .f32) (x1 : Vec F S2000x256 .f32) (x2 : Vec F S2000x1 .f32) : Vec F S1x256 .f32 :=
  View.canon [⟨r10_s, k10_pay3 (View.ld x0 r10_y) (View.ld x1 r10_y) (View.ld x2 r10_d)⟩]

/-- What a LATER grid point leaves in the buffer of the column sums of `y`, which it found at `a`: `a` plus the
    block's column sums. -/
def out10_4_next (x0 : Vec F S2000x256 .f32) (x1 : Vec F S2000x256 .f32) (x2 : Vec F S2000x1 .f32) (a : Vec F S1x256 .f32) : Vec F S1x256 .f32 :=
  View.canon [⟨r10_s, k10_pay4 (View.ld x0 r10_y) (View.ld x1 r10_y) (View.ld x2 r10_d) (View.ld a r10_s)⟩]

/-- What a LATER grid point leaves in the buffer of the column sums of `y * y`, which it found at `a`. -/
def out10_5_next (x0 : Vec F S2000x256 .f32) (x1 : Vec F S2000x256 .f32) (x2 : Vec F S2000x1 .f32) (a : Vec F S1x256 .f32) : Vec F S1x256 .f32 :=
  View.canon [⟨r10_s, k10_pay5 (View.ld x0 r10_y) (View.ld x1 r10_y) (View.ld x2 r10_d) (View.ld a r10_s)⟩]

/-- The running column sums of `y` after grid point `n`: the first point's own, then each point's added to what
    the point before left. -/
def acc10_4 (c : Dev nD) : (n : ℕ) → n < cfg10.N → Vec F S1x256 .f32
  | 0, hn => out10_4_first (iblk10 V c 0 ⟨0, hn⟩) (iblk10 V c 1 ⟨0, hn⟩) (iblk10 V c 2 ⟨0, hn⟩)
  | n + 1, hn => out10_4_next (iblk10 V c 0 ⟨n + 1, hn⟩) (iblk10 V c 1 ⟨n + 1, hn⟩) (iblk10 V c 2 ⟨n + 1, hn⟩)
      (acc10_4 c n (Nat.lt_of_succ_lt hn))

/-- The running column sums of `y * y` after grid point `n`, likewise. -/
def acc10_5 (c : Dev nD) : (n : ℕ) → n < cfg10.N → Vec F S1x256 .f32
  | 0, hn => out10_5_first (iblk10 V c 0 ⟨0, hn⟩) (iblk10 V c 1 ⟨0, hn⟩) (iblk10 V c 2 ⟨0, hn⟩)
  | n + 1, hn => out10_5_next (iblk10 V c 0 ⟨n + 1, hn⟩) (iblk10 V c 1 ⟨n + 1, hn⟩) (iblk10 V c 2 ⟨n + 1, hn⟩)
      (acc10_5 c n (Nat.lt_of_succ_lt hn))

/-- The recursion's two equations, for the sums of `y`, -/
theorem acc10_4_zero (c : Dev nD) (hn : 0 < cfg10.N) :
    acc10_4 V c 0 hn = out10_4_first (iblk10 V c 0 ⟨0, hn⟩) (iblk10 V c 1 ⟨0, hn⟩) (iblk10 V c 2 ⟨0, hn⟩) := rfl
theorem acc10_4_succ (c : Dev nD) (n : ℕ) (hn : n + 1 < cfg10.N) :
    acc10_4 V c (n + 1) hn = out10_4_next (iblk10 V c 0 ⟨n + 1, hn⟩) (iblk10 V c 1 ⟨n + 1, hn⟩) (iblk10 V c 2 ⟨n + 1, hn⟩)
      (acc10_4 V c n (Nat.lt_of_succ_lt hn)) := rfl
/-- and for the sums of `y * y`. -/
theorem acc10_5_zero (c : Dev nD) (hn : 0 < cfg10.N) :
    acc10_5 V c 0 hn = out10_5_first (iblk10 V c 0 ⟨0, hn⟩) (iblk10 V c 1 ⟨0, hn⟩) (iblk10 V c 2 ⟨0, hn⟩) := rfl
theorem acc10_5_succ (c : Dev nD) (n : ℕ) (hn : n + 1 < cfg10.N) :
    acc10_5 V c (n + 1) hn = out10_5_next (iblk10 V c 0 ⟨n + 1, hn⟩) (iblk10 V c 1 ⟨n + 1, hn⟩) (iblk10 V c 2 ⟨n + 1, hn⟩)
      (acc10_5 V c n (Nat.lt_of_succ_lt hn)) := rfl

/-- The region's proof data on core `c`: the arrays as the region finds them; after the body at point `t` each
    input buffer at its block, the buffer of `y` at `out10_3` of the input blocks, and the two accumulators'
    buffers at the running sums up to `t`. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10_3 (iblk10 V c 0 t) (iblk10 V c 1 t) (iblk10 V c 2 t)
    | ⟨4, _⟩ => acc10_4 V c t.val t.isLt
    | ⟨5, _⟩ => acc10_5 V c t.val t.isLt
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = out10_3 (iblk10 V c 0 t) (iblk10 V c 1 t) (iblk10 V c 2 t) := by dsimp only [dat10]
theorem after10_4 (c : Dev nD) (t : Fin cfg10.N) : (dat10 V c).after 4 t = acc10_4 V c t.val t.isLt := by dsimp only [dat10]
theorem after10_5 (c : Dev nD) (t : Fin cfg10.N) : (dat10 V c).after 5 t = acc10_5 V c t.val t.isLt := by dsimp only [dat10]

end Cert.KernelIdeal.Gen

end
-- ==== Proof.Bn11.lean ====
import proofs.«165059_j7095285973648_2_alg».proof.Proof.Gen.KernelIdeal.Launch
import proofs.«165059_j7095285973648_2_alg».proof.Proof.Gen.KernelIdeal.Skeleton
import proofs.«165059_j7095285973648_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 11: the batch-norm affine map of a row block, `g·(y − mean)·rsqrt(var + ε) + b`, with `y` a block of 2000 rows and `mean`, `var`, `g`, `b` rows of 256

The region reads each input window's block whole, computes one value of the output block's shape from
them, and stores it over the whole output block. So after the body at a grid point every input buffer still
holds its block and the output buffer holds that value; nothing is carried from one point to the next. -/

/-- Window `w`'s block at grid point `t`, read off the window's array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An input window's buffer holds the window's block at every point, whether the point fetched it or the
    block index had not moved since the point that did. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- An input window's buffer holds the window's block at every point, whether the point fetched it or the
    block index had not moved since the point that did. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- An input window's buffer holds the window's block at every point, whether the point fetched it or the
    block index had not moved since the point that did. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- An input window's buffer holds the window's block at every point, whether the point fetched it or the
    block index had not moved since the point that did. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

/-- An input window's buffer holds the window's block at every point, whether the point fetched it or the
    block index had not moved since the point that did. -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-- The whole output block as a rectangle. -/
abbrev r11_o : Rect S2000x256 := Rect.unit (s := S2000x256) ![0, 0] S2000x256.size inb_S2000x256_S2000x256_0_0

/-- What the body leaves in the output window's buffer, from the input blocks: its one store. -/
def out11 (x0 : Vec F S2000x256 .f32) (x1 : Vec F S1x256 .f32) (x2 : Vec F S1x256 .f32) (x3 : Vec F S1x256 .f32) (x4 : Vec F S1x256 .f32) : Vec F S2000x256 .f32 :=
  View.canon [⟨r11_o, k11_pay1 (View.ld x0 (Rect.unit (s := S2000x256) ![0, 0] S2000x256.size inb_S2000x256_S2000x256_0_0)) (View.ld x1 (Rect.unit (s := S1x256) ![0, 0] S1x256.size inb_S1x256_S1x256_0_0)) (View.ld x2 (Rect.unit (s := S1x256) ![0, 0] S1x256.size inb_S1x256_S1x256_0_0)) (View.ld x3 (Rect.unit (s := S1x256) ![0, 0] S1x256.size inb_S1x256_S1x256_0_0)) (View.ld x4 (Rect.unit (s := S1x256) ![0, 0] S1x256.size inb_S1x256_S1x256_0_0))⟩]

/-- The one store covers the output block. -/
theorem cover11 (p0 : Vec F S2000x256 .f32) (y : S2000x256.Idx) :
    ∃ pc ∈ ([⟨r11_o, p0⟩] : List (View.Piece (Elt F) S2000x256 .f32)), y ∈ pc.1.set :=
  View.cover_of_tiled [⟨r11_o, p0⟩] S2000x256.size (by rfl) y

set_option maxHeartbeats 1000000 in
/-- The body on whole buffers: the inputs' at contents `x_w`, the output's at anything; it ends with the inputs'
    unchanged and the output's at `out11` of them. -/
theorem sound_kernel11 (c : Dev nD) (E : Set ℕ) (i : grid11.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole)
    (x0 : Vec F S2000x256 .f32) (x1 : Vec F S1x256 .f32) (x2 : Vec F S1x256 .f32) (x3 : Vec F S1x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out11 x0 x1 x2 x3 x4)) -∗ K ⟨⟩))
      ⊢ wp frame (wpE (defs₀ (F := F)) Variants.none c none) E (cc11__bn_apply_kernel i arg1 harg1 arg2 harg2 arg3 harg3 arg4 harg4 arg5 harg5 arg6 harg6) K := by
  simp only [cc11__bn_apply_kernel_eq_skeleton]; unfold cc11__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover11 _)

/-- The region's proof data on core `c`: the arrays as the region finds them; after the body at point `t` each
    input buffer at its block and the output buffer at `out11` of the input blocks. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out11 (iblk11 V c 0 t) (iblk11 V c 1 t) (iblk11 V c 2 t) (iblk11 V c 3 t) (iblk11 V c 4 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = out11 (iblk11 V c 0 t) (iblk11 V c 1 t) (iblk11 V c 2 t) (iblk11 V c 3 t) (iblk11 V c 4 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d

/-- What the body is entered with at point `t`, window by window, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t))

/-- The body at any point: the input buffers hold their blocks, so `sound_kernel11` applies; the invariant and what
    the core owes pass through untouched. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4]
  rw [show (dat11 V c).Φ t.succ = (dat11 V c).Φ t.castSucc from rfl,
    show (dat11 V c).owesAt () t.succ = (dat11 V c).owesAt () t.castSucc from rfl,
    after11_0, after11_1, after11_2, after11_3, after11_4, after11_5]
  iintro ⟨HΦ, Ho, ⟨%d0, H0⟩, ⟨%d1, H1⟩, ⟨%d2, H2⟩, ⟨%d3, H3⟩, ⟨%d4, H4⟩, ⟨%d5, H5⟩⟩
  iapply (sound_kernel11 c Set.univ _ _ _ _ _ _ _ _ _ _ _ _ _ (iblk11 V c 0 t) (iblk11 V c 1 t) (iblk11 V c 2 t) (iblk11 V c 3 t) (iblk11 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region, at every point. -/
theorem body_obligation11 (c : Dev nD) : BodyObligation (dat11 (F := F) V c) (defs₀ (F := F)) Variants.none () Set.univ := fun t => by
  rw [bigSep_W11, bigSep_W11]
  exact sound_body11 V c t

end Cert.KernelIdeal.Gen

end
-- ==== Proof.AsmVals.lean ====
import proofs.«165059_j7095285973648_2_alg».proof.Proof.Gen.KernelIdeal.Regions
import proofs.«165059_j7095285973648_2_alg».proof.Proof.Lin0
import proofs.«165059_j7095285973648_2_alg».proof.Proof.CombDat1
import proofs.«165059_j7095285973648_2_alg».proof.Proof.Bn2
import proofs.«165059_j7095285973648_2_alg».proof.Proof.Lin3
import proofs.«165059_j7095285973648_2_alg».proof.Proof.CombDat4
import proofs.«165059_j7095285973648_2_alg».proof.Proof.Bn5
import proofs.«165059_j7095285973648_2_alg».proof.Proof.Lin6
import proofs.«165059_j7095285973648_2_alg».proof.Proof.CombDat7
import proofs.«165059_j7095285973648_2_alg».proof.Proof.Bn8
import proofs.«165059_j7095285973648_2_alg».proof.Proof.Lin9
import proofs.«165059_j7095285973648_2_alg».proof.Proof.CombDat10
import proofs.«165059_j7095285973648_2_alg».proof.Proof.Bn11
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The buffers' contents between the items of the program

The program is twelve kernel regions between stretches of host operations. Between two items every unscoped
buffer of a core holds a definite array: after a host stretch what its operations compute from the buffers
before it, after a region the buffers as before except that each of the region's output arrays holds what the
region's write-backs leave. `UJ` names the contents after item J−1, from the launch memory `m`. -/

/-- Three updates at three distinct keys, each value read back from the updated function, give that function. -/
theorem update3_read {α : Type} [DecidableEq α] {β : α → Type} (f : ∀ a, β a) (a b d : α) (hab : a ≠ b) (had : a ≠ d) (hbd : b ≠ d)
    (x : β a) (y : β b) (z : β d) :
    Function.update (Function.update (Function.update f a
        (Function.update (Function.update (Function.update f a x) b y) d z a)) b
        (Function.update (Function.update (Function.update f a x) b y) d z b)) d
        (Function.update (Function.update (Function.update f a x) b y) d z d)
      = Function.update (Function.update (Function.update f a x) b y) d z := by
  rw [Function.update_self, Function.update_of_ne hbd, Function.update_self, Function.update_of_ne had,
    Function.update_of_ne hab, Function.update_self]

variable (m : (ℓ : Loc nD τ sig) → Buf (Elt F) ℓ)

/-- A core's buffer contents read at the TensorCore's references. -/
abbrev atTc (W : Dev nD → Valuation τ sig (Elt F)) : (c : Dev nD) → (b : Ref sig .tc) → Buf (Elt F) ((c : Thread nD τ).loc b) :=
  fun c b => W c b

/-- After the first host stretch. -/
abbrev U1 (c : Dev nD) : Valuation τ sig (Elt F) := StableHlo.after hostOps0 (V0 m c)
/-- After region 0: its output array at what the write-backs leave, every other buffer as before. -/
def U2 (c : Dev nD) : Valuation τ sig (Elt F) :=
  (Function.update (U1 m c) main_v34 ((dat0 (atTc (U1 m)) c).arrAt 3 cfg0.N))
/-- After the host stretch that follows it. -/
abbrev U3 (c : Dev nD) : Valuation τ sig (Elt F) := StableHlo.after hostOps1 (U2 m c)
/-- After region 1: its output arrays at what the write-backs leave, every other buffer as before. -/
def U4 (c : Dev nD) : Valuation τ sig (Elt F) :=
  (Function.update (Function.update (Function.update (U3 m c) main_v48_0 ((dat1 (atTc (U3 m)) c).arrAt 3 cfg1.N)) main_v48_1 ((dat1 (atTc (U3 m)) c).arrAt 4 cfg1.N)) main_v48_2 ((dat1 (atTc (U3 m)) c).arrAt 5 cfg1.N))
/-- After the host stretch that follows it. -/
abbrev U5 (c : Dev nD) : Valuation τ sig (Elt F) := StableHlo.after hostOps2 (U4 m c)
/-- After region 2: its output array at what the write-backs leave, every other buffer as before. -/
def U6 (c : Dev nD) : Valuation τ sig (Elt F) :=
  (Function.update (U5 m c) main_v59 ((dat2 (atTc (U5 m)) c).arrAt 5 cfg2.N))
/-- After the host stretch that follows it. -/
abbrev U7 (c : Dev nD) : Valuation τ sig (Elt F) := StableHlo.after hostOps3 (U6 m c)
/-- After region 3: its output array at what the write-backs leave, every other buffer as before. -/
def U8 (c : Dev nD) : Valuation τ sig (Elt F) :=
  (Function.update (U7 m c) main_v61 ((dat3 (atTc (U7 m)) c).arrAt 3 cfg3.N))
/-- After the host stretch that follows it. -/
abbrev U9 (c : Dev nD) : Valuation τ sig (Elt F) := StableHlo.after hostOps4 (U8 m c)
/-- After region 4: its output arrays at what the write-backs leave, every other buffer as before. -/
def U10 (c : Dev nD) : Valuation τ sig (Elt F) :=
  (Function.update (Function.update (Function.update (U9 m c) main_v75_0 ((dat4 (atTc (U9 m)) c).arrAt 3 cfg4.N)) main_v75_1 ((dat4 (atTc (U9 m)) c).arrAt 4 cfg4.N)) main_v75_2 ((dat4 (atTc (U9 m)) c).arrAt 5 cfg4.N))
/-- After the host stretch that follows it. -/
abbrev U11 (c : Dev nD) : Valuation τ sig (Elt F) := StableHlo.after hostOps5 (U10 m c)
/-- After region 5: its output array at what the write-backs leave, every other buffer as before. -/
def U12 (c : Dev nD) : Valuation τ sig (Elt F) :=
  (Function.update (U11 m c) main_v86 ((dat5 (atTc (U11 m)) c).arrAt 5 cfg5.N))
/-- After the host stretch that follows it. -/
abbrev U13 (c : Dev nD) : Valuation τ sig (Elt F) := StableHlo.after hostOps6 (U12 m c)
/-- After region 6: its output array at what the write-backs leave, every other buffer as before. -/
def U14 (c : Dev nD) : Valuation τ sig (Elt F) :=
  (Function.update (U13 m c) main_v88 ((dat6 (atTc (U13 m)) c).arrAt 3 cfg6.N))
/-- After the host stretch that follows it. -/
abbrev U15 (c : Dev nD) : Valuation τ sig (Elt F) := StableHlo.after hostOps7 (U14 m c)
/-- After region 7: its output arrays at what the write-backs leave, every other buffer as before. -/
def U16 (c : Dev nD) : Valuation τ sig (Elt F) :=
  (Function.update (Function.update (Function.update (U15 m c) main_v102_0 ((dat7 (atTc (U15 m)) c).arrAt 3 cfg7.N)) main_v102_1 ((dat7 (atTc (U15 m)) c).arrAt 4 cfg7.N)) main_v102_2 ((dat7 (atTc (U15 m)) c).arrAt 5 cfg7.N))
/-- After the host stretch that follows it. -/
abbrev U17 (c : Dev nD) : Valuation τ sig (Elt F) := StableHlo.after hostOps8 (U16 m c)
/-- After region 8: its output array at what the write-backs leave, every other buffer as before. -/
def U18 (c : Dev nD) : Valuation τ sig (Elt F) :=
  (Function.update (U17 m c) main_v113 ((dat8 (atTc (U17 m)) c).arrAt 5 cfg8.N))
/-- After the host stretch that follows it. -/
abbrev U19 (c : Dev nD) : Valuation τ sig (Elt F) := StableHlo.after hostOps9 (U18 m c)
/-- After region 9: its output array at what the write-backs leave, every other buffer as before. -/
def U20 (c : Dev nD) : Valuation τ sig (Elt F) :=
  (Function.update (U19 m c) main_v115 ((dat9 (atTc (U19 m)) c).arrAt 3 cfg9.N))
/-- After the host stretch that follows it. -/
abbrev U21 (c : Dev nD) : Valuation τ sig (Elt F) := StableHlo.after hostOps10 (U20 m c)
/-- After region 10: its output arrays at what the write-backs leave, every other buffer as before. -/
def U22 (c : Dev nD) : Valuation τ sig (Elt F) :=
  (Function.update (Function.update (Function.update (U21 m c) main_v129_0 ((dat10 (atTc (U21 m)) c).arrAt 3 cfg10.N)) main_v129_1 ((dat10 (atTc (U21 m)) c).arrAt 4 cfg10.N)) main_v129_2 ((dat10 (atTc (U21 m)) c).arrAt 5 cfg10.N))
/-- After the host stretch that follows it. -/
abbrev U23 (c : Dev nD) : Valuation τ sig (Elt F) := StableHlo.after hostOps11 (U22 m c)
/-- After region 11: its output array at what the write-backs leave, every other buffer as before. -/
def U24 (c : Dev nD) : Valuation τ sig (Elt F) :=
  (Function.update (U23 m c) main_v140 ((dat11 (atTc (U23 m)) c).arrAt 5 cfg11.N))

/-- What each region leaves in the buffers it may change, read off the contents after it. -/
def outs : Outs (F := F) := fun J r c => match J with
  | 2 => U2 m c r
  | 4 => U4 m c r
  | 6 => U6 m c r
  | 8 => U8 m c r
  | 10 => U10 m c r
  | 12 => U12 m c r
  | 14 => U14 m c r
  | 16 => U16 m c r
  | 18 => U18 m c r
  | 20 => U20 m c r
  | 22 => U22 m c r
  | 24 => U24 m c r
  | _ => U1 m c r

/-! ## These are the contents the conditional frame speaks of -/

theorem V1_eq (c : Dev nD) : V1 m c = U1 m c := rfl
theorem V2_eq (c : Dev nD) : V2 m (outs m) c = U2 m c := by
  show Function.update (V1 m c) main_v34 (U2 m c main_v34) = U2 m c
  rw [V1_eq]; unfold U2; rw [Function.update_self]
theorem V3_eq (c : Dev nD) : V3 m (outs m) c = U3 m c := by
  show StableHlo.after hostOps1 (V2 m (outs m) c) = _
  rw [V2_eq]
theorem V4_eq (c : Dev nD) : V4 m (outs m) c = U4 m c := by
  show Function.update (Function.update (Function.update (V3 m (outs m) c) main_v48_0 (U4 m c main_v48_0)) main_v48_1 (U4 m c main_v48_1)) main_v48_2 (U4 m c main_v48_2) = U4 m c
  rw [V3_eq]; unfold U4
  exact update3_read _ _ _ _ (StableHlo.devRef_ne_of_ne (by decide)) (StableHlo.devRef_ne_of_ne (by decide)) (StableHlo.devRef_ne_of_ne (by decide)) _ _ _
theorem V5_eq (c : Dev nD) : V5 m (outs m) c = U5 m c := by
  show StableHlo.after hostOps2 (V4 m (outs m) c) = _
  rw [V4_eq]
theorem V6_eq (c : Dev nD) : V6 m (outs m) c = U6 m c := by
  show Function.update (V5 m (outs m) c) main_v59 (U6 m c main_v59) = U6 m c
  rw [V5_eq]; unfold U6; rw [Function.update_self]
theorem V7_eq (c : Dev nD) : V7 m (outs m) c = U7 m c := by
  show StableHlo.after hostOps3 (V6 m (outs m) c) = _
  rw [V6_eq]
theorem V8_eq (c : Dev nD) : V8 m (outs m) c = U8 m c := by
  show Function.update (V7 m (outs m) c) main_v61 (U8 m c main_v61) = U8 m c
  rw [V7_eq]; unfold U8; rw [Function.update_self]
theorem V9_eq (c : Dev nD) : V9 m (outs m) c = U9 m c := by
  show StableHlo.after hostOps4 (V8 m (outs m) c) = _
  rw [V8_eq]
theorem V10_eq (c : Dev nD) : V10 m (outs m) c = U10 m c := by
  show Function.update (Function.update (Function.update (V9 m (outs m) c) main_v75_0 (U10 m c main_v75_0)) main_v75_1 (U10 m c main_v75_1)) main_v75_2 (U10 m c main_v75_2) = U10 m c
  rw [V9_eq]; unfold U10
  exact update3_read _ _ _ _ (StableHlo.devRef_ne_of_ne (by decide)) (StableHlo.devRef_ne_of_ne (by decide)) (StableHlo.devRef_ne_of_ne (by decide)) _ _ _
theorem V11_eq (c : Dev nD) : V11 m (outs m) c = U11 m c := by
  show StableHlo.after hostOps5 (V10 m (outs m) c) = _
  rw [V10_eq]
theorem V12_eq (c : Dev nD) : V12 m (outs m) c = U12 m c := by
  show Function.update (V11 m (outs m) c) main_v86 (U12 m c main_v86) = U12 m c
  rw [V11_eq]; unfold U12; rw [Function.update_self]
theorem V13_eq (c : Dev nD) : V13 m (outs m) c = U13 m c := by
  show StableHlo.after hostOps6 (V12 m (outs m) c) = _
  rw [V12_eq]
theorem V14_eq (c : Dev nD) : V14 m (outs m) c = U14 m c := by
  show Function.update (V13 m (outs m) c) main_v88 (U14 m c main_v88) = U14 m c
  rw [V13_eq]; unfold U14; rw [Function.update_self]
theorem V15_eq (c : Dev nD) : V15 m (outs m) c = U15 m c := by
  show StableHlo.after hostOps7 (V14 m (outs m) c) = _
  rw [V14_eq]
theorem V16_eq (c : Dev nD) : V16 m (outs m) c = U16 m c := by
  show Function.update (Function.update (Function.update (V15 m (outs m) c) main_v102_0 (U16 m c main_v102_0)) main_v102_1 (U16 m c main_v102_1)) main_v102_2 (U16 m c main_v102_2) = U16 m c
  rw [V15_eq]; unfold U16
  exact update3_read _ _ _ _ (StableHlo.devRef_ne_of_ne (by decide)) (StableHlo.devRef_ne_of_ne (by decide)) (StableHlo.devRef_ne_of_ne (by decide)) _ _ _
theorem V17_eq (c : Dev nD) : V17 m (outs m) c = U17 m c := by
  show StableHlo.after hostOps8 (V16 m (outs m) c) = _
  rw [V16_eq]
theorem V18_eq (c : Dev nD) : V18 m (outs m) c = U18 m c := by
  show Function.update (V17 m (outs m) c) main_v113 (U18 m c main_v113) = U18 m c
  rw [V17_eq]; unfold U18; rw [Function.update_self]
theorem V19_eq (c : Dev nD) : V19 m (outs m) c = U19 m c := by
  show StableHlo.after hostOps9 (V18 m (outs m) c) = _
  rw [V18_eq]
theorem V20_eq (c : Dev nD) : V20 m (outs m) c = U20 m c := by
  show Function.update (V19 m (outs m) c) main_v115 (U20 m c main_v115) = U20 m c
  rw [V19_eq]; unfold U20; rw [Function.update_self]
theorem V21_eq (c : Dev nD) : V21 m (outs m) c = U21 m c := by
  show StableHlo.after hostOps10 (V20 m (outs m) c) = _
  rw [V20_eq]
theorem V22_eq (c : Dev nD) : V22 m (outs m) c = U22 m c := by
  show Function.update (Function.update (Function.update (V21 m (outs m) c) main_v129_0 (U22 m c main_v129_0)) main_v129_1 (U22 m c main_v129_1)) main_v129_2 (U22 m c main_v129_2) = U22 m c
  rw [V21_eq]; unfold U22
  exact update3_read _ _ _ _ (StableHlo.devRef_ne_of_ne (by decide)) (StableHlo.devRef_ne_of_ne (by decide)) (StableHlo.devRef_ne_of_ne (by decide)) _ _ _
theorem V23_eq (c : Dev nD) : V23 m (outs m) c = U23 m c := by
  show StableHlo.after hostOps11 (V22 m (outs m) c) = _
  rw [V22_eq]
theorem V24_eq (c : Dev nD) : V24 m (outs m) c = U24 m c := by
  show Function.update (V23 m (outs m) c) main_v140 (U24 m c main_v140) = U24 m c
  rw [V23_eq]; unfold U24; rw [Function.update_self]

/-! ## Each region's arrays at its exit

At a region's exit each of its output arrays holds what its write-backs leave and each of its input arrays what it
held at entry (an input window never writes back); no other buffer changes. -/
set_option maxHeartbeats 4000000 in
theorem hF0 (c : Dev nD) : ∀ w : Fin cfg0.W, (dat0 (atTc (U1 m)) c).arrAt w cfg0.N = atTc (U2 m) c (Pipeline.arrRef spec0 w)
  | ⟨0, _⟩ => by
    show _ = U2 m c (Proc.devRef .tc main_arg0)
    unfold U2
    rw [Function.update_of_ne (show (Proc.devRef (τ := τ) .tc main_arg0) ≠ Proc.devRef .tc main_v34 from StableHlo.devRef_ne_of_ne (by decide))]
    exact ((dat0 (atTc (U1 m)) c).arrAt_in 0 rfl _).trans (A_eq0 (atTc (U1 m)) c 0)
  | ⟨1, _⟩ => by
    show _ = U2 m c (Proc.devRef .tc main_arg2)
    unfold U2
    rw [Function.update_of_ne (show (Proc.devRef (τ := τ) .tc main_arg2) ≠ Proc.devRef .tc main_v34 from StableHlo.devRef_ne_of_ne (by decide))]
    exact ((dat0 (atTc (U1 m)) c).arrAt_in 1 rfl _).trans (A_eq0 (atTc (U1 m)) c 1)
  | ⟨2, _⟩ => by
    show _ = U2 m c (Proc.devRef .tc main_v33)
    unfold U2
    rw [Function.update_of_ne (show (Proc.devRef (τ := τ) .tc main_v33) ≠ Proc.devRef .tc main_v34 from StableHlo.devRef_ne_of_ne (by decide))]
    exact ((dat0 (atTc (U1 m)) c).arrAt_in 2 rfl _).trans (A_eq0 (atTc (U1 m)) c 2)
  | ⟨3, _⟩ => by
    show _ = U2 m c (Proc.devRef .tc main_v34)
    unfold U2
    rw [Function.update_self]
    try rfl
theorem hrest0 (c : Dev nD) : ∀ b, b ∉ Finset.univ.image (Pipeline.arrRef spec0) → atTc (U2 m) c b = atTc (U1 m) c b := fun b hb => by
  have h3 : main_v34 ≠ b := fun e => hb (Finset.mem_image.mpr ⟨3, Finset.mem_univ _, e⟩)
  show U2 m c (Proc.devRef .tc b) = U1 m c (Proc.devRef .tc b)
  unfold U2
  rw [Function.update_of_ne (StableHlo.devRef_ne_of_ne h3.symm)]
set_option maxHeartbeats 4000000 in
theorem hF1 (c : Dev nD) : ∀ w : Fin cfg1.W, (dat1 (atTc (U3 m)) c).arrAt w cfg1.N = atTc (U4 m) c (Pipeline.arrRef spec1 w)
  | ⟨0, _⟩ => by
    show _ = U4 m c (Proc.devRef .tc main_v47)
    unfold U4
    rw [Function.update_of_ne (show (Proc.devRef (τ := τ) .tc main_v47) ≠ Proc.devRef .tc main_v48_2 from StableHlo.devRef_ne_of_ne (by decide)),
      Function.update_of_ne (show (Proc.devRef (τ := τ) .tc main_v47) ≠ Proc.devRef .tc main_v48_1 from StableHlo.devRef_ne_of_ne (by decide)),
      Function.update_of_ne (show (Proc.devRef (τ := τ) .tc main_v47) ≠ Proc.devRef .tc main_v48_0 from StableHlo.devRef_ne_of_ne (by decide))]
    exact ((dat1 (atTc (U3 m)) c).arrAt_in 0 rfl _).trans (A_eq1 (atTc (U3 m)) c 0)
  | ⟨1, _⟩ => by
    show _ = U4 m c (Proc.devRef .tc main_v34)
    unfold U4
    rw [Function.update_of_ne (show (Proc.devRef (τ := τ) .tc main_v34) ≠ Proc.devRef .tc main_v48_2 from StableHlo.devRef_ne_of_ne (by decide)),
      Function.update_of_ne (show (Proc.devRef (τ := τ) .tc main_v34) ≠ Proc.devRef .tc main_v48_1 from StableHlo.devRef_ne_of_ne (by decide)),
      Function.update_of_ne (show (Proc.devRef (τ := τ) .tc main_v34) ≠ Proc.devRef .tc main_v48_0 from StableHlo.devRef_ne_of_ne (by decide))]
    exact ((dat1 (atTc (U3 m)) c).arrAt_in 1 rfl _).trans (A_eq1 (atTc (U3 m)) c 1)
  | ⟨2, _⟩ => by
    show _ = U4 m c (Proc.devRef .tc main_v32)
    unfold U4
    rw [Function.update_of_ne (show (Proc.devRef (τ := τ) .tc main_v32) ≠ Proc.devRef .tc main_v48_2 from StableHlo.devRef_ne_of_ne (by decide)),
      Function.update_of_ne (show (Proc.devRef (τ := τ) .tc main_v32) ≠ Proc.devRef .tc main_v48_1 from StableHlo.devRef_ne_of_ne (by decide)),
      Function.update_of_ne (show (Proc.devRef (τ := τ) .tc main_v32) ≠ Proc.devRef .tc main_v48_0 from StableHlo.devRef_ne_of_ne (by decide))]
    exact ((dat1 (atTc (U3 m)) c).arrAt_in 2 rfl _).trans (A_eq1 (atTc (U3 m)) c 2)
  | ⟨3, _⟩ => by
    show _ = U4 m c (Proc.devRef .tc main_v48_0)
    unfold U4
    rw [Function.update_of_ne (show (Proc.devRef (τ := τ) .tc main_v48_0) ≠ Proc.devRef .tc main_v48_2 from StableHlo.devRef_ne_of_ne (by decide)),
      Function.update_of_ne (show (Proc.devRef (τ := τ) .tc main_v48_0) ≠ Proc.devRef .tc main_v48_1 from StableHlo.devRef_ne_of_ne (by decide)),
      Function.update_self]
    try rfl
  | ⟨4, _⟩ => by
    show _ = U4 m c (Proc.devRef .tc main_v48_1)
    unfold U4
    rw [Function.update_of_ne (show (Proc.devRef (τ := τ) .tc main_v48_1) ≠ Proc.devRef .tc main_v48_2 from StableHlo.devRef_ne_of_ne (by decide)),
      Function.update_self]
    try rfl
  | ⟨5, _⟩ => by
    show _ = U4 m c (Proc.devRef .tc main_v48_2)
    unfold U4
    rw [Function.update_self]
    try rfl
theorem hrest1 (c : Dev nD) : ∀ b, b ∉ Finset.univ.image (Pipeline.arrRef spec1) → atTc (U4 m) c b = atTc (U3 m) c b := fun b hb => by
  have h3 : main_v48_0 ≠ b := fun e => hb (Finset.mem_image.mpr ⟨3, Finset.mem_univ _, e⟩)
  have h4 : main_v48_1 ≠ b := fun e => hb (Finset.mem_image.mpr ⟨4, Finset.mem_univ _, e⟩)
  have h5 : main_v48_2 ≠ b := fun e => hb (Finset.mem_image.mpr ⟨5, Finset.mem_univ _, e⟩)
  show U4 m c (Proc.devRef .tc b) = U3 m c (Proc.devRef .tc b)
  unfold U4
  rw [Function.update_of_ne (StableHlo.devRef_ne_of_ne h5.symm), Function.update_of_ne (StableHlo.devRef_ne_of_ne h4.symm), Function.update_of_ne (StableHlo.devRef_ne_of_ne h3.symm)]
set_option maxHeartbeats 4000000 in
theorem hF2 (c : Dev nD) : ∀ w : Fin cfg2.W, (dat2 (atTc (U5 m)) c).arrAt w cfg2.N = atTc (U6 m) c (Pipeline.arrRef spec2 w)
  | ⟨0, _⟩ => by
    show _ = U6 m c (Proc.devRef .tc main_v48_0)
    unfold U6
    rw [Function.update_of_ne (show (Proc.devRef (τ := τ) .tc main_v48_0) ≠ Proc.devRef .tc main_v59 from StableHlo.devRef_ne_of_ne (by decide))]
    exact ((dat2 (atTc (U5 m)) c).arrAt_in 0 rfl _).trans (A_eq2 (atTc (U5 m)) c 0)
  | ⟨1, _⟩ => by
    show _ = U6 m c (Proc.devRef .tc main_v50)
    unfold U6
    rw [Function.update_of_ne (show (Proc.devRef (τ := τ) .tc main_v50) ≠ Proc.devRef .tc main_v59 from StableHlo.devRef_ne_of_ne (by decide))]
    exact ((dat2 (atTc (U5 m)) c).arrAt_in 1 rfl _).trans (A_eq2 (atTc (U5 m)) c 1)
  | ⟨2, _⟩ => by
    show _ = U6 m c (Proc.devRef .tc main_v56)
    unfold U6
    rw [Function.update_of_ne (show (Proc.devRef (τ := τ) .tc main_v56) ≠ Proc.devRef .tc main_v59 from StableHlo.devRef_ne_of_ne (by decide))]
    exact ((dat2 (atTc (U5 m)) c).arrAt_in 2 rfl _).trans (A_eq2 (atTc (U5 m)) c 2)
  | ⟨3, _⟩ => by
    show _ = U6 m c (Proc.devRef .tc main_v57)
    unfold U6
    rw [Function.update_of_ne (show (Proc.devRef (τ := τ) .tc main_v57) ≠ Proc.devRef .tc main_v59 from StableHlo.devRef_ne_of_ne (by decide))]
    exact ((dat2 (atTc (U5 m)) c).arrAt_in 3 rfl _).trans (A_eq2 (atTc (U5 m)) c 3)
  | ⟨4, _⟩ => by
    show _ = U6 m c (Proc.devRef .tc main_v58)
    unfold U6
    rw [Function.update_of_ne (show (Proc.devRef (τ := τ) .tc main_v58) ≠ Proc.devRef .tc main_v59 from StableHlo.devRef_ne_of_ne (by decide))]
    exact ((dat2 (atTc (U5 m)) c).arrAt_in 4 rfl _).trans (A_eq2 (atTc (U5 m)) c 4)
  | ⟨5, _⟩ => by
    show _ = U6 m c (Proc.devRef .tc main_v59)
    unfold U6
    rw [Function.update_self]
    try rfl
theorem hrest2 (c : Dev nD) : ∀ b, b ∉ Finset.univ.image (Pipeline.arrRef spec2) → atTc (U6 m) c b = atTc (U5 m) c b := fun b hb => by
  have h5 : main_v59 ≠ b := fun e => hb (Finset.mem_image.mpr ⟨5, Finset.mem_univ _, e⟩)
  show U6 m c (Proc.devRef .tc b) = U5 m c (Proc.devRef .tc b)
  unfold U6
  rw [Function.update_of_ne (StableHlo.devRef_ne_of_ne h5.symm)]
set_option maxHeartbeats 4000000 in
theorem hF3 (c : Dev nD) : ∀ w : Fin cfg3.W, (dat3 (atTc (U7 m)) c).arrAt w cfg3.N = atTc (U8 m) c (Pipeline.arrRef spec3 w)
  | ⟨0, _⟩ => by
    show _ = U8 m c (Proc.devRef .tc main_v59)
    unfold U8
    rw [Function.update_of_ne (show (Proc.devRef (τ := τ) .tc main_v59) ≠ Proc.devRef .tc main_v61 from StableHlo.devRef_ne_of_ne (by decide))]
    exact ((dat3 (atTc (U7 m)) c).arrAt_in 0 rfl _).trans (A_eq3 (atTc (U7 m)) c 0)
  | ⟨1, _⟩ => by
    show _ = U8 m c (Proc.devRef .tc main_arg6)
    unfold U8
    rw [Function.update_of_ne (show (Proc.devRef (τ := τ) .tc main_arg6) ≠ Proc.devRef .tc main_v61 from StableHlo.devRef_ne_of_ne (by decide))]
    exact ((dat3 (atTc (U7 m)) c).arrAt_in 1 rfl _).trans (A_eq3 (atTc (U7 m)) c 1)
  | ⟨2, _⟩ => by
    show _ = U8 m c (Proc.devRef .tc main_v60)
    unfold U8
    rw [Function.update_of_ne (show (Proc.devRef (τ := τ) .tc main_v60) ≠ Proc.devRef .tc main_v61 from StableHlo.devRef_ne_of_ne (by decide))]
    exact ((dat3 (atTc (U7 m)) c).arrAt_in 2 rfl _).trans (A_eq3 (atTc (U7 m)) c 2)
  | ⟨3, _⟩ => by
    show _ = U8 m c (Proc.devRef .tc main_v61)
    unfold U8
    rw [Function.update_self]
    try rfl
theorem hrest3 (c : Dev nD) : ∀ b, b ∉ Finset.univ.image (Pipeline.arrRef spec3) → atTc (U8 m) c b = atTc (U7 m) c b := fun b hb => by
  have h3 : main_v61 ≠ b := fun e => hb (Finset.mem_image.mpr ⟨3, Finset.mem_univ _, e⟩)
  show U8 m c (Proc.devRef .tc b) = U7 m c (Proc.devRef .tc b)
  unfold U8
  rw [Function.update_of_ne (StableHlo.devRef_ne_of_ne h3.symm)]
set_option maxHeartbeats 4000000 in
theorem hF4 (c : Dev nD) : ∀ w : Fin cfg4.W, (dat4 (atTc (U9 m)) c).arrAt w cfg4.N = atTc (U10 m) c (Pipeline.arrRef spec4 w)
  | ⟨0, _⟩ => by
    show _ = U10 m c (Proc.devRef .tc main_v74)
    unfold U10
    rw [Function.update_of_ne (show (Proc.devRef (τ := τ) .tc main_v74) ≠ Proc.devRef .tc main_v75_2 from StableHlo.devRef_ne_of_ne (by decide)),
      Function.update_of_ne (show (Proc.devRef (τ := τ) .tc main_v74) ≠ Proc.devRef .tc main_v75_1 from StableHlo.devRef_ne_of_ne (by decide)),
      Function.update_of_ne (show (Proc.devRef (τ := τ) .tc main_v74) ≠ Proc.devRef .tc main_v75_0 from StableHlo.devRef_ne_of_ne (by decide))]
    exact ((dat4 (atTc (U9 m)) c).arrAt_in 0 rfl _).trans (A_eq4 (atTc (U9 m)) c 0)
  | ⟨1, _⟩ => by
    show _ = U10 m c (Proc.devRef .tc main_v61)
    unfold U10
    rw [Function.update_of_ne (show (Proc.devRef (τ := τ) .tc main_v61) ≠ Proc.devRef .tc main_v75_2 from StableHlo.devRef_ne_of_ne (by decide)),
      Function.update_of_ne (show (Proc.devRef (τ := τ) .tc main_v61) ≠ Proc.devRef .tc main_v75_1 from StableHlo.devRef_ne_of_ne (by decide)),
      Function.update_of_ne (show (Proc.devRef (τ := τ) .tc main_v61) ≠ Proc.devRef .tc main_v75_0 from StableHlo.devRef_ne_of_ne (by decide))]
    exact ((dat4 (atTc (U9 m)) c).arrAt_in 1 rfl _).trans (A_eq4 (atTc (U9 m)) c 1)
  | ⟨2, _⟩ => by
    show _ = U10 m c (Proc.devRef .tc main_v32)
    unfold U10
    rw [Function.update_of_ne (show (Proc.devRef (τ := τ) .tc main_v32) ≠ Proc.devRef .tc main_v75_2 from StableHlo.devRef_ne_of_ne (by decide)),
      Function.update_of_ne (show (Proc.devRef (τ := τ) .tc main_v32) ≠ Proc.devRef .tc main_v75_1 from StableHlo.devRef_ne_of_ne (by decide)),
      Function.update_of_ne (show (Proc.devRef (τ := τ) .tc main_v32) ≠ Proc.devRef .tc main_v75_0 from StableHlo.devRef_ne_of_ne (by decide))]
    exact ((dat4 (atTc (U9 m)) c).arrAt_in 2 rfl _).trans (A_eq4 (atTc (U9 m)) c 2)
  | ⟨3, _⟩ => by
    show _ = U10 m c (Proc.devRef .tc main_v75_0)
    unfold U10
    rw [Function.update_of_ne (show (Proc.devRef (τ := τ) .tc main_v75_0) ≠ Proc.devRef .tc main_v75_2 from StableHlo.devRef_ne_of_ne (by decide)),
      Function.update_of_ne (show (Proc.devRef (τ := τ) .tc main_v75_0) ≠ Proc.devRef .tc main_v75_1 from StableHlo.devRef_ne_of_ne (by decide)),
      Function.update_self]
    try rfl
  | ⟨4, _⟩ => by
    show _ = U10 m c (Proc.devRef .tc main_v75_1)
    unfold U10
    rw [Function.update_of_ne (show (Proc.devRef (τ := τ) .tc main_v75_1) ≠ Proc.devRef .tc main_v75_2 from StableHlo.devRef_ne_of_ne (by decide)),
      Function.update_self]
    try rfl
  | ⟨5, _⟩ => by
    show _ = U10 m c (Proc.devRef .tc main_v75_2)
    unfold U10
    rw [Function.update_self]
    try rfl
theorem hrest4 (c : Dev nD) : ∀ b, b ∉ Finset.univ.image (Pipeline.arrRef spec4) → atTc (U10 m) c b = atTc (U9 m) c b := fun b hb => by
  have h3 : main_v75_0 ≠ b := fun e => hb (Finset.mem_image.mpr ⟨3, Finset.mem_univ _, e⟩)
  have h4 : main_v75_1 ≠ b := fun e => hb (Finset.mem_image.mpr ⟨4, Finset.mem_univ _, e⟩)
  have h5 : main_v75_2 ≠ b := fun e => hb (Finset.mem_image.mpr ⟨5, Finset.mem_univ _, e⟩)
  show U10 m c (Proc.devRef .tc b) = U9 m c (Proc.devRef .tc b)
  unfold U10
  rw [Function.update_of_ne (StableHlo.devRef_ne_of_ne h5.symm), Function.update_of_ne (StableHlo.devRef_ne_of_ne h4.symm), Function.update_of_ne (StableHlo.devRef_ne_of_ne h3.symm)]
set_option maxHeartbeats 4000000 in
theorem hF5 (c : Dev nD) : ∀ w : Fin cfg5.W, (dat5 (atTc (U11 m)) c).arrAt w cfg5.N = atTc (U12 m) c (Pipeline.arrRef spec5 w)
  | ⟨0, _⟩ => by
    show _ = U12 m c (Proc.devRef .tc main_v75_0)
    unfold U12
    rw [Function.update_of_ne (show (Proc.devRef (τ := τ) .tc main_v75_0) ≠ Proc.devRef .tc main_v86 from StableHlo.devRef_ne_of_ne (by decide))]
    exact ((dat5 (atTc (U11 m)) c).arrAt_in 0 rfl _).trans (A_eq5 (atTc (U11 m)) c 0)
  | ⟨1, _⟩ => by
    show _ = U12 m c (Proc.devRef .tc main_v77)
    unfold U12
    rw [Function.update_of_ne (show (Proc.devRef (τ := τ) .tc main_v77) ≠ Proc.devRef .tc main_v86 from StableHlo.devRef_ne_of_ne (by decide))]
    exact ((dat5 (atTc (U11 m)) c).arrAt_in 1 rfl _).trans (A_eq5 (atTc (U11 m)) c 1)
  | ⟨2, _⟩ => by
    show _ = U12 m c (Proc.devRef .tc main_v83)
    unfold U12
    rw [Function.update_of_ne (show (Proc.devRef (τ := τ) .tc main_v83) ≠ Proc.devRef .tc main_v86 from StableHlo.devRef_ne_of_ne (by decide))]
    exact ((dat5 (atTc (U11 m)) c).arrAt_in 2 rfl _).trans (A_eq5 (atTc (U11 m)) c 2)
  | ⟨3, _⟩ => by
    show _ = U12 m c (Proc.devRef .tc main_v84)
    unfold U12
    rw [Function.update_of_ne (show (Proc.devRef (τ := τ) .tc main_v84) ≠ Proc.devRef .tc main_v86 from StableHlo.devRef_ne_of_ne (by decide))]
    exact ((dat5 (atTc (U11 m)) c).arrAt_in 3 rfl _).trans (A_eq5 (atTc (U11 m)) c 3)
  | ⟨4, _⟩ => by
    show _ = U12 m c (Proc.devRef .tc main_v85)
    unfold U12
    rw [Function.update_of_ne (show (Proc.devRef (τ := τ) .tc main_v85) ≠ Proc.devRef .tc main_v86 from StableHlo.devRef_ne_of_ne (by decide))]
    exact ((dat5 (atTc (U11 m)) c).arrAt_in 4 rfl _).trans (A_eq5 (atTc (U11 m)) c 4)
  | ⟨5, _⟩ => by
    show _ = U12 m c (Proc.devRef .tc main_v86)
    unfold U12
    rw [Function.update_self]
    try rfl
theorem hrest5 (c : Dev nD) : ∀ b, b ∉ Finset.univ.image (Pipeline.arrRef spec5) → atTc (U12 m) c b = atTc (U11 m) c b := fun b hb => by
  have h5 : main_v86 ≠ b := fun e => hb (Finset.mem_image.mpr ⟨5, Finset.mem_univ _, e⟩)
  show U12 m c (Proc.devRef .tc b) = U11 m c (Proc.devRef .tc b)
  unfold U12
  rw [Function.update_of_ne (StableHlo.devRef_ne_of_ne h5.symm)]
set_option maxHeartbeats 4000000 in
theorem hF6 (c : Dev nD) : ∀ w : Fin cfg6.W, (dat6 (atTc (U13 m)) c).arrAt w cfg6.N = atTc (U14 m) c (Pipeline.arrRef spec6 w)
  | ⟨0, _⟩ => by
    show _ = U14 m c (Proc.devRef .tc main_v86)
    unfold U14
    rw [Function.update_of_ne (show (Proc.devRef (τ := τ) .tc main_v86) ≠ Proc.devRef .tc main_v88 from StableHlo.devRef_ne_of_ne (by decide))]
    exact ((dat6 (atTc (U13 m)) c).arrAt_in 0 rfl _).trans (A_eq6 (atTc (U13 m)) c 0)
  | ⟨1, _⟩ => by
    show _ = U14 m c (Proc.devRef .tc main_arg10)
    unfold U14
    rw [Function.update_of_ne (show (Proc.devRef (τ := τ) .tc main_arg10) ≠ Proc.devRef .tc main_v88 from StableHlo.devRef_ne_of_ne (by decide))]
    exact ((dat6 (atTc (U13 m)) c).arrAt_in 1 rfl _).trans (A_eq6 (atTc (U13 m)) c 1)
  | ⟨2, _⟩ => by
    show _ = U14 m c (Proc.devRef .tc main_v87)
    unfold U14
    rw [Function.update_of_ne (show (Proc.devRef (τ := τ) .tc main_v87) ≠ Proc.devRef .tc main_v88 from StableHlo.devRef_ne_of_ne (by decide))]
    exact ((dat6 (atTc (U13 m)) c).arrAt_in 2 rfl _).trans (A_eq6 (atTc (U13 m)) c 2)
  | ⟨3, _⟩ => by
    show _ = U14 m c (Proc.devRef .tc main_v88)
    unfold U14
    rw [Function.update_self]
    try rfl
theorem hrest6 (c : Dev nD) : ∀ b, b ∉ Finset.univ.image (Pipeline.arrRef spec6) → atTc (U14 m) c b = atTc (U13 m) c b := fun b hb => by
  have h3 : main_v88 ≠ b := fun e => hb (Finset.mem_image.mpr ⟨3, Finset.mem_univ _, e⟩)
  show U14 m c (Proc.devRef .tc b) = U13 m c (Proc.devRef .tc b)
  unfold U14
  rw [Function.update_of_ne (StableHlo.devRef_ne_of_ne h3.symm)]
set_option maxHeartbeats 4000000 in
theorem hF7 (c : Dev nD) : ∀ w : Fin cfg7.W, (dat7 (atTc (U15 m)) c).arrAt w cfg7.N = atTc (U16 m) c (Pipeline.arrRef spec7 w)
  | ⟨0, _⟩ => by
    show _ = U16 m c (Proc.devRef .tc main_v101)
    unfold U16
    rw [Function.update_of_ne (show (Proc.devRef (τ := τ) .tc main_v101) ≠ Proc.devRef .tc main_v102_2 from StableHlo.devRef_ne_of_ne (by decide)),
      Function.update_of_ne (show (Proc.devRef (τ := τ) .tc main_v101) ≠ Proc.devRef .tc main_v102_1 from StableHlo.devRef_ne_of_ne (by decide)),
      Function.update_of_ne (show (Proc.devRef (τ := τ) .tc main_v101) ≠ Proc.devRef .tc main_v102_0 from StableHlo.devRef_ne_of_ne (by decide))]
    exact ((dat7 (atTc (U15 m)) c).arrAt_in 0 rfl _).trans (A_eq7 (atTc (U15 m)) c 0)
  | ⟨1, _⟩ => by
    show _ = U16 m c (Proc.devRef .tc main_v88)
    unfold U16
    rw [Function.update_of_ne (show (Proc.devRef (τ := τ) .tc main_v88) ≠ Proc.devRef .tc main_v102_2 from StableHlo.devRef_ne_of_ne (by decide)),
      Function.update_of_ne (show (Proc.devRef (τ := τ) .tc main_v88) ≠ Proc.devRef .tc main_v102_1 from StableHlo.devRef_ne_of_ne (by decide)),
      Function.update_of_ne (show (Proc.devRef (τ := τ) .tc main_v88) ≠ Proc.devRef .tc main_v102_0 from StableHlo.devRef_ne_of_ne (by decide))]
    exact ((dat7 (atTc (U15 m)) c).arrAt_in 1 rfl _).trans (A_eq7 (atTc (U15 m)) c 1)
  | ⟨2, _⟩ => by
    show _ = U16 m c (Proc.devRef .tc main_v32)
    unfold U16
    rw [Function.update_of_ne (show (Proc.devRef (τ := τ) .tc main_v32) ≠ Proc.devRef .tc main_v102_2 from StableHlo.devRef_ne_of_ne (by decide)),
      Function.update_of_ne (show (Proc.devRef (τ := τ) .tc main_v32) ≠ Proc.devRef .tc main_v102_1 from StableHlo.devRef_ne_of_ne (by decide)),
      Function.update_of_ne (show (Proc.devRef (τ := τ) .tc main_v32) ≠ Proc.devRef .tc main_v102_0 from StableHlo.devRef_ne_of_ne (by decide))]
    exact ((dat7 (atTc (U15 m)) c).arrAt_in 2 rfl _).trans (A_eq7 (atTc (U15 m)) c 2)
  | ⟨3, _⟩ => by
    show _ = U16 m c (Proc.devRef .tc main_v102_0)
    unfold U16
    rw [Function.update_of_ne (show (Proc.devRef (τ := τ) .tc main_v102_0) ≠ Proc.devRef .tc main_v102_2 from StableHlo.devRef_ne_of_ne (by decide)),
      Function.update_of_ne (show (Proc.devRef (τ := τ) .tc main_v102_0) ≠ Proc.devRef .tc main_v102_1 from StableHlo.devRef_ne_of_ne (by decide)),
      Function.update_self]
    try rfl
  | ⟨4, _⟩ => by
    show _ = U16 m c (Proc.devRef .tc main_v102_1)
    unfold U16
    rw [Function.update_of_ne (show (Proc.devRef (τ := τ) .tc main_v102_1) ≠ Proc.devRef .tc main_v102_2 from StableHlo.devRef_ne_of_ne (by decide)),
      Function.update_self]
    try rfl
  | ⟨5, _⟩ => by
    show _ = U16 m c (Proc.devRef .tc main_v102_2)
    unfold U16
    rw [Function.update_self]
    try rfl
theorem hrest7 (c : Dev nD) : ∀ b, b ∉ Finset.univ.image (Pipeline.arrRef spec7) → atTc (U16 m) c b = atTc (U15 m) c b := fun b hb => by
  have h3 : main_v102_0 ≠ b := fun e => hb (Finset.mem_image.mpr ⟨3, Finset.mem_univ _, e⟩)
  have h4 : main_v102_1 ≠ b := fun e => hb (Finset.mem_image.mpr ⟨4, Finset.mem_univ _, e⟩)
  have h5 : main_v102_2 ≠ b := fun e => hb (Finset.mem_image.mpr ⟨5, Finset.mem_univ _, e⟩)
  show U16 m c (Proc.devRef .tc b) = U15 m c (Proc.devRef .tc b)
  unfold U16
  rw [Function.update_of_ne (StableHlo.devRef_ne_of_ne h5.symm), Function.update_of_ne (StableHlo.devRef_ne_of_ne h4.symm), Function.update_of_ne (StableHlo.devRef_ne_of_ne h3.symm)]
set_option maxHeartbeats 4000000 in
theorem hF8 (c : Dev nD) : ∀ w : Fin cfg8.W, (dat8 (atTc (U17 m)) c).arrAt w cfg8.N = atTc (U18 m) c (Pipeline.arrRef spec8 w)
  | ⟨0, _⟩ => by
    show _ = U18 m c (Proc.devRef .tc main_v102_0)
    unfold U18
    rw [Function.update_of_ne (show (Proc.devRef (τ := τ) .tc main_v102_0) ≠ Proc.devRef .tc main_v113 from StableHlo.devRef_ne_of_ne (by decide))]
    exact ((dat8 (atTc (U17 m)) c).arrAt_in 0 rfl _).trans (A_eq8 (atTc (U17 m)) c 0)
  | ⟨1, _⟩ => by
    show _ = U18 m c (Proc.devRef .tc main_v104)
    unfold U18
    rw [Function.update_of_ne (show (Proc.devRef (τ := τ) .tc main_v104) ≠ Proc.devRef .tc main_v113 from StableHlo.devRef_ne_of_ne (by decide))]
    exact ((dat8 (atTc (U17 m)) c).arrAt_in 1 rfl _).trans (A_eq8 (atTc (U17 m)) c 1)
  | ⟨2, _⟩ => by
    show _ = U18 m c (Proc.devRef .tc main_v110)
    unfold U18
    rw [Function.update_of_ne (show (Proc.devRef (τ := τ) .tc main_v110) ≠ Proc.devRef .tc main_v113 from StableHlo.devRef_ne_of_ne (by decide))]
    exact ((dat8 (atTc (U17 m)) c).arrAt_in 2 rfl _).trans (A_eq8 (atTc (U17 m)) c 2)
  | ⟨3, _⟩ => by
    show _ = U18 m c (Proc.devRef .tc main_v111)
    unfold U18
    rw [Function.update_of_ne (show (Proc.devRef (τ := τ) .tc main_v111) ≠ Proc.devRef .tc main_v113 from StableHlo.devRef_ne_of_ne (by decide))]
    exact ((dat8 (atTc (U17 m)) c).arrAt_in 3 rfl _).trans (A_eq8 (atTc (U17 m)) c 3)
  | ⟨4, _⟩ => by
    show _ = U18 m c (Proc.devRef .tc main_v112)
    unfold U18
    rw [Function.update_of_ne (show (Proc.devRef (τ := τ) .tc main_v112) ≠ Proc.devRef .tc main_v113 from StableHlo.devRef_ne_of_ne (by decide))]
    exact ((dat8 (atTc (U17 m)) c).arrAt_in 4 rfl _).trans (A_eq8 (atTc (U17 m)) c 4)
  | ⟨5, _⟩ => by
    show _ = U18 m c (Proc.devRef .tc main_v113)
    unfold U18
    rw [Function.update_self]
    try rfl
theorem hrest8 (c : Dev nD) : ∀ b, b ∉ Finset.univ.image (Pipeline.arrRef spec8) → atTc (U18 m) c b = atTc (U17 m) c b := fun b hb => by
  have h5 : main_v113 ≠ b := fun e => hb (Finset.mem_image.mpr ⟨5, Finset.mem_univ _, e⟩)
  show U18 m c (Proc.devRef .tc b) = U17 m c (Proc.devRef .tc b)
  unfold U18
  rw [Function.update_of_ne (StableHlo.devRef_ne_of_ne h5.symm)]
set_option maxHeartbeats 4000000 in
theorem hF9 (c : Dev nD) : ∀ w : Fin cfg9.W, (dat9 (atTc (U19 m)) c).arrAt w cfg9.N = atTc (U20 m) c (Pipeline.arrRef spec9 w)
  | ⟨0, _⟩ => by
    show _ = U20 m c (Proc.devRef .tc main_v113)
    unfold U20
    rw [Function.update_of_ne (show (Proc.devRef (τ := τ) .tc main_v113) ≠ Proc.devRef .tc main_v115 from StableHlo.devRef_ne_of_ne (by decide))]
    exact ((dat9 (atTc (U19 m)) c).arrAt_in 0 rfl _).trans (A_eq9 (atTc (U19 m)) c 0)
  | ⟨1, _⟩ => by
    show _ = U20 m c (Proc.devRef .tc main_arg14)
    unfold U20
    rw [Function.update_of_ne (show (Proc.devRef (τ := τ) .tc main_arg14) ≠ Proc.devRef .tc main_v115 from StableHlo.devRef_ne_of_ne (by decide))]
    exact ((dat9 (atTc (U19 m)) c).arrAt_in 1 rfl _).trans (A_eq9 (atTc (U19 m)) c 1)
  | ⟨2, _⟩ => by
    show _ = U20 m c (Proc.devRef .tc main_v114)
    unfold U20
    rw [Function.update_of_ne (show (Proc.devRef (τ := τ) .tc main_v114) ≠ Proc.devRef .tc main_v115 from StableHlo.devRef_ne_of_ne (by decide))]
    exact ((dat9 (atTc (U19 m)) c).arrAt_in 2 rfl _).trans (A_eq9 (atTc (U19 m)) c 2)
  | ⟨3, _⟩ => by
    show _ = U20 m c (Proc.devRef .tc main_v115)
    unfold U20
    rw [Function.update_self]
    try rfl
theorem hrest9 (c : Dev nD) : ∀ b, b ∉ Finset.univ.image (Pipeline.arrRef spec9) → atTc (U20 m) c b = atTc (U19 m) c b := fun b hb => by
  have h3 : main_v115 ≠ b := fun e => hb (Finset.mem_image.mpr ⟨3, Finset.mem_univ _, e⟩)
  show U20 m c (Proc.devRef .tc b) = U19 m c (Proc.devRef .tc b)
  unfold U20
  rw [Function.update_of_ne (StableHlo.devRef_ne_of_ne h3.symm)]
set_option maxHeartbeats 4000000 in
theorem hF10 (c : Dev nD) : ∀ w : Fin cfg10.W, (dat10 (atTc (U21 m)) c).arrAt w cfg10.N = atTc (U22 m) c (Pipeline.arrRef spec10 w)
  | ⟨0, _⟩ => by
    show _ = U22 m c (Proc.devRef .tc main_v128)
    unfold U22
    rw [Function.update_of_ne (show (Proc.devRef (τ := τ) .tc main_v128) ≠ Proc.devRef .tc main_v129_2 from StableHlo.devRef_ne_of_ne (by decide)),
      Function.update_of_ne (show (Proc.devRef (τ := τ) .tc main_v128) ≠ Proc.devRef .tc main_v129_1 from StableHlo.devRef_ne_of_ne (by decide)),
      Function.update_of_ne (show (Proc.devRef (τ := τ) .tc main_v128) ≠ Proc.devRef .tc main_v129_0 from StableHlo.devRef_ne_of_ne (by decide))]
    exact ((dat10 (atTc (U21 m)) c).arrAt_in 0 rfl _).trans (A_eq10 (atTc (U21 m)) c 0)
  | ⟨1, _⟩ => by
    show _ = U22 m c (Proc.devRef .tc main_v115)
    unfold U22
    rw [Function.update_of_ne (show (Proc.devRef (τ := τ) .tc main_v115) ≠ Proc.devRef .tc main_v129_2 from StableHlo.devRef_ne_of_ne (by decide)),
      Function.update_of_ne (show (Proc.devRef (τ := τ) .tc main_v115) ≠ Proc.devRef .tc main_v129_1 from StableHlo.devRef_ne_of_ne (by decide)),
      Function.update_of_ne (show (Proc.devRef (τ := τ) .tc main_v115) ≠ Proc.devRef .tc main_v129_0 from StableHlo.devRef_ne_of_ne (by decide))]
    exact ((dat10 (atTc (U21 m)) c).arrAt_in 1 rfl _).trans (A_eq10 (atTc (U21 m)) c 1)
  | ⟨2, _⟩ => by
    show _ = U22 m c (Proc.devRef .tc main_v32)
    unfold U22
    rw [Function.update_of_ne (show (Proc.devRef (τ := τ) .tc main_v32) ≠ Proc.devRef .tc main_v129_2 from StableHlo.devRef_ne_of_ne (by decide)),
      Function.update_of_ne (show (Proc.devRef (τ := τ) .tc main_v32) ≠ Proc.devRef .tc main_v129_1 from StableHlo.devRef_ne_of_ne (by decide)),
      Function.update_of_ne (show (Proc.devRef (τ := τ) .tc main_v32) ≠ Proc.devRef .tc main_v129_0 from StableHlo.devRef_ne_of_ne (by decide))]
    exact ((dat10 (atTc (U21 m)) c).arrAt_in 2 rfl _).trans (A_eq10 (atTc (U21 m)) c 2)
  | ⟨3, _⟩ => by
    show _ = U22 m c (Proc.devRef .tc main_v129_0)
    unfold U22
    rw [Function.update_of_ne (show (Proc.devRef (τ := τ) .tc main_v129_0) ≠ Proc.devRef .tc main_v129_2 from StableHlo.devRef_ne_of_ne (by decide)),
      Function.update_of_ne (show (Proc.devRef (τ := τ) .tc main_v129_0) ≠ Proc.devRef .tc main_v129_1 from StableHlo.devRef_ne_of_ne (by decide)),
      Function.update_self]
    try rfl
  | ⟨4, _⟩ => by
    show _ = U22 m c (Proc.devRef .tc main_v129_1)
    unfold U22
    rw [Function.update_of_ne (show (Proc.devRef (τ := τ) .tc main_v129_1) ≠ Proc.devRef .tc main_v129_2 from StableHlo.devRef_ne_of_ne (by decide)),
      Function.update_self]
    try rfl
  | ⟨5, _⟩ => by
    show _ = U22 m c (Proc.devRef .tc main_v129_2)
    unfold U22
    rw [Function.update_self]
    try rfl
theorem hrest10 (c : Dev nD) : ∀ b, b ∉ Finset.univ.image (Pipeline.arrRef spec10) → atTc (U22 m) c b = atTc (U21 m) c b := fun b hb => by
  have h3 : main_v129_0 ≠ b := fun e => hb (Finset.mem_image.mpr ⟨3, Finset.mem_univ _, e⟩)
  have h4 : main_v129_1 ≠ b := fun e => hb (Finset.mem_image.mpr ⟨4, Finset.mem_univ _, e⟩)
  have h5 : main_v129_2 ≠ b := fun e => hb (Finset.mem_image.mpr ⟨5, Finset.mem_univ _, e⟩)
  show U22 m c (Proc.devRef .tc b) = U21 m c (Proc.devRef .tc b)
  unfold U22
  rw [Function.update_of_ne (StableHlo.devRef_ne_of_ne h5.symm), Function.update_of_ne (StableHlo.devRef_ne_of_ne h4.symm), Function.update_of_ne (StableHlo.devRef_ne_of_ne h3.symm)]
set_option maxHeartbeats 4000000 in
theorem hF11 (c : Dev nD) : ∀ w : Fin cfg11.W, (dat11 (atTc (U23 m)) c).arrAt w cfg11.N = atTc (U24 m) c (Pipeline.arrRef spec11 w)
  | ⟨0, _⟩ => by
    show _ = U24 m c (Proc.devRef .tc main_v129_0)
    unfold U24
    rw [Function.update_of_ne (show (Proc.devRef (τ := τ) .tc main_v129_0) ≠ Proc.devRef .tc main_v140 from StableHlo.devRef_ne_of_ne (by decide))]
    exact ((dat11 (atTc (U23 m)) c).arrAt_in 0 rfl _).trans (A_eq11 (atTc (U23 m)) c 0)
  | ⟨1, _⟩ => by
    show _ = U24 m c (Proc.devRef .tc main_v131)
    unfold U24
    rw [Function.update_of_ne (show (Proc.devRef (τ := τ) .tc main_v131) ≠ Proc.devRef .tc main_v140 from StableHlo.devRef_ne_of_ne (by decide))]
    exact ((dat11 (atTc (U23 m)) c).arrAt_in 1 rfl _).trans (A_eq11 (atTc (U23 m)) c 1)
  | ⟨2, _⟩ => by
    show _ = U24 m c (Proc.devRef .tc main_v137)
    unfold U24
    rw [Function.update_of_ne (show (Proc.devRef (τ := τ) .tc main_v137) ≠ Proc.devRef .tc main_v140 from StableHlo.devRef_ne_of_ne (by decide))]
    exact ((dat11 (atTc (U23 m)) c).arrAt_in 2 rfl _).trans (A_eq11 (atTc (U23 m)) c 2)
  | ⟨3, _⟩ => by
    show _ = U24 m c (Proc.devRef .tc main_v138)
    unfold U24
    rw [Function.update_of_ne (show (Proc.devRef (τ := τ) .tc main_v138) ≠ Proc.devRef .tc main_v140 from StableHlo.devRef_ne_of_ne (by decide))]
    exact ((dat11 (atTc (U23 m)) c).arrAt_in 3 rfl _).trans (A_eq11 (atTc (U23 m)) c 3)
  | ⟨4, _⟩ => by
    show _ = U24 m c (Proc.devRef .tc main_v139)
    unfold U24
    rw [Function.update_of_ne (show (Proc.devRef (τ := τ) .tc main_v139) ≠ Proc.devRef .tc main_v140 from StableHlo.devRef_ne_of_ne (by decide))]
    exact ((dat11 (atTc (U23 m)) c).arrAt_in 4 rfl _).trans (A_eq11 (atTc (U23 m)) c 4)
  | ⟨5, _⟩ => by
    show _ = U24 m c (Proc.devRef .tc main_v140)
    unfold U24
    rw [Function.update_self]
    try rfl
theorem hrest11 (c : Dev nD) : ∀ b, b ∉ Finset.univ.image (Pipeline.arrRef spec11) → atTc (U24 m) c b = atTc (U23 m) c b := fun b hb => by
  have h5 : main_v140 ≠ b := fun e => hb (Finset.mem_image.mpr ⟨5, Finset.mem_univ _, e⟩)
  show U24 m c (Proc.devRef .tc b) = U23 m c (Proc.devRef .tc b)
  unfold U24
  rw [Function.update_of_ne (StableHlo.devRef_ne_of_ne h5.symm)]

end Cert.KernelIdeal.Gen

end
-- ==== Proof.AsmRegs.lean ====
import proofs.«165059_j7095285973648_2_alg».proof.Proof.Gen.KernelIdeal.Regions
import proofs.«165059_j7095285973648_2_alg».proof.Proof.AsmVals
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The proof data of the twelve regions, and what rides beside the buffers -/

/-- Every region's proof data, each at the contents its region is entered with. -/
def pdats : (p : Fin 12) → (c : Dev nD) → Dat τ (Elt F) Unit ℕ (UR sig nD τ) ℕ (cfgs p) c
  | ⟨0, _⟩ => fun c => dat0 (atTc (U1 m)) c
  | ⟨1, _⟩ => fun c => dat1 (atTc (U3 m)) c
  | ⟨2, _⟩ => fun c => dat2 (atTc (U5 m)) c
  | ⟨3, _⟩ => fun c => dat3 (atTc (U7 m)) c
  | ⟨4, _⟩ => fun c => dat4 (atTc (U9 m)) c
  | ⟨5, _⟩ => fun c => dat5 (atTc (U11 m)) c
  | ⟨6, _⟩ => fun c => dat6 (atTc (U13 m)) c
  | ⟨7, _⟩ => fun c => dat7 (atTc (U15 m)) c
  | ⟨8, _⟩ => fun c => dat8 (atTc (U17 m)) c
  | ⟨9, _⟩ => fun c => dat9 (atTc (U19 m)) c
  | ⟨10, _⟩ => fun c => dat10 (atTc (U21 m)) c
  | ⟨11, _⟩ => fun c => dat11 (atTc (U23 m)) c

/-- No core owes another anything: no level is assigned. -/
abbrev noLv : GSem nD τ sig → Finset Unit := fun _ => ∅
abbrev lvZero : GSem nD τ sig → Unit → ℕ := fun _ _ => 0
/-- Beside the buffers a core carries its generator register, at some state, and owes nothing. -/
abbrev Rest (c : Dev nD) : sProp 𝕄 := iprop((∃ r, prngReg c r) ∗ ∃ W, owes (c : Thread nD τ) (0 : CellTallies nD τ sig Unit) W)

/-! ## The regions as segments

A region is entered with every unscoped buffer at the contents before it and left with them at the contents after
it: its arrays are split out of the buffers at entry and put back, at what the write-backs leave, at exit; the
generator register goes into the region's invariant and comes back; nothing is owed; the kernel has no
semaphore of its own. -/

set_option backward.isDefEq.respectTransparency.types false in
def reg0 : Pipeline.RegionSeg (pcfgs (F := F)) adm (pdats m) () defs₀ Variants.none noLv lvZero 0 where
  win := launch0.win.to₀
  block_pos := launch0.block_pos
  stage_whole := launch0.stage_whole
  K := PEmpty
  osem k := k.elim
  ho := Pipeline.OwnSemFacts.none _
  hbody c := (body_obligation0 (atTc (U1 m)) c).loose
  hwaits := Pipeline.hwaits_of_owed_zero _ _ _ _ noLv lvZero 0 fun _ _ => rfl
  pre c := iprop(StableHlo.held (c : Thread nD τ) (Pipeline.ucRefs τ sig) (U1 m c) ∗ Rest c)
  post c := iprop(StableHlo.held (c : Thread nD τ) (Pipeline.ucRefs τ sig) (U2 m c) ∗ Rest c)
  X c := iprop(∃ r, prngReg c r)
  Y c := iprop(∃ r, prngReg c r)
  Z c := Pipeline.unscopedRest (Ix := Unit) (Name := ℕ) (U := UR sig nD τ) (Lvl := ℕ) spec0 c (atTc (U1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (U1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (U1 m) c) (atTc (U2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 (hb : ∀ c : Dev nD, BodyObligation (dat1 (F := F) (atTc (U3 m)) c) (defs₀ (F := F)) Variants.none () Set.univ) : Pipeline.RegionSeg (pcfgs (F := F)) adm (pdats m) () defs₀ Variants.none noLv lvZero 1 where
  win := launch1.win.to₀
  block_pos := launch1.block_pos
  stage_whole := launch1.stage_whole
  K := PEmpty
  osem k := k.elim
  ho := Pipeline.OwnSemFacts.none _
  hbody c := (hb c).loose
  hwaits := Pipeline.hwaits_of_owed_zero _ _ _ _ noLv lvZero 1 fun _ _ => rfl
  pre c := iprop(StableHlo.held (c : Thread nD τ) (Pipeline.ucRefs τ sig) (U3 m c) ∗ Rest c)
  post c := iprop(StableHlo.held (c : Thread nD τ) (Pipeline.ucRefs τ sig) (U4 m c) ∗ Rest c)
  X c := iprop(∃ r, prngReg c r)
  Y c := iprop(∃ r, prngReg c r)
  Z c := Pipeline.unscopedRest (Ix := Unit) (Name := ℕ) (U := UR sig nD τ) (Lvl := ℕ) spec1 c (atTc (U3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (U3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (U3 m) c) (atTc (U4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m) () defs₀ Variants.none noLv lvZero 2 where
  win := launch2.win.to₀
  block_pos := launch2.block_pos
  stage_whole := launch2.stage_whole
  K := PEmpty
  osem k := k.elim
  ho := Pipeline.OwnSemFacts.none _
  hbody c := (body_obligation2 (atTc (U5 m)) c).loose
  hwaits := Pipeline.hwaits_of_owed_zero _ _ _ _ noLv lvZero 2 fun _ _ => rfl
  pre c := iprop(StableHlo.held (c : Thread nD τ) (Pipeline.ucRefs τ sig) (U5 m c) ∗ Rest c)
  post c := iprop(StableHlo.held (c : Thread nD τ) (Pipeline.ucRefs τ sig) (U6 m c) ∗ Rest c)
  X c := iprop(∃ r, prngReg c r)
  Y c := iprop(∃ r, prngReg c r)
  Z c := Pipeline.unscopedRest (Ix := Unit) (Name := ℕ) (U := UR sig nD τ) (Lvl := ℕ) spec2 c (atTc (U5 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (U5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (U5 m) c) (atTc (U6 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg3 : Pipeline.RegionSeg (pcfgs (F := F)) adm (pdats m) () defs₀ Variants.none noLv lvZero 3 where
  win := launch3.win.to₀
  block_pos := launch3.block_pos
  stage_whole := launch3.stage_whole
  K := PEmpty
  osem k := k.elim
  ho := Pipeline.OwnSemFacts.none _
  hbody c := (body_obligation3 (atTc (U7 m)) c).loose
  hwaits := Pipeline.hwaits_of_owed_zero _ _ _ _ noLv lvZero 3 fun _ _ => rfl
  pre c := iprop(StableHlo.held (c : Thread nD τ) (Pipeline.ucRefs τ sig) (U7 m c) ∗ Rest c)
  post c := iprop(StableHlo.held (c : Thread nD τ) (Pipeline.ucRefs τ sig) (U8 m c) ∗ Rest c)
  X c := iprop(∃ r, prngReg c r)
  Y c := iprop(∃ r, prngReg c r)
  Z c := Pipeline.unscopedRest (Ix := Unit) (Name := ℕ) (U := UR sig nD τ) (Lvl := ℕ) spec3 c (atTc (U7 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (U7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (U7 m) c) (atTc (U8 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg4 (hb : ∀ c : Dev nD, BodyObligation (dat4 (F := F) (atTc (U9 m)) c) (defs₀ (F := F)) Variants.none () Set.univ) : Pipeline.RegionSeg (pcfgs (F := F)) adm (pdats m) () defs₀ Variants.none noLv lvZero 4 where
  win := launch4.win.to₀
  block_pos := launch4.block_pos
  stage_whole := launch4.stage_whole
  K := PEmpty
  osem k := k.elim
  ho := Pipeline.OwnSemFacts.none _
  hbody c := (hb c).loose
  hwaits := Pipeline.hwaits_of_owed_zero _ _ _ _ noLv lvZero 4 fun _ _ => rfl
  pre c := iprop(StableHlo.held (c : Thread nD τ) (Pipeline.ucRefs τ sig) (U9 m c) ∗ Rest c)
  post c := iprop(StableHlo.held (c : Thread nD τ) (Pipeline.ucRefs τ sig) (U10 m c) ∗ Rest c)
  X c := iprop(∃ r, prngReg c r)
  Y c := iprop(∃ r, prngReg c r)
  Z c := Pipeline.unscopedRest (Ix := Unit) (Name := ℕ) (U := UR sig nD τ) (Lvl := ℕ) spec4 c (atTc (U9 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atTc (U9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atTc (U9 m) c) (atTc (U10 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg5 : Pipeline.RegionSeg (pcfgs (F := F)) adm (pdats m) () defs₀ Variants.none noLv lvZero 5 where
  win := launch5.win.to₀
  block_pos := launch5.block_pos
  stage_whole := launch5.stage_whole
  K := PEmpty
  osem k := k.elim
  ho := Pipeline.OwnSemFacts.none _
  hbody c := (body_obligation5 (atTc (U11 m)) c).loose
  hwaits := Pipeline.hwaits_of_owed_zero _ _ _ _ noLv lvZero 5 fun _ _ => rfl
  pre c := iprop(StableHlo.held (c : Thread nD τ) (Pipeline.ucRefs τ sig) (U11 m c) ∗ Rest c)
  post c := iprop(StableHlo.held (c : Thread nD τ) (Pipeline.ucRefs τ sig) (U12 m c) ∗ Rest c)
  X c := iprop(∃ r, prngReg c r)
  Y c := iprop(∃ r, prngReg c r)
  Z c := Pipeline.unscopedRest (Ix := Unit) (Name := ℕ) (U := UR sig nD τ) (Lvl := ℕ) spec5 c (atTc (U11 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (atTc (U11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (atTc (U11 m) c) (atTc (U12 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg6 : Pipeline.RegionSeg (pcfgs (F := F)) adm (pdats m) () defs₀ Variants.none noLv lvZero 6 where
  win := launch6.win.to₀
  block_pos := launch6.block_pos
  stage_whole := launch6.stage_whole
  K := PEmpty
  osem k := k.elim
  ho := Pipeline.OwnSemFacts.none _
  hbody c := (body_obligation6 (atTc (U13 m)) c).loose
  hwaits := Pipeline.hwaits_of_owed_zero _ _ _ _ noLv lvZero 6 fun _ _ => rfl
  pre c := iprop(StableHlo.held (c : Thread nD τ) (Pipeline.ucRefs τ sig) (U13 m c) ∗ Rest c)
  post c := iprop(StableHlo.held (c : Thread nD τ) (Pipeline.ucRefs τ sig) (U14 m c) ∗ Rest c)
  X c := iprop(∃ r, prngReg c r)
  Y c := iprop(∃ r, prngReg c r)
  Z c := Pipeline.unscopedRest (Ix := Unit) (Name := ℕ) (U := UR sig nD τ) (Lvl := ℕ) spec6 c (atTc (U13 m) c)
  hentry c := by
    rw [Pipeline.ownSems0_none]
    have hsplit := Pipeline.arrays_of_unscopedBufs (p := 6) (pcfgs (F := F)) adm (pdats m) launch6.win launch6.arr_whole c
      ((pdats m 6 c).share_full fun _ => rfl) (atTc (U13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (atTc (U13 m) c) (atTc (U14 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg7 (hb : ∀ c : Dev nD, BodyObligation (dat7 (F := F) (atTc (U15 m)) c) (defs₀ (F := F)) Variants.none () Set.univ) : Pipeline.RegionSeg (pcfgs (F := F)) adm (pdats m) () defs₀ Variants.none noLv lvZero 7 where
  win := launch7.win.to₀
  block_pos := launch7.block_pos
  stage_whole := launch7.stage_whole
  K := PEmpty
  osem k := k.elim
  ho := Pipeline.OwnSemFacts.none _
  hbody c := (hb c).loose
  hwaits := Pipeline.hwaits_of_owed_zero _ _ _ _ noLv lvZero 7 fun _ _ => rfl
  pre c := iprop(StableHlo.held (c : Thread nD τ) (Pipeline.ucRefs τ sig) (U15 m c) ∗ Rest c)
  post c := iprop(StableHlo.held (c : Thread nD τ) (Pipeline.ucRefs τ sig) (U16 m c) ∗ Rest c)
  X c := iprop(∃ r, prngReg c r)
  Y c := iprop(∃ r, prngReg c r)
  Z c := Pipeline.unscopedRest (Ix := Unit) (Name := ℕ) (U := UR sig nD τ) (Lvl := ℕ) spec7 c (atTc (U15 m) c)
  hentry c := by
    rw [Pipeline.ownSems0_none]
    have hsplit := Pipeline.arrays_of_unscopedBufs (p := 7) (pcfgs (F := F)) adm (pdats m) launch7.win launch7.arr_whole c
      ((pdats m 7 c).share_full fun _ => rfl) (atTc (U15 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (atTc (U15 m) c) (atTc (U16 m) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg8 : Pipeline.RegionSeg (pcfgs (F := F)) adm (pdats m) () defs₀ Variants.none noLv lvZero 8 where
  win := launch8.win.to₀
  block_pos := launch8.block_pos
  stage_whole := launch8.stage_whole
  K := PEmpty
  osem k := k.elim
  ho := Pipeline.OwnSemFacts.none _
  hbody c := (body_obligation8 (atTc (U17 m)) c).loose
  hwaits := Pipeline.hwaits_of_owed_zero _ _ _ _ noLv lvZero 8 fun _ _ => rfl
  pre c := iprop(StableHlo.held (c : Thread nD τ) (Pipeline.ucRefs τ sig) (U17 m c) ∗ Rest c)
  post c := iprop(StableHlo.held (c : Thread nD τ) (Pipeline.ucRefs τ sig) (U18 m c) ∗ Rest c)
  X c := iprop(∃ r, prngReg c r)
  Y c := iprop(∃ r, prngReg c r)
  Z c := Pipeline.unscopedRest (Ix := Unit) (Name := ℕ) (U := UR sig nD τ) (Lvl := ℕ) spec8 c (atTc (U17 m) c)
  hentry c := by
    rw [Pipeline.ownSems0_none]
    have hsplit := Pipeline.arrays_of_unscopedBufs (p := 8) (pcfgs (F := F)) adm (pdats m) launch8.win launch8.arr_whole c
      ((pdats m 8 c).share_full fun _ => rfl) (atTc (U17 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (atTc (U17 m) c) (atTc (U18 m) c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg9 : Pipeline.RegionSeg (pcfgs (F := F)) adm (pdats m) () defs₀ Variants.none noLv lvZero 9 where
  win := launch9.win.to₀
  block_pos := launch9.block_pos
  stage_whole := launch9.stage_whole
  K := PEmpty
  osem k := k.elim
  ho := Pipeline.OwnSemFacts.none _
  hbody c := (body_obligation9 (atTc (U19 m)) c).loose
  hwaits := Pipeline.hwaits_of_owed_zero _ _ _ _ noLv lvZero 9 fun _ _ => rfl
  pre c := iprop(StableHlo.held (c : Thread nD τ) (Pipeline.ucRefs τ sig) (U19 m c) ∗ Rest c)
  post c := iprop(StableHlo.held (c : Thread nD τ) (Pipeline.ucRefs τ sig) (U20 m c) ∗ Rest c)
  X c := iprop(∃ r, prngReg c r)
  Y c := iprop(∃ r, prngReg c r)
  Z c := Pipeline.unscopedRest (Ix := Unit) (Name := ℕ) (U := UR sig nD τ) (Lvl := ℕ) spec9 c (atTc (U19 m) c)
  hentry c := by
    rw [Pipeline.ownSems0_none]
    have hsplit := Pipeline.arrays_of_unscopedBufs (p := 9) (pcfgs (F := F)) adm (pdats m) launch9.win launch9.arr_whole c
      ((pdats m 9 c).share_full fun _ => rfl) (atTc (U19 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (atTc (U19 m) c) (atTc (U20 m) c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg10 (hb : ∀ c : Dev nD, BodyObligation (dat10 (F := F) (atTc (U21 m)) c) (defs₀ (F := F)) Variants.none () Set.univ) : Pipeline.RegionSeg (pcfgs (F := F)) adm (pdats m) () defs₀ Variants.none noLv lvZero 10 where
  win := launch10.win.to₀
  block_pos := launch10.block_pos
  stage_whole := launch10.stage_whole
  K := PEmpty
  osem k := k.elim
  ho := Pipeline.OwnSemFacts.none _
  hbody c := (hb c).loose
  hwaits := Pipeline.hwaits_of_owed_zero _ _ _ _ noLv lvZero 10 fun _ _ => rfl
  pre c := iprop(StableHlo.held (c : Thread nD τ) (Pipeline.ucRefs τ sig) (U21 m c) ∗ Rest c)
  post c := iprop(StableHlo.held (c : Thread nD τ) (Pipeline.ucRefs τ sig) (U22 m c) ∗ Rest c)
  X c := iprop(∃ r, prngReg c r)
  Y c := iprop(∃ r, prngReg c r)
  Z c := Pipeline.unscopedRest (Ix := Unit) (Name := ℕ) (U := UR sig nD τ) (Lvl := ℕ) spec10 c (atTc (U21 m) c)
  hentry c := by
    rw [Pipeline.ownSems0_none]
    have hsplit := Pipeline.arrays_of_unscopedBufs (p := 10) (pcfgs (F := F)) adm (pdats m) launch10.win launch10.arr_whole c
      ((pdats m 10 c).share_full fun _ => rfl) (atTc (U21 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (atTc (U21 m) c) (atTc (U22 m) c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg11 : Pipeline.RegionSeg (pcfgs (F := F)) adm (pdats m) () defs₀ Variants.none noLv lvZero 11 where
  win := launch11.win.to₀
  block_pos := launch11.block_pos
  stage_whole := launch11.stage_whole
  K := PEmpty
  osem k := k.elim
  ho := Pipeline.OwnSemFacts.none _
  hbody c := (body_obligation11 (atTc (U23 m)) c).loose
  hwaits := Pipeline.hwaits_of_owed_zero _ _ _ _ noLv lvZero 11 fun _ _ => rfl
  pre c := iprop(StableHlo.held (c : Thread nD τ) (Pipeline.ucRefs τ sig) (U23 m c) ∗ Rest c)
  post c := iprop(StableHlo.held (c : Thread nD τ) (Pipeline.ucRefs τ sig) (U24 m c) ∗ Rest c)
  X c := iprop(∃ r, prngReg c r)
  Y c := iprop(∃ r, prngReg c r)
  Z c := Pipeline.unscopedRest (Ix := Unit) (Name := ℕ) (U := UR sig nD τ) (Lvl := ℕ) spec11 c (atTc (U23 m) c)
  hentry c := by
    rw [Pipeline.ownSems0_none]
    have hsplit := Pipeline.arrays_of_unscopedBufs (p := 11) (pcfgs (F := F)) adm (pdats m) launch11.win launch11.arr_whole c
      ((pdats m 11 c).share_full fun _ => rfl) (atTc (U23 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (atTc (U23 m) c) (atTc (U24 m) c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.AsmFrame.lean ====
import proofs.«165059_j7095285973648_2_alg».proof.Proof.Gen.KernelIdeal.Regions
import proofs.«165059_j7095285973648_2_alg».proof.Proof.AsmRegs
import proofs.«165059_j7095285973648_2_alg».proof.Proof.RunCond
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The launch over the twelve regions

Given the body obligations of the four regions that accumulate column sums (the other eight regions' are proved
with their proof data), every weakly fair execution of the program from memory `m` with zero counters terminates,
nothing faulting; every unscoped buffer of every core ends holding the last contents `U24`; in particular each
argument array ends as launched. -/

/-- At the launch a core's semaphores, what it owes and its generator register make its rest state. -/
theorem launchRest1 (ρ : Dev nD → PrngReg) (c : Dev nD) :
    (iprop(unscopedSems0 c ∗ owes (c : Thread nD τ) (0 : CellTallies nD τ sig Unit) ∅
        ∗ Pipeline.launchCred (0 : Dev nD → CellTallies nD τ sig Unit) c ∗ prngReg c (ρ c) ∗ iprop(emp)) : sProp 𝕄)
      ⊢ Rest (F := F) c := by
  iintro ⟨-, HO, -, Hp, -⟩
  isplitl [Hp]; · iexists _; iexact Hp
  iexists ∅; iexact HO

/-- The same on every core at once. -/
theorem launchRest (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (fun _ : Dev nD => (iprop(emp) : sProp 𝕄)) c)) ∗ levAts noLv lvZero)
      ⊢ (|={Set.univ}=> bigSep Finset.univ (fun c : Dev nD => Rest (F := F) c) : sProp 𝕄) := by
  have hmono : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (fun _ : Dev nD => (iprop(emp) : sProp 𝕄)) c))
      ⊢ (bigSep Finset.univ (fun c : Dev nD => Rest (F := F) c) : sProp 𝕄) := bigSep_mono fun c _ => launchRest1 ρ c
  iintro ⟨H, -⟩
  imodintro
  iapply hmono
  iexact H

set_option backward.isDefEq.respectTransparency.types false in
theorem frame_of_bodies (ρ : Dev nD → PrngReg)
    (hb1 : ∀ c : Dev nD, BodyObligation (dat1 (F := F) (atTc (U3 m)) c) (defs₀ (F := F)) Variants.none () Set.univ)
    (hb4 : ∀ c : Dev nD, BodyObligation (dat4 (F := F) (atTc (U9 m)) c) (defs₀ (F := F)) Variants.none () Set.univ)
    (hb7 : ∀ c : Dev nD, BodyObligation (dat7 (F := F) (atTc (U15 m)) c) (defs₀ (F := F)) Variants.none () Set.univ)
    (hb10 : ∀ c : Dev nD, BodyObligation (dat10 (F := F) (atTc (U21 m)) c) (defs₀ (F := F)) Variants.none () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_cond (m := m) (EP := emb₁) (ι := ()) (𝒱₀ := Variants.none) (L := noLv) (lv := lvZero) (hL := fun _ _ => rfl) (ρ := ρ) (outs := outs m)
    (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rest c)
    (hE0 := launchRest ρ)
    (hE12 := fun c => by
      iintro ⟨-, HO⟩
      iexact HO)
    (R0 := reg0 m) (hpre0 := fun c => by rw [V1_eq]; exact .rfl) (hpost0 := fun c => by rw [V2_eq]; exact .rfl)
    (R1 := reg1 m hb1) (hpre1 := fun c => by rw [V3_eq]; exact .rfl) (hpost1 := fun c => by rw [V4_eq]; exact .rfl)
    (R2 := reg2 m) (hpre2 := fun c => by rw [V5_eq]; exact .rfl) (hpost2 := fun c => by rw [V6_eq]; exact .rfl)
    (R3 := reg3 m) (hpre3 := fun c => by rw [V7_eq]; exact .rfl) (hpost3 := fun c => by rw [V8_eq]; exact .rfl)
    (R4 := reg4 m hb4) (hpre4 := fun c => by rw [V9_eq]; exact .rfl) (hpost4 := fun c => by rw [V10_eq]; exact .rfl)
    (R5 := reg5 m) (hpre5 := fun c => by rw [V11_eq]; exact .rfl) (hpost5 := fun c => by rw [V12_eq]; exact .rfl)
    (R6 := reg6 m) (hpre6 := fun c => by rw [V13_eq]; exact .rfl) (hpost6 := fun c => by rw [V14_eq]; exact .rfl)
    (R7 := reg7 m hb7) (hpre7 := fun c => by rw [V15_eq]; exact .rfl) (hpost7 := fun c => by rw [V16_eq]; exact .rfl)
    (R8 := reg8 m) (hpre8 := fun c => by rw [V17_eq]; exact .rfl) (hpost8 := fun c => by rw [V18_eq]; exact .rfl)
    (R9 := reg9 m) (hpre9 := fun c => by rw [V19_eq]; exact .rfl) (hpost9 := fun c => by rw [V20_eq]; exact .rfl)
    (R10 := reg10 m hb10) (hpre10 := fun c => by rw [V21_eq]; exact .rfl) (hpost10 := fun c => by rw [V22_eq]; exact .rfl)
    (R11 := reg11 m) (hpre11 := fun c => by rw [V23_eq]; exact .rfl) (hpost11 := fun c => by rw [V24_eq]; exact .rfl)

set_option backward.isDefEq.respectTransparency.types false in
theorem run_of_bodies (ρ : Dev nD → PrngReg)
    (hb1 : ∀ c : Dev nD, BodyObligation (dat1 (F := F) (atTc (U3 m)) c) (defs₀ (F := F)) Variants.none () Set.univ)
    (hb4 : ∀ c : Dev nD, BodyObligation (dat4 (F := F) (atTc (U9 m)) c) (defs₀ (F := F)) Variants.none () Set.univ)
    (hb7 : ∀ c : Dev nD, BodyObligation (dat7 (F := F) (atTc (U15 m)) c) (defs₀ (F := F)) Variants.none () Set.univ)
    (hb10 : ∀ c : Dev nD, BodyObligation (dat10 (F := F) (atTc (U21 m)) c) (defs₀ (F := F)) Variants.none () Set.univ) :
    θ_run defs (onTc (τ := τ) (main (F := F))) ⟨m, fun _ => 0, ρ⟩ (fun r => ∀ c : Dev nD,
      ∀ b ∈ Pipeline.ucRefs τ sig, r.2.mem (((c : Thread nD τ)).1, b) = U24 m c b) :=
  (θ_run defs _ _).mono (fun r h c b hb => (h c b hb).trans (congrFun (V24_eq m c) b))
    (run_cond (m := m) (EP := emb₁) (ι := ()) (𝒱₀ := Variants.none) (L := noLv) (lv := lvZero) (hL := fun _ _ => rfl) (ρ := ρ) (outs := outs m)
    (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rest c)
    (hE0 := launchRest ρ)
    (hE12 := fun c => by
      iintro ⟨-, HO⟩
      iexact HO)
    (R0 := reg0 m) (hpre0 := fun c => by rw [V1_eq]; exact .rfl) (hpost0 := fun c => by rw [V2_eq]; exact .rfl)
    (R1 := reg1 m hb1) (hpre1 := fun c => by rw [V3_eq]; exact .rfl) (hpost1 := fun c => by rw [V4_eq]; exact .rfl)
    (R2 := reg2 m) (hpre2 := fun c => by rw [V5_eq]; exact .rfl) (hpost2 := fun c => by rw [V6_eq]; exact .rfl)
    (R3 := reg3 m) (hpre3 := fun c => by rw [V7_eq]; exact .rfl) (hpost3 := fun c => by rw [V8_eq]; exact .rfl)
    (R4 := reg4 m hb4) (hpre4 := fun c => by rw [V9_eq]; exact .rfl) (hpost4 := fun c => by rw [V10_eq]; exact .rfl)
    (R5 := reg5 m) (hpre5 := fun c => by rw [V11_eq]; exact .rfl) (hpost5 := fun c => by rw [V12_eq]; exact .rfl)
    (R6 := reg6 m) (hpre6 := fun c => by rw [V13_eq]; exact .rfl) (hpost6 := fun c => by rw [V14_eq]; exact .rfl)
    (R7 := reg7 m hb7) (hpre7 := fun c => by rw [V15_eq]; exact .rfl) (hpost7 := fun c => by rw [V16_eq]; exact .rfl)
    (R8 := reg8 m) (hpre8 := fun c => by rw [V17_eq]; exact .rfl) (hpost8 := fun c => by rw [V18_eq]; exact .rfl)
    (R9 := reg9 m) (hpre9 := fun c => by rw [V19_eq]; exact .rfl) (hpost9 := fun c => by rw [V20_eq]; exact .rfl)
    (R10 := reg10 m hb10) (hpre10 := fun c => by rw [V21_eq]; exact .rfl) (hpost10 := fun c => by rw [V22_eq]; exact .rfl)
    (R11 := reg11 m) (hpre11 := fun c => by rw [V23_eq]; exact .rfl) (hpost11 := fun c => by rw [V24_eq]; exact .rfl))

end Cert.KernelIdeal.Gen

end
-- ==== Proof.Comb1.lean ====
import proofs.«165059_j7095285973648_2_alg».proof.Proof.Gen.KernelIdeal.Launch
import proofs.«165059_j7095285973648_2_alg».proof.Proof.Gen.KernelIdeal.Skeleton
import proofs.«165059_j7095285973648_2_alg».proof.Proof.Gen.KernelIdeal.Points
import proofs.«165059_j7095285973648_2_alg».proof.Proof.CombDat1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the body's triples and the body obligation

The body reads its three input blocks whole, stores `y` over its whole block, and then takes exactly one of two
branches: at the first grid point it stores the block's column sums of `y` and of `y * y` over the two
accumulator blocks; at every later point it reads each accumulator, adds the block's column sums, and stores
the result over it. The two conditions are decided over the grid in closed form, one triple is proved per case,
and at a later point the accumulators' buffers hold what the point before left, since they are written back only
after the last point. -/

/-- An input window's buffer holds the window's block at every point, whether the point fetched it or the
    block index had not moved since the point that did. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's buffer holds the window's block at every point, whether the point fetched it or the
    block index had not moved since the point that did. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's buffer holds the window's block at every point, whether the point fetched it or the
    block index had not moved since the point that did. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The one store of `y` covers its block. -/
theorem cover1_y (p0 : Vec F S2000x128 .f32) (y : S2000x128.Idx) :
    ∃ pc ∈ ([⟨r1_y, p0⟩] : List (View.Piece (Elt F) S2000x128 .f32)), y ∈ pc.1.set :=
  View.cover_of_tiled [⟨r1_y, p0⟩] S2000x128.size (by rfl) y

/-- The one store of a column statistic covers its block. -/
theorem cover1_s (p0 : Vec F S1x128 .f32) (y : S1x128.Idx) :
    ∃ pc ∈ ([⟨r1_s, p0⟩] : List (View.Piece (Elt F) S1x128 .f32)), y ∈ pc.1.set :=
  View.cover_of_tiled [⟨r1_s, p0⟩] S1x128.size (by rfl) y

/-! ## The branch conditions over the grid -/

/-- The first branch (store the block's own sums) is taken at the first grid point only. -/
theorem hcond1_1 : ∀ t : Fin cfg1.N, k1_cond1 (grid1.coords t) = 1#1 ↔ t.val = 0 :=
  (by decide +kernel : ∀ t : Fin grid1.N, k1_cond1 (grid1.coords t) = 1#1 ↔ t.val = 0)
/-- The second branch (add to the running sums) is taken at every other point. -/
theorem hcond1_2 : ∀ t : Fin cfg1.N, k1_cond2 (grid1.coords t) = 1#1 ↔ t.val ≠ 0 :=
  (by decide +kernel : ∀ t : Fin grid1.N, k1_cond2 (grid1.coords t) = 1#1 ↔ t.val ≠ 0)

/-- One of the two branches stores into each accumulator at every grid point: no point is idle for them. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false :=
  (by decide +kernel : ∀ t : Fin grid1.N, cfg1.idle 4 (grid1.coords t) = false)
theorem liveAt1_5 : ∀ t : Fin cfg1.N, cfg1.idle 5 (grid1.coords t) = false :=
  (by decide +kernel : ∀ t : Fin grid1.N, cfg1.idle 5 (grid1.coords t) = false)

/-! ## The body's triples, one per case -/

set_option maxHeartbeats 2000000 in
/-- The body at the FIRST grid point, on whole buffers: the inputs' at contents `x_w`, the three outputs' at
    anything; it ends with the inputs' unchanged, `y`'s at `out1_3` and the accumulators' at the block's own
    column sums. -/
theorem sound_kernel1_first (c : Dev nD) (E : Set ℕ) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole)
    (hc1 : k1_cond1 i = 1#1) (hc2 : ¬k1_cond2 i = 1#1)
    (x0 : Vec F S2000x128 .f32) (x1 : Vec F S2000x128 .f32) (x2 : Vec F S2000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2) ∗ owns (c : Thread nD τ) arg5 fullShare (out1_4_first x0 x1 x2) ∗ owns (c : Thread nD τ) arg6 fullShare (out1_5_first x0 x1 x2)) -∗ K ⟨⟩))
      ⊢ wp frame (wpE (defs₀ (F := F)) Variants.none c none) E (cc1__combine_relu_stats_kernel i arg1 harg1 arg2 harg2 arg3 harg3 arg4 harg4 arg5 harg5 arg6 harg6) K := by
  simp only [cc1__combine_relu_stats_kernel_eq_skeleton]; unfold cc1__combine_relu_stats_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_y _)
  isplitl [H4]
  · iexists _; isplitr
    swap; · iexact H4
    ipureintro
    exact View.read_writes_eq_canon _ _ _ (cover1_s _)
  iexists _; isplitr
  swap; · iexact H5
  ipureintro
  exact View.read_writes_eq_canon _ _ _ (cover1_s _)

set_option maxHeartbeats 2000000 in
/-- The body at a LATER grid point, on whole buffers: the inputs' at contents `x_w`, `y`'s at anything, the
    accumulators' at contents `a4`, `a5`; it ends with the inputs' unchanged, `y`'s at `out1_3` and the
    accumulators' at `a4`, `a5` plus the block's column sums. -/
theorem sound_kernel1_next (c : Dev nD) (E : Set ℕ) (i : grid1.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole)
    (hc1 : ¬k1_cond1 i = 1#1) (hc2 : k1_cond2 i = 1#1)
    (x0 : Vec F S2000x128 .f32) (x1 : Vec F S2000x128 .f32) (x2 : Vec F S2000x1 .f32) (a4 : Vec F S1x128 .f32) (a5 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare a4 ∗ owns (c : Thread nD τ) arg6 fullShare a5
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2) ∗ owns (c : Thread nD τ) arg5 fullShare (out1_4_next x0 x1 x2 a4) ∗ owns (c : Thread nD τ) arg6 fullShare (out1_5_next x0 x1 x2 a5)) -∗ K ⟨⟩))
      ⊢ wp frame (wpE (defs₀ (F := F)) Variants.none c none) E (cc1__combine_relu_stats_kernel i arg1 harg1 arg2 harg2 arg3 harg3 arg4 harg4 arg5 harg5 arg6 harg6) K := by
  simp only [cc1__combine_relu_stats_kernel_eq_skeleton]; unfold cc1__combine_relu_stats_kernel_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  subst hf0 hf1 hf2 hf4 hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_y _)
  isplitl [H4]
  · iexists _; isplitr
    swap; · iexact H4
    ipureintro
    exact View.read_writes_eq_canon _ _ _ (cover1_s _)
  iexists _; isplitr
  swap; · iexact H5
  ipureintro
  exact View.read_writes_eq_canon _ _ _ (cover1_s _)

/-! ## What the body finds in each buffer -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- No setting of the grid coordinate is idle for the accumulators: one of the two branches runs. -/
theorem live1_4 : ∀ i : grid1.Coords, cfg1.idle 4 i = false := by
  intro i
  have h : ∀ n : Fin 25, (!(Scalar.cmpi .ne (Scalar.extui (Scalar.cmpi .eq (BitVec.ofNat 32 n.val) 0#32)) 0#32 == 1#1)
      && !(Scalar.cmpi .ne (Scalar.extui (Scalar.cmpi .ne (BitVec.ofNat 32 n.val) 0#32)) 0#32 == 1#1)) = false := by decide
  exact h (i 0)
theorem live1_5 : ∀ i : grid1.Coords, cfg1.idle 5 i = false := live1_4

/-- At a later grid point the buffer of the column sums of `y` holds what the point before left: the window is an
    output, not written back between the two points, live and uncut. -/
theorem before1_4_next (c : Dev nD) (t : Fin cfg1.N) (h0 : t.val ≠ 0) (d) :
    (dat1 V c).before 4 t d = acc1_4 V c (t.val - 1) (Nat.lt_of_le_of_lt (Nat.sub_le _ _) t.isLt) := by
  have hN : t.val < 25 := lt_of_lt_of_eq t.isLt (show cfg1.N = 25 from N_1)
  rw [Dat.before_out_kept _ 4 rfl t h0 (Bool.eq_false_iff.mpr fun h => by have := (flush1_4 _).mp h; dsimp only at this; omega)
    live1_4 (fun _ _ => rfl)]
  dsimp only [dat1]

/-- The same for the column sums of `y * y`. -/
theorem before1_5_next (c : Dev nD) (t : Fin cfg1.N) (h0 : t.val ≠ 0) (d) :
    (dat1 V c).before 5 t d = acc1_5 V c (t.val - 1) (Nat.lt_of_le_of_lt (Nat.sub_le _ _) t.isLt) := by
  have hN : t.val < 25 := lt_of_lt_of_eq t.isLt (show cfg1.N = 25 from N_1)
  rw [Dat.before_out_kept _ 5 rfl t h0 (Bool.eq_false_iff.mpr fun h => by have := (flush1_5 _).mp h; dsimp only at this; omega)
    live1_5 (fun _ _ => rfl)]
  dsimp only [dat1]

/-- The running sums at a later point, from those at the point before. -/
theorem acc1_4_pos (c : Dev nD) (t : Fin cfg1.N) (h0 : t.val ≠ 0) :
    acc1_4 V c t.val t.isLt = out1_4_next (iblk1 V c 0 t) (iblk1 V c 1 t) (iblk1 V c 2 t)
      (acc1_4 V c (t.val - 1) (Nat.lt_of_le_of_lt (Nat.sub_le _ _) t.isLt)) := by
  obtain ⟨n, hn⟩ := t
  cases n with
  | zero => exact absurd rfl h0
  | succ n => rfl
theorem acc1_5_pos (c : Dev nD) (t : Fin cfg1.N) (h0 : t.val ≠ 0) :
    acc1_5 V c t.val t.isLt = out1_5_next (iblk1 V c 0 t) (iblk1 V c 1 t) (iblk1 V c 2 t)
      (acc1_5 V c (t.val - 1) (Nat.lt_of_le_of_lt (Nat.sub_le _ _) t.isLt)) := by
  obtain ⟨n, hn⟩ := t
  cases n with
  | zero => exact absurd rfl h0
  | succ n => rfl
/-- The running sums at the first point. -/
theorem acc1_4_first (c : Dev nD) (t : Fin cfg1.N) (h0 : t.val = 0) :
    acc1_4 V c t.val t.isLt = out1_4_first (iblk1 V c 0 t) (iblk1 V c 1 t) (iblk1 V c 2 t) := by
  obtain ⟨n, hn⟩ := t
  cases n with
  | zero => rfl
  | succ n => exact absurd h0 (Nat.succ_ne_zero n)
theorem acc1_5_first (c : Dev nD) (t : Fin cfg1.N) (h0 : t.val = 0) :
    acc1_5 V c t.val t.isLt = out1_5_first (iblk1 V c 0 t) (iblk1 V c 1 t) (iblk1 V c 2 t) := by
  obtain ⟨n, hn⟩ := t
  cases n with
  | zero => rfl
  | succ n => exact absurd h0 (Nat.succ_ne_zero n)

/-! ## The body obligation -/

/-- What the body is entered with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

/-- At every point each window's buffer is left at the proof data's stated contents: no point is idle. -/
theorem leaves1_0 (c : Dev nD) (t : Fin cfg1.N) : (dat1 V c).leavesExact 0 t = owns (c : Thread nD τ) (st1_0 t) fullShare (iblk1 V c 0 t) := by
  unfold Dat.leavesExact; rw [liveAt1_0 t, after1_0]
theorem leaves1_1 (c : Dev nD) (t : Fin cfg1.N) : (dat1 V c).leavesExact 1 t = owns (c : Thread nD τ) (st1_1 t) fullShare (iblk1 V c 1 t) := by
  unfold Dat.leavesExact; rw [liveAt1_1 t, after1_1]
theorem leaves1_2 (c : Dev nD) (t : Fin cfg1.N) : (dat1 V c).leavesExact 2 t = owns (c : Thread nD τ) (st1_2 t) fullShare (iblk1 V c 2 t) := by
  unfold Dat.leavesExact; rw [liveAt1_2 t, after1_2]
theorem leaves1_3 (c : Dev nD) (t : Fin cfg1.N) : (dat1 V c).leavesExact 3 t = owns (c : Thread nD τ) (st1_3 t) fullShare (out1_3 (iblk1 V c 0 t) (iblk1 V c 1 t) (iblk1 V c 2 t)) := by
  unfold Dat.leavesExact; rw [liveAt1_3 t, after1_3]
theorem leaves1_4 (c : Dev nD) (t : Fin cfg1.N) : (dat1 V c).leavesExact 4 t = owns (c : Thread nD τ) (st1_4 t) fullShare (acc1_4 V c t.val t.isLt) := by
  unfold Dat.leavesExact; rw [liveAt1_4 t, after1_4]
theorem leaves1_5 (c : Dev nD) (t : Fin cfg1.N) : (dat1 V c).leavesExact 5 t = owns (c : Thread nD τ) (st1_5 t) fullShare (acc1_5 V c t.val t.isLt) := by
  unfold Dat.leavesExact; rw [liveAt1_5 t, after1_5]

set_option maxHeartbeats 1000000 in
/-- The body at any point: the input buffers hold their blocks; the closed forms say which branch the point takes;
    at a later point the accumulators' buffers hold what the point before left; so that case's triple applies. The
    invariant and what the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    leaves1_0, leaves1_1, leaves1_2, leaves1_3, leaves1_4, leaves1_5]
  by_cases h0 : t.val = 0
  · rw [acc1_4_first V c t h0, acc1_5_first V c t h0]
    iintro ⟨HΦ, Ho, ⟨%d0, H0⟩, ⟨%d1, H1⟩, ⟨%d2, H2⟩, ⟨%d3, H3⟩, ⟨%d4, H4⟩, ⟨%d5, H5⟩⟩
    iapply (sound_kernel1_first c Set.univ (grid1.coords t) _ _ _ _ _ _ _ _ _ _ _ _ ((hcond1_1 t).mpr h0) (fun h => (hcond1_2 t).mp h h0)
      (iblk1 V c 0 t) (iblk1 V c 1 t) (iblk1 V c 2 t) _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc1_4_pos V c t h0, acc1_5_pos V c t h0]
    simp only [before1_4_next V c t h0, before1_5_next V c t h0]
    iintro ⟨HΦ, Ho, ⟨%d0, H0⟩, ⟨%d1, H1⟩, ⟨%d2, H2⟩, ⟨%d3, H3⟩, ⟨%d4, H4⟩, ⟨%d5, H5⟩⟩
    iapply (sound_kernel1_next c Set.univ (grid1.coords t) _ _ _ _ _ _ _ _ _ _ _ _ (fun h => h0 ((hcond1_1 t).mp h)) ((hcond1_2 t).mpr h0)
      (iblk1 V c 0 t) (iblk1 V c 1 t) (iblk1 V c 2 t) _ _ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The body obligation of the region, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Gen

end
-- ==== Proof.Comb4.lean ====
import proofs.«165059_j7095285973648_2_alg».proof.Proof.Gen.KernelIdeal.Launch
import proofs.«165059_j7095285973648_2_alg».proof.Proof.Gen.KernelIdeal.Skeleton
import proofs.«165059_j7095285973648_2_alg».proof.Proof.Gen.KernelIdeal.Points
import proofs.«165059_j7095285973648_2_alg».proof.Proof.CombDat4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4: the body's triples and the body obligation

The body reads its three input blocks whole, stores `y` over its whole block, and then takes exactly one of two
branches: at the first grid point it stores the block's column sums of `y` and of `y * y` over the two
accumulator blocks; at every later point it reads each accumulator, adds the block's column sums, and stores
the result over it. The two conditions are decided over the grid in closed form, one triple is proved per case,
and at a later point the accumulators' buffers hold what the point before left, since they are written back only
after the last point. -/

/-- An input window's buffer holds the window's block at every point, whether the point fetched it or the
    block index had not moved since the point that did. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- An input window's buffer holds the window's block at every point, whether the point fetched it or the
    block index had not moved since the point that did. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- An input window's buffer holds the window's block at every point, whether the point fetched it or the
    block index had not moved since the point that did. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The one store of `y` covers its block. -/
theorem cover4_y (p0 : Vec F S2000x64 .f32) (y : S2000x64.Idx) :
    ∃ pc ∈ ([⟨r4_y, p0⟩] : List (View.Piece (Elt F) S2000x64 .f32)), y ∈ pc.1.set :=
  View.cover_of_tiled [⟨r4_y, p0⟩] S2000x64.size (by rfl) y

/-- The one store of a column statistic covers its block. -/
theorem cover4_s (p0 : Vec F S1x64 .f32) (y : S1x64.Idx) :
    ∃ pc ∈ ([⟨r4_s, p0⟩] : List (View.Piece (Elt F) S1x64 .f32)), y ∈ pc.1.set :=
  View.cover_of_tiled [⟨r4_s, p0⟩] S1x64.size (by rfl) y

/-! ## The branch conditions over the grid -/

/-- The first branch (store the block's own sums) is taken at the first grid point only. -/
theorem hcond4_1 : ∀ t : Fin cfg4.N, k4_cond1 (grid4.coords t) = 1#1 ↔ t.val = 0 :=
  (by decide +kernel : ∀ t : Fin grid4.N, k4_cond1 (grid4.coords t) = 1#1 ↔ t.val = 0)
/-- The second branch (add to the running sums) is taken at every other point. -/
theorem hcond4_2 : ∀ t : Fin cfg4.N, k4_cond2 (grid4.coords t) = 1#1 ↔ t.val ≠ 0 :=
  (by decide +kernel : ∀ t : Fin grid4.N, k4_cond2 (grid4.coords t) = 1#1 ↔ t.val ≠ 0)

/-- One of the two branches stores into each accumulator at every grid point: no point is idle for them. -/
theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl
theorem liveAt4_3 : ∀ t : Fin cfg4.N, cfg4.idle 3 (grid4.coords t) = false := fun _ => rfl
theorem liveAt4_4 : ∀ t : Fin cfg4.N, cfg4.idle 4 (grid4.coords t) = false :=
  (by decide +kernel : ∀ t : Fin grid4.N, cfg4.idle 4 (grid4.coords t) = false)
theorem liveAt4_5 : ∀ t : Fin cfg4.N, cfg4.idle 5 (grid4.coords t) = false :=
  (by decide +kernel : ∀ t : Fin grid4.N, cfg4.idle 5 (grid4.coords t) = false)

/-! ## The body's triples, one per case -/

set_option maxHeartbeats 2000000 in
/-- The body at the FIRST grid point, on whole buffers: the inputs' at contents `x_w`, the three outputs' at
    anything; it ends with the inputs' unchanged, `y`'s at `out4_3` and the accumulators' at the block's own
    column sums. -/
theorem sound_kernel4_first (c : Dev nD) (E : Set ℕ) (i : grid4.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole)
    (hc1 : k4_cond1 i = 1#1) (hc2 : ¬k4_cond2 i = 1#1)
    (x0 : Vec F S2000x64 .f32) (x1 : Vec F S2000x64 .f32) (x2 : Vec F S2000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2) ∗ owns (c : Thread nD τ) arg5 fullShare (out4_4_first x0 x1 x2) ∗ owns (c : Thread nD τ) arg6 fullShare (out4_5_first x0 x1 x2)) -∗ K ⟨⟩))
      ⊢ wp frame (wpE (defs₀ (F := F)) Variants.none c none) E (cc4__combine_relu_stats_kernel i arg1 harg1 arg2 harg2 arg3 harg3 arg4 harg4 arg5 harg5 arg6 harg6) K := by
  simp only [cc4__combine_relu_stats_kernel_eq_skeleton]; unfold cc4__combine_relu_stats_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover4_y _)
  isplitl [H4]
  · iexists _; isplitr
    swap; · iexact H4
    ipureintro
    exact View.read_writes_eq_canon _ _ _ (cover4_s _)
  iexists _; isplitr
  swap; · iexact H5
  ipureintro
  exact View.read_writes_eq_canon _ _ _ (cover4_s _)

set_option maxHeartbeats 2000000 in
/-- The body at a LATER grid point, on whole buffers: the inputs' at contents `x_w`, `y`'s at anything, the
    accumulators' at contents `a4`, `a5`; it ends with the inputs' unchanged, `y`'s at `out4_3` and the
    accumulators' at `a4`, `a5` plus the block's column sums. -/
theorem sound_kernel4_next (c : Dev nD) (E : Set ℕ) (i : grid4.Coords) (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S2000x64 .f32) (harg4 : arg4.IsWhole) (arg5 : Memref sig .tc .vmem S1x64 .f32) (harg5 : arg5.IsWhole) (arg6 : Memref sig .tc .vmem S1x64 .f32) (harg6 : arg6.IsWhole)
    (hc1 : ¬k4_cond1 i = 1#1) (hc2 : k4_cond2 i = 1#1)
    (x0 : Vec F S2000x64 .f32) (x1 : Vec F S2000x64 .f32) (x2 : Vec F S2000x1 .f32) (a4 : Vec F S1x64 .f32) (a5 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare a4 ∗ owns (c : Thread nD τ) arg6 fullShare a5
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2) ∗ owns (c : Thread nD τ) arg5 fullShare (out4_4_next x0 x1 x2 a4) ∗ owns (c : Thread nD τ) arg6 fullShare (out4_5_next x0 x1 x2 a5)) -∗ K ⟨⟩))
      ⊢ wp frame (wpE (defs₀ (F := F)) Variants.none c none) E (cc4__combine_relu_stats_kernel i arg1 harg1 arg2 harg2 arg3 harg3 arg4 harg4 arg5 harg5 arg6 harg6) K := by
  simp only [cc4__combine_relu_stats_kernel_eq_skeleton]; unfold cc4__combine_relu_stats_kernel_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  subst hf0 hf1 hf2 hf4 hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover4_y _)
  isplitl [H4]
  · iexists _; isplitr
    swap; · iexact H4
    ipureintro
    exact View.read_writes_eq_canon _ _ _ (cover4_s _)
  iexists _; isplitr
  swap; · iexact H5
  ipureintro
  exact View.read_writes_eq_canon _ _ _ (cover4_s _)

/-! ## What the body finds in each buffer -/

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- No setting of the grid coordinate is idle for the accumulators: one of the two branches runs. -/
theorem live4_4 : ∀ i : grid4.Coords, cfg4.idle 4 i = false := by
  intro i
  have h : ∀ n : Fin 25, (!(Scalar.cmpi .ne (Scalar.extui (Scalar.cmpi .eq (BitVec.ofNat 32 n.val) 0#32)) 0#32 == 1#1)
      && !(Scalar.cmpi .ne (Scalar.extui (Scalar.cmpi .ne (BitVec.ofNat 32 n.val) 0#32)) 0#32 == 1#1)) = false := by decide
  exact h (i 0)
theorem live4_5 : ∀ i : grid4.Coords, cfg4.idle 5 i = false := live4_4

/-- At a later grid point the buffer of the column sums of `y` holds what the point before left: the window is an
    output, not written back between the two points, live and uncut. -/
theorem before4_4_next (c : Dev nD) (t : Fin cfg4.N) (h0 : t.val ≠ 0) (d) :
    (dat4 V c).before 4 t d = acc4_4 V c (t.val - 1) (Nat.lt_of_le_of_lt (Nat.sub_le _ _) t.isLt) := by
  have hN : t.val < 25 := lt_of_lt_of_eq t.isLt (show cfg4.N = 25 from N_4)
  rw [Dat.before_out_kept _ 4 rfl t h0 (Bool.eq_false_iff.mpr fun h => by have := (flush4_4 _).mp h; dsimp only at this; omega)
    live4_4 (fun _ _ => rfl)]
  dsimp only [dat4]

/-- The same for the column sums of `y * y`. -/
theorem before4_5_next (c : Dev nD) (t : Fin cfg4.N) (h0 : t.val ≠ 0) (d) :
    (dat4 V c).before 5 t d = acc4_5 V c (t.val - 1) (Nat.lt_of_le_of_lt (Nat.sub_le _ _) t.isLt) := by
  have hN : t.val < 25 := lt_of_lt_of_eq t.isLt (show cfg4.N = 25 from N_4)
  rw [Dat.before_out_kept _ 5 rfl t h0 (Bool.eq_false_iff.mpr fun h => by have := (flush4_5 _).mp h; dsimp only at this; omega)
    live4_5 (fun _ _ => rfl)]
  dsimp only [dat4]

/-- The running sums at a later point, from those at the point before. -/
theorem acc4_4_pos (c : Dev nD) (t : Fin cfg4.N) (h0 : t.val ≠ 0) :
    acc4_4 V c t.val t.isLt = out4_4_next (iblk4 V c 0 t) (iblk4 V c 1 t) (iblk4 V c 2 t)
      (acc4_4 V c (t.val - 1) (Nat.lt_of_le_of_lt (Nat.sub_le _ _) t.isLt)) := by
  obtain ⟨n, hn⟩ := t
  cases n with
  | zero => exact absurd rfl h0
  | succ n => rfl
theorem acc4_5_pos (c : Dev nD) (t : Fin cfg4.N) (h0 : t.val ≠ 0) :
    acc4_5 V c t.val t.isLt = out4_5_next (iblk4 V c 0 t) (iblk4 V c 1 t) (iblk4 V c 2 t)
      (acc4_5 V c (t.val - 1) (Nat.lt_of_le_of_lt (Nat.sub_le _ _) t.isLt)) := by
  obtain ⟨n, hn⟩ := t
  cases n with
  | zero => exact absurd rfl h0
  | succ n => rfl
/-- The running sums at the first point. -/
theorem acc4_4_first (c : Dev nD) (t : Fin cfg4.N) (h0 : t.val = 0) :
    acc4_4 V c t.val t.isLt = out4_4_first (iblk4 V c 0 t) (iblk4 V c 1 t) (iblk4 V c 2 t) := by
  obtain ⟨n, hn⟩ := t
  cases n with
  | zero => rfl
  | succ n => exact absurd h0 (Nat.succ_ne_zero n)
theorem acc4_5_first (c : Dev nD) (t : Fin cfg4.N) (h0 : t.val = 0) :
    acc4_5 V c t.val t.isLt = out4_5_first (iblk4 V c 0 t) (iblk4 V c 1 t) (iblk4 V c 2 t) := by
  obtain ⟨n, hn⟩ := t
  cases n with
  | zero => rfl
  | succ n => exact absurd h0 (Nat.succ_ne_zero n)

/-! ## The body obligation -/

/-- What the body is entered with at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t)

/-- At every point each window's buffer is left at the proof data's stated contents: no point is idle. -/
theorem leaves4_0 (c : Dev nD) (t : Fin cfg4.N) : (dat4 V c).leavesExact 0 t = owns (c : Thread nD τ) (st4_0 t) fullShare (iblk4 V c 0 t) := by
  unfold Dat.leavesExact; rw [liveAt4_0 t, after4_0]
theorem leaves4_1 (c : Dev nD) (t : Fin cfg4.N) : (dat4 V c).leavesExact 1 t = owns (c : Thread nD τ) (st4_1 t) fullShare (iblk4 V c 1 t) := by
  unfold Dat.leavesExact; rw [liveAt4_1 t, after4_1]
theorem leaves4_2 (c : Dev nD) (t : Fin cfg4.N) : (dat4 V c).leavesExact 2 t = owns (c : Thread nD τ) (st4_2 t) fullShare (iblk4 V c 2 t) := by
  unfold Dat.leavesExact; rw [liveAt4_2 t, after4_2]
theorem leaves4_3 (c : Dev nD) (t : Fin cfg4.N) : (dat4 V c).leavesExact 3 t = owns (c : Thread nD τ) (st4_3 t) fullShare (out4_3 (iblk4 V c 0 t) (iblk4 V c 1 t) (iblk4 V c 2 t)) := by
  unfold Dat.leavesExact; rw [liveAt4_3 t, after4_3]
theorem leaves4_4 (c : Dev nD) (t : Fin cfg4.N) : (dat4 V c).leavesExact 4 t = owns (c : Thread nD τ) (st4_4 t) fullShare (acc4_4 V c t.val t.isLt) := by
  unfold Dat.leavesExact; rw [liveAt4_4 t, after4_4]
theorem leaves4_5 (c : Dev nD) (t : Fin cfg4.N) : (dat4 V c).leavesExact 5 t = owns (c : Thread nD τ) (st4_5 t) fullShare (acc4_5 V c t.val t.isLt) := by
  unfold Dat.leavesExact; rw [liveAt4_5 t, after4_5]

set_option maxHeartbeats 1000000 in
/-- The body at any point: the input buffers hold their blocks; the closed forms say which branch the point takes;
    at a later point the accumulators' buffers hold what the point before left; so that case's triple applies. The
    invariant and what the core owes pass through untouched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    leaves4_0, leaves4_1, leaves4_2, leaves4_3, leaves4_4, leaves4_5]
  by_cases h0 : t.val = 0
  · rw [acc4_4_first V c t h0, acc4_5_first V c t h0]
    iintro ⟨HΦ, Ho, ⟨%d0, H0⟩, ⟨%d1, H1⟩, ⟨%d2, H2⟩, ⟨%d3, H3⟩, ⟨%d4, H4⟩, ⟨%d5, H5⟩⟩
    iapply (sound_kernel4_first c Set.univ (grid4.coords t) _ _ _ _ _ _ _ _ _ _ _ _ ((hcond4_1 t).mpr h0) (fun h => (hcond4_2 t).mp h h0)
      (iblk4 V c 0 t) (iblk4 V c 1 t) (iblk4 V c 2 t) _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc4_4_pos V c t h0, acc4_5_pos V c t h0]
    simp only [before4_4_next V c t h0, before4_5_next V c t h0]
    iintro ⟨HΦ, Ho, ⟨%d0, H0⟩, ⟨%d1, H1⟩, ⟨%d2, H2⟩, ⟨%d3, H3⟩, ⟨%d4, H4⟩, ⟨%d5, H5⟩⟩
    iapply (sound_kernel4_next c Set.univ (grid4.coords t) _ _ _ _ _ _ _ _ _ _ _ _ (fun h => h0 ((hcond4_1 t).mp h)) ((hcond4_2 t).mpr h0)
      (iblk4 V c 0 t) (iblk4 V c 1 t) (iblk4 V c 2 t) _ _ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The body obligation of the region, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Gen

end
-- ==== Proof.Comb7.lean ====
import proofs.«165059_j7095285973648_2_alg».proof.Proof.Gen.KernelIdeal.Launch
import proofs.«165059_j7095285973648_2_alg».proof.Proof.Gen.KernelIdeal.Skeleton
import proofs.«165059_j7095285973648_2_alg».proof.Proof.Gen.KernelIdeal.Points
import proofs.«165059_j7095285973648_2_alg».proof.Proof.CombDat7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 7: the body's triples and the body obligation

The body reads its three input blocks whole, stores `y` over its whole block, and then takes exactly one of two
branches: at the first grid point it stores the block's column sums of `y` and of `y * y` over the two
accumulator blocks; at every later point it reads each accumulator, adds the block's column sums, and stores
the result over it. The two conditions are decided over the grid in closed form, one triple is proved per case,
and at a later point the accumulators' buffers hold what the point before left, since they are written back only
after the last point. -/

/-- An input window's buffer holds the window's block at every point, whether the point fetched it or the
    block index had not moved since the point that did. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- An input window's buffer holds the window's block at every point, whether the point fetched it or the
    block index had not moved since the point that did. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- An input window's buffer holds the window's block at every point, whether the point fetched it or the
    block index had not moved since the point that did. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- The one store of `y` covers its block. -/
theorem cover7_y (p0 : Vec F S2000x128 .f32) (y : S2000x128.Idx) :
    ∃ pc ∈ ([⟨r7_y, p0⟩] : List (View.Piece (Elt F) S2000x128 .f32)), y ∈ pc.1.set :=
  View.cover_of_tiled [⟨r7_y, p0⟩] S2000x128.size (by rfl) y

/-- The one store of a column statistic covers its block. -/
theorem cover7_s (p0 : Vec F S1x128 .f32) (y : S1x128.Idx) :
    ∃ pc ∈ ([⟨r7_s, p0⟩] : List (View.Piece (Elt F) S1x128 .f32)), y ∈ pc.1.set :=
  View.cover_of_tiled [⟨r7_s, p0⟩] S1x128.size (by rfl) y

/-! ## The branch conditions over the grid -/

/-- The first branch (store the block's own sums) is taken at the first grid point only. -/
theorem hcond7_1 : ∀ t : Fin cfg7.N, k7_cond1 (grid7.coords t) = 1#1 ↔ t.val = 0 :=
  (by decide +kernel : ∀ t : Fin grid7.N, k7_cond1 (grid7.coords t) = 1#1 ↔ t.val = 0)
/-- The second branch (add to the running sums) is taken at every other point. -/
theorem hcond7_2 : ∀ t : Fin cfg7.N, k7_cond2 (grid7.coords t) = 1#1 ↔ t.val ≠ 0 :=
  (by decide +kernel : ∀ t : Fin grid7.N, k7_cond2 (grid7.coords t) = 1#1 ↔ t.val ≠ 0)

/-- One of the two branches stores into each accumulator at every grid point: no point is idle for them. -/
theorem liveAt7_0 : ∀ t : Fin cfg7.N, cfg7.idle 0 (grid7.coords t) = false := fun _ => rfl
theorem liveAt7_1 : ∀ t : Fin cfg7.N, cfg7.idle 1 (grid7.coords t) = false := fun _ => rfl
theorem liveAt7_2 : ∀ t : Fin cfg7.N, cfg7.idle 2 (grid7.coords t) = false := fun _ => rfl
theorem liveAt7_3 : ∀ t : Fin cfg7.N, cfg7.idle 3 (grid7.coords t) = false := fun _ => rfl
theorem liveAt7_4 : ∀ t : Fin cfg7.N, cfg7.idle 4 (grid7.coords t) = false :=
  (by decide +kernel : ∀ t : Fin grid7.N, cfg7.idle 4 (grid7.coords t) = false)
theorem liveAt7_5 : ∀ t : Fin cfg7.N, cfg7.idle 5 (grid7.coords t) = false :=
  (by decide +kernel : ∀ t : Fin grid7.N, cfg7.idle 5 (grid7.coords t) = false)

/-! ## The body's triples, one per case -/

set_option maxHeartbeats 2000000 in
/-- The body at the FIRST grid point, on whole buffers: the inputs' at contents `x_w`, the three outputs' at
    anything; it ends with the inputs' unchanged, `y`'s at `out7_3` and the accumulators' at the block's own
    column sums. -/
theorem sound_kernel7_first (c : Dev nD) (E : Set ℕ) (i : grid7.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole)
    (hc1 : k7_cond1 i = 1#1) (hc2 : ¬k7_cond2 i = 1#1)
    (x0 : Vec F S2000x128 .f32) (x1 : Vec F S2000x128 .f32) (x2 : Vec F S2000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out7_3 x0 x1 x2) ∗ owns (c : Thread nD τ) arg5 fullShare (out7_4_first x0 x1 x2) ∗ owns (c : Thread nD τ) arg6 fullShare (out7_5_first x0 x1 x2)) -∗ K ⟨⟩))
      ⊢ wp frame (wpE (defs₀ (F := F)) Variants.none c none) E (cc7__combine_relu_stats_kernel i arg1 harg1 arg2 harg2 arg3 harg3 arg4 harg4 arg5 harg5 arg6 harg6) K := by
  simp only [cc7__combine_relu_stats_kernel_eq_skeleton]; unfold cc7__combine_relu_stats_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover7_y _)
  isplitl [H4]
  · iexists _; isplitr
    swap; · iexact H4
    ipureintro
    exact View.read_writes_eq_canon _ _ _ (cover7_s _)
  iexists _; isplitr
  swap; · iexact H5
  ipureintro
  exact View.read_writes_eq_canon _ _ _ (cover7_s _)

set_option maxHeartbeats 2000000 in
/-- The body at a LATER grid point, on whole buffers: the inputs' at contents `x_w`, `y`'s at anything, the
    accumulators' at contents `a4`, `a5`; it ends with the inputs' unchanged, `y`'s at `out7_3` and the
    accumulators' at `a4`, `a5` plus the block's column sums. -/
theorem sound_kernel7_next (c : Dev nD) (E : Set ℕ) (i : grid7.Coords) (arg1 : Memref sig .tc .vmem S2000x128 .f32) (harg1 : arg1.IsWhole) (arg2 : Memref sig .tc .vmem S2000x128 .f32) (harg2 : arg2.IsWhole) (arg3 : Memref sig .tc .vmem S2000x1 .f32) (harg3 : arg3.IsWhole) (arg4 : Memref sig .tc .vmem S2000x128 .f32) (harg4 : arg4.IsWhole) (arg5 : Memref sig .tc .vmem S1x128 .f32) (harg5 : arg5.IsWhole) (arg6 : Memref sig .tc .vmem S1x128 .f32) (harg6 : arg6.IsWhole)
    (hc1 : ¬k7_cond1 i = 1#1) (hc2 : k7_cond2 i = 1#1)
    (x0 : Vec F S2000x128 .f32) (x1 : Vec F S2000x128 .f32) (x2 : Vec F S2000x1 .f32) (a4 : Vec F S1x128 .f32) (a5 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare a4 ∗ owns (c : Thread nD τ) arg6 fullShare a5
        ∗ (iprop(owns (c : Thread nD τ) arg1 fullShare x0 ∗ owns (c : Thread nD τ) arg2 fullShare x1 ∗ owns (c : Thread nD τ) arg3 fullShare x2 ∗ owns (c : Thread nD τ) arg4 fullShare (out7_3 x0 x1 x2) ∗ owns (c : Thread nD τ) arg5 fullShare (out7_4_next x0 x1 x2 a4) ∗ owns (c : Thread nD τ) arg6 fullShare (out7_5_next x0 x1 x2 a5)) -∗ K ⟨⟩))
      ⊢ wp frame (wpE (defs₀ (F := F)) Variants.none c none) E (cc7__combine_relu_stats_kernel i arg1 harg1 arg2 harg2 arg3 harg3 arg4 harg4 arg5 harg5 arg6 harg6) K := by
  simp only [cc7__combine_relu_stats_kernel_eq_skeleton]; unfold cc7__combine_relu_stats_kernel_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  subst hf0 hf1 hf2 hf4 hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover7_y _)
  isplitl [H4]
  · iexists _; isplitr
    swap; · iexact H4
    ipureintro
    exact View.read_writes_eq_canon _ _ _ (cover7_s _)
  iexists _; isplitr
  swap; · iexact H5
  ipureintro
  exact View.read_writes_eq_canon _ _ _ (cover7_s _)

/-! ## What the body finds in each buffer -/

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-- No setting of the grid coordinate is idle for the accumulators: one of the two branches runs. -/
theorem live7_4 : ∀ i : grid7.Coords, cfg7.idle 4 i = false := by
  intro i
  have h : ∀ n : Fin 25, (!(Scalar.cmpi .ne (Scalar.extui (Scalar.cmpi .eq (BitVec.ofNat 32 n.val) 0#32)) 0#32 == 1#1)
      && !(Scalar.cmpi .ne (Scalar.extui (Scalar.cmpi .ne (BitVec.ofNat 32 n.val) 0#32)) 0#32 == 1#1)) = false := by decide
  exact h (i 0)
theorem live7_5 : ∀ i : grid7.Coords, cfg7.idle 5 i = false := live7_4

/-- At a later grid point the buffer of the column sums of `y` holds what the point before left: the window is an
    output, not written back between the two points, live and uncut. -/
theorem before7_4_next (c : Dev nD) (t : Fin cfg7.N) (h0 : t.val ≠ 0) (d) :
    (dat7 V c).before 4 t d = acc7_4 V c (t.val - 1) (Nat.lt_of_le_of_lt (Nat.sub_le _ _) t.isLt) := by
  have hN : t.val < 25 := lt_of_lt_of_eq t.isLt (show cfg7.N = 25 from N_7)
  rw [Dat.before_out_kept _ 4 rfl t h0 (Bool.eq_false_iff.mpr fun h => by have := (flush7_4 _).mp h; dsimp only at this; omega)
    live7_4 (fun _ _ => rfl)]
  dsimp only [dat7]

/-- The same for the column sums of `y * y`. -/
theorem before7_5_next (c : Dev nD) (t : Fin cfg7.N) (h0 : t.val ≠ 0) (d) :
    (dat7 V c).before 5 t d = acc7_5 V c (t.val - 1) (Nat.lt_of_le_of_lt (Nat.sub_le _ _) t.isLt) := by
  have hN : t.val < 25 := lt_of_lt_of_eq t.isLt (show cfg7.N = 25 from N_7)
  rw [Dat.before_out_kept _ 5 rfl t h0 (Bool.eq_false_iff.mpr fun h => by have := (flush7_5 _).mp h; dsimp only at this; omega)
    live7_5 (fun _ _ => rfl)]
  dsimp only [dat7]

/-- The running sums at a later point, from those at the point before. -/
theorem acc7_4_pos (c : Dev nD) (t : Fin cfg7.N) (h0 : t.val ≠ 0) :
    acc7_4 V c t.val t.isLt = out7_4_next (iblk7 V c 0 t) (iblk7 V c 1 t) (iblk7 V c 2 t)
      (acc7_4 V c (t.val - 1) (Nat.lt_of_le_of_lt (Nat.sub_le _ _) t.isLt)) := by
  obtain ⟨n, hn⟩ := t
  cases n with
  | zero => exact absurd rfl h0
  | succ n => rfl
theorem acc7_5_pos (c : Dev nD) (t : Fin cfg7.N) (h0 : t.val ≠ 0) :
    acc7_5 V c t.val t.isLt = out7_5_next (iblk7 V c 0 t) (iblk7 V c 1 t) (iblk7 V c 2 t)
      (acc7_5 V c (t.val - 1) (Nat.lt_of_le_of_lt (Nat.sub_le _ _) t.isLt)) := by
  obtain ⟨n, hn⟩ := t
  cases n with
  | zero => exact absurd rfl h0
  | succ n => rfl
/-- The running sums at the first point. -/
theorem acc7_4_first (c : Dev nD) (t : Fin cfg7.N) (h0 : t.val = 0) :
    acc7_4 V c t.val t.isLt = out7_4_first (iblk7 V c 0 t) (iblk7 V c 1 t) (iblk7 V c 2 t) := by
  obtain ⟨n, hn⟩ := t
  cases n with
  | zero => rfl
  | succ n => exact absurd h0 (Nat.succ_ne_zero n)
theorem acc7_5_first (c : Dev nD) (t : Fin cfg7.N) (h0 : t.val = 0) :
    acc7_5 V c t.val t.isLt = out7_5_first (iblk7 V c 0 t) (iblk7 V c 1 t) (iblk7 V c 2 t) := by
  obtain ⟨n, hn⟩ := t
  cases n with
  | zero => rfl
  | succ n => exact absurd h0 (Nat.succ_ne_zero n)

/-! ## The body obligation -/

/-- What the body is entered with at point `t`, window by window, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t)

/-- At every point each window's buffer is left at the proof data's stated contents: no point is idle. -/
theorem leaves7_0 (c : Dev nD) (t : Fin cfg7.N) : (dat7 V c).leavesExact 0 t = owns (c : Thread nD τ) (st7_0 t) fullShare (iblk7 V c 0 t) := by
  unfold Dat.leavesExact; rw [liveAt7_0 t, after7_0]
theorem leaves7_1 (c : Dev nD) (t : Fin cfg7.N) : (dat7 V c).leavesExact 1 t = owns (c : Thread nD τ) (st7_1 t) fullShare (iblk7 V c 1 t) := by
  unfold Dat.leavesExact; rw [liveAt7_1 t, after7_1]
theorem leaves7_2 (c : Dev nD) (t : Fin cfg7.N) : (dat7 V c).leavesExact 2 t = owns (c : Thread nD τ) (st7_2 t) fullShare (iblk7 V c 2 t) := by
  unfold Dat.leavesExact; rw [liveAt7_2 t, after7_2]
theorem leaves7_3 (c : Dev nD) (t : Fin cfg7.N) : (dat7 V c).leavesExact 3 t = owns (c : Thread nD τ) (st7_3 t) fullShare (out7_3 (iblk7 V c 0 t) (iblk7 V c 1 t) (iblk7 V c 2 t)) := by
  unfold Dat.leavesExact; rw [liveAt7_3 t, after7_3]
theorem leaves7_4 (c : Dev nD) (t : Fin cfg7.N) : (dat7 V c).leavesExact 4 t = owns (c : Thread nD τ) (st7_4 t) fullShare (acc7_4 V c t.val t.isLt) := by
  unfold Dat.leavesExact; rw [liveAt7_4 t, after7_4]
theorem leaves7_5 (c : Dev nD) (t : Fin cfg7.N) : (dat7 V c).leavesExact 5 t = owns (c : Thread nD τ) (st7_5 t) fullShare (acc7_5 V c t.val t.isLt) := by
  unfold Dat.leavesExact; rw [liveAt7_5 t, after7_5]

set_option maxHeartbeats 1000000 in
/-- The body at any point: the input buffers hold their blocks; the closed forms say which branch the point takes;
    at a later point the accumulators' buffers hold what the point before left; so that case's triple applies. The
    invariant and what the core owes pass through untouched. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    leaves7_0, leaves7_1, leaves7_2, leaves7_3, leaves7_4, leaves7_5]
  by_cases h0 : t.val = 0
  · rw [acc7_4_first V c t h0, acc7_5_first V c t h0]
    iintro ⟨HΦ, Ho, ⟨%d0, H0⟩, ⟨%d1, H1⟩, ⟨%d2, H2⟩, ⟨%d3, H3⟩, ⟨%d4, H4⟩, ⟨%d5, H5⟩⟩
    iapply (sound_kernel7_first c Set.univ (grid7.coords t) _ _ _ _ _ _ _ _ _ _ _ _ ((hcond7_1 t).mpr h0) (fun h => (hcond7_2 t).mp h h0)
      (iblk7 V c 0 t) (iblk7 V c 1 t) (iblk7 V c 2 t) _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc7_4_pos V c t h0, acc7_5_pos V c t h0]
    simp only [before7_4_next V c t h0, before7_5_next V c t h0]
    iintro ⟨HΦ, Ho, ⟨%d0, H0⟩, ⟨%d1, H1⟩, ⟨%d2, H2⟩, ⟨%d3, H3⟩, ⟨%d4, H4⟩, ⟨%d5, H5⟩⟩
    iapply (sound_kernel7_next c Set.univ (grid7.coords t) _ _ _ _ _ _ _ _ _ _ _ _ (fun h => h0 ((hcond7_1 t).mp h)) ((hcond7_2 t).mpr h0)
      (iblk7 V c 0 t) (iblk7 V c 1 t) (iblk7 V c 2 t) _ _ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The body obligation of the region, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Gen

end
-- ==== Proof.Comb10.lean ====
import proofs.«165059_j7095285973648_2_alg».proof.Proof.Gen.KernelIdeal.Launch
import proofs.«165059_j7095285973648_2_alg».proof.Proof.Gen.KernelIdeal.Skeleton
import proofs.«165059_j7095285973648_2_alg».proof.Proof.Gen.KernelIdeal.Points
import proofs.«165059_j7095285973648_2_alg».proof.Proof.CombDat10
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 10: the body's triples and the body obligation

The body reads its three input blocks whole, stores `y` over its whole block, and then takes exactly one of two
branches: at the first grid point it stores the block's column sums of `y` and of `y * y` over the two
accumulator blocks; at every later point it reads each accumulator, adds the block's column sums, and stores
the result over it. The two conditions are decided over the grid in closed form, one triple is proved per case,
and at a later point the accumulators' buffers hold what the point before left, since they are written back only
after the last point. -/

/-- An input window's buffer holds the window's block at every point, whether the point fetched it or the
    block index had not moved since the point that did. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- An input window's buffer holds the window's block at every point, whether the point fetched it or the
    block index had not moved since the point that did. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- An input window's buffer holds the window's block at every point, whether the point fetched it or the
    block index had not moved since the point that did. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- The one store of `y` covers its block. -/
theorem cover10_y (p0 : Vec F S2000x256 .f32) (y : S2000x256.Idx) :
    ∃ pc ∈ ([⟨r10_y, p0⟩] : List (View.Piece (Elt F) S2000x256 .f32)), y ∈ pc.1.set :=
  View.cover_of_tiled [⟨r10_y, p0⟩] S2000x256.size (by rfl) y

/-- The one store of a column statistic covers its block. -/
theorem cover10_s (p0 : Vec F S1x256 .f32) (y : S1x256.Idx) :
    ∃ pc ∈ ([⟨r10_s, p0⟩] : List (View.Piece (Elt F) S1x256 .f32)), y ∈ pc.1.set :=
  View.cover_of_tiled [⟨r10_s, p0⟩] S1x256.size (by rfl) y

/-! ## The branch conditions over the grid -/

/-- The first branch (store the block's own sums) is taken at the first grid point only. -/
theorem hcond10_1 : ∀ t : Fin cfg10.N, k10_cond1 (grid10.coords t) = 1#1 ↔ t.val = 0 :=
  (by decide +kernel : ∀ t : Fin grid10.N, k10_cond1 (grid10.coords t) = 1#1 ↔ t.val = 0)
/-- The second branch (add to the running sums) is taken at every other point. -/
theorem hcond10_2 : ∀ t : Fin cfg10.N, k10_cond2 (grid10.coords t) = 1#1 ↔ t.val ≠ 0 :=
  (by decide +kernel : ∀ t : Fin grid10.N, k10_cond2 (grid10.coords t) = 1#1 ↔ t.val ≠ 0)

/-- One of the two branches stores into each accumulator at every grid point: no point is idle for them. -/
theorem liveAt10_0 : ∀ t : Fin cfg10.N, cfg10.idle 0 (grid10.coords t) = false := fun _ => rfl
theorem liveAt10_1 : ∀ t : Fin cfg10.N, cfg10.idle 1 (grid10.coords t) = false := fun _ => rfl
theorem liveAt10_2 : ∀ t : Fin cfg10.N, cfg10.idle 2 (grid10.coords t) = false := fun _ => rfl
theorem liveAt10_3 : ∀ t : Fin cfg10.N, cfg10.idle 3 (grid10.coords t) = false := fun _ => rfl
theorem liveAt10_4 : ∀ t : Fin cfg10.N, cfg10.idle 4 (grid10.coords t) = false :=
  (by decide +kernel : ∀ t : Fin grid10.N, cfg10.idle 4 (grid10.coords t) = false)
theorem liveAt10_5 : ∀ t : Fin cfg10.N, cfg10.idle 5 (grid10.coords t) = false :=
  (by decide +kernel : ∀ t : Fin grid10.N, cfg10.idle 5 (grid10.coords t) = false)

/-! ## The body's triples, one per case -/

set_option maxHeartbeats 2000000 in
/-- The body at the FIRST grid point, on whole buffers: the inputs' at contents `x_w`, the three outputs' at
    anything; it ends with the inputs' unchanged, `y`'s at `out10_3` and the accumulators' at the block's own
    column sums. -/
theorem sound_kernel10_first (c : Dev nD) (E : Set ℕ) (i : grid10.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S2000x256 .f32) (harg4 : arg4.IsWhole) (arg5 : Memref sig .tc .vmem S1x256 .f32) (harg5 : arg5.IsWhole) (arg6 : Memref sig .tc .vmem S1x256 .f32) (harg6 : arg6.IsWhole)
    (hc1 : k10_cond1 i = 1#1) (hc2 : ¬k10_cond2 i = 1#1)
    (x0 : Vec F S2000x256 .f32) (x1 : Vec F S2000x256 .f32) (x2 : Vec F S2000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out10_3 x0 x1 x2) ∗ owns (c : Thread nD τ) arg5 fullShare (out10_4_first x0 x1 x2) ∗ owns (c : Thread nD τ) arg6 fullShare (out10_5_first x0 x1 x2)) -∗ K ⟨⟩))
      ⊢ wp frame (wpE (defs₀ (F := F)) Variants.none c none) E (cc10__combine_relu_stats_kernel i arg1 harg1 arg2 harg2 arg3 harg3 arg4 harg4 arg5 harg5 arg6 harg6) K := by
  simp only [cc10__combine_relu_stats_kernel_eq_skeleton]; unfold cc10__combine_relu_stats_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover10_y _)
  isplitl [H4]
  · iexists _; isplitr
    swap; · iexact H4
    ipureintro
    exact View.read_writes_eq_canon _ _ _ (cover10_s _)
  iexists _; isplitr
  swap; · iexact H5
  ipureintro
  exact View.read_writes_eq_canon _ _ _ (cover10_s _)

set_option maxHeartbeats 2000000 in
/-- The body at a LATER grid point, on whole buffers: the inputs' at contents `x_w`, `y`'s at anything, the
    accumulators' at contents `a4`, `a5`; it ends with the inputs' unchanged, `y`'s at `out10_3` and the
    accumulators' at `a4`, `a5` plus the block's column sums. -/
theorem sound_kernel10_next (c : Dev nD) (E : Set ℕ) (i : grid10.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S2000x256 .f32) (harg4 : arg4.IsWhole) (arg5 : Memref sig .tc .vmem S1x256 .f32) (harg5 : arg5.IsWhole) (arg6 : Memref sig .tc .vmem S1x256 .f32) (harg6 : arg6.IsWhole)
    (hc1 : ¬k10_cond1 i = 1#1) (hc2 : k10_cond2 i = 1#1)
    (x0 : Vec F S2000x256 .f32) (x1 : Vec F S2000x256 .f32) (x2 : Vec F S2000x1 .f32) (a4 : Vec F S1x256 .f32) (a5 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare a4 ∗ owns (c : Thread nD τ) arg6 fullShare a5
        ∗ (iprop(owns (c : Thread nD τ) arg1 fullShare x0 ∗ owns (c : Thread nD τ) arg2 fullShare x1 ∗ owns (c : Thread nD τ) arg3 fullShare x2 ∗ owns (c : Thread nD τ) arg4 fullShare (out10_3 x0 x1 x2) ∗ owns (c : Thread nD τ) arg5 fullShare (out10_4_next x0 x1 x2 a4) ∗ owns (c : Thread nD τ) arg6 fullShare (out10_5_next x0 x1 x2 a5)) -∗ K ⟨⟩))
      ⊢ wp frame (wpE (defs₀ (F := F)) Variants.none c none) E (cc10__combine_relu_stats_kernel i arg1 harg1 arg2 harg2 arg3 harg3 arg4 harg4 arg5 harg5 arg6 harg6) K := by
  simp only [cc10__combine_relu_stats_kernel_eq_skeleton]; unfold cc10__combine_relu_stats_kernel_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  subst hf0 hf1 hf2 hf4 hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover10_y _)
  isplitl [H4]
  · iexists _; isplitr
    swap; · iexact H4
    ipureintro
    exact View.read_writes_eq_canon _ _ _ (cover10_s _)
  iexists _; isplitr
  swap; · iexact H5
  ipureintro
  exact View.read_writes_eq_canon _ _ _ (cover10_s _)

/-! ## What the body finds in each buffer -/

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d

/-- No setting of the grid coordinate is idle for the accumulators: one of the two branches runs. -/
theorem live10_4 : ∀ i : grid10.Coords, cfg10.idle 4 i = false := by
  intro i
  have h : ∀ n : Fin 25, (!(Scalar.cmpi .ne (Scalar.extui (Scalar.cmpi .eq (BitVec.ofNat 32 n.val) 0#32)) 0#32 == 1#1)
      && !(Scalar.cmpi .ne (Scalar.extui (Scalar.cmpi .ne (BitVec.ofNat 32 n.val) 0#32)) 0#32 == 1#1)) = false := by decide
  exact h (i 0)
theorem live10_5 : ∀ i : grid10.Coords, cfg10.idle 5 i = false := live10_4

/-- At a later grid point the buffer of the column sums of `y` holds what the point before left: the window is an
    output, not written back between the two points, live and uncut. -/
theorem before10_4_next (c : Dev nD) (t : Fin cfg10.N) (h0 : t.val ≠ 0) (d) :
    (dat10 V c).before 4 t d = acc10_4 V c (t.val - 1) (Nat.lt_of_le_of_lt (Nat.sub_le _ _) t.isLt) := by
  have hN : t.val < 25 := lt_of_lt_of_eq t.isLt (show cfg10.N = 25 from N_10)
  rw [Dat.before_out_kept _ 4 rfl t h0 (Bool.eq_false_iff.mpr fun h => by have := (flush10_4 _).mp h; dsimp only at this; omega)
    live10_4 (fun _ _ => rfl)]
  dsimp only [dat10]

/-- The same for the column sums of `y * y`. -/
theorem before10_5_next (c : Dev nD) (t : Fin cfg10.N) (h0 : t.val ≠ 0) (d) :
    (dat10 V c).before 5 t d = acc10_5 V c (t.val - 1) (Nat.lt_of_le_of_lt (Nat.sub_le _ _) t.isLt) := by
  have hN : t.val < 25 := lt_of_lt_of_eq t.isLt (show cfg10.N = 25 from N_10)
  rw [Dat.before_out_kept _ 5 rfl t h0 (Bool.eq_false_iff.mpr fun h => by have := (flush10_5 _).mp h; dsimp only at this; omega)
    live10_5 (fun _ _ => rfl)]
  dsimp only [dat10]

/-- The running sums at a later point, from those at the point before. -/
theorem acc10_4_pos (c : Dev nD) (t : Fin cfg10.N) (h0 : t.val ≠ 0) :
    acc10_4 V c t.val t.isLt = out10_4_next (iblk10 V c 0 t) (iblk10 V c 1 t) (iblk10 V c 2 t)
      (acc10_4 V c (t.val - 1) (Nat.lt_of_le_of_lt (Nat.sub_le _ _) t.isLt)) := by
  obtain ⟨n, hn⟩ := t
  cases n with
  | zero => exact absurd rfl h0
  | succ n => rfl
theorem acc10_5_pos (c : Dev nD) (t : Fin cfg10.N) (h0 : t.val ≠ 0) :
    acc10_5 V c t.val t.isLt = out10_5_next (iblk10 V c 0 t) (iblk10 V c 1 t) (iblk10 V c 2 t)
      (acc10_5 V c (t.val - 1) (Nat.lt_of_le_of_lt (Nat.sub_le _ _) t.isLt)) := by
  obtain ⟨n, hn⟩ := t
  cases n with
  | zero => exact absurd rfl h0
  | succ n => rfl
/-- The running sums at the first point. -/
theorem acc10_4_first (c : Dev nD) (t : Fin cfg10.N) (h0 : t.val = 0) :
    acc10_4 V c t.val t.isLt = out10_4_first (iblk10 V c 0 t) (iblk10 V c 1 t) (iblk10 V c 2 t) := by
  obtain ⟨n, hn⟩ := t
  cases n with
  | zero => rfl
  | succ n => exact absurd h0 (Nat.succ_ne_zero n)
theorem acc10_5_first (c : Dev nD) (t : Fin cfg10.N) (h0 : t.val = 0) :
    acc10_5 V c t.val t.isLt = out10_5_first (iblk10 V c 0 t) (iblk10 V c 1 t) (iblk10 V c 2 t) := by
  obtain ⟨n, hn⟩ := t
  cases n with
  | zero => rfl
  | succ n => exact absurd h0 (Nat.succ_ne_zero n)

/-! ## The body obligation -/

/-- What the body is entered with at point `t`, window by window, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d)))

/-- and what it returns. -/
def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t
    ∗ (dat10 V c).leavesExact 4 t
    ∗ (dat10 V c).leavesExact 5 t)

/-- At every point each window's buffer is left at the proof data's stated contents: no point is idle. -/
theorem leaves10_0 (c : Dev nD) (t : Fin cfg10.N) : (dat10 V c).leavesExact 0 t = owns (c : Thread nD τ) (st10_0 t) fullShare (iblk10 V c 0 t) := by
  unfold Dat.leavesExact; rw [liveAt10_0 t, after10_0]
theorem leaves10_1 (c : Dev nD) (t : Fin cfg10.N) : (dat10 V c).leavesExact 1 t = owns (c : Thread nD τ) (st10_1 t) fullShare (iblk10 V c 1 t) := by
  unfold Dat.leavesExact; rw [liveAt10_1 t, after10_1]
theorem leaves10_2 (c : Dev nD) (t : Fin cfg10.N) : (dat10 V c).leavesExact 2 t = owns (c : Thread nD τ) (st10_2 t) fullShare (iblk10 V c 2 t) := by
  unfold Dat.leavesExact; rw [liveAt10_2 t, after10_2]
theorem leaves10_3 (c : Dev nD) (t : Fin cfg10.N) : (dat10 V c).leavesExact 3 t = owns (c : Thread nD τ) (st10_3 t) fullShare (out10_3 (iblk10 V c 0 t) (iblk10 V c 1 t) (iblk10 V c 2 t)) := by
  unfold Dat.leavesExact; rw [liveAt10_3 t, after10_3]
theorem leaves10_4 (c : Dev nD) (t : Fin cfg10.N) : (dat10 V c).leavesExact 4 t = owns (c : Thread nD τ) (st10_4 t) fullShare (acc10_4 V c t.val t.isLt) := by
  unfold Dat.leavesExact; rw [liveAt10_4 t, after10_4]
theorem leaves10_5 (c : Dev nD) (t : Fin cfg10.N) : (dat10 V c).leavesExact 5 t = owns (c : Thread nD τ) (st10_5 t) fullShare (acc10_5 V c t.val t.isLt) := by
  unfold Dat.leavesExact; rw [liveAt10_5 t, after10_5]

set_option maxHeartbeats 1000000 in
/-- The body at any point: the input buffers hold their blocks; the closed forms say which branch the point takes;
    at a later point the accumulators' buffers hold what the point before left; so that case's triple applies. The
    invariant and what the core owes pass through untouched. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2]
  rw [show (dat10 V c).Φ t.succ = (dat10 V c).Φ t.castSucc from rfl,
    show (dat10 V c).owesAt () t.succ = (dat10 V c).owesAt () t.castSucc from rfl,
    leaves10_0, leaves10_1, leaves10_2, leaves10_3, leaves10_4, leaves10_5]
  by_cases h0 : t.val = 0
  · rw [acc10_4_first V c t h0, acc10_5_first V c t h0]
    iintro ⟨HΦ, Ho, ⟨%d0, H0⟩, ⟨%d1, H1⟩, ⟨%d2, H2⟩, ⟨%d3, H3⟩, ⟨%d4, H4⟩, ⟨%d5, H5⟩⟩
    iapply (sound_kernel10_first c Set.univ (grid10.coords t) _ _ _ _ _ _ _ _ _ _ _ _ ((hcond10_1 t).mpr h0) (fun h => (hcond10_2 t).mp h h0)
      (iblk10 V c 0 t) (iblk10 V c 1 t) (iblk10 V c 2 t) _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc10_4_pos V c t h0, acc10_5_pos V c t h0]
    simp only [before10_4_next V c t h0, before10_5_next V c t h0]
    iintro ⟨HΦ, Ho, ⟨%d0, H0⟩, ⟨%d1, H1⟩, ⟨%d2, H2⟩, ⟨%d3, H3⟩, ⟨%d4, H4⟩, ⟨%d5, H5⟩⟩
    iapply (sound_kernel10_next c Set.univ (grid10.coords t) _ _ _ _ _ _ _ _ _ _ _ _ (fun h => h0 ((hcond10_1 t).mp h)) ((hcond10_2 t).mpr h0)
      (iblk10 V c 0 t) (iblk10 V c 1 t) (iblk10 V c 2 t) _ _ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The body obligation of the region, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Gen

end
-- ==== Proof.Frames.lean ====
import proofs.«165059_j7095285973648_2_alg».proof.Defs
import proofs.«165059_j7095285973648_2_alg».proof.Proof.Gen.Pre_finite_inputs
import proofs.«165059_j7095285973648_2_alg».proof.Proof.KAsmFrame
import proofs.«165059_j7095285973648_2_alg».proof.Proof.KComb1
import proofs.«165059_j7095285973648_2_alg».proof.Proof.KComb4
import proofs.«165059_j7095285973648_2_alg».proof.Proof.KComb7
import proofs.«165059_j7095285973648_2_alg».proof.Proof.KComb10
import proofs.«165059_j7095285973648_2_alg».proof.Proof.AsmFrame
import proofs.«165059_j7095285973648_2_alg».proof.Proof.Comb1
import proofs.«165059_j7095285973648_2_alg».proof.Proof.Comb4
import proofs.«165059_j7095285973648_2_alg».proof.Proof.Comb7
import proofs.«165059_j7095285973648_2_alg».proof.Proof.Comb10

/-! The two programs with kernels terminate, fault nowhere and leave their eighteen argument arrays unchanged: the
launch over the twelve regions, with the body obligations of the four regions that accumulate column sums supplied.
Neither uses the precondition. -/

noncomputable section

namespace Cert.Frames

open Idealize.ShloMosaic Idealize.SL.Sem

/-- The word-level program. -/
theorem frame_k : Cert.frame_Kernel := fun m ρ _ =>
  Cert.Kernel.Gen.frame_of_bodies (F := Bits) m ρ
    (fun c => Cert.Kernel.Gen.body_obligation1 _ c) (fun c => Cert.Kernel.Gen.body_obligation4 _ c)
    (fun c => Cert.Kernel.Gen.body_obligation7 _ c) (fun c => Cert.Kernel.Gen.body_obligation10 _ c)

/-- Its idealization. -/
theorem frame_ki : Cert.frame_KernelIdeal := fun m ρ _ =>
  Cert.KernelIdeal.Gen.frame_of_bodies (F := Ideal) m ρ
    (fun c => Cert.KernelIdeal.Gen.body_obligation1 _ c) (fun c => Cert.KernelIdeal.Gen.body_obligation4 _ c)
    (fun c => Cert.KernelIdeal.Gen.body_obligation7 _ c) (fun c => Cert.KernelIdeal.Gen.body_obligation10 _ c)

end Cert.Frames

end
-- ==== Proof.Spec.lean ====
import Idealize.ShloMosaic.Lib.StableHlo
import Idealize.ShloMosaic.Lib.Decide
import Idealize.ShloMosaic.PureOps
import Idealize.ShloMosaic.PureOps.Ideal

/-! # The network as a composition of named stages

A four-layer graph-convolution auto-encoder over 50000 nodes and 800000 edges. Write `src`, `dst` for the two
rows of the edge array. The degree of a node is one plus the number of edges into it, `dinv = 1/sqrt(deg)`,
`dsd e = dinv (src e) * dinv (dst e)` is the weight of edge `e` and `dself = dinv * dinv` the weight of a node's
own loop. A layer of widths K → W maps `x : [50000, K]` to

  h    = x · Wt + b
  agg  = the sum, over the edges into each node, of h (src e) * dsd e
  y    = max (agg + h * dself) 0
  mean = (the sum of y over the nodes) / 50000                   (per column)
  var  = (the sum of (y - mean)² over the nodes) / 50000         (per column)
  out  = g * (y - mean) * (1 / sqrt (var + eps)) + beta, followed by max · 0 in layers 1 and 3.

Every stage is one definition taking its inputs as explicit arguments, spelt with the host operations of the
reference program (same operations, same dimension records, same literal words), at any float instance `F`.
A negative index is first moved up by 50000 (`normIdx`), counting from the end; the scatter of the messages
uses the raw destination row (`rawIdx`). -/

noncomputable section

namespace Cert.Spec

open Idealize.ShloMosaic

/-! ## Shapes, shape facts and dimension records -/

abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S128x256 : Shape := ⟨2, ![128, 256]⟩
abbrev S256 : Shape := ⟨1, ![256]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x128 : Shape := ⟨2, ![50000, 128]⟩
abbrev S1x128 : Shape := ⟨2, ![1, 128]⟩
abbrev S800000x128 : Shape := ⟨2, ![800000, 128]⟩
abbrev S50000x1 : Shape := ⟨2, ![50000, 1]⟩
abbrev S50000x64 : Shape := ⟨2, ![50000, 64]⟩
abbrev S1x64 : Shape := ⟨2, ![1, 64]⟩
abbrev S800000x64 : Shape := ⟨2, ![800000, 64]⟩
abbrev S1x256 : Shape := ⟨2, ![1, 256]⟩
abbrev S800000x256 : Shape := ⟨2, ![800000, 256]⟩

theorem slices_S2x800000_S1x800000_0_0 : S2x800000.Slices ![0, 0] S1x800000 := by decide
theorem shapeCasts_S1x800000_S800000 : S1x800000.ShapeCasts S800000 := by decide
theorem slices_S2x800000_S1x800000_1_0 : S2x800000.Slices ![1, 0] S1x800000 := by decide
theorem bcast_S_S50000 : S_.BroadcastsInDim S50000 (![] : Fin 0 → Fin S50000.rank) := by decide
theorem bcast_S_S800000 : S_.BroadcastsInDim S800000 (![] : Fin 0 → Fin S800000.rank) := by decide
theorem bcast_S800000_S800000x1_0 : S800000.BroadcastsInDim S800000x1 (![0] : Fin 1 → Fin S800000x1.rank) := by decide
theorem bcast_S128_S1x128_1 : S128.BroadcastsInDim S1x128 (![1] : Fin 1 → Fin S1x128.rank) := by decide
theorem bcast_S1x128_S50000x128_0_1 : S1x128.BroadcastsInDim S50000x128 (![0, 1] : Fin 2 → Fin S50000x128.rank) := by decide
theorem bcast_S800000x1_S800000x128_0_1 : S800000x1.BroadcastsInDim S800000x128 (![0, 1] : Fin 2 → Fin S800000x128.rank) := by decide
theorem bcast_S_S50000x128 : S_.BroadcastsInDim S50000x128 (![] : Fin 0 → Fin S50000x128.rank) := by decide
theorem bcast_S50000_S50000x1_0 : S50000.BroadcastsInDim S50000x1 (![0] : Fin 1 → Fin S50000x1.rank) := by decide
theorem bcast_S50000x1_S50000x128_0_1 : S50000x1.BroadcastsInDim S50000x128 (![0, 1] : Fin 2 → Fin S50000x128.rank) := by decide
theorem reducesTo_S50000x128_S128_d0 : S50000x128.ReducesTo [0] S128 := by decide
theorem h_S_ : 0 < S_.numel := by decide
theorem bcast_S_S128 : S_.BroadcastsInDim S128 (![] : Fin 0 → Fin S128.rank) := by decide
theorem bcast_S64_S1x64_1 : S64.BroadcastsInDim S1x64 (![1] : Fin 1 → Fin S1x64.rank) := by decide
theorem bcast_S1x64_S50000x64_0_1 : S1x64.BroadcastsInDim S50000x64 (![0, 1] : Fin 2 → Fin S50000x64.rank) := by decide
theorem bcast_S800000x1_S800000x64_0_1 : S800000x1.BroadcastsInDim S800000x64 (![0, 1] : Fin 2 → Fin S800000x64.rank) := by decide
theorem bcast_S_S50000x64 : S_.BroadcastsInDim S50000x64 (![] : Fin 0 → Fin S50000x64.rank) := by decide
theorem bcast_S50000x1_S50000x64_0_1 : S50000x1.BroadcastsInDim S50000x64 (![0, 1] : Fin 2 → Fin S50000x64.rank) := by decide
theorem reducesTo_S50000x64_S64_d0 : S50000x64.ReducesTo [0] S64 := by decide
theorem bcast_S_S64 : S_.BroadcastsInDim S64 (![] : Fin 0 → Fin S64.rank) := by decide
theorem bcast_S256_S1x256_1 : S256.BroadcastsInDim S1x256 (![1] : Fin 1 → Fin S1x256.rank) := by decide
theorem bcast_S1x256_S50000x256_0_1 : S1x256.BroadcastsInDim S50000x256 (![0, 1] : Fin 2 → Fin S50000x256.rank) := by decide
theorem bcast_S800000x1_S800000x256_0_1 : S800000x1.BroadcastsInDim S800000x256 (![0, 1] : Fin 2 → Fin S800000x256.rank) := by decide
theorem bcast_S_S50000x256 : S_.BroadcastsInDim S50000x256 (![] : Fin 0 → Fin S50000x256.rank) := by decide
theorem bcast_S50000x1_S50000x256_0_1 : S50000x1.BroadcastsInDim S50000x256 (![0, 1] : Fin 2 → Fin S50000x256.rank) := by decide
theorem reducesTo_S50000x256_S256_d0 : S50000x256.ReducesTo [0] S256 := by decide
theorem bcast_S_S256 : S_.BroadcastsInDim S256 (![] : Fin 0 → Fin S256.rank) := by decide
theorem scatter_S50000_S800000x1_S800000_n_0_0_1_wf : ScatterDims.WF S50000 S800000x1 S800000 [] [0] [0] 1 := by decide
theorem gather_S50000_S800000x1_S800000_n_0_n_n_0_1_1_wf : GatherDims.WF S50000 S800000x1 S800000 [] [0] [] [0] [] 1 ![1] := by decide
theorem dot_S50000x256_S256x128_S50000x128_1_0_0_1_n_n_wf : DotDims.WF S50000x256 S256x128 S50000x128 [1] [0] [0] [1] [] [] := by decide
theorem gather_S50000x128_S800000x1_S800000x128_1_0_n_n_0_1_1128_wf : GatherDims.WF S50000x128 S800000x1 S800000x128 [1] [0] [] [0] [] 1 ![1, 128] := by decide
theorem scatter_S50000x128_S800000x1_S800000x128_1_0_0_1_wf : ScatterDims.WF S50000x128 S800000x1 S800000x128 [1] [0] [0] 1 := by decide
theorem dot_S50000x128_S128x64_S50000x64_1_0_0_1_n_n_wf : DotDims.WF S50000x128 S128x64 S50000x64 [1] [0] [0] [1] [] [] := by decide
theorem gather_S50000x64_S800000x1_S800000x64_1_0_n_n_0_1_164_wf : GatherDims.WF S50000x64 S800000x1 S800000x64 [1] [0] [] [0] [] 1 ![1, 64] := by decide
theorem scatter_S50000x64_S800000x1_S800000x64_1_0_0_1_wf : ScatterDims.WF S50000x64 S800000x1 S800000x64 [1] [0] [0] 1 := by decide
theorem dot_S50000x64_S64x128_S50000x128_1_0_0_1_n_n_wf : DotDims.WF S50000x64 S64x128 S50000x128 [1] [0] [0] [1] [] [] := by decide
theorem dot_S50000x128_S128x256_S50000x256_1_0_0_1_n_n_wf : DotDims.WF S50000x128 S128x256 S50000x256 [1] [0] [0] [1] [] [] := by decide
theorem gather_S50000x256_S800000x1_S800000x256_1_0_n_n_0_1_1256_wf : GatherDims.WF S50000x256 S800000x1 S800000x256 [1] [0] [] [0] [] 1 ![1, 256] := by decide
theorem scatter_S50000x256_S800000x1_S800000x256_1_0_0_1_wf : ScatterDims.WF S50000x256 S800000x1 S800000x256 [1] [0] [0] 1 := by decide

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

variable {F : FTy → Type} [FloatOps F]

/-! ## Indices and edge weights -/

/-- Row 0 of the edge array: the source node of each edge. -/
def src (e : (⟨S2x800000, .i32⟩ : BufTy).Contents (Elt F)) : (⟨S800000, .i32⟩ : BufTy).Contents (Elt F) :=
  shapeCast S800000 (extractStridedSlice S1x800000 ![0, 0] e slices_S2x800000_S1x800000_0_0) shapeCasts_S1x800000_S800000

/-- Row 1 of the edge array: the destination node of each edge. -/
def dst (e : (⟨S2x800000, .i32⟩ : BufTy).Contents (Elt F)) : (⟨S800000, .i32⟩ : BufTy).Contents (Elt F) :=
  shapeCast S800000 (extractStridedSlice S1x800000 ![1, 0] e slices_S2x800000_S1x800000_1_0) shapeCasts_S1x800000_S800000

/-- An index vector as a column of start indices, a negative entry first moved up by 50000. -/
def normIdx (a : (⟨S800000, .i32⟩ : BufTy).Contents (Elt F)) : (⟨S800000x1, .i32⟩ : BufTy).Contents (Elt F) :=
  broadcastInDim S800000x1 ![0] bcast_S800000_S800000x1_0
    (select (cmpi .slt a (broadcastInDim S800000 ![] bcast_S_S800000 (constantI S_ 32 0#32)))
      (addi a (broadcastInDim S800000 ![] bcast_S_S800000 (constantI S_ 32 50000#32))) a)

/-- An index vector as a column of start indices, as it stands. -/
def rawIdx (a : (⟨S800000, .i32⟩ : BufTy).Contents (Elt F)) : (⟨S800000x1, .i32⟩ : BufTy).Contents (Elt F) :=
  broadcastInDim S800000x1 ![0] bcast_S800000_S800000x1_0 a

/-- One plus the number of edges into each node. -/
def deg (e : (⟨S2x800000, .i32⟩ : BufTy).Contents (Elt F)) : (⟨S50000, .f32⟩ : BufTy).Contents (Elt F) :=
  addf (Host.scatterAdd scatter_S50000_S800000x1_S800000_n_0_0_1
      (broadcastInDim S50000 ![] bcast_S_S50000 (constant S_ .f32 0x00000000#32)) (normIdx (dst e))
      (broadcastInDim S800000 ![] bcast_S_S800000 (constant S_ .f32 0x3F800000#32)))
    (broadcastInDim S50000 ![] bcast_S_S50000 (constant S_ .f32 0x3F800000#32))

/-- `1 / sqrt deg`. -/
def dinv (e : (⟨S2x800000, .i32⟩ : BufTy).Contents (Elt F)) : (⟨S50000, .f32⟩ : BufTy).Contents (Elt F) := Host.rsqrt (deg e)

/-- The weight of each edge: `dinv` at its source times `dinv` at its destination. -/
def dsd (e : (⟨S2x800000, .i32⟩ : BufTy).Contents (Elt F)) : (⟨S800000, .f32⟩ : BufTy).Contents (Elt F) :=
  mulf (Host.gather gather_S50000_S800000x1_S800000_n_0_n_n_0_1_1 (dinv e) (normIdx (src e)))
    (Host.gather gather_S50000_S800000x1_S800000_n_0_n_n_0_1_1 (dinv e) (normIdx (dst e)))

/-- The weight of each node's own loop: `dinv * dinv`. -/
def dself (e : (⟨S2x800000, .i32⟩ : BufTy).Contents (Elt F)) : (⟨S50000, .f32⟩ : BufTy).Contents (Elt F) := mulf (dinv e) (dinv e)

/-! ## The stages of a layer, per output width -/

/-- Layer 1's linear map `x · Wt + b`, widths 256 → 128. -/
def h1 (x : (⟨S50000x256, .f32⟩ : BufTy).Contents (Elt F)) (Wt : (⟨S256x128, .f32⟩ : BufTy).Contents (Elt F)) (b : (⟨S128, .f32⟩ : BufTy).Contents (Elt F)) : (⟨S50000x128, .f32⟩ : BufTy).Contents (Elt F) :=
  addf (Host.dotGeneral dot_S50000x256_S256x128_S50000x128_1_0_0_1_n_n none x Wt)
    (broadcastInDim S50000x128 ![0, 1] bcast_S1x128_S50000x128_0_1 (broadcastInDim S1x128 ![1] bcast_S128_S1x128_1 b))

/-- Layer 2's linear map `x · Wt + b`, widths 128 → 64. -/
def h2 (x : (⟨S50000x128, .f32⟩ : BufTy).Contents (Elt F)) (Wt : (⟨S128x64, .f32⟩ : BufTy).Contents (Elt F)) (b : (⟨S64, .f32⟩ : BufTy).Contents (Elt F)) : (⟨S50000x64, .f32⟩ : BufTy).Contents (Elt F) :=
  addf (Host.dotGeneral dot_S50000x128_S128x64_S50000x64_1_0_0_1_n_n none x Wt)
    (broadcastInDim S50000x64 ![0, 1] bcast_S1x64_S50000x64_0_1 (broadcastInDim S1x64 ![1] bcast_S64_S1x64_1 b))

/-- Layer 3's linear map `x · Wt + b`, widths 64 → 128. -/
def h3 (x : (⟨S50000x64, .f32⟩ : BufTy).Contents (Elt F)) (Wt : (⟨S64x128, .f32⟩ : BufTy).Contents (Elt F)) (b : (⟨S128, .f32⟩ : BufTy).Contents (Elt F)) : (⟨S50000x128, .f32⟩ : BufTy).Contents (Elt F) :=
  addf (Host.dotGeneral dot_S50000x64_S64x128_S50000x128_1_0_0_1_n_n none x Wt)
    (broadcastInDim S50000x128 ![0, 1] bcast_S1x128_S50000x128_0_1 (broadcastInDim S1x128 ![1] bcast_S128_S1x128_1 b))

/-- Layer 4's linear map `x · Wt + b`, widths 128 → 256. -/
def h4 (x : (⟨S50000x128, .f32⟩ : BufTy).Contents (Elt F)) (Wt : (⟨S128x256, .f32⟩ : BufTy).Contents (Elt F)) (b : (⟨S256, .f32⟩ : BufTy).Contents (Elt F)) : (⟨S50000x256, .f32⟩ : BufTy).Contents (Elt F) :=
  addf (Host.dotGeneral dot_S50000x128_S128x256_S50000x256_1_0_0_1_n_n none x Wt)
    (broadcastInDim S50000x256 ![0, 1] bcast_S1x256_S50000x256_0_1 (broadcastInDim S1x256 ![1] bcast_S256_S1x256_1 b))

/-- The sum, over the edges into each node, of `h` at the edge's source times the edge's weight (width 128). -/
def agg128 (h : (⟨S50000x128, .f32⟩ : BufTy).Contents (Elt F)) (s d : (⟨S800000, .i32⟩ : BufTy).Contents (Elt F)) (w : (⟨S800000, .f32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant S_ .f32 0x00000000#32)) (rawIdx d)
    (mulf (Host.gather gather_S50000x128_S800000x1_S800000x128_1_0_n_n_0_1_1128 h (normIdx s))
      (broadcastInDim S800000x128 ![0, 1] bcast_S800000x1_S800000x128_0_1 (broadcastInDim S800000x1 ![0] bcast_S800000_S800000x1_0 w)))

/-- The aggregate plus the node's own term `h * dself` (width 128). -/
def pre128 (h a : (⟨S50000x128, .f32⟩ : BufTy).Contents (Elt F)) (ws : (⟨S50000, .f32⟩ : BufTy).Contents (Elt F)) : (⟨S50000x128, .f32⟩ : BufTy).Contents (Elt F) :=
  addf a (mulf h (broadcastInDim S50000x128 ![0, 1] bcast_S50000x1_S50000x128_0_1 (broadcastInDim S50000x1 ![0] bcast_S50000_S50000x1_0 ws)))

/-- `max · 0`, entry by entry (width 128). -/
def relu128 (z : (⟨S50000x128, .f32⟩ : BufTy).Contents (Elt F)) : (⟨S50000x128, .f32⟩ : BufTy).Contents (Elt F) :=
  maximumf z (broadcastInDim S50000x128 ![] bcast_S_S50000x128 (constant S_ .f32 0x00000000#32))

/-- The column means over the 50000 nodes (width 128). -/
def mean128 (y : (⟨S50000x128, .f32⟩ : BufTy).Contents (Elt F)) : (⟨S128, .f32⟩ : BufTy).Contents (Elt F) :=
  Host.divf (Host.reduceAdd y (constant S_ .f32 0x00000000#32) reducesTo_S50000x128_S128_d0 h_S_)
    (broadcastInDim S128 ![] bcast_S_S128 (constant S_ .f32 0x47435000#32))

/-- `y` minus a row vector (width 128). -/
def cent128 (y : (⟨S50000x128, .f32⟩ : BufTy).Contents (Elt F)) (mu : (⟨S128, .f32⟩ : BufTy).Contents (Elt F)) : (⟨S50000x128, .f32⟩ : BufTy).Contents (Elt F) :=
  subf y (broadcastInDim S50000x128 ![0, 1] bcast_S1x128_S50000x128_0_1 (broadcastInDim S1x128 ![1] bcast_S128_S1x128_1 mu))

/-- The column means of the squared deviations from `mu` (width 128). -/
def var128 (y : (⟨S50000x128, .f32⟩ : BufTy).Contents (Elt F)) (mu : (⟨S128, .f32⟩ : BufTy).Contents (Elt F)) : (⟨S128, .f32⟩ : BufTy).Contents (Elt F) :=
  Host.divf (Host.reduceAdd (mulf (cent128 y mu) (cent128 y mu)) (constant S_ .f32 0x00000000#32) reducesTo_S50000x128_S128_d0 h_S_)
    (broadcastInDim S128 ![] bcast_S_S128 (constant S_ .f32 0x47435000#32))

/-- The normalisation `g * (y - mu) * (1 / sqrt (v + eps)) + beta` (width 128). -/
def bn128 (y : (⟨S50000x128, .f32⟩ : BufTy).Contents (Elt F)) (mu v g beta : (⟨S128, .f32⟩ : BufTy).Contents (Elt F)) : (⟨S50000x128, .f32⟩ : BufTy).Contents (Elt F) :=
  addf (mulf (mulf (broadcastInDim S50000x128 ![0, 1] bcast_S1x128_S50000x128_0_1 (broadcastInDim S1x128 ![1] bcast_S128_S1x128_1 g)) (cent128 y mu))
      (broadcastInDim S50000x128 ![0, 1] bcast_S1x128_S50000x128_0_1 (broadcastInDim S1x128 ![1] bcast_S128_S1x128_1
        (Host.rsqrt (addf v (broadcastInDim S128 ![] bcast_S_S128 (constant S_ .f32 0x3727C5AC#32)))))))
    (broadcastInDim S50000x128 ![0, 1] bcast_S1x128_S50000x128_0_1 (broadcastInDim S1x128 ![1] bcast_S128_S1x128_1 beta))

/-- The sum, over the edges into each node, of `h` at the edge's source times the edge's weight (width 64). -/
def agg64 (h : (⟨S50000x64, .f32⟩ : BufTy).Contents (Elt F)) (s d : (⟨S800000, .i32⟩ : BufTy).Contents (Elt F)) (w : (⟨S800000, .f32⟩ : BufTy).Contents (Elt F)) : (⟨S50000x64, .f32⟩ : BufTy).Contents (Elt F) :=
  Host.scatterAdd scatter_S50000x64_S800000x1_S800000x64_1_0_0_1
    (broadcastInDim S50000x64 ![] bcast_S_S50000x64 (constant S_ .f32 0x00000000#32)) (rawIdx d)
    (mulf (Host.gather gather_S50000x64_S800000x1_S800000x64_1_0_n_n_0_1_164 h (normIdx s))
      (broadcastInDim S800000x64 ![0, 1] bcast_S800000x1_S800000x64_0_1 (broadcastInDim S800000x1 ![0] bcast_S800000_S800000x1_0 w)))

/-- The aggregate plus the node's own term `h * dself` (width 64). -/
def pre64 (h a : (⟨S50000x64, .f32⟩ : BufTy).Contents (Elt F)) (ws : (⟨S50000, .f32⟩ : BufTy).Contents (Elt F)) : (⟨S50000x64, .f32⟩ : BufTy).Contents (Elt F) :=
  addf a (mulf h (broadcastInDim S50000x64 ![0, 1] bcast_S50000x1_S50000x64_0_1 (broadcastInDim S50000x1 ![0] bcast_S50000_S50000x1_0 ws)))

/-- `max · 0`, entry by entry (width 64). -/
def relu64 (z : (⟨S50000x64, .f32⟩ : BufTy).Contents (Elt F)) : (⟨S50000x64, .f32⟩ : BufTy).Contents (Elt F) :=
  maximumf z (broadcastInDim S50000x64 ![] bcast_S_S50000x64 (constant S_ .f32 0x00000000#32))

/-- The column means over the 50000 nodes (width 64). -/
def mean64 (y : (⟨S50000x64, .f32⟩ : BufTy).Contents (Elt F)) : (⟨S64, .f32⟩ : BufTy).Contents (Elt F) :=
  Host.divf (Host.reduceAdd y (constant S_ .f32 0x00000000#32) reducesTo_S50000x64_S64_d0 h_S_)
    (broadcastInDim S64 ![] bcast_S_S64 (constant S_ .f32 0x47435000#32))

/-- `y` minus a row vector (width 64). -/
def cent64 (y : (⟨S50000x64, .f32⟩ : BufTy).Contents (Elt F)) (mu : (⟨S64, .f32⟩ : BufTy).Contents (Elt F)) : (⟨S50000x64, .f32⟩ : BufTy).Contents (Elt F) :=
  subf y (broadcastInDim S50000x64 ![0, 1] bcast_S1x64_S50000x64_0_1 (broadcastInDim S1x64 ![1] bcast_S64_S1x64_1 mu))

/-- The column means of the squared deviations from `mu` (width 64). -/
def var64 (y : (⟨S50000x64, .f32⟩ : BufTy).Contents (Elt F)) (mu : (⟨S64, .f32⟩ : BufTy).Contents (Elt F)) : (⟨S64, .f32⟩ : BufTy).Contents (Elt F) :=
  Host.divf (Host.reduceAdd (mulf (cent64 y mu) (cent64 y mu)) (constant S_ .f32 0x00000000#32) reducesTo_S50000x64_S64_d0 h_S_)
    (broadcastInDim S64 ![] bcast_S_S64 (constant S_ .f32 0x47435000#32))

/-- The normalisation `g * (y - mu) * (1 / sqrt (v + eps)) + beta` (width 64). -/
def bn64 (y : (⟨S50000x64, .f32⟩ : BufTy).Contents (Elt F)) (mu v g beta : (⟨S64, .f32⟩ : BufTy).Contents (Elt F)) : (⟨S50000x64, .f32⟩ : BufTy).Contents (Elt F) :=
  addf (mulf (mulf (broadcastInDim S50000x64 ![0, 1] bcast_S1x64_S50000x64_0_1 (broadcastInDim S1x64 ![1] bcast_S64_S1x64_1 g)) (cent64 y mu))
      (broadcastInDim S50000x64 ![0, 1] bcast_S1x64_S50000x64_0_1 (broadcastInDim S1x64 ![1] bcast_S64_S1x64_1
        (Host.rsqrt (addf v (broadcastInDim S64 ![] bcast_S_S64 (constant S_ .f32 0x3727C5AC#32)))))))
    (broadcastInDim S50000x64 ![0, 1] bcast_S1x64_S50000x64_0_1 (broadcastInDim S1x64 ![1] bcast_S64_S1x64_1 beta))

/-- The sum, over the edges into each node, of `h` at the edge's source times the edge's weight (width 256). -/
def agg256 (h : (⟨S50000x256, .f32⟩ : BufTy).Contents (Elt F)) (s d : (⟨S800000, .i32⟩ : BufTy).Contents (Elt F)) (w : (⟨S800000, .f32⟩ : BufTy).Contents (Elt F)) : (⟨S50000x256, .f32⟩ : BufTy).Contents (Elt F) :=
  Host.scatterAdd scatter_S50000x256_S800000x1_S800000x256_1_0_0_1
    (broadcastInDim S50000x256 ![] bcast_S_S50000x256 (constant S_ .f32 0x00000000#32)) (rawIdx d)
    (mulf (Host.gather gather_S50000x256_S800000x1_S800000x256_1_0_n_n_0_1_1256 h (normIdx s))
      (broadcastInDim S800000x256 ![0, 1] bcast_S800000x1_S800000x256_0_1 (broadcastInDim S800000x1 ![0] bcast_S800000_S800000x1_0 w)))

/-- The aggregate plus the node's own term `h * dself` (width 256). -/
def pre256 (h a : (⟨S50000x256, .f32⟩ : BufTy).Contents (Elt F)) (ws : (⟨S50000, .f32⟩ : BufTy).Contents (Elt F)) : (⟨S50000x256, .f32⟩ : BufTy).Contents (Elt F) :=
  addf a (mulf h (broadcastInDim S50000x256 ![0, 1] bcast_S50000x1_S50000x256_0_1 (broadcastInDim S50000x1 ![0] bcast_S50000_S50000x1_0 ws)))

/-- `max · 0`, entry by entry (width 256). -/
def relu256 (z : (⟨S50000x256, .f32⟩ : BufTy).Contents (Elt F)) : (⟨S50000x256, .f32⟩ : BufTy).Contents (Elt F) :=
  maximumf z (broadcastInDim S50000x256 ![] bcast_S_S50000x256 (constant S_ .f32 0x00000000#32))

/-- The column means over the 50000 nodes (width 256). -/
def mean256 (y : (⟨S50000x256, .f32⟩ : BufTy).Contents (Elt F)) : (⟨S256, .f32⟩ : BufTy).Contents (Elt F) :=
  Host.divf (Host.reduceAdd y (constant S_ .f32 0x00000000#32) reducesTo_S50000x256_S256_d0 h_S_)
    (broadcastInDim S256 ![] bcast_S_S256 (constant S_ .f32 0x47435000#32))

/-- `y` minus a row vector (width 256). -/
def cent256 (y : (⟨S50000x256, .f32⟩ : BufTy).Contents (Elt F)) (mu : (⟨S256, .f32⟩ : BufTy).Contents (Elt F)) : (⟨S50000x256, .f32⟩ : BufTy).Contents (Elt F) :=
  subf y (broadcastInDim S50000x256 ![0, 1] bcast_S1x256_S50000x256_0_1 (broadcastInDim S1x256 ![1] bcast_S256_S1x256_1 mu))

/-- The column means of the squared deviations from `mu` (width 256). -/
def var256 (y : (⟨S50000x256, .f32⟩ : BufTy).Contents (Elt F)) (mu : (⟨S256, .f32⟩ : BufTy).Contents (Elt F)) : (⟨S256, .f32⟩ : BufTy).Contents (Elt F) :=
  Host.divf (Host.reduceAdd (mulf (cent256 y mu) (cent256 y mu)) (constant S_ .f32 0x00000000#32) reducesTo_S50000x256_S256_d0 h_S_)
    (broadcastInDim S256 ![] bcast_S_S256 (constant S_ .f32 0x47435000#32))

/-- The normalisation `g * (y - mu) * (1 / sqrt (v + eps)) + beta` (width 256). -/
def bn256 (y : (⟨S50000x256, .f32⟩ : BufTy).Contents (Elt F)) (mu v g beta : (⟨S256, .f32⟩ : BufTy).Contents (Elt F)) : (⟨S50000x256, .f32⟩ : BufTy).Contents (Elt F) :=
  addf (mulf (mulf (broadcastInDim S50000x256 ![0, 1] bcast_S1x256_S50000x256_0_1 (broadcastInDim S1x256 ![1] bcast_S256_S1x256_1 g)) (cent256 y mu))
      (broadcastInDim S50000x256 ![0, 1] bcast_S1x256_S50000x256_0_1 (broadcastInDim S1x256 ![1] bcast_S256_S1x256_1
        (Host.rsqrt (addf v (broadcastInDim S256 ![] bcast_S_S256 (constant S_ .f32 0x3727C5AC#32)))))))
    (broadcastInDim S50000x256 ![0, 1] bcast_S1x256_S50000x256_0_1 (broadcastInDim S1x256 ![1] bcast_S256_S1x256_1 beta))

/-! ## The network -/

/-- The eighteen argument arrays. -/
structure Args (F : FTy → Type) [FloatOps F] where
  x : (⟨S50000x256, .f32⟩ : BufTy).Contents (Elt F)
  e : (⟨S2x800000, .i32⟩ : BufTy).Contents (Elt F)
  We1 : (⟨S256x128, .f32⟩ : BufTy).Contents (Elt F)
  be1 : (⟨S128, .f32⟩ : BufTy).Contents (Elt F)
  g1 : (⟨S128, .f32⟩ : BufTy).Contents (Elt F)
  bb1 : (⟨S128, .f32⟩ : BufTy).Contents (Elt F)
  We2 : (⟨S128x64, .f32⟩ : BufTy).Contents (Elt F)
  be2 : (⟨S64, .f32⟩ : BufTy).Contents (Elt F)
  g2 : (⟨S64, .f32⟩ : BufTy).Contents (Elt F)
  bb2 : (⟨S64, .f32⟩ : BufTy).Contents (Elt F)
  Wd1 : (⟨S64x128, .f32⟩ : BufTy).Contents (Elt F)
  bd1 : (⟨S128, .f32⟩ : BufTy).Contents (Elt F)
  g3 : (⟨S128, .f32⟩ : BufTy).Contents (Elt F)
  bb3 : (⟨S128, .f32⟩ : BufTy).Contents (Elt F)
  Wd2 : (⟨S128x256, .f32⟩ : BufTy).Contents (Elt F)
  bd2 : (⟨S256, .f32⟩ : BufTy).Contents (Elt F)
  g4 : (⟨S256, .f32⟩ : BufTy).Contents (Elt F)
  bb4 : (⟨S256, .f32⟩ : BufTy).Contents (Elt F)

/-- Layer 1: the linear map. -/
def H1 (a : Args F) : (⟨S50000x128, .f32⟩ : BufTy).Contents (Elt F) := h1 a.x a.We1 a.be1
/-- Layer 1: the aggregate over incoming edges. -/
def A1 (a : Args F) : (⟨S50000x128, .f32⟩ : BufTy).Contents (Elt F) := agg128 (H1 a) (src a.e) (dst a.e) (dsd a.e)
/-- Layer 1: the rectified convolution `y`. -/
def Y1 (a : Args F) : (⟨S50000x128, .f32⟩ : BufTy).Contents (Elt F) := relu128 (pre128 (H1 a) (A1 a) (dself a.e))
/-- Layer 1: the column means of `y`. -/
def M1 (a : Args F) : (⟨S128, .f32⟩ : BufTy).Contents (Elt F) := mean128 (Y1 a)
/-- Layer 1: the column variances of `y`. -/
def V1 (a : Args F) : (⟨S128, .f32⟩ : BufTy).Contents (Elt F) := var128 (Y1 a) (M1 a)
/-- Layer 1: its output (normalised, then rectified). -/
def O1 (a : Args F) : (⟨S50000x128, .f32⟩ : BufTy).Contents (Elt F) := relu128 (bn128 (Y1 a) (M1 a) (V1 a) a.g1 a.bb1)

/-- Layer 2: the linear map. -/
def H2 (a : Args F) : (⟨S50000x64, .f32⟩ : BufTy).Contents (Elt F) := h2 (O1 a) a.We2 a.be2
/-- Layer 2: the aggregate over incoming edges. -/
def A2 (a : Args F) : (⟨S50000x64, .f32⟩ : BufTy).Contents (Elt F) := agg64 (H2 a) (src a.e) (dst a.e) (dsd a.e)
/-- Layer 2: the rectified convolution `y`. -/
def Y2 (a : Args F) : (⟨S50000x64, .f32⟩ : BufTy).Contents (Elt F) := relu64 (pre64 (H2 a) (A2 a) (dself a.e))
/-- Layer 2: the column means of `y`. -/
def M2 (a : Args F) : (⟨S64, .f32⟩ : BufTy).Contents (Elt F) := mean64 (Y2 a)
/-- Layer 2: the column variances of `y`. -/
def V2 (a : Args F) : (⟨S64, .f32⟩ : BufTy).Contents (Elt F) := var64 (Y2 a) (M2 a)
/-- Layer 2: its output (normalised). -/
def O2 (a : Args F) : (⟨S50000x64, .f32⟩ : BufTy).Contents (Elt F) := bn64 (Y2 a) (M2 a) (V2 a) a.g2 a.bb2

/-- Layer 3: the linear map. -/
def H3 (a : Args F) : (⟨S50000x128, .f32⟩ : BufTy).Contents (Elt F) := h3 (O2 a) a.Wd1 a.bd1
/-- Layer 3: the aggregate over incoming edges. -/
def A3 (a : Args F) : (⟨S50000x128, .f32⟩ : BufTy).Contents (Elt F) := agg128 (H3 a) (src a.e) (dst a.e) (dsd a.e)
/-- Layer 3: the rectified convolution `y`. -/
def Y3 (a : Args F) : (⟨S50000x128, .f32⟩ : BufTy).Contents (Elt F) := relu128 (pre128 (H3 a) (A3 a) (dself a.e))
/-- Layer 3: the column means of `y`. -/
def M3 (a : Args F) : (⟨S128, .f32⟩ : BufTy).Contents (Elt F) := mean128 (Y3 a)
/-- Layer 3: the column variances of `y`. -/
def V3 (a : Args F) : (⟨S128, .f32⟩ : BufTy).Contents (Elt F) := var128 (Y3 a) (M3 a)
/-- Layer 3: its output (normalised, then rectified). -/
def O3 (a : Args F) : (⟨S50000x128, .f32⟩ : BufTy).Contents (Elt F) := relu128 (bn128 (Y3 a) (M3 a) (V3 a) a.g3 a.bb3)

/-- Layer 4: the linear map. -/
def H4 (a : Args F) : (⟨S50000x256, .f32⟩ : BufTy).Contents (Elt F) := h4 (O3 a) a.Wd2 a.bd2
/-- Layer 4: the aggregate over incoming edges. -/
def A4 (a : Args F) : (⟨S50000x256, .f32⟩ : BufTy).Contents (Elt F) := agg256 (H4 a) (src a.e) (dst a.e) (dsd a.e)
/-- Layer 4: the rectified convolution `y`. -/
def Y4 (a : Args F) : (⟨S50000x256, .f32⟩ : BufTy).Contents (Elt F) := relu256 (pre256 (H4 a) (A4 a) (dself a.e))
/-- Layer 4: the column means of `y`. -/
def M4 (a : Args F) : (⟨S256, .f32⟩ : BufTy).Contents (Elt F) := mean256 (Y4 a)
/-- Layer 4: the column variances of `y`. -/
def V4 (a : Args F) : (⟨S256, .f32⟩ : BufTy).Contents (Elt F) := var256 (Y4 a) (M4 a)
/-- Layer 4: its output (normalised). -/
def O4 (a : Args F) : (⟨S50000x256, .f32⟩ : BufTy).Contents (Elt F) := bn256 (Y4 a) (M4 a) (V4 a) a.g4 a.bb4

end Cert.Spec

end
-- ==== Proof.RefRun.lean ====
import proofs.«165059_j7095285973648_2_alg».proof.Defs
import proofs.«165059_j7095285973648_2_alg».proof.Proof.Gen.ReferenceIdeal
import proofs.«165059_j7095285973648_2_alg».proof.Proof.Spec
import Idealize.ShloMosaic.Lib.StableHlo.Run
import Idealize.ShloMosaic.Lib.Pipeline.Frame

/-! # The reference program's run

The reference is a straight line of 275 host operations (the calls of its rectifier stand as their three
operations). Its run is read off in thirteen stretches, one per stage of the network: after each stretch the
buffers still needed hold the stage functions of `Cert.Spec` applied to the argument arrays, and a buffer a
stretch does not write keeps its contents. Every weakly fair execution therefore terminates with the three
results at `Spec.O4`, `Spec.O1`, `Spec.O2` of the arguments, and the arguments unchanged. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 41 of the 275. -/
abbrev w0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x00000000#32),
    unary main_cst main_v4 (broadcastInDim S50000 ![] bcast_S_S50000 : (⟨S_, .f32⟩ : BufTy).Contents (Elt F) → (⟨S50000, .f32⟩ : BufTy).Contents (Elt F)),
    nullary main_c (constantI S_ 32 0#32),
    unary main_c main_v5 (broadcastInDim S800000 ![] bcast_S_S800000 : (⟨S_, .i32⟩ : BufTy).Contents (Elt F) → (⟨S800000, .i32⟩ : BufTy).Contents (Elt F)),
    binary main_v3 main_v5 main_v6 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v7 (broadcastInDim S800000 ![] bcast_S_S800000 : (⟨S_, .i32⟩ : BufTy).Contents (Elt F) → (⟨S800000, .i32⟩ : BufTy).Contents (Elt F)),
    binary main_v3 main_v7 main_v8 (addi : (⟨S800000, .i32⟩ : BufTy).Contents (Elt F) → (⟨S800000, .i32⟩ : BufTy).Contents (Elt F) → (⟨S800000, .i32⟩ : BufTy).Contents (Elt F)),
    ternary main_v6 main_v8 main_v3 main_v9 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v9 main_v10 (broadcastInDim S800000x1 ![0] bcast_S800000_S800000x1_0 : (⟨S800000, .i32⟩ : BufTy).Contents (Elt F) → (⟨S800000x1, .i32⟩ : BufTy).Contents (Elt F)),
    nullary main_cst_1 (constant S_ .f32 0x3F800000#32),
    unary main_cst_1 main_v11 (broadcastInDim S800000 ![] bcast_S_S800000 : (⟨S_, .f32⟩ : BufTy).Contents (Elt F) → (⟨S800000, .f32⟩ : BufTy).Contents (Elt F)),
    ternary main_v4 main_v10 main_v11 main_v12 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_2 (constant S_ .f32 0x3F800000#32),
    unary main_cst_2 main_v13 (broadcastInDim S50000 ![] bcast_S_S50000 : (⟨S_, .f32⟩ : BufTy).Contents (Elt F) → (⟨S50000, .f32⟩ : BufTy).Contents (Elt F)),
    binary main_v12 main_v13 main_v14 (addf : (⟨S50000, .f32⟩ : BufTy).Contents (Elt F) → (⟨S50000, .f32⟩ : BufTy).Contents (Elt F) → (⟨S50000, .f32⟩ : BufTy).Contents (Elt F)),
    unary main_v14 main_v15 (Host.rsqrt : (⟨S50000, .f32⟩ : BufTy).Contents (Elt F) → (⟨S50000, .f32⟩ : BufTy).Contents (Elt F)),
    nullary main_c_3 (constantI S_ 32 0#32),
    unary main_c_3 main_v16 (broadcastInDim S800000 ![] bcast_S_S800000 : (⟨S_, .i32⟩ : BufTy).Contents (Elt F) → (⟨S800000, .i32⟩ : BufTy).Contents (Elt F)),
    binary main_v1 main_v16 main_v17 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v18 (broadcastInDim S800000 ![] bcast_S_S800000 : (⟨S_, .i32⟩ : BufTy).Contents (Elt F) → (⟨S800000, .i32⟩ : BufTy).Contents (Elt F)),
    binary main_v1 main_v18 main_v19 (addi : (⟨S800000, .i32⟩ : BufTy).Contents (Elt F) → (⟨S800000, .i32⟩ : BufTy).Contents (Elt F) → (⟨S800000, .i32⟩ : BufTy).Contents (Elt F)),
    ternary main_v17 main_v19 main_v1 main_v20 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v20 main_v21 (broadcastInDim S800000x1 ![0] bcast_S800000_S800000x1_0 : (⟨S800000, .i32⟩ : BufTy).Contents (Elt F) → (⟨S800000x1, .i32⟩ : BufTy).Contents (Elt F)),
    binary main_v15 main_v21 main_v22 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_5 (constantI S_ 32 0#32),
    unary main_c_5 main_v23 (broadcastInDim S800000 ![] bcast_S_S800000 : (⟨S_, .i32⟩ : BufTy).Contents (Elt F) → (⟨S800000, .i32⟩ : BufTy).Contents (Elt F)),
    binary main_v3 main_v23 main_v24 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v25 (broadcastInDim S800000 ![] bcast_S_S800000 : (⟨S_, .i32⟩ : BufTy).Contents (Elt F) → (⟨S800000, .i32⟩ : BufTy).Contents (Elt F)),
    binary main_v3 main_v25 main_v26 (addi : (⟨S800000, .i32⟩ : BufTy).Contents (Elt F) → (⟨S800000, .i32⟩ : BufTy).Contents (Elt F) → (⟨S800000, .i32⟩ : BufTy).Contents (Elt F)),
    ternary main_v24 main_v26 main_v3 main_v27 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v27 main_v28 (broadcastInDim S800000x1 ![0] bcast_S800000_S800000x1_0 : (⟨S800000, .i32⟩ : BufTy).Contents (Elt F) → (⟨S800000x1, .i32⟩ : BufTy).Contents (Elt F)),
    binary main_v15 main_v28 main_v29 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v22 main_v29 main_v30 (mulf : (⟨S800000, .f32⟩ : BufTy).Contents (Elt F) → (⟨S800000, .f32⟩ : BufTy).Contents (Elt F) → (⟨S800000, .f32⟩ : BufTy).Contents (Elt F)),
    binary main_v15 main_v15 main_v31 (mulf : (⟨S50000, .f32⟩ : BufTy).Contents (Elt F) → (⟨S50000, .f32⟩ : BufTy).Contents (Elt F) → (⟨S50000, .f32⟩ : BufTy).Contents (Elt F)) ]

/-- Operations 42 … 45 of the 275. -/
abbrev w1 : List (HloOp τ sig (Elt F)) :=
  [ binary main_arg0 main_arg2 main_v32 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg3 main_v33 (broadcastInDim S1x128 ![1] bcast_S128_S1x128_1 : (⟨S128, .f32⟩ : BufTy).Contents (Elt F) → (⟨S1x128, .f32⟩ : BufTy).Contents (Elt F)),
    unary main_v33 main_v34 (broadcastInDim S50000x128 ![0, 1] bcast_S1x128_S50000x128_0_1 : (⟨S1x128, .f32⟩ : BufTy).Contents (Elt F) → (⟨S50000x128, .f32⟩ : BufTy).Contents (Elt F)),
    binary main_v32 main_v34 main_v35 (addf : (⟨S50000x128, .f32⟩ : BufTy).Contents (Elt F) → (⟨S50000x128, .f32⟩ : BufTy).Contents (Elt F) → (⟨S50000x128, .f32⟩ : BufTy).Contents (Elt F)) ]

/-- Operations 46 … 68 of the 275. -/
abbrev w2 : List (HloOp τ sig (Elt F)) :=
  [ nullary main_c_7 (constantI S_ 32 0#32),
    unary main_c_7 main_v36 (broadcastInDim S800000 ![] bcast_S_S800000 : (⟨S_, .i32⟩ : BufTy).Contents (Elt F) → (⟨S800000, .i32⟩ : BufTy).Contents (Elt F)),
    binary main_v1 main_v36 main_v37 (cmpi .slt : (⟨S800000, .i32⟩ : BufTy).Contents (Elt F) → (⟨S800000, .i32⟩ : BufTy).Contents (Elt F) → (⟨S800000, .i1⟩ : BufTy).Contents (Elt F)),
    nullary main_c_8 (constantI S_ 32 50000#32),
    unary main_c_8 main_v38 (broadcastInDim S800000 ![] bcast_S_S800000 : (⟨S_, .i32⟩ : BufTy).Contents (Elt F) → (⟨S800000, .i32⟩ : BufTy).Contents (Elt F)),
    binary main_v1 main_v38 main_v39 (addi : (⟨S800000, .i32⟩ : BufTy).Contents (Elt F) → (⟨S800000, .i32⟩ : BufTy).Contents (Elt F) → (⟨S800000, .i32⟩ : BufTy).Contents (Elt F)),
    ternary main_v37 main_v39 main_v1 main_v40 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v40 main_v41 (broadcastInDim S800000x1 ![0] bcast_S800000_S800000x1_0 : (⟨S800000, .i32⟩ : BufTy).Contents (Elt F) → (⟨S800000x1, .i32⟩ : BufTy).Contents (Elt F)),
    binary main_v35 main_v41 main_v42 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v30 main_v43 (broadcastInDim S800000x1 ![0] bcast_S800000_S800000x1_0 : (⟨S800000, .f32⟩ : BufTy).Contents (Elt F) → (⟨S800000x1, .f32⟩ : BufTy).Contents (Elt F)),
    unary main_v43 main_v44 (broadcastInDim S800000x128 ![0, 1] bcast_S800000x1_S800000x128_0_1 : (⟨S800000x1, .f32⟩ : BufTy).Contents (Elt F) → (⟨S800000x128, .f32⟩ : BufTy).Contents (Elt F)),
    binary main_v42 main_v44 main_v45 (mulf : (⟨S800000x128, .f32⟩ : BufTy).Contents (Elt F) → (⟨S800000x128, .f32⟩ : BufTy).Contents (Elt F) → (⟨S800000x128, .f32⟩ : BufTy).Contents (Elt F)),
    nullary main_cst_9 (constant S_ .f32 0x00000000#32),
    unary main_cst_9 main_v46 (broadcastInDim S50000x128 ![] bcast_S_S50000x128 : (⟨S_, .f32⟩ : BufTy).Contents (Elt F) → (⟨S50000x128, .f32⟩ : BufTy).Contents (Elt F)),
    unary main_v3 main_v47 (broadcastInDim S800000x1 ![0] bcast_S800000_S800000x1_0 : (⟨S800000, .i32⟩ : BufTy).Contents (Elt F) → (⟨S800000x1, .i32⟩ : BufTy).Contents (Elt F)),
    ternary main_v46 main_v47 main_v45 main_v48 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v31 main_v49 (broadcastInDim S50000x1 ![0] bcast_S50000_S50000x1_0 : (⟨S50000, .f32⟩ : BufTy).Contents (Elt F) → (⟨S50000x1, .f32⟩ : BufTy).Contents (Elt F)),
    unary main_v49 main_v50 (broadcastInDim S50000x128 ![0, 1] bcast_S50000x1_S50000x128_0_1 : (⟨S50000x1, .f32⟩ : BufTy).Contents (Elt F) → (⟨S50000x128, .f32⟩ : BufTy).Contents (Elt F)),
    binary main_v35 main_v50 main_v51 (mulf : (⟨S50000x128, .f32⟩ : BufTy).Contents (Elt F) → (⟨S50000x128, .f32⟩ : BufTy).Contents (Elt F) → (⟨S50000x128, .f32⟩ : BufTy).Contents (Elt F)),
    binary main_v48 main_v51 main_v52 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v52) (TRef.of (T := ⟨S50000x128, .f32⟩) main_call0_v0) (TRef.of (T := ⟨S50000x128, .f32⟩) main_v53) maximumf ]

/-- Operations 69 … 101 of the 275. -/
abbrev w3 : List (HloOp τ sig (Elt F)) :=
  [ nullary main_cst_10 (constant S_ .f32 0x00000000#32),
    binary main_v53 main_cst_10 main_v54 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_11 (constant S_ .f32 0x47435000#32),
    unary main_cst_11 main_v55 (broadcastInDim S128 ![] bcast_S_S128 : (⟨S_, .f32⟩ : BufTy).Contents (Elt F) → (⟨S128, .f32⟩ : BufTy).Contents (Elt F)),
    binary main_v54 main_v55 main_v56 (Host.divf : (⟨S128, .f32⟩ : BufTy).Contents (Elt F) → (⟨S128, .f32⟩ : BufTy).Contents (Elt F) → (⟨S128, .f32⟩ : BufTy).Contents (Elt F)),
    unary main_v56 main_v57 (broadcastInDim S1x128 ![1] bcast_S128_S1x128_1 : (⟨S128, .f32⟩ : BufTy).Contents (Elt F) → (⟨S1x128, .f32⟩ : BufTy).Contents (Elt F)),
    unary main_v57 main_v58 (broadcastInDim S50000x128 ![0, 1] bcast_S1x128_S50000x128_0_1 : (⟨S1x128, .f32⟩ : BufTy).Contents (Elt F) → (⟨S50000x128, .f32⟩ : BufTy).Contents (Elt F)),
    binary main_v53 main_v58 main_v59 (subf : (⟨S50000x128, .f32⟩ : BufTy).Contents (Elt F) → (⟨S50000x128, .f32⟩ : BufTy).Contents (Elt F) → (⟨S50000x128, .f32⟩ : BufTy).Contents (Elt F)),
    binary main_v59 main_v59 main_v60 (mulf : (⟨S50000x128, .f32⟩ : BufTy).Contents (Elt F) → (⟨S50000x128, .f32⟩ : BufTy).Contents (Elt F) → (⟨S50000x128, .f32⟩ : BufTy).Contents (Elt F)),
    nullary main_cst_12 (constant S_ .f32 0x00000000#32),
    binary main_v60 main_cst_12 main_v61 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_13 (constant S_ .f32 0x47435000#32),
    unary main_cst_13 main_v62 (broadcastInDim S128 ![] bcast_S_S128 : (⟨S_, .f32⟩ : BufTy).Contents (Elt F) → (⟨S128, .f32⟩ : BufTy).Contents (Elt F)),
    binary main_v61 main_v62 main_v63 (Host.divf : (⟨S128, .f32⟩ : BufTy).Contents (Elt F) → (⟨S128, .f32⟩ : BufTy).Contents (Elt F) → (⟨S128, .f32⟩ : BufTy).Contents (Elt F)),
    unary main_v56 main_v64 (broadcastInDim S1x128 ![1] bcast_S128_S1x128_1 : (⟨S128, .f32⟩ : BufTy).Contents (Elt F) → (⟨S1x128, .f32⟩ : BufTy).Contents (Elt F)),
    unary main_v64 main_v65 (broadcastInDim S50000x128 ![0, 1] bcast_S1x128_S50000x128_0_1 : (⟨S1x128, .f32⟩ : BufTy).Contents (Elt F) → (⟨S50000x128, .f32⟩ : BufTy).Contents (Elt F)),
    binary main_v53 main_v65 main_v66 (subf : (⟨S50000x128, .f32⟩ : BufTy).Contents (Elt F) → (⟨S50000x128, .f32⟩ : BufTy).Contents (Elt F) → (⟨S50000x128, .f32⟩ : BufTy).Contents (Elt F)),
    unary main_arg4 main_v67 (broadcastInDim S1x128 ![1] bcast_S128_S1x128_1 : (⟨S128, .f32⟩ : BufTy).Contents (Elt F) → (⟨S1x128, .f32⟩ : BufTy).Contents (Elt F)),
    unary main_v67 main_v68 (broadcastInDim S50000x128 ![0, 1] bcast_S1x128_S50000x128_0_1 : (⟨S1x128, .f32⟩ : BufTy).Contents (Elt F) → (⟨S50000x128, .f32⟩ : BufTy).Contents (Elt F)),
    binary main_v68 main_v66 main_v69 (mulf : (⟨S50000x128, .f32⟩ : BufTy).Contents (Elt F) → (⟨S50000x128, .f32⟩ : BufTy).Contents (Elt F) → (⟨S50000x128, .f32⟩ : BufTy).Contents (Elt F)),
    nullary main_cst_14 (constant S_ .f32 0x3727C5AC#32),
    unary main_cst_14 main_v70 (broadcastInDim S128 ![] bcast_S_S128 : (⟨S_, .f32⟩ : BufTy).Contents (Elt F) → (⟨S128, .f32⟩ : BufTy).Contents (Elt F)),
    binary main_v63 main_v70 main_v71 (addf : (⟨S128, .f32⟩ : BufTy).Contents (Elt F) → (⟨S128, .f32⟩ : BufTy).Contents (Elt F) → (⟨S128, .f32⟩ : BufTy).Contents (Elt F)),
    unary main_v71 main_v72 (Host.rsqrt : (⟨S128, .f32⟩ : BufTy).Contents (Elt F) → (⟨S128, .f32⟩ : BufTy).Contents (Elt F)),
    unary main_v72 main_v73 (broadcastInDim S1x128 ![1] bcast_S128_S1x128_1 : (⟨S128, .f32⟩ : BufTy).Contents (Elt F) → (⟨S1x128, .f32⟩ : BufTy).Contents (Elt F)),
    unary main_v73 main_v74 (broadcastInDim S50000x128 ![0, 1] bcast_S1x128_S50000x128_0_1 : (⟨S1x128, .f32⟩ : BufTy).Contents (Elt F) → (⟨S50000x128, .f32⟩ : BufTy).Contents (Elt F)),
    binary main_v69 main_v74 main_v75 (mulf : (⟨S50000x128, .f32⟩ : BufTy).Contents (Elt F) → (⟨S50000x128, .f32⟩ : BufTy).Contents (Elt F) → (⟨S50000x128, .f32⟩ : BufTy).Contents (Elt F)),
    unary main_arg5 main_v76 (broadcastInDim S1x128 ![1] bcast_S128_S1x128_1 : (⟨S128, .f32⟩ : BufTy).Contents (Elt F) → (⟨S1x128, .f32⟩ : BufTy).Contents (Elt F)),
    unary main_v76 main_v77 (broadcastInDim S50000x128 ![0, 1] bcast_S1x128_S50000x128_0_1 : (⟨S1x128, .f32⟩ : BufTy).Contents (Elt F) → (⟨S50000x128, .f32⟩ : BufTy).Contents (Elt F)),
    binary main_v75 main_v77 main_v78 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v78) (TRef.of (T := ⟨S50000x128, .f32⟩) main_call1_v0) (TRef.of (T := ⟨S50000x128, .f32⟩) main_v79) maximumf ]

/-- Operations 102 … 105 of the 275. -/
abbrev w4 : List (HloOp τ sig (Elt F)) :=
  [ binary main_v79 main_arg6 main_v80 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg7 main_v81 (broadcastInDim S1x64 ![1] bcast_S64_S1x64_1 : (⟨S64, .f32⟩ : BufTy).Contents (Elt F) → (⟨S1x64, .f32⟩ : BufTy).Contents (Elt F)),
    unary main_v81 main_v82 (broadcastInDim S50000x64 ![0, 1] bcast_S1x64_S50000x64_0_1 : (⟨S1x64, .f32⟩ : BufTy).Contents (Elt F) → (⟨S50000x64, .f32⟩ : BufTy).Contents (Elt F)),
    binary main_v80 main_v82 main_v83 (addf : (⟨S50000x64, .f32⟩ : BufTy).Contents (Elt F) → (⟨S50000x64, .f32⟩ : BufTy).Contents (Elt F) → (⟨S50000x64, .f32⟩ : BufTy).Contents (Elt F)) ]

/-- Operations 106 … 128 of the 275. -/
abbrev w5 : List (HloOp τ sig (Elt F)) :=
  [ nullary main_c_15 (constantI S_ 32 0#32),
    unary main_c_15 main_v84 (broadcastInDim S800000 ![] bcast_S_S800000 : (⟨S_, .i32⟩ : BufTy).Contents (Elt F) → (⟨S800000, .i32⟩ : BufTy).Contents (Elt F)),
    binary main_v1 main_v84 main_v85 (cmpi .slt : (⟨S800000, .i32⟩ : BufTy).Contents (Elt F) → (⟨S800000, .i32⟩ : BufTy).Contents (Elt F) → (⟨S800000, .i1⟩ : BufTy).Contents (Elt F)),
    nullary main_c_16 (constantI S_ 32 50000#32),
    unary main_c_16 main_v86 (broadcastInDim S800000 ![] bcast_S_S800000 : (⟨S_, .i32⟩ : BufTy).Contents (Elt F) → (⟨S800000, .i32⟩ : BufTy).Contents (Elt F)),
    binary main_v1 main_v86 main_v87 (addi : (⟨S800000, .i32⟩ : BufTy).Contents (Elt F) → (⟨S800000, .i32⟩ : BufTy).Contents (Elt F) → (⟨S800000, .i32⟩ : BufTy).Contents (Elt F)),
    ternary main_v85 main_v87 main_v1 main_v88 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v88 main_v89 (broadcastInDim S800000x1 ![0] bcast_S800000_S800000x1_0 : (⟨S800000, .i32⟩ : BufTy).Contents (Elt F) → (⟨S800000x1, .i32⟩ : BufTy).Contents (Elt F)),
    binary main_v83 main_v89 main_v90 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v30 main_v91 (broadcastInDim S800000x1 ![0] bcast_S800000_S800000x1_0 : (⟨S800000, .f32⟩ : BufTy).Contents (Elt F) → (⟨S800000x1, .f32⟩ : BufTy).Contents (Elt F)),
    unary main_v91 main_v92 (broadcastInDim S800000x64 ![0, 1] bcast_S800000x1_S800000x64_0_1 : (⟨S800000x1, .f32⟩ : BufTy).Contents (Elt F) → (⟨S800000x64, .f32⟩ : BufTy).Contents (Elt F)),
    binary main_v90 main_v92 main_v93 (mulf : (⟨S800000x64, .f32⟩ : BufTy).Contents (Elt F) → (⟨S800000x64, .f32⟩ : BufTy).Contents (Elt F) → (⟨S800000x64, .f32⟩ : BufTy).Contents (Elt F)),
    nullary main_cst_17 (constant S_ .f32 0x00000000#32),
    unary main_cst_17 main_v94 (broadcastInDim S50000x64 ![] bcast_S_S50000x64 : (⟨S_, .f32⟩ : BufTy).Contents (Elt F) → (⟨S50000x64, .f32⟩ : BufTy).Contents (Elt F)),
    unary main_v3 main_v95 (broadcastInDim S800000x1 ![0] bcast_S800000_S800000x1_0 : (⟨S800000, .i32⟩ : BufTy).Contents (Elt F) → (⟨S800000x1, .i32⟩ : BufTy).Contents (Elt F)),
    ternary main_v94 main_v95 main_v93 main_v96 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v31 main_v97 (broadcastInDim S50000x1 ![0] bcast_S50000_S50000x1_0 : (⟨S50000, .f32⟩ : BufTy).Contents (Elt F) → (⟨S50000x1, .f32⟩ : BufTy).Contents (Elt F)),
    unary main_v97 main_v98 (broadcastInDim S50000x64 ![0, 1] bcast_S50000x1_S50000x64_0_1 : (⟨S50000x1, .f32⟩ : BufTy).Contents (Elt F) → (⟨S50000x64, .f32⟩ : BufTy).Contents (Elt F)),
    binary main_v83 main_v98 main_v99 (mulf : (⟨S50000x64, .f32⟩ : BufTy).Contents (Elt F) → (⟨S50000x64, .f32⟩ : BufTy).Contents (Elt F) → (⟨S50000x64, .f32⟩ : BufTy).Contents (Elt F)),
    binary main_v96 main_v99 main_v100 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x64, .f32⟩) main_call2_v0) (broadcastInDim S50000x64 ![] bcast_S_S50000x64),
    TRef.binary (TRef.of (T := ⟨S50000x64, .f32⟩) main_v100) (TRef.of (T := ⟨S50000x64, .f32⟩) main_call2_v0) (TRef.of (T := ⟨S50000x64, .f32⟩) main_v101) maximumf ]

/-- Operations 129 … 158 of the 275. -/
abbrev w6 : List (HloOp τ sig (Elt F)) :=
  [ nullary main_cst_18 (constant S_ .f32 0x00000000#32),
    binary main_v101 main_cst_18 main_v102 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_19 (constant S_ .f32 0x47435000#32),
    unary main_cst_19 main_v103 (broadcastInDim S64 ![] bcast_S_S64 : (⟨S_, .f32⟩ : BufTy).Contents (Elt F) → (⟨S64, .f32⟩ : BufTy).Contents (Elt F)),
    binary main_v102 main_v103 main_v104 (Host.divf : (⟨S64, .f32⟩ : BufTy).Contents (Elt F) → (⟨S64, .f32⟩ : BufTy).Contents (Elt F) → (⟨S64, .f32⟩ : BufTy).Contents (Elt F)),
    unary main_v104 main_v105 (broadcastInDim S1x64 ![1] bcast_S64_S1x64_1 : (⟨S64, .f32⟩ : BufTy).Contents (Elt F) → (⟨S1x64, .f32⟩ : BufTy).Contents (Elt F)),
    unary main_v105 main_v106 (broadcastInDim S50000x64 ![0, 1] bcast_S1x64_S50000x64_0_1 : (⟨S1x64, .f32⟩ : BufTy).Contents (Elt F) → (⟨S50000x64, .f32⟩ : BufTy).Contents (Elt F)),
    binary main_v101 main_v106 main_v107 (subf : (⟨S50000x64, .f32⟩ : BufTy).Contents (Elt F) → (⟨S50000x64, .f32⟩ : BufTy).Contents (Elt F) → (⟨S50000x64, .f32⟩ : BufTy).Contents (Elt F)),
    binary main_v107 main_v107 main_v108 (mulf : (⟨S50000x64, .f32⟩ : BufTy).Contents (Elt F) → (⟨S50000x64, .f32⟩ : BufTy).Contents (Elt F) → (⟨S50000x64, .f32⟩ : BufTy).Contents (Elt F)),
    nullary main_cst_20 (constant S_ .f32 0x00000000#32),
    binary main_v108 main_cst_20 main_v109 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_21 (constant S_ .f32 0x47435000#32),
    unary main_cst_21 main_v110 (broadcastInDim S64 ![] bcast_S_S64 : (⟨S_, .f32⟩ : BufTy).Contents (Elt F) → (⟨S64, .f32⟩ : BufTy).Contents (Elt F)),
    binary main_v109 main_v110 main_v111 (Host.divf : (⟨S64, .f32⟩ : BufTy).Contents (Elt F) → (⟨S64, .f32⟩ : BufTy).Contents (Elt F) → (⟨S64, .f32⟩ : BufTy).Contents (Elt F)),
    unary main_v104 main_v112 (broadcastInDim S1x64 ![1] bcast_S64_S1x64_1 : (⟨S64, .f32⟩ : BufTy).Contents (Elt F) → (⟨S1x64, .f32⟩ : BufTy).Contents (Elt F)),
    unary main_v112 main_v113 (broadcastInDim S50000x64 ![0, 1] bcast_S1x64_S50000x64_0_1 : (⟨S1x64, .f32⟩ : BufTy).Contents (Elt F) → (⟨S50000x64, .f32⟩ : BufTy).Contents (Elt F)),
    binary main_v101 main_v113 main_v114 (subf : (⟨S50000x64, .f32⟩ : BufTy).Contents (Elt F) → (⟨S50000x64, .f32⟩ : BufTy).Contents (Elt F) → (⟨S50000x64, .f32⟩ : BufTy).Contents (Elt F)),
    unary main_arg8 main_v115 (broadcastInDim S1x64 ![1] bcast_S64_S1x64_1 : (⟨S64, .f32⟩ : BufTy).Contents (Elt F) → (⟨S1x64, .f32⟩ : BufTy).Contents (Elt F)),
    unary main_v115 main_v116 (broadcastInDim S50000x64 ![0, 1] bcast_S1x64_S50000x64_0_1 : (⟨S1x64, .f32⟩ : BufTy).Contents (Elt F) → (⟨S50000x64, .f32⟩ : BufTy).Contents (Elt F)),
    binary main_v116 main_v114 main_v117 (mulf : (⟨S50000x64, .f32⟩ : BufTy).Contents (Elt F) → (⟨S50000x64, .f32⟩ : BufTy).Contents (Elt F) → (⟨S50000x64, .f32⟩ : BufTy).Contents (Elt F)),
    nullary main_cst_22 (constant S_ .f32 0x3727C5AC#32),
    unary main_cst_22 main_v118 (broadcastInDim S64 ![] bcast_S_S64 : (⟨S_, .f32⟩ : BufTy).Contents (Elt F) → (⟨S64, .f32⟩ : BufTy).Contents (Elt F)),
    binary main_v111 main_v118 main_v119 (addf : (⟨S64, .f32⟩ : BufTy).Contents (Elt F) → (⟨S64, .f32⟩ : BufTy).Contents (Elt F) → (⟨S64, .f32⟩ : BufTy).Contents (Elt F)),
    unary main_v119 main_v120 (Host.rsqrt : (⟨S64, .f32⟩ : BufTy).Contents (Elt F) → (⟨S64, .f32⟩ : BufTy).Contents (Elt F)),
    unary main_v120 main_v121 (broadcastInDim S1x64 ![1] bcast_S64_S1x64_1 : (⟨S64, .f32⟩ : BufTy).Contents (Elt F) → (⟨S1x64, .f32⟩ : BufTy).Contents (Elt F)),
    unary main_v121 main_v122 (broadcastInDim S50000x64 ![0, 1] bcast_S1x64_S50000x64_0_1 : (⟨S1x64, .f32⟩ : BufTy).Contents (Elt F) → (⟨S50000x64, .f32⟩ : BufTy).Contents (Elt F)),
    binary main_v117 main_v122 main_v123 (mulf : (⟨S50000x64, .f32⟩ : BufTy).Contents (Elt F) → (⟨S50000x64, .f32⟩ : BufTy).Contents (Elt F) → (⟨S50000x64, .f32⟩ : BufTy).Contents (Elt F)),
    unary main_arg9 main_v124 (broadcastInDim S1x64 ![1] bcast_S64_S1x64_1 : (⟨S64, .f32⟩ : BufTy).Contents (Elt F) → (⟨S1x64, .f32⟩ : BufTy).Contents (Elt F)),
    unary main_v124 main_v125 (broadcastInDim S50000x64 ![0, 1] bcast_S1x64_S50000x64_0_1 : (⟨S1x64, .f32⟩ : BufTy).Contents (Elt F) → (⟨S50000x64, .f32⟩ : BufTy).Contents (Elt F)),
    binary main_v123 main_v125 main_v126 (addf : (⟨S50000x64, .f32⟩ : BufTy).Contents (Elt F) → (⟨S50000x64, .f32⟩ : BufTy).Contents (Elt F) → (⟨S50000x64, .f32⟩ : BufTy).Contents (Elt F)) ]

/-- Operations 159 … 162 of the 275. -/
abbrev w7 : List (HloOp τ sig (Elt F)) :=
  [ binary main_v126 main_arg10 main_v127 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    unary main_arg11 main_v128 (broadcastInDim S1x128 ![1] bcast_S128_S1x128_1 : (⟨S128, .f32⟩ : BufTy).Contents (Elt F) → (⟨S1x128, .f32⟩ : BufTy).Contents (Elt F)),
    unary main_v128 main_v129 (broadcastInDim S50000x128 ![0, 1] bcast_S1x128_S50000x128_0_1 : (⟨S1x128, .f32⟩ : BufTy).Contents (Elt F) → (⟨S50000x128, .f32⟩ : BufTy).Contents (Elt F)),
    binary main_v127 main_v129 main_v130 (addf : (⟨S50000x128, .f32⟩ : BufTy).Contents (Elt F) → (⟨S50000x128, .f32⟩ : BufTy).Contents (Elt F) → (⟨S50000x128, .f32⟩ : BufTy).Contents (Elt F)) ]

/-- Operations 163 … 185 of the 275. -/
abbrev w8 : List (HloOp τ sig (Elt F)) :=
  [ nullary main_c_23 (constantI S_ 32 0#32),
    unary main_c_23 main_v131 (broadcastInDim S800000 ![] bcast_S_S800000 : (⟨S_, .i32⟩ : BufTy).Contents (Elt F) → (⟨S800000, .i32⟩ : BufTy).Contents (Elt F)),
    binary main_v1 main_v131 main_v132 (cmpi .slt : (⟨S800000, .i32⟩ : BufTy).Contents (Elt F) → (⟨S800000, .i32⟩ : BufTy).Contents (Elt F) → (⟨S800000, .i1⟩ : BufTy).Contents (Elt F)),
    nullary main_c_24 (constantI S_ 32 50000#32),
    unary main_c_24 main_v133 (broadcastInDim S800000 ![] bcast_S_S800000 : (⟨S_, .i32⟩ : BufTy).Contents (Elt F) → (⟨S800000, .i32⟩ : BufTy).Contents (Elt F)),
    binary main_v1 main_v133 main_v134 (addi : (⟨S800000, .i32⟩ : BufTy).Contents (Elt F) → (⟨S800000, .i32⟩ : BufTy).Contents (Elt F) → (⟨S800000, .i32⟩ : BufTy).Contents (Elt F)),
    ternary main_v132 main_v134 main_v1 main_v135 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v135 main_v136 (broadcastInDim S800000x1 ![0] bcast_S800000_S800000x1_0 : (⟨S800000, .i32⟩ : BufTy).Contents (Elt F) → (⟨S800000x1, .i32⟩ : BufTy).Contents (Elt F)),
    binary main_v130 main_v136 main_v137 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v30 main_v138 (broadcastInDim S800000x1 ![0] bcast_S800000_S800000x1_0 : (⟨S800000, .f32⟩ : BufTy).Contents (Elt F) → (⟨S800000x1, .f32⟩ : BufTy).Contents (Elt F)),
    unary main_v138 main_v139 (broadcastInDim S800000x128 ![0, 1] bcast_S800000x1_S800000x128_0_1 : (⟨S800000x1, .f32⟩ : BufTy).Contents (Elt F) → (⟨S800000x128, .f32⟩ : BufTy).Contents (Elt F)),
    binary main_v137 main_v139 main_v140 (mulf : (⟨S800000x128, .f32⟩ : BufTy).Contents (Elt F) → (⟨S800000x128, .f32⟩ : BufTy).Contents (Elt F) → (⟨S800000x128, .f32⟩ : BufTy).Contents (Elt F)),
    nullary main_cst_25 (constant S_ .f32 0x00000000#32),
    unary main_cst_25 main_v141 (broadcastInDim S50000x128 ![] bcast_S_S50000x128 : (⟨S_, .f32⟩ : BufTy).Contents (Elt F) → (⟨S50000x128, .f32⟩ : BufTy).Contents (Elt F)),
    unary main_v3 main_v142 (broadcastInDim S800000x1 ![0] bcast_S800000_S800000x1_0 : (⟨S800000, .i32⟩ : BufTy).Contents (Elt F) → (⟨S800000x1, .i32⟩ : BufTy).Contents (Elt F)),
    ternary main_v141 main_v142 main_v140 main_v143 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v31 main_v144 (broadcastInDim S50000x1 ![0] bcast_S50000_S50000x1_0 : (⟨S50000, .f32⟩ : BufTy).Contents (Elt F) → (⟨S50000x1, .f32⟩ : BufTy).Contents (Elt F)),
    unary main_v144 main_v145 (broadcastInDim S50000x128 ![0, 1] bcast_S50000x1_S50000x128_0_1 : (⟨S50000x1, .f32⟩ : BufTy).Contents (Elt F) → (⟨S50000x128, .f32⟩ : BufTy).Contents (Elt F)),
    binary main_v130 main_v145 main_v146 (mulf : (⟨S50000x128, .f32⟩ : BufTy).Contents (Elt F) → (⟨S50000x128, .f32⟩ : BufTy).Contents (Elt F) → (⟨S50000x128, .f32⟩ : BufTy).Contents (Elt F)),
    binary main_v143 main_v146 main_v147 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v147) (TRef.of (T := ⟨S50000x128, .f32⟩) main_call3_v0) (TRef.of (T := ⟨S50000x128, .f32⟩) main_v148) maximumf ]

/-- Operations 186 … 218 of the 275. -/
abbrev w9 : List (HloOp τ sig (Elt F)) :=
  [ nullary main_cst_26 (constant S_ .f32 0x00000000#32),
    binary main_v148 main_cst_26 main_v149 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_27 (constant S_ .f32 0x47435000#32),
    unary main_cst_27 main_v150 (broadcastInDim S128 ![] bcast_S_S128 : (⟨S_, .f32⟩ : BufTy).Contents (Elt F) → (⟨S128, .f32⟩ : BufTy).Contents (Elt F)),
    binary main_v149 main_v150 main_v151 (Host.divf : (⟨S128, .f32⟩ : BufTy).Contents (Elt F) → (⟨S128, .f32⟩ : BufTy).Contents (Elt F) → (⟨S128, .f32⟩ : BufTy).Contents (Elt F)),
    unary main_v151 main_v152 (broadcastInDim S1x128 ![1] bcast_S128_S1x128_1 : (⟨S128, .f32⟩ : BufTy).Contents (Elt F) → (⟨S1x128, .f32⟩ : BufTy).Contents (Elt F)),
    unary main_v152 main_v153 (broadcastInDim S50000x128 ![0, 1] bcast_S1x128_S50000x128_0_1 : (⟨S1x128, .f32⟩ : BufTy).Contents (Elt F) → (⟨S50000x128, .f32⟩ : BufTy).Contents (Elt F)),
    binary main_v148 main_v153 main_v154 (subf : (⟨S50000x128, .f32⟩ : BufTy).Contents (Elt F) → (⟨S50000x128, .f32⟩ : BufTy).Contents (Elt F) → (⟨S50000x128, .f32⟩ : BufTy).Contents (Elt F)),
    binary main_v154 main_v154 main_v155 (mulf : (⟨S50000x128, .f32⟩ : BufTy).Contents (Elt F) → (⟨S50000x128, .f32⟩ : BufTy).Contents (Elt F) → (⟨S50000x128, .f32⟩ : BufTy).Contents (Elt F)),
    nullary main_cst_28 (constant S_ .f32 0x00000000#32),
    binary main_v155 main_cst_28 main_v156 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_29 (constant S_ .f32 0x47435000#32),
    unary main_cst_29 main_v157 (broadcastInDim S128 ![] bcast_S_S128 : (⟨S_, .f32⟩ : BufTy).Contents (Elt F) → (⟨S128, .f32⟩ : BufTy).Contents (Elt F)),
    binary main_v156 main_v157 main_v158 (Host.divf : (⟨S128, .f32⟩ : BufTy).Contents (Elt F) → (⟨S128, .f32⟩ : BufTy).Contents (Elt F) → (⟨S128, .f32⟩ : BufTy).Contents (Elt F)),
    unary main_v151 main_v159 (broadcastInDim S1x128 ![1] bcast_S128_S1x128_1 : (⟨S128, .f32⟩ : BufTy).Contents (Elt F) → (⟨S1x128, .f32⟩ : BufTy).Contents (Elt F)),
    unary main_v159 main_v160 (broadcastInDim S50000x128 ![0, 1] bcast_S1x128_S50000x128_0_1 : (⟨S1x128, .f32⟩ : BufTy).Contents (Elt F) → (⟨S50000x128, .f32⟩ : BufTy).Contents (Elt F)),
    binary main_v148 main_v160 main_v161 (subf : (⟨S50000x128, .f32⟩ : BufTy).Contents (Elt F) → (⟨S50000x128, .f32⟩ : BufTy).Contents (Elt F) → (⟨S50000x128, .f32⟩ : BufTy).Contents (Elt F)),
    unary main_arg12 main_v162 (broadcastInDim S1x128 ![1] bcast_S128_S1x128_1 : (⟨S128, .f32⟩ : BufTy).Contents (Elt F) → (⟨S1x128, .f32⟩ : BufTy).Contents (Elt F)),
    unary main_v162 main_v163 (broadcastInDim S50000x128 ![0, 1] bcast_S1x128_S50000x128_0_1 : (⟨S1x128, .f32⟩ : BufTy).Contents (Elt F) → (⟨S50000x128, .f32⟩ : BufTy).Contents (Elt F)),
    binary main_v163 main_v161 main_v164 (mulf : (⟨S50000x128, .f32⟩ : BufTy).Contents (Elt F) → (⟨S50000x128, .f32⟩ : BufTy).Contents (Elt F) → (⟨S50000x128, .f32⟩ : BufTy).Contents (Elt F)),
    nullary main_cst_30 (constant S_ .f32 0x3727C5AC#32),
    unary main_cst_30 main_v165 (broadcastInDim S128 ![] bcast_S_S128 : (⟨S_, .f32⟩ : BufTy).Contents (Elt F) → (⟨S128, .f32⟩ : BufTy).Contents (Elt F)),
    binary main_v158 main_v165 main_v166 (addf : (⟨S128, .f32⟩ : BufTy).Contents (Elt F) → (⟨S128, .f32⟩ : BufTy).Contents (Elt F) → (⟨S128, .f32⟩ : BufTy).Contents (Elt F)),
    unary main_v166 main_v167 (Host.rsqrt : (⟨S128, .f32⟩ : BufTy).Contents (Elt F) → (⟨S128, .f32⟩ : BufTy).Contents (Elt F)),
    unary main_v167 main_v168 (broadcastInDim S1x128 ![1] bcast_S128_S1x128_1 : (⟨S128, .f32⟩ : BufTy).Contents (Elt F) → (⟨S1x128, .f32⟩ : BufTy).Contents (Elt F)),
    unary main_v168 main_v169 (broadcastInDim S50000x128 ![0, 1] bcast_S1x128_S50000x128_0_1 : (⟨S1x128, .f32⟩ : BufTy).Contents (Elt F) → (⟨S50000x128, .f32⟩ : BufTy).Contents (Elt F)),
    binary main_v164 main_v169 main_v170 (mulf : (⟨S50000x128, .f32⟩ : BufTy).Contents (Elt F) → (⟨S50000x128, .f32⟩ : BufTy).Contents (Elt F) → (⟨S50000x128, .f32⟩ : BufTy).Contents (Elt F)),
    unary main_arg13 main_v171 (broadcastInDim S1x128 ![1] bcast_S128_S1x128_1 : (⟨S128, .f32⟩ : BufTy).Contents (Elt F) → (⟨S1x128, .f32⟩ : BufTy).Contents (Elt F)),
    unary main_v171 main_v172 (broadcastInDim S50000x128 ![0, 1] bcast_S1x128_S50000x128_0_1 : (⟨S1x128, .f32⟩ : BufTy).Contents (Elt F) → (⟨S50000x128, .f32⟩ : BufTy).Contents (Elt F)),
    binary main_v170 main_v172 main_v173 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x128, .f32⟩) main_call4_v0) (broadcastInDim S50000x128 ![] bcast_S_S50000x128),
    TRef.binary (TRef.of (T := ⟨S50000x128, .f32⟩) main_v173) (TRef.of (T := ⟨S50000x128, .f32⟩) main_call4_v0) (TRef.of (T := ⟨S50000x128, .f32⟩) main_v174) maximumf ]

/-- Operations 219 … 222 of the 275. -/
abbrev w10 : List (HloOp τ sig (Elt F)) :=
  [ binary main_v174 main_arg14 main_v175 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg15 main_v176 (broadcastInDim S1x256 ![1] bcast_S256_S1x256_1 : (⟨S256, .f32⟩ : BufTy).Contents (Elt F) → (⟨S1x256, .f32⟩ : BufTy).Contents (Elt F)),
    unary main_v176 main_v177 (broadcastInDim S50000x256 ![0, 1] bcast_S1x256_S50000x256_0_1 : (⟨S1x256, .f32⟩ : BufTy).Contents (Elt F) → (⟨S50000x256, .f32⟩ : BufTy).Contents (Elt F)),
    binary main_v175 main_v177 main_v178 (addf : (⟨S50000x256, .f32⟩ : BufTy).Contents (Elt F) → (⟨S50000x256, .f32⟩ : BufTy).Contents (Elt F) → (⟨S50000x256, .f32⟩ : BufTy).Contents (Elt F)) ]

/-- Operations 223 … 245 of the 275. -/
abbrev w11 : List (HloOp τ sig (Elt F)) :=
  [ nullary main_c_31 (constantI S_ 32 0#32),
    unary main_c_31 main_v179 (broadcastInDim S800000 ![] bcast_S_S800000 : (⟨S_, .i32⟩ : BufTy).Contents (Elt F) → (⟨S800000, .i32⟩ : BufTy).Contents (Elt F)),
    binary main_v1 main_v179 main_v180 (cmpi .slt : (⟨S800000, .i32⟩ : BufTy).Contents (Elt F) → (⟨S800000, .i32⟩ : BufTy).Contents (Elt F) → (⟨S800000, .i1⟩ : BufTy).Contents (Elt F)),
    nullary main_c_32 (constantI S_ 32 50000#32),
    unary main_c_32 main_v181 (broadcastInDim S800000 ![] bcast_S_S800000 : (⟨S_, .i32⟩ : BufTy).Contents (Elt F) → (⟨S800000, .i32⟩ : BufTy).Contents (Elt F)),
    binary main_v1 main_v181 main_v182 (addi : (⟨S800000, .i32⟩ : BufTy).Contents (Elt F) → (⟨S800000, .i32⟩ : BufTy).Contents (Elt F) → (⟨S800000, .i32⟩ : BufTy).Contents (Elt F)),
    ternary main_v180 main_v182 main_v1 main_v183 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v183 main_v184 (broadcastInDim S800000x1 ![0] bcast_S800000_S800000x1_0 : (⟨S800000, .i32⟩ : BufTy).Contents (Elt F) → (⟨S800000x1, .i32⟩ : BufTy).Contents (Elt F)),
    binary main_v178 main_v184 main_v185 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    unary main_v30 main_v186 (broadcastInDim S800000x1 ![0] bcast_S800000_S800000x1_0 : (⟨S800000, .f32⟩ : BufTy).Contents (Elt F) → (⟨S800000x1, .f32⟩ : BufTy).Contents (Elt F)),
    unary main_v186 main_v187 (broadcastInDim S800000x256 ![0, 1] bcast_S800000x1_S800000x256_0_1 : (⟨S800000x1, .f32⟩ : BufTy).Contents (Elt F) → (⟨S800000x256, .f32⟩ : BufTy).Contents (Elt F)),
    binary main_v185 main_v187 main_v188 (mulf : (⟨S800000x256, .f32⟩ : BufTy).Contents (Elt F) → (⟨S800000x256, .f32⟩ : BufTy).Contents (Elt F) → (⟨S800000x256, .f32⟩ : BufTy).Contents (Elt F)),
    nullary main_cst_33 (constant S_ .f32 0x00000000#32),
    unary main_cst_33 main_v189 (broadcastInDim S50000x256 ![] bcast_S_S50000x256 : (⟨S_, .f32⟩ : BufTy).Contents (Elt F) → (⟨S50000x256, .f32⟩ : BufTy).Contents (Elt F)),
    unary main_v3 main_v190 (broadcastInDim S800000x1 ![0] bcast_S800000_S800000x1_0 : (⟨S800000, .i32⟩ : BufTy).Contents (Elt F) → (⟨S800000x1, .i32⟩ : BufTy).Contents (Elt F)),
    ternary main_v189 main_v190 main_v188 main_v191 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    unary main_v31 main_v192 (broadcastInDim S50000x1 ![0] bcast_S50000_S50000x1_0 : (⟨S50000, .f32⟩ : BufTy).Contents (Elt F) → (⟨S50000x1, .f32⟩ : BufTy).Contents (Elt F)),
    unary main_v192 main_v193 (broadcastInDim S50000x256 ![0, 1] bcast_S50000x1_S50000x256_0_1 : (⟨S50000x1, .f32⟩ : BufTy).Contents (Elt F) → (⟨S50000x256, .f32⟩ : BufTy).Contents (Elt F)),
    binary main_v178 main_v193 main_v194 (mulf : (⟨S50000x256, .f32⟩ : BufTy).Contents (Elt F) → (⟨S50000x256, .f32⟩ : BufTy).Contents (Elt F) → (⟨S50000x256, .f32⟩ : BufTy).Contents (Elt F)),
    binary main_v191 main_v194 main_v195 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x256, .f32⟩) main_call5_v0) (broadcastInDim S50000x256 ![] bcast_S_S50000x256),
    TRef.binary (TRef.of (T := ⟨S50000x256, .f32⟩) main_v195) (TRef.of (T := ⟨S50000x256, .f32⟩) main_call5_v0) (TRef.of (T := ⟨S50000x256, .f32⟩) main_v196) maximumf ]

/-- Operations 246 … 275 of the 275. -/
abbrev w12 : List (HloOp τ sig (Elt F)) :=
  [ nullary main_cst_34 (constant S_ .f32 0x00000000#32),
    binary main_v196 main_cst_34 main_v197 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_35 (constant S_ .f32 0x47435000#32),
    unary main_cst_35 main_v198 (broadcastInDim S256 ![] bcast_S_S256 : (⟨S_, .f32⟩ : BufTy).Contents (Elt F) → (⟨S256, .f32⟩ : BufTy).Contents (Elt F)),
    binary main_v197 main_v198 main_v199 (Host.divf : (⟨S256, .f32⟩ : BufTy).Contents (Elt F) → (⟨S256, .f32⟩ : BufTy).Contents (Elt F) → (⟨S256, .f32⟩ : BufTy).Contents (Elt F)),
    unary main_v199 main_v200 (broadcastInDim S1x256 ![1] bcast_S256_S1x256_1 : (⟨S256, .f32⟩ : BufTy).Contents (Elt F) → (⟨S1x256, .f32⟩ : BufTy).Contents (Elt F)),
    unary main_v200 main_v201 (broadcastInDim S50000x256 ![0, 1] bcast_S1x256_S50000x256_0_1 : (⟨S1x256, .f32⟩ : BufTy).Contents (Elt F) → (⟨S50000x256, .f32⟩ : BufTy).Contents (Elt F)),
    binary main_v196 main_v201 main_v202 (subf : (⟨S50000x256, .f32⟩ : BufTy).Contents (Elt F) → (⟨S50000x256, .f32⟩ : BufTy).Contents (Elt F) → (⟨S50000x256, .f32⟩ : BufTy).Contents (Elt F)),
    binary main_v202 main_v202 main_v203 (mulf : (⟨S50000x256, .f32⟩ : BufTy).Contents (Elt F) → (⟨S50000x256, .f32⟩ : BufTy).Contents (Elt F) → (⟨S50000x256, .f32⟩ : BufTy).Contents (Elt F)),
    nullary main_cst_36 (constant S_ .f32 0x00000000#32),
    binary main_v203 main_cst_36 main_v204 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_37 (constant S_ .f32 0x47435000#32),
    unary main_cst_37 main_v205 (broadcastInDim S256 ![] bcast_S_S256 : (⟨S_, .f32⟩ : BufTy).Contents (Elt F) → (⟨S256, .f32⟩ : BufTy).Contents (Elt F)),
    binary main_v204 main_v205 main_v206 (Host.divf : (⟨S256, .f32⟩ : BufTy).Contents (Elt F) → (⟨S256, .f32⟩ : BufTy).Contents (Elt F) → (⟨S256, .f32⟩ : BufTy).Contents (Elt F)),
    unary main_v199 main_v207 (broadcastInDim S1x256 ![1] bcast_S256_S1x256_1 : (⟨S256, .f32⟩ : BufTy).Contents (Elt F) → (⟨S1x256, .f32⟩ : BufTy).Contents (Elt F)),
    unary main_v207 main_v208 (broadcastInDim S50000x256 ![0, 1] bcast_S1x256_S50000x256_0_1 : (⟨S1x256, .f32⟩ : BufTy).Contents (Elt F) → (⟨S50000x256, .f32⟩ : BufTy).Contents (Elt F)),
    binary main_v196 main_v208 main_v209 (subf : (⟨S50000x256, .f32⟩ : BufTy).Contents (Elt F) → (⟨S50000x256, .f32⟩ : BufTy).Contents (Elt F) → (⟨S50000x256, .f32⟩ : BufTy).Contents (Elt F)),
    unary main_arg16 main_v210 (broadcastInDim S1x256 ![1] bcast_S256_S1x256_1 : (⟨S256, .f32⟩ : BufTy).Contents (Elt F) → (⟨S1x256, .f32⟩ : BufTy).Contents (Elt F)),
    unary main_v210 main_v211 (broadcastInDim S50000x256 ![0, 1] bcast_S1x256_S50000x256_0_1 : (⟨S1x256, .f32⟩ : BufTy).Contents (Elt F) → (⟨S50000x256, .f32⟩ : BufTy).Contents (Elt F)),
    binary main_v211 main_v209 main_v212 (mulf : (⟨S50000x256, .f32⟩ : BufTy).Contents (Elt F) → (⟨S50000x256, .f32⟩ : BufTy).Contents (Elt F) → (⟨S50000x256, .f32⟩ : BufTy).Contents (Elt F)),
    nullary main_cst_38 (constant S_ .f32 0x3727C5AC#32),
    unary main_cst_38 main_v213 (broadcastInDim S256 ![] bcast_S_S256 : (⟨S_, .f32⟩ : BufTy).Contents (Elt F) → (⟨S256, .f32⟩ : BufTy).Contents (Elt F)),
    binary main_v206 main_v213 main_v214 (addf : (⟨S256, .f32⟩ : BufTy).Contents (Elt F) → (⟨S256, .f32⟩ : BufTy).Contents (Elt F) → (⟨S256, .f32⟩ : BufTy).Contents (Elt F)),
    unary main_v214 main_v215 (Host.rsqrt : (⟨S256, .f32⟩ : BufTy).Contents (Elt F) → (⟨S256, .f32⟩ : BufTy).Contents (Elt F)),
    unary main_v215 main_v216 (broadcastInDim S1x256 ![1] bcast_S256_S1x256_1 : (⟨S256, .f32⟩ : BufTy).Contents (Elt F) → (⟨S1x256, .f32⟩ : BufTy).Contents (Elt F)),
    unary main_v216 main_v217 (broadcastInDim S50000x256 ![0, 1] bcast_S1x256_S50000x256_0_1 : (⟨S1x256, .f32⟩ : BufTy).Contents (Elt F) → (⟨S50000x256, .f32⟩ : BufTy).Contents (Elt F)),
    binary main_v212 main_v217 main_v218 (mulf : (⟨S50000x256, .f32⟩ : BufTy).Contents (Elt F) → (⟨S50000x256, .f32⟩ : BufTy).Contents (Elt F) → (⟨S50000x256, .f32⟩ : BufTy).Contents (Elt F)),
    unary main_arg17 main_v219 (broadcastInDim S1x256 ![1] bcast_S256_S1x256_1 : (⟨S256, .f32⟩ : BufTy).Contents (Elt F) → (⟨S1x256, .f32⟩ : BufTy).Contents (Elt F)),
    unary main_v219 main_v220 (broadcastInDim S50000x256 ![0, 1] bcast_S1x256_S50000x256_0_1 : (⟨S1x256, .f32⟩ : BufTy).Contents (Elt F) → (⟨S50000x256, .f32⟩ : BufTy).Contents (Elt F)),
    binary main_v218 main_v220 main_v221 (addf : (⟨S50000x256, .f32⟩ : BufTy).Contents (Elt F) → (⟨S50000x256, .f32⟩ : BufTy).Contents (Elt F) → (⟨S50000x256, .f32⟩ : BufTy).Contents (Elt F)) ]

/-- The 275 operations, in order. -/
abbrev ops : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x00000000#32),
    unary main_cst main_v4 (broadcastInDim S50000 ![] bcast_S_S50000 : (⟨S_, .f32⟩ : BufTy).Contents (Elt F) → (⟨S50000, .f32⟩ : BufTy).Contents (Elt F)),
    nullary main_c (constantI S_ 32 0#32),
    unary main_c main_v5 (broadcastInDim S800000 ![] bcast_S_S800000 : (⟨S_, .i32⟩ : BufTy).Contents (Elt F) → (⟨S800000, .i32⟩ : BufTy).Contents (Elt F)),
    binary main_v3 main_v5 main_v6 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v7 (broadcastInDim S800000 ![] bcast_S_S800000 : (⟨S_, .i32⟩ : BufTy).Contents (Elt F) → (⟨S800000, .i32⟩ : BufTy).Contents (Elt F)),
    binary main_v3 main_v7 main_v8 (addi : (⟨S800000, .i32⟩ : BufTy).Contents (Elt F) → (⟨S800000, .i32⟩ : BufTy).Contents (Elt F) → (⟨S800000, .i32⟩ : BufTy).Contents (Elt F)),
    ternary main_v6 main_v8 main_v3 main_v9 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v9 main_v10 (broadcastInDim S800000x1 ![0] bcast_S800000_S800000x1_0 : (⟨S800000, .i32⟩ : BufTy).Contents (Elt F) → (⟨S800000x1, .i32⟩ : BufTy).Contents (Elt F)),
    nullary main_cst_1 (constant S_ .f32 0x3F800000#32),
    unary main_cst_1 main_v11 (broadcastInDim S800000 ![] bcast_S_S800000 : (⟨S_, .f32⟩ : BufTy).Contents (Elt F) → (⟨S800000, .f32⟩ : BufTy).Contents (Elt F)),
    ternary main_v4 main_v10 main_v11 main_v12 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_2 (constant S_ .f32 0x3F800000#32),
    unary main_cst_2 main_v13 (broadcastInDim S50000 ![] bcast_S_S50000 : (⟨S_, .f32⟩ : BufTy).Contents (Elt F) → (⟨S50000, .f32⟩ : BufTy).Contents (Elt F)),
    binary main_v12 main_v13 main_v14 (addf : (⟨S50000, .f32⟩ : BufTy).Contents (Elt F) → (⟨S50000, .f32⟩ : BufTy).Contents (Elt F) → (⟨S50000, .f32⟩ : BufTy).Contents (Elt F)),
    unary main_v14 main_v15 (Host.rsqrt : (⟨S50000, .f32⟩ : BufTy).Contents (Elt F) → (⟨S50000, .f32⟩ : BufTy).Contents (Elt F)),
    nullary main_c_3 (constantI S_ 32 0#32),
    unary main_c_3 main_v16 (broadcastInDim S800000 ![] bcast_S_S800000 : (⟨S_, .i32⟩ : BufTy).Contents (Elt F) → (⟨S800000, .i32⟩ : BufTy).Contents (Elt F)),
    binary main_v1 main_v16 main_v17 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v18 (broadcastInDim S800000 ![] bcast_S_S800000 : (⟨S_, .i32⟩ : BufTy).Contents (Elt F) → (⟨S800000, .i32⟩ : BufTy).Contents (Elt F)),
    binary main_v1 main_v18 main_v19 (addi : (⟨S800000, .i32⟩ : BufTy).Contents (Elt F) → (⟨S800000, .i32⟩ : BufTy).Contents (Elt F) → (⟨S800000, .i32⟩ : BufTy).Contents (Elt F)),
    ternary main_v17 main_v19 main_v1 main_v20 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v20 main_v21 (broadcastInDim S800000x1 ![0] bcast_S800000_S800000x1_0 : (⟨S800000, .i32⟩ : BufTy).Contents (Elt F) → (⟨S800000x1, .i32⟩ : BufTy).Contents (Elt F)),
    binary main_v15 main_v21 main_v22 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_5 (constantI S_ 32 0#32),
    unary main_c_5 main_v23 (broadcastInDim S800000 ![] bcast_S_S800000 : (⟨S_, .i32⟩ : BufTy).Contents (Elt F) → (⟨S800000, .i32⟩ : BufTy).Contents (Elt F)),
    binary main_v3 main_v23 main_v24 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v25 (broadcastInDim S800000 ![] bcast_S_S800000 : (⟨S_, .i32⟩ : BufTy).Contents (Elt F) → (⟨S800000, .i32⟩ : BufTy).Contents (Elt F)),
    binary main_v3 main_v25 main_v26 (addi : (⟨S800000, .i32⟩ : BufTy).Contents (Elt F) → (⟨S800000, .i32⟩ : BufTy).Contents (Elt F) → (⟨S800000, .i32⟩ : BufTy).Contents (Elt F)),
    ternary main_v24 main_v26 main_v3 main_v27 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v27 main_v28 (broadcastInDim S800000x1 ![0] bcast_S800000_S800000x1_0 : (⟨S800000, .i32⟩ : BufTy).Contents (Elt F) → (⟨S800000x1, .i32⟩ : BufTy).Contents (Elt F)),
    binary main_v15 main_v28 main_v29 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v22 main_v29 main_v30 (mulf : (⟨S800000, .f32⟩ : BufTy).Contents (Elt F) → (⟨S800000, .f32⟩ : BufTy).Contents (Elt F) → (⟨S800000, .f32⟩ : BufTy).Contents (Elt F)),
    binary main_v15 main_v15 main_v31 (mulf : (⟨S50000, .f32⟩ : BufTy).Contents (Elt F) → (⟨S50000, .f32⟩ : BufTy).Contents (Elt F) → (⟨S50000, .f32⟩ : BufTy).Contents (Elt F)),
    binary main_arg0 main_arg2 main_v32 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg3 main_v33 (broadcastInDim S1x128 ![1] bcast_S128_S1x128_1 : (⟨S128, .f32⟩ : BufTy).Contents (Elt F) → (⟨S1x128, .f32⟩ : BufTy).Contents (Elt F)),
    unary main_v33 main_v34 (broadcastInDim S50000x128 ![0, 1] bcast_S1x128_S50000x128_0_1 : (⟨S1x128, .f32⟩ : BufTy).Contents (Elt F) → (⟨S50000x128, .f32⟩ : BufTy).Contents (Elt F)),
    binary main_v32 main_v34 main_v35 (addf : (⟨S50000x128, .f32⟩ : BufTy).Contents (Elt F) → (⟨S50000x128, .f32⟩ : BufTy).Contents (Elt F) → (⟨S50000x128, .f32⟩ : BufTy).Contents (Elt F)),
    nullary main_c_7 (constantI S_ 32 0#32),
    unary main_c_7 main_v36 (broadcastInDim S800000 ![] bcast_S_S800000 : (⟨S_, .i32⟩ : BufTy).Contents (Elt F) → (⟨S800000, .i32⟩ : BufTy).Contents (Elt F)),
    binary main_v1 main_v36 main_v37 (cmpi .slt : (⟨S800000, .i32⟩ : BufTy).Contents (Elt F) → (⟨S800000, .i32⟩ : BufTy).Contents (Elt F) → (⟨S800000, .i1⟩ : BufTy).Contents (Elt F)),
    nullary main_c_8 (constantI S_ 32 50000#32),
    unary main_c_8 main_v38 (broadcastInDim S800000 ![] bcast_S_S800000 : (⟨S_, .i32⟩ : BufTy).Contents (Elt F) → (⟨S800000, .i32⟩ : BufTy).Contents (Elt F)),
    binary main_v1 main_v38 main_v39 (addi : (⟨S800000, .i32⟩ : BufTy).Contents (Elt F) → (⟨S800000, .i32⟩ : BufTy).Contents (Elt F) → (⟨S800000, .i32⟩ : BufTy).Contents (Elt F)),
    ternary main_v37 main_v39 main_v1 main_v40 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v40 main_v41 (broadcastInDim S800000x1 ![0] bcast_S800000_S800000x1_0 : (⟨S800000, .i32⟩ : BufTy).Contents (Elt F) → (⟨S800000x1, .i32⟩ : BufTy).Contents (Elt F)),
    binary main_v35 main_v41 main_v42 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v30 main_v43 (broadcastInDim S800000x1 ![0] bcast_S800000_S800000x1_0 : (⟨S800000, .f32⟩ : BufTy).Contents (Elt F) → (⟨S800000x1, .f32⟩ : BufTy).Contents (Elt F)),
    unary main_v43 main_v44 (broadcastInDim S800000x128 ![0, 1] bcast_S800000x1_S800000x128_0_1 : (⟨S800000x1, .f32⟩ : BufTy).Contents (Elt F) → (⟨S800000x128, .f32⟩ : BufTy).Contents (Elt F)),
    binary main_v42 main_v44 main_v45 (mulf : (⟨S800000x128, .f32⟩ : BufTy).Contents (Elt F) → (⟨S800000x128, .f32⟩ : BufTy).Contents (Elt F) → (⟨S800000x128, .f32⟩ : BufTy).Contents (Elt F)),
    nullary main_cst_9 (constant S_ .f32 0x00000000#32),
    unary main_cst_9 main_v46 (broadcastInDim S50000x128 ![] bcast_S_S50000x128 : (⟨S_, .f32⟩ : BufTy).Contents (Elt F) → (⟨S50000x128, .f32⟩ : BufTy).Contents (Elt F)),
    unary main_v3 main_v47 (broadcastInDim S800000x1 ![0] bcast_S800000_S800000x1_0 : (⟨S800000, .i32⟩ : BufTy).Contents (Elt F) → (⟨S800000x1, .i32⟩ : BufTy).Contents (Elt F)),
    ternary main_v46 main_v47 main_v45 main_v48 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v31 main_v49 (broadcastInDim S50000x1 ![0] bcast_S50000_S50000x1_0 : (⟨S50000, .f32⟩ : BufTy).Contents (Elt F) → (⟨S50000x1, .f32⟩ : BufTy).Contents (Elt F)),
    unary main_v49 main_v50 (broadcastInDim S50000x128 ![0, 1] bcast_S50000x1_S50000x128_0_1 : (⟨S50000x1, .f32⟩ : BufTy).Contents (Elt F) → (⟨S50000x128, .f32⟩ : BufTy).Contents (Elt F)),
    binary main_v35 main_v50 main_v51 (mulf : (⟨S50000x128, .f32⟩ : BufTy).Contents (Elt F) → (⟨S50000x128, .f32⟩ : BufTy).Contents (Elt F) → (⟨S50000x128, .f32⟩ : BufTy).Contents (Elt F)),
    binary main_v48 main_v51 main_v52 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v52) (TRef.of (T := ⟨S50000x128, .f32⟩) main_call0_v0) (TRef.of (T := ⟨S50000x128, .f32⟩) main_v53) maximumf,
    nullary main_cst_10 (constant S_ .f32 0x00000000#32),
    binary main_v53 main_cst_10 main_v54 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_11 (constant S_ .f32 0x47435000#32),
    unary main_cst_11 main_v55 (broadcastInDim S128 ![] bcast_S_S128 : (⟨S_, .f32⟩ : BufTy).Contents (Elt F) → (⟨S128, .f32⟩ : BufTy).Contents (Elt F)),
    binary main_v54 main_v55 main_v56 (Host.divf : (⟨S128, .f32⟩ : BufTy).Contents (Elt F) → (⟨S128, .f32⟩ : BufTy).Contents (Elt F) → (⟨S128, .f32⟩ : BufTy).Contents (Elt F)),
    unary main_v56 main_v57 (broadcastInDim S1x128 ![1] bcast_S128_S1x128_1 : (⟨S128, .f32⟩ : BufTy).Contents (Elt F) → (⟨S1x128, .f32⟩ : BufTy).Contents (Elt F)),
    unary main_v57 main_v58 (broadcastInDim S50000x128 ![0, 1] bcast_S1x128_S50000x128_0_1 : (⟨S1x128, .f32⟩ : BufTy).Contents (Elt F) → (⟨S50000x128, .f32⟩ : BufTy).Contents (Elt F)),
    binary main_v53 main_v58 main_v59 (subf : (⟨S50000x128, .f32⟩ : BufTy).Contents (Elt F) → (⟨S50000x128, .f32⟩ : BufTy).Contents (Elt F) → (⟨S50000x128, .f32⟩ : BufTy).Contents (Elt F)),
    binary main_v59 main_v59 main_v60 (mulf : (⟨S50000x128, .f32⟩ : BufTy).Contents (Elt F) → (⟨S50000x128, .f32⟩ : BufTy).Contents (Elt F) → (⟨S50000x128, .f32⟩ : BufTy).Contents (Elt F)),
    nullary main_cst_12 (constant S_ .f32 0x00000000#32),
    binary main_v60 main_cst_12 main_v61 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_13 (constant S_ .f32 0x47435000#32),
    unary main_cst_13 main_v62 (broadcastInDim S128 ![] bcast_S_S128 : (⟨S_, .f32⟩ : BufTy).Contents (Elt F) → (⟨S128, .f32⟩ : BufTy).Contents (Elt F)),
    binary main_v61 main_v62 main_v63 (Host.divf : (⟨S128, .f32⟩ : BufTy).Contents (Elt F) → (⟨S128, .f32⟩ : BufTy).Contents (Elt F) → (⟨S128, .f32⟩ : BufTy).Contents (Elt F)),
    unary main_v56 main_v64 (broadcastInDim S1x128 ![1] bcast_S128_S1x128_1 : (⟨S128, .f32⟩ : BufTy).Contents (Elt F) → (⟨S1x128, .f32⟩ : BufTy).Contents (Elt F)),
    unary main_v64 main_v65 (broadcastInDim S50000x128 ![0, 1] bcast_S1x128_S50000x128_0_1 : (⟨S1x128, .f32⟩ : BufTy).Contents (Elt F) → (⟨S50000x128, .f32⟩ : BufTy).Contents (Elt F)),
    binary main_v53 main_v65 main_v66 (subf : (⟨S50000x128, .f32⟩ : BufTy).Contents (Elt F) → (⟨S50000x128, .f32⟩ : BufTy).Contents (Elt F) → (⟨S50000x128, .f32⟩ : BufTy).Contents (Elt F)),
    unary main_arg4 main_v67 (broadcastInDim S1x128 ![1] bcast_S128_S1x128_1 : (⟨S128, .f32⟩ : BufTy).Contents (Elt F) → (⟨S1x128, .f32⟩ : BufTy).Contents (Elt F)),
    unary main_v67 main_v68 (broadcastInDim S50000x128 ![0, 1] bcast_S1x128_S50000x128_0_1 : (⟨S1x128, .f32⟩ : BufTy).Contents (Elt F) → (⟨S50000x128, .f32⟩ : BufTy).Contents (Elt F)),
    binary main_v68 main_v66 main_v69 (mulf : (⟨S50000x128, .f32⟩ : BufTy).Contents (Elt F) → (⟨S50000x128, .f32⟩ : BufTy).Contents (Elt F) → (⟨S50000x128, .f32⟩ : BufTy).Contents (Elt F)),
    nullary main_cst_14 (constant S_ .f32 0x3727C5AC#32),
    unary main_cst_14 main_v70 (broadcastInDim S128 ![] bcast_S_S128 : (⟨S_, .f32⟩ : BufTy).Contents (Elt F) → (⟨S128, .f32⟩ : BufTy).Contents (Elt F)),
    binary main_v63 main_v70 main_v71 (addf : (⟨S128, .f32⟩ : BufTy).Contents (Elt F) → (⟨S128, .f32⟩ : BufTy).Contents (Elt F) → (⟨S128, .f32⟩ : BufTy).Contents (Elt F)),
    unary main_v71 main_v72 (Host.rsqrt : (⟨S128, .f32⟩ : BufTy).Contents (Elt F) → (⟨S128, .f32⟩ : BufTy).Contents (Elt F)),
    unary main_v72 main_v73 (broadcastInDim S1x128 ![1] bcast_S128_S1x128_1 : (⟨S128, .f32⟩ : BufTy).Contents (Elt F) → (⟨S1x128, .f32⟩ : BufTy).Contents (Elt F)),
    unary main_v73 main_v74 (broadcastInDim S50000x128 ![0, 1] bcast_S1x128_S50000x128_0_1 : (⟨S1x128, .f32⟩ : BufTy).Contents (Elt F) → (⟨S50000x128, .f32⟩ : BufTy).Contents (Elt F)),
    binary main_v69 main_v74 main_v75 (mulf : (⟨S50000x128, .f32⟩ : BufTy).Contents (Elt F) → (⟨S50000x128, .f32⟩ : BufTy).Contents (Elt F) → (⟨S50000x128, .f32⟩ : BufTy).Contents (Elt F)),
    unary main_arg5 main_v76 (broadcastInDim S1x128 ![1] bcast_S128_S1x128_1 : (⟨S128, .f32⟩ : BufTy).Contents (Elt F) → (⟨S1x128, .f32⟩ : BufTy).Contents (Elt F)),
    unary main_v76 main_v77 (broadcastInDim S50000x128 ![0, 1] bcast_S1x128_S50000x128_0_1 : (⟨S1x128, .f32⟩ : BufTy).Contents (Elt F) → (⟨S50000x128, .f32⟩ : BufTy).Contents (Elt F)),
    binary main_v75 main_v77 main_v78 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v78) (TRef.of (T := ⟨S50000x128, .f32⟩) main_call1_v0) (TRef.of (T := ⟨S50000x128, .f32⟩) main_v79) maximumf,
    binary main_v79 main_arg6 main_v80 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg7 main_v81 (broadcastInDim S1x64 ![1] bcast_S64_S1x64_1 : (⟨S64, .f32⟩ : BufTy).Contents (Elt F) → (⟨S1x64, .f32⟩ : BufTy).Contents (Elt F)),
    unary main_v81 main_v82 (broadcastInDim S50000x64 ![0, 1] bcast_S1x64_S50000x64_0_1 : (⟨S1x64, .f32⟩ : BufTy).Contents (Elt F) → (⟨S50000x64, .f32⟩ : BufTy).Contents (Elt F)),
    binary main_v80 main_v82 main_v83 (addf : (⟨S50000x64, .f32⟩ : BufTy).Contents (Elt F) → (⟨S50000x64, .f32⟩ : BufTy).Contents (Elt F) → (⟨S50000x64, .f32⟩ : BufTy).Contents (Elt F)),
    nullary main_c_15 (constantI S_ 32 0#32),
    unary main_c_15 main_v84 (broadcastInDim S800000 ![] bcast_S_S800000 : (⟨S_, .i32⟩ : BufTy).Contents (Elt F) → (⟨S800000, .i32⟩ : BufTy).Contents (Elt F)),
    binary main_v1 main_v84 main_v85 (cmpi .slt : (⟨S800000, .i32⟩ : BufTy).Contents (Elt F) → (⟨S800000, .i32⟩ : BufTy).Contents (Elt F) → (⟨S800000, .i1⟩ : BufTy).Contents (Elt F)),
    nullary main_c_16 (constantI S_ 32 50000#32),
    unary main_c_16 main_v86 (broadcastInDim S800000 ![] bcast_S_S800000 : (⟨S_, .i32⟩ : BufTy).Contents (Elt F) → (⟨S800000, .i32⟩ : BufTy).Contents (Elt F)),
    binary main_v1 main_v86 main_v87 (addi : (⟨S800000, .i32⟩ : BufTy).Contents (Elt F) → (⟨S800000, .i32⟩ : BufTy).Contents (Elt F) → (⟨S800000, .i32⟩ : BufTy).Contents (Elt F)),
    ternary main_v85 main_v87 main_v1 main_v88 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v88 main_v89 (broadcastInDim S800000x1 ![0] bcast_S800000_S800000x1_0 : (⟨S800000, .i32⟩ : BufTy).Contents (Elt F) → (⟨S800000x1, .i32⟩ : BufTy).Contents (Elt F)),
    binary main_v83 main_v89 main_v90 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v30 main_v91 (broadcastInDim S800000x1 ![0] bcast_S800000_S800000x1_0 : (⟨S800000, .f32⟩ : BufTy).Contents (Elt F) → (⟨S800000x1, .f32⟩ : BufTy).Contents (Elt F)),
    unary main_v91 main_v92 (broadcastInDim S800000x64 ![0, 1] bcast_S800000x1_S800000x64_0_1 : (⟨S800000x1, .f32⟩ : BufTy).Contents (Elt F) → (⟨S800000x64, .f32⟩ : BufTy).Contents (Elt F)),
    binary main_v90 main_v92 main_v93 (mulf : (⟨S800000x64, .f32⟩ : BufTy).Contents (Elt F) → (⟨S800000x64, .f32⟩ : BufTy).Contents (Elt F) → (⟨S800000x64, .f32⟩ : BufTy).Contents (Elt F)),
    nullary main_cst_17 (constant S_ .f32 0x00000000#32),
    unary main_cst_17 main_v94 (broadcastInDim S50000x64 ![] bcast_S_S50000x64 : (⟨S_, .f32⟩ : BufTy).Contents (Elt F) → (⟨S50000x64, .f32⟩ : BufTy).Contents (Elt F)),
    unary main_v3 main_v95 (broadcastInDim S800000x1 ![0] bcast_S800000_S800000x1_0 : (⟨S800000, .i32⟩ : BufTy).Contents (Elt F) → (⟨S800000x1, .i32⟩ : BufTy).Contents (Elt F)),
    ternary main_v94 main_v95 main_v93 main_v96 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v31 main_v97 (broadcastInDim S50000x1 ![0] bcast_S50000_S50000x1_0 : (⟨S50000, .f32⟩ : BufTy).Contents (Elt F) → (⟨S50000x1, .f32⟩ : BufTy).Contents (Elt F)),
    unary main_v97 main_v98 (broadcastInDim S50000x64 ![0, 1] bcast_S50000x1_S50000x64_0_1 : (⟨S50000x1, .f32⟩ : BufTy).Contents (Elt F) → (⟨S50000x64, .f32⟩ : BufTy).Contents (Elt F)),
    binary main_v83 main_v98 main_v99 (mulf : (⟨S50000x64, .f32⟩ : BufTy).Contents (Elt F) → (⟨S50000x64, .f32⟩ : BufTy).Contents (Elt F) → (⟨S50000x64, .f32⟩ : BufTy).Contents (Elt F)),
    binary main_v96 main_v99 main_v100 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x64, .f32⟩) main_call2_v0) (broadcastInDim S50000x64 ![] bcast_S_S50000x64),
    TRef.binary (TRef.of (T := ⟨S50000x64, .f32⟩) main_v100) (TRef.of (T := ⟨S50000x64, .f32⟩) main_call2_v0) (TRef.of (T := ⟨S50000x64, .f32⟩) main_v101) maximumf,
    nullary main_cst_18 (constant S_ .f32 0x00000000#32),
    binary main_v101 main_cst_18 main_v102 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_19 (constant S_ .f32 0x47435000#32),
    unary main_cst_19 main_v103 (broadcastInDim S64 ![] bcast_S_S64 : (⟨S_, .f32⟩ : BufTy).Contents (Elt F) → (⟨S64, .f32⟩ : BufTy).Contents (Elt F)),
    binary main_v102 main_v103 main_v104 (Host.divf : (⟨S64, .f32⟩ : BufTy).Contents (Elt F) → (⟨S64, .f32⟩ : BufTy).Contents (Elt F) → (⟨S64, .f32⟩ : BufTy).Contents (Elt F)),
    unary main_v104 main_v105 (broadcastInDim S1x64 ![1] bcast_S64_S1x64_1 : (⟨S64, .f32⟩ : BufTy).Contents (Elt F) → (⟨S1x64, .f32⟩ : BufTy).Contents (Elt F)),
    unary main_v105 main_v106 (broadcastInDim S50000x64 ![0, 1] bcast_S1x64_S50000x64_0_1 : (⟨S1x64, .f32⟩ : BufTy).Contents (Elt F) → (⟨S50000x64, .f32⟩ : BufTy).Contents (Elt F)),
    binary main_v101 main_v106 main_v107 (subf : (⟨S50000x64, .f32⟩ : BufTy).Contents (Elt F) → (⟨S50000x64, .f32⟩ : BufTy).Contents (Elt F) → (⟨S50000x64, .f32⟩ : BufTy).Contents (Elt F)),
    binary main_v107 main_v107 main_v108 (mulf : (⟨S50000x64, .f32⟩ : BufTy).Contents (Elt F) → (⟨S50000x64, .f32⟩ : BufTy).Contents (Elt F) → (⟨S50000x64, .f32⟩ : BufTy).Contents (Elt F)),
    nullary main_cst_20 (constant S_ .f32 0x00000000#32),
    binary main_v108 main_cst_20 main_v109 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_21 (constant S_ .f32 0x47435000#32),
    unary main_cst_21 main_v110 (broadcastInDim S64 ![] bcast_S_S64 : (⟨S_, .f32⟩ : BufTy).Contents (Elt F) → (⟨S64, .f32⟩ : BufTy).Contents (Elt F)),
    binary main_v109 main_v110 main_v111 (Host.divf : (⟨S64, .f32⟩ : BufTy).Contents (Elt F) → (⟨S64, .f32⟩ : BufTy).Contents (Elt F) → (⟨S64, .f32⟩ : BufTy).Contents (Elt F)),
    unary main_v104 main_v112 (broadcastInDim S1x64 ![1] bcast_S64_S1x64_1 : (⟨S64, .f32⟩ : BufTy).Contents (Elt F) → (⟨S1x64, .f32⟩ : BufTy).Contents (Elt F)),
    unary main_v112 main_v113 (broadcastInDim S50000x64 ![0, 1] bcast_S1x64_S50000x64_0_1 : (⟨S1x64, .f32⟩ : BufTy).Contents (Elt F) → (⟨S50000x64, .f32⟩ : BufTy).Contents (Elt F)),
    binary main_v101 main_v113 main_v114 (subf : (⟨S50000x64, .f32⟩ : BufTy).Contents (Elt F) → (⟨S50000x64, .f32⟩ : BufTy).Contents (Elt F) → (⟨S50000x64, .f32⟩ : BufTy).Contents (Elt F)),
    unary main_arg8 main_v115 (broadcastInDim S1x64 ![1] bcast_S64_S1x64_1 : (⟨S64, .f32⟩ : BufTy).Contents (Elt F) → (⟨S1x64, .f32⟩ : BufTy).Contents (Elt F)),
    unary main_v115 main_v116 (broadcastInDim S50000x64 ![0, 1] bcast_S1x64_S50000x64_0_1 : (⟨S1x64, .f32⟩ : BufTy).Contents (Elt F) → (⟨S50000x64, .f32⟩ : BufTy).Contents (Elt F)),
    binary main_v116 main_v114 main_v117 (mulf : (⟨S50000x64, .f32⟩ : BufTy).Contents (Elt F) → (⟨S50000x64, .f32⟩ : BufTy).Contents (Elt F) → (⟨S50000x64, .f32⟩ : BufTy).Contents (Elt F)),
    nullary main_cst_22 (constant S_ .f32 0x3727C5AC#32),
    unary main_cst_22 main_v118 (broadcastInDim S64 ![] bcast_S_S64 : (⟨S_, .f32⟩ : BufTy).Contents (Elt F) → (⟨S64, .f32⟩ : BufTy).Contents (Elt F)),
    binary main_v111 main_v118 main_v119 (addf : (⟨S64, .f32⟩ : BufTy).Contents (Elt F) → (⟨S64, .f32⟩ : BufTy).Contents (Elt F) → (⟨S64, .f32⟩ : BufTy).Contents (Elt F)),
    unary main_v119 main_v120 (Host.rsqrt : (⟨S64, .f32⟩ : BufTy).Contents (Elt F) → (⟨S64, .f32⟩ : BufTy).Contents (Elt F)),
    unary main_v120 main_v121 (broadcastInDim S1x64 ![1] bcast_S64_S1x64_1 : (⟨S64, .f32⟩ : BufTy).Contents (Elt F) → (⟨S1x64, .f32⟩ : BufTy).Contents (Elt F)),
    unary main_v121 main_v122 (broadcastInDim S50000x64 ![0, 1] bcast_S1x64_S50000x64_0_1 : (⟨S1x64, .f32⟩ : BufTy).Contents (Elt F) → (⟨S50000x64, .f32⟩ : BufTy).Contents (Elt F)),
    binary main_v117 main_v122 main_v123 (mulf : (⟨S50000x64, .f32⟩ : BufTy).Contents (Elt F) → (⟨S50000x64, .f32⟩ : BufTy).Contents (Elt F) → (⟨S50000x64, .f32⟩ : BufTy).Contents (Elt F)),
    unary main_arg9 main_v124 (broadcastInDim S1x64 ![1] bcast_S64_S1x64_1 : (⟨S64, .f32⟩ : BufTy).Contents (Elt F) → (⟨S1x64, .f32⟩ : BufTy).Contents (Elt F)),
    unary main_v124 main_v125 (broadcastInDim S50000x64 ![0, 1] bcast_S1x64_S50000x64_0_1 : (⟨S1x64, .f32⟩ : BufTy).Contents (Elt F) → (⟨S50000x64, .f32⟩ : BufTy).Contents (Elt F)),
    binary main_v123 main_v125 main_v126 (addf : (⟨S50000x64, .f32⟩ : BufTy).Contents (Elt F) → (⟨S50000x64, .f32⟩ : BufTy).Contents (Elt F) → (⟨S50000x64, .f32⟩ : BufTy).Contents (Elt F)),
    binary main_v126 main_arg10 main_v127 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    unary main_arg11 main_v128 (broadcastInDim S1x128 ![1] bcast_S128_S1x128_1 : (⟨S128, .f32⟩ : BufTy).Contents (Elt F) → (⟨S1x128, .f32⟩ : BufTy).Contents (Elt F)),
    unary main_v128 main_v129 (broadcastInDim S50000x128 ![0, 1] bcast_S1x128_S50000x128_0_1 : (⟨S1x128, .f32⟩ : BufTy).Contents (Elt F) → (⟨S50000x128, .f32⟩ : BufTy).Contents (Elt F)),
    binary main_v127 main_v129 main_v130 (addf : (⟨S50000x128, .f32⟩ : BufTy).Contents (Elt F) → (⟨S50000x128, .f32⟩ : BufTy).Contents (Elt F) → (⟨S50000x128, .f32⟩ : BufTy).Contents (Elt F)),
    nullary main_c_23 (constantI S_ 32 0#32),
    unary main_c_23 main_v131 (broadcastInDim S800000 ![] bcast_S_S800000 : (⟨S_, .i32⟩ : BufTy).Contents (Elt F) → (⟨S800000, .i32⟩ : BufTy).Contents (Elt F)),
    binary main_v1 main_v131 main_v132 (cmpi .slt : (⟨S800000, .i32⟩ : BufTy).Contents (Elt F) → (⟨S800000, .i32⟩ : BufTy).Contents (Elt F) → (⟨S800000, .i1⟩ : BufTy).Contents (Elt F)),
    nullary main_c_24 (constantI S_ 32 50000#32),
    unary main_c_24 main_v133 (broadcastInDim S800000 ![] bcast_S_S800000 : (⟨S_, .i32⟩ : BufTy).Contents (Elt F) → (⟨S800000, .i32⟩ : BufTy).Contents (Elt F)),
    binary main_v1 main_v133 main_v134 (addi : (⟨S800000, .i32⟩ : BufTy).Contents (Elt F) → (⟨S800000, .i32⟩ : BufTy).Contents (Elt F) → (⟨S800000, .i32⟩ : BufTy).Contents (Elt F)),
    ternary main_v132 main_v134 main_v1 main_v135 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v135 main_v136 (broadcastInDim S800000x1 ![0] bcast_S800000_S800000x1_0 : (⟨S800000, .i32⟩ : BufTy).Contents (Elt F) → (⟨S800000x1, .i32⟩ : BufTy).Contents (Elt F)),
    binary main_v130 main_v136 main_v137 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v30 main_v138 (broadcastInDim S800000x1 ![0] bcast_S800000_S800000x1_0 : (⟨S800000, .f32⟩ : BufTy).Contents (Elt F) → (⟨S800000x1, .f32⟩ : BufTy).Contents (Elt F)),
    unary main_v138 main_v139 (broadcastInDim S800000x128 ![0, 1] bcast_S800000x1_S800000x128_0_1 : (⟨S800000x1, .f32⟩ : BufTy).Contents (Elt F) → (⟨S800000x128, .f32⟩ : BufTy).Contents (Elt F)),
    binary main_v137 main_v139 main_v140 (mulf : (⟨S800000x128, .f32⟩ : BufTy).Contents (Elt F) → (⟨S800000x128, .f32⟩ : BufTy).Contents (Elt F) → (⟨S800000x128, .f32⟩ : BufTy).Contents (Elt F)),
    nullary main_cst_25 (constant S_ .f32 0x00000000#32),
    unary main_cst_25 main_v141 (broadcastInDim S50000x128 ![] bcast_S_S50000x128 : (⟨S_, .f32⟩ : BufTy).Contents (Elt F) → (⟨S50000x128, .f32⟩ : BufTy).Contents (Elt F)),
    unary main_v3 main_v142 (broadcastInDim S800000x1 ![0] bcast_S800000_S800000x1_0 : (⟨S800000, .i32⟩ : BufTy).Contents (Elt F) → (⟨S800000x1, .i32⟩ : BufTy).Contents (Elt F)),
    ternary main_v141 main_v142 main_v140 main_v143 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v31 main_v144 (broadcastInDim S50000x1 ![0] bcast_S50000_S50000x1_0 : (⟨S50000, .f32⟩ : BufTy).Contents (Elt F) → (⟨S50000x1, .f32⟩ : BufTy).Contents (Elt F)),
    unary main_v144 main_v145 (broadcastInDim S50000x128 ![0, 1] bcast_S50000x1_S50000x128_0_1 : (⟨S50000x1, .f32⟩ : BufTy).Contents (Elt F) → (⟨S50000x128, .f32⟩ : BufTy).Contents (Elt F)),
    binary main_v130 main_v145 main_v146 (mulf : (⟨S50000x128, .f32⟩ : BufTy).Contents (Elt F) → (⟨S50000x128, .f32⟩ : BufTy).Contents (Elt F) → (⟨S50000x128, .f32⟩ : BufTy).Contents (Elt F)),
    binary main_v143 main_v146 main_v147 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v147) (TRef.of (T := ⟨S50000x128, .f32⟩) main_call3_v0) (TRef.of (T := ⟨S50000x128, .f32⟩) main_v148) maximumf,
    nullary main_cst_26 (constant S_ .f32 0x00000000#32),
    binary main_v148 main_cst_26 main_v149 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_27 (constant S_ .f32 0x47435000#32),
    unary main_cst_27 main_v150 (broadcastInDim S128 ![] bcast_S_S128 : (⟨S_, .f32⟩ : BufTy).Contents (Elt F) → (⟨S128, .f32⟩ : BufTy).Contents (Elt F)),
    binary main_v149 main_v150 main_v151 (Host.divf : (⟨S128, .f32⟩ : BufTy).Contents (Elt F) → (⟨S128, .f32⟩ : BufTy).Contents (Elt F) → (⟨S128, .f32⟩ : BufTy).Contents (Elt F)),
    unary main_v151 main_v152 (broadcastInDim S1x128 ![1] bcast_S128_S1x128_1 : (⟨S128, .f32⟩ : BufTy).Contents (Elt F) → (⟨S1x128, .f32⟩ : BufTy).Contents (Elt F)),
    unary main_v152 main_v153 (broadcastInDim S50000x128 ![0, 1] bcast_S1x128_S50000x128_0_1 : (⟨S1x128, .f32⟩ : BufTy).Contents (Elt F) → (⟨S50000x128, .f32⟩ : BufTy).Contents (Elt F)),
    binary main_v148 main_v153 main_v154 (subf : (⟨S50000x128, .f32⟩ : BufTy).Contents (Elt F) → (⟨S50000x128, .f32⟩ : BufTy).Contents (Elt F) → (⟨S50000x128, .f32⟩ : BufTy).Contents (Elt F)),
    binary main_v154 main_v154 main_v155 (mulf : (⟨S50000x128, .f32⟩ : BufTy).Contents (Elt F) → (⟨S50000x128, .f32⟩ : BufTy).Contents (Elt F) → (⟨S50000x128, .f32⟩ : BufTy).Contents (Elt F)),
    nullary main_cst_28 (constant S_ .f32 0x00000000#32),
    binary main_v155 main_cst_28 main_v156 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_29 (constant S_ .f32 0x47435000#32),
    unary main_cst_29 main_v157 (broadcastInDim S128 ![] bcast_S_S128 : (⟨S_, .f32⟩ : BufTy).Contents (Elt F) → (⟨S128, .f32⟩ : BufTy).Contents (Elt F)),
    binary main_v156 main_v157 main_v158 (Host.divf : (⟨S128, .f32⟩ : BufTy).Contents (Elt F) → (⟨S128, .f32⟩ : BufTy).Contents (Elt F) → (⟨S128, .f32⟩ : BufTy).Contents (Elt F)),
    unary main_v151 main_v159 (broadcastInDim S1x128 ![1] bcast_S128_S1x128_1 : (⟨S128, .f32⟩ : BufTy).Contents (Elt F) → (⟨S1x128, .f32⟩ : BufTy).Contents (Elt F)),
    unary main_v159 main_v160 (broadcastInDim S50000x128 ![0, 1] bcast_S1x128_S50000x128_0_1 : (⟨S1x128, .f32⟩ : BufTy).Contents (Elt F) → (⟨S50000x128, .f32⟩ : BufTy).Contents (Elt F)),
    binary main_v148 main_v160 main_v161 (subf : (⟨S50000x128, .f32⟩ : BufTy).Contents (Elt F) → (⟨S50000x128, .f32⟩ : BufTy).Contents (Elt F) → (⟨S50000x128, .f32⟩ : BufTy).Contents (Elt F)),
    unary main_arg12 main_v162 (broadcastInDim S1x128 ![1] bcast_S128_S1x128_1 : (⟨S128, .f32⟩ : BufTy).Contents (Elt F) → (⟨S1x128, .f32⟩ : BufTy).Contents (Elt F)),
    unary main_v162 main_v163 (broadcastInDim S50000x128 ![0, 1] bcast_S1x128_S50000x128_0_1 : (⟨S1x128, .f32⟩ : BufTy).Contents (Elt F) → (⟨S50000x128, .f32⟩ : BufTy).Contents (Elt F)),
    binary main_v163 main_v161 main_v164 (mulf : (⟨S50000x128, .f32⟩ : BufTy).Contents (Elt F) → (⟨S50000x128, .f32⟩ : BufTy).Contents (Elt F) → (⟨S50000x128, .f32⟩ : BufTy).Contents (Elt F)),
    nullary main_cst_30 (constant S_ .f32 0x3727C5AC#32),
    unary main_cst_30 main_v165 (broadcastInDim S128 ![] bcast_S_S128 : (⟨S_, .f32⟩ : BufTy).Contents (Elt F) → (⟨S128, .f32⟩ : BufTy).Contents (Elt F)),
    binary main_v158 main_v165 main_v166 (addf : (⟨S128, .f32⟩ : BufTy).Contents (Elt F) → (⟨S128, .f32⟩ : BufTy).Contents (Elt F) → (⟨S128, .f32⟩ : BufTy).Contents (Elt F)),
    unary main_v166 main_v167 (Host.rsqrt : (⟨S128, .f32⟩ : BufTy).Contents (Elt F) → (⟨S128, .f32⟩ : BufTy).Contents (Elt F)),
    unary main_v167 main_v168 (broadcastInDim S1x128 ![1] bcast_S128_S1x128_1 : (⟨S128, .f32⟩ : BufTy).Contents (Elt F) → (⟨S1x128, .f32⟩ : BufTy).Contents (Elt F)),
    unary main_v168 main_v169 (broadcastInDim S50000x128 ![0, 1] bcast_S1x128_S50000x128_0_1 : (⟨S1x128, .f32⟩ : BufTy).Contents (Elt F) → (⟨S50000x128, .f32⟩ : BufTy).Contents (Elt F)),
    binary main_v164 main_v169 main_v170 (mulf : (⟨S50000x128, .f32⟩ : BufTy).Contents (Elt F) → (⟨S50000x128, .f32⟩ : BufTy).Contents (Elt F) → (⟨S50000x128, .f32⟩ : BufTy).Contents (Elt F)),
    unary main_arg13 main_v171 (broadcastInDim S1x128 ![1] bcast_S128_S1x128_1 : (⟨S128, .f32⟩ : BufTy).Contents (Elt F) → (⟨S1x128, .f32⟩ : BufTy).Contents (Elt F)),
    unary main_v171 main_v172 (broadcastInDim S50000x128 ![0, 1] bcast_S1x128_S50000x128_0_1 : (⟨S1x128, .f32⟩ : BufTy).Contents (Elt F) → (⟨S50000x128, .f32⟩ : BufTy).Contents (Elt F)),
    binary main_v170 main_v172 main_v173 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x128, .f32⟩) main_call4_v0) (broadcastInDim S50000x128 ![] bcast_S_S50000x128),
    TRef.binary (TRef.of (T := ⟨S50000x128, .f32⟩) main_v173) (TRef.of (T := ⟨S50000x128, .f32⟩) main_call4_v0) (TRef.of (T := ⟨S50000x128, .f32⟩) main_v174) maximumf,
    binary main_v174 main_arg14 main_v175 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg15 main_v176 (broadcastInDim S1x256 ![1] bcast_S256_S1x256_1 : (⟨S256, .f32⟩ : BufTy).Contents (Elt F) → (⟨S1x256, .f32⟩ : BufTy).Contents (Elt F)),
    unary main_v176 main_v177 (broadcastInDim S50000x256 ![0, 1] bcast_S1x256_S50000x256_0_1 : (⟨S1x256, .f32⟩ : BufTy).Contents (Elt F) → (⟨S50000x256, .f32⟩ : BufTy).Contents (Elt F)),
    binary main_v175 main_v177 main_v178 (addf : (⟨S50000x256, .f32⟩ : BufTy).Contents (Elt F) → (⟨S50000x256, .f32⟩ : BufTy).Contents (Elt F) → (⟨S50000x256, .f32⟩ : BufTy).Contents (Elt F)),
    nullary main_c_31 (constantI S_ 32 0#32),
    unary main_c_31 main_v179 (broadcastInDim S800000 ![] bcast_S_S800000 : (⟨S_, .i32⟩ : BufTy).Contents (Elt F) → (⟨S800000, .i32⟩ : BufTy).Contents (Elt F)),
    binary main_v1 main_v179 main_v180 (cmpi .slt : (⟨S800000, .i32⟩ : BufTy).Contents (Elt F) → (⟨S800000, .i32⟩ : BufTy).Contents (Elt F) → (⟨S800000, .i1⟩ : BufTy).Contents (Elt F)),
    nullary main_c_32 (constantI S_ 32 50000#32),
    unary main_c_32 main_v181 (broadcastInDim S800000 ![] bcast_S_S800000 : (⟨S_, .i32⟩ : BufTy).Contents (Elt F) → (⟨S800000, .i32⟩ : BufTy).Contents (Elt F)),
    binary main_v1 main_v181 main_v182 (addi : (⟨S800000, .i32⟩ : BufTy).Contents (Elt F) → (⟨S800000, .i32⟩ : BufTy).Contents (Elt F) → (⟨S800000, .i32⟩ : BufTy).Contents (Elt F)),
    ternary main_v180 main_v182 main_v1 main_v183 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v183 main_v184 (broadcastInDim S800000x1 ![0] bcast_S800000_S800000x1_0 : (⟨S800000, .i32⟩ : BufTy).Contents (Elt F) → (⟨S800000x1, .i32⟩ : BufTy).Contents (Elt F)),
    binary main_v178 main_v184 main_v185 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    unary main_v30 main_v186 (broadcastInDim S800000x1 ![0] bcast_S800000_S800000x1_0 : (⟨S800000, .f32⟩ : BufTy).Contents (Elt F) → (⟨S800000x1, .f32⟩ : BufTy).Contents (Elt F)),
    unary main_v186 main_v187 (broadcastInDim S800000x256 ![0, 1] bcast_S800000x1_S800000x256_0_1 : (⟨S800000x1, .f32⟩ : BufTy).Contents (Elt F) → (⟨S800000x256, .f32⟩ : BufTy).Contents (Elt F)),
    binary main_v185 main_v187 main_v188 (mulf : (⟨S800000x256, .f32⟩ : BufTy).Contents (Elt F) → (⟨S800000x256, .f32⟩ : BufTy).Contents (Elt F) → (⟨S800000x256, .f32⟩ : BufTy).Contents (Elt F)),
    nullary main_cst_33 (constant S_ .f32 0x00000000#32),
    unary main_cst_33 main_v189 (broadcastInDim S50000x256 ![] bcast_S_S50000x256 : (⟨S_, .f32⟩ : BufTy).Contents (Elt F) → (⟨S50000x256, .f32⟩ : BufTy).Contents (Elt F)),
    unary main_v3 main_v190 (broadcastInDim S800000x1 ![0] bcast_S800000_S800000x1_0 : (⟨S800000, .i32⟩ : BufTy).Contents (Elt F) → (⟨S800000x1, .i32⟩ : BufTy).Contents (Elt F)),
    ternary main_v189 main_v190 main_v188 main_v191 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    unary main_v31 main_v192 (broadcastInDim S50000x1 ![0] bcast_S50000_S50000x1_0 : (⟨S50000, .f32⟩ : BufTy).Contents (Elt F) → (⟨S50000x1, .f32⟩ : BufTy).Contents (Elt F)),
    unary main_v192 main_v193 (broadcastInDim S50000x256 ![0, 1] bcast_S50000x1_S50000x256_0_1 : (⟨S50000x1, .f32⟩ : BufTy).Contents (Elt F) → (⟨S50000x256, .f32⟩ : BufTy).Contents (Elt F)),
    binary main_v178 main_v193 main_v194 (mulf : (⟨S50000x256, .f32⟩ : BufTy).Contents (Elt F) → (⟨S50000x256, .f32⟩ : BufTy).Contents (Elt F) → (⟨S50000x256, .f32⟩ : BufTy).Contents (Elt F)),
    binary main_v191 main_v194 main_v195 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x256, .f32⟩) main_call5_v0) (broadcastInDim S50000x256 ![] bcast_S_S50000x256),
    TRef.binary (TRef.of (T := ⟨S50000x256, .f32⟩) main_v195) (TRef.of (T := ⟨S50000x256, .f32⟩) main_call5_v0) (TRef.of (T := ⟨S50000x256, .f32⟩) main_v196) maximumf,
    nullary main_cst_34 (constant S_ .f32 0x00000000#32),
    binary main_v196 main_cst_34 main_v197 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_35 (constant S_ .f32 0x47435000#32),
    unary main_cst_35 main_v198 (broadcastInDim S256 ![] bcast_S_S256 : (⟨S_, .f32⟩ : BufTy).Contents (Elt F) → (⟨S256, .f32⟩ : BufTy).Contents (Elt F)),
    binary main_v197 main_v198 main_v199 (Host.divf : (⟨S256, .f32⟩ : BufTy).Contents (Elt F) → (⟨S256, .f32⟩ : BufTy).Contents (Elt F) → (⟨S256, .f32⟩ : BufTy).Contents (Elt F)),
    unary main_v199 main_v200 (broadcastInDim S1x256 ![1] bcast_S256_S1x256_1 : (⟨S256, .f32⟩ : BufTy).Contents (Elt F) → (⟨S1x256, .f32⟩ : BufTy).Contents (Elt F)),
    unary main_v200 main_v201 (broadcastInDim S50000x256 ![0, 1] bcast_S1x256_S50000x256_0_1 : (⟨S1x256, .f32⟩ : BufTy).Contents (Elt F) → (⟨S50000x256, .f32⟩ : BufTy).Contents (Elt F)),
    binary main_v196 main_v201 main_v202 (subf : (⟨S50000x256, .f32⟩ : BufTy).Contents (Elt F) → (⟨S50000x256, .f32⟩ : BufTy).Contents (Elt F) → (⟨S50000x256, .f32⟩ : BufTy).Contents (Elt F)),
    binary main_v202 main_v202 main_v203 (mulf : (⟨S50000x256, .f32⟩ : BufTy).Contents (Elt F) → (⟨S50000x256, .f32⟩ : BufTy).Contents (Elt F) → (⟨S50000x256, .f32⟩ : BufTy).Contents (Elt F)),
    nullary main_cst_36 (constant S_ .f32 0x00000000#32),
    binary main_v203 main_cst_36 main_v204 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_37 (constant S_ .f32 0x47435000#32),
    unary main_cst_37 main_v205 (broadcastInDim S256 ![] bcast_S_S256 : (⟨S_, .f32⟩ : BufTy).Contents (Elt F) → (⟨S256, .f32⟩ : BufTy).Contents (Elt F)),
    binary main_v204 main_v205 main_v206 (Host.divf : (⟨S256, .f32⟩ : BufTy).Contents (Elt F) → (⟨S256, .f32⟩ : BufTy).Contents (Elt F) → (⟨S256, .f32⟩ : BufTy).Contents (Elt F)),
    unary main_v199 main_v207 (broadcastInDim S1x256 ![1] bcast_S256_S1x256_1 : (⟨S256, .f32⟩ : BufTy).Contents (Elt F) → (⟨S1x256, .f32⟩ : BufTy).Contents (Elt F)),
    unary main_v207 main_v208 (broadcastInDim S50000x256 ![0, 1] bcast_S1x256_S50000x256_0_1 : (⟨S1x256, .f32⟩ : BufTy).Contents (Elt F) → (⟨S50000x256, .f32⟩ : BufTy).Contents (Elt F)),
    binary main_v196 main_v208 main_v209 (subf : (⟨S50000x256, .f32⟩ : BufTy).Contents (Elt F) → (⟨S50000x256, .f32⟩ : BufTy).Contents (Elt F) → (⟨S50000x256, .f32⟩ : BufTy).Contents (Elt F)),
    unary main_arg16 main_v210 (broadcastInDim S1x256 ![1] bcast_S256_S1x256_1 : (⟨S256, .f32⟩ : BufTy).Contents (Elt F) → (⟨S1x256, .f32⟩ : BufTy).Contents (Elt F)),
    unary main_v210 main_v211 (broadcastInDim S50000x256 ![0, 1] bcast_S1x256_S50000x256_0_1 : (⟨S1x256, .f32⟩ : BufTy).Contents (Elt F) → (⟨S50000x256, .f32⟩ : BufTy).Contents (Elt F)),
    binary main_v211 main_v209 main_v212 (mulf : (⟨S50000x256, .f32⟩ : BufTy).Contents (Elt F) → (⟨S50000x256, .f32⟩ : BufTy).Contents (Elt F) → (⟨S50000x256, .f32⟩ : BufTy).Contents (Elt F)),
    nullary main_cst_38 (constant S_ .f32 0x3727C5AC#32),
    unary main_cst_38 main_v213 (broadcastInDim S256 ![] bcast_S_S256 : (⟨S_, .f32⟩ : BufTy).Contents (Elt F) → (⟨S256, .f32⟩ : BufTy).Contents (Elt F)),
    binary main_v206 main_v213 main_v214 (addf : (⟨S256, .f32⟩ : BufTy).Contents (Elt F) → (⟨S256, .f32⟩ : BufTy).Contents (Elt F) → (⟨S256, .f32⟩ : BufTy).Contents (Elt F)),
    unary main_v214 main_v215 (Host.rsqrt : (⟨S256, .f32⟩ : BufTy).Contents (Elt F) → (⟨S256, .f32⟩ : BufTy).Contents (Elt F)),
    unary main_v215 main_v216 (broadcastInDim S1x256 ![1] bcast_S256_S1x256_1 : (⟨S256, .f32⟩ : BufTy).Contents (Elt F) → (⟨S1x256, .f32⟩ : BufTy).Contents (Elt F)),
    unary main_v216 main_v217 (broadcastInDim S50000x256 ![0, 1] bcast_S1x256_S50000x256_0_1 : (⟨S1x256, .f32⟩ : BufTy).Contents (Elt F) → (⟨S50000x256, .f32⟩ : BufTy).Contents (Elt F)),
    binary main_v212 main_v217 main_v218 (mulf : (⟨S50000x256, .f32⟩ : BufTy).Contents (Elt F) → (⟨S50000x256, .f32⟩ : BufTy).Contents (Elt F) → (⟨S50000x256, .f32⟩ : BufTy).Contents (Elt F)),
    unary main_arg17 main_v219 (broadcastInDim S1x256 ![1] bcast_S256_S1x256_1 : (⟨S256, .f32⟩ : BufTy).Contents (Elt F) → (⟨S1x256, .f32⟩ : BufTy).Contents (Elt F)),
    unary main_v219 main_v220 (broadcastInDim S50000x256 ![0, 1] bcast_S1x256_S50000x256_0_1 : (⟨S1x256, .f32⟩ : BufTy).Contents (Elt F) → (⟨S50000x256, .f32⟩ : BufTy).Contents (Elt F)),
    binary main_v218 main_v220 main_v221 (addf : (⟨S50000x256, .f32⟩ : BufTy).Contents (Elt F) → (⟨S50000x256, .f32⟩ : BufTy).Contents (Elt F) → (⟨S50000x256, .f32⟩ : BufTy).Contents (Elt F)) ]

theorem ops_split : (ops : List (HloOp τ sig (Elt F))) = w0 ++ w1 ++ w2 ++ w3 ++ w4 ++ w5 ++ w6 ++ w7 ++ w8 ++ w9 ++ w10 ++ w11 ++ w12 := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩

/-- The eighteen argument arrays as a valuation holds them. -/
abbrev argsOf (V0 : Valuation τ sig (Elt F)) : Cert.Spec.Args F :=
  ⟨V0 (Proc.devRef .tc main_arg0), V0 (Proc.devRef .tc main_arg1), V0 (Proc.devRef .tc main_arg2), V0 (Proc.devRef .tc main_arg3), V0 (Proc.devRef .tc main_arg4), V0 (Proc.devRef .tc main_arg5), V0 (Proc.devRef .tc main_arg6), V0 (Proc.devRef .tc main_arg7), V0 (Proc.devRef .tc main_arg8), V0 (Proc.devRef .tc main_arg9), V0 (Proc.devRef .tc main_arg10), V0 (Proc.devRef .tc main_arg11), V0 (Proc.devRef .tc main_arg12), V0 (Proc.devRef .tc main_arg13), V0 (Proc.devRef .tc main_arg14), V0 (Proc.devRef .tc main_arg15), V0 (Proc.devRef .tc main_arg16), V0 (Proc.devRef .tc main_arg17)⟩

/-- The buffer contents before the first stretch. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl
theorem val0_main_arg8 (V0 : Valuation τ sig (Elt F)) : val0 V0 (no_index (Proc.devRef .tc main_arg8)) = V0 (Proc.devRef .tc main_arg8) := rfl
theorem val0_main_arg9 (V0 : Valuation τ sig (Elt F)) : val0 V0 (no_index (Proc.devRef .tc main_arg9)) = V0 (Proc.devRef .tc main_arg9) := rfl
theorem val0_main_arg10 (V0 : Valuation τ sig (Elt F)) : val0 V0 (no_index (Proc.devRef .tc main_arg10)) = V0 (Proc.devRef .tc main_arg10) := rfl
theorem val0_main_arg11 (V0 : Valuation τ sig (Elt F)) : val0 V0 (no_index (Proc.devRef .tc main_arg11)) = V0 (Proc.devRef .tc main_arg11) := rfl
theorem val0_main_arg12 (V0 : Valuation τ sig (Elt F)) : val0 V0 (no_index (Proc.devRef .tc main_arg12)) = V0 (Proc.devRef .tc main_arg12) := rfl
theorem val0_main_arg13 (V0 : Valuation τ sig (Elt F)) : val0 V0 (no_index (Proc.devRef .tc main_arg13)) = V0 (Proc.devRef .tc main_arg13) := rfl
theorem val0_main_arg14 (V0 : Valuation τ sig (Elt F)) : val0 V0 (no_index (Proc.devRef .tc main_arg14)) = V0 (Proc.devRef .tc main_arg14) := rfl
theorem val0_main_arg15 (V0 : Valuation τ sig (Elt F)) : val0 V0 (no_index (Proc.devRef .tc main_arg15)) = V0 (Proc.devRef .tc main_arg15) := rfl
theorem val0_main_arg16 (V0 : Valuation τ sig (Elt F)) : val0 V0 (no_index (Proc.devRef .tc main_arg16)) = V0 (Proc.devRef .tc main_arg16) := rfl
theorem val0_main_arg17 (V0 : Valuation τ sig (Elt F)) : val0 V0 (no_index (Proc.devRef .tc main_arg17)) = V0 (Proc.devRef .tc main_arg17) := rfl

/-- The buffer contents after the first 1 stretch. -/
def val1 (V0 : Valuation τ sig (Elt F)) : Valuation τ sig (Elt F) := after w0 (val0 V0)
/-- The buffers stretch 1 writes. -/
abbrev w0_W : List (Ref sig .tc) := [main_v0, main_v1, main_v2, main_v3, main_cst, main_v4, main_c, main_v5, main_v6, main_c_0, main_v7, main_v8, main_v9, main_v10, main_cst_1, main_v11, main_v12, main_cst_2, main_v13, main_v14, main_v15, main_c_3, main_v16, main_v17, main_c_4, main_v18, main_v19, main_v20, main_v21, main_v22, main_c_5, main_v23, main_v24, main_c_6, main_v25, main_v26, main_v27, main_v28, main_v29, main_v30, main_v31]
set_option maxRecDepth 8192 in
theorem w0_writes : (w0 : List (HloOp τ sig (Elt F))).Forall fun op => op.writes ⊆ (w0_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stretch 1 does not write keeps its contents through it. -/
theorem val1_keep (V0 : Valuation τ sig (Elt F)) (r : Ref sig .tc) (h : r ∉ w0_W) :
    val1 V0 (Proc.devRef .tc r) = val0 V0 (Proc.devRef .tc r) :=
  after_of_writes_sub w0 _ w0_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_arg6 (V0 : Valuation τ sig (Elt F)) : val1 V0 (no_index (Proc.devRef .tc main_arg6)) = V0 (Proc.devRef .tc main_arg6) :=
  (val1_keep V0 main_arg6 (by decide)).trans (val0_main_arg6 V0)
theorem val1_main_arg7 (V0 : Valuation τ sig (Elt F)) : val1 V0 (no_index (Proc.devRef .tc main_arg7)) = V0 (Proc.devRef .tc main_arg7) :=
  (val1_keep V0 main_arg7 (by decide)).trans (val0_main_arg7 V0)
theorem val1_main_arg8 (V0 : Valuation τ sig (Elt F)) : val1 V0 (no_index (Proc.devRef .tc main_arg8)) = V0 (Proc.devRef .tc main_arg8) :=
  (val1_keep V0 main_arg8 (by decide)).trans (val0_main_arg8 V0)
theorem val1_main_arg9 (V0 : Valuation τ sig (Elt F)) : val1 V0 (no_index (Proc.devRef .tc main_arg9)) = V0 (Proc.devRef .tc main_arg9) :=
  (val1_keep V0 main_arg9 (by decide)).trans (val0_main_arg9 V0)
theorem val1_main_arg10 (V0 : Valuation τ sig (Elt F)) : val1 V0 (no_index (Proc.devRef .tc main_arg10)) = V0 (Proc.devRef .tc main_arg10) :=
  (val1_keep V0 main_arg10 (by decide)).trans (val0_main_arg10 V0)
theorem val1_main_arg11 (V0 : Valuation τ sig (Elt F)) : val1 V0 (no_index (Proc.devRef .tc main_arg11)) = V0 (Proc.devRef .tc main_arg11) :=
  (val1_keep V0 main_arg11 (by decide)).trans (val0_main_arg11 V0)
theorem val1_main_arg12 (V0 : Valuation τ sig (Elt F)) : val1 V0 (no_index (Proc.devRef .tc main_arg12)) = V0 (Proc.devRef .tc main_arg12) :=
  (val1_keep V0 main_arg12 (by decide)).trans (val0_main_arg12 V0)
theorem val1_main_arg13 (V0 : Valuation τ sig (Elt F)) : val1 V0 (no_index (Proc.devRef .tc main_arg13)) = V0 (Proc.devRef .tc main_arg13) :=
  (val1_keep V0 main_arg13 (by decide)).trans (val0_main_arg13 V0)
theorem val1_main_arg14 (V0 : Valuation τ sig (Elt F)) : val1 V0 (no_index (Proc.devRef .tc main_arg14)) = V0 (Proc.devRef .tc main_arg14) :=
  (val1_keep V0 main_arg14 (by decide)).trans (val0_main_arg14 V0)
theorem val1_main_arg15 (V0 : Valuation τ sig (Elt F)) : val1 V0 (no_index (Proc.devRef .tc main_arg15)) = V0 (Proc.devRef .tc main_arg15) :=
  (val1_keep V0 main_arg15 (by decide)).trans (val0_main_arg15 V0)
theorem val1_main_arg16 (V0 : Valuation τ sig (Elt F)) : val1 V0 (no_index (Proc.devRef .tc main_arg16)) = V0 (Proc.devRef .tc main_arg16) :=
  (val1_keep V0 main_arg16 (by decide)).trans (val0_main_arg16 V0)
theorem val1_main_arg17 (V0 : Valuation τ sig (Elt F)) : val1 V0 (no_index (Proc.devRef .tc main_arg17)) = V0 (Proc.devRef .tc main_arg17) :=
  (val1_keep V0 main_arg17 (by decide)).trans (val0_main_arg17 V0)
set_option maxRecDepth 8192 in
set_option maxHeartbeats 4000000 in
theorem val1_main_v1 (V0 : Valuation τ sig (Elt F)) : val1 V0 (no_index (Proc.devRef .tc main_v1)) = Cert.Spec.src (argsOf V0).e := by
  unfold val1
  simp only [w0]
  after_results_simp
  simp only [val0_main_arg1] <;> rfl
set_option maxRecDepth 8192 in
set_option maxHeartbeats 4000000 in
theorem val1_main_v3 (V0 : Valuation τ sig (Elt F)) : val1 V0 (no_index (Proc.devRef .tc main_v3)) = Cert.Spec.dst (argsOf V0).e := by
  unfold val1
  simp only [w0]
  after_results_simp
  simp only [val0_main_arg1] <;> rfl
set_option maxRecDepth 8192 in
set_option maxHeartbeats 4000000 in
theorem val1_main_v30 (V0 : Valuation τ sig (Elt F)) : val1 V0 (no_index (Proc.devRef .tc main_v30)) = Cert.Spec.dsd (argsOf V0).e := by
  unfold val1
  simp only [w0]
  after_results_simp
  simp only [val0_main_arg1] <;> rfl
set_option maxRecDepth 8192 in
set_option maxHeartbeats 4000000 in
theorem val1_main_v31 (V0 : Valuation τ sig (Elt F)) : val1 V0 (no_index (Proc.devRef .tc main_v31)) = Cert.Spec.dself (argsOf V0).e := by
  unfold val1
  simp only [w0]
  after_results_simp
  simp only [val0_main_arg1] <;> rfl

/-- The buffer contents after the first 2 stretches. -/
def val2 (V0 : Valuation τ sig (Elt F)) : Valuation τ sig (Elt F) := after w1 (val1 V0)
/-- The buffers stretch 2 writes. -/
abbrev w1_W : List (Ref sig .tc) := [main_v32, main_v33, main_v34, main_v35]
set_option maxRecDepth 8192 in
theorem w1_writes : (w1 : List (HloOp τ sig (Elt F))).Forall fun op => op.writes ⊆ (w1_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stretch 2 does not write keeps its contents through it. -/
theorem val2_keep (V0 : Valuation τ sig (Elt F)) (r : Ref sig .tc) (h : r ∉ w1_W) :
    val2 V0 (Proc.devRef .tc r) = val1 V0 (Proc.devRef .tc r) :=
  after_of_writes_sub w1 _ w1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_arg8 (V0 : Valuation τ sig (Elt F)) : val2 V0 (no_index (Proc.devRef .tc main_arg8)) = V0 (Proc.devRef .tc main_arg8) :=
  (val2_keep V0 main_arg8 (by decide)).trans (val1_main_arg8 V0)
theorem val2_main_arg9 (V0 : Valuation τ sig (Elt F)) : val2 V0 (no_index (Proc.devRef .tc main_arg9)) = V0 (Proc.devRef .tc main_arg9) :=
  (val2_keep V0 main_arg9 (by decide)).trans (val1_main_arg9 V0)
theorem val2_main_arg10 (V0 : Valuation τ sig (Elt F)) : val2 V0 (no_index (Proc.devRef .tc main_arg10)) = V0 (Proc.devRef .tc main_arg10) :=
  (val2_keep V0 main_arg10 (by decide)).trans (val1_main_arg10 V0)
theorem val2_main_arg11 (V0 : Valuation τ sig (Elt F)) : val2 V0 (no_index (Proc.devRef .tc main_arg11)) = V0 (Proc.devRef .tc main_arg11) :=
  (val2_keep V0 main_arg11 (by decide)).trans (val1_main_arg11 V0)
theorem val2_main_arg12 (V0 : Valuation τ sig (Elt F)) : val2 V0 (no_index (Proc.devRef .tc main_arg12)) = V0 (Proc.devRef .tc main_arg12) :=
  (val2_keep V0 main_arg12 (by decide)).trans (val1_main_arg12 V0)
theorem val2_main_arg13 (V0 : Valuation τ sig (Elt F)) : val2 V0 (no_index (Proc.devRef .tc main_arg13)) = V0 (Proc.devRef .tc main_arg13) :=
  (val2_keep V0 main_arg13 (by decide)).trans (val1_main_arg13 V0)
theorem val2_main_arg14 (V0 : Valuation τ sig (Elt F)) : val2 V0 (no_index (Proc.devRef .tc main_arg14)) = V0 (Proc.devRef .tc main_arg14) :=
  (val2_keep V0 main_arg14 (by decide)).trans (val1_main_arg14 V0)
theorem val2_main_arg15 (V0 : Valuation τ sig (Elt F)) : val2 V0 (no_index (Proc.devRef .tc main_arg15)) = V0 (Proc.devRef .tc main_arg15) :=
  (val2_keep V0 main_arg15 (by decide)).trans (val1_main_arg15 V0)
theorem val2_main_arg16 (V0 : Valuation τ sig (Elt F)) : val2 V0 (no_index (Proc.devRef .tc main_arg16)) = V0 (Proc.devRef .tc main_arg16) :=
  (val2_keep V0 main_arg16 (by decide)).trans (val1_main_arg16 V0)
theorem val2_main_arg17 (V0 : Valuation τ sig (Elt F)) : val2 V0 (no_index (Proc.devRef .tc main_arg17)) = V0 (Proc.devRef .tc main_arg17) :=
  (val2_keep V0 main_arg17 (by decide)).trans (val1_main_arg17 V0)
theorem val2_main_v1 (V0 : Valuation τ sig (Elt F)) : val2 V0 (no_index (Proc.devRef .tc main_v1)) = Cert.Spec.src (argsOf V0).e :=
  (val2_keep V0 main_v1 (by decide)).trans (val1_main_v1 V0)
theorem val2_main_v3 (V0 : Valuation τ sig (Elt F)) : val2 V0 (no_index (Proc.devRef .tc main_v3)) = Cert.Spec.dst (argsOf V0).e :=
  (val2_keep V0 main_v3 (by decide)).trans (val1_main_v3 V0)
theorem val2_main_v30 (V0 : Valuation τ sig (Elt F)) : val2 V0 (no_index (Proc.devRef .tc main_v30)) = Cert.Spec.dsd (argsOf V0).e :=
  (val2_keep V0 main_v30 (by decide)).trans (val1_main_v30 V0)
theorem val2_main_v31 (V0 : Valuation τ sig (Elt F)) : val2 V0 (no_index (Proc.devRef .tc main_v31)) = Cert.Spec.dself (argsOf V0).e :=
  (val2_keep V0 main_v31 (by decide)).trans (val1_main_v31 V0)
set_option maxRecDepth 8192 in
set_option maxHeartbeats 4000000 in
theorem val2_main_v35 (V0 : Valuation τ sig (Elt F)) : val2 V0 (no_index (Proc.devRef .tc main_v35)) = Cert.Spec.H1 (argsOf V0) := by
  unfold val2
  simp only [w1]
  after_results_simp
  simp only [val1_main_arg0, val1_main_arg2, val1_main_arg3] <;> rfl

/-- The buffer contents after the first 3 stretches. -/
def val3 (V0 : Valuation τ sig (Elt F)) : Valuation τ sig (Elt F) := after w2 (val2 V0)
/-- The buffers stretch 3 writes. -/
abbrev w2_W : List (Ref sig .tc) := [main_c_7, main_v36, main_v37, main_c_8, main_v38, main_v39, main_v40, main_v41, main_v42, main_v43, main_v44, main_v45, main_cst_9, main_v46, main_v47, main_v48, main_v49, main_v50, main_v51, main_v52, main_call0_cst, main_call0_v0, main_v53]
set_option maxRecDepth 8192 in
theorem w2_writes : (w2 : List (HloOp τ sig (Elt F))).Forall fun op => op.writes ⊆ (w2_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stretch 3 does not write keeps its contents through it. -/
theorem val3_keep (V0 : Valuation τ sig (Elt F)) (r : Ref sig .tc) (h : r ∉ w2_W) :
    val3 V0 (Proc.devRef .tc r) = val2 V0 (Proc.devRef .tc r) :=
  after_of_writes_sub w2 _ w2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_arg8 (V0 : Valuation τ sig (Elt F)) : val3 V0 (no_index (Proc.devRef .tc main_arg8)) = V0 (Proc.devRef .tc main_arg8) :=
  (val3_keep V0 main_arg8 (by decide)).trans (val2_main_arg8 V0)
theorem val3_main_arg9 (V0 : Valuation τ sig (Elt F)) : val3 V0 (no_index (Proc.devRef .tc main_arg9)) = V0 (Proc.devRef .tc main_arg9) :=
  (val3_keep V0 main_arg9 (by decide)).trans (val2_main_arg9 V0)
theorem val3_main_arg10 (V0 : Valuation τ sig (Elt F)) : val3 V0 (no_index (Proc.devRef .tc main_arg10)) = V0 (Proc.devRef .tc main_arg10) :=
  (val3_keep V0 main_arg10 (by decide)).trans (val2_main_arg10 V0)
theorem val3_main_arg11 (V0 : Valuation τ sig (Elt F)) : val3 V0 (no_index (Proc.devRef .tc main_arg11)) = V0 (Proc.devRef .tc main_arg11) :=
  (val3_keep V0 main_arg11 (by decide)).trans (val2_main_arg11 V0)
theorem val3_main_arg12 (V0 : Valuation τ sig (Elt F)) : val3 V0 (no_index (Proc.devRef .tc main_arg12)) = V0 (Proc.devRef .tc main_arg12) :=
  (val3_keep V0 main_arg12 (by decide)).trans (val2_main_arg12 V0)
theorem val3_main_arg13 (V0 : Valuation τ sig (Elt F)) : val3 V0 (no_index (Proc.devRef .tc main_arg13)) = V0 (Proc.devRef .tc main_arg13) :=
  (val3_keep V0 main_arg13 (by decide)).trans (val2_main_arg13 V0)
theorem val3_main_arg14 (V0 : Valuation τ sig (Elt F)) : val3 V0 (no_index (Proc.devRef .tc main_arg14)) = V0 (Proc.devRef .tc main_arg14) :=
  (val3_keep V0 main_arg14 (by decide)).trans (val2_main_arg14 V0)
theorem val3_main_arg15 (V0 : Valuation τ sig (Elt F)) : val3 V0 (no_index (Proc.devRef .tc main_arg15)) = V0 (Proc.devRef .tc main_arg15) :=
  (val3_keep V0 main_arg15 (by decide)).trans (val2_main_arg15 V0)
theorem val3_main_arg16 (V0 : Valuation τ sig (Elt F)) : val3 V0 (no_index (Proc.devRef .tc main_arg16)) = V0 (Proc.devRef .tc main_arg16) :=
  (val3_keep V0 main_arg16 (by decide)).trans (val2_main_arg16 V0)
theorem val3_main_arg17 (V0 : Valuation τ sig (Elt F)) : val3 V0 (no_index (Proc.devRef .tc main_arg17)) = V0 (Proc.devRef .tc main_arg17) :=
  (val3_keep V0 main_arg17 (by decide)).trans (val2_main_arg17 V0)
theorem val3_main_v1 (V0 : Valuation τ sig (Elt F)) : val3 V0 (no_index (Proc.devRef .tc main_v1)) = Cert.Spec.src (argsOf V0).e :=
  (val3_keep V0 main_v1 (by decide)).trans (val2_main_v1 V0)
theorem val3_main_v3 (V0 : Valuation τ sig (Elt F)) : val3 V0 (no_index (Proc.devRef .tc main_v3)) = Cert.Spec.dst (argsOf V0).e :=
  (val3_keep V0 main_v3 (by decide)).trans (val2_main_v3 V0)
theorem val3_main_v30 (V0 : Valuation τ sig (Elt F)) : val3 V0 (no_index (Proc.devRef .tc main_v30)) = Cert.Spec.dsd (argsOf V0).e :=
  (val3_keep V0 main_v30 (by decide)).trans (val2_main_v30 V0)
theorem val3_main_v31 (V0 : Valuation τ sig (Elt F)) : val3 V0 (no_index (Proc.devRef .tc main_v31)) = Cert.Spec.dself (argsOf V0).e :=
  (val3_keep V0 main_v31 (by decide)).trans (val2_main_v31 V0)
set_option maxRecDepth 8192 in
set_option maxHeartbeats 4000000 in
theorem val3_main_v53 (V0 : Valuation τ sig (Elt F)) : val3 V0 (no_index (Proc.devRef .tc main_v53)) = Cert.Spec.Y1 (argsOf V0) := by
  unfold val3
  simp only [w2]
  after_results_simp
  simp only [val2_main_v1, val2_main_v35, val2_main_v30, val2_main_v3, val2_main_v31] <;> rfl

/-- The buffer contents after the first 4 stretches. -/
def val4 (V0 : Valuation τ sig (Elt F)) : Valuation τ sig (Elt F) := after w3 (val3 V0)
/-- The buffers stretch 4 writes. -/
abbrev w3_W : List (Ref sig .tc) := [main_cst_10, main_v54, main_cst_11, main_v55, main_v56, main_v57, main_v58, main_v59, main_v60, main_cst_12, main_v61, main_cst_13, main_v62, main_v63, main_v64, main_v65, main_v66, main_v67, main_v68, main_v69, main_cst_14, main_v70, main_v71, main_v72, main_v73, main_v74, main_v75, main_v76, main_v77, main_v78, main_call1_cst, main_call1_v0, main_v79]
set_option maxRecDepth 8192 in
theorem w3_writes : (w3 : List (HloOp τ sig (Elt F))).Forall fun op => op.writes ⊆ (w3_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stretch 4 does not write keeps its contents through it. -/
theorem val4_keep (V0 : Valuation τ sig (Elt F)) (r : Ref sig .tc) (h : r ∉ w3_W) :
    val4 V0 (Proc.devRef .tc r) = val3 V0 (Proc.devRef .tc r) :=
  after_of_writes_sub w3 _ w3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_arg7 (V0 : Valuation τ sig (Elt F)) : val4 V0 (no_index (Proc.devRef .tc main_arg7)) = V0 (Proc.devRef .tc main_arg7) :=
  (val4_keep V0 main_arg7 (by decide)).trans (val3_main_arg7 V0)
theorem val4_main_arg8 (V0 : Valuation τ sig (Elt F)) : val4 V0 (no_index (Proc.devRef .tc main_arg8)) = V0 (Proc.devRef .tc main_arg8) :=
  (val4_keep V0 main_arg8 (by decide)).trans (val3_main_arg8 V0)
theorem val4_main_arg9 (V0 : Valuation τ sig (Elt F)) : val4 V0 (no_index (Proc.devRef .tc main_arg9)) = V0 (Proc.devRef .tc main_arg9) :=
  (val4_keep V0 main_arg9 (by decide)).trans (val3_main_arg9 V0)
theorem val4_main_arg10 (V0 : Valuation τ sig (Elt F)) : val4 V0 (no_index (Proc.devRef .tc main_arg10)) = V0 (Proc.devRef .tc main_arg10) :=
  (val4_keep V0 main_arg10 (by decide)).trans (val3_main_arg10 V0)
theorem val4_main_arg11 (V0 : Valuation τ sig (Elt F)) : val4 V0 (no_index (Proc.devRef .tc main_arg11)) = V0 (Proc.devRef .tc main_arg11) :=
  (val4_keep V0 main_arg11 (by decide)).trans (val3_main_arg11 V0)
theorem val4_main_arg12 (V0 : Valuation τ sig (Elt F)) : val4 V0 (no_index (Proc.devRef .tc main_arg12)) = V0 (Proc.devRef .tc main_arg12) :=
  (val4_keep V0 main_arg12 (by decide)).trans (val3_main_arg12 V0)
theorem val4_main_arg13 (V0 : Valuation τ sig (Elt F)) : val4 V0 (no_index (Proc.devRef .tc main_arg13)) = V0 (Proc.devRef .tc main_arg13) :=
  (val4_keep V0 main_arg13 (by decide)).trans (val3_main_arg13 V0)
theorem val4_main_arg14 (V0 : Valuation τ sig (Elt F)) : val4 V0 (no_index (Proc.devRef .tc main_arg14)) = V0 (Proc.devRef .tc main_arg14) :=
  (val4_keep V0 main_arg14 (by decide)).trans (val3_main_arg14 V0)
theorem val4_main_arg15 (V0 : Valuation τ sig (Elt F)) : val4 V0 (no_index (Proc.devRef .tc main_arg15)) = V0 (Proc.devRef .tc main_arg15) :=
  (val4_keep V0 main_arg15 (by decide)).trans (val3_main_arg15 V0)
theorem val4_main_arg16 (V0 : Valuation τ sig (Elt F)) : val4 V0 (no_index (Proc.devRef .tc main_arg16)) = V0 (Proc.devRef .tc main_arg16) :=
  (val4_keep V0 main_arg16 (by decide)).trans (val3_main_arg16 V0)
theorem val4_main_arg17 (V0 : Valuation τ sig (Elt F)) : val4 V0 (no_index (Proc.devRef .tc main_arg17)) = V0 (Proc.devRef .tc main_arg17) :=
  (val4_keep V0 main_arg17 (by decide)).trans (val3_main_arg17 V0)
theorem val4_main_v1 (V0 : Valuation τ sig (Elt F)) : val4 V0 (no_index (Proc.devRef .tc main_v1)) = Cert.Spec.src (argsOf V0).e :=
  (val4_keep V0 main_v1 (by decide)).trans (val3_main_v1 V0)
theorem val4_main_v3 (V0 : Valuation τ sig (Elt F)) : val4 V0 (no_index (Proc.devRef .tc main_v3)) = Cert.Spec.dst (argsOf V0).e :=
  (val4_keep V0 main_v3 (by decide)).trans (val3_main_v3 V0)
theorem val4_main_v30 (V0 : Valuation τ sig (Elt F)) : val4 V0 (no_index (Proc.devRef .tc main_v30)) = Cert.Spec.dsd (argsOf V0).e :=
  (val4_keep V0 main_v30 (by decide)).trans (val3_main_v30 V0)
theorem val4_main_v31 (V0 : Valuation τ sig (Elt F)) : val4 V0 (no_index (Proc.devRef .tc main_v31)) = Cert.Spec.dself (argsOf V0).e :=
  (val4_keep V0 main_v31 (by decide)).trans (val3_main_v31 V0)
set_option maxRecDepth 8192 in
set_option maxHeartbeats 4000000 in
theorem val4_main_v79 (V0 : Valuation τ sig (Elt F)) : val4 V0 (no_index (Proc.devRef .tc main_v79)) = Cert.Spec.O1 (argsOf V0) := by
  unfold val4
  simp only [w3]
  after_results_simp
  simp only [val3_main_v53, val3_main_arg4, val3_main_arg5] <;> rfl

/-- The buffer contents after the first 5 stretches. -/
def val5 (V0 : Valuation τ sig (Elt F)) : Valuation τ sig (Elt F) := after w4 (val4 V0)
/-- The buffers stretch 5 writes. -/
abbrev w4_W : List (Ref sig .tc) := [main_v80, main_v81, main_v82, main_v83]
set_option maxRecDepth 8192 in
theorem w4_writes : (w4 : List (HloOp τ sig (Elt F))).Forall fun op => op.writes ⊆ (w4_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stretch 5 does not write keeps its contents through it. -/
theorem val5_keep (V0 : Valuation τ sig (Elt F)) (r : Ref sig .tc) (h : r ∉ w4_W) :
    val5 V0 (Proc.devRef .tc r) = val4 V0 (Proc.devRef .tc r) :=
  after_of_writes_sub w4 _ w4_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
theorem val5_main_arg5 (V0 : Valuation τ sig (Elt F)) : val5 V0 (no_index (Proc.devRef .tc main_arg5)) = V0 (Proc.devRef .tc main_arg5) :=
  (val5_keep V0 main_arg5 (by decide)).trans (val4_main_arg5 V0)
theorem val5_main_arg6 (V0 : Valuation τ sig (Elt F)) : val5 V0 (no_index (Proc.devRef .tc main_arg6)) = V0 (Proc.devRef .tc main_arg6) :=
  (val5_keep V0 main_arg6 (by decide)).trans (val4_main_arg6 V0)
theorem val5_main_arg7 (V0 : Valuation τ sig (Elt F)) : val5 V0 (no_index (Proc.devRef .tc main_arg7)) = V0 (Proc.devRef .tc main_arg7) :=
  (val5_keep V0 main_arg7 (by decide)).trans (val4_main_arg7 V0)
theorem val5_main_arg8 (V0 : Valuation τ sig (Elt F)) : val5 V0 (no_index (Proc.devRef .tc main_arg8)) = V0 (Proc.devRef .tc main_arg8) :=
  (val5_keep V0 main_arg8 (by decide)).trans (val4_main_arg8 V0)
theorem val5_main_arg9 (V0 : Valuation τ sig (Elt F)) : val5 V0 (no_index (Proc.devRef .tc main_arg9)) = V0 (Proc.devRef .tc main_arg9) :=
  (val5_keep V0 main_arg9 (by decide)).trans (val4_main_arg9 V0)
theorem val5_main_arg10 (V0 : Valuation τ sig (Elt F)) : val5 V0 (no_index (Proc.devRef .tc main_arg10)) = V0 (Proc.devRef .tc main_arg10) :=
  (val5_keep V0 main_arg10 (by decide)).trans (val4_main_arg10 V0)
theorem val5_main_arg11 (V0 : Valuation τ sig (Elt F)) : val5 V0 (no_index (Proc.devRef .tc main_arg11)) = V0 (Proc.devRef .tc main_arg11) :=
  (val5_keep V0 main_arg11 (by decide)).trans (val4_main_arg11 V0)
theorem val5_main_arg12 (V0 : Valuation τ sig (Elt F)) : val5 V0 (no_index (Proc.devRef .tc main_arg12)) = V0 (Proc.devRef .tc main_arg12) :=
  (val5_keep V0 main_arg12 (by decide)).trans (val4_main_arg12 V0)
theorem val5_main_arg13 (V0 : Valuation τ sig (Elt F)) : val5 V0 (no_index (Proc.devRef .tc main_arg13)) = V0 (Proc.devRef .tc main_arg13) :=
  (val5_keep V0 main_arg13 (by decide)).trans (val4_main_arg13 V0)
theorem val5_main_arg14 (V0 : Valuation τ sig (Elt F)) : val5 V0 (no_index (Proc.devRef .tc main_arg14)) = V0 (Proc.devRef .tc main_arg14) :=
  (val5_keep V0 main_arg14 (by decide)).trans (val4_main_arg14 V0)
theorem val5_main_arg15 (V0 : Valuation τ sig (Elt F)) : val5 V0 (no_index (Proc.devRef .tc main_arg15)) = V0 (Proc.devRef .tc main_arg15) :=
  (val5_keep V0 main_arg15 (by decide)).trans (val4_main_arg15 V0)
theorem val5_main_arg16 (V0 : Valuation τ sig (Elt F)) : val5 V0 (no_index (Proc.devRef .tc main_arg16)) = V0 (Proc.devRef .tc main_arg16) :=
  (val5_keep V0 main_arg16 (by decide)).trans (val4_main_arg16 V0)
theorem val5_main_arg17 (V0 : Valuation τ sig (Elt F)) : val5 V0 (no_index (Proc.devRef .tc main_arg17)) = V0 (Proc.devRef .tc main_arg17) :=
  (val5_keep V0 main_arg17 (by decide)).trans (val4_main_arg17 V0)
theorem val5_main_v1 (V0 : Valuation τ sig (Elt F)) : val5 V0 (no_index (Proc.devRef .tc main_v1)) = Cert.Spec.src (argsOf V0).e :=
  (val5_keep V0 main_v1 (by decide)).trans (val4_main_v1 V0)
theorem val5_main_v3 (V0 : Valuation τ sig (Elt F)) : val5 V0 (no_index (Proc.devRef .tc main_v3)) = Cert.Spec.dst (argsOf V0).e :=
  (val5_keep V0 main_v3 (by decide)).trans (val4_main_v3 V0)
theorem val5_main_v30 (V0 : Valuation τ sig (Elt F)) : val5 V0 (no_index (Proc.devRef .tc main_v30)) = Cert.Spec.dsd (argsOf V0).e :=
  (val5_keep V0 main_v30 (by decide)).trans (val4_main_v30 V0)
theorem val5_main_v31 (V0 : Valuation τ sig (Elt F)) : val5 V0 (no_index (Proc.devRef .tc main_v31)) = Cert.Spec.dself (argsOf V0).e :=
  (val5_keep V0 main_v31 (by decide)).trans (val4_main_v31 V0)
theorem val5_main_v79 (V0 : Valuation τ sig (Elt F)) : val5 V0 (no_index (Proc.devRef .tc main_v79)) = Cert.Spec.O1 (argsOf V0) :=
  (val5_keep V0 main_v79 (by decide)).trans (val4_main_v79 V0)
set_option maxRecDepth 8192 in
set_option maxHeartbeats 4000000 in
theorem val5_main_v83 (V0 : Valuation τ sig (Elt F)) : val5 V0 (no_index (Proc.devRef .tc main_v83)) = Cert.Spec.H2 (argsOf V0) := by
  unfold val5
  simp only [w4]
  after_results_simp
  simp only [val4_main_v79, val4_main_arg6, val4_main_arg7] <;> rfl

/-- The buffer contents after the first 6 stretches. -/
def val6 (V0 : Valuation τ sig (Elt F)) : Valuation τ sig (Elt F) := after w5 (val5 V0)
/-- The buffers stretch 6 writes. -/
abbrev w5_W : List (Ref sig .tc) := [main_c_15, main_v84, main_v85, main_c_16, main_v86, main_v87, main_v88, main_v89, main_v90, main_v91, main_v92, main_v93, main_cst_17, main_v94, main_v95, main_v96, main_v97, main_v98, main_v99, main_v100, main_call2_cst, main_call2_v0, main_v101]
set_option maxRecDepth 8192 in
theorem w5_writes : (w5 : List (HloOp τ sig (Elt F))).Forall fun op => op.writes ⊆ (w5_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stretch 6 does not write keeps its contents through it. -/
theorem val6_keep (V0 : Valuation τ sig (Elt F)) (r : Ref sig .tc) (h : r ∉ w5_W) :
    val6 V0 (Proc.devRef .tc r) = val5 V0 (Proc.devRef .tc r) :=
  after_of_writes_sub w5 _ w5_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)
theorem val6_main_arg5 (V0 : Valuation τ sig (Elt F)) : val6 V0 (no_index (Proc.devRef .tc main_arg5)) = V0 (Proc.devRef .tc main_arg5) :=
  (val6_keep V0 main_arg5 (by decide)).trans (val5_main_arg5 V0)
theorem val6_main_arg6 (V0 : Valuation τ sig (Elt F)) : val6 V0 (no_index (Proc.devRef .tc main_arg6)) = V0 (Proc.devRef .tc main_arg6) :=
  (val6_keep V0 main_arg6 (by decide)).trans (val5_main_arg6 V0)
theorem val6_main_arg7 (V0 : Valuation τ sig (Elt F)) : val6 V0 (no_index (Proc.devRef .tc main_arg7)) = V0 (Proc.devRef .tc main_arg7) :=
  (val6_keep V0 main_arg7 (by decide)).trans (val5_main_arg7 V0)
theorem val6_main_arg8 (V0 : Valuation τ sig (Elt F)) : val6 V0 (no_index (Proc.devRef .tc main_arg8)) = V0 (Proc.devRef .tc main_arg8) :=
  (val6_keep V0 main_arg8 (by decide)).trans (val5_main_arg8 V0)
theorem val6_main_arg9 (V0 : Valuation τ sig (Elt F)) : val6 V0 (no_index (Proc.devRef .tc main_arg9)) = V0 (Proc.devRef .tc main_arg9) :=
  (val6_keep V0 main_arg9 (by decide)).trans (val5_main_arg9 V0)
theorem val6_main_arg10 (V0 : Valuation τ sig (Elt F)) : val6 V0 (no_index (Proc.devRef .tc main_arg10)) = V0 (Proc.devRef .tc main_arg10) :=
  (val6_keep V0 main_arg10 (by decide)).trans (val5_main_arg10 V0)
theorem val6_main_arg11 (V0 : Valuation τ sig (Elt F)) : val6 V0 (no_index (Proc.devRef .tc main_arg11)) = V0 (Proc.devRef .tc main_arg11) :=
  (val6_keep V0 main_arg11 (by decide)).trans (val5_main_arg11 V0)
theorem val6_main_arg12 (V0 : Valuation τ sig (Elt F)) : val6 V0 (no_index (Proc.devRef .tc main_arg12)) = V0 (Proc.devRef .tc main_arg12) :=
  (val6_keep V0 main_arg12 (by decide)).trans (val5_main_arg12 V0)
theorem val6_main_arg13 (V0 : Valuation τ sig (Elt F)) : val6 V0 (no_index (Proc.devRef .tc main_arg13)) = V0 (Proc.devRef .tc main_arg13) :=
  (val6_keep V0 main_arg13 (by decide)).trans (val5_main_arg13 V0)
theorem val6_main_arg14 (V0 : Valuation τ sig (Elt F)) : val6 V0 (no_index (Proc.devRef .tc main_arg14)) = V0 (Proc.devRef .tc main_arg14) :=
  (val6_keep V0 main_arg14 (by decide)).trans (val5_main_arg14 V0)
theorem val6_main_arg15 (V0 : Valuation τ sig (Elt F)) : val6 V0 (no_index (Proc.devRef .tc main_arg15)) = V0 (Proc.devRef .tc main_arg15) :=
  (val6_keep V0 main_arg15 (by decide)).trans (val5_main_arg15 V0)
theorem val6_main_arg16 (V0 : Valuation τ sig (Elt F)) : val6 V0 (no_index (Proc.devRef .tc main_arg16)) = V0 (Proc.devRef .tc main_arg16) :=
  (val6_keep V0 main_arg16 (by decide)).trans (val5_main_arg16 V0)
theorem val6_main_arg17 (V0 : Valuation τ sig (Elt F)) : val6 V0 (no_index (Proc.devRef .tc main_arg17)) = V0 (Proc.devRef .tc main_arg17) :=
  (val6_keep V0 main_arg17 (by decide)).trans (val5_main_arg17 V0)
theorem val6_main_v1 (V0 : Valuation τ sig (Elt F)) : val6 V0 (no_index (Proc.devRef .tc main_v1)) = Cert.Spec.src (argsOf V0).e :=
  (val6_keep V0 main_v1 (by decide)).trans (val5_main_v1 V0)
theorem val6_main_v3 (V0 : Valuation τ sig (Elt F)) : val6 V0 (no_index (Proc.devRef .tc main_v3)) = Cert.Spec.dst (argsOf V0).e :=
  (val6_keep V0 main_v3 (by decide)).trans (val5_main_v3 V0)
theorem val6_main_v30 (V0 : Valuation τ sig (Elt F)) : val6 V0 (no_index (Proc.devRef .tc main_v30)) = Cert.Spec.dsd (argsOf V0).e :=
  (val6_keep V0 main_v30 (by decide)).trans (val5_main_v30 V0)
theorem val6_main_v31 (V0 : Valuation τ sig (Elt F)) : val6 V0 (no_index (Proc.devRef .tc main_v31)) = Cert.Spec.dself (argsOf V0).e :=
  (val6_keep V0 main_v31 (by decide)).trans (val5_main_v31 V0)
theorem val6_main_v79 (V0 : Valuation τ sig (Elt F)) : val6 V0 (no_index (Proc.devRef .tc main_v79)) = Cert.Spec.O1 (argsOf V0) :=
  (val6_keep V0 main_v79 (by decide)).trans (val5_main_v79 V0)
set_option maxRecDepth 8192 in
set_option maxHeartbeats 4000000 in
theorem val6_main_v101 (V0 : Valuation τ sig (Elt F)) : val6 V0 (no_index (Proc.devRef .tc main_v101)) = Cert.Spec.Y2 (argsOf V0) := by
  unfold val6
  simp only [w5]
  after_results_simp
  simp only [val5_main_v1, val5_main_v83, val5_main_v30, val5_main_v3, val5_main_v31] <;> rfl

/-- The buffer contents after the first 7 stretches. -/
def val7 (V0 : Valuation τ sig (Elt F)) : Valuation τ sig (Elt F) := after w6 (val6 V0)
/-- The buffers stretch 7 writes. -/
abbrev w6_W : List (Ref sig .tc) := [main_cst_18, main_v102, main_cst_19, main_v103, main_v104, main_v105, main_v106, main_v107, main_v108, main_cst_20, main_v109, main_cst_21, main_v110, main_v111, main_v112, main_v113, main_v114, main_v115, main_v116, main_v117, main_cst_22, main_v118, main_v119, main_v120, main_v121, main_v122, main_v123, main_v124, main_v125, main_v126]
set_option maxRecDepth 8192 in
theorem w6_writes : (w6 : List (HloOp τ sig (Elt F))).Forall fun op => op.writes ⊆ (w6_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stretch 7 does not write keeps its contents through it. -/
theorem val7_keep (V0 : Valuation τ sig (Elt F)) (r : Ref sig .tc) (h : r ∉ w6_W) :
    val7 V0 (Proc.devRef .tc r) = val6 V0 (Proc.devRef .tc r) :=
  after_of_writes_sub w6 _ w6_writes h
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_arg2 (V0 : Valuation τ sig (Elt F)) : val7 V0 (no_index (Proc.devRef .tc main_arg2)) = V0 (Proc.devRef .tc main_arg2) :=
  (val7_keep V0 main_arg2 (by decide)).trans (val6_main_arg2 V0)
theorem val7_main_arg3 (V0 : Valuation τ sig (Elt F)) : val7 V0 (no_index (Proc.devRef .tc main_arg3)) = V0 (Proc.devRef .tc main_arg3) :=
  (val7_keep V0 main_arg3 (by decide)).trans (val6_main_arg3 V0)
theorem val7_main_arg4 (V0 : Valuation τ sig (Elt F)) : val7 V0 (no_index (Proc.devRef .tc main_arg4)) = V0 (Proc.devRef .tc main_arg4) :=
  (val7_keep V0 main_arg4 (by decide)).trans (val6_main_arg4 V0)
theorem val7_main_arg5 (V0 : Valuation τ sig (Elt F)) : val7 V0 (no_index (Proc.devRef .tc main_arg5)) = V0 (Proc.devRef .tc main_arg5) :=
  (val7_keep V0 main_arg5 (by decide)).trans (val6_main_arg5 V0)
theorem val7_main_arg6 (V0 : Valuation τ sig (Elt F)) : val7 V0 (no_index (Proc.devRef .tc main_arg6)) = V0 (Proc.devRef .tc main_arg6) :=
  (val7_keep V0 main_arg6 (by decide)).trans (val6_main_arg6 V0)
theorem val7_main_arg7 (V0 : Valuation τ sig (Elt F)) : val7 V0 (no_index (Proc.devRef .tc main_arg7)) = V0 (Proc.devRef .tc main_arg7) :=
  (val7_keep V0 main_arg7 (by decide)).trans (val6_main_arg7 V0)
theorem val7_main_arg8 (V0 : Valuation τ sig (Elt F)) : val7 V0 (no_index (Proc.devRef .tc main_arg8)) = V0 (Proc.devRef .tc main_arg8) :=
  (val7_keep V0 main_arg8 (by decide)).trans (val6_main_arg8 V0)
theorem val7_main_arg9 (V0 : Valuation τ sig (Elt F)) : val7 V0 (no_index (Proc.devRef .tc main_arg9)) = V0 (Proc.devRef .tc main_arg9) :=
  (val7_keep V0 main_arg9 (by decide)).trans (val6_main_arg9 V0)
theorem val7_main_arg10 (V0 : Valuation τ sig (Elt F)) : val7 V0 (no_index (Proc.devRef .tc main_arg10)) = V0 (Proc.devRef .tc main_arg10) :=
  (val7_keep V0 main_arg10 (by decide)).trans (val6_main_arg10 V0)
theorem val7_main_arg11 (V0 : Valuation τ sig (Elt F)) : val7 V0 (no_index (Proc.devRef .tc main_arg11)) = V0 (Proc.devRef .tc main_arg11) :=
  (val7_keep V0 main_arg11 (by decide)).trans (val6_main_arg11 V0)
theorem val7_main_arg12 (V0 : Valuation τ sig (Elt F)) : val7 V0 (no_index (Proc.devRef .tc main_arg12)) = V0 (Proc.devRef .tc main_arg12) :=
  (val7_keep V0 main_arg12 (by decide)).trans (val6_main_arg12 V0)
theorem val7_main_arg13 (V0 : Valuation τ sig (Elt F)) : val7 V0 (no_index (Proc.devRef .tc main_arg13)) = V0 (Proc.devRef .tc main_arg13) :=
  (val7_keep V0 main_arg13 (by decide)).trans (val6_main_arg13 V0)
theorem val7_main_arg14 (V0 : Valuation τ sig (Elt F)) : val7 V0 (no_index (Proc.devRef .tc main_arg14)) = V0 (Proc.devRef .tc main_arg14) :=
  (val7_keep V0 main_arg14 (by decide)).trans (val6_main_arg14 V0)
theorem val7_main_arg15 (V0 : Valuation τ sig (Elt F)) : val7 V0 (no_index (Proc.devRef .tc main_arg15)) = V0 (Proc.devRef .tc main_arg15) :=
  (val7_keep V0 main_arg15 (by decide)).trans (val6_main_arg15 V0)
theorem val7_main_arg16 (V0 : Valuation τ sig (Elt F)) : val7 V0 (no_index (Proc.devRef .tc main_arg16)) = V0 (Proc.devRef .tc main_arg16) :=
  (val7_keep V0 main_arg16 (by decide)).trans (val6_main_arg16 V0)
theorem val7_main_arg17 (V0 : Valuation τ sig (Elt F)) : val7 V0 (no_index (Proc.devRef .tc main_arg17)) = V0 (Proc.devRef .tc main_arg17) :=
  (val7_keep V0 main_arg17 (by decide)).trans (val6_main_arg17 V0)
theorem val7_main_v1 (V0 : Valuation τ sig (Elt F)) : val7 V0 (no_index (Proc.devRef .tc main_v1)) = Cert.Spec.src (argsOf V0).e :=
  (val7_keep V0 main_v1 (by decide)).trans (val6_main_v1 V0)
theorem val7_main_v3 (V0 : Valuation τ sig (Elt F)) : val7 V0 (no_index (Proc.devRef .tc main_v3)) = Cert.Spec.dst (argsOf V0).e :=
  (val7_keep V0 main_v3 (by decide)).trans (val6_main_v3 V0)
theorem val7_main_v30 (V0 : Valuation τ sig (Elt F)) : val7 V0 (no_index (Proc.devRef .tc main_v30)) = Cert.Spec.dsd (argsOf V0).e :=
  (val7_keep V0 main_v30 (by decide)).trans (val6_main_v30 V0)
theorem val7_main_v31 (V0 : Valuation τ sig (Elt F)) : val7 V0 (no_index (Proc.devRef .tc main_v31)) = Cert.Spec.dself (argsOf V0).e :=
  (val7_keep V0 main_v31 (by decide)).trans (val6_main_v31 V0)
theorem val7_main_v79 (V0 : Valuation τ sig (Elt F)) : val7 V0 (no_index (Proc.devRef .tc main_v79)) = Cert.Spec.O1 (argsOf V0) :=
  (val7_keep V0 main_v79 (by decide)).trans (val6_main_v79 V0)
set_option maxRecDepth 8192 in
set_option maxHeartbeats 4000000 in
theorem val7_main_v126 (V0 : Valuation τ sig (Elt F)) : val7 V0 (no_index (Proc.devRef .tc main_v126)) = Cert.Spec.O2 (argsOf V0) := by
  unfold val7
  simp only [w6]
  after_results_simp
  simp only [val6_main_v101, val6_main_arg8, val6_main_arg9] <;> rfl

/-- The buffer contents after the first 8 stretches. -/
def val8 (V0 : Valuation τ sig (Elt F)) : Valuation τ sig (Elt F) := after w7 (val7 V0)
/-- The buffers stretch 8 writes. -/
abbrev w7_W : List (Ref sig .tc) := [main_v127, main_v128, main_v129, main_v130]
set_option maxRecDepth 8192 in
theorem w7_writes : (w7 : List (HloOp τ sig (Elt F))).Forall fun op => op.writes ⊆ (w7_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stretch 8 does not write keeps its contents through it. -/
theorem val8_keep (V0 : Valuation τ sig (Elt F)) (r : Ref sig .tc) (h : r ∉ w7_W) :
    val8 V0 (Proc.devRef .tc r) = val7 V0 (Proc.devRef .tc r) :=
  after_of_writes_sub w7 _ w7_writes h
theorem val8_main_arg0 (V0 : Valuation τ sig (Elt F)) : val8 V0 (no_index (Proc.devRef .tc main_arg0)) = V0 (Proc.devRef .tc main_arg0) :=
  (val8_keep V0 main_arg0 (by decide)).trans (val7_main_arg0 V0)
theorem val8_main_arg1 (V0 : Valuation τ sig (Elt F)) : val8 V0 (no_index (Proc.devRef .tc main_arg1)) = V0 (Proc.devRef .tc main_arg1) :=
  (val8_keep V0 main_arg1 (by decide)).trans (val7_main_arg1 V0)
theorem val8_main_arg2 (V0 : Valuation τ sig (Elt F)) : val8 V0 (no_index (Proc.devRef .tc main_arg2)) = V0 (Proc.devRef .tc main_arg2) :=
  (val8_keep V0 main_arg2 (by decide)).trans (val7_main_arg2 V0)
theorem val8_main_arg3 (V0 : Valuation τ sig (Elt F)) : val8 V0 (no_index (Proc.devRef .tc main_arg3)) = V0 (Proc.devRef .tc main_arg3) :=
  (val8_keep V0 main_arg3 (by decide)).trans (val7_main_arg3 V0)
theorem val8_main_arg4 (V0 : Valuation τ sig (Elt F)) : val8 V0 (no_index (Proc.devRef .tc main_arg4)) = V0 (Proc.devRef .tc main_arg4) :=
  (val8_keep V0 main_arg4 (by decide)).trans (val7_main_arg4 V0)
theorem val8_main_arg5 (V0 : Valuation τ sig (Elt F)) : val8 V0 (no_index (Proc.devRef .tc main_arg5)) = V0 (Proc.devRef .tc main_arg5) :=
  (val8_keep V0 main_arg5 (by decide)).trans (val7_main_arg5 V0)
theorem val8_main_arg6 (V0 : Valuation τ sig (Elt F)) : val8 V0 (no_index (Proc.devRef .tc main_arg6)) = V0 (Proc.devRef .tc main_arg6) :=
  (val8_keep V0 main_arg6 (by decide)).trans (val7_main_arg6 V0)
theorem val8_main_arg7 (V0 : Valuation τ sig (Elt F)) : val8 V0 (no_index (Proc.devRef .tc main_arg7)) = V0 (Proc.devRef .tc main_arg7) :=
  (val8_keep V0 main_arg7 (by decide)).trans (val7_main_arg7 V0)
theorem val8_main_arg8 (V0 : Valuation τ sig (Elt F)) : val8 V0 (no_index (Proc.devRef .tc main_arg8)) = V0 (Proc.devRef .tc main_arg8) :=
  (val8_keep V0 main_arg8 (by decide)).trans (val7_main_arg8 V0)
theorem val8_main_arg9 (V0 : Valuation τ sig (Elt F)) : val8 V0 (no_index (Proc.devRef .tc main_arg9)) = V0 (Proc.devRef .tc main_arg9) :=
  (val8_keep V0 main_arg9 (by decide)).trans (val7_main_arg9 V0)
theorem val8_main_arg10 (V0 : Valuation τ sig (Elt F)) : val8 V0 (no_index (Proc.devRef .tc main_arg10)) = V0 (Proc.devRef .tc main_arg10) :=
  (val8_keep V0 main_arg10 (by decide)).trans (val7_main_arg10 V0)
theorem val8_main_arg11 (V0 : Valuation τ sig (Elt F)) : val8 V0 (no_index (Proc.devRef .tc main_arg11)) = V0 (Proc.devRef .tc main_arg11) :=
  (val8_keep V0 main_arg11 (by decide)).trans (val7_main_arg11 V0)
theorem val8_main_arg12 (V0 : Valuation τ sig (Elt F)) : val8 V0 (no_index (Proc.devRef .tc main_arg12)) = V0 (Proc.devRef .tc main_arg12) :=
  (val8_keep V0 main_arg12 (by decide)).trans (val7_main_arg12 V0)
theorem val8_main_arg13 (V0 : Valuation τ sig (Elt F)) : val8 V0 (no_index (Proc.devRef .tc main_arg13)) = V0 (Proc.devRef .tc main_arg13) :=
  (val8_keep V0 main_arg13 (by decide)).trans (val7_main_arg13 V0)
theorem val8_main_arg14 (V0 : Valuation τ sig (Elt F)) : val8 V0 (no_index (Proc.devRef .tc main_arg14)) = V0 (Proc.devRef .tc main_arg14) :=
  (val8_keep V0 main_arg14 (by decide)).trans (val7_main_arg14 V0)
theorem val8_main_arg15 (V0 : Valuation τ sig (Elt F)) : val8 V0 (no_index (Proc.devRef .tc main_arg15)) = V0 (Proc.devRef .tc main_arg15) :=
  (val8_keep V0 main_arg15 (by decide)).trans (val7_main_arg15 V0)
theorem val8_main_arg16 (V0 : Valuation τ sig (Elt F)) : val8 V0 (no_index (Proc.devRef .tc main_arg16)) = V0 (Proc.devRef .tc main_arg16) :=
  (val8_keep V0 main_arg16 (by decide)).trans (val7_main_arg16 V0)
theorem val8_main_arg17 (V0 : Valuation τ sig (Elt F)) : val8 V0 (no_index (Proc.devRef .tc main_arg17)) = V0 (Proc.devRef .tc main_arg17) :=
  (val8_keep V0 main_arg17 (by decide)).trans (val7_main_arg17 V0)
theorem val8_main_v1 (V0 : Valuation τ sig (Elt F)) : val8 V0 (no_index (Proc.devRef .tc main_v1)) = Cert.Spec.src (argsOf V0).e :=
  (val8_keep V0 main_v1 (by decide)).trans (val7_main_v1 V0)
theorem val8_main_v3 (V0 : Valuation τ sig (Elt F)) : val8 V0 (no_index (Proc.devRef .tc main_v3)) = Cert.Spec.dst (argsOf V0).e :=
  (val8_keep V0 main_v3 (by decide)).trans (val7_main_v3 V0)
theorem val8_main_v30 (V0 : Valuation τ sig (Elt F)) : val8 V0 (no_index (Proc.devRef .tc main_v30)) = Cert.Spec.dsd (argsOf V0).e :=
  (val8_keep V0 main_v30 (by decide)).trans (val7_main_v30 V0)
theorem val8_main_v31 (V0 : Valuation τ sig (Elt F)) : val8 V0 (no_index (Proc.devRef .tc main_v31)) = Cert.Spec.dself (argsOf V0).e :=
  (val8_keep V0 main_v31 (by decide)).trans (val7_main_v31 V0)
theorem val8_main_v79 (V0 : Valuation τ sig (Elt F)) : val8 V0 (no_index (Proc.devRef .tc main_v79)) = Cert.Spec.O1 (argsOf V0) :=
  (val8_keep V0 main_v79 (by decide)).trans (val7_main_v79 V0)
theorem val8_main_v126 (V0 : Valuation τ sig (Elt F)) : val8 V0 (no_index (Proc.devRef .tc main_v126)) = Cert.Spec.O2 (argsOf V0) :=
  (val8_keep V0 main_v126 (by decide)).trans (val7_main_v126 V0)
set_option maxRecDepth 8192 in
set_option maxHeartbeats 4000000 in
theorem val8_main_v130 (V0 : Valuation τ sig (Elt F)) : val8 V0 (no_index (Proc.devRef .tc main_v130)) = Cert.Spec.H3 (argsOf V0) := by
  unfold val8
  simp only [w7]
  after_results_simp
  simp only [val7_main_v126, val7_main_arg10, val7_main_arg11] <;> rfl

/-- The buffer contents after the first 9 stretches. -/
def val9 (V0 : Valuation τ sig (Elt F)) : Valuation τ sig (Elt F) := after w8 (val8 V0)
/-- The buffers stretch 9 writes. -/
abbrev w8_W : List (Ref sig .tc) := [main_c_23, main_v131, main_v132, main_c_24, main_v133, main_v134, main_v135, main_v136, main_v137, main_v138, main_v139, main_v140, main_cst_25, main_v141, main_v142, main_v143, main_v144, main_v145, main_v146, main_v147, main_call3_cst, main_call3_v0, main_v148]
set_option maxRecDepth 8192 in
theorem w8_writes : (w8 : List (HloOp τ sig (Elt F))).Forall fun op => op.writes ⊆ (w8_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stretch 9 does not write keeps its contents through it. -/
theorem val9_keep (V0 : Valuation τ sig (Elt F)) (r : Ref sig .tc) (h : r ∉ w8_W) :
    val9 V0 (Proc.devRef .tc r) = val8 V0 (Proc.devRef .tc r) :=
  after_of_writes_sub w8 _ w8_writes h
theorem val9_main_arg0 (V0 : Valuation τ sig (Elt F)) : val9 V0 (no_index (Proc.devRef .tc main_arg0)) = V0 (Proc.devRef .tc main_arg0) :=
  (val9_keep V0 main_arg0 (by decide)).trans (val8_main_arg0 V0)
theorem val9_main_arg1 (V0 : Valuation τ sig (Elt F)) : val9 V0 (no_index (Proc.devRef .tc main_arg1)) = V0 (Proc.devRef .tc main_arg1) :=
  (val9_keep V0 main_arg1 (by decide)).trans (val8_main_arg1 V0)
theorem val9_main_arg2 (V0 : Valuation τ sig (Elt F)) : val9 V0 (no_index (Proc.devRef .tc main_arg2)) = V0 (Proc.devRef .tc main_arg2) :=
  (val9_keep V0 main_arg2 (by decide)).trans (val8_main_arg2 V0)
theorem val9_main_arg3 (V0 : Valuation τ sig (Elt F)) : val9 V0 (no_index (Proc.devRef .tc main_arg3)) = V0 (Proc.devRef .tc main_arg3) :=
  (val9_keep V0 main_arg3 (by decide)).trans (val8_main_arg3 V0)
theorem val9_main_arg4 (V0 : Valuation τ sig (Elt F)) : val9 V0 (no_index (Proc.devRef .tc main_arg4)) = V0 (Proc.devRef .tc main_arg4) :=
  (val9_keep V0 main_arg4 (by decide)).trans (val8_main_arg4 V0)
theorem val9_main_arg5 (V0 : Valuation τ sig (Elt F)) : val9 V0 (no_index (Proc.devRef .tc main_arg5)) = V0 (Proc.devRef .tc main_arg5) :=
  (val9_keep V0 main_arg5 (by decide)).trans (val8_main_arg5 V0)
theorem val9_main_arg6 (V0 : Valuation τ sig (Elt F)) : val9 V0 (no_index (Proc.devRef .tc main_arg6)) = V0 (Proc.devRef .tc main_arg6) :=
  (val9_keep V0 main_arg6 (by decide)).trans (val8_main_arg6 V0)
theorem val9_main_arg7 (V0 : Valuation τ sig (Elt F)) : val9 V0 (no_index (Proc.devRef .tc main_arg7)) = V0 (Proc.devRef .tc main_arg7) :=
  (val9_keep V0 main_arg7 (by decide)).trans (val8_main_arg7 V0)
theorem val9_main_arg8 (V0 : Valuation τ sig (Elt F)) : val9 V0 (no_index (Proc.devRef .tc main_arg8)) = V0 (Proc.devRef .tc main_arg8) :=
  (val9_keep V0 main_arg8 (by decide)).trans (val8_main_arg8 V0)
theorem val9_main_arg9 (V0 : Valuation τ sig (Elt F)) : val9 V0 (no_index (Proc.devRef .tc main_arg9)) = V0 (Proc.devRef .tc main_arg9) :=
  (val9_keep V0 main_arg9 (by decide)).trans (val8_main_arg9 V0)
theorem val9_main_arg10 (V0 : Valuation τ sig (Elt F)) : val9 V0 (no_index (Proc.devRef .tc main_arg10)) = V0 (Proc.devRef .tc main_arg10) :=
  (val9_keep V0 main_arg10 (by decide)).trans (val8_main_arg10 V0)
theorem val9_main_arg11 (V0 : Valuation τ sig (Elt F)) : val9 V0 (no_index (Proc.devRef .tc main_arg11)) = V0 (Proc.devRef .tc main_arg11) :=
  (val9_keep V0 main_arg11 (by decide)).trans (val8_main_arg11 V0)
theorem val9_main_arg12 (V0 : Valuation τ sig (Elt F)) : val9 V0 (no_index (Proc.devRef .tc main_arg12)) = V0 (Proc.devRef .tc main_arg12) :=
  (val9_keep V0 main_arg12 (by decide)).trans (val8_main_arg12 V0)
theorem val9_main_arg13 (V0 : Valuation τ sig (Elt F)) : val9 V0 (no_index (Proc.devRef .tc main_arg13)) = V0 (Proc.devRef .tc main_arg13) :=
  (val9_keep V0 main_arg13 (by decide)).trans (val8_main_arg13 V0)
theorem val9_main_arg14 (V0 : Valuation τ sig (Elt F)) : val9 V0 (no_index (Proc.devRef .tc main_arg14)) = V0 (Proc.devRef .tc main_arg14) :=
  (val9_keep V0 main_arg14 (by decide)).trans (val8_main_arg14 V0)
theorem val9_main_arg15 (V0 : Valuation τ sig (Elt F)) : val9 V0 (no_index (Proc.devRef .tc main_arg15)) = V0 (Proc.devRef .tc main_arg15) :=
  (val9_keep V0 main_arg15 (by decide)).trans (val8_main_arg15 V0)
theorem val9_main_arg16 (V0 : Valuation τ sig (Elt F)) : val9 V0 (no_index (Proc.devRef .tc main_arg16)) = V0 (Proc.devRef .tc main_arg16) :=
  (val9_keep V0 main_arg16 (by decide)).trans (val8_main_arg16 V0)
theorem val9_main_arg17 (V0 : Valuation τ sig (Elt F)) : val9 V0 (no_index (Proc.devRef .tc main_arg17)) = V0 (Proc.devRef .tc main_arg17) :=
  (val9_keep V0 main_arg17 (by decide)).trans (val8_main_arg17 V0)
theorem val9_main_v1 (V0 : Valuation τ sig (Elt F)) : val9 V0 (no_index (Proc.devRef .tc main_v1)) = Cert.Spec.src (argsOf V0).e :=
  (val9_keep V0 main_v1 (by decide)).trans (val8_main_v1 V0)
theorem val9_main_v3 (V0 : Valuation τ sig (Elt F)) : val9 V0 (no_index (Proc.devRef .tc main_v3)) = Cert.Spec.dst (argsOf V0).e :=
  (val9_keep V0 main_v3 (by decide)).trans (val8_main_v3 V0)
theorem val9_main_v30 (V0 : Valuation τ sig (Elt F)) : val9 V0 (no_index (Proc.devRef .tc main_v30)) = Cert.Spec.dsd (argsOf V0).e :=
  (val9_keep V0 main_v30 (by decide)).trans (val8_main_v30 V0)
theorem val9_main_v31 (V0 : Valuation τ sig (Elt F)) : val9 V0 (no_index (Proc.devRef .tc main_v31)) = Cert.Spec.dself (argsOf V0).e :=
  (val9_keep V0 main_v31 (by decide)).trans (val8_main_v31 V0)
theorem val9_main_v79 (V0 : Valuation τ sig (Elt F)) : val9 V0 (no_index (Proc.devRef .tc main_v79)) = Cert.Spec.O1 (argsOf V0) :=
  (val9_keep V0 main_v79 (by decide)).trans (val8_main_v79 V0)
theorem val9_main_v126 (V0 : Valuation τ sig (Elt F)) : val9 V0 (no_index (Proc.devRef .tc main_v126)) = Cert.Spec.O2 (argsOf V0) :=
  (val9_keep V0 main_v126 (by decide)).trans (val8_main_v126 V0)
set_option maxRecDepth 8192 in
set_option maxHeartbeats 4000000 in
theorem val9_main_v148 (V0 : Valuation τ sig (Elt F)) : val9 V0 (no_index (Proc.devRef .tc main_v148)) = Cert.Spec.Y3 (argsOf V0) := by
  unfold val9
  simp only [w8]
  after_results_simp
  simp only [val8_main_v1, val8_main_v130, val8_main_v30, val8_main_v3, val8_main_v31] <;> rfl

/-- The buffer contents after the first 10 stretches. -/
def val10 (V0 : Valuation τ sig (Elt F)) : Valuation τ sig (Elt F) := after w9 (val9 V0)
/-- The buffers stretch 10 writes. -/
abbrev w9_W : List (Ref sig .tc) := [main_cst_26, main_v149, main_cst_27, main_v150, main_v151, main_v152, main_v153, main_v154, main_v155, main_cst_28, main_v156, main_cst_29, main_v157, main_v158, main_v159, main_v160, main_v161, main_v162, main_v163, main_v164, main_cst_30, main_v165, main_v166, main_v167, main_v168, main_v169, main_v170, main_v171, main_v172, main_v173, main_call4_cst, main_call4_v0, main_v174]
set_option maxRecDepth 8192 in
theorem w9_writes : (w9 : List (HloOp τ sig (Elt F))).Forall fun op => op.writes ⊆ (w9_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stretch 10 does not write keeps its contents through it. -/
theorem val10_keep (V0 : Valuation τ sig (Elt F)) (r : Ref sig .tc) (h : r ∉ w9_W) :
    val10 V0 (Proc.devRef .tc r) = val9 V0 (Proc.devRef .tc r) :=
  after_of_writes_sub w9 _ w9_writes h
theorem val10_main_arg0 (V0 : Valuation τ sig (Elt F)) : val10 V0 (no_index (Proc.devRef .tc main_arg0)) = V0 (Proc.devRef .tc main_arg0) :=
  (val10_keep V0 main_arg0 (by decide)).trans (val9_main_arg0 V0)
theorem val10_main_arg1 (V0 : Valuation τ sig (Elt F)) : val10 V0 (no_index (Proc.devRef .tc main_arg1)) = V0 (Proc.devRef .tc main_arg1) :=
  (val10_keep V0 main_arg1 (by decide)).trans (val9_main_arg1 V0)
theorem val10_main_arg2 (V0 : Valuation τ sig (Elt F)) : val10 V0 (no_index (Proc.devRef .tc main_arg2)) = V0 (Proc.devRef .tc main_arg2) :=
  (val10_keep V0 main_arg2 (by decide)).trans (val9_main_arg2 V0)
theorem val10_main_arg3 (V0 : Valuation τ sig (Elt F)) : val10 V0 (no_index (Proc.devRef .tc main_arg3)) = V0 (Proc.devRef .tc main_arg3) :=
  (val10_keep V0 main_arg3 (by decide)).trans (val9_main_arg3 V0)
theorem val10_main_arg4 (V0 : Valuation τ sig (Elt F)) : val10 V0 (no_index (Proc.devRef .tc main_arg4)) = V0 (Proc.devRef .tc main_arg4) :=
  (val10_keep V0 main_arg4 (by decide)).trans (val9_main_arg4 V0)
theorem val10_main_arg5 (V0 : Valuation τ sig (Elt F)) : val10 V0 (no_index (Proc.devRef .tc main_arg5)) = V0 (Proc.devRef .tc main_arg5) :=
  (val10_keep V0 main_arg5 (by decide)).trans (val9_main_arg5 V0)
theorem val10_main_arg6 (V0 : Valuation τ sig (Elt F)) : val10 V0 (no_index (Proc.devRef .tc main_arg6)) = V0 (Proc.devRef .tc main_arg6) :=
  (val10_keep V0 main_arg6 (by decide)).trans (val9_main_arg6 V0)
theorem val10_main_arg7 (V0 : Valuation τ sig (Elt F)) : val10 V0 (no_index (Proc.devRef .tc main_arg7)) = V0 (Proc.devRef .tc main_arg7) :=
  (val10_keep V0 main_arg7 (by decide)).trans (val9_main_arg7 V0)
theorem val10_main_arg8 (V0 : Valuation τ sig (Elt F)) : val10 V0 (no_index (Proc.devRef .tc main_arg8)) = V0 (Proc.devRef .tc main_arg8) :=
  (val10_keep V0 main_arg8 (by decide)).trans (val9_main_arg8 V0)
theorem val10_main_arg9 (V0 : Valuation τ sig (Elt F)) : val10 V0 (no_index (Proc.devRef .tc main_arg9)) = V0 (Proc.devRef .tc main_arg9) :=
  (val10_keep V0 main_arg9 (by decide)).trans (val9_main_arg9 V0)
theorem val10_main_arg10 (V0 : Valuation τ sig (Elt F)) : val10 V0 (no_index (Proc.devRef .tc main_arg10)) = V0 (Proc.devRef .tc main_arg10) :=
  (val10_keep V0 main_arg10 (by decide)).trans (val9_main_arg10 V0)
theorem val10_main_arg11 (V0 : Valuation τ sig (Elt F)) : val10 V0 (no_index (Proc.devRef .tc main_arg11)) = V0 (Proc.devRef .tc main_arg11) :=
  (val10_keep V0 main_arg11 (by decide)).trans (val9_main_arg11 V0)
theorem val10_main_arg12 (V0 : Valuation τ sig (Elt F)) : val10 V0 (no_index (Proc.devRef .tc main_arg12)) = V0 (Proc.devRef .tc main_arg12) :=
  (val10_keep V0 main_arg12 (by decide)).trans (val9_main_arg12 V0)
theorem val10_main_arg13 (V0 : Valuation τ sig (Elt F)) : val10 V0 (no_index (Proc.devRef .tc main_arg13)) = V0 (Proc.devRef .tc main_arg13) :=
  (val10_keep V0 main_arg13 (by decide)).trans (val9_main_arg13 V0)
theorem val10_main_arg14 (V0 : Valuation τ sig (Elt F)) : val10 V0 (no_index (Proc.devRef .tc main_arg14)) = V0 (Proc.devRef .tc main_arg14) :=
  (val10_keep V0 main_arg14 (by decide)).trans (val9_main_arg14 V0)
theorem val10_main_arg15 (V0 : Valuation τ sig (Elt F)) : val10 V0 (no_index (Proc.devRef .tc main_arg15)) = V0 (Proc.devRef .tc main_arg15) :=
  (val10_keep V0 main_arg15 (by decide)).trans (val9_main_arg15 V0)
theorem val10_main_arg16 (V0 : Valuation τ sig (Elt F)) : val10 V0 (no_index (Proc.devRef .tc main_arg16)) = V0 (Proc.devRef .tc main_arg16) :=
  (val10_keep V0 main_arg16 (by decide)).trans (val9_main_arg16 V0)
theorem val10_main_arg17 (V0 : Valuation τ sig (Elt F)) : val10 V0 (no_index (Proc.devRef .tc main_arg17)) = V0 (Proc.devRef .tc main_arg17) :=
  (val10_keep V0 main_arg17 (by decide)).trans (val9_main_arg17 V0)
theorem val10_main_v1 (V0 : Valuation τ sig (Elt F)) : val10 V0 (no_index (Proc.devRef .tc main_v1)) = Cert.Spec.src (argsOf V0).e :=
  (val10_keep V0 main_v1 (by decide)).trans (val9_main_v1 V0)
theorem val10_main_v3 (V0 : Valuation τ sig (Elt F)) : val10 V0 (no_index (Proc.devRef .tc main_v3)) = Cert.Spec.dst (argsOf V0).e :=
  (val10_keep V0 main_v3 (by decide)).trans (val9_main_v3 V0)
theorem val10_main_v30 (V0 : Valuation τ sig (Elt F)) : val10 V0 (no_index (Proc.devRef .tc main_v30)) = Cert.Spec.dsd (argsOf V0).e :=
  (val10_keep V0 main_v30 (by decide)).trans (val9_main_v30 V0)
theorem val10_main_v31 (V0 : Valuation τ sig (Elt F)) : val10 V0 (no_index (Proc.devRef .tc main_v31)) = Cert.Spec.dself (argsOf V0).e :=
  (val10_keep V0 main_v31 (by decide)).trans (val9_main_v31 V0)
theorem val10_main_v79 (V0 : Valuation τ sig (Elt F)) : val10 V0 (no_index (Proc.devRef .tc main_v79)) = Cert.Spec.O1 (argsOf V0) :=
  (val10_keep V0 main_v79 (by decide)).trans (val9_main_v79 V0)
theorem val10_main_v126 (V0 : Valuation τ sig (Elt F)) : val10 V0 (no_index (Proc.devRef .tc main_v126)) = Cert.Spec.O2 (argsOf V0) :=
  (val10_keep V0 main_v126 (by decide)).trans (val9_main_v126 V0)
set_option maxRecDepth 8192 in
set_option maxHeartbeats 4000000 in
theorem val10_main_v174 (V0 : Valuation τ sig (Elt F)) : val10 V0 (no_index (Proc.devRef .tc main_v174)) = Cert.Spec.O3 (argsOf V0) := by
  unfold val10
  simp only [w9]
  after_results_simp
  simp only [val9_main_v148, val9_main_arg12, val9_main_arg13] <;> rfl

/-- The buffer contents after the first 11 stretches. -/
def val11 (V0 : Valuation τ sig (Elt F)) : Valuation τ sig (Elt F) := after w10 (val10 V0)
/-- The buffers stretch 11 writes. -/
abbrev w10_W : List (Ref sig .tc) := [main_v175, main_v176, main_v177, main_v178]
set_option maxRecDepth 8192 in
theorem w10_writes : (w10 : List (HloOp τ sig (Elt F))).Forall fun op => op.writes ⊆ (w10_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stretch 11 does not write keeps its contents through it. -/
theorem val11_keep (V0 : Valuation τ sig (Elt F)) (r : Ref sig .tc) (h : r ∉ w10_W) :
    val11 V0 (Proc.devRef .tc r) = val10 V0 (Proc.devRef .tc r) :=
  after_of_writes_sub w10 _ w10_writes h
theorem val11_main_arg0 (V0 : Valuation τ sig (Elt F)) : val11 V0 (no_index (Proc.devRef .tc main_arg0)) = V0 (Proc.devRef .tc main_arg0) :=
  (val11_keep V0 main_arg0 (by decide)).trans (val10_main_arg0 V0)
theorem val11_main_arg1 (V0 : Valuation τ sig (Elt F)) : val11 V0 (no_index (Proc.devRef .tc main_arg1)) = V0 (Proc.devRef .tc main_arg1) :=
  (val11_keep V0 main_arg1 (by decide)).trans (val10_main_arg1 V0)
theorem val11_main_arg2 (V0 : Valuation τ sig (Elt F)) : val11 V0 (no_index (Proc.devRef .tc main_arg2)) = V0 (Proc.devRef .tc main_arg2) :=
  (val11_keep V0 main_arg2 (by decide)).trans (val10_main_arg2 V0)
theorem val11_main_arg3 (V0 : Valuation τ sig (Elt F)) : val11 V0 (no_index (Proc.devRef .tc main_arg3)) = V0 (Proc.devRef .tc main_arg3) :=
  (val11_keep V0 main_arg3 (by decide)).trans (val10_main_arg3 V0)
theorem val11_main_arg4 (V0 : Valuation τ sig (Elt F)) : val11 V0 (no_index (Proc.devRef .tc main_arg4)) = V0 (Proc.devRef .tc main_arg4) :=
  (val11_keep V0 main_arg4 (by decide)).trans (val10_main_arg4 V0)
theorem val11_main_arg5 (V0 : Valuation τ sig (Elt F)) : val11 V0 (no_index (Proc.devRef .tc main_arg5)) = V0 (Proc.devRef .tc main_arg5) :=
  (val11_keep V0 main_arg5 (by decide)).trans (val10_main_arg5 V0)
theorem val11_main_arg6 (V0 : Valuation τ sig (Elt F)) : val11 V0 (no_index (Proc.devRef .tc main_arg6)) = V0 (Proc.devRef .tc main_arg6) :=
  (val11_keep V0 main_arg6 (by decide)).trans (val10_main_arg6 V0)
theorem val11_main_arg7 (V0 : Valuation τ sig (Elt F)) : val11 V0 (no_index (Proc.devRef .tc main_arg7)) = V0 (Proc.devRef .tc main_arg7) :=
  (val11_keep V0 main_arg7 (by decide)).trans (val10_main_arg7 V0)
theorem val11_main_arg8 (V0 : Valuation τ sig (Elt F)) : val11 V0 (no_index (Proc.devRef .tc main_arg8)) = V0 (Proc.devRef .tc main_arg8) :=
  (val11_keep V0 main_arg8 (by decide)).trans (val10_main_arg8 V0)
theorem val11_main_arg9 (V0 : Valuation τ sig (Elt F)) : val11 V0 (no_index (Proc.devRef .tc main_arg9)) = V0 (Proc.devRef .tc main_arg9) :=
  (val11_keep V0 main_arg9 (by decide)).trans (val10_main_arg9 V0)
theorem val11_main_arg10 (V0 : Valuation τ sig (Elt F)) : val11 V0 (no_index (Proc.devRef .tc main_arg10)) = V0 (Proc.devRef .tc main_arg10) :=
  (val11_keep V0 main_arg10 (by decide)).trans (val10_main_arg10 V0)
theorem val11_main_arg11 (V0 : Valuation τ sig (Elt F)) : val11 V0 (no_index (Proc.devRef .tc main_arg11)) = V0 (Proc.devRef .tc main_arg11) :=
  (val11_keep V0 main_arg11 (by decide)).trans (val10_main_arg11 V0)
theorem val11_main_arg12 (V0 : Valuation τ sig (Elt F)) : val11 V0 (no_index (Proc.devRef .tc main_arg12)) = V0 (Proc.devRef .tc main_arg12) :=
  (val11_keep V0 main_arg12 (by decide)).trans (val10_main_arg12 V0)
theorem val11_main_arg13 (V0 : Valuation τ sig (Elt F)) : val11 V0 (no_index (Proc.devRef .tc main_arg13)) = V0 (Proc.devRef .tc main_arg13) :=
  (val11_keep V0 main_arg13 (by decide)).trans (val10_main_arg13 V0)
theorem val11_main_arg14 (V0 : Valuation τ sig (Elt F)) : val11 V0 (no_index (Proc.devRef .tc main_arg14)) = V0 (Proc.devRef .tc main_arg14) :=
  (val11_keep V0 main_arg14 (by decide)).trans (val10_main_arg14 V0)
theorem val11_main_arg15 (V0 : Valuation τ sig (Elt F)) : val11 V0 (no_index (Proc.devRef .tc main_arg15)) = V0 (Proc.devRef .tc main_arg15) :=
  (val11_keep V0 main_arg15 (by decide)).trans (val10_main_arg15 V0)
theorem val11_main_arg16 (V0 : Valuation τ sig (Elt F)) : val11 V0 (no_index (Proc.devRef .tc main_arg16)) = V0 (Proc.devRef .tc main_arg16) :=
  (val11_keep V0 main_arg16 (by decide)).trans (val10_main_arg16 V0)
theorem val11_main_arg17 (V0 : Valuation τ sig (Elt F)) : val11 V0 (no_index (Proc.devRef .tc main_arg17)) = V0 (Proc.devRef .tc main_arg17) :=
  (val11_keep V0 main_arg17 (by decide)).trans (val10_main_arg17 V0)
theorem val11_main_v1 (V0 : Valuation τ sig (Elt F)) : val11 V0 (no_index (Proc.devRef .tc main_v1)) = Cert.Spec.src (argsOf V0).e :=
  (val11_keep V0 main_v1 (by decide)).trans (val10_main_v1 V0)
theorem val11_main_v3 (V0 : Valuation τ sig (Elt F)) : val11 V0 (no_index (Proc.devRef .tc main_v3)) = Cert.Spec.dst (argsOf V0).e :=
  (val11_keep V0 main_v3 (by decide)).trans (val10_main_v3 V0)
theorem val11_main_v30 (V0 : Valuation τ sig (Elt F)) : val11 V0 (no_index (Proc.devRef .tc main_v30)) = Cert.Spec.dsd (argsOf V0).e :=
  (val11_keep V0 main_v30 (by decide)).trans (val10_main_v30 V0)
theorem val11_main_v31 (V0 : Valuation τ sig (Elt F)) : val11 V0 (no_index (Proc.devRef .tc main_v31)) = Cert.Spec.dself (argsOf V0).e :=
  (val11_keep V0 main_v31 (by decide)).trans (val10_main_v31 V0)
theorem val11_main_v79 (V0 : Valuation τ sig (Elt F)) : val11 V0 (no_index (Proc.devRef .tc main_v79)) = Cert.Spec.O1 (argsOf V0) :=
  (val11_keep V0 main_v79 (by decide)).trans (val10_main_v79 V0)
theorem val11_main_v126 (V0 : Valuation τ sig (Elt F)) : val11 V0 (no_index (Proc.devRef .tc main_v126)) = Cert.Spec.O2 (argsOf V0) :=
  (val11_keep V0 main_v126 (by decide)).trans (val10_main_v126 V0)
set_option maxRecDepth 8192 in
set_option maxHeartbeats 4000000 in
theorem val11_main_v178 (V0 : Valuation τ sig (Elt F)) : val11 V0 (no_index (Proc.devRef .tc main_v178)) = Cert.Spec.H4 (argsOf V0) := by
  unfold val11
  simp only [w10]
  after_results_simp
  simp only [val10_main_v174, val10_main_arg14, val10_main_arg15] <;> rfl

/-- The buffer contents after the first 12 stretches. -/
def val12 (V0 : Valuation τ sig (Elt F)) : Valuation τ sig (Elt F) := after w11 (val11 V0)
/-- The buffers stretch 12 writes. -/
abbrev w11_W : List (Ref sig .tc) := [main_c_31, main_v179, main_v180, main_c_32, main_v181, main_v182, main_v183, main_v184, main_v185, main_v186, main_v187, main_v188, main_cst_33, main_v189, main_v190, main_v191, main_v192, main_v193, main_v194, main_v195, main_call5_cst, main_call5_v0, main_v196]
set_option maxRecDepth 8192 in
theorem w11_writes : (w11 : List (HloOp τ sig (Elt F))).Forall fun op => op.writes ⊆ (w11_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stretch 12 does not write keeps its contents through it. -/
theorem val12_keep (V0 : Valuation τ sig (Elt F)) (r : Ref sig .tc) (h : r ∉ w11_W) :
    val12 V0 (Proc.devRef .tc r) = val11 V0 (Proc.devRef .tc r) :=
  after_of_writes_sub w11 _ w11_writes h
theorem val12_main_arg0 (V0 : Valuation τ sig (Elt F)) : val12 V0 (no_index (Proc.devRef .tc main_arg0)) = V0 (Proc.devRef .tc main_arg0) :=
  (val12_keep V0 main_arg0 (by decide)).trans (val11_main_arg0 V0)
theorem val12_main_arg1 (V0 : Valuation τ sig (Elt F)) : val12 V0 (no_index (Proc.devRef .tc main_arg1)) = V0 (Proc.devRef .tc main_arg1) :=
  (val12_keep V0 main_arg1 (by decide)).trans (val11_main_arg1 V0)
theorem val12_main_arg2 (V0 : Valuation τ sig (Elt F)) : val12 V0 (no_index (Proc.devRef .tc main_arg2)) = V0 (Proc.devRef .tc main_arg2) :=
  (val12_keep V0 main_arg2 (by decide)).trans (val11_main_arg2 V0)
theorem val12_main_arg3 (V0 : Valuation τ sig (Elt F)) : val12 V0 (no_index (Proc.devRef .tc main_arg3)) = V0 (Proc.devRef .tc main_arg3) :=
  (val12_keep V0 main_arg3 (by decide)).trans (val11_main_arg3 V0)
theorem val12_main_arg4 (V0 : Valuation τ sig (Elt F)) : val12 V0 (no_index (Proc.devRef .tc main_arg4)) = V0 (Proc.devRef .tc main_arg4) :=
  (val12_keep V0 main_arg4 (by decide)).trans (val11_main_arg4 V0)
theorem val12_main_arg5 (V0 : Valuation τ sig (Elt F)) : val12 V0 (no_index (Proc.devRef .tc main_arg5)) = V0 (Proc.devRef .tc main_arg5) :=
  (val12_keep V0 main_arg5 (by decide)).trans (val11_main_arg5 V0)
theorem val12_main_arg6 (V0 : Valuation τ sig (Elt F)) : val12 V0 (no_index (Proc.devRef .tc main_arg6)) = V0 (Proc.devRef .tc main_arg6) :=
  (val12_keep V0 main_arg6 (by decide)).trans (val11_main_arg6 V0)
theorem val12_main_arg7 (V0 : Valuation τ sig (Elt F)) : val12 V0 (no_index (Proc.devRef .tc main_arg7)) = V0 (Proc.devRef .tc main_arg7) :=
  (val12_keep V0 main_arg7 (by decide)).trans (val11_main_arg7 V0)
theorem val12_main_arg8 (V0 : Valuation τ sig (Elt F)) : val12 V0 (no_index (Proc.devRef .tc main_arg8)) = V0 (Proc.devRef .tc main_arg8) :=
  (val12_keep V0 main_arg8 (by decide)).trans (val11_main_arg8 V0)
theorem val12_main_arg9 (V0 : Valuation τ sig (Elt F)) : val12 V0 (no_index (Proc.devRef .tc main_arg9)) = V0 (Proc.devRef .tc main_arg9) :=
  (val12_keep V0 main_arg9 (by decide)).trans (val11_main_arg9 V0)
theorem val12_main_arg10 (V0 : Valuation τ sig (Elt F)) : val12 V0 (no_index (Proc.devRef .tc main_arg10)) = V0 (Proc.devRef .tc main_arg10) :=
  (val12_keep V0 main_arg10 (by decide)).trans (val11_main_arg10 V0)
theorem val12_main_arg11 (V0 : Valuation τ sig (Elt F)) : val12 V0 (no_index (Proc.devRef .tc main_arg11)) = V0 (Proc.devRef .tc main_arg11) :=
  (val12_keep V0 main_arg11 (by decide)).trans (val11_main_arg11 V0)
theorem val12_main_arg12 (V0 : Valuation τ sig (Elt F)) : val12 V0 (no_index (Proc.devRef .tc main_arg12)) = V0 (Proc.devRef .tc main_arg12) :=
  (val12_keep V0 main_arg12 (by decide)).trans (val11_main_arg12 V0)
theorem val12_main_arg13 (V0 : Valuation τ sig (Elt F)) : val12 V0 (no_index (Proc.devRef .tc main_arg13)) = V0 (Proc.devRef .tc main_arg13) :=
  (val12_keep V0 main_arg13 (by decide)).trans (val11_main_arg13 V0)
theorem val12_main_arg14 (V0 : Valuation τ sig (Elt F)) : val12 V0 (no_index (Proc.devRef .tc main_arg14)) = V0 (Proc.devRef .tc main_arg14) :=
  (val12_keep V0 main_arg14 (by decide)).trans (val11_main_arg14 V0)
theorem val12_main_arg15 (V0 : Valuation τ sig (Elt F)) : val12 V0 (no_index (Proc.devRef .tc main_arg15)) = V0 (Proc.devRef .tc main_arg15) :=
  (val12_keep V0 main_arg15 (by decide)).trans (val11_main_arg15 V0)
theorem val12_main_arg16 (V0 : Valuation τ sig (Elt F)) : val12 V0 (no_index (Proc.devRef .tc main_arg16)) = V0 (Proc.devRef .tc main_arg16) :=
  (val12_keep V0 main_arg16 (by decide)).trans (val11_main_arg16 V0)
theorem val12_main_arg17 (V0 : Valuation τ sig (Elt F)) : val12 V0 (no_index (Proc.devRef .tc main_arg17)) = V0 (Proc.devRef .tc main_arg17) :=
  (val12_keep V0 main_arg17 (by decide)).trans (val11_main_arg17 V0)
theorem val12_main_v79 (V0 : Valuation τ sig (Elt F)) : val12 V0 (no_index (Proc.devRef .tc main_v79)) = Cert.Spec.O1 (argsOf V0) :=
  (val12_keep V0 main_v79 (by decide)).trans (val11_main_v79 V0)
theorem val12_main_v126 (V0 : Valuation τ sig (Elt F)) : val12 V0 (no_index (Proc.devRef .tc main_v126)) = Cert.Spec.O2 (argsOf V0) :=
  (val12_keep V0 main_v126 (by decide)).trans (val11_main_v126 V0)
set_option maxRecDepth 8192 in
set_option maxHeartbeats 4000000 in
theorem val12_main_v196 (V0 : Valuation τ sig (Elt F)) : val12 V0 (no_index (Proc.devRef .tc main_v196)) = Cert.Spec.Y4 (argsOf V0) := by
  unfold val12
  simp only [w11]
  after_results_simp
  simp only [val11_main_v1, val11_main_v178, val11_main_v30, val11_main_v3, val11_main_v31] <;> rfl

/-- The buffer contents after the first 13 stretches. -/
def val13 (V0 : Valuation τ sig (Elt F)) : Valuation τ sig (Elt F) := after w12 (val12 V0)
/-- The buffers stretch 13 writes. -/
abbrev w12_W : List (Ref sig .tc) := [main_cst_34, main_v197, main_cst_35, main_v198, main_v199, main_v200, main_v201, main_v202, main_v203, main_cst_36, main_v204, main_cst_37, main_v205, main_v206, main_v207, main_v208, main_v209, main_v210, main_v211, main_v212, main_cst_38, main_v213, main_v214, main_v215, main_v216, main_v217, main_v218, main_v219, main_v220, main_v221]
set_option maxRecDepth 8192 in
theorem w12_writes : (w12 : List (HloOp τ sig (Elt F))).Forall fun op => op.writes ⊆ (w12_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stretch 13 does not write keeps its contents through it. -/
theorem val13_keep (V0 : Valuation τ sig (Elt F)) (r : Ref sig .tc) (h : r ∉ w12_W) :
    val13 V0 (Proc.devRef .tc r) = val12 V0 (Proc.devRef .tc r) :=
  after_of_writes_sub w12 _ w12_writes h
theorem val13_main_arg0 (V0 : Valuation τ sig (Elt F)) : val13 V0 (no_index (Proc.devRef .tc main_arg0)) = V0 (Proc.devRef .tc main_arg0) :=
  (val13_keep V0 main_arg0 (by decide)).trans (val12_main_arg0 V0)
theorem val13_main_arg1 (V0 : Valuation τ sig (Elt F)) : val13 V0 (no_index (Proc.devRef .tc main_arg1)) = V0 (Proc.devRef .tc main_arg1) :=
  (val13_keep V0 main_arg1 (by decide)).trans (val12_main_arg1 V0)
theorem val13_main_arg2 (V0 : Valuation τ sig (Elt F)) : val13 V0 (no_index (Proc.devRef .tc main_arg2)) = V0 (Proc.devRef .tc main_arg2) :=
  (val13_keep V0 main_arg2 (by decide)).trans (val12_main_arg2 V0)
theorem val13_main_arg3 (V0 : Valuation τ sig (Elt F)) : val13 V0 (no_index (Proc.devRef .tc main_arg3)) = V0 (Proc.devRef .tc main_arg3) :=
  (val13_keep V0 main_arg3 (by decide)).trans (val12_main_arg3 V0)
theorem val13_main_arg4 (V0 : Valuation τ sig (Elt F)) : val13 V0 (no_index (Proc.devRef .tc main_arg4)) = V0 (Proc.devRef .tc main_arg4) :=
  (val13_keep V0 main_arg4 (by decide)).trans (val12_main_arg4 V0)
theorem val13_main_arg5 (V0 : Valuation τ sig (Elt F)) : val13 V0 (no_index (Proc.devRef .tc main_arg5)) = V0 (Proc.devRef .tc main_arg5) :=
  (val13_keep V0 main_arg5 (by decide)).trans (val12_main_arg5 V0)
theorem val13_main_arg6 (V0 : Valuation τ sig (Elt F)) : val13 V0 (no_index (Proc.devRef .tc main_arg6)) = V0 (Proc.devRef .tc main_arg6) :=
  (val13_keep V0 main_arg6 (by decide)).trans (val12_main_arg6 V0)
theorem val13_main_arg7 (V0 : Valuation τ sig (Elt F)) : val13 V0 (no_index (Proc.devRef .tc main_arg7)) = V0 (Proc.devRef .tc main_arg7) :=
  (val13_keep V0 main_arg7 (by decide)).trans (val12_main_arg7 V0)
theorem val13_main_arg8 (V0 : Valuation τ sig (Elt F)) : val13 V0 (no_index (Proc.devRef .tc main_arg8)) = V0 (Proc.devRef .tc main_arg8) :=
  (val13_keep V0 main_arg8 (by decide)).trans (val12_main_arg8 V0)
theorem val13_main_arg9 (V0 : Valuation τ sig (Elt F)) : val13 V0 (no_index (Proc.devRef .tc main_arg9)) = V0 (Proc.devRef .tc main_arg9) :=
  (val13_keep V0 main_arg9 (by decide)).trans (val12_main_arg9 V0)
theorem val13_main_arg10 (V0 : Valuation τ sig (Elt F)) : val13 V0 (no_index (Proc.devRef .tc main_arg10)) = V0 (Proc.devRef .tc main_arg10) :=
  (val13_keep V0 main_arg10 (by decide)).trans (val12_main_arg10 V0)
theorem val13_main_arg11 (V0 : Valuation τ sig (Elt F)) : val13 V0 (no_index (Proc.devRef .tc main_arg11)) = V0 (Proc.devRef .tc main_arg11) :=
  (val13_keep V0 main_arg11 (by decide)).trans (val12_main_arg11 V0)
theorem val13_main_arg12 (V0 : Valuation τ sig (Elt F)) : val13 V0 (no_index (Proc.devRef .tc main_arg12)) = V0 (Proc.devRef .tc main_arg12) :=
  (val13_keep V0 main_arg12 (by decide)).trans (val12_main_arg12 V0)
theorem val13_main_arg13 (V0 : Valuation τ sig (Elt F)) : val13 V0 (no_index (Proc.devRef .tc main_arg13)) = V0 (Proc.devRef .tc main_arg13) :=
  (val13_keep V0 main_arg13 (by decide)).trans (val12_main_arg13 V0)
theorem val13_main_arg14 (V0 : Valuation τ sig (Elt F)) : val13 V0 (no_index (Proc.devRef .tc main_arg14)) = V0 (Proc.devRef .tc main_arg14) :=
  (val13_keep V0 main_arg14 (by decide)).trans (val12_main_arg14 V0)
theorem val13_main_arg15 (V0 : Valuation τ sig (Elt F)) : val13 V0 (no_index (Proc.devRef .tc main_arg15)) = V0 (Proc.devRef .tc main_arg15) :=
  (val13_keep V0 main_arg15 (by decide)).trans (val12_main_arg15 V0)
theorem val13_main_arg16 (V0 : Valuation τ sig (Elt F)) : val13 V0 (no_index (Proc.devRef .tc main_arg16)) = V0 (Proc.devRef .tc main_arg16) :=
  (val13_keep V0 main_arg16 (by decide)).trans (val12_main_arg16 V0)
theorem val13_main_arg17 (V0 : Valuation τ sig (Elt F)) : val13 V0 (no_index (Proc.devRef .tc main_arg17)) = V0 (Proc.devRef .tc main_arg17) :=
  (val13_keep V0 main_arg17 (by decide)).trans (val12_main_arg17 V0)
theorem val13_main_v79 (V0 : Valuation τ sig (Elt F)) : val13 V0 (no_index (Proc.devRef .tc main_v79)) = Cert.Spec.O1 (argsOf V0) :=
  (val13_keep V0 main_v79 (by decide)).trans (val12_main_v79 V0)
theorem val13_main_v126 (V0 : Valuation τ sig (Elt F)) : val13 V0 (no_index (Proc.devRef .tc main_v126)) = Cert.Spec.O2 (argsOf V0) :=
  (val13_keep V0 main_v126 (by decide)).trans (val12_main_v126 V0)
set_option maxRecDepth 8192 in
set_option maxHeartbeats 4000000 in
theorem val13_main_v221 (V0 : Valuation τ sig (Elt F)) : val13 V0 (no_index (Proc.devRef .tc main_v221)) = Cert.Spec.O4 (argsOf V0) := by
  unfold val13
  simp only [w12]
  after_results_simp
  simp only [val12_main_v196, val12_main_arg16, val12_main_arg17] <;> rfl

theorem after_ops (V0 : Valuation τ sig (Elt F)) : after ops V0 = val13 V0 := by
  rw [ops_split]
  simp only [after_append]
  rfl

/-- The argument arrays of device `c` in the launch memory `m`. -/
abbrev args (m : (ℓ : Loc nD τ sig) → Buf (Elt F) ℓ) (c : Dev nD) : Cert.Spec.Args F :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11), m ((c.tc : Thread nD τ).loc main_arg12), m ((c.tc : Thread nD τ).loc main_arg13), m ((c.tc : Thread nD τ).loc main_arg14), m ((c.tc : Thread nD τ).loc main_arg15), m ((c.tc : Thread nD τ).loc main_arg16), m ((c.tc : Thread nD τ).loc main_arg17)⟩

/-- On every device, for any float values, from any memory with zero counters: every weakly fair execution of
    the reference terminates with its three results at the network's outputs `Spec.O4`, `Spec.O1`, `Spec.O2`
    of the argument arrays, and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v221) = Cert.Spec.O4 (args m c)
      ∧ r.2.mem ((c.tc : Thread nD τ).loc main_v79) = Cert.Spec.O1 (args m c)
      ∧ r.2.mem ((c.tc : Thread nD τ).loc main_v126) = Cert.Spec.O2 (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨
      (h c main_v221).trans ((congrFun (after_ops _) _).trans (val13_main_v221 _)),
      (h c main_v79).trans ((congrFun (after_ops _) _).trans (val13_main_v79 _)),
      (h c main_v126).trans ((congrFun (after_ops _) _).trans (val13_main_v126 _)),
      (h c main_arg0).trans ((congrFun (after_ops _) _).trans (val13_main_arg0 _)),
      (h c main_arg1).trans ((congrFun (after_ops _) _).trans (val13_main_arg1 _)),
      (h c main_arg2).trans ((congrFun (after_ops _) _).trans (val13_main_arg2 _)),
      (h c main_arg3).trans ((congrFun (after_ops _) _).trans (val13_main_arg3 _)),
      (h c main_arg4).trans ((congrFun (after_ops _) _).trans (val13_main_arg4 _)),
      (h c main_arg5).trans ((congrFun (after_ops _) _).trans (val13_main_arg5 _)),
      (h c main_arg6).trans ((congrFun (after_ops _) _).trans (val13_main_arg6 _)),
      (h c main_arg7).trans ((congrFun (after_ops _) _).trans (val13_main_arg7 _)),
      (h c main_arg8).trans ((congrFun (after_ops _) _).trans (val13_main_arg8 _)),
      (h c main_arg9).trans ((congrFun (after_ops _) _).trans (val13_main_arg9 _)),
      (h c main_arg10).trans ((congrFun (after_ops _) _).trans (val13_main_arg10 _)),
      (h c main_arg11).trans ((congrFun (after_ops _) _).trans (val13_main_arg11 _)),
      (h c main_arg12).trans ((congrFun (after_ops _) _).trans (val13_main_arg12 _)),
      (h c main_arg13).trans ((congrFun (after_ops _) _).trans (val13_main_arg13 _)),
      (h c main_arg14).trans ((congrFun (after_ops _) _).trans (val13_main_arg14 _)),
      (h c main_arg15).trans ((congrFun (after_ops _) _).trans (val13_main_arg15 _)),
      (h c main_arg16).trans ((congrFun (after_ops _) _).trans (val13_main_arg16 _)),
      (h c main_arg17).trans ((congrFun (after_ops _) _).trans (val13_main_arg17 _))⟩)
    (run_seq scopedRefs_eq scopedSems_eq defs main (fun _ => ops) main_eq (fun _ => ops_sub) m ρ)

end Cert.ReferenceIdeal.RefRun

end
-- ==== Proof.RefFrame.lean ====
import proofs.«165059_j7095285973648_2_alg».proof.Proof.RefRun
import proofs.«165059_j7095285973648_2_alg».proof.Proof.Gen.Pre_finite_inputs

/-! The reference program terminates, faults nowhere and leaves its eighteen argument arrays unchanged: its run
with the three results dropped. -/

noncomputable section

namespace Cert.ReferenceIdeal.RefRun

open Idealize.ShloMosaic Idealize.SL.Sem

theorem frame_ri : Cert.frame_ReferenceIdeal :=
  fun m ρ _ => (θ_run Cert.ReferenceIdeal.defs _ _).mono (fun _ h c => (h c).2.2.2)
    (Cert.ReferenceIdeal.RefRun.run (F := Ideal) m ρ)

end Cert.ReferenceIdeal.RefRun

end
-- ==== Proof.UStep.lean ====
import proofs.«165059_j7095285973648_2_alg».proof.Proof.Gen.KernelIdeal.Regions
import proofs.«165059_j7095285973648_2_alg».proof.Proof.AsmVals
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # A buffer keeps its contents across an item that does not write it

A host stretch changes only the buffers its operations write; a region changes only its output arrays. -/

theorem ustep0 (c : Dev nD) (r : Ref sig .tc) (h : r ∉ hostOps0_W) : U1 m c r = V0 m c r :=
  V1_of m c r h
theorem ustep1 (c : Dev nD) (r : Ref sig .tc) (h : r ∉ ([main_v34] : List (Ref sig .tc))) : U2 m c r = U1 m c r := by
  rw [← V2_eq, ← V1_eq]; exact V2_of m (outs m) c r h
theorem ustep2 (c : Dev nD) (r : Ref sig .tc) (h : r ∉ hostOps1_W) : U3 m c r = U2 m c r := by
  rw [← V3_eq, ← V2_eq]; exact V3_of m (outs m) c r h
theorem ustep3 (c : Dev nD) (r : Ref sig .tc) (h : r ∉ ([main_v48_0, main_v48_1, main_v48_2] : List (Ref sig .tc))) : U4 m c r = U3 m c r := by
  rw [← V4_eq, ← V3_eq]; exact V4_of m (outs m) c r h
theorem ustep4 (c : Dev nD) (r : Ref sig .tc) (h : r ∉ hostOps2_W) : U5 m c r = U4 m c r := by
  rw [← V5_eq, ← V4_eq]; exact V5_of m (outs m) c r h
theorem ustep5 (c : Dev nD) (r : Ref sig .tc) (h : r ∉ ([main_v59] : List (Ref sig .tc))) : U6 m c r = U5 m c r := by
  rw [← V6_eq, ← V5_eq]; exact V6_of m (outs m) c r h
theorem ustep6 (c : Dev nD) (r : Ref sig .tc) (h : r ∉ hostOps3_W) : U7 m c r = U6 m c r := by
  rw [← V7_eq, ← V6_eq]; exact V7_of m (outs m) c r h
theorem ustep7 (c : Dev nD) (r : Ref sig .tc) (h : r ∉ ([main_v61] : List (Ref sig .tc))) : U8 m c r = U7 m c r := by
  rw [← V8_eq, ← V7_eq]; exact V8_of m (outs m) c r h
theorem ustep8 (c : Dev nD) (r : Ref sig .tc) (h : r ∉ hostOps4_W) : U9 m c r = U8 m c r := by
  rw [← V9_eq, ← V8_eq]; exact V9_of m (outs m) c r h
theorem ustep9 (c : Dev nD) (r : Ref sig .tc) (h : r ∉ ([main_v75_0, main_v75_1, main_v75_2] : List (Ref sig .tc))) : U10 m c r = U9 m c r := by
  rw [← V10_eq, ← V9_eq]; exact V10_of m (outs m) c r h
theorem ustep10 (c : Dev nD) (r : Ref sig .tc) (h : r ∉ hostOps5_W) : U11 m c r = U10 m c r := by
  rw [← V11_eq, ← V10_eq]; exact V11_of m (outs m) c r h
theorem ustep11 (c : Dev nD) (r : Ref sig .tc) (h : r ∉ ([main_v86] : List (Ref sig .tc))) : U12 m c r = U11 m c r := by
  rw [← V12_eq, ← V11_eq]; exact V12_of m (outs m) c r h
theorem ustep12 (c : Dev nD) (r : Ref sig .tc) (h : r ∉ hostOps6_W) : U13 m c r = U12 m c r := by
  rw [← V13_eq, ← V12_eq]; exact V13_of m (outs m) c r h
theorem ustep13 (c : Dev nD) (r : Ref sig .tc) (h : r ∉ ([main_v88] : List (Ref sig .tc))) : U14 m c r = U13 m c r := by
  rw [← V14_eq, ← V13_eq]; exact V14_of m (outs m) c r h
theorem ustep14 (c : Dev nD) (r : Ref sig .tc) (h : r ∉ hostOps7_W) : U15 m c r = U14 m c r := by
  rw [← V15_eq, ← V14_eq]; exact V15_of m (outs m) c r h
theorem ustep15 (c : Dev nD) (r : Ref sig .tc) (h : r ∉ ([main_v102_0, main_v102_1, main_v102_2] : List (Ref sig .tc))) : U16 m c r = U15 m c r := by
  rw [← V16_eq, ← V15_eq]; exact V16_of m (outs m) c r h
theorem ustep16 (c : Dev nD) (r : Ref sig .tc) (h : r ∉ hostOps8_W) : U17 m c r = U16 m c r := by
  rw [← V17_eq, ← V16_eq]; exact V17_of m (outs m) c r h
theorem ustep17 (c : Dev nD) (r : Ref sig .tc) (h : r ∉ ([main_v113] : List (Ref sig .tc))) : U18 m c r = U17 m c r := by
  rw [← V18_eq, ← V17_eq]; exact V18_of m (outs m) c r h
theorem ustep18 (c : Dev nD) (r : Ref sig .tc) (h : r ∉ hostOps9_W) : U19 m c r = U18 m c r := by
  rw [← V19_eq, ← V18_eq]; exact V19_of m (outs m) c r h
theorem ustep19 (c : Dev nD) (r : Ref sig .tc) (h : r ∉ ([main_v115] : List (Ref sig .tc))) : U20 m c r = U19 m c r := by
  rw [← V20_eq, ← V19_eq]; exact V20_of m (outs m) c r h
theorem ustep20 (c : Dev nD) (r : Ref sig .tc) (h : r ∉ hostOps10_W) : U21 m c r = U20 m c r := by
  rw [← V21_eq, ← V20_eq]; exact V21_of m (outs m) c r h
theorem ustep21 (c : Dev nD) (r : Ref sig .tc) (h : r ∉ ([main_v129_0, main_v129_1, main_v129_2] : List (Ref sig .tc))) : U22 m c r = U21 m c r := by
  rw [← V22_eq, ← V21_eq]; exact V22_of m (outs m) c r h
theorem ustep22 (c : Dev nD) (r : Ref sig .tc) (h : r ∉ hostOps11_W) : U23 m c r = U22 m c r := by
  rw [← V23_eq, ← V22_eq]; exact V23_of m (outs m) c r h
theorem ustep23 (c : Dev nD) (r : Ref sig .tc) (h : r ∉ ([main_v140] : List (Ref sig .tc))) : U24 m c r = U23 m c r := by
  rw [← V24_eq, ← V23_eq]; exact V24_of m (outs m) c r h

end Cert.KernelIdeal.Gen

end
-- ==== Proof.KHost.lean ====
import proofs.«165059_j7095285973648_2_alg».proof.Proof.Gen.KernelIdeal.Launch
import proofs.«165059_j7095285973648_2_alg».proof.Proof.Spec
import Idealize.ShloMosaic.Lib.StableHlo.Run

/-! # The kernel program's host stretches as stages of the network

Between its twelve kernel launches the kernel program runs short stretches of host operations. Read from any
buffer contents `W`: the first stretch computes the edge rows and weights of `Cert.Spec` (and the reshapes of
the node weights and of the first bias to a column and a row); the stretch before each layer's second launch
computes that layer's aggregate over incoming edges; the stretch before each layer's third launch turns the
accumulated column sums `s` and sums of squares `q` into the column means `s / 50000` and the variances
`max (q / 50000 - mean * mean) 0`, and reshapes the layer's scale and shift to rows; the remaining stretches
reshape the next layer's bias to a row. -/

noncomputable section

namespace Cert.KernelIdeal.Gen

open Idealize.ShloMosaic Idealize.ShloMosaic.TcCoe Idealize.SL.Sem Idealize.ShloMosaic.StableHlo

variable {F : FTy → Type} [FloatOps F]

/-- The node weights as a column. -/
def kcol (ws : (⟨S50000, .f32⟩ : BufTy).Contents (Elt F)) : (⟨S50000x1, .f32⟩ : BufTy).Contents (Elt F) :=
  shapeCast S50000x1 ws shapeCasts_S50000_S50000x1

/-- A vector of width 128 as a row. -/
def krow128 (g : (⟨S128, .f32⟩ : BufTy).Contents (Elt F)) : (⟨S1x128, .f32⟩ : BufTy).Contents (Elt F) :=
  shapeCast S1x128 g shapeCasts_S128_S1x128

/-- The column means from the accumulated column sums (width 128). -/
def kmean128 (s : (⟨S1x128, .f32⟩ : BufTy).Contents (Elt F)) : (⟨S1x128, .f32⟩ : BufTy).Contents (Elt F) :=
  Host.divf s (broadcastInDim S1x128 ![] bcast_S_S1x128 (constant S_ .f32 0x47435000#32))

/-- The column variances from the accumulated column sums and sums of squares: the mean of squares minus the
    squared mean, cut off below at zero (width 128). -/
def kvar128 (s q : (⟨S1x128, .f32⟩ : BufTy).Contents (Elt F)) : (⟨S1x128, .f32⟩ : BufTy).Contents (Elt F) :=
  maximumf (subf (Host.divf q (broadcastInDim S1x128 ![] bcast_S_S1x128 (constant S_ .f32 0x47435000#32)))
      (mulf (kmean128 s) (kmean128 s)))
    (broadcastInDim S1x128 ![] bcast_S_S1x128 (constant S_ .f32 0x00000000#32))

/-- A vector of width 64 as a row. -/
def krow64 (g : (⟨S64, .f32⟩ : BufTy).Contents (Elt F)) : (⟨S1x64, .f32⟩ : BufTy).Contents (Elt F) :=
  shapeCast S1x64 g shapeCasts_S64_S1x64

/-- The column means from the accumulated column sums (width 64). -/
def kmean64 (s : (⟨S1x64, .f32⟩ : BufTy).Contents (Elt F)) : (⟨S1x64, .f32⟩ : BufTy).Contents (Elt F) :=
  Host.divf s (broadcastInDim S1x64 ![] bcast_S_S1x64 (constant S_ .f32 0x47435000#32))

/-- The column variances from the accumulated column sums and sums of squares: the mean of squares minus the
    squared mean, cut off below at zero (width 64). -/
def kvar64 (s q : (⟨S1x64, .f32⟩ : BufTy).Contents (Elt F)) : (⟨S1x64, .f32⟩ : BufTy).Contents (Elt F) :=
  maximumf (subf (Host.divf q (broadcastInDim S1x64 ![] bcast_S_S1x64 (constant S_ .f32 0x47435000#32)))
      (mulf (kmean64 s) (kmean64 s)))
    (broadcastInDim S1x64 ![] bcast_S_S1x64 (constant S_ .f32 0x00000000#32))

/-- A vector of width 256 as a row. -/
def krow256 (g : (⟨S256, .f32⟩ : BufTy).Contents (Elt F)) : (⟨S1x256, .f32⟩ : BufTy).Contents (Elt F) :=
  shapeCast S1x256 g shapeCasts_S256_S1x256

/-- The column means from the accumulated column sums (width 256). -/
def kmean256 (s : (⟨S1x256, .f32⟩ : BufTy).Contents (Elt F)) : (⟨S1x256, .f32⟩ : BufTy).Contents (Elt F) :=
  Host.divf s (broadcastInDim S1x256 ![] bcast_S_S1x256 (constant S_ .f32 0x47435000#32))

/-- The column variances from the accumulated column sums and sums of squares: the mean of squares minus the
    squared mean, cut off below at zero (width 256). -/
def kvar256 (s q : (⟨S1x256, .f32⟩ : BufTy).Contents (Elt F)) : (⟨S1x256, .f32⟩ : BufTy).Contents (Elt F) :=
  maximumf (subf (Host.divf q (broadcastInDim S1x256 ![] bcast_S_S1x256 (constant S_ .f32 0x47435000#32)))
      (mulf (kmean256 s) (kmean256 s)))
    (broadcastInDim S1x256 ![] bcast_S_S1x256 (constant S_ .f32 0x00000000#32))

/-! ## Stretch 0: the edge rows and weights -/

set_option maxRecDepth 8192 in
set_option maxHeartbeats 2000000 in
theorem hs0_v1 (W : Valuation τ sig (Elt F)) :
    StableHlo.after hostOps0 W main_v1 = Cert.Spec.src (W main_arg1) := by
  simp only [hostOps0]
  after_results_simp
  rfl

set_option maxRecDepth 8192 in
set_option maxHeartbeats 2000000 in
theorem hs0_v3 (W : Valuation τ sig (Elt F)) :
    StableHlo.after hostOps0 W main_v3 = Cert.Spec.dst (W main_arg1) := by
  simp only [hostOps0]
  after_results_simp
  rfl

set_option maxRecDepth 8192 in
set_option maxHeartbeats 2000000 in
theorem hs0_v30 (W : Valuation τ sig (Elt F)) :
    StableHlo.after hostOps0 W main_v30 = Cert.Spec.dsd (W main_arg1) := by
  simp only [hostOps0]
  after_results_simp
  rfl

set_option maxRecDepth 8192 in
set_option maxHeartbeats 2000000 in
theorem hs0_v32 (W : Valuation τ sig (Elt F)) :
    StableHlo.after hostOps0 W main_v32 = kcol (Cert.Spec.dself (W main_arg1)) := by
  simp only [hostOps0]
  after_results_simp
  rfl

set_option maxRecDepth 8192 in
set_option maxHeartbeats 2000000 in
theorem hs0_v33 (W : Valuation τ sig (Elt F)) :
    StableHlo.after hostOps0 W main_v33 = krow128 (W main_arg3) := by
  simp only [hostOps0]
  after_results_simp
  rfl

/-! ## The aggregates over incoming edges -/

set_option maxRecDepth 8192 in
set_option maxHeartbeats 2000000 in
theorem hs1_v47 (W : Valuation τ sig (Elt F)) :
    StableHlo.after hostOps1 W main_v47 = Cert.Spec.agg128 (W main_v34) (W main_v1) (W main_v3) (W main_v30) := by
  simp only [hostOps1]
  after_results_simp
  rfl

set_option maxRecDepth 8192 in
set_option maxHeartbeats 2000000 in
theorem hs4_v74 (W : Valuation τ sig (Elt F)) :
    StableHlo.after hostOps4 W main_v74 = Cert.Spec.agg64 (W main_v61) (W main_v1) (W main_v3) (W main_v30) := by
  simp only [hostOps4]
  after_results_simp
  rfl

set_option maxRecDepth 8192 in
set_option maxHeartbeats 2000000 in
theorem hs7_v101 (W : Valuation τ sig (Elt F)) :
    StableHlo.after hostOps7 W main_v101 = Cert.Spec.agg128 (W main_v88) (W main_v1) (W main_v3) (W main_v30) := by
  simp only [hostOps7]
  after_results_simp
  rfl

set_option maxRecDepth 8192 in
set_option maxHeartbeats 2000000 in
theorem hs10_v128 (W : Valuation τ sig (Elt F)) :
    StableHlo.after hostOps10 W main_v128 = Cert.Spec.agg256 (W main_v115) (W main_v1) (W main_v3) (W main_v30) := by
  simp only [hostOps10]
  after_results_simp
  rfl

/-! ## The statistics and the scale and shift rows -/

set_option maxRecDepth 8192 in
set_option maxHeartbeats 2000000 in
theorem hs2_v50 (W : Valuation τ sig (Elt F)) :
    StableHlo.after hostOps2 W main_v50 = kmean128 (W main_v48_1) := by
  simp only [hostOps2]
  after_results_simp
  rfl

set_option maxRecDepth 8192 in
set_option maxHeartbeats 2000000 in
theorem hs2_v56 (W : Valuation τ sig (Elt F)) :
    StableHlo.after hostOps2 W main_v56 = kvar128 (W main_v48_1) (W main_v48_2) := by
  simp only [hostOps2]
  after_results_simp
  rfl

set_option maxRecDepth 8192 in
set_option maxHeartbeats 2000000 in
theorem hs2_v57 (W : Valuation τ sig (Elt F)) :
    StableHlo.after hostOps2 W main_v57 = krow128 (W main_arg4) := by
  simp only [hostOps2]
  after_results_simp
  rfl

set_option maxRecDepth 8192 in
set_option maxHeartbeats 2000000 in
theorem hs2_v58 (W : Valuation τ sig (Elt F)) :
    StableHlo.after hostOps2 W main_v58 = krow128 (W main_arg5) := by
  simp only [hostOps2]
  after_results_simp
  rfl

set_option maxRecDepth 8192 in
set_option maxHeartbeats 2000000 in
theorem hs5_v77 (W : Valuation τ sig (Elt F)) :
    StableHlo.after hostOps5 W main_v77 = kmean64 (W main_v75_1) := by
  simp only [hostOps5]
  after_results_simp
  rfl

set_option maxRecDepth 8192 in
set_option maxHeartbeats 2000000 in
theorem hs5_v83 (W : Valuation τ sig (Elt F)) :
    StableHlo.after hostOps5 W main_v83 = kvar64 (W main_v75_1) (W main_v75_2) := by
  simp only [hostOps5]
  after_results_simp
  rfl

set_option maxRecDepth 8192 in
set_option maxHeartbeats 2000000 in
theorem hs5_v84 (W : Valuation τ sig (Elt F)) :
    StableHlo.after hostOps5 W main_v84 = krow64 (W main_arg8) := by
  simp only [hostOps5]
  after_results_simp
  rfl

set_option maxRecDepth 8192 in
set_option maxHeartbeats 2000000 in
theorem hs5_v85 (W : Valuation τ sig (Elt F)) :
    StableHlo.after hostOps5 W main_v85 = krow64 (W main_arg9) := by
  simp only [hostOps5]
  after_results_simp
  rfl

set_option maxRecDepth 8192 in
set_option maxHeartbeats 2000000 in
theorem hs8_v104 (W : Valuation τ sig (Elt F)) :
    StableHlo.after hostOps8 W main_v104 = kmean128 (W main_v102_1) := by
  simp only [hostOps8]
  after_results_simp
  rfl

set_option maxRecDepth 8192 in
set_option maxHeartbeats 2000000 in
theorem hs8_v110 (W : Valuation τ sig (Elt F)) :
    StableHlo.after hostOps8 W main_v110 = kvar128 (W main_v102_1) (W main_v102_2) := by
  simp only [hostOps8]
  after_results_simp
  rfl

set_option maxRecDepth 8192 in
set_option maxHeartbeats 2000000 in
theorem hs8_v111 (W : Valuation τ sig (Elt F)) :
    StableHlo.after hostOps8 W main_v111 = krow128 (W main_arg12) := by
  simp only [hostOps8]
  after_results_simp
  rfl

set_option maxRecDepth 8192 in
set_option maxHeartbeats 2000000 in
theorem hs8_v112 (W : Valuation τ sig (Elt F)) :
    StableHlo.after hostOps8 W main_v112 = krow128 (W main_arg13) := by
  simp only [hostOps8]
  after_results_simp
  rfl

set_option maxRecDepth 8192 in
set_option maxHeartbeats 2000000 in
theorem hs11_v131 (W : Valuation τ sig (Elt F)) :
    StableHlo.after hostOps11 W main_v131 = kmean256 (W main_v129_1) := by
  simp only [hostOps11]
  after_results_simp
  rfl

set_option maxRecDepth 8192 in
set_option maxHeartbeats 2000000 in
theorem hs11_v137 (W : Valuation τ sig (Elt F)) :
    StableHlo.after hostOps11 W main_v137 = kvar256 (W main_v129_1) (W main_v129_2) := by
  simp only [hostOps11]
  after_results_simp
  rfl

set_option maxRecDepth 8192 in
set_option maxHeartbeats 2000000 in
theorem hs11_v138 (W : Valuation τ sig (Elt F)) :
    StableHlo.after hostOps11 W main_v138 = krow256 (W main_arg16) := by
  simp only [hostOps11]
  after_results_simp
  rfl

set_option maxRecDepth 8192 in
set_option maxHeartbeats 2000000 in
theorem hs11_v139 (W : Valuation τ sig (Elt F)) :
    StableHlo.after hostOps11 W main_v139 = krow256 (W main_arg17) := by
  simp only [hostOps11]
  after_results_simp
  rfl

/-! ## The next layer's bias as a row -/

set_option maxRecDepth 8192 in
set_option maxHeartbeats 2000000 in
theorem hs3_v60 (W : Valuation τ sig (Elt F)) :
    StableHlo.after hostOps3 W main_v60 = krow64 (W main_arg7) := by
  simp only [hostOps3]
  after_results_simp
  rfl

set_option maxRecDepth 8192 in
set_option maxHeartbeats 2000000 in
theorem hs6_v87 (W : Valuation τ sig (Elt F)) :
    StableHlo.after hostOps6 W main_v87 = krow128 (W main_arg11) := by
  simp only [hostOps6]
  after_results_simp
  rfl

set_option maxRecDepth 8192 in
set_option maxHeartbeats 2000000 in
theorem hs9_v114 (W : Valuation τ sig (Elt F)) :
    StableHlo.after hostOps9 W main_v114 = krow256 (W main_arg15) := by
  simp only [hostOps9]
  after_results_simp
  rfl

end Cert.KernelIdeal.Gen

end
-- ==== Proof.LibERealSums.lean ====
/-
  Finite sums of extended reals.

  On the extended reals multiplication does not distribute over addition in general (⊤ + ⊥), but it does when the
  common factor is a finite nonnegative number: then `(∑ a j) * d = ∑ (a j * d)` for every finite family `a`.
  The coercion of a finite real sum is the sum of the coercions.
-/
import Mathlib.Data.EReal.Operations
import Mathlib.Algebra.BigOperators.Group.Finset.Basic

namespace Cert.LibEReal

open Finset

/-- The coercion ℝ → EReal commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A finite nonnegative factor distributes over any finite sum of extended reals (from the right). -/
theorem sum_mul_of_nonneg_ne_top {ι : Type*} (s : Finset ι) (a : ι → EReal) {d : EReal} (h0 : 0 ≤ d) (ht : d ≠ ⊤) :
    (∑ j ∈ s, a j) * d = ∑ j ∈ s, a j * d := by
  classical
  induction s using Finset.induction_on with
  | empty => simp
  | insert i s hi ih =>
    rw [Finset.sum_insert hi, Finset.sum_insert hi, EReal.right_distrib_of_nonneg_of_ne_top h0 ht, ih]

/-- The same from the left. -/
theorem mul_sum_of_nonneg_ne_top {ι : Type*} (s : Finset ι) (a : ι → EReal) {d : EReal} (h0 : 0 ≤ d) (ht : d ≠ ⊤) :
    d * (∑ j ∈ s, a j) = ∑ j ∈ s, d * a j := by
  rw [EReal.mul_comm, sum_mul_of_nonneg_ne_top s a h0 ht]
  exact Finset.sum_congr rfl fun j _ => EReal.mul_comm _ _

/-- A finite sum of real numbers, as an extended real, is a real number. -/
theorem sum_coe_eq_coe {ι : Type*} (s : Finset ι) (a : ι → EReal) (f : ι → ℝ) (h : ∀ j ∈ s, a j = (f j : EReal)) :
    ∑ j ∈ s, a j = ((∑ j ∈ s, f j : ℝ) : EReal) := by
  rw [coe_sum]; exact Finset.sum_congr rfl h

end Cert.LibEReal
-- ==== Proof.LibERealOps.lean ====
import Idealize.ShloMosaic.PureOps.Ideal
import Idealize.ShloMosaic.PureOps.Ideal.Laws

/-!
Extended-real facts about the ideal float operations at real arguments: a quotient and a
reciprocal square root of reals are the real ones, the reciprocal square root of a positive
extended real is nonnegative and finite, a few f32 bit patterns and the reals they denote,
the maximum of two reals, and the logistic function as a quotient.
-/

namespace Cert.LibERealOps

open Idealize.ShloMosaic

/-- A quotient of two reals by a nonzero divisor is the real quotient. -/
theorem div_coe_coe (a b : ℝ) (hb : b ≠ 0) :
    Ideal.div (a : EReal) (b : EReal) = ((a / b : ℝ) : EReal) := by
  rw [Ideal.div, if_neg (by exact_mod_cast hb), ← EReal.coe_inv, ← EReal.coe_mul, div_eq_mul_inv]

/-- The reciprocal square root of a positive real is the real `(√r)⁻¹`. -/
theorem rsqrt_coe_pos (r : ℝ) (hr : 0 < r) :
    Ideal.rsqrt (r : EReal) = (((Real.sqrt r)⁻¹ : ℝ) : EReal) := by
  rw [Ideal.rsqrt_coe, if_neg (not_lt.mpr hr.le), if_neg hr.ne']

/-- On a positive extended real the reciprocal square root is nonnegative and not `⊤`:
    `⊤ ↦ 0`, and a positive real goes to the positive real `(√r)⁻¹`. -/
theorem rsqrt_nonneg_ne_top (y : EReal) (hy : 0 < y) :
    0 ≤ Ideal.rsqrt y ∧ Ideal.rsqrt y ≠ ⊤ := by
  induction y using EReal.rec with
  | bot => exact absurd hy (not_lt.mpr bot_le)
  | coe r =>
    have hr : 0 < r := by exact_mod_cast hy
    rw [rsqrt_coe_pos r hr]
    refine ⟨?_, EReal.coe_ne_top _⟩
    exact_mod_cast inv_nonneg.mpr (Real.sqrt_nonneg r)
  | top => exact ⟨by rw [Ideal.rsqrt_top], by rw [Ideal.rsqrt_top]; exact EReal.zero_ne_top⟩

/-! ### f32 bit patterns: sign `0`, biased exponent `E`, fraction `T` denote `(2^23 + T) · 2^(E - 150)` -/

/-- `E = 143`, `2^23 + T = 12800000`: the value is `12800000 / 2^7 = 100000`. -/
theorem ofBits_1e5 : Ideal.ofBits .f32 0x47C35000#32 = ((100000 : ℝ) : EReal) := by
  have h : Ideal.ofBits .f32 0x47C35000#32 = (((12800000 : ℝ) * (2 ^ 7)⁻¹ : ℝ) : EReal) := by
    simp [Ideal.ofBits, Ideal.ieee]
  rw [h]
  norm_num

/-- `E = 127`, `T = 0`: the value is `2^23 / 2^23 = 1`. -/
theorem ofBits_one : Ideal.ofBits .f32 0x3F800000#32 = ((1 : ℝ) : EReal) := by
  have h : Ideal.ofBits .f32 0x3F800000#32 = (((8388608 : ℝ) * (2 ^ 23)⁻¹ : ℝ) : EReal) := by
    simp [Ideal.ofBits, Ideal.ieee]
  rw [h]
  norm_num

/-- `E = 110`: the value is the positive real `10995116 / 2^40` (about `1e-5`). -/
theorem ofBits_eps : ∃ e : ℝ, 0 < e ∧ Ideal.ofBits .f32 0x3727C5AC#32 = (e : EReal) := by
  have h : Ideal.ofBits .f32 0x3727C5AC#32 = (((10995116 : ℝ) * (2 ^ 40)⁻¹ : ℝ) : EReal) := by
    simp [Ideal.ofBits, Ideal.ieee]
  exact ⟨_, by positivity, h⟩

/-- `E = 87`: the value is the positive real `9223372 / 2^63` (about `1e-12`). -/
theorem ofBits_tiny : ∃ e : ℝ, 0 < e ∧ Ideal.ofBits .f32 0x2B8CBCCC#32 = (e : EReal) := by
  have h : Ideal.ofBits .f32 0x2B8CBCCC#32 = (((9223372 : ℝ) * (2 ^ 63)⁻¹ : ℝ) : EReal) := by
    simp [Ideal.ofBits, Ideal.ieee]
  exact ⟨_, by positivity, h⟩

/-- `E = 120`: the value is the real `10737418 / 2^30` (about `0.01`). -/
theorem ofBits_slope : ∃ s : ℝ, Ideal.ofBits .f32 0x3C23D70A#32 = (s : EReal) := by
  have h : Ideal.ofBits .f32 0x3C23D70A#32 = (((10737418 : ℝ) * (2 ^ 30)⁻¹ : ℝ) : EReal) := by
    simp [Ideal.ofBits, Ideal.ieee]
  exact ⟨_, h⟩

/-- The maximum of two reals, taken in the extended reals, is the real maximum: the
    embedding of the reals is monotone. -/
theorem max_coe (a b : ℝ) : max (a : EReal) (b : EReal) = ((max a b : ℝ) : EReal) :=
  (EReal.coe_strictMono.monotone.map_max).symm

/-- The logistic function is by definition `1 / (1 + e⁻ˣ)`. -/
theorem logistic_eq (x : EReal) : Ideal.logistic x = Ideal.div 1 (1 + Ideal.exp (-x)) := rfl

end Cert.LibERealOps
-- ==== Proof.LibScatter.lean ====
/-
  The symmetric normalization of a graph convolution, factored through a scatter-add.

  A scatter-add over the extended reals sends the update array `u` to
  `i ↦ x i + ∑ {j | update j lands at i} u j`.  Let `D` be a finite nonnegative weight per result element, and `Du` a
  weight per update element that agrees with `D` wherever the update lands (`Du j = D i` whenever update `j` lands
  at `i`).  Then weighting after the scatter is weighting before it:
  `(x i + ∑ u j) * D i = x i * D i + ∑ (u j * Du j)`.
  Finiteness and nonnegativity of the weight are what distributivity on the extended reals needs; nothing is asked of
  the updates themselves.
-/
import Idealize.ShloMosaic.PureOps.Ideal
import proofs.«165059_j7095285973648_2_alg».proof.Proof.LibERealSums

namespace Cert.LibScatter

open Idealize.ShloMosaic Finset

/-- Weighting the result of a scatter-add by `D` is scattering the weighted updates into the weighted operand, when
    the update-side weight `Du` agrees with `D` at the element each update lands on. -/
theorem scatterAdd_mul_weight {s si su : Shape} (d : ScatterDims s si su) {w : Nat} (x : s.Idx → EReal) (idx : IVec si w)
    (u : su.Idx → EReal) (D : s.Idx → EReal) (Du : su.Idx → EReal)
    (hD0 : ∀ i, 0 ≤ D i) (hDt : ∀ i, D i ≠ ⊤)
    (hland : ∀ j i, d.resultIdx? j idx = some i → Du j = D i) (i : s.Idx) :
    Ideal.hostScatterAdd d x idx u i * D i
      = Ideal.hostScatterAdd d (fun i => x i * D i) idx (fun j => u j * Du j) i := by
  unfold Ideal.hostScatterAdd
  rw [EReal.right_distrib_of_nonneg_of_ne_top (hD0 i) (hDt i), Cert.LibEReal.sum_mul_of_nonneg_ne_top _ _ (hD0 i) (hDt i)]
  refine congrArg _ (Finset.sum_congr rfl fun j hj => ?_)
  show u j * D i = u j * Du j
  rw [hland j i (Finset.mem_filter.mp hj).2]

/-- Two scatter-adds of the same indices agree when their operands and updates agree elementwise. -/
theorem scatterAdd_congr {s si su : Shape} (d : ScatterDims s si su) {w : Nat} (x x' : s.Idx → EReal) (idx : IVec si w)
    (u u' : su.Idx → EReal) (hx : ∀ i, x i = x' i) (hu : ∀ j, u j = u' j) (i : s.Idx) :
    Ideal.hostScatterAdd d x idx u i = Ideal.hostScatterAdd d x' idx u' i := by
  unfold Ideal.hostScatterAdd
  rw [hx i]; exact congrArg _ (Finset.sum_congr rfl fun j _ => hu j)

/-- A scatter-add of real updates into a real operand is real: its value is the real operand element plus the real sum. -/
theorem scatterAdd_coe {s si su : Shape} (d : ScatterDims s si su) {w : Nat} (x : s.Idx → EReal) (idx : IVec si w)
    (u : su.Idx → EReal) (xr : s.Idx → ℝ) (ur : su.Idx → ℝ) (hx : ∀ i, x i = (xr i : EReal)) (hu : ∀ j, u j = (ur j : EReal))
    (i : s.Idx) :
    Ideal.hostScatterAdd d x idx u i
      = ((xr i + ∑ j ∈ Finset.univ.filter (fun j => d.resultIdx? j idx = some i), ur j : ℝ) : EReal) := by
  unfold Ideal.hostScatterAdd
  rw [EReal.coe_add, hx i, Cert.LibEReal.coe_sum]
  exact congrArg _ (Finset.sum_congr rfl fun j _ => hu j)

end Cert.LibScatter
-- ==== Proof.LibHostApply.lean ====
import Idealize.ShloMosaic.Lib.ValueIdx
import Idealize.ShloMosaic.Lib.IdealHost
import Idealize.ShloMosaic.Lib.StackMember
import Idealize.ShloMosaic.PureOps.Ideal.Laws
import Idealize.ShloMosaic.Lib.Pipeline.Value

/-!
Host operations over rank-2 arrays read at an index: the column sums of an `N × C` array, the product of an
`N × K` by a `K × C` matrix, and the reshapes and broadcasts that add or repeat an axis of extent one. Each
is stated over the literal shape `⟨2, ![_, _]⟩` with its side condition a parameter, so that a program's own
shape facts and dimension records apply as they stand.
-/

namespace Cert.LibHostApply

open Idealize.ShloMosaic Idealize.ShloMosaic.ValueIdx

/-! ### Column sums -/

/-- The host's sum over axis 0 of an `N × C` array, read at column `f`: the initial value plus the sum over
    the rows of the entries of that column. -/
theorem reduceAdd_cols_apply {N C : Nat} {φ : FTy} {u : Shape} (x : FVec Ideal ⟨2, ![N, C]⟩ φ) (init : u.Idx → Ideal φ)
    (h' : (⟨2, ![N, C]⟩ : Shape).ReducesTo [0] ⟨1, ![C]⟩) (hu : 0 < u.numel) (f : Fin C) :
    Host.reduceAdd x init h' hu (ix1 f) = init (Shape.Idx.first hu) + ∑ n : Fin N, x (ix2 n f) := by
  have h : (⟨2, ![N, C]⟩ : Shape).Reduces [0] ⟨1, ![C]⟩ := ⟨h'.1, Nat.one_pos, h'.2⟩
  show Ideal.hostReduceAdd h' x _ (ix1 f) = _
  rw [Ideal.hostReduceAdd_single h' h]
  refine congrArg (_ + ·) (Finset.sum_congr rfl fun n _ => ?_)
  refine congrArg x (funext fun a => Fin.ext ?_)
  match a with
  | ⟨0, _⟩ => rfl
  | ⟨1, _⟩ => rfl

/-- The same from an initial value that is zero: the column's sum alone. -/
theorem reduceAdd_cols_apply_zero {N C : Nat} {φ : FTy} {u : Shape} (x : FVec Ideal ⟨2, ![N, C]⟩ φ) (init : u.Idx → Ideal φ)
    (h' : (⟨2, ![N, C]⟩ : Shape).ReducesTo [0] ⟨1, ![C]⟩) (hu : 0 < u.numel) (h0 : init (Shape.Idx.first hu) = 0)
    (f : Fin C) :
    Host.reduceAdd x init h' hu (ix1 f) = ∑ n : Fin N, x (ix2 n f) := by
  rw [reduceAdd_cols_apply, h0, zero_add]

/-! ### A matrix product -/

/-- The dimension numbers of `N × K` by `K × C`: contract the left operand's axis 1 with the right operand's
    axis 0, no batch axes. -/
abbrev mmDims (N K C : Nat)
    (wf : DotDims.WF ⟨2, ![N, K]⟩ ⟨2, ![K, C]⟩ ⟨2, ![N, C]⟩ [1] [0] [0] [1] [] []) :
    DotDims ⟨2, ![N, K]⟩ ⟨2, ![K, C]⟩ ⟨2, ![N, C]⟩ where
  lhsContracting := [1]
  rhsContracting := [0]
  lhsNonContracting := [0]
  rhsNonContracting := [1]
  lhsBatch := []
  rhsBatch := []
  wf := wf

/-- The product read at `(n, f)`: the sum over the contracted coordinate of the products of the entries. -/
theorem dotGeneral_mm_apply {N K C : Nat} {φ₁ φ₂ : FTy}
    (wf : DotDims.WF ⟨2, ![N, K]⟩ ⟨2, ![K, C]⟩ ⟨2, ![N, C]⟩ [1] [0] [0] [1] [] [])
    (prec : Option ContractPrecision) (l : FVec Ideal ⟨2, ![N, K]⟩ φ₁) (r : FVec Ideal ⟨2, ![K, C]⟩ φ₂)
    (n : Fin N) (f : Fin C) :
    Host.dotGeneral (mmDims N K C wf) prec l r (ix2 n f) = ∑ k : Fin K, l (ix2 n k) * r (ix2 k f) :=
  StackMember.dotGeneral_plain_apply prec l r n f

/-! ### Reshapes and broadcasts that add or repeat a unit axis -/

section Moves
variable {α : Type}

/-- A vector reshaped to a column, at row `n`. -/
theorem shapeCast_col_apply {N : Nat} (v : (⟨1, ![N]⟩ : Shape).Idx → α)
    (h : (⟨1, ![N]⟩ : Shape).ShapeCasts ⟨2, ![N, 1]⟩) (n : Fin N) :
    shapeCast ⟨2, ![N, 1]⟩ v h (ix2 n (0 : Fin 1)) = v (ix1 n) :=
  shapeCast_apply v h (ix2 n (0 : Fin 1)) (ix1 n) (by
    rw [Shape.rowMajor_val_one, Shape.rowMajor_val_two]
    show n.val = n.val * 1 + 0
    omega)

/-- A vector reshaped to a row, at column `f`. -/
theorem shapeCast_row_apply {C : Nat} (v : (⟨1, ![C]⟩ : Shape).Idx → α)
    (h : (⟨1, ![C]⟩ : Shape).ShapeCasts ⟨2, ![1, C]⟩) (f : Fin C) :
    shapeCast ⟨2, ![1, C]⟩ v h (ix2 (0 : Fin 1) f) = v (ix1 f) :=
  shapeCast_apply v h (ix2 (0 : Fin 1) f) (ix1 f) (by
    rw [Shape.rowMajor_val_one, Shape.rowMajor_val_two]
    show f.val = 0 * C + f.val
    omega)

/-- A row repeated down `N` rows, at `(n, f)`: the row's entry `f`. -/
theorem broadcastInDim_rows_apply {N C : Nat} (v : (⟨2, ![1, C]⟩ : Shape).Idx → α)
    (h : (⟨2, ![1, C]⟩ : Shape).BroadcastsInDim ⟨2, ![N, C]⟩ (![0, 1] : Fin 2 → Fin 2)) (n : Fin N) (f : Fin C) :
    broadcastInDim ⟨2, ![N, C]⟩ ![0, 1] h v (ix2 n f) = v (ix2 (0 : Fin 1) f) :=
  broadcastInDim_apply _ h v (ix2 n f) (ix2 (0 : Fin 1) f) (fun a => by
    match a with
    | ⟨0, _⟩ => exact (if_pos rfl).symm
    | ⟨1, _⟩ =>
      show f.val = if C = 1 then 0 else f.val
      split_ifs with hC
      · have := f.isLt; omega
      · rfl)

/-- A vector placed as the one row of a `1 × C` array, at column `f`. -/
theorem broadcastInDim_row_apply {C : Nat} (v : (⟨1, ![C]⟩ : Shape).Idx → α)
    (h : (⟨1, ![C]⟩ : Shape).BroadcastsInDim ⟨2, ![1, C]⟩ (![1] : Fin 1 → Fin 2)) (f : Fin C) :
    broadcastInDim ⟨2, ![1, C]⟩ ![1] h v (ix2 (0 : Fin 1) f) = v (ix1 f) :=
  broadcastInDim_apply _ h v (ix2 (0 : Fin 1) f) (ix1 f) (fun a => by
    match a with
    | ⟨0, _⟩ =>
      show f.val = if C = 1 then 0 else f.val
      split_ifs with hC
      · have := f.isLt; omega
      · rfl)

/-- A vector placed as the one column of an `E × 1` array, at row `e`. -/
theorem broadcastInDim_col_apply {E : Nat} (v : (⟨1, ![E]⟩ : Shape).Idx → α)
    (h : (⟨1, ![E]⟩ : Shape).BroadcastsInDim ⟨2, ![E, 1]⟩ (![0] : Fin 1 → Fin 2)) (e : Fin E) :
    broadcastInDim ⟨2, ![E, 1]⟩ ![0] h v (ix2 e (0 : Fin 1)) = v (ix1 e) :=
  broadcastInDim_apply _ h v (ix2 e (0 : Fin 1)) (ix1 e) (fun a => by
    match a with
    | ⟨0, _⟩ =>
      show e.val = if E = 1 then 0 else e.val
      split_ifs with hE
      · have := e.isLt; omega
      · rfl)

/-- A column repeated across `C` columns, at `(e, f)`: the column's entry `e`. -/
theorem broadcastInDim_cols_apply {E C : Nat} (v : (⟨2, ![E, 1]⟩ : Shape).Idx → α)
    (h : (⟨2, ![E, 1]⟩ : Shape).BroadcastsInDim ⟨2, ![E, C]⟩ (![0, 1] : Fin 2 → Fin 2)) (e : Fin E) (f : Fin C) :
    broadcastInDim ⟨2, ![E, C]⟩ ![0, 1] h v (ix2 e f) = v (ix2 e (0 : Fin 1)) :=
  broadcastInDim_apply _ h v (ix2 e f) (ix2 e (0 : Fin 1)) (fun a => by
    match a with
    | ⟨0, _⟩ =>
      show e.val = if E = 1 then 0 else e.val
      split_ifs with hE
      · have := e.isLt; omega
      · rfl
    | ⟨1, _⟩ => exact (if_pos rfl).symm)

/-- A scalar repeated over any shape reads the scalar everywhere. -/
theorem broadcastInDim_scalar_apply {T : Shape} (h : (⟨0, ![]⟩ : Shape).BroadcastsInDim T ![])
    (x : (⟨0, ![]⟩ : Shape).Idx → α) (j : T.Idx) : broadcastInDim T ![] h x j = x ix0 :=
  ValueIdx.broadcastInDim_scalar_apply h x j

end Moves

end Cert.LibHostApply
-- ==== Proof.LibStats.lean ====
import Mathlib.Algebra.BigOperators.Fin
import Mathlib.Analysis.SpecialFunctions.Pow.Real

/-!
Real-number identities of a batch normalisation computed two ways: the two-pass variance
`E[(x - E x)²]` against the clamped one-pass `max (E[x²] - (E x)²) 0`, a sum over `B · R` indices
split into `B` blocks of `R`, and the normalisation's scale and shift folded into the weights of a
following contraction.
-/

namespace Cert.LibStats

open Finset

/-- With `m = (∑ l) / N`, `∑ (l n - m)² = ∑ l n² - 2 m ∑ l + N m² = ∑ l n² - (∑ l)² / N`; dividing by
    `N` gives `E[x²] - (E x)²`. The left side is a sum of squares over a positive number, so the
    difference is nonnegative and the clamp at `0` does nothing. -/
theorem var_one_pass {N : ℕ} (l : Fin N → ℝ) (Nr : ℝ) (hNr : Nr = (N : ℝ)) (hpos : 0 < Nr) :
    (∑ n, (l n - (∑ n, l n) / Nr) * (l n - (∑ n, l n) / Nr)) / Nr
      = max ((∑ n, l n * l n) / Nr - ((∑ n, l n) / Nr) * ((∑ n, l n) / Nr)) 0 := by
  have hne : Nr ≠ 0 := hpos.ne'
  have hexp : ∀ m : ℝ, ∑ n, (l n - m) * (l n - m)
      = (∑ n, l n * l n) - 2 * m * (∑ n, l n) + Nr * (m * m) := by
    intro m
    have h1 : ∀ n, (l n - m) * (l n - m) = l n * l n - 2 * m * l n + m * m := fun n => by ring
    simp only [h1, sum_add_distrib, sum_sub_distrib, ← mul_sum, sum_const, card_univ,
      Fintype.card_fin, nsmul_eq_mul, hNr]
    ring
  have key : (∑ n, (l n - (∑ n, l n) / Nr) * (l n - (∑ n, l n) / Nr)) / Nr
      = (∑ n, l n * l n) / Nr - ((∑ n, l n) / Nr) * ((∑ n, l n) / Nr) := by
    rw [hexp]
    field_simp
    ring
  rw [max_eq_left]
  · exact key
  · rw [← key]
    exact div_nonneg (sum_nonneg fun n _ => mul_self_nonneg _) hpos.le

/-- A map `h` with `h b r = R · b + r` is the standard bijection `Fin B × Fin R ≃ Fin (B · R)`, so the
    iterated sum over blocks and rows is the sum over all `B · R` indices. -/
theorem sum_blocks {B R : ℕ} {M : Type*} [AddCommMonoid M] (g : Fin (B * R) → M)
    (h : Fin B → Fin R → Fin (B * R)) (hval : ∀ b r, (h b r).val = R * b.val + r.val) :
    ∑ b : Fin B, ∑ r : Fin R, g (h b r) = ∑ n : Fin (B * R), g n := by
  have hh : ∀ b r, h b r = finProdFinEquiv (b, r) := by
    intro b r
    apply Fin.ext
    rw [hval]
    simp [finProdFinEquiv, add_comm]
  simp only [hh]
  rw [← Fintype.sum_prod_type']
  exact Equiv.sum_comp finProdFinEquiv g

/-- Termwise, `((l - μ) · s · g + b) · W = l · (g · s · W) + (b - μ · (g · s)) · W`: the scale goes into
    the weight and the shift into a bias term. -/
theorem bn_fold {K : ℕ} (l mu rs g b W : Fin K → ℝ) :
    ∑ k, ((((l k - mu k) * rs k) * g k) + b k) * W k
      = (∑ k, l k * ((g k * rs k) * W k)) + ∑ k, (b k - mu k * (g k * rs k)) * W k := by
  rw [← sum_add_distrib]
  exact sum_congr rfl fun k _ => by ring

end Cert.LibStats
-- ==== Proof.SpecReal.lean ====
import proofs.«165059_j7095285973648_2_alg».proof.Proof.Spec
import proofs.«165059_j7095285973648_2_alg».proof.Proof.LibERealSums
import proofs.«165059_j7095285973648_2_alg».proof.Proof.LibERealOps
import proofs.«165059_j7095285973648_2_alg».proof.Proof.LibScatter
import proofs.«165059_j7095285973648_2_alg».proof.Proof.LibHostApply
import proofs.«165059_j7095285973648_2_alg».proof.Proof.LibStats
import Idealize.ShloMosaic.Lib.ValueIdx
import Idealize.ShloMosaic.Lib.IdealHost

/-! # Real-valued arrays

At the exact instance a float is an extended real. The operations of the network keep real numbers real:
sums, products, differences and maxima of reals are real; a quotient by a nonzero real and the reciprocal
square root of a positive real are real; re-indexings (broadcasts, gathers) only move entries; and the sums
of a scatter-add, a column reduction and a matrix product are finite sums of reals. -/

noncomputable section

namespace Cert.Spec

open Idealize.ShloMosaic Idealize.ShloMosaic.ValueIdx Finset

/-- Every entry is a real number. -/
def IsReal {S : Shape} (v : S.Idx → EReal) : Prop := ∀ i, ∃ r : ℝ, v i = (r : EReal)

/-- Every entry is a positive real number. -/
def IsPos {S : Shape} (v : S.Idx → EReal) : Prop := ∀ i, ∃ r : ℝ, 0 < r ∧ v i = (r : EReal)

/-- Every entry is a nonnegative real number. -/
def IsNonneg {S : Shape} (v : S.Idx → EReal) : Prop := ∀ i, ∃ r : ℝ, 0 ≤ r ∧ v i = (r : EReal)

theorem IsPos.isReal {S : Shape} {v : S.Idx → EReal} (h : IsPos v) : IsReal v :=
  fun i => let ⟨r, _, hr⟩ := h i; ⟨r, hr⟩

theorem IsPos.isNonneg {S : Shape} {v : S.Idx → EReal} (h : IsPos v) : IsNonneg v :=
  fun i => let ⟨r, h0, hr⟩ := h i; ⟨r, h0.le, hr⟩

theorem IsNonneg.isReal {S : Shape} {v : S.Idx → EReal} (h : IsNonneg v) : IsReal v :=
  fun i => let ⟨r, _, hr⟩ := h i; ⟨r, hr⟩

section Pointwise

variable {S : Shape} {a b : FVec Ideal S .f32}

theorem IsReal.addf (ha : IsReal a) (hb : IsReal b) : IsReal (addf a b) := fun i => by
  obtain ⟨x, hx⟩ := ha i; obtain ⟨y, hy⟩ := hb i
  exact ⟨x + y, by rw [addf_apply, hx, hy, EReal.coe_add]⟩

theorem IsReal.subf (ha : IsReal a) (hb : IsReal b) : IsReal (subf a b) := fun i => by
  obtain ⟨x, hx⟩ := ha i; obtain ⟨y, hy⟩ := hb i
  exact ⟨x - y, by rw [subf_apply, hx, hy, EReal.coe_sub]⟩

theorem IsReal.mulf (ha : IsReal a) (hb : IsReal b) : IsReal (mulf a b) := fun i => by
  obtain ⟨x, hx⟩ := ha i; obtain ⟨y, hy⟩ := hb i
  exact ⟨x * y, by rw [mulf_apply, hx, hy, EReal.coe_mul]⟩

theorem IsReal.maximumf (ha : IsReal a) (hb : IsReal b) : IsReal (maximumf a b) := fun i => by
  obtain ⟨x, hx⟩ := ha i; obtain ⟨y, hy⟩ := hb i
  exact ⟨max x y, by rw [maximumf_apply, hx, hy, Cert.LibERealOps.max_coe]⟩

theorem IsPos.mulf (ha : IsPos a) (hb : IsPos b) : IsPos (mulf a b) := fun i => by
  obtain ⟨x, hx0, hx⟩ := ha i; obtain ⟨y, hy0, hy⟩ := hb i
  exact ⟨x * y, mul_pos hx0 hy0, by rw [mulf_apply, hx, hy, EReal.coe_mul]⟩

/-- The reciprocal square root of positive reals. -/
theorem IsPos.rsqrt (ha : IsPos a) : IsPos (Host.rsqrt a) := fun i => by
  obtain ⟨x, hx0, hx⟩ := ha i
  refine ⟨(Real.sqrt x)⁻¹, inv_pos.mpr (Real.sqrt_pos.mpr hx0), ?_⟩
  show Ideal.rsqrt (a i) = _
  rw [hx, Cert.LibERealOps.rsqrt_coe_pos x hx0]

/-- A quotient of reals by nonzero reals. -/
theorem IsReal.divf (ha : IsReal a) (hb : ∀ i, ∃ r : ℝ, r ≠ 0 ∧ b i = (r : EReal)) : IsReal (Host.divf a b) := fun i => by
  obtain ⟨x, hx⟩ := ha i; obtain ⟨y, hy0, hy⟩ := hb i
  refine ⟨x / y, ?_⟩
  show Ideal.div (a i) (b i) = _
  rw [hx, hy, Cert.LibERealOps.div_coe_coe x y hy0]

end Pointwise

section Moves

variable {S T : Shape} {α : Type}

/-- A broadcast only repeats entries. -/
theorem IsReal.broadcastInDim {v : S.Idx → EReal} (hv : IsReal v) (dims : Fin S.rank → Fin T.rank)
    (h : S.BroadcastsInDim T dims) : IsReal (broadcastInDim T dims h v) := fun _ => hv _

theorem IsPos.broadcastInDim {v : S.Idx → EReal} (hv : IsPos v) (dims : Fin S.rank → Fin T.rank)
    (h : S.BroadcastsInDim T dims) : IsPos (broadcastInDim T dims h v) := fun _ => hv _

/-- A gather only selects entries. -/
theorem IsReal.gather {si : Shape} {w : Nat} (d : GatherDims S si T) {v : S.Idx → EReal} (hv : IsReal v) (idx : IVec si w) :
    IsReal (Host.gather d v idx) := fun _ => hv _

theorem IsPos.gather {si : Shape} {w : Nat} (d : GatherDims S si T) {v : S.Idx → EReal} (hv : IsPos v) (idx : IVec si w) :
    IsPos (Host.gather d v idx) := fun _ => hv _

end Moves

section Sums

variable {S : Shape}

/-- A scatter-add of reals onto reals: each entry is the operand's plus a finite sum of updates. -/
theorem IsReal.scatterAdd {si su : Shape} {w : Nat} (d : ScatterDims S si su) {x : FVec Ideal S .f32} (hx : IsReal x)
    (idx : IVec si w) {u : FVec Ideal su .f32} (hu : IsReal u) : IsReal (Host.scatterAdd d x idx u) := fun i => by
  choose xr hxr using hx
  choose ur hur using hu
  exact ⟨_, Cert.LibScatter.scatterAdd_coe d x idx u xr ur hxr hur i⟩

/-- A scatter-add of nonnegative reals onto nonnegative reals is nonnegative. -/
theorem IsNonneg.scatterAdd {si su : Shape} {w : Nat} (d : ScatterDims S si su) {x : FVec Ideal S .f32} (hx : IsNonneg x)
    (idx : IVec si w) {u : FVec Ideal su .f32} (hu : IsNonneg u) : IsNonneg (Host.scatterAdd d x idx u) := fun i => by
  choose xr hx0 hxr using hx
  choose ur hu0 hur using hu
  exact ⟨_, add_nonneg (hx0 i) (Finset.sum_nonneg fun j _ => hu0 j), Cert.LibScatter.scatterAdd_coe d x idx u xr ur hxr hur i⟩

/-- The host's sum over some axes of reals, from a real initial value. -/
theorem IsReal.reduceAdd {T U : Shape} {axes : List (Fin S.rank)} {x : FVec Ideal S .f32} (hx : IsReal x)
    {init : U.Idx → Ideal .f32} (hi : IsReal init) (h : S.ReducesTo axes T) (hu : 0 < U.numel) :
    IsReal (Host.reduceAdd x init h hu) := fun j => by
  choose xr hxr using hx
  obtain ⟨r0, hr0⟩ := hi (Shape.Idx.first hu)
  refine ⟨r0 + ∑ i ∈ Finset.univ.filter (fun i => h.drop i = j), xr i, ?_⟩
  show Ideal.hostReduceAdd h x (init (Shape.Idx.first hu)) j = _
  unfold Ideal.hostReduceAdd
  rw [hr0, EReal.coe_add, Cert.LibEReal.sum_coe_eq_coe _ _ xr fun i _ => hxr i]

/-- The same sum of nonnegative reals from a nonnegative initial value is nonnegative. -/
theorem IsNonneg.reduceAdd {T U : Shape} {axes : List (Fin S.rank)} {x : FVec Ideal S .f32} (hx : IsNonneg x)
    {init : U.Idx → Ideal .f32} (hi : IsNonneg init) (h : S.ReducesTo axes T) (hu : 0 < U.numel) :
    IsNonneg (Host.reduceAdd x init h hu) := fun j => by
  choose xr hx0 hxr using hx
  obtain ⟨r0, hr00, hr0⟩ := hi (Shape.Idx.first hu)
  refine ⟨r0 + ∑ i ∈ Finset.univ.filter (fun i => h.drop i = j), xr i,
    add_nonneg hr00 (Finset.sum_nonneg fun i _ => hx0 i), ?_⟩
  show Ideal.hostReduceAdd h x (init (Shape.Idx.first hu)) j = _
  unfold Ideal.hostReduceAdd
  rw [hr0, EReal.coe_add, Cert.LibEReal.sum_coe_eq_coe _ _ xr fun i _ => hxr i]

/-- A matrix product of real matrices. -/
theorem IsReal.dotGeneral_mm {N K C : Nat}
    (wf : DotDims.WF ⟨2, ![N, K]⟩ ⟨2, ![K, C]⟩ ⟨2, ![N, C]⟩ [1] [0] [0] [1] [] [])
    {l : FVec Ideal ⟨2, ![N, K]⟩ .f32} (hl : IsReal l) {r : FVec Ideal ⟨2, ![K, C]⟩ .f32} (hr : IsReal r) :
    IsReal (Host.dotGeneral (Cert.LibHostApply.mmDims N K C wf) none l r) := fun i => by
  obtain ⟨n, f, rfl⟩ : ∃ (n : Fin N) (f : Fin C), i = ix2 n f := ⟨i 0, i 1, eq_ix2 i⟩
  choose lr hlr using hl
  choose rr hrr using hr
  refine ⟨∑ k : Fin K, lr (ix2 n k) * rr (ix2 k f), ?_⟩
  rw [Cert.LibHostApply.dotGeneral_mm_apply wf none l r n f]
  exact Cert.LibEReal.sum_coe_eq_coe _ _ _ fun k _ => by rw [hlr, hrr, EReal.coe_mul]

end Sums

section Words

/-- The word of 50000.0. -/
theorem ofBits_50000 : Ideal.ofBits .f32 0x47435000#32 = ((50000 : ℝ) : EReal) := by
  have h : Ideal.ofBits .f32 0x47435000#32 = (((12800000 : ℝ) * (2 ^ 8)⁻¹ : ℝ) : EReal) := by
    simp [Ideal.ofBits, Ideal.ieee]
  rw [h]; norm_num

variable {T : Shape}

/-- The all-zero array. -/
theorem isNonneg_zeros (h : (⟨0, ![]⟩ : Shape).BroadcastsInDim T ![]) :
    IsNonneg (broadcastInDim T ![] h (constant (F := Ideal) ⟨0, ![]⟩ .f32 0x00000000#32)) := fun _ =>
  ⟨0, le_refl _, by show Ideal.ofBits .f32 0x00000000#32 = _; rw [Ideal.ofBits_zero_f32]; rfl⟩

/-- The all-one array. -/
theorem isPos_ones (h : (⟨0, ![]⟩ : Shape).BroadcastsInDim T ![]) :
    IsPos (broadcastInDim T ![] h (constant (F := Ideal) ⟨0, ![]⟩ .f32 0x3F800000#32)) := fun _ =>
  ⟨1, one_pos, by show Ideal.ofBits .f32 0x3F800000#32 = _; rw [Cert.LibERealOps.ofBits_one]⟩

/-- The array of 50000.0. -/
theorem isPos_50000 (h : (⟨0, ![]⟩ : Shape).BroadcastsInDim T ![]) :
    IsPos (broadcastInDim T ![] h (constant (F := Ideal) ⟨0, ![]⟩ .f32 0x47435000#32)) := fun _ =>
  ⟨50000, by norm_num, by show Ideal.ofBits .f32 0x47435000#32 = _; rw [ofBits_50000]⟩

/-- The array of the small positive word added under the square root. -/
theorem isPos_eps (h : (⟨0, ![]⟩ : Shape).BroadcastsInDim T ![]) :
    IsPos (broadcastInDim T ![] h (constant (F := Ideal) ⟨0, ![]⟩ .f32 0x3727C5AC#32)) := fun _ => by
  obtain ⟨e, he0, he⟩ := Cert.LibERealOps.ofBits_eps
  exact ⟨e, he0, he⟩

/-- The scalar zero. -/
theorem isNonneg_zero : IsNonneg (constant (F := Ideal) ⟨0, ![]⟩ .f32 0x00000000#32) := fun _ =>
  ⟨0, le_refl _, by show Ideal.ofBits .f32 0x00000000#32 = _; rw [Ideal.ofBits_zero_f32]; rfl⟩

end Words

section Order

variable {S : Shape} {a b : FVec Ideal S .f32}

theorem IsNonneg.addf_pos (ha : IsNonneg a) (hb : IsPos b) : IsPos (addf a b) := fun i => by
  obtain ⟨x, hx0, hx⟩ := ha i; obtain ⟨y, hy0, hy⟩ := hb i
  exact ⟨x + y, add_pos_of_nonneg_of_pos hx0 hy0, by rw [addf_apply, hx, hy, EReal.coe_add]⟩

theorem isNonneg_mulf_self (ha : IsReal a) : IsNonneg (mulf a a) := fun i => by
  obtain ⟨x, hx⟩ := ha i
  exact ⟨x * x, mul_self_nonneg x, by rw [mulf_apply, hx, EReal.coe_mul]⟩

/-- A quotient of nonnegative reals by positive reals. -/
theorem IsNonneg.divf_pos (ha : IsNonneg a) (hb : IsPos b) : IsNonneg (Host.divf a b) := fun i => by
  obtain ⟨x, hx0, hx⟩ := ha i; obtain ⟨y, hy0, hy⟩ := hb i
  refine ⟨x / y, div_nonneg hx0 hy0.le, ?_⟩
  show Ideal.div (a i) (b i) = _
  rw [hx, hy, Cert.LibERealOps.div_coe_coe x y hy0.ne']

theorem IsReal.divf_pos (ha : IsReal a) (hb : IsPos b) : IsReal (Host.divf a b) :=
  ha.divf fun i => let ⟨y, hy0, hy⟩ := hb i; ⟨y, hy0.ne', hy⟩

end Order

end Cert.Spec

end
-- ==== Proof.SpecLaws.lean ====
import proofs.«165059_j7095285973648_2_alg».proof.Proof.SpecReal

/-! # The network's values are real numbers, and the two variance formulas agree

Under the hypothesis that the seventeen float argument arrays hold real numbers, every stage of the network
holds real numbers: a node's degree is one plus a count, so `dinv` is a positive real; each layer's linear
map, aggregate, rectification, mean and variance are finite sums, products and quotients of reals; the
variance is a nonnegative real and the small word added to it is positive, so the reciprocal square root is
a positive real. On real columns the variance as the mean of squared deviations equals the mean of squares
minus the squared mean, cut off below at zero. -/

noncomputable section

namespace Cert.Spec

open Idealize.ShloMosaic Idealize.ShloMosaic.ValueIdx Finset

/-! ## The edge weights are positive reals -/

theorem deg_pos (e : (⟨S2x800000, .i32⟩ : BufTy).Contents (Elt Ideal)) : IsPos (deg e) := by
  unfold deg
  exact (IsNonneg.scatterAdd _ (isNonneg_zeros _) _ (isPos_ones _).isNonneg).addf_pos (isPos_ones _)

theorem dinv_pos (e : (⟨S2x800000, .i32⟩ : BufTy).Contents (Elt Ideal)) : IsPos (dinv e) := by
  unfold dinv
  exact (deg_pos e).rsqrt

theorem dsd_pos (e : (⟨S2x800000, .i32⟩ : BufTy).Contents (Elt Ideal)) : IsPos (dsd e) := by
  unfold dsd
  exact ((dinv_pos e).gather _ _).mulf ((dinv_pos e).gather _ _)

theorem dself_pos (e : (⟨S2x800000, .i32⟩ : BufTy).Contents (Elt Ideal)) : IsPos (dself e) := by
  unfold dself
  exact (dinv_pos e).mulf (dinv_pos e)

/-! ## The stages keep real numbers real -/

theorem real_h1 {x : (⟨S50000x256, .f32⟩ : BufTy).Contents (Elt Ideal)} {Wt : (⟨S256x128, .f32⟩ : BufTy).Contents (Elt Ideal)} {b : (⟨S128, .f32⟩ : BufTy).Contents (Elt Ideal)}
    (hx : IsReal x) (hW : IsReal Wt) (hb : IsReal b) : IsReal (h1 x Wt b) := by
  unfold h1
  exact (IsReal.dotGeneral_mm dot_S50000x256_S256x128_S50000x128_1_0_0_1_n_n_wf hx hW).addf ((hb.broadcastInDim _ _).broadcastInDim _ _)

theorem real_h2 {x : (⟨S50000x128, .f32⟩ : BufTy).Contents (Elt Ideal)} {Wt : (⟨S128x64, .f32⟩ : BufTy).Contents (Elt Ideal)} {b : (⟨S64, .f32⟩ : BufTy).Contents (Elt Ideal)}
    (hx : IsReal x) (hW : IsReal Wt) (hb : IsReal b) : IsReal (h2 x Wt b) := by
  unfold h2
  exact (IsReal.dotGeneral_mm dot_S50000x128_S128x64_S50000x64_1_0_0_1_n_n_wf hx hW).addf ((hb.broadcastInDim _ _).broadcastInDim _ _)

theorem real_h3 {x : (⟨S50000x64, .f32⟩ : BufTy).Contents (Elt Ideal)} {Wt : (⟨S64x128, .f32⟩ : BufTy).Contents (Elt Ideal)} {b : (⟨S128, .f32⟩ : BufTy).Contents (Elt Ideal)}
    (hx : IsReal x) (hW : IsReal Wt) (hb : IsReal b) : IsReal (h3 x Wt b) := by
  unfold h3
  exact (IsReal.dotGeneral_mm dot_S50000x64_S64x128_S50000x128_1_0_0_1_n_n_wf hx hW).addf ((hb.broadcastInDim _ _).broadcastInDim _ _)

theorem real_h4 {x : (⟨S50000x128, .f32⟩ : BufTy).Contents (Elt Ideal)} {Wt : (⟨S128x256, .f32⟩ : BufTy).Contents (Elt Ideal)} {b : (⟨S256, .f32⟩ : BufTy).Contents (Elt Ideal)}
    (hx : IsReal x) (hW : IsReal Wt) (hb : IsReal b) : IsReal (h4 x Wt b) := by
  unfold h4
  exact (IsReal.dotGeneral_mm dot_S50000x128_S128x256_S50000x256_1_0_0_1_n_n_wf hx hW).addf ((hb.broadcastInDim _ _).broadcastInDim _ _)

theorem real_agg128 {h : (⟨S50000x128, .f32⟩ : BufTy).Contents (Elt Ideal)} (hh : IsReal h) (s d : (⟨S800000, .i32⟩ : BufTy).Contents (Elt Ideal)) {w : (⟨S800000, .f32⟩ : BufTy).Contents (Elt Ideal)} (hw : IsReal w) :
    IsReal (agg128 h s d w) := by
  unfold agg128
  exact IsReal.scatterAdd _ (isNonneg_zeros _).isReal _ ((hh.gather _ _).mulf ((hw.broadcastInDim _ _).broadcastInDim _ _))

theorem real_pre128 {h a : (⟨S50000x128, .f32⟩ : BufTy).Contents (Elt Ideal)} (hh : IsReal h) (ha : IsReal a) {ws : (⟨S50000, .f32⟩ : BufTy).Contents (Elt Ideal)} (hws : IsReal ws) :
    IsReal (pre128 h a ws) := by
  unfold pre128
  exact ha.addf (hh.mulf ((hws.broadcastInDim _ _).broadcastInDim _ _))

theorem real_relu128 {z : (⟨S50000x128, .f32⟩ : BufTy).Contents (Elt Ideal)} (hz : IsReal z) : IsReal (relu128 z) := by
  unfold relu128
  exact hz.maximumf (isNonneg_zeros _).isReal

theorem real_mean128 {y : (⟨S50000x128, .f32⟩ : BufTy).Contents (Elt Ideal)} (hy : IsReal y) : IsReal (mean128 y) := by
  unfold mean128
  exact (hy.reduceAdd isNonneg_zero.isReal _ _).divf_pos (isPos_50000 _)

theorem real_cent128 {y : (⟨S50000x128, .f32⟩ : BufTy).Contents (Elt Ideal)} (hy : IsReal y) {mu : (⟨S128, .f32⟩ : BufTy).Contents (Elt Ideal)} (hmu : IsReal mu) : IsReal (cent128 y mu) := by
  unfold cent128
  exact hy.subf ((hmu.broadcastInDim _ _).broadcastInDim _ _)

theorem nonneg_var128 {y : (⟨S50000x128, .f32⟩ : BufTy).Contents (Elt Ideal)} (hy : IsReal y) {mu : (⟨S128, .f32⟩ : BufTy).Contents (Elt Ideal)} (hmu : IsReal mu) : IsNonneg (var128 y mu) := by
  unfold var128
  exact ((isNonneg_mulf_self (real_cent128 hy hmu)).reduceAdd isNonneg_zero _ _).divf_pos (isPos_50000 _)

theorem real_bn128 {y : (⟨S50000x128, .f32⟩ : BufTy).Contents (Elt Ideal)} (hy : IsReal y) {mu v g beta : (⟨S128, .f32⟩ : BufTy).Contents (Elt Ideal)} (hmu : IsReal mu) (hv : IsNonneg v)
    (hg : IsReal g) (hbeta : IsReal beta) : IsReal (bn128 y mu v g beta) := by
  unfold bn128
  exact ((((hg.broadcastInDim _ _).broadcastInDim _ _).mulf (real_cent128 hy hmu)).mulf
    (((hv.addf_pos (isPos_eps _)).rsqrt.isReal.broadcastInDim _ _).broadcastInDim _ _)).addf
    ((hbeta.broadcastInDim _ _).broadcastInDim _ _)

theorem real_agg64 {h : (⟨S50000x64, .f32⟩ : BufTy).Contents (Elt Ideal)} (hh : IsReal h) (s d : (⟨S800000, .i32⟩ : BufTy).Contents (Elt Ideal)) {w : (⟨S800000, .f32⟩ : BufTy).Contents (Elt Ideal)} (hw : IsReal w) :
    IsReal (agg64 h s d w) := by
  unfold agg64
  exact IsReal.scatterAdd _ (isNonneg_zeros _).isReal _ ((hh.gather _ _).mulf ((hw.broadcastInDim _ _).broadcastInDim _ _))

theorem real_pre64 {h a : (⟨S50000x64, .f32⟩ : BufTy).Contents (Elt Ideal)} (hh : IsReal h) (ha : IsReal a) {ws : (⟨S50000, .f32⟩ : BufTy).Contents (Elt Ideal)} (hws : IsReal ws) :
    IsReal (pre64 h a ws) := by
  unfold pre64
  exact ha.addf (hh.mulf ((hws.broadcastInDim _ _).broadcastInDim _ _))

theorem real_relu64 {z : (⟨S50000x64, .f32⟩ : BufTy).Contents (Elt Ideal)} (hz : IsReal z) : IsReal (relu64 z) := by
  unfold relu64
  exact hz.maximumf (isNonneg_zeros _).isReal

theorem real_mean64 {y : (⟨S50000x64, .f32⟩ : BufTy).Contents (Elt Ideal)} (hy : IsReal y) : IsReal (mean64 y) := by
  unfold mean64
  exact (hy.reduceAdd isNonneg_zero.isReal _ _).divf_pos (isPos_50000 _)

theorem real_cent64 {y : (⟨S50000x64, .f32⟩ : BufTy).Contents (Elt Ideal)} (hy : IsReal y) {mu : (⟨S64, .f32⟩ : BufTy).Contents (Elt Ideal)} (hmu : IsReal mu) : IsReal (cent64 y mu) := by
  unfold cent64
  exact hy.subf ((hmu.broadcastInDim _ _).broadcastInDim _ _)

theorem nonneg_var64 {y : (⟨S50000x64, .f32⟩ : BufTy).Contents (Elt Ideal)} (hy : IsReal y) {mu : (⟨S64, .f32⟩ : BufTy).Contents (Elt Ideal)} (hmu : IsReal mu) : IsNonneg (var64 y mu) := by
  unfold var64
  exact ((isNonneg_mulf_self (real_cent64 hy hmu)).reduceAdd isNonneg_zero _ _).divf_pos (isPos_50000 _)

theorem real_bn64 {y : (⟨S50000x64, .f32⟩ : BufTy).Contents (Elt Ideal)} (hy : IsReal y) {mu v g beta : (⟨S64, .f32⟩ : BufTy).Contents (Elt Ideal)} (hmu : IsReal mu) (hv : IsNonneg v)
    (hg : IsReal g) (hbeta : IsReal beta) : IsReal (bn64 y mu v g beta) := by
  unfold bn64
  exact ((((hg.broadcastInDim _ _).broadcastInDim _ _).mulf (real_cent64 hy hmu)).mulf
    (((hv.addf_pos (isPos_eps _)).rsqrt.isReal.broadcastInDim _ _).broadcastInDim _ _)).addf
    ((hbeta.broadcastInDim _ _).broadcastInDim _ _)

theorem real_agg256 {h : (⟨S50000x256, .f32⟩ : BufTy).Contents (Elt Ideal)} (hh : IsReal h) (s d : (⟨S800000, .i32⟩ : BufTy).Contents (Elt Ideal)) {w : (⟨S800000, .f32⟩ : BufTy).Contents (Elt Ideal)} (hw : IsReal w) :
    IsReal (agg256 h s d w) := by
  unfold agg256
  exact IsReal.scatterAdd _ (isNonneg_zeros _).isReal _ ((hh.gather _ _).mulf ((hw.broadcastInDim _ _).broadcastInDim _ _))

theorem real_pre256 {h a : (⟨S50000x256, .f32⟩ : BufTy).Contents (Elt Ideal)} (hh : IsReal h) (ha : IsReal a) {ws : (⟨S50000, .f32⟩ : BufTy).Contents (Elt Ideal)} (hws : IsReal ws) :
    IsReal (pre256 h a ws) := by
  unfold pre256
  exact ha.addf (hh.mulf ((hws.broadcastInDim _ _).broadcastInDim _ _))

theorem real_relu256 {z : (⟨S50000x256, .f32⟩ : BufTy).Contents (Elt Ideal)} (hz : IsReal z) : IsReal (relu256 z) := by
  unfold relu256
  exact hz.maximumf (isNonneg_zeros _).isReal

theorem real_mean256 {y : (⟨S50000x256, .f32⟩ : BufTy).Contents (Elt Ideal)} (hy : IsReal y) : IsReal (mean256 y) := by
  unfold mean256
  exact (hy.reduceAdd isNonneg_zero.isReal _ _).divf_pos (isPos_50000 _)

theorem real_cent256 {y : (⟨S50000x256, .f32⟩ : BufTy).Contents (Elt Ideal)} (hy : IsReal y) {mu : (⟨S256, .f32⟩ : BufTy).Contents (Elt Ideal)} (hmu : IsReal mu) : IsReal (cent256 y mu) := by
  unfold cent256
  exact hy.subf ((hmu.broadcastInDim _ _).broadcastInDim _ _)

theorem nonneg_var256 {y : (⟨S50000x256, .f32⟩ : BufTy).Contents (Elt Ideal)} (hy : IsReal y) {mu : (⟨S256, .f32⟩ : BufTy).Contents (Elt Ideal)} (hmu : IsReal mu) : IsNonneg (var256 y mu) := by
  unfold var256
  exact ((isNonneg_mulf_self (real_cent256 hy hmu)).reduceAdd isNonneg_zero _ _).divf_pos (isPos_50000 _)

theorem real_bn256 {y : (⟨S50000x256, .f32⟩ : BufTy).Contents (Elt Ideal)} (hy : IsReal y) {mu v g beta : (⟨S256, .f32⟩ : BufTy).Contents (Elt Ideal)} (hmu : IsReal mu) (hv : IsNonneg v)
    (hg : IsReal g) (hbeta : IsReal beta) : IsReal (bn256 y mu v g beta) := by
  unfold bn256
  exact ((((hg.broadcastInDim _ _).broadcastInDim _ _).mulf (real_cent256 hy hmu)).mulf
    (((hv.addf_pos (isPos_eps _)).rsqrt.isReal.broadcastInDim _ _).broadcastInDim _ _)).addf
    ((hbeta.broadcastInDim _ _).broadcastInDim _ _)

/-! ## The network -/

/-- The seventeen float argument arrays hold real numbers (the edge array is unconstrained). -/
structure RealArgs (a : Args Ideal) : Prop where
  x : IsReal a.x
  We1 : IsReal a.We1
  be1 : IsReal a.be1
  g1 : IsReal a.g1
  bb1 : IsReal a.bb1
  We2 : IsReal a.We2
  be2 : IsReal a.be2
  g2 : IsReal a.g2
  bb2 : IsReal a.bb2
  Wd1 : IsReal a.Wd1
  bd1 : IsReal a.bd1
  g3 : IsReal a.g3
  bb3 : IsReal a.bb3
  Wd2 : IsReal a.Wd2
  bd2 : IsReal a.bd2
  g4 : IsReal a.g4
  bb4 : IsReal a.bb4

variable {a : Args Ideal}

theorem real_H1 (h : RealArgs a) : IsReal (H1 a) := by
  unfold H1; exact real_h1 h.x h.We1 h.be1
theorem real_A1 (h : RealArgs a) : IsReal (A1 a) := by
  unfold A1; exact real_agg128 (real_H1 h) _ _ (dsd_pos a.e).isReal
theorem real_Y1 (h : RealArgs a) : IsReal (Y1 a) := by
  unfold Y1; exact real_relu128 (real_pre128 (real_H1 h) (real_A1 h) (dself_pos a.e).isReal)
theorem real_M1 (h : RealArgs a) : IsReal (M1 a) := by
  unfold M1; exact real_mean128 (real_Y1 h)
theorem nonneg_V1 (h : RealArgs a) : IsNonneg (V1 a) := by
  unfold V1; exact nonneg_var128 (real_Y1 h) (real_M1 h)
theorem real_O1 (h : RealArgs a) : IsReal (O1 a) := by
  unfold O1; exact real_relu128 (real_bn128 (real_Y1 h) (real_M1 h) (nonneg_V1 h) h.g1 h.bb1)

theorem real_H2 (h : RealArgs a) : IsReal (H2 a) := by
  unfold H2; exact real_h2 (real_O1 h) h.We2 h.be2
theorem real_A2 (h : RealArgs a) : IsReal (A2 a) := by
  unfold A2; exact real_agg64 (real_H2 h) _ _ (dsd_pos a.e).isReal
theorem real_Y2 (h : RealArgs a) : IsReal (Y2 a) := by
  unfold Y2; exact real_relu64 (real_pre64 (real_H2 h) (real_A2 h) (dself_pos a.e).isReal)
theorem real_M2 (h : RealArgs a) : IsReal (M2 a) := by
  unfold M2; exact real_mean64 (real_Y2 h)
theorem nonneg_V2 (h : RealArgs a) : IsNonneg (V2 a) := by
  unfold V2; exact nonneg_var64 (real_Y2 h) (real_M2 h)
theorem real_O2 (h : RealArgs a) : IsReal (O2 a) := by
  unfold O2; exact real_bn64 (real_Y2 h) (real_M2 h) (nonneg_V2 h) h.g2 h.bb2

theorem real_H3 (h : RealArgs a) : IsReal (H3 a) := by
  unfold H3; exact real_h3 (real_O2 h) h.Wd1 h.bd1
theorem real_A3 (h : RealArgs a) : IsReal (A3 a) := by
  unfold A3; exact real_agg128 (real_H3 h) _ _ (dsd_pos a.e).isReal
theorem real_Y3 (h : RealArgs a) : IsReal (Y3 a) := by
  unfold Y3; exact real_relu128 (real_pre128 (real_H3 h) (real_A3 h) (dself_pos a.e).isReal)
theorem real_M3 (h : RealArgs a) : IsReal (M3 a) := by
  unfold M3; exact real_mean128 (real_Y3 h)
theorem nonneg_V3 (h : RealArgs a) : IsNonneg (V3 a) := by
  unfold V3; exact nonneg_var128 (real_Y3 h) (real_M3 h)
theorem real_O3 (h : RealArgs a) : IsReal (O3 a) := by
  unfold O3; exact real_relu128 (real_bn128 (real_Y3 h) (real_M3 h) (nonneg_V3 h) h.g3 h.bb3)

theorem real_H4 (h : RealArgs a) : IsReal (H4 a) := by
  unfold H4; exact real_h4 (real_O3 h) h.Wd2 h.bd2
theorem real_A4 (h : RealArgs a) : IsReal (A4 a) := by
  unfold A4; exact real_agg256 (real_H4 h) _ _ (dsd_pos a.e).isReal
theorem real_Y4 (h : RealArgs a) : IsReal (Y4 a) := by
  unfold Y4; exact real_relu256 (real_pre256 (real_H4 h) (real_A4 h) (dself_pos a.e).isReal)
theorem real_M4 (h : RealArgs a) : IsReal (M4 a) := by
  unfold M4; exact real_mean256 (real_Y4 h)
theorem nonneg_V4 (h : RealArgs a) : IsNonneg (V4 a) := by
  unfold V4; exact nonneg_var256 (real_Y4 h) (real_M4 h)
theorem real_O4 (h : RealArgs a) : IsReal (O4 a) := by
  unfold O4; exact real_bn256 (real_Y4 h) (real_M4 h) (nonneg_V4 h) h.g4 h.bb4

/-! ## The two variance formulas -/

/-- For real numbers `l n` and `c` the real number `N > 0`: the mean of squares minus the squared mean, cut off
    below at zero, is the mean of the squared deviations from the mean — in the extended reals' own division. -/
theorem var_law {N : ℕ} (l : Fin N → EReal) (lr : Fin N → ℝ) (hl : ∀ n, l n = (lr n : EReal))
    (c : EReal) (Nr : ℝ) (hc : c = (Nr : EReal)) (hNr : Nr = (N : ℝ)) (hpos : 0 < Nr) :
    max (Ideal.div (∑ n, l n * l n) c - Ideal.div (∑ n, l n) c * Ideal.div (∑ n, l n) c) 0
      = Ideal.div (0 + ∑ n, (l n - Ideal.div (0 + ∑ n, l n) c) * (l n - Ideal.div (0 + ∑ n, l n) c)) c := by
  have hS : ∑ n, l n = ((∑ n, lr n : ℝ) : EReal) := Cert.LibEReal.sum_coe_eq_coe _ l lr fun n _ => hl n
  have hQ : ∑ n, l n * l n = ((∑ n, lr n * lr n : ℝ) : EReal) :=
    Cert.LibEReal.sum_coe_eq_coe _ _ _ fun n _ => by rw [hl, ← EReal.coe_mul]
  rw [zero_add, zero_add, hS, hQ, hc, Cert.LibERealOps.div_coe_coe _ _ hpos.ne', Cert.LibERealOps.div_coe_coe _ _ hpos.ne']
  have hD : ∑ n, (l n - (((∑ n, lr n) / Nr : ℝ) : EReal)) * (l n - (((∑ n, lr n) / Nr : ℝ) : EReal))
      = ((∑ n, (lr n - (∑ n, lr n) / Nr) * (lr n - (∑ n, lr n) / Nr) : ℝ) : EReal) :=
    Cert.LibEReal.sum_coe_eq_coe _ _ _ fun n _ => by rw [hl, ← EReal.coe_sub, ← EReal.coe_mul]
  rw [hD, Cert.LibERealOps.div_coe_coe _ _ hpos.ne', ← EReal.coe_mul, ← EReal.coe_sub,
    show (0 : EReal) = ((0 : ℝ) : EReal) from rfl, Cert.LibERealOps.max_coe, Cert.LibStats.var_one_pass lr Nr hNr hpos]

end Cert.Spec

end
-- ==== Proof.SpecFinite.lean ====
import proofs.«165059_j7095285973648_2_alg».proof.Proof.SpecLaws
import proofs.«165059_j7095285973648_2_alg».proof.Pre_finite_inputs
import proofs.«165059_j7095285973648_2_alg».proof.Proof.Gen.Pre_finite_inputs
import Idealize.ShloMosaic.Lib.ReduceAll

/-! # The precondition says the float arguments are real

The precondition is the conjunction, over the seventeen float argument arrays, of "every entry has absolute value
below +∞". An extended real with `max x (-x) < ⊤` is neither `⊤` nor `⊥`, so it is a real number. -/

noncomputable section

namespace Cert.Spec

open Idealize.ShloMosaic Idealize.ShloMosaic.ValueIdx

instance : Subsingleton (⟨0, ![]⟩ : Shape).Idx := ⟨fun a b => funext fun d => d.elim0⟩

/-- An extended real whose absolute value is below the word of +∞ is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- "All entries have absolute value below +∞" says every entry is real. -/
theorem isReal_of_all {S : Shape} {axes : List (Fin S.rank)} (x : FVec Ideal S .f32)
    (hb : (⟨0, ![]⟩ : Shape).BroadcastsInDim S ![]) (h : S.ReducesTo axes ⟨0, ![]⟩) (hu : 0 < (⟨0, ![]⟩ : Shape).numel)
    (e : Host.reduce IntOp.andi (cmpf .olt (Host.absf x) (broadcastInDim S ![] hb (constant ⟨0, ![]⟩ .f32 0x7F800000#32)))
        (constantI ⟨0, ![]⟩ 1 1#1) h hu ix0 = 1#1) : IsReal x := fun i =>
  real_of_abs_lt (x i) (Host.reduce_andi_all _ _ h hu ix0 e i)

/-- The precondition, read back: the seventeen float argument arrays hold real numbers. -/
theorem realArgs_of_pre (a : Args Ideal)
    (h : Cert.Pre_finite_inputs.fn (F := Ideal) a.x a.e a.We1 a.be1 a.g1 a.bb1 a.We2 a.be2 a.g2 a.bb2 a.Wd1 a.bd1 a.g3 a.bb3 a.Wd2 a.bd2 a.g4 a.bb4 = fun _ => 1#1) :
    RealArgs a := by
  have h0 := congrFun h ix0
  dsimp only [Cert.Pre_finite_inputs.fn, Cert.Pre_finite_inputs.fn_part1, Cert.Pre_finite_inputs.fn_part2,
    Cert.Pre_finite_inputs.fn_part3, Cert.Pre_finite_inputs.fn_part4] at h0
  simp only [andi, IntOp.andi_eq_one] at h0
  obtain ⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩ := h0
  exact ⟨isReal_of_all _ _ _ _ h0, isReal_of_all _ _ _ _ h1, isReal_of_all _ _ _ _ h2, isReal_of_all _ _ _ _ h3, isReal_of_all _ _ _ _ h4, isReal_of_all _ _ _ _ h5, isReal_of_all _ _ _ _ h6, isReal_of_all _ _ _ _ h7, isReal_of_all _ _ _ _ h8, isReal_of_all _ _ _ _ h9, isReal_of_all _ _ _ _ h10, isReal_of_all _ _ _ _ h11, isReal_of_all _ _ _ _ h12, isReal_of_all _ _ _ _ h13, isReal_of_all _ _ _ _ h14, isReal_of_all _ _ _ _ h15, isReal_of_all _ _ _ _ h16⟩

end Cert.Spec

end
-- ==== Proof.KArgs.lean ====
import proofs.«165059_j7095285973648_2_alg».proof.Defs
import proofs.«165059_j7095285973648_2_alg».proof.Proof.Gen.KernelIdeal
import proofs.«165059_j7095285973648_2_alg».proof.Proof.Gen.Pre_finite_inputs
import proofs.«165059_j7095285973648_2_alg».proof.Proof.RefRun
import proofs.«165059_j7095285973648_2_alg».proof.Proof.SpecFinite

/-! # The kernel program's argument arrays

The eighteen argument arrays of the kernel program as the network's arguments; under the precondition the
seventeen float arrays hold real numbers; and two memories that agree on the arguments give the two programs
the same arguments. -/

noncomputable section

namespace Cert.KernelIdeal.Gen

open Idealize.ShloMosaic Idealize.SL.Sem

variable {F : FTy → Type} [FloatOps F]

/-- The argument arrays of device `c` in the launch memory `m` of the kernel program. -/
abbrev kargs (m : (ℓ : Loc Cert.KernelIdeal.nD Cert.KernelIdeal.τ Cert.KernelIdeal.sig) → Buf (Elt F) ℓ)
    (c : Dev Cert.KernelIdeal.nD) : Cert.Spec.Args F :=
  ⟨m ((c.tc : Thread Cert.KernelIdeal.nD Cert.KernelIdeal.τ).loc Cert.KernelIdeal.main_arg0),
    m ((c.tc : Thread Cert.KernelIdeal.nD Cert.KernelIdeal.τ).loc Cert.KernelIdeal.main_arg1),
    m ((c.tc : Thread Cert.KernelIdeal.nD Cert.KernelIdeal.τ).loc Cert.KernelIdeal.main_arg2),
    m ((c.tc : Thread Cert.KernelIdeal.nD Cert.KernelIdeal.τ).loc Cert.KernelIdeal.main_arg3),
    m ((c.tc : Thread Cert.KernelIdeal.nD Cert.KernelIdeal.τ).loc Cert.KernelIdeal.main_arg4),
    m ((c.tc : Thread Cert.KernelIdeal.nD Cert.KernelIdeal.τ).loc Cert.KernelIdeal.main_arg5),
    m ((c.tc : Thread Cert.KernelIdeal.nD Cert.KernelIdeal.τ).loc Cert.KernelIdeal.main_arg6),
    m ((c.tc : Thread Cert.KernelIdeal.nD Cert.KernelIdeal.τ).loc Cert.KernelIdeal.main_arg7),
    m ((c.tc : Thread Cert.KernelIdeal.nD Cert.KernelIdeal.τ).loc Cert.KernelIdeal.main_arg8),
    m ((c.tc : Thread Cert.KernelIdeal.nD Cert.KernelIdeal.τ).loc Cert.KernelIdeal.main_arg9),
    m ((c.tc : Thread Cert.KernelIdeal.nD Cert.KernelIdeal.τ).loc Cert.KernelIdeal.main_arg10),
    m ((c.tc : Thread Cert.KernelIdeal.nD Cert.KernelIdeal.τ).loc Cert.KernelIdeal.main_arg11),
    m ((c.tc : Thread Cert.KernelIdeal.nD Cert.KernelIdeal.τ).loc Cert.KernelIdeal.main_arg12),
    m ((c.tc : Thread Cert.KernelIdeal.nD Cert.KernelIdeal.τ).loc Cert.KernelIdeal.main_arg13),
    m ((c.tc : Thread Cert.KernelIdeal.nD Cert.KernelIdeal.τ).loc Cert.KernelIdeal.main_arg14),
    m ((c.tc : Thread Cert.KernelIdeal.nD Cert.KernelIdeal.τ).loc Cert.KernelIdeal.main_arg15),
    m ((c.tc : Thread Cert.KernelIdeal.nD Cert.KernelIdeal.τ).loc Cert.KernelIdeal.main_arg16),
    m ((c.tc : Thread Cert.KernelIdeal.nD Cert.KernelIdeal.τ).loc Cert.KernelIdeal.main_arg17)⟩

/-- Under the precondition the float argument arrays hold real numbers. -/
theorem realKArgs (m : (ℓ : Loc Cert.KernelIdeal.nD Cert.KernelIdeal.τ Cert.KernelIdeal.sig) → Buf (Elt Ideal) ℓ)
    (hpre : Cert.Pre_KernelIdeal m) (c : Dev Cert.KernelIdeal.nD) : Cert.Spec.RealArgs (kargs m c) :=
  Cert.Spec.realArgs_of_pre (kargs m c) (hpre c)

/-- Memories that agree on the arguments give the reference and the kernel program the same arguments. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Cert.ReferenceIdeal.RefRun.args m' c = kargs m c := by
  obtain ⟨h0, h1, h2, h3, h4, h5, h6, h7, h8, h9, h10, h11, h12, h13, h14, h15, h16, h17⟩ := h
  simp only [Cert.ReferenceIdeal.RefRun.args, kargs, h0, h1, h2, h3, h4, h5, h6, h7, h8, h9, h10, h11, h12, h13, h14, h15, h16, h17]

end Cert.KernelIdeal.Gen

end
-- ==== Proof.LinValue0.lean ====
import proofs.«165059_j7095285973648_2_alg».proof.Proof.Lin0
import proofs.«165059_j7095285973648_2_alg».proof.Proof.Spec
import proofs.«165059_j7095285973648_2_alg».proof.Proof.LibHostApply
import Idealize.ShloMosaic.Lib.Pipeline.Value
import Idealize.ShloMosaic.Lib.ValueIdx
import Idealize.ShloMosaic.PureOps.Ideal.Laws

/-! # The dense layer of region 0, read as one array: `x · W + b` over all 50000 rows

The region computes the layer one block of 2000 rows at a time: at grid point `t` it multiplies rows
`2000·t … 2000·t + 1999` of `x` (256 columns) by the whole `W` (256 × 128), adds the bias row, and writes the
result over the same rows of the output. Entry `(r, j)` of `x · W + b` depends on row `r` of `x`, column `j` of
`W` and entry `j` of `b` only, so the block a point writes is exactly the rows `2000·t …` of the whole
`x · W + b`; the 25 blocks tile the 50000 rows (row `r` lies in block `r / 2000`), so after the region the
output array is `x · W + b`. At the exact values the change of float format before the product is the identity
and the product into a zero accumulator is the plain sum over the 256 contracted coordinates, which is also what
the host's product is; no algebraic law beyond that is used, and no finiteness. -/

set_option maxRecDepth 16384

noncomputable section

namespace Cert.KernelIdeal.Gen

open Idealize.ShloMosaic Idealize.ShloMosaic.TcCoe Idealize.ShloMosaic.ValueIdx
open Idealize.ShloMosaic.Pipeline (Dat Cfg Window)

/-- The origin of a rank-2 block, as the function that is `0` on both axes. -/
theorem lin0_origin : (![0, 0] : Fin 2 → Nat) = fun _ => 0 := funext fun a => by fin_cases a <;> rfl

/-- At the exact values a block product accumulated into zero is the host's product of the same two operands:
    each is the plain sum, over the contracted coordinate, of the products of the entries. -/
theorem matmul_zero_eq_dotGeneral {sl sr so : Shape} {φ₁ φ₂ : FTy} (d : DotDims sl sr so) (prec : Option ContractPrecision)
    (l : FVec Ideal sl φ₁) (r : FVec Ideal sr φ₂) (j : so.Idx) :
    matmul d prec l r (constant so .f32 0x00000000#32) j = Host.dotGeneral d prec l r j :=
  (Ideal.matmul_constant_zero_apply d prec l r j).trans (Ideal.dotGeneral_apply d prec .single l r j).symm

/-- The body's value at row `p`, column `q` of a block: row `p` of the block of `x` against column `q` of `W`,
    plus entry `q` of the bias row. -/
theorem lin0_pay_apply (x0 : Vec Ideal S2000x256 .f32) (x1 : Vec Ideal S256x128 .f32) (x2 : Vec Ideal S1x128 .f32)
    (p : Fin 2000) (q : Fin 128) :
    k0_pay1 x0 x1 x2 (ix2 p q) = (∑ k : Fin 256, x0 (ix2 p k) * x1 (ix2 k q)) + x2 (ix2 (0 : Fin 1) q) := by
  unfold k0_pay1
  refine (addf_apply _ _ (ix2 p q)).trans ?_
  refine congrArg₂ (· + ·) ?_ ?_
  · refine (matmul_zero_eq_dotGeneral _ _ _ _ (ix2 p q)).trans ?_
    exact Cert.LibHostApply.dotGeneral_mm_apply dot_S2000x256_S256x128_S2000x128_1_0_0_1_n_n_wf none x0 x1 p q
  · refine (broadcastTo_apply _ broadcasts_S1x128_S2000x128 (ix2 p q) (ix2 (0 : Fin 1) q) (fun a => ?_)).trans ?_
    · match a with
      | ⟨0, _⟩ => exact (if_pos rfl).symm
      | ⟨1, _⟩ => rfl
    · rw [shapeCast_self]

/-- The whole layer at row `r`, column `j`: row `r` of `x` against column `j` of `W`, plus entry `j` of `b`. -/
theorem lin0_spec_apply (x : (⟨Cert.Spec.S50000x256, .f32⟩ : BufTy).Contents (Elt Ideal)) (Wt : (⟨Cert.Spec.S256x128, .f32⟩ : BufTy).Contents (Elt Ideal))
    (b : (⟨Cert.Spec.S128, .f32⟩ : BufTy).Contents (Elt Ideal)) (r : Fin 50000) (j : Fin 128) :
    Cert.Spec.h1 x Wt b (ix2 r j) = (∑ k : Fin 256, x (ix2 r k) * Wt (ix2 k j)) + b (ix1 j) := by
  unfold Cert.Spec.h1
  refine (addf_apply _ _ (ix2 r j)).trans ?_
  refine congrArg₂ (· + ·) ?_ ?_
  · exact Cert.LibHostApply.dotGeneral_mm_apply Cert.Spec.dot_S50000x256_S256x128_S50000x128_1_0_0_1_n_n_wf none x Wt r j
  · refine (Cert.LibHostApply.broadcastInDim_rows_apply _ Cert.Spec.bcast_S1x128_S50000x128_0_1 r j).trans ?_
    exact Cert.LibHostApply.broadcastInDim_row_apply b Cert.Spec.bcast_S128_S1x128_1 j

/-- A block's value against the whole layer. If `x0` holds, at row `y 0`, the row `i 0` of `x`; `x1` holds `W`;
    `x2` holds `b` as a row; and `i` has the column of `y`; then the body's value at `y` is the layer at `i`. -/
theorem lin0_block_eq (x0 : Vec Ideal S2000x256 .f32) (x1 : Vec Ideal S256x128 .f32) (x2 : Vec Ideal S1x128 .f32)
    (x : (⟨Cert.Spec.S50000x256, .f32⟩ : BufTy).Contents (Elt Ideal)) (Wt : (⟨Cert.Spec.S256x128, .f32⟩ : BufTy).Contents (Elt Ideal))
    (b : (⟨Cert.Spec.S128, .f32⟩ : BufTy).Contents (Elt Ideal)) (y : S2000x128.Idx) (i : Cert.Spec.S50000x128.Idx)
    (hi1 : (i 1).val = (y 1).val)
    (h0 : ∀ k : Fin 256, x0 (ix2 (y 0) k) = x (ix2 (i 0) k))
    (h1 : ∀ k : Fin 256, x1 (ix2 k (y 1)) = Wt (ix2 k (y 1)))
    (h2 : x2 (ix2 (0 : Fin 1) (y 1)) = b (ix1 (y 1))) :
    k0_pay1 x0 x1 x2 y = Cert.Spec.h1 x Wt b i := by
  have hi : i = ix2 (i 0) (y 1) := by
    funext a; apply Fin.ext
    match a with
    | ⟨0, _⟩ => rfl
    | ⟨1, _⟩ => exact hi1
  calc k0_pay1 x0 x1 x2 y = k0_pay1 x0 x1 x2 (ix2 (y 0) (y 1)) := congrArg _ (eq_ix2 y)
    _ = (∑ k : Fin 256, x0 (ix2 (y 0) k) * x1 (ix2 k (y 1))) + x2 (ix2 (0 : Fin 1) (y 1)) := lin0_pay_apply x0 x1 x2 (y 0) (y 1)
    _ = (∑ k : Fin 256, x (ix2 (i 0) k) * Wt (ix2 k (y 1))) + b (ix1 (y 1)) :=
        congrArg₂ (· + ·) (Finset.sum_congr rfl fun k _ => congrArg₂ (· * ·) (h0 k) (h1 k)) h2
    _ = Cert.Spec.h1 x Wt b (ix2 (i 0) (y 1)) := (lin0_spec_apply x Wt b (i 0) (y 1)).symm
    _ = Cert.Spec.h1 x Wt b i := congrArg _ hi.symm

/-- The block indices over the grid: at point `t` the windows of `x` and of the output are at block row `t`,
    block column 0; `W` and the bias row are always at block (0, 0). -/
theorem lin0_block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- What point `t` writes back is block `t` of the whole layer of the arrays as the region finds them, the bias
    array being the vector `b` laid out as one row. -/
theorem lin0_flushed_eq (c : Dev nD) (b : (⟨Cert.Spec.S128, .f32⟩ : BufTy).Contents (Elt Ideal))
    (hb : V c main_v33 = shapeCast S1x128 b shapeCasts_S128_S1x128) (t : Fin cfg0.N) :
    (dat0 V c).flushed 3 t = ((cfg0.win 3).blk t).view.read (Elt Ideal) (Cert.Spec.h1 (V c main_arg0) (V c main_arg2) b) := by
  show (cfg0.win 3).cut (grid0.coords t) ((dat0 V c).after 3 t) = _
  rw [after0_3]
  unfold out0
  rw [View.canon_unit_zero lin0_origin]
  simp only [View.ld_unit_zero (S := S2000x256) lin0_origin, View.ld_unit_zero (S := S256x128) lin0_origin, View.ld_unit_zero (S := S1x128) lin0_origin]
  obtain ⟨e00, e01, e10, e11, e20, e21, e30, e31⟩ := lin0_block_indices t
  funext y
  show k0_pay1 (iblk0 V c 0 t) (iblk0 V c 1 t) (iblk0 V c 2 t) y
    = Cert.Spec.h1 (V c main_arg0) (V c main_arg2) b (((cfg0.win 3).blk t).view.emb y)
  refine lin0_block_eq (iblk0 V c 0 t) (iblk0 V c 1 t) (iblk0 V c 2 t) (V c main_arg0) (V c main_arg2) b y (((cfg0.win 3).blk t).view.emb y) ?_ ?_ ?_ ?_
  · show win0_3.index t (1 : Fin 2) * 128 + 1 * (y 1).val = (y 1).val
    omega
  · intro k
    show V c main_arg0 (((cfg0.win 0).blk t).view.emb (ix2 (y 0) k)) = V c main_arg0 (ix2 ((((cfg0.win 3).blk t).view.emb y) 0) k)
    refine congrArg (V c main_arg0) (funext fun a => Fin.ext ?_)
    match a with
    | ⟨0, _⟩ => show win0_0.index t (0 : Fin 2) * 2000 + 1 * (y 0).val = win0_3.index t (0 : Fin 2) * 2000 + 1 * (y 0).val; omega
    | ⟨1, _⟩ => show win0_0.index t (1 : Fin 2) * 256 + 1 * k.val = k.val; omega
  · intro k
    show V c main_arg2 (((cfg0.win 1).blk t).view.emb (ix2 k (y 1))) = V c main_arg2 (ix2 k (y 1))
    refine congrArg (V c main_arg2) (funext fun a => Fin.ext ?_)
    match a with
    | ⟨0, _⟩ => show win0_1.index t (0 : Fin 2) * 256 + 1 * k.val = k.val; omega
    | ⟨1, _⟩ => show win0_1.index t (1 : Fin 2) * 128 + 1 * (y 1).val = (y 1).val; omega
  · show V c main_v33 (((cfg0.win 2).blk t).view.emb (ix2 (0 : Fin 1) (y 1))) = b (ix1 (y 1))
    have e : ((cfg0.win 2).blk t).view.emb (ix2 (0 : Fin 1) (y 1)) = ix2 (0 : Fin 1) (y 1) := by
      funext a; apply Fin.ext
      match a with
      | ⟨0, _⟩ => show win0_2.index t (0 : Fin 2) * 1 + 1 * 0 = 0; omega
      | ⟨1, _⟩ => show win0_2.index t (1 : Fin 2) * 128 + 1 * (y 1).val = (y 1).val; omega
    rw [e, hb]
    exact Cert.LibHostApply.shapeCast_row_apply b shapeCasts_S128_S1x128 (y 1)

/-- An index of the output array is in point `t`'s block iff each coordinate is in the block's range on its axis. -/
theorem lin0_mem_block (t : Fin cfg0.N) (i : Cert.Spec.S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v34).slice (win0_3.rect t)).set ↔ _
  rw [View.set_slice_whole, Rect.mem_set_unit]
  exact Iff.rfl

/-- The 25 blocks of 2000 rows tile the 50000 rows: row `r` lies in the block of point `r / 2000`. -/
theorem lin0_rows_covered (i : Cert.Spec.S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : (i 0).val / 2000 < cfg0.N := by show (i 0).val / 2000 < 25; omega
  obtain ⟨e00, e01, e10, e11, e20, e21, e30, e31⟩ := lin0_block_indices ⟨(i 0).val / 2000, hN⟩
  refine ⟨⟨(i 0).val / 2000, hN⟩, flush0_3 _, ?_⟩
  rw [lin0_mem_block]
  intro a
  match a with
  | ⟨0, _⟩ =>
    show win0_3.index ⟨(i 0).val / 2000, hN⟩ (0 : Fin 2) * 2000 ≤ (i 0).val ∧ (i 0).val < win0_3.index ⟨(i 0).val / 2000, hN⟩ (0 : Fin 2) * 2000 + 2000
    rw [e30]; show (i 0).val / 2000 * 2000 ≤ (i 0).val ∧ (i 0).val < (i 0).val / 2000 * 2000 + 2000; omega
  | ⟨1, _⟩ =>
    show win0_3.index ⟨(i 0).val / 2000, hN⟩ (1 : Fin 2) * 128 ≤ (i 1).val ∧ (i 1).val < win0_3.index ⟨(i 0).val / 2000, hN⟩ (1 : Fin 2) * 128 + 128
    rw [e31]; omega

/-- After the region the output array is the whole layer `x · W + b` of the arrays as the region finds them. -/
theorem final_lin0 (c : Dev nD) (b : (⟨Cert.Spec.S128, .f32⟩ : BufTy).Contents (Elt Ideal))
    (hb : V c main_v33 = shapeCast S1x128 b shapeCasts_S128_S1x128) :
    (dat0 V c).arrAt 3 cfg0.N = Cert.Spec.h1 (V c main_arg0) (V c main_arg2) b :=
  (dat0 V c).arrAt_eq_of_cover 3 (Cert.Spec.h1 (V c main_arg0) (V c main_arg2) b) (fun t _ => lin0_flushed_eq V c b hb t) lin0_rows_covered

end Cert.KernelIdeal.Gen

end
-- ==== Proof.LinValue3.lean ====
import proofs.«165059_j7095285973648_2_alg».proof.Proof.Lin3
import proofs.«165059_j7095285973648_2_alg».proof.Proof.Spec
import proofs.«165059_j7095285973648_2_alg».proof.Proof.LibHostApply
import proofs.«165059_j7095285973648_2_alg».proof.Proof.LinValue0
import Idealize.ShloMosaic.Lib.Pipeline.Value
import Idealize.ShloMosaic.Lib.ValueIdx
import Idealize.ShloMosaic.PureOps.Ideal.Laws

/-! # The dense layer of region 3, read as one array: `x · W + b` over all 50000 rows

The region computes the layer one block of 2000 rows at a time: at grid point `t` it multiplies rows
`2000·t … 2000·t + 1999` of `x` (128 columns) by the whole `W` (128 × 64), adds the bias row, and writes the
result over the same rows of the output. Entry `(r, j)` of `x · W + b` depends on row `r` of `x`, column `j` of
`W` and entry `j` of `b` only, so the block a point writes is exactly the rows `2000·t …` of the whole
`x · W + b`; the 25 blocks tile the 50000 rows (row `r` lies in block `r / 2000`), so after the region the
output array is `x · W + b`. At the exact values the change of float format before the product is the identity
and the product into a zero accumulator is the plain sum over the 128 contracted coordinates, which is also what
the host's product is; no algebraic law beyond that is used, and no finiteness. -/

set_option maxRecDepth 16384

noncomputable section

namespace Cert.KernelIdeal.Gen

open Idealize.ShloMosaic Idealize.ShloMosaic.TcCoe Idealize.ShloMosaic.ValueIdx
open Idealize.ShloMosaic.Pipeline (Dat Cfg Window)

/-- The origin of a rank-2 block, as the function that is `0` on both axes. -/
theorem lin3_origin : (![0, 0] : Fin 2 → Nat) = fun _ => 0 := funext fun a => by fin_cases a <;> rfl

/-- The body's value at row `p`, column `q` of a block: row `p` of the block of `x` against column `q` of `W`,
    plus entry `q` of the bias row. -/
theorem lin3_pay_apply (x0 : Vec Ideal S2000x128 .f32) (x1 : Vec Ideal S128x64 .f32) (x2 : Vec Ideal S1x64 .f32)
    (p : Fin 2000) (q : Fin 64) :
    k3_pay1 x0 x1 x2 (ix2 p q) = (∑ k : Fin 128, x0 (ix2 p k) * x1 (ix2 k q)) + x2 (ix2 (0 : Fin 1) q) := by
  unfold k3_pay1
  rw [shapeCast_self x0 shapeCasts_S2000x128_S2000x128]
  refine (addf_apply _ _ (ix2 p q)).trans ?_
  refine congrArg₂ (· + ·) ?_ ?_
  · refine (matmul_zero_eq_dotGeneral _ _ _ _ (ix2 p q)).trans ?_
    exact Cert.LibHostApply.dotGeneral_mm_apply dot_S2000x128_S128x64_S2000x64_1_0_0_1_n_n_wf none x0 x1 p q
  · refine (broadcastTo_apply _ broadcasts_S1x64_S2000x64 (ix2 p q) (ix2 (0 : Fin 1) q) (fun a => ?_)).trans ?_
    · match a with
      | ⟨0, _⟩ => exact (if_pos rfl).symm
      | ⟨1, _⟩ => rfl
    · rw [shapeCast_self]

/-- The whole layer at row `r`, column `j`: row `r` of `x` against column `j` of `W`, plus entry `j` of `b`. -/
theorem lin3_spec_apply (x : (⟨Cert.Spec.S50000x128, .f32⟩ : BufTy).Contents (Elt Ideal)) (Wt : (⟨Cert.Spec.S128x64, .f32⟩ : BufTy).Contents (Elt Ideal))
    (b : (⟨Cert.Spec.S64, .f32⟩ : BufTy).Contents (Elt Ideal)) (r : Fin 50000) (j : Fin 64) :
    Cert.Spec.h2 x Wt b (ix2 r j) = (∑ k : Fin 128, x (ix2 r k) * Wt (ix2 k j)) + b (ix1 j) := by
  unfold Cert.Spec.h2
  refine (addf_apply _ _ (ix2 r j)).trans ?_
  refine congrArg₂ (· + ·) ?_ ?_
  · exact Cert.LibHostApply.dotGeneral_mm_apply Cert.Spec.dot_S50000x128_S128x64_S50000x64_1_0_0_1_n_n_wf none x Wt r j
  · refine (Cert.LibHostApply.broadcastInDim_rows_apply _ Cert.Spec.bcast_S1x64_S50000x64_0_1 r j).trans ?_
    exact Cert.LibHostApply.broadcastInDim_row_apply b Cert.Spec.bcast_S64_S1x64_1 j

/-- A block's value against the whole layer. If `x0` holds, at row `y 0`, the row `i 0` of `x`; `x1` holds `W`;
    `x2` holds `b` as a row; and `i` has the column of `y`; then the body's value at `y` is the layer at `i`. -/
theorem lin3_block_eq (x0 : Vec Ideal S2000x128 .f32) (x1 : Vec Ideal S128x64 .f32) (x2 : Vec Ideal S1x64 .f32)
    (x : (⟨Cert.Spec.S50000x128, .f32⟩ : BufTy).Contents (Elt Ideal)) (Wt : (⟨Cert.Spec.S128x64, .f32⟩ : BufTy).Contents (Elt Ideal))
    (b : (⟨Cert.Spec.S64, .f32⟩ : BufTy).Contents (Elt Ideal)) (y : S2000x64.Idx) (i : Cert.Spec.S50000x64.Idx)
    (hi1 : (i 1).val = (y 1).val)
    (h0 : ∀ k : Fin 128, x0 (ix2 (y 0) k) = x (ix2 (i 0) k))
    (h1 : ∀ k : Fin 128, x1 (ix2 k (y 1)) = Wt (ix2 k (y 1)))
    (h2 : x2 (ix2 (0 : Fin 1) (y 1)) = b (ix1 (y 1))) :
    k3_pay1 x0 x1 x2 y = Cert.Spec.h2 x Wt b i := by
  have hi : i = ix2 (i 0) (y 1) := by
    funext a; apply Fin.ext
    match a with
    | ⟨0, _⟩ => rfl
    | ⟨1, _⟩ => exact hi1
  calc k3_pay1 x0 x1 x2 y = k3_pay1 x0 x1 x2 (ix2 (y 0) (y 1)) := congrArg _ (eq_ix2 y)
    _ = (∑ k : Fin 128, x0 (ix2 (y 0) k) * x1 (ix2 k (y 1))) + x2 (ix2 (0 : Fin 1) (y 1)) := lin3_pay_apply x0 x1 x2 (y 0) (y 1)
    _ = (∑ k : Fin 128, x (ix2 (i 0) k) * Wt (ix2 k (y 1))) + b (ix1 (y 1)) :=
        congrArg₂ (· + ·) (Finset.sum_congr rfl fun k _ => congrArg₂ (· * ·) (h0 k) (h1 k)) h2
    _ = Cert.Spec.h2 x Wt b (ix2 (i 0) (y 1)) := (lin3_spec_apply x Wt b (i 0) (y 1)).symm
    _ = Cert.Spec.h2 x Wt b i := congrArg _ hi.symm

/-- The block indices over the grid: at point `t` the windows of `x` and of the output are at block row `t`,
    block column 0; `W` and the bias row are always at block (0, 0). -/
theorem lin3_block_indices : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

variable (V : (c : Dev nD) → (b : Ref sig .tc) → Buf (Elt Ideal) ((c : Thread nD τ).loc b))

/-- What point `t` writes back is block `t` of the whole layer of the arrays as the region finds them, the bias
    array being the vector `b` laid out as one row. -/
theorem lin3_flushed_eq (c : Dev nD) (b : (⟨Cert.Spec.S64, .f32⟩ : BufTy).Contents (Elt Ideal))
    (hb : V c main_v60 = shapeCast S1x64 b shapeCasts_S64_S1x64) (t : Fin cfg3.N) :
    (dat3 V c).flushed 3 t = ((cfg3.win 3).blk t).view.read (Elt Ideal) (Cert.Spec.h2 (V c main_v59) (V c main_arg6) b) := by
  show (cfg3.win 3).cut (grid3.coords t) ((dat3 V c).after 3 t) = _
  rw [after3_3]
  unfold out3
  rw [View.canon_unit_zero lin3_origin]
  simp only [View.ld_unit_zero (S := S2000x128) lin3_origin, View.ld_unit_zero (S := S128x64) lin3_origin, View.ld_unit_zero (S := S1x64) lin3_origin]
  obtain ⟨e00, e01, e10, e11, e20, e21, e30, e31⟩ := lin3_block_indices t
  funext y
  show k3_pay1 (iblk3 V c 0 t) (iblk3 V c 1 t) (iblk3 V c 2 t) y
    = Cert.Spec.h2 (V c main_v59) (V c main_arg6) b (((cfg3.win 3).blk t).view.emb y)
  refine lin3_block_eq (iblk3 V c 0 t) (iblk3 V c 1 t) (iblk3 V c 2 t) (V c main_v59) (V c main_arg6) b y (((cfg3.win 3).blk t).view.emb y) ?_ ?_ ?_ ?_
  · show win3_3.index t (1 : Fin 2) * 64 + 1 * (y 1).val = (y 1).val
    omega
  · intro k
    show V c main_v59 (((cfg3.win 0).blk t).view.emb (ix2 (y 0) k)) = V c main_v59 (ix2 ((((cfg3.win 3).blk t).view.emb y) 0) k)
    refine congrArg (V c main_v59) (funext fun a => Fin.ext ?_)
    match a with
    | ⟨0, _⟩ => show win3_0.index t (0 : Fin 2) * 2000 + 1 * (y 0).val = win3_3.index t (0 : Fin 2) * 2000 + 1 * (y 0).val; omega
    | ⟨1, _⟩ => show win3_0.index t (1 : Fin 2) * 128 + 1 * k.val = k.val; omega
  · intro k
    show V c main_arg6 (((cfg3.win 1).blk t).view.emb (ix2 k (y 1))) = V c main_arg6 (ix2 k (y 1))
    refine congrArg (V c main_arg6) (funext fun a => Fin.ext ?_)
    match a with
    | ⟨0, _⟩ => show win3_1.index t (0 : Fin 2) * 128 + 1 * k.val = k.val; omega
    | ⟨1, _⟩ => show win3_1.index t (1 : Fin 2) * 64 + 1 * (y 1).val = (y 1).val; omega
  · show V c main_v60 (((cfg3.win 2).blk t).view.emb (ix2 (0 : Fin 1) (y 1))) = b (ix1 (y 1))
    have e : ((cfg3.win 2).blk t).view.emb (ix2 (0 : Fin 1) (y 1)) = ix2 (0 : Fin 1) (y 1) := by
      funext a; apply Fin.ext
      match a with
      | ⟨0, _⟩ => show win3_2.index t (0 : Fin 2) * 1 + 1 * 0 = 0; omega
      | ⟨1, _⟩ => show win3_2.index t (1 : Fin 2) * 64 + 1 * (y 1).val = (y 1).val; omega
    rw [e, hb]
    exact Cert.LibHostApply.shapeCast_row_apply b shapeCasts_S64_S1x64 (y 1)

/-- An index of the output array is in point `t`'s block iff each coordinate is in the block's range on its axis. -/
theorem lin3_mem_block (t : Fin cfg3.N) (i : Cert.Spec.S50000x64.Idx) :
    i ∈ ((cfg3.win 3).blk t).view.set ↔ ∀ a : Fin 2, win3_3.index t a * S2000x64.size a ≤ (i a).val ∧ (i a).val < win3_3.index t a * S2000x64.size a + S2000x64.size a := by
  show i ∈ ((View.whole main_v61).slice (win3_3.rect t)).set ↔ _
  rw [View.set_slice_whole, Rect.mem_set_unit]
  exact Iff.rfl

/-- The 25 blocks of 2000 rows tile the 50000 rows: row `r` lies in the block of point `r / 2000`. -/
theorem lin3_rows_covered (i : Cert.Spec.S50000x64.Idx) :
    ∃ t : Fin cfg3.N, (cfg3.win 3).flush t = true ∧ i ∈ ((cfg3.win 3).blk t).view.set := by
  have hi0 : (i 0).val < 50000 := (i 0).isLt
  have hi1 : (i 1).val < 64 := (i 1).isLt
  have hN : (i 0).val / 2000 < cfg3.N := by show (i 0).val / 2000 < 25; omega
  obtain ⟨e00, e01, e10, e11, e20, e21, e30, e31⟩ := lin3_block_indices ⟨(i 0).val / 2000, hN⟩
  refine ⟨⟨(i 0).val / 2000, hN⟩, flush3_3 _, ?_⟩
  rw [lin3_mem_block]
  intro a
  match a with
  | ⟨0, _⟩ =>
    show win3_3.index ⟨(i 0).val / 2000, hN⟩ (0 : Fin 2) * 2000 ≤ (i 0).val ∧ (i 0).val < win3_3.index ⟨(i 0).val / 2000, hN⟩ (0 : Fin 2) * 2000 + 2000
    rw [e30]; show (i 0).val / 2000 * 2000 ≤ (i 0).val ∧ (i 0).val < (i 0).val / 2000 * 2000 + 2000; omega
  | ⟨1, _⟩ =>
    show win3_3.index ⟨(i 0).val / 2000, hN⟩ (1 : Fin 2) * 64 ≤ (i 1).val ∧ (i 1).val < win3_3.index ⟨(i 0).val / 2000, hN⟩ (1 : Fin 2) * 64 + 64
    rw [e31]; omega

/-- After the region the output array is the whole layer `x · W + b` of the arrays as the region finds them. -/
theorem final_lin3 (c : Dev nD) (b : (⟨Cert.Spec.S64, .f32⟩ : BufTy).Contents (Elt Ideal))
    (hb : V c main_v60 = shapeCast S1x64 b shapeCasts_S64_S1x64) :
    (dat3 V c).arrAt 3 cfg3.N = Cert.Spec.h2 (V c main_v59) (V c main_arg6) b :=
  (dat3 V c).arrAt_eq_of_cover 3 (Cert.Spec.h2 (V c main_v59) (V c main_arg6) b) (fun t _ => lin3_flushed_eq V c b hb t) lin3_rows_covered

end Cert.KernelIdeal.Gen

end
-- ==== Proof.LinValue6.lean ====
import proofs.«165059_j7095285973648_2_alg».proof.Proof.Lin6
import proofs.«165059_j7095285973648_2_alg».proof.Proof.Spec
import proofs.«165059_j7095285973648_2_alg».proof.Proof.LibHostApply
import proofs.«165059_j7095285973648_2_alg».proof.Proof.LinValue0
import Idealize.ShloMosaic.Lib.Pipeline.Value
import Idealize.ShloMosaic.Lib.ValueIdx
import Idealize.ShloMosaic.PureOps.Ideal.Laws

/-! # The dense layer of region 6, read as one array: `x · W + b` over all 50000 rows

The region computes the layer one block of 2000 rows at a time: at grid point `t` it multiplies rows
`2000·t … 2000·t + 1999` of `x` (64 columns) by the whole `W` (64 × 128), adds the bias row, and writes the
result over the same rows of the output. Entry `(r, j)` of `x · W + b` depends on row `r` of `x`, column `j` of
`W` and entry `j` of `b` only, so the block a point writes is exactly the rows `2000·t …` of the whole
`x · W + b`; the 25 blocks tile the 50000 rows (row `r` lies in block `r / 2000`), so after the region the
output array is `x · W + b`. At the exact values the change of float format before the product is the identity
and the product into a zero accumulator is the plain sum over the 64 contracted coordinates, which is also what
the host's product is; no algebraic law beyond that is used, and no finiteness. -/

set_option maxRecDepth 16384

noncomputable section

namespace Cert.KernelIdeal.Gen

open Idealize.ShloMosaic Idealize.ShloMosaic.TcCoe Idealize.ShloMosaic.ValueIdx
open Idealize.ShloMosaic.Pipeline (Dat Cfg Window)

/-- The origin of a rank-2 block, as the function that is `0` on both axes. -/
theorem lin6_origin : (![0, 0] : Fin 2 → Nat) = fun _ => 0 := funext fun a => by fin_cases a <;> rfl

/-- The body's value at row `p`, column `q` of a block: row `p` of the block of `x` against column `q` of `W`,
    plus entry `q` of the bias row. -/
theorem lin6_pay_apply (x0 : Vec Ideal S2000x64 .f32) (x1 : Vec Ideal S64x128 .f32) (x2 : Vec Ideal S1x128 .f32)
    (p : Fin 2000) (q : Fin 128) :
    k6_pay1 x0 x1 x2 (ix2 p q) = (∑ k : Fin 64, x0 (ix2 p k) * x1 (ix2 k q)) + x2 (ix2 (0 : Fin 1) q) := by
  unfold k6_pay1
  rw [shapeCast_self x0 shapeCasts_S2000x64_S2000x64]
  refine (addf_apply _ _ (ix2 p q)).trans ?_
  refine congrArg₂ (· + ·) ?_ ?_
  · refine (matmul_zero_eq_dotGeneral _ _ _ _ (ix2 p q)).trans ?_
    exact Cert.LibHostApply.dotGeneral_mm_apply dot_S2000x64_S64x128_S2000x128_1_0_0_1_n_n_wf none x0 x1 p q
  · refine (broadcastTo_apply _ broadcasts_S1x128_S2000x128 (ix2 p q) (ix2 (0 : Fin 1) q) (fun a => ?_)).trans ?_
    · match a with
      | ⟨0, _⟩ => exact (if_pos rfl).symm
      | ⟨1, _⟩ => rfl
    · rw [shapeCast_self]

/-- The whole layer at row `r`, column `j`: row `r` of `x` against column `j` of `W`, plus entry `j` of `b`. -/
theorem lin6_spec_apply (x : (⟨Cert.Spec.S50000x64, .f32⟩ : BufTy).Contents (Elt Ideal)) (Wt : (⟨Cert.Spec.S64x128, .f32⟩ : BufTy).Contents (Elt Ideal))
    (b : (⟨Cert.Spec.S128, .f32⟩ : BufTy).Contents (Elt Ideal)) (r : Fin 50000) (j : Fin 128) :
    Cert.Spec.h3 x Wt b (ix2 r j) = (∑ k : Fin 64, x (ix2 r k) * Wt (ix2 k j)) + b (ix1 j) := by
  unfold Cert.Spec.h3
  refine (addf_apply _ _ (ix2 r j)).trans ?_
  refine congrArg₂ (· + ·) ?_ ?_
  · exact Cert.LibHostApply.dotGeneral_mm_apply Cert.Spec.dot_S50000x64_S64x128_S50000x128_1_0_0_1_n_n_wf none x Wt r j
  · refine (Cert.LibHostApply.broadcastInDim_rows_apply _ Cert.Spec.bcast_S1x128_S50000x128_0_1 r j).trans ?_
    exact Cert.LibHostApply.broadcastInDim_row_apply b Cert.Spec.bcast_S128_S1x128_1 j

/-- A block's value against the whole layer. If `x0` holds, at row `y 0`, the row `i 0` of `x`; `x1` holds `W`;
    `x2` holds `b` as a row; and `i` has the column of `y`; then the body's value at `y` is the layer at `i`. -/
theorem lin6_block_eq (x0 : Vec Ideal S2000x64 .f32) (x1 : Vec Ideal S64x128 .f32) (x2 : Vec Ideal S1x128 .f32)
    (x : (⟨Cert.Spec.S50000x64, .f32⟩ : BufTy).Contents (Elt Ideal)) (Wt : (⟨Cert.Spec.S64x128, .f32⟩ : BufTy).Contents (Elt Ideal))
    (b : (⟨Cert.Spec.S128, .f32⟩ : BufTy).Contents (Elt Ideal)) (y : S2000x128.Idx) (i : Cert.Spec.S50000x128.Idx)
    (hi1 : (i 1).val = (y 1).val)
    (h0 : ∀ k : Fin 64, x0 (ix2 (y 0) k) = x (ix2 (i 0) k))
    (h1 : ∀ k : Fin 64, x1 (ix2 k (y 1)) = Wt (ix2 k (y 1)))
    (h2 : x2 (ix2 (0 : Fin 1) (y 1)) = b (ix1 (y 1))) :
    k6_pay1 x0 x1 x2 y = Cert.Spec.h3 x Wt b i := by
  have hi : i = ix2 (i 0) (y 1) := by
    funext a; apply Fin.ext
    match a with
    | ⟨0, _⟩ => rfl
    | ⟨1, _⟩ => exact hi1
  calc k6_pay1 x0 x1 x2 y = k6_pay1 x0 x1 x2 (ix2 (y 0) (y 1)) := congrArg _ (eq_ix2 y)
    _ = (∑ k : Fin 64, x0 (ix2 (y 0) k) * x1 (ix2 k (y 1))) + x2 (ix2 (0 : Fin 1) (y 1)) := lin6_pay_apply x0 x1 x2 (y 0) (y 1)
    _ = (∑ k : Fin 64, x (ix2 (i 0) k) * Wt (ix2 k (y 1))) + b (ix1 (y 1)) :=
        congrArg₂ (· + ·) (Finset.sum_congr rfl fun k _ => congrArg₂ (· * ·) (h0 k) (h1 k)) h2
    _ = Cert.Spec.h3 x Wt b (ix2 (i 0) (y 1)) := (lin6_spec_apply x Wt b (i 0) (y 1)).symm
    _ = Cert.Spec.h3 x Wt b i := congrArg _ hi.symm

/-- The block indices over the grid: at point `t` the windows of `x` and of the output are at block row `t`,
    block column 0; `W` and the bias row are always at block (0, 0). -/
theorem lin6_block_indices : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

variable (V : (c : Dev nD) → (b : Ref sig .tc) → Buf (Elt Ideal) ((c : Thread nD τ).loc b))

/-- What point `t` writes back is block `t` of the whole layer of the arrays as the region finds them, the bias
    array being the vector `b` laid out as one row. -/
theorem lin6_flushed_eq (c : Dev nD) (b : (⟨Cert.Spec.S128, .f32⟩ : BufTy).Contents (Elt Ideal))
    (hb : V c main_v87 = shapeCast S1x128 b shapeCasts_S128_S1x128) (t : Fin cfg6.N) :
    (dat6 V c).flushed 3 t = ((cfg6.win 3).blk t).view.read (Elt Ideal) (Cert.Spec.h3 (V c main_v86) (V c main_arg10) b) := by
  show (cfg6.win 3).cut (grid6.coords t) ((dat6 V c).after 3 t) = _
  rw [after6_3]
  unfold out6
  rw [View.canon_unit_zero lin6_origin]
  simp only [View.ld_unit_zero (S := S2000x64) lin6_origin, View.ld_unit_zero (S := S64x128) lin6_origin, View.ld_unit_zero (S := S1x128) lin6_origin]
  obtain ⟨e00, e01, e10, e11, e20, e21, e30, e31⟩ := lin6_block_indices t
  funext y
  show k6_pay1 (iblk6 V c 0 t) (iblk6 V c 1 t) (iblk6 V c 2 t) y
    = Cert.Spec.h3 (V c main_v86) (V c main_arg10) b (((cfg6.win 3).blk t).view.emb y)
  refine lin6_block_eq (iblk6 V c 0 t) (iblk6 V c 1 t) (iblk6 V c 2 t) (V c main_v86) (V c main_arg10) b y (((cfg6.win 3).blk t).view.emb y) ?_ ?_ ?_ ?_
  · show win6_3.index t (1 : Fin 2) * 128 + 1 * (y 1).val = (y 1).val
    omega
  · intro k
    show V c main_v86 (((cfg6.win 0).blk t).view.emb (ix2 (y 0) k)) = V c main_v86 (ix2 ((((cfg6.win 3).blk t).view.emb y) 0) k)
    refine congrArg (V c main_v86) (funext fun a => Fin.ext ?_)
    match a with
    | ⟨0, _⟩ => show win6_0.index t (0 : Fin 2) * 2000 + 1 * (y 0).val = win6_3.index t (0 : Fin 2) * 2000 + 1 * (y 0).val; omega
    | ⟨1, _⟩ => show win6_0.index t (1 : Fin 2) * 64 + 1 * k.val = k.val; omega
  · intro k
    show V c main_arg10 (((cfg6.win 1).blk t).view.emb (ix2 k (y 1))) = V c main_arg10 (ix2 k (y 1))
    refine congrArg (V c main_arg10) (funext fun a => Fin.ext ?_)
    match a with
    | ⟨0, _⟩ => show win6_1.index t (0 : Fin 2) * 64 + 1 * k.val = k.val; omega
    | ⟨1, _⟩ => show win6_1.index t (1 : Fin 2) * 128 + 1 * (y 1).val = (y 1).val; omega
  · show V c main_v87 (((cfg6.win 2).blk t).view.emb (ix2 (0 : Fin 1) (y 1))) = b (ix1 (y 1))
    have e : ((cfg6.win 2).blk t).view.emb (ix2 (0 : Fin 1) (y 1)) = ix2 (0 : Fin 1) (y 1) := by
      funext a; apply Fin.ext
      match a with
      | ⟨0, _⟩ => show win6_2.index t (0 : Fin 2) * 1 + 1 * 0 = 0; omega
      | ⟨1, _⟩ => show win6_2.index t (1 : Fin 2) * 128 + 1 * (y 1).val = (y 1).val; omega
    rw [e, hb]
    exact Cert.LibHostApply.shapeCast_row_apply b shapeCasts_S128_S1x128 (y 1)

/-- An index of the output array is in point `t`'s block iff each coordinate is in the block's range on its axis. -/
theorem lin6_mem_block (t : Fin cfg6.N) (i : Cert.Spec.S50000x128.Idx) :
    i ∈ ((cfg6.win 3).blk t).view.set ↔ ∀ a : Fin 2, win6_3.index t a * S2000x128.size a ≤ (i a).val ∧ (i a).val < win6_3.index t a * S2000x128.size a + S2000x128.size a := by
  show i ∈ ((View.whole main_v88).slice (win6_3.rect t)).set ↔ _
  rw [View.set_slice_whole, Rect.mem_set_unit]
  exact Iff.rfl

/-- The 25 blocks of 2000 rows tile the 50000 rows: row `r` lies in the block of point `r / 2000`. -/
theorem lin6_rows_covered (i : Cert.Spec.S50000x128.Idx) :
    ∃ t : Fin cfg6.N, (cfg6.win 3).flush t = true ∧ i ∈ ((cfg6.win 3).blk t).view.set := by
  have hi0 : (i 0).val < 50000 := (i 0).isLt
  have hi1 : (i 1).val < 128 := (i 1).isLt
  have hN : (i 0).val / 2000 < cfg6.N := by show (i 0).val / 2000 < 25; omega
  obtain ⟨e00, e01, e10, e11, e20, e21, e30, e31⟩ := lin6_block_indices ⟨(i 0).val / 2000, hN⟩
  refine ⟨⟨(i 0).val / 2000, hN⟩, flush6_3 _, ?_⟩
  rw [lin6_mem_block]
  intro a
  match a with
  | ⟨0, _⟩ =>
    show win6_3.index ⟨(i 0).val / 2000, hN⟩ (0 : Fin 2) * 2000 ≤ (i 0).val ∧ (i 0).val < win6_3.index ⟨(i 0).val / 2000, hN⟩ (0 : Fin 2) * 2000 + 2000
    rw [e30]; show (i 0).val / 2000 * 2000 ≤ (i 0).val ∧ (i 0).val < (i 0).val / 2000 * 2000 + 2000; omega
  | ⟨1, _⟩ =>
    show win6_3.index ⟨(i 0).val / 2000, hN⟩ (1 : Fin 2) * 128 ≤ (i 1).val ∧ (i 1).val < win6_3.index ⟨(i 0).val / 2000, hN⟩ (1 : Fin 2) * 128 + 128
    rw [e31]; omega

/-- After the region the output array is the whole layer `x · W + b` of the arrays as the region finds them. -/
theorem final_lin6 (c : Dev nD) (b : (⟨Cert.Spec.S128, .f32⟩ : BufTy).Contents (Elt Ideal))
    (hb : V c main_v87 = shapeCast S1x128 b shapeCasts_S128_S1x128) :
    (dat6 V c).arrAt 3 cfg6.N = Cert.Spec.h3 (V c main_v86) (V c main_arg10) b :=
  (dat6 V c).arrAt_eq_of_cover 3 (Cert.Spec.h3 (V c main_v86) (V c main_arg10) b) (fun t _ => lin6_flushed_eq V c b hb t) lin6_rows_covered

end Cert.KernelIdeal.Gen

end
-- ==== Proof.LinValue9.lean ====
import proofs.«165059_j7095285973648_2_alg».proof.Proof.Lin9
import proofs.«165059_j7095285973648_2_alg».proof.Proof.Spec
import proofs.«165059_j7095285973648_2_alg».proof.Proof.LibHostApply
import proofs.«165059_j7095285973648_2_alg».proof.Proof.LinValue0
import Idealize.ShloMosaic.Lib.Pipeline.Value
import Idealize.ShloMosaic.Lib.ValueIdx
import Idealize.ShloMosaic.PureOps.Ideal.Laws

/-! # The dense layer of region 9, read as one array: `x · W + b` over all 50000 rows

The region computes the layer one block of 2000 rows at a time: at grid point `t` it multiplies rows
`2000·t … 2000·t + 1999` of `x` (128 columns) by the whole `W` (128 × 256), adds the bias row, and writes the
result over the same rows of the output. Entry `(r, j)` of `x · W + b` depends on row `r` of `x`, column `j` of
`W` and entry `j` of `b` only, so the block a point writes is exactly the rows `2000·t …` of the whole
`x · W + b`; the 25 blocks tile the 50000 rows (row `r` lies in block `r / 2000`), so after the region the
output array is `x · W + b`. At the exact values the change of float format before the product is the identity
and the product into a zero accumulator is the plain sum over the 128 contracted coordinates, which is also what
the host's product is; no algebraic law beyond that is used, and no finiteness. -/

set_option maxRecDepth 16384

noncomputable section

namespace Cert.KernelIdeal.Gen

open Idealize.ShloMosaic Idealize.ShloMosaic.TcCoe Idealize.ShloMosaic.ValueIdx
open Idealize.ShloMosaic.Pipeline (Dat Cfg Window)

/-- The origin of a rank-2 block, as the function that is `0` on both axes. -/
theorem lin9_origin : (![0, 0] : Fin 2 → Nat) = fun _ => 0 := funext fun a => by fin_cases a <;> rfl

/-- The body's value at row `p`, column `q` of a block: row `p` of the block of `x` against column `q` of `W`,
    plus entry `q` of the bias row. -/
theorem lin9_pay_apply (x0 : Vec Ideal S2000x128 .f32) (x1 : Vec Ideal S128x256 .f32) (x2 : Vec Ideal S1x256 .f32)
    (p : Fin 2000) (q : Fin 256) :
    k9_pay1 x0 x1 x2 (ix2 p q) = (∑ k : Fin 128, x0 (ix2 p k) * x1 (ix2 k q)) + x2 (ix2 (0 : Fin 1) q) := by
  unfold k9_pay1
  rw [shapeCast_self x0 shapeCasts_S2000x128_S2000x128]
  refine (addf_apply _ _ (ix2 p q)).trans ?_
  refine congrArg₂ (· + ·) ?_ ?_
  · refine (matmul_zero_eq_dotGeneral _ _ _ _ (ix2 p q)).trans ?_
    exact Cert.LibHostApply.dotGeneral_mm_apply dot_S2000x128_S128x256_S2000x256_1_0_0_1_n_n_wf none x0 x1 p q
  · refine (broadcastTo_apply _ broadcasts_S1x256_S2000x256 (ix2 p q) (ix2 (0 : Fin 1) q) (fun a => ?_)).trans ?_
    · match a with
      | ⟨0, _⟩ => exact (if_pos rfl).symm
      | ⟨1, _⟩ => rfl
    · rw [shapeCast_self]

/-- The whole layer at row `r`, column `j`: row `r` of `x` against column `j` of `W`, plus entry `j` of `b`. -/
theorem lin9_spec_apply (x : (⟨Cert.Spec.S50000x128, .f32⟩ : BufTy).Contents (Elt Ideal)) (Wt : (⟨Cert.Spec.S128x256, .f32⟩ : BufTy).Contents (Elt Ideal))
    (b : (⟨Cert.Spec.S256, .f32⟩ : BufTy).Contents (Elt Ideal)) (r : Fin 50000) (j : Fin 256) :
    Cert.Spec.h4 x Wt b (ix2 r j) = (∑ k : Fin 128, x (ix2 r k) * Wt (ix2 k j)) + b (ix1 j) := by
  unfold Cert.Spec.h4
  refine (addf_apply _ _ (ix2 r j)).trans ?_
  refine congrArg₂ (· + ·) ?_ ?_
  · exact Cert.LibHostApply.dotGeneral_mm_apply Cert.Spec.dot_S50000x128_S128x256_S50000x256_1_0_0_1_n_n_wf none x Wt r j
  · refine (Cert.LibHostApply.broadcastInDim_rows_apply _ Cert.Spec.bcast_S1x256_S50000x256_0_1 r j).trans ?_
    exact Cert.LibHostApply.broadcastInDim_row_apply b Cert.Spec.bcast_S256_S1x256_1 j

/-- A block's value against the whole layer. If `x0` holds, at row `y 0`, the row `i 0` of `x`; `x1` holds `W`;
    `x2` holds `b` as a row; and `i` has the column of `y`; then the body's value at `y` is the layer at `i`. -/
theorem lin9_block_eq (x0 : Vec Ideal S2000x128 .f32) (x1 : Vec Ideal S128x256 .f32) (x2 : Vec Ideal S1x256 .f32)
    (x : (⟨Cert.Spec.S50000x128, .f32⟩ : BufTy).Contents (Elt Ideal)) (Wt : (⟨Cert.Spec.S128x256, .f32⟩ : BufTy).Contents (Elt Ideal))
    (b : (⟨Cert.Spec.S256, .f32⟩ : BufTy).Contents (Elt Ideal)) (y : S2000x256.Idx) (i : Cert.Spec.S50000x256.Idx)
    (hi1 : (i 1).val = (y 1).val)
    (h0 : ∀ k : Fin 128, x0 (ix2 (y 0) k) = x (ix2 (i 0) k))
    (h1 : ∀ k : Fin 128, x1 (ix2 k (y 1)) = Wt (ix2 k (y 1)))
    (h2 : x2 (ix2 (0 : Fin 1) (y 1)) = b (ix1 (y 1))) :
    k9_pay1 x0 x1 x2 y = Cert.Spec.h4 x Wt b i := by
  have hi : i = ix2 (i 0) (y 1) := by
    funext a; apply Fin.ext
    match a with
    | ⟨0, _⟩ => rfl
    | ⟨1, _⟩ => exact hi1
  calc k9_pay1 x0 x1 x2 y = k9_pay1 x0 x1 x2 (ix2 (y 0) (y 1)) := congrArg _ (eq_ix2 y)
    _ = (∑ k : Fin 128, x0 (ix2 (y 0) k) * x1 (ix2 k (y 1))) + x2 (ix2 (0 : Fin 1) (y 1)) := lin9_pay_apply x0 x1 x2 (y 0) (y 1)
    _ = (∑ k : Fin 128, x (ix2 (i 0) k) * Wt (ix2 k (y 1))) + b (ix1 (y 1)) :=
        congrArg₂ (· + ·) (Finset.sum_congr rfl fun k _ => congrArg₂ (· * ·) (h0 k) (h1 k)) h2
    _ = Cert.Spec.h4 x Wt b (ix2 (i 0) (y 1)) := (lin9_spec_apply x Wt b (i 0) (y 1)).symm
    _ = Cert.Spec.h4 x Wt b i := congrArg _ hi.symm

/-- The block indices over the grid: at point `t` the windows of `x` and of the output are at block row `t`,
    block column 0; `W` and the bias row are always at block (0, 0). -/
theorem lin9_block_indices : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

variable (V : (c : Dev nD) → (b : Ref sig .tc) → Buf (Elt Ideal) ((c : Thread nD τ).loc b))

/-- What point `t` writes back is block `t` of the whole layer of the arrays as the region finds them, the bias
    array being the vector `b` laid out as one row. -/
theorem lin9_flushed_eq (c : Dev nD) (b : (⟨Cert.Spec.S256, .f32⟩ : BufTy).Contents (Elt Ideal))
    (hb : V c main_v114 = shapeCast S1x256 b shapeCasts_S256_S1x256) (t : Fin cfg9.N) :
    (dat9 V c).flushed 3 t = ((cfg9.win 3).blk t).view.read (Elt Ideal) (Cert.Spec.h4 (V c main_v113) (V c main_arg14) b) := by
  show (cfg9.win 3).cut (grid9.coords t) ((dat9 V c).after 3 t) = _
  rw [after9_3]
  unfold out9
  rw [View.canon_unit_zero lin9_origin]
  simp only [View.ld_unit_zero (S := S2000x128) lin9_origin, View.ld_unit_zero (S := S128x256) lin9_origin, View.ld_unit_zero (S := S1x256) lin9_origin]
  obtain ⟨e00, e01, e10, e11, e20, e21, e30, e31⟩ := lin9_block_indices t
  funext y
  show k9_pay1 (iblk9 V c 0 t) (iblk9 V c 1 t) (iblk9 V c 2 t) y
    = Cert.Spec.h4 (V c main_v113) (V c main_arg14) b (((cfg9.win 3).blk t).view.emb y)
  refine lin9_block_eq (iblk9 V c 0 t) (iblk9 V c 1 t) (iblk9 V c 2 t) (V c main_v113) (V c main_arg14) b y (((cfg9.win 3).blk t).view.emb y) ?_ ?_ ?_ ?_
  · show win9_3.index t (1 : Fin 2) * 256 + 1 * (y 1).val = (y 1).val
    omega
  · intro k
    show V c main_v113 (((cfg9.win 0).blk t).view.emb (ix2 (y 0) k)) = V c main_v113 (ix2 ((((cfg9.win 3).blk t).view.emb y) 0) k)
    refine congrArg (V c main_v113) (funext fun a => Fin.ext ?_)
    match a with
    | ⟨0, _⟩ => show win9_0.index t (0 : Fin 2) * 2000 + 1 * (y 0).val = win9_3.index t (0 : Fin 2) * 2000 + 1 * (y 0).val; omega
    | ⟨1, _⟩ => show win9_0.index t (1 : Fin 2) * 128 + 1 * k.val = k.val; omega
  · intro k
    show V c main_arg14 (((cfg9.win 1).blk t).view.emb (ix2 k (y 1))) = V c main_arg14 (ix2 k (y 1))
    refine congrArg (V c main_arg14) (funext fun a => Fin.ext ?_)
    match a with
    | ⟨0, _⟩ => show win9_1.index t (0 : Fin 2) * 128 + 1 * k.val = k.val; omega
    | ⟨1, _⟩ => show win9_1.index t (1 : Fin 2) * 256 + 1 * (y 1).val = (y 1).val; omega
  · show V c main_v114 (((cfg9.win 2).blk t).view.emb (ix2 (0 : Fin 1) (y 1))) = b (ix1 (y 1))
    have e : ((cfg9.win 2).blk t).view.emb (ix2 (0 : Fin 1) (y 1)) = ix2 (0 : Fin 1) (y 1) := by
      funext a; apply Fin.ext
      match a with
      | ⟨0, _⟩ => show win9_2.index t (0 : Fin 2) * 1 + 1 * 0 = 0; omega
      | ⟨1, _⟩ => show win9_2.index t (1 : Fin 2) * 256 + 1 * (y 1).val = (y 1).val; omega
    rw [e, hb]
    exact Cert.LibHostApply.shapeCast_row_apply b shapeCasts_S256_S1x256 (y 1)

/-- An index of the output array is in point `t`'s block iff each coordinate is in the block's range on its axis. -/
theorem lin9_mem_block (t : Fin cfg9.N) (i : Cert.Spec.S50000x256.Idx) :
    i ∈ ((cfg9.win 3).blk t).view.set ↔ ∀ a : Fin 2, win9_3.index t a * S2000x256.size a ≤ (i a).val ∧ (i a).val < win9_3.index t a * S2000x256.size a + S2000x256.size a := by
  show i ∈ ((View.whole main_v115).slice (win9_3.rect t)).set ↔ _
  rw [View.set_slice_whole, Rect.mem_set_unit]
  exact Iff.rfl

/-- The 25 blocks of 2000 rows tile the 50000 rows: row `r` lies in the block of point `r / 2000`. -/
theorem lin9_rows_covered (i : Cert.Spec.S50000x256.Idx) :
    ∃ t : Fin cfg9.N, (cfg9.win 3).flush t = true ∧ i ∈ ((cfg9.win 3).blk t).view.set := by
  have hi0 : (i 0).val < 50000 := (i 0).isLt
  have hi1 : (i 1).val < 256 := (i 1).isLt
  have hN : (i 0).val / 2000 < cfg9.N := by show (i 0).val / 2000 < 25; omega
  obtain ⟨e00, e01, e10, e11, e20, e21, e30, e31⟩ := lin9_block_indices ⟨(i 0).val / 2000, hN⟩
  refine ⟨⟨(i 0).val / 2000, hN⟩, flush9_3 _, ?_⟩
  rw [lin9_mem_block]
  intro a
  match a with
  | ⟨0, _⟩ =>
    show win9_3.index ⟨(i 0).val / 2000, hN⟩ (0 : Fin 2) * 2000 ≤ (i 0).val ∧ (i 0).val < win9_3.index ⟨(i 0).val / 2000, hN⟩ (0 : Fin 2) * 2000 + 2000
    rw [e30]; show (i 0).val / 2000 * 2000 ≤ (i 0).val ∧ (i 0).val < (i 0).val / 2000 * 2000 + 2000; omega
  | ⟨1, _⟩ =>
    show win9_3.index ⟨(i 0).val / 2000, hN⟩ (1 : Fin 2) * 256 ≤ (i 1).val ∧ (i 1).val < win9_3.index ⟨(i 0).val / 2000, hN⟩ (1 : Fin 2) * 256 + 256
    rw [e31]; omega

/-- After the region the output array is the whole layer `x · W + b` of the arrays as the region finds them. -/
theorem final_lin9 (c : Dev nD) (b : (⟨Cert.Spec.S256, .f32⟩ : BufTy).Contents (Elt Ideal))
    (hb : V c main_v114 = shapeCast S1x256 b shapeCasts_S256_S1x256) :
    (dat9 V c).arrAt 3 cfg9.N = Cert.Spec.h4 (V c main_v113) (V c main_arg14) b :=
  (dat9 V c).arrAt_eq_of_cover 3 (Cert.Spec.h4 (V c main_v113) (V c main_arg14) b) (fun t _ => lin9_flushed_eq V c b hb t) lin9_rows_covered

end Cert.KernelIdeal.Gen

end
-- ==== Proof.CombSums.lean ====
import proofs.«165059_j7095285973648_2_alg».proof.Proof.LibStats
import Mathlib.Algebra.BigOperators.Fin
import Mathlib.Algebra.BigOperators.Intervals

/-!
Two facts about finite sums in a commutative monoid. A running total that starts at the first term and
adds one further term at every step is the sum of the terms so far. And `B` consecutive blocks of `R`
consecutive terms each, summed block by block, are the sum of all `B · R` terms.
-/

namespace Cert.CombSums

open Finset

/-- A running total `a` with `a 0 = u 0` and `a (n + 1) = a n + u (n + 1)` is `∑ t ≤ n, u t`. -/
theorem running_sum {M : Type*} [AddCommMonoid M] {N : ℕ} (a : (n : ℕ) → n < N → M) (u : ℕ → M)
    (h0 : ∀ h, a 0 h = u 0)
    (hs : ∀ n (h : n + 1 < N), a (n + 1) h = a n (Nat.lt_of_succ_lt h) + u (n + 1)) :
    ∀ n (h : n < N), a n h = ∑ t ∈ range (n + 1), u t
  | 0, h => by rw [h0, Finset.sum_range_one]
  | n + 1, h => by rw [hs, running_sum a u h0 hs n, Finset.sum_range_succ _ (n + 1)]

/-- The sum over `B` blocks of the sums of `R` consecutive values of `g`, block `t` starting at `R · t`, is the
    sum of the first `B · R` values of `g`. -/
theorem sum_range_blocks {M : Type*} [AddCommMonoid M] (B R T : ℕ) (hT : B * R = T) (g : ℕ → M) :
    ∑ t ∈ range B, ∑ p : Fin R, g (R * t + p.val) = ∑ r : Fin T, g r.val := by
  subst hT
  rw [Finset.sum_range]
  have hlt : ∀ (b : Fin B) (r : Fin R), R * b.val + r.val < B * R := fun b r => by
    have h1 : R * b.val + r.val < R * (b.val + 1) := by rw [Nat.mul_succ]; exact Nat.add_lt_add_left r.isLt _
    exact lt_of_lt_of_le h1 (by rw [Nat.mul_comm B R]; exact Nat.mul_le_mul_left R b.isLt)
  exact Cert.LibStats.sum_blocks (fun n : Fin (B * R) => g n.val) (fun b r => ⟨R * b.val + r.val, hlt b r⟩) (fun _ _ => rfl)

end Cert.CombSums
-- ==== Proof.CombValue1.lean ====
import proofs.«165059_j7095285973648_2_alg».proof.Proof.CombDat1
import proofs.«165059_j7095285973648_2_alg».proof.Proof.Spec
import proofs.«165059_j7095285973648_2_alg».proof.Proof.LibHostApply
import proofs.«165059_j7095285973648_2_alg».proof.Proof.LibStats
import proofs.«165059_j7095285973648_2_alg».proof.Proof.CombSums
import Idealize.ShloMosaic.Lib.Pipeline.Value
import Idealize.ShloMosaic.Lib.ValueIdx
import Idealize.ShloMosaic.PureOps.Ideal.Laws

/-!
# Region 1: what its three result arrays end holding

Over the extended reals. Let `agg`, `h` be the two 50000 × 128 arrays the region reads through windows 0 and 1 and
`ws` the 50000 self weights, which window 2 holds as a column. Row by row the body forms
`y = max (agg + h * ws) 0`; grid point `t` handles rows `2000 t … 2000 t + 1999`. So

* the array of `y` (window 3), written back block by block, ends as the whole 50000 × 128 array `y`;
* the one-row array of window 4 ends, at column `q`, as the sum of `y` over the 50000 rows of that column: after
  point `n` its buffer holds the sum over the first `n + 1` blocks, it is written back after the last point only,
  and 25 blocks of 2000 consecutive rows are all the rows;
* the one-row array of window 5 likewise ends as the column sums of `y * y`.

Each is stated against the specification's own terms: `y` as `relu128 (pre128 h agg ws)` and the sums as the host's
sum over axis 0 from the zero initial value.
-/

set_option maxRecDepth 16384

noncomputable section

namespace Cert.KernelIdeal.Gen

open Idealize.ShloMosaic Idealize.ShloMosaic.TcCoe Idealize.ShloMosaic.ValueIdx
open Idealize.SL.Sem
open Idealize.ShloMosaic.Pipeline (Dat)

/-! ## What each store leaves, at any float instance -/

section AnyF
variable {F : FTy → Type} [FloatOps F]

theorem hzero1 : (![0, 0] : Fin 2 → Nat) = fun _ => 0 := funext fun a => by fin_cases a <;> rfl

/-- One store over the whole block leaves its value, and a load of a whole block reads the block: the buffer of `y`
    holds the body's `y` of the three input blocks. -/
theorem out1_3_eq (x0 x1 : Vec F S2000x128 .f32) (x2 : Vec F S2000x1 .f32) : out1_3 x0 x1 x2 = k1_pay1 x0 x1 x2 := by
  unfold out1_3
  rw [View.canon_unit_zero hzero1]
  simp only [View.ld_unit_zero (S := S2000x128) hzero1, View.ld_unit_zero (S := S2000x1) hzero1]

/-- After the first point the accumulator of `y` holds the block's column sums of `y`, -/
theorem out1_4_first_eq (x0 x1 : Vec F S2000x128 .f32) (x2 : Vec F S2000x1 .f32) : out1_4_first x0 x1 x2 = k1_pay2 x0 x1 x2 := by
  unfold out1_4_first
  rw [View.canon_unit_zero hzero1]
  simp only [View.ld_unit_zero (S := S2000x128) hzero1, View.ld_unit_zero (S := S2000x1) hzero1]

/-- and that of `y * y` the block's column sums of `y * y`. -/
theorem out1_5_first_eq (x0 x1 : Vec F S2000x128 .f32) (x2 : Vec F S2000x1 .f32) : out1_5_first x0 x1 x2 = k1_pay3 x0 x1 x2 := by
  unfold out1_5_first
  rw [View.canon_unit_zero hzero1]
  simp only [View.ld_unit_zero (S := S2000x128) hzero1, View.ld_unit_zero (S := S2000x1) hzero1]

/-- After a later point an accumulator that held `a` holds `a` plus the block's column sums. -/
theorem out1_4_next_eq (x0 x1 : Vec F S2000x128 .f32) (x2 : Vec F S2000x1 .f32) (a : Vec F S1x128 .f32) :
    out1_4_next x0 x1 x2 a = addf a (k1_pay2 x0 x1 x2) := by
  unfold out1_4_next
  rw [View.canon_unit_zero hzero1]
  simp only [View.ld_unit_zero (S := S2000x128) hzero1, View.ld_unit_zero (S := S2000x1) hzero1, View.ld_unit_zero (S := S1x128) hzero1]
  unfold k1_pay4
  simp only [shapeCast_self]

theorem out1_5_next_eq (x0 x1 : Vec F S2000x128 .f32) (x2 : Vec F S2000x1 .f32) (a : Vec F S1x128 .f32) :
    out1_5_next x0 x1 x2 a = addf a (k1_pay3 x0 x1 x2) := by
  unfold out1_5_next
  rw [View.canon_unit_zero hzero1]
  simp only [View.ld_unit_zero (S := S2000x128) hzero1, View.ld_unit_zero (S := S2000x1) hzero1, View.ld_unit_zero (S := S1x128) hzero1]
  unfold k1_pay5
  simp only [shapeCast_self]

end AnyF

/-! ## The body's values read at an entry, over the extended reals -/

/-- The body's `y` at row `p`, column `q` of a block: `max (agg + h * dself) 0` of the entries there, the self weight
    read from the one column of its block. -/
theorem k1_pay1_apply (x0 x1 : Vec Ideal S2000x128 .f32) (x2 : Vec Ideal S2000x1 .f32) (p : Fin 2000) (q : Fin 128) :
    k1_pay1 x0 x1 x2 (ix2 p q) = max (x0 (ix2 p q) + x1 (ix2 p q) * x2 (ix2 p (0 : Fin 1))) (Ideal.ofBits .f32 0x00000000#32) := by
  unfold k1_pay1
  simp only [shapeCast_self]
  rw [maximumf_apply, addf_apply, mulf_apply]
  rw [broadcastTo_apply x2 _ (ix2 p q) (ix2 p (0 : Fin 1)) (fun a => by
    match a with
    | ⟨0, _⟩ => rfl
    | ⟨1, _⟩ => rfl)]
  rfl

/-- The block's column sum of `y` at column `q`: the sum over the block's 2000 rows. -/
theorem k1_pay2_apply (x0 x1 : Vec Ideal S2000x128 .f32) (x2 : Vec Ideal S2000x1 .f32) (q : Fin 128) :
    k1_pay2 x0 x1 x2 (ix2 (0 : Fin 1) q) = ∑ p : Fin 2000, k1_pay1 x0 x1 x2 (ix2 p q) := by
  unfold k1_pay2
  refine (Cert.LibHostApply.shapeCast_row_apply _ _ q).trans ?_
  refine (Ideal.multiReduction_add_single (k1_pay1 x0 x1 x2) 0x00000000#32 reduces_S2000x128_S128 (.inl rfl) rfl (ix1 q)).trans ?_
  refine Finset.sum_congr rfl fun p _ => congrArg (k1_pay1 x0 x1 x2) (funext fun a => Fin.ext ?_)
  match a with
  | ⟨0, _⟩ => rfl
  | ⟨1, _⟩ => rfl

/-- The block's column sum of `y * y` at column `q`. -/
theorem k1_pay3_apply (x0 x1 : Vec Ideal S2000x128 .f32) (x2 : Vec Ideal S2000x1 .f32) (q : Fin 128) :
    k1_pay3 x0 x1 x2 (ix2 (0 : Fin 1) q) = ∑ p : Fin 2000, k1_pay1 x0 x1 x2 (ix2 p q) * k1_pay1 x0 x1 x2 (ix2 p q) := by
  unfold k1_pay3
  refine (Cert.LibHostApply.shapeCast_row_apply _ _ q).trans ?_
  refine (Ideal.multiReduction_add_single (mulf (k1_pay1 x0 x1 x2) (k1_pay1 x0 x1 x2)) 0x00000000#32 reduces_S2000x128_S128 (.inl rfl) rfl (ix1 q)).trans ?_
  refine Finset.sum_congr rfl fun p _ => ?_
  rw [mulf_apply]
  have e : (reduces_S2000x128_S128.lift (ix1 q) p : S2000x128.Idx) = ix2 p q := funext fun a => Fin.ext (by
    match a with
    | ⟨0, _⟩ => rfl
    | ⟨1, _⟩ => rfl)
  rw [e]
  rfl

/-! ## The blocks as rows of the arrays -/

/-- The block index of each of the four row-blocked windows at grid point `t` is `(t, 0)`. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

section Blocks
variable {F : FTy → Type} [FloatOps F]
variable (V : (c : Dev nD) → (b : Ref sig .tc) → Buf (Elt F) ((c : Thread nD τ).loc b))

/-- Entry `x` of window 0's block at grid point `t` is the array's entry at row `2000 t + x 0`, column `x 1`. -/
theorem iblk1_0_apply (c : Dev nD) (t : Fin cfg1.N) (x : S2000x128.Idx) (k : S50000x128.Idx)
    (hk0 : (k 0).val = 2000 * t.val + (x 0).val) (hk1 : (k 1).val = (x 1).val) :
    (iblk1 V c 0 t : Vec F S2000x128 .f32) x = (V c (Pipeline.arrRef spec1 0) : S50000x128.Idx → Elt F .f32) k := by
  obtain ⟨e0, e1, -⟩ := idx_facts1 t
  unfold iblk1
  rw [View.read_apply]
  show V c (Pipeline.arrRef spec1 0) _ = V c (Pipeline.arrRef spec1 0) _
  congr 1
  funext a
  apply Fin.ext
  match a with
  | ⟨0, _⟩ => show win1_0.index t 0 * 2000 + 1 * (x 0).val = (k 0).val; rw [e0, hk0]; omega
  | ⟨1, _⟩ => show win1_0.index t 1 * 128 + 1 * (x 1).val = (k 1).val; rw [e1, hk1]; omega

/-- The same for window 1, -/
theorem iblk1_1_apply (c : Dev nD) (t : Fin cfg1.N) (x : S2000x128.Idx) (k : S50000x128.Idx)
    (hk0 : (k 0).val = 2000 * t.val + (x 0).val) (hk1 : (k 1).val = (x 1).val) :
    (iblk1 V c 1 t : Vec F S2000x128 .f32) x = (V c (Pipeline.arrRef spec1 1) : S50000x128.Idx → Elt F .f32) k := by
  obtain ⟨-, -, e0, e1, -⟩ := idx_facts1 t
  unfold iblk1
  rw [View.read_apply]
  show V c (Pipeline.arrRef spec1 1) _ = V c (Pipeline.arrRef spec1 1) _
  congr 1
  funext a
  apply Fin.ext
  match a with
  | ⟨0, _⟩ => show win1_1.index t 0 * 2000 + 1 * (x 0).val = (k 0).val; rw [e0, hk0]; omega
  | ⟨1, _⟩ => show win1_1.index t 1 * 128 + 1 * (x 1).val = (k 1).val; rw [e1, hk1]; omega

/-- and for the one-column window 2. -/
theorem iblk1_2_apply (c : Dev nD) (t : Fin cfg1.N) (x : S2000x1.Idx) (k : S50000x1.Idx)
    (hk0 : (k 0).val = 2000 * t.val + (x 0).val) (hk1 : (k 1).val = (x 1).val) :
    (iblk1 V c 2 t : Vec F S2000x1 .f32) x = (V c (Pipeline.arrRef spec1 2) : S50000x1.Idx → Elt F .f32) k := by
  obtain ⟨-, -, -, -, e0, e1, -⟩ := idx_facts1 t
  unfold iblk1
  rw [View.read_apply]
  show V c (Pipeline.arrRef spec1 2) _ = V c (Pipeline.arrRef spec1 2) _
  congr 1
  funext a
  apply Fin.ext
  match a with
  | ⟨0, _⟩ => show win1_2.index t 0 * 2000 + 1 * (x 0).val = (k 0).val; rw [e0, hk0]; omega
  | ⟨1, _⟩ => show win1_2.index t 1 * 1 + 1 * (x 1).val = (k 1).val; rw [e1, hk1]; omega

end Blocks

/-! ## The specification's `y` read at an entry -/

/-- `relu128 (pre128 h a ws)` at row `r`, column `q`: `max (a + h * ws r) 0` of the entries there. -/
theorem specY1_apply (h a : (⟨Cert.Spec.S50000x128, .f32⟩ : BufTy).Contents (Elt Ideal))
    (ws : (⟨Cert.Spec.S50000, .f32⟩ : BufTy).Contents (Elt Ideal)) (r : Fin 50000) (q : Fin 128) :
    Cert.Spec.relu128 (Cert.Spec.pre128 h a ws) (ix2 r q)
      = max (a (ix2 r q) + h (ix2 r q) * ws (ix1 r)) (Ideal.ofBits .f32 0x00000000#32) := by
  unfold Cert.Spec.relu128 Cert.Spec.pre128
  rw [maximumf_apply, addf_apply, mulf_apply, Cert.LibHostApply.broadcastInDim_cols_apply,
    Cert.LibHostApply.broadcastInDim_col_apply, Cert.LibHostApply.broadcastInDim_scalar_apply, constant_apply]

section AtIdeal
variable (V : (c : Dev nD) → (b : Ref sig .tc) → Buf (Elt Ideal) ((c : Thread nD τ).loc b))

/-- The specification's `y` from the arrays the region finds: the aggregate in window 0, the dense layer's output in
    window 1, and the self weights `ws`, which window 2 holds as a column. -/
abbrev Y1 (c : Dev nD) (ws : Cert.Spec.S50000.Idx → Ideal .f32) : Cert.Spec.S50000x128.Idx → Ideal .f32 :=
  Cert.Spec.relu128 (Cert.Spec.pre128 (V c (Pipeline.arrRef spec1 1)) (V c (Pipeline.arrRef spec1 0)) ws)

/-- An entry of the body's `y` at grid point `t`, row `p` of the block, is the specification's `y` at row
    `2000 t + p` of the array. -/
theorem blockY1 (c : Dev nD) (ws : Cert.Spec.S50000.Idx → Ideal .f32) (hsc : S50000.ShapeCasts S50000x1)
    (hds : (V c (Pipeline.arrRef spec1 2) : S50000x1.Idx → Ideal .f32) = shapeCast S50000x1 ws hsc)
    (t : Fin cfg1.N) (p : Fin 2000) (q : Fin 128) (r : Fin 50000) (hr : r.val = 2000 * t.val + p.val) :
    k1_pay1 (iblk1 V c 0 t) (iblk1 V c 1 t) (iblk1 V c 2 t) (ix2 p q) = Y1 V c ws (ix2 r q) := by
  refine (k1_pay1_apply (iblk1 V c 0 t) (iblk1 V c 1 t) (iblk1 V c 2 t) p q).trans ?_
  refine Eq.trans ?_ (specY1_apply (V c (Pipeline.arrRef spec1 1)) (V c (Pipeline.arrRef spec1 0)) ws r q).symm
  rw [iblk1_0_apply V c t (ix2 p q) (ix2 r q) hr rfl, iblk1_1_apply V c t (ix2 p q) (ix2 r q) hr rfl,
    iblk1_2_apply V c t (ix2 p (0 : Fin 1)) (ix2 r (0 : Fin 1)) hr rfl, hds, Cert.LibHostApply.shapeCast_col_apply]

/-- The same over any index of the block and the index of the array under it. -/
theorem blockY1_idx (c : Dev nD) (ws : Cert.Spec.S50000.Idx → Ideal .f32) (hsc : S50000.ShapeCasts S50000x1)
    (hds : (V c (Pipeline.arrRef spec1 2) : S50000x1.Idx → Ideal .f32) = shapeCast S50000x1 ws hsc)
    (t : Fin cfg1.N) (y : S2000x128.Idx) (k : S50000x128.Idx)
    (hk0 : (k 0).val = 2000 * t.val + (y 0).val) (hk1 : (k 1).val = (y 1).val) :
    k1_pay1 (iblk1 V c 0 t) (iblk1 V c 1 t) (iblk1 V c 2 t) y = Y1 V c ws k := by
  obtain ⟨p, q, rfl⟩ : ∃ (p : Fin 2000) (q : Fin 128), y = ix2 p q := ⟨y 0, y 1, eq_ix2 y⟩
  obtain ⟨r, q', rfl⟩ : ∃ (r : Fin 50000) (q' : Fin 128), k = ix2 r q' := ⟨k 0, k 1, eq_ix2 k⟩
  obtain rfl : q' = q := Fin.ext hk1
  exact blockY1 V c ws hsc hds t p q' r hk0

/-! ## Window 3: the array of `y` -/

/-- What grid point `t` writes back of `y` is block `t` of the specification's `y`. -/
theorem flushed1_3_eq (c : Dev nD) (ws : Cert.Spec.S50000.Idx → Ideal .f32) (hsc : S50000.ShapeCasts S50000x1)
    (hds : (V c (Pipeline.arrRef spec1 2) : S50000x1.Idx → Ideal .f32) = shapeCast S50000x1 ws hsc) (t : Fin cfg1.N) :
    (dat1 V c).flushed 3 t = ((cfg1.win 3).blk t).view.read (Elt Ideal) (Y1 V c ws) := by
  show (cfg1.win 3).cut (grid1.coords t) ((dat1 V c).after 3 t) = _
  rw [after1_3, out1_3_eq]
  obtain ⟨-, -, -, -, -, -, e0, e1⟩ := idx_facts1 t
  funext j
  exact blockY1_idx V c ws hsc hds t j (((cfg1.win 3).blk t).view.emb j)
    (by show win1_3.index t 0 * 2000 + 1 * (j 0).val = 2000 * t.val + (j 0).val; rw [e0]; omega)
    (by show win1_3.index t 1 * 128 + 1 * (j 1).val = (j 1).val; rw [e1]; omega)

/-- An index of the array of `y` is in grid point `t`'s block iff each coordinate is in the block's range. -/
theorem mem_blk1_3 (t : Fin cfg1.N) (i : S50000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v48_0).slice (win1_3.rect t)).set ↔ _
  rw [View.set_slice_whole, Rect.mem_set_unit]
  exact Iff.rfl

/-- The 25 blocks of 2000 rows cover the 50000 rows: row `r` is in block `r / 2000`. -/
theorem cover1_3 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 25 := N_1
  have ht : (i 0).val / 2000 < cfg1.N := by rw [hN]; omega
  refine ⟨⟨(i 0).val / 2000, ht⟩, flush1_3 _, ?_⟩
  rw [mem_blk1_3]
  obtain ⟨-, -, -, -, -, -, e0, e1⟩ := idx_facts1 ⟨(i 0).val / 2000, ht⟩
  intro a
  match a with
  | ⟨0, _⟩ =>
    show win1_3.index ⟨(i 0).val / 2000, ht⟩ 0 * 2000 ≤ (i 0).val ∧ (i 0).val < win1_3.index ⟨(i 0).val / 2000, ht⟩ 0 * 2000 + 2000
    rw [e0]; dsimp only; omega
  | ⟨1, _⟩ =>
    show win1_3.index ⟨(i 0).val / 2000, ht⟩ 1 * 128 ≤ (i 1).val ∧ (i 1).val < win1_3.index ⟨(i 0).val / 2000, ht⟩ 1 * 128 + 128
    rw [e1]; omega

/-- The array of `y` after the region is the specification's `y`. -/
theorem final1_3 (c : Dev nD) (ws : Cert.Spec.S50000.Idx → Ideal .f32) (hsc : S50000.ShapeCasts S50000x1)
    (hds : (V c (Pipeline.arrRef spec1 2) : S50000x1.Idx → Ideal .f32) = shapeCast S50000x1 ws hsc) :
    (dat1 V c).arrAt 3 cfg1.N = Y1 V c ws :=
  (dat1 V c).arrAt_eq_of_cover 3 (Y1 V c ws) (fun t _ => flushed1_3_eq V c ws hsc hds t) (cover1_3)

end AtIdeal

/-! ## Windows 4 and 5: the arrays of the column sums, at any float instance -/

section Sums
variable {F : FTy → Type} [FloatOps F]
variable (V : (c : Dev nD) → (b : Ref sig .tc) → Buf (Elt F) ((c : Thread nD τ).loc b))

/-- The last grid point. -/
abbrev tlast1 : Fin cfg1.N := ⟨24, by decide⟩

/-- The running sums after the last grid point, as contents of the two one-row arrays. -/
abbrev sums1_4 (c : Dev nD) : Buf (Elt F) ((c : Thread nD τ).loc main_v48_1) := acc1_4 V c tlast1.val tlast1.isLt
abbrev sums1_5 (c : Dev nD) : Buf (Elt F) ((c : Thread nD τ).loc main_v48_2) := acc1_5 V c tlast1.val tlast1.isLt

/-- The one write-back of the sums of `y`, after the last point, writes the running sums there: the block is the
    whole one-row array. -/
theorem flushed1_4_eq (c : Dev nD) (t : Fin cfg1.N) (hf : (cfg1.win 4).flush t = true) :
    (dat1 V c).flushed 4 t = ((cfg1.win 4).blk t).view.read (Elt F) (sums1_4 V c) := by
  have hN : cfg1.N = 25 := N_1
  have h24 : t.val = 24 := by have := (flush1_4 t).mp hf; have := t.isLt; omega
  obtain rfl : t = tlast1 := Fin.ext h24
  show (cfg1.win 4).cut (grid1.coords tlast1) ((dat1 V c).after 4 tlast1) = _
  rw [after1_4]
  have hz' : (fun a => win1_4.index tlast1 a * main_v48_1.ty.shape.size a) = fun _ => 0 := funext fun a => by fin_cases a <;> decide
  exact (Memref.read_access_unit_zero (Elt F) main_v48_1 hz' (fun a => by rw [congrFun hz' a]; simp) (sums1_4 V c)).symm

theorem flushed1_5_eq (c : Dev nD) (t : Fin cfg1.N) (hf : (cfg1.win 5).flush t = true) :
    (dat1 V c).flushed 5 t = ((cfg1.win 5).blk t).view.read (Elt F) (sums1_5 V c) := by
  have hN : cfg1.N = 25 := N_1
  have h24 : t.val = 24 := by have := (flush1_5 t).mp hf; have := t.isLt; omega
  obtain rfl : t = tlast1 := Fin.ext h24
  show (cfg1.win 5).cut (grid1.coords tlast1) ((dat1 V c).after 5 tlast1) = _
  rw [after1_5]
  have hz' : (fun a => win1_5.index tlast1 a * main_v48_2.ty.shape.size a) = fun _ => 0 := funext fun a => by fin_cases a <;> decide
  exact (Memref.read_access_unit_zero (Elt F) main_v48_2 hz' (fun a => by rw [congrFun hz' a]; simp) (sums1_5 V c)).symm

/-- So the array of the sums of `y` ends holding the running sums after the last point, -/
theorem final1_4_acc (c : Dev nD) : (dat1 V c).arrAt 4 cfg1.N = sums1_4 V c :=
  (dat1 V c).arrAt_eq_of_cover 4 (sums1_4 V c) (flushed1_4_eq V c) fun i =>
    ⟨tlast1, (flush1_4 tlast1).mpr rfl, by
      show i ∈ ((View.whole main_v48_1).slice (win1_4.rect tlast1)).set
      rw [View.set_slice_whole, Rect.mem_set_unit]
      intro a
      have h0 : (i 0 : Nat) < 1 := (i 0).isLt
      have h1 : (i 1 : Nat) < 128 := (i 1).isLt
      match a with
      | ⟨0, _⟩ => show win1_4.index tlast1 0 * win1_4.size 0 ≤ (i 0 : Nat) ∧ (i 0 : Nat) < win1_4.index tlast1 0 * win1_4.size 0 + win1_4.xsize (grid1.coords tlast1) 0
                  rw [show win1_4.index tlast1 0 * win1_4.size 0 = 0 from by decide +kernel, show win1_4.xsize (grid1.coords tlast1) 0 = 1 from by decide +kernel]; omega
      | ⟨1, _⟩ => show win1_4.index tlast1 1 * win1_4.size 1 ≤ (i 1 : Nat) ∧ (i 1 : Nat) < win1_4.index tlast1 1 * win1_4.size 1 + win1_4.xsize (grid1.coords tlast1) 1
                  rw [show win1_4.index tlast1 1 * win1_4.size 1 = 0 from by decide +kernel, show win1_4.xsize (grid1.coords tlast1) 1 = 128 from by decide +kernel]; omega⟩

/-- and the array of the sums of `y * y` likewise. -/
theorem final1_5_acc (c : Dev nD) : (dat1 V c).arrAt 5 cfg1.N = sums1_5 V c :=
  (dat1 V c).arrAt_eq_of_cover 5 (sums1_5 V c) (flushed1_5_eq V c) fun i =>
    ⟨tlast1, (flush1_5 tlast1).mpr rfl, by
      show i ∈ ((View.whole main_v48_2).slice (win1_5.rect tlast1)).set
      rw [View.set_slice_whole, Rect.mem_set_unit]
      intro a
      have h0 : (i 0 : Nat) < 1 := (i 0).isLt
      have h1 : (i 1 : Nat) < 128 := (i 1).isLt
      match a with
      | ⟨0, _⟩ => show win1_5.index tlast1 0 * win1_5.size 0 ≤ (i 0 : Nat) ∧ (i 0 : Nat) < win1_5.index tlast1 0 * win1_5.size 0 + win1_5.xsize (grid1.coords tlast1) 0
                  rw [show win1_5.index tlast1 0 * win1_5.size 0 = 0 from by decide +kernel, show win1_5.xsize (grid1.coords tlast1) 0 = 1 from by decide +kernel]; omega
      | ⟨1, _⟩ => show win1_5.index tlast1 1 * win1_5.size 1 ≤ (i 1 : Nat) ∧ (i 1 : Nat) < win1_5.index tlast1 1 * win1_5.size 1 + win1_5.xsize (grid1.coords tlast1) 1
                  rw [show win1_5.index tlast1 1 * win1_5.size 1 = 0 from by decide +kernel, show win1_5.xsize (grid1.coords tlast1) 1 = 128 from by decide +kernel]; omega⟩

end Sums

/-! ## The column sums over all the rows, over the extended reals -/

section AtIdeal3
variable (V : (c : Dev nD) → (b : Ref sig .tc) → Buf (Elt Ideal) ((c : Thread nD τ).loc b))

/-- A running total over the grid whose first term is the sum, over the first block's 2000 rows, of `f` of the body's
    `y` at a fixed column, and whose every later step adds the same sum over the next block, ends, after the 25th
    block, at the sum of `f` of the specification's `y` over all 50000 rows of that column: row `2000 t + p` of the
    array is row `p` of block `t`, and 25 blocks of 2000 consecutive rows are the 50000 rows. Addition of extended
    reals is commutative and associative, so no finiteness is needed. -/
theorem acc_rows1 (c : Dev nD) (ws : Cert.Spec.S50000.Idx → Ideal .f32) (hsc : S50000.ShapeCasts S50000x1)
    (hds : (V c (Pipeline.arrRef spec1 2) : S50000x1.Idx → Ideal .f32) = shapeCast S50000x1 ws hsc)
    (q : Fin 128) (f : EReal → EReal) (a : (n : ℕ) → n < cfg1.N → EReal)
    (h0 : ∀ h, a 0 h = ∑ p : Fin 2000, f (k1_pay1 (iblk1 V c 0 ⟨0, h⟩) (iblk1 V c 1 ⟨0, h⟩) (iblk1 V c 2 ⟨0, h⟩) (ix2 p q)))
    (hs : ∀ n (h : n + 1 < cfg1.N), a (n + 1) h = a n (Nat.lt_of_succ_lt h)
      + ∑ p : Fin 2000, f (k1_pay1 (iblk1 V c 0 ⟨n + 1, h⟩) (iblk1 V c 1 ⟨n + 1, h⟩) (iblk1 V c 2 ⟨n + 1, h⟩) (ix2 p q))) :
    a tlast1.val tlast1.isLt = ∑ r : Fin 50000, f (Y1 V c ws (ix2 r q)) := by
  let g : ℕ → EReal := fun r => if h : r < 50000 then f (Y1 V c ws (ix2 ⟨r, h⟩ q)) else 0
  have hN : cfg1.N = 25 := N_1
  have hblock : ∀ (t : ℕ) (ht : t < cfg1.N),
      (∑ p : Fin 2000, f (k1_pay1 (iblk1 V c 0 ⟨t, ht⟩) (iblk1 V c 1 ⟨t, ht⟩) (iblk1 V c 2 ⟨t, ht⟩) (ix2 p q)))
        = ∑ p : Fin 2000, g (2000 * t + p.val) := by
    intro t ht
    refine Finset.sum_congr rfl fun p _ => ?_
    have hlt : 2000 * t + p.val < 50000 := by have := p.isLt; omega
    rw [show g (2000 * t + p.val) = f (Y1 V c ws (ix2 ⟨2000 * t + p.val, hlt⟩ q)) from dif_pos hlt]
    exact congrArg f (blockY1 V c ws hsc hds ⟨t, ht⟩ p q ⟨2000 * t + p.val, hlt⟩ rfl)
  have hrun := Cert.CombSums.running_sum a (fun t => ∑ p : Fin 2000, g (2000 * t + p.val))
    (fun h => (h0 h).trans (hblock 0 h))
    (fun n h => (hs n h).trans (congrArg (a n (Nat.lt_of_succ_lt h) + ·) (hblock (n + 1) h)))
  rw [hrun tlast1.val tlast1.isLt, Cert.CombSums.sum_range_blocks 25 2000 50000 rfl g]
  exact Finset.sum_congr rfl fun r _ => dif_pos r.isLt

/-- The array of the column sums of `y` after the region, at column `q`, is the host's sum over axis 0 of the
    specification's `y` at that column: both are the sum over the 50000 rows. -/
theorem final1_4 (c : Dev nD) (ws : Cert.Spec.S50000.Idx → Ideal .f32) (hsc : S50000.ShapeCasts S50000x1)
    (hds : (V c (Pipeline.arrRef spec1 2) : S50000x1.Idx → Ideal .f32) = shapeCast S50000x1 ws hsc) (q : Fin 128) :
    ((dat1 V c).arrAt 4 cfg1.N : S1x128.Idx → Ideal .f32) (ix2 (0 : Fin 1) q)
      = Host.reduceAdd (Y1 V c ws) (constant (F := Ideal) Cert.Spec.S_ .f32 0x00000000#32)
          Cert.Spec.reducesTo_S50000x128_S128_d0 Cert.Spec.h_S_ (ix1 q) := by
  rw [final1_4_acc,
    Cert.LibHostApply.reduceAdd_cols_apply_zero (Y1 V c ws) _ _ _ ((constant_apply _ _).trans Ideal.ofBits_zero_f32)]
  refine acc_rows1 V c ws hsc hds q (fun x => x) (fun n hn => acc1_4 V c n hn (ix2 (0 : Fin 1) q)) (fun h => ?_) (fun n h => ?_)
  · show acc1_4 V c 0 h (ix2 (0 : Fin 1) q) = _
    rw [acc1_4_zero, out1_4_first_eq]
    exact k1_pay2_apply _ _ _ q
  · show acc1_4 V c (n + 1) h (ix2 (0 : Fin 1) q) = acc1_4 V c n _ (ix2 (0 : Fin 1) q) + _
    rw [acc1_4_succ, out1_4_next_eq]
    exact congrArg (acc1_4 V c n (Nat.lt_of_succ_lt h) (ix2 (0 : Fin 1) q) + ·) (k1_pay2_apply _ _ _ q)

/-- The same for the column sums of `y * y`. -/
theorem final1_5 (c : Dev nD) (ws : Cert.Spec.S50000.Idx → Ideal .f32) (hsc : S50000.ShapeCasts S50000x1)
    (hds : (V c (Pipeline.arrRef spec1 2) : S50000x1.Idx → Ideal .f32) = shapeCast S50000x1 ws hsc) (q : Fin 128) :
    ((dat1 V c).arrAt 5 cfg1.N : S1x128.Idx → Ideal .f32) (ix2 (0 : Fin 1) q)
      = Host.reduceAdd (mulf (Y1 V c ws) (Y1 V c ws)) (constant (F := Ideal) Cert.Spec.S_ .f32 0x00000000#32)
          Cert.Spec.reducesTo_S50000x128_S128_d0 Cert.Spec.h_S_ (ix1 q) := by
  rw [final1_5_acc,
    Cert.LibHostApply.reduceAdd_cols_apply_zero (mulf (Y1 V c ws) (Y1 V c ws)) _ _ _ ((constant_apply _ _).trans Ideal.ofBits_zero_f32)]
  refine acc_rows1 V c ws hsc hds q (fun x => x * x) (fun n hn => acc1_5 V c n hn (ix2 (0 : Fin 1) q)) (fun h => ?_) (fun n h => ?_)
  · show acc1_5 V c 0 h (ix2 (0 : Fin 1) q) = _
    rw [acc1_5_zero, out1_5_first_eq]
    exact k1_pay3_apply _ _ _ q
  · show acc1_5 V c (n + 1) h (ix2 (0 : Fin 1) q) = acc1_5 V c n _ (ix2 (0 : Fin 1) q) + _
    rw [acc1_5_succ, out1_5_next_eq]
    exact congrArg (acc1_5 V c n (Nat.lt_of_succ_lt h) (ix2 (0 : Fin 1) q) + ·) (k1_pay3_apply _ _ _ q)

end AtIdeal3

end Cert.KernelIdeal.Gen

end
-- ==== Proof.CombValue4.lean ====
import proofs.«165059_j7095285973648_2_alg».proof.Proof.CombDat4
import proofs.«165059_j7095285973648_2_alg».proof.Proof.Spec
import proofs.«165059_j7095285973648_2_alg».proof.Proof.LibHostApply
import proofs.«165059_j7095285973648_2_alg».proof.Proof.LibStats
import proofs.«165059_j7095285973648_2_alg».proof.Proof.CombSums
import Idealize.ShloMosaic.Lib.Pipeline.Value
import Idealize.ShloMosaic.Lib.ValueIdx
import Idealize.ShloMosaic.PureOps.Ideal.Laws

/-!
# Region 4: what its three result arrays end holding

Over the extended reals. Let `agg`, `h` be the two 50000 × 64 arrays the region reads through windows 0 and 1 and
`ws` the 50000 self weights, which window 2 holds as a column. Row by row the body forms
`y = max (agg + h * ws) 0`; grid point `t` handles rows `2000 t … 2000 t + 1999`. So

* the array of `y` (window 3), written back block by block, ends as the whole 50000 × 64 array `y`;
* the one-row array of window 4 ends, at column `q`, as the sum of `y` over the 50000 rows of that column: after
  point `n` its buffer holds the sum over the first `n + 1` blocks, it is written back after the last point only,
  and 25 blocks of 2000 consecutive rows are all the rows;
* the one-row array of window 5 likewise ends as the column sums of `y * y`.

Each is stated against the specification's own terms: `y` as `relu64 (pre64 h agg ws)` and the sums as the host's
sum over axis 0 from the zero initial value.
-/

set_option maxRecDepth 16384

noncomputable section

namespace Cert.KernelIdeal.Gen

open Idealize.ShloMosaic Idealize.ShloMosaic.TcCoe Idealize.ShloMosaic.ValueIdx
open Idealize.SL.Sem
open Idealize.ShloMosaic.Pipeline (Dat)

/-! ## What each store leaves, at any float instance -/

section AnyF
variable {F : FTy → Type} [FloatOps F]

theorem hzero4 : (![0, 0] : Fin 2 → Nat) = fun _ => 0 := funext fun a => by fin_cases a <;> rfl

/-- One store over the whole block leaves its value, and a load of a whole block reads the block: the buffer of `y`
    holds the body's `y` of the three input blocks. -/
theorem out4_3_eq (x0 x1 : Vec F S2000x64 .f32) (x2 : Vec F S2000x1 .f32) : out4_3 x0 x1 x2 = k4_pay1 x0 x1 x2 := by
  unfold out4_3
  rw [View.canon_unit_zero hzero4]
  simp only [View.ld_unit_zero (S := S2000x64) hzero4, View.ld_unit_zero (S := S2000x1) hzero4]

/-- After the first point the accumulator of `y` holds the block's column sums of `y`, -/
theorem out4_4_first_eq (x0 x1 : Vec F S2000x64 .f32) (x2 : Vec F S2000x1 .f32) : out4_4_first x0 x1 x2 = k4_pay2 x0 x1 x2 := by
  unfold out4_4_first
  rw [View.canon_unit_zero hzero4]
  simp only [View.ld_unit_zero (S := S2000x64) hzero4, View.ld_unit_zero (S := S2000x1) hzero4]

/-- and that of `y * y` the block's column sums of `y * y`. -/
theorem out4_5_first_eq (x0 x1 : Vec F S2000x64 .f32) (x2 : Vec F S2000x1 .f32) : out4_5_first x0 x1 x2 = k4_pay3 x0 x1 x2 := by
  unfold out4_5_first
  rw [View.canon_unit_zero hzero4]
  simp only [View.ld_unit_zero (S := S2000x64) hzero4, View.ld_unit_zero (S := S2000x1) hzero4]

/-- After a later point an accumulator that held `a` holds `a` plus the block's column sums. -/
theorem out4_4_next_eq (x0 x1 : Vec F S2000x64 .f32) (x2 : Vec F S2000x1 .f32) (a : Vec F S1x64 .f32) :
    out4_4_next x0 x1 x2 a = addf a (k4_pay2 x0 x1 x2) := by
  unfold out4_4_next
  rw [View.canon_unit_zero hzero4]
  simp only [View.ld_unit_zero (S := S2000x64) hzero4, View.ld_unit_zero (S := S2000x1) hzero4, View.ld_unit_zero (S := S1x64) hzero4]
  unfold k4_pay4
  simp only [shapeCast_self]

theorem out4_5_next_eq (x0 x1 : Vec F S2000x64 .f32) (x2 : Vec F S2000x1 .f32) (a : Vec F S1x64 .f32) :
    out4_5_next x0 x1 x2 a = addf a (k4_pay3 x0 x1 x2) := by
  unfold out4_5_next
  rw [View.canon_unit_zero hzero4]
  simp only [View.ld_unit_zero (S := S2000x64) hzero4, View.ld_unit_zero (S := S2000x1) hzero4, View.ld_unit_zero (S := S1x64) hzero4]
  unfold k4_pay5
  simp only [shapeCast_self]

end AnyF

/-! ## The body's values read at an entry, over the extended reals -/

/-- The body's `y` at row `p`, column `q` of a block: `max (agg + h * dself) 0` of the entries there, the self weight
    read from the one column of its block. -/
theorem k4_pay1_apply (x0 x1 : Vec Ideal S2000x64 .f32) (x2 : Vec Ideal S2000x1 .f32) (p : Fin 2000) (q : Fin 64) :
    k4_pay1 x0 x1 x2 (ix2 p q) = max (x0 (ix2 p q) + x1 (ix2 p q) * x2 (ix2 p (0 : Fin 1))) (Ideal.ofBits .f32 0x00000000#32) := by
  unfold k4_pay1
  simp only [shapeCast_self]
  rw [maximumf_apply, addf_apply, mulf_apply]
  rw [broadcastTo_apply x2 _ (ix2 p q) (ix2 p (0 : Fin 1)) (fun a => by
    match a with
    | ⟨0, _⟩ => rfl
    | ⟨1, _⟩ => rfl)]
  rfl

/-- The block's column sum of `y` at column `q`: the sum over the block's 2000 rows. -/
theorem k4_pay2_apply (x0 x1 : Vec Ideal S2000x64 .f32) (x2 : Vec Ideal S2000x1 .f32) (q : Fin 64) :
    k4_pay2 x0 x1 x2 (ix2 (0 : Fin 1) q) = ∑ p : Fin 2000, k4_pay1 x0 x1 x2 (ix2 p q) := by
  unfold k4_pay2
  refine (Cert.LibHostApply.shapeCast_row_apply _ _ q).trans ?_
  refine (Ideal.multiReduction_add_single (k4_pay1 x0 x1 x2) 0x00000000#32 reduces_S2000x64_S64 (.inl rfl) rfl (ix1 q)).trans ?_
  refine Finset.sum_congr rfl fun p _ => congrArg (k4_pay1 x0 x1 x2) (funext fun a => Fin.ext ?_)
  match a with
  | ⟨0, _⟩ => rfl
  | ⟨1, _⟩ => rfl

/-- The block's column sum of `y * y` at column `q`. -/
theorem k4_pay3_apply (x0 x1 : Vec Ideal S2000x64 .f32) (x2 : Vec Ideal S2000x1 .f32) (q : Fin 64) :
    k4_pay3 x0 x1 x2 (ix2 (0 : Fin 1) q) = ∑ p : Fin 2000, k4_pay1 x0 x1 x2 (ix2 p q) * k4_pay1 x0 x1 x2 (ix2 p q) := by
  unfold k4_pay3
  refine (Cert.LibHostApply.shapeCast_row_apply _ _ q).trans ?_
  refine (Ideal.multiReduction_add_single (mulf (k4_pay1 x0 x1 x2) (k4_pay1 x0 x1 x2)) 0x00000000#32 reduces_S2000x64_S64 (.inl rfl) rfl (ix1 q)).trans ?_
  refine Finset.sum_congr rfl fun p _ => ?_
  rw [mulf_apply]
  have e : (reduces_S2000x64_S64.lift (ix1 q) p : S2000x64.Idx) = ix2 p q := funext fun a => Fin.ext (by
    match a with
    | ⟨0, _⟩ => rfl
    | ⟨1, _⟩ => rfl)
  rw [e]
  rfl

/-! ## The blocks as rows of the arrays -/

/-- The block index of each of the four row-blocked windows at grid point `t` is `(t, 0)`. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

section Blocks
variable {F : FTy → Type} [FloatOps F]
variable (V : (c : Dev nD) → (b : Ref sig .tc) → Buf (Elt F) ((c : Thread nD τ).loc b))

/-- Entry `x` of window 0's block at grid point `t` is the array's entry at row `2000 t + x 0`, column `x 1`. -/
theorem iblk4_0_apply (c : Dev nD) (t : Fin cfg4.N) (x : S2000x64.Idx) (k : S50000x64.Idx)
    (hk0 : (k 0).val = 2000 * t.val + (x 0).val) (hk1 : (k 1).val = (x 1).val) :
    (iblk4 V c 0 t : Vec F S2000x64 .f32) x = (V c (Pipeline.arrRef spec4 0) : S50000x64.Idx → Elt F .f32) k := by
  obtain ⟨e0, e1, -⟩ := idx_facts4 t
  unfold iblk4
  rw [View.read_apply]
  show V c (Pipeline.arrRef spec4 0) _ = V c (Pipeline.arrRef spec4 0) _
  congr 1
  funext a
  apply Fin.ext
  match a with
  | ⟨0, _⟩ => show win4_0.index t 0 * 2000 + 1 * (x 0).val = (k 0).val; rw [e0, hk0]; omega
  | ⟨1, _⟩ => show win4_0.index t 1 * 64 + 1 * (x 1).val = (k 1).val; rw [e1, hk1]; omega

/-- The same for window 1, -/
theorem iblk4_1_apply (c : Dev nD) (t : Fin cfg4.N) (x : S2000x64.Idx) (k : S50000x64.Idx)
    (hk0 : (k 0).val = 2000 * t.val + (x 0).val) (hk1 : (k 1).val = (x 1).val) :
    (iblk4 V c 1 t : Vec F S2000x64 .f32) x = (V c (Pipeline.arrRef spec4 1) : S50000x64.Idx → Elt F .f32) k := by
  obtain ⟨-, -, e0, e1, -⟩ := idx_facts4 t
  unfold iblk4
  rw [View.read_apply]
  show V c (Pipeline.arrRef spec4 1) _ = V c (Pipeline.arrRef spec4 1) _
  congr 1
  funext a
  apply Fin.ext
  match a with
  | ⟨0, _⟩ => show win4_1.index t 0 * 2000 + 1 * (x 0).val = (k 0).val; rw [e0, hk0]; omega
  | ⟨1, _⟩ => show win4_1.index t 1 * 64 + 1 * (x 1).val = (k 1).val; rw [e1, hk1]; omega

/-- and for the one-column window 2. -/
theorem iblk4_2_apply (c : Dev nD) (t : Fin cfg4.N) (x : S2000x1.Idx) (k : S50000x1.Idx)
    (hk0 : (k 0).val = 2000 * t.val + (x 0).val) (hk1 : (k 1).val = (x 1).val) :
    (iblk4 V c 2 t : Vec F S2000x1 .f32) x = (V c (Pipeline.arrRef spec4 2) : S50000x1.Idx → Elt F .f32) k := by
  obtain ⟨-, -, -, -, e0, e1, -⟩ := idx_facts4 t
  unfold iblk4
  rw [View.read_apply]
  show V c (Pipeline.arrRef spec4 2) _ = V c (Pipeline.arrRef spec4 2) _
  congr 1
  funext a
  apply Fin.ext
  match a with
  | ⟨0, _⟩ => show win4_2.index t 0 * 2000 + 1 * (x 0).val = (k 0).val; rw [e0, hk0]; omega
  | ⟨1, _⟩ => show win4_2.index t 1 * 1 + 1 * (x 1).val = (k 1).val; rw [e1, hk1]; omega

end Blocks

/-! ## The specification's `y` read at an entry -/

/-- `relu64 (pre64 h a ws)` at row `r`, column `q`: `max (a + h * ws r) 0` of the entries there. -/
theorem specY4_apply (h a : (⟨Cert.Spec.S50000x64, .f32⟩ : BufTy).Contents (Elt Ideal))
    (ws : (⟨Cert.Spec.S50000, .f32⟩ : BufTy).Contents (Elt Ideal)) (r : Fin 50000) (q : Fin 64) :
    Cert.Spec.relu64 (Cert.Spec.pre64 h a ws) (ix2 r q)
      = max (a (ix2 r q) + h (ix2 r q) * ws (ix1 r)) (Ideal.ofBits .f32 0x00000000#32) := by
  unfold Cert.Spec.relu64 Cert.Spec.pre64
  rw [maximumf_apply, addf_apply, mulf_apply, Cert.LibHostApply.broadcastInDim_cols_apply,
    Cert.LibHostApply.broadcastInDim_col_apply, Cert.LibHostApply.broadcastInDim_scalar_apply, constant_apply]

section AtIdeal
variable (V : (c : Dev nD) → (b : Ref sig .tc) → Buf (Elt Ideal) ((c : Thread nD τ).loc b))

/-- The specification's `y` from the arrays the region finds: the aggregate in window 0, the dense layer's output in
    window 1, and the self weights `ws`, which window 2 holds as a column. -/
abbrev Y4 (c : Dev nD) (ws : Cert.Spec.S50000.Idx → Ideal .f32) : Cert.Spec.S50000x64.Idx → Ideal .f32 :=
  Cert.Spec.relu64 (Cert.Spec.pre64 (V c (Pipeline.arrRef spec4 1)) (V c (Pipeline.arrRef spec4 0)) ws)

/-- An entry of the body's `y` at grid point `t`, row `p` of the block, is the specification's `y` at row
    `2000 t + p` of the array. -/
theorem blockY4 (c : Dev nD) (ws : Cert.Spec.S50000.Idx → Ideal .f32) (hsc : S50000.ShapeCasts S50000x1)
    (hds : (V c (Pipeline.arrRef spec4 2) : S50000x1.Idx → Ideal .f32) = shapeCast S50000x1 ws hsc)
    (t : Fin cfg4.N) (p : Fin 2000) (q : Fin 64) (r : Fin 50000) (hr : r.val = 2000 * t.val + p.val) :
    k4_pay1 (iblk4 V c 0 t) (iblk4 V c 1 t) (iblk4 V c 2 t) (ix2 p q) = Y4 V c ws (ix2 r q) := by
  refine (k4_pay1_apply (iblk4 V c 0 t) (iblk4 V c 1 t) (iblk4 V c 2 t) p q).trans ?_
  refine Eq.trans ?_ (specY4_apply (V c (Pipeline.arrRef spec4 1)) (V c (Pipeline.arrRef spec4 0)) ws r q).symm
  rw [iblk4_0_apply V c t (ix2 p q) (ix2 r q) hr rfl, iblk4_1_apply V c t (ix2 p q) (ix2 r q) hr rfl,
    iblk4_2_apply V c t (ix2 p (0 : Fin 1)) (ix2 r (0 : Fin 1)) hr rfl, hds, Cert.LibHostApply.shapeCast_col_apply]

/-- The same over any index of the block and the index of the array under it. -/
theorem blockY4_idx (c : Dev nD) (ws : Cert.Spec.S50000.Idx → Ideal .f32) (hsc : S50000.ShapeCasts S50000x1)
    (hds : (V c (Pipeline.arrRef spec4 2) : S50000x1.Idx → Ideal .f32) = shapeCast S50000x1 ws hsc)
    (t : Fin cfg4.N) (y : S2000x64.Idx) (k : S50000x64.Idx)
    (hk0 : (k 0).val = 2000 * t.val + (y 0).val) (hk1 : (k 1).val = (y 1).val) :
    k4_pay1 (iblk4 V c 0 t) (iblk4 V c 1 t) (iblk4 V c 2 t) y = Y4 V c ws k := by
  obtain ⟨p, q, rfl⟩ : ∃ (p : Fin 2000) (q : Fin 64), y = ix2 p q := ⟨y 0, y 1, eq_ix2 y⟩
  obtain ⟨r, q', rfl⟩ : ∃ (r : Fin 50000) (q' : Fin 64), k = ix2 r q' := ⟨k 0, k 1, eq_ix2 k⟩
  obtain rfl : q' = q := Fin.ext hk1
  exact blockY4 V c ws hsc hds t p q' r hk0

/-! ## Window 3: the array of `y` -/

/-- What grid point `t` writes back of `y` is block `t` of the specification's `y`. -/
theorem flushed4_3_eq (c : Dev nD) (ws : Cert.Spec.S50000.Idx → Ideal .f32) (hsc : S50000.ShapeCasts S50000x1)
    (hds : (V c (Pipeline.arrRef spec4 2) : S50000x1.Idx → Ideal .f32) = shapeCast S50000x1 ws hsc) (t : Fin cfg4.N) :
    (dat4 V c).flushed 3 t = ((cfg4.win 3).blk t).view.read (Elt Ideal) (Y4 V c ws) := by
  show (cfg4.win 3).cut (grid4.coords t) ((dat4 V c).after 3 t) = _
  rw [after4_3, out4_3_eq]
  obtain ⟨-, -, -, -, -, -, e0, e1⟩ := idx_facts4 t
  funext j
  exact blockY4_idx V c ws hsc hds t j (((cfg4.win 3).blk t).view.emb j)
    (by show win4_3.index t 0 * 2000 + 1 * (j 0).val = 2000 * t.val + (j 0).val; rw [e0]; omega)
    (by show win4_3.index t 1 * 64 + 1 * (j 1).val = (j 1).val; rw [e1]; omega)

/-- An index of the array of `y` is in grid point `t`'s block iff each coordinate is in the block's range. -/
theorem mem_blk4_3 (t : Fin cfg4.N) (i : S50000x64.Idx) :
    i ∈ ((cfg4.win 3).blk t).view.set ↔ ∀ a : Fin 2, win4_3.index t a * S2000x64.size a ≤ (i a).val ∧ (i a).val < win4_3.index t a * S2000x64.size a + S2000x64.size a := by
  show i ∈ ((View.whole main_v75_0).slice (win4_3.rect t)).set ↔ _
  rw [View.set_slice_whole, Rect.mem_set_unit]
  exact Iff.rfl

/-- The 25 blocks of 2000 rows cover the 50000 rows: row `r` is in block `r / 2000`. -/
theorem cover4_3 (i : S50000x64.Idx) :
    ∃ t : Fin cfg4.N, (cfg4.win 3).flush t = true ∧ i ∈ ((cfg4.win 3).blk t).view.set := by
  have hi0 : (i 0).val < 50000 := (i 0).isLt
  have hi1 : (i 1).val < 64 := (i 1).isLt
  have hN : cfg4.N = 25 := N_4
  have ht : (i 0).val / 2000 < cfg4.N := by rw [hN]; omega
  refine ⟨⟨(i 0).val / 2000, ht⟩, flush4_3 _, ?_⟩
  rw [mem_blk4_3]
  obtain ⟨-, -, -, -, -, -, e0, e1⟩ := idx_facts4 ⟨(i 0).val / 2000, ht⟩
  intro a
  match a with
  | ⟨0, _⟩ =>
    show win4_3.index ⟨(i 0).val / 2000, ht⟩ 0 * 2000 ≤ (i 0).val ∧ (i 0).val < win4_3.index ⟨(i 0).val / 2000, ht⟩ 0 * 2000 + 2000
    rw [e0]; dsimp only; omega
  | ⟨1, _⟩ =>
    show win4_3.index ⟨(i 0).val / 2000, ht⟩ 1 * 64 ≤ (i 1).val ∧ (i 1).val < win4_3.index ⟨(i 0).val / 2000, ht⟩ 1 * 64 + 64
    rw [e1]; omega

/-- The array of `y` after the region is the specification's `y`. -/
theorem final4_3 (c : Dev nD) (ws : Cert.Spec.S50000.Idx → Ideal .f32) (hsc : S50000.ShapeCasts S50000x1)
    (hds : (V c (Pipeline.arrRef spec4 2) : S50000x1.Idx → Ideal .f32) = shapeCast S50000x1 ws hsc) :
    (dat4 V c).arrAt 3 cfg4.N = Y4 V c ws :=
  (dat4 V c).arrAt_eq_of_cover 3 (Y4 V c ws) (fun t _ => flushed4_3_eq V c ws hsc hds t) (cover4_3)

end AtIdeal

/-! ## Windows 4 and 5: the arrays of the column sums, at any float instance -/

section Sums
variable {F : FTy → Type} [FloatOps F]
variable (V : (c : Dev nD) → (b : Ref sig .tc) → Buf (Elt F) ((c : Thread nD τ).loc b))

/-- The last grid point. -/
abbrev tlast4 : Fin cfg4.N := ⟨24, by decide⟩

/-- The running sums after the last grid point, as contents of the two one-row arrays. -/
abbrev sums4_4 (c : Dev nD) : Buf (Elt F) ((c : Thread nD τ).loc main_v75_1) := acc4_4 V c tlast4.val tlast4.isLt
abbrev sums4_5 (c : Dev nD) : Buf (Elt F) ((c : Thread nD τ).loc main_v75_2) := acc4_5 V c tlast4.val tlast4.isLt

/-- The one write-back of the sums of `y`, after the last point, writes the running sums there: the block is the
    whole one-row array. -/
theorem flushed4_4_eq (c : Dev nD) (t : Fin cfg4.N) (hf : (cfg4.win 4).flush t = true) :
    (dat4 V c).flushed 4 t = ((cfg4.win 4).blk t).view.read (Elt F) (sums4_4 V c) := by
  have hN : cfg4.N = 25 := N_4
  have h24 : t.val = 24 := by have := (flush4_4 t).mp hf; have := t.isLt; omega
  obtain rfl : t = tlast4 := Fin.ext h24
  show (cfg4.win 4).cut (grid4.coords tlast4) ((dat4 V c).after 4 tlast4) = _
  rw [after4_4]
  have hz' : (fun a => win4_4.index tlast4 a * main_v75_1.ty.shape.size a) = fun _ => 0 := funext fun a => by fin_cases a <;> decide
  exact (Memref.read_access_unit_zero (Elt F) main_v75_1 hz' (fun a => by rw [congrFun hz' a]; simp) (sums4_4 V c)).symm

theorem flushed4_5_eq (c : Dev nD) (t : Fin cfg4.N) (hf : (cfg4.win 5).flush t = true) :
    (dat4 V c).flushed 5 t = ((cfg4.win 5).blk t).view.read (Elt F) (sums4_5 V c) := by
  have hN : cfg4.N = 25 := N_4
  have h24 : t.val = 24 := by have := (flush4_5 t).mp hf; have := t.isLt; omega
  obtain rfl : t = tlast4 := Fin.ext h24
  show (cfg4.win 5).cut (grid4.coords tlast4) ((dat4 V c).after 5 tlast4) = _
  rw [after4_5]
  have hz' : (fun a => win4_5.index tlast4 a * main_v75_2.ty.shape.size a) = fun _ => 0 := funext fun a => by fin_cases a <;> decide
  exact (Memref.read_access_unit_zero (Elt F) main_v75_2 hz' (fun a => by rw [congrFun hz' a]; simp) (sums4_5 V c)).symm

/-- So the array of the sums of `y` ends holding the running sums after the last point, -/
theorem final4_4_acc (c : Dev nD) : (dat4 V c).arrAt 4 cfg4.N = sums4_4 V c :=
  (dat4 V c).arrAt_eq_of_cover 4 (sums4_4 V c) (flushed4_4_eq V c) fun i =>
    ⟨tlast4, (flush4_4 tlast4).mpr rfl, by
      show i ∈ ((View.whole main_v75_1).slice (win4_4.rect tlast4)).set
      rw [View.set_slice_whole, Rect.mem_set_unit]
      intro a
      have h0 : (i 0 : Nat) < 1 := (i 0).isLt
      have h1 : (i 1 : Nat) < 64 := (i 1).isLt
      match a with
      | ⟨0, _⟩ => show win4_4.index tlast4 0 * win4_4.size 0 ≤ (i 0 : Nat) ∧ (i 0 : Nat) < win4_4.index tlast4 0 * win4_4.size 0 + win4_4.xsize (grid4.coords tlast4) 0
                  rw [show win4_4.index tlast4 0 * win4_4.size 0 = 0 from by decide +kernel, show win4_4.xsize (grid4.coords tlast4) 0 = 1 from by decide +kernel]; omega
      | ⟨1, _⟩ => show win4_4.index tlast4 1 * win4_4.size 1 ≤ (i 1 : Nat) ∧ (i 1 : Nat) < win4_4.index tlast4 1 * win4_4.size 1 + win4_4.xsize (grid4.coords tlast4) 1
                  rw [show win4_4.index tlast4 1 * win4_4.size 1 = 0 from by decide +kernel, show win4_4.xsize (grid4.coords tlast4) 1 = 64 from by decide +kernel]; omega⟩

/-- and the array of the sums of `y * y` likewise. -/
theorem final4_5_acc (c : Dev nD) : (dat4 V c).arrAt 5 cfg4.N = sums4_5 V c :=
  (dat4 V c).arrAt_eq_of_cover 5 (sums4_5 V c) (flushed4_5_eq V c) fun i =>
    ⟨tlast4, (flush4_5 tlast4).mpr rfl, by
      show i ∈ ((View.whole main_v75_2).slice (win4_5.rect tlast4)).set
      rw [View.set_slice_whole, Rect.mem_set_unit]
      intro a
      have h0 : (i 0 : Nat) < 1 := (i 0).isLt
      have h1 : (i 1 : Nat) < 64 := (i 1).isLt
      match a with
      | ⟨0, _⟩ => show win4_5.index tlast4 0 * win4_5.size 0 ≤ (i 0 : Nat) ∧ (i 0 : Nat) < win4_5.index tlast4 0 * win4_5.size 0 + win4_5.xsize (grid4.coords tlast4) 0
                  rw [show win4_5.index tlast4 0 * win4_5.size 0 = 0 from by decide +kernel, show win4_5.xsize (grid4.coords tlast4) 0 = 1 from by decide +kernel]; omega
      | ⟨1, _⟩ => show win4_5.index tlast4 1 * win4_5.size 1 ≤ (i 1 : Nat) ∧ (i 1 : Nat) < win4_5.index tlast4 1 * win4_5.size 1 + win4_5.xsize (grid4.coords tlast4) 1
                  rw [show win4_5.index tlast4 1 * win4_5.size 1 = 0 from by decide +kernel, show win4_5.xsize (grid4.coords tlast4) 1 = 64 from by decide +kernel]; omega⟩

end Sums

/-! ## The column sums over all the rows, over the extended reals -/

section AtIdeal3
variable (V : (c : Dev nD) → (b : Ref sig .tc) → Buf (Elt Ideal) ((c : Thread nD τ).loc b))

/-- A running total over the grid whose first term is the sum, over the first block's 2000 rows, of `f` of the body's
    `y` at a fixed column, and whose every later step adds the same sum over the next block, ends, after the 25th
    block, at the sum of `f` of the specification's `y` over all 50000 rows of that column: row `2000 t + p` of the
    array is row `p` of block `t`, and 25 blocks of 2000 consecutive rows are the 50000 rows. Addition of extended
    reals is commutative and associative, so no finiteness is needed. -/
theorem acc_rows4 (c : Dev nD) (ws : Cert.Spec.S50000.Idx → Ideal .f32) (hsc : S50000.ShapeCasts S50000x1)
    (hds : (V c (Pipeline.arrRef spec4 2) : S50000x1.Idx → Ideal .f32) = shapeCast S50000x1 ws hsc)
    (q : Fin 64) (f : EReal → EReal) (a : (n : ℕ) → n < cfg4.N → EReal)
    (h0 : ∀ h, a 0 h = ∑ p : Fin 2000, f (k4_pay1 (iblk4 V c 0 ⟨0, h⟩) (iblk4 V c 1 ⟨0, h⟩) (iblk4 V c 2 ⟨0, h⟩) (ix2 p q)))
    (hs : ∀ n (h : n + 1 < cfg4.N), a (n + 1) h = a n (Nat.lt_of_succ_lt h)
      + ∑ p : Fin 2000, f (k4_pay1 (iblk4 V c 0 ⟨n + 1, h⟩) (iblk4 V c 1 ⟨n + 1, h⟩) (iblk4 V c 2 ⟨n + 1, h⟩) (ix2 p q))) :
    a tlast4.val tlast4.isLt = ∑ r : Fin 50000, f (Y4 V c ws (ix2 r q)) := by
  let g : ℕ → EReal := fun r => if h : r < 50000 then f (Y4 V c ws (ix2 ⟨r, h⟩ q)) else 0
  have hN : cfg4.N = 25 := N_4
  have hblock : ∀ (t : ℕ) (ht : t < cfg4.N),
      (∑ p : Fin 2000, f (k4_pay1 (iblk4 V c 0 ⟨t, ht⟩) (iblk4 V c 1 ⟨t, ht⟩) (iblk4 V c 2 ⟨t, ht⟩) (ix2 p q)))
        = ∑ p : Fin 2000, g (2000 * t + p.val) := by
    intro t ht
    refine Finset.sum_congr rfl fun p _ => ?_
    have hlt : 2000 * t + p.val < 50000 := by have := p.isLt; omega
    rw [show g (2000 * t + p.val) = f (Y4 V c ws (ix2 ⟨2000 * t + p.val, hlt⟩ q)) from dif_pos hlt]
    exact congrArg f (blockY4 V c ws hsc hds ⟨t, ht⟩ p q ⟨2000 * t + p.val, hlt⟩ rfl)
  have hrun := Cert.CombSums.running_sum a (fun t => ∑ p : Fin 2000, g (2000 * t + p.val))
    (fun h => (h0 h).trans (hblock 0 h))
    (fun n h => (hs n h).trans (congrArg (a n (Nat.lt_of_succ_lt h) + ·) (hblock (n + 1) h)))
  rw [hrun tlast4.val tlast4.isLt, Cert.CombSums.sum_range_blocks 25 2000 50000 rfl g]
  exact Finset.sum_congr rfl fun r _ => dif_pos r.isLt

/-- The array of the column sums of `y` after the region, at column `q`, is the host's sum over axis 0 of the
    specification's `y` at that column: both are the sum over the 50000 rows. -/
theorem final4_4 (c : Dev nD) (ws : Cert.Spec.S50000.Idx → Ideal .f32) (hsc : S50000.ShapeCasts S50000x1)
    (hds : (V c (Pipeline.arrRef spec4 2) : S50000x1.Idx → Ideal .f32) = shapeCast S50000x1 ws hsc) (q : Fin 64) :
    ((dat4 V c).arrAt 4 cfg4.N : S1x64.Idx → Ideal .f32) (ix2 (0 : Fin 1) q)
      = Host.reduceAdd (Y4 V c ws) (constant (F := Ideal) Cert.Spec.S_ .f32 0x00000000#32)
          Cert.Spec.reducesTo_S50000x64_S64_d0 Cert.Spec.h_S_ (ix1 q) := by
  rw [final4_4_acc,
    Cert.LibHostApply.reduceAdd_cols_apply_zero (Y4 V c ws) _ _ _ ((constant_apply _ _).trans Ideal.ofBits_zero_f32)]
  refine acc_rows4 V c ws hsc hds q (fun x => x) (fun n hn => acc4_4 V c n hn (ix2 (0 : Fin 1) q)) (fun h => ?_) (fun n h => ?_)
  · show acc4_4 V c 0 h (ix2 (0 : Fin 1) q) = _
    rw [acc4_4_zero, out4_4_first_eq]
    exact k4_pay2_apply _ _ _ q
  · show acc4_4 V c (n + 1) h (ix2 (0 : Fin 1) q) = acc4_4 V c n _ (ix2 (0 : Fin 1) q) + _
    rw [acc4_4_succ, out4_4_next_eq]
    exact congrArg (acc4_4 V c n (Nat.lt_of_succ_lt h) (ix2 (0 : Fin 1) q) + ·) (k4_pay2_apply _ _ _ q)

/-- The same for the column sums of `y * y`. -/
theorem final4_5 (c : Dev nD) (ws : Cert.Spec.S50000.Idx → Ideal .f32) (hsc : S50000.ShapeCasts S50000x1)
    (hds : (V c (Pipeline.arrRef spec4 2) : S50000x1.Idx → Ideal .f32) = shapeCast S50000x1 ws hsc) (q : Fin 64) :
    ((dat4 V c).arrAt 5 cfg4.N : S1x64.Idx → Ideal .f32) (ix2 (0 : Fin 1) q)
      = Host.reduceAdd (mulf (Y4 V c ws) (Y4 V c ws)) (constant (F := Ideal) Cert.Spec.S_ .f32 0x00000000#32)
          Cert.Spec.reducesTo_S50000x64_S64_d0 Cert.Spec.h_S_ (ix1 q) := by
  rw [final4_5_acc,
    Cert.LibHostApply.reduceAdd_cols_apply_zero (mulf (Y4 V c ws) (Y4 V c ws)) _ _ _ ((constant_apply _ _).trans Ideal.ofBits_zero_f32)]
  refine acc_rows4 V c ws hsc hds q (fun x => x * x) (fun n hn => acc4_5 V c n hn (ix2 (0 : Fin 1) q)) (fun h => ?_) (fun n h => ?_)
  · show acc4_5 V c 0 h (ix2 (0 : Fin 1) q) = _
    rw [acc4_5_zero, out4_5_first_eq]
    exact k4_pay3_apply _ _ _ q
  · show acc4_5 V c (n + 1) h (ix2 (0 : Fin 1) q) = acc4_5 V c n _ (ix2 (0 : Fin 1) q) + _
    rw [acc4_5_succ, out4_5_next_eq]
    exact congrArg (acc4_5 V c n (Nat.lt_of_succ_lt h) (ix2 (0 : Fin 1) q) + ·) (k4_pay3_apply _ _ _ q)

end AtIdeal3

end Cert.KernelIdeal.Gen

end
-- ==== Proof.CombValue7.lean ====
import proofs.«165059_j7095285973648_2_alg».proof.Proof.CombDat7
import proofs.«165059_j7095285973648_2_alg».proof.Proof.Spec
import proofs.«165059_j7095285973648_2_alg».proof.Proof.LibHostApply
import proofs.«165059_j7095285973648_2_alg».proof.Proof.LibStats
import proofs.«165059_j7095285973648_2_alg».proof.Proof.CombSums
import Idealize.ShloMosaic.Lib.Pipeline.Value
import Idealize.ShloMosaic.Lib.ValueIdx
import Idealize.ShloMosaic.PureOps.Ideal.Laws

/-!
# Region 7: what its three result arrays end holding

Over the extended reals. Let `agg`, `h` be the two 50000 × 128 arrays the region reads through windows 0 and 1 and
`ws` the 50000 self weights, which window 2 holds as a column. Row by row the body forms
`y = max (agg + h * ws) 0`; grid point `t` handles rows `2000 t … 2000 t + 1999`. So

* the array of `y` (window 3), written back block by block, ends as the whole 50000 × 128 array `y`;
* the one-row array of window 4 ends, at column `q`, as the sum of `y` over the 50000 rows of that column: after
  point `n` its buffer holds the sum over the first `n + 1` blocks, it is written back after the last point only,
  and 25 blocks of 2000 consecutive rows are all the rows;
* the one-row array of window 5 likewise ends as the column sums of `y * y`.

Each is stated against the specification's own terms: `y` as `relu128 (pre128 h agg ws)` and the sums as the host's
sum over axis 0 from the zero initial value.
-/

set_option maxRecDepth 16384

noncomputable section

namespace Cert.KernelIdeal.Gen

open Idealize.ShloMosaic Idealize.ShloMosaic.TcCoe Idealize.ShloMosaic.ValueIdx
open Idealize.SL.Sem
open Idealize.ShloMosaic.Pipeline (Dat)

/-! ## What each store leaves, at any float instance -/

section AnyF
variable {F : FTy → Type} [FloatOps F]

theorem hzero7 : (![0, 0] : Fin 2 → Nat) = fun _ => 0 := funext fun a => by fin_cases a <;> rfl

/-- One store over the whole block leaves its value, and a load of a whole block reads the block: the buffer of `y`
    holds the body's `y` of the three input blocks. -/
theorem out7_3_eq (x0 x1 : Vec F S2000x128 .f32) (x2 : Vec F S2000x1 .f32) : out7_3 x0 x1 x2 = k7_pay1 x0 x1 x2 := by
  unfold out7_3
  rw [View.canon_unit_zero hzero7]
  simp only [View.ld_unit_zero (S := S2000x128) hzero7, View.ld_unit_zero (S := S2000x1) hzero7]

/-- After the first point the accumulator of `y` holds the block's column sums of `y`, -/
theorem out7_4_first_eq (x0 x1 : Vec F S2000x128 .f32) (x2 : Vec F S2000x1 .f32) : out7_4_first x0 x1 x2 = k7_pay2 x0 x1 x2 := by
  unfold out7_4_first
  rw [View.canon_unit_zero hzero7]
  simp only [View.ld_unit_zero (S := S2000x128) hzero7, View.ld_unit_zero (S := S2000x1) hzero7]

/-- and that of `y * y` the block's column sums of `y * y`. -/
theorem out7_5_first_eq (x0 x1 : Vec F S2000x128 .f32) (x2 : Vec F S2000x1 .f32) : out7_5_first x0 x1 x2 = k7_pay3 x0 x1 x2 := by
  unfold out7_5_first
  rw [View.canon_unit_zero hzero7]
  simp only [View.ld_unit_zero (S := S2000x128) hzero7, View.ld_unit_zero (S := S2000x1) hzero7]

/-- After a later point an accumulator that held `a` holds `a` plus the block's column sums. -/
theorem out7_4_next_eq (x0 x1 : Vec F S2000x128 .f32) (x2 : Vec F S2000x1 .f32) (a : Vec F S1x128 .f32) :
    out7_4_next x0 x1 x2 a = addf a (k7_pay2 x0 x1 x2) := by
  unfold out7_4_next
  rw [View.canon_unit_zero hzero7]
  simp only [View.ld_unit_zero (S := S2000x128) hzero7, View.ld_unit_zero (S := S2000x1) hzero7, View.ld_unit_zero (S := S1x128) hzero7]
  unfold k7_pay4
  simp only [shapeCast_self]

theorem out7_5_next_eq (x0 x1 : Vec F S2000x128 .f32) (x2 : Vec F S2000x1 .f32) (a : Vec F S1x128 .f32) :
    out7_5_next x0 x1 x2 a = addf a (k7_pay3 x0 x1 x2) := by
  unfold out7_5_next
  rw [View.canon_unit_zero hzero7]
  simp only [View.ld_unit_zero (S := S2000x128) hzero7, View.ld_unit_zero (S := S2000x1) hzero7, View.ld_unit_zero (S := S1x128) hzero7]
  unfold k7_pay5
  simp only [shapeCast_self]

end AnyF

/-! ## The body's values read at an entry, over the extended reals -/

/-- The body's `y` at row `p`, column `q` of a block: `max (agg + h * dself) 0` of the entries there, the self weight
    read from the one column of its block. -/
theorem k7_pay1_apply (x0 x1 : Vec Ideal S2000x128 .f32) (x2 : Vec Ideal S2000x1 .f32) (p : Fin 2000) (q : Fin 128) :
    k7_pay1 x0 x1 x2 (ix2 p q) = max (x0 (ix2 p q) + x1 (ix2 p q) * x2 (ix2 p (0 : Fin 1))) (Ideal.ofBits .f32 0x00000000#32) := by
  unfold k7_pay1
  simp only [shapeCast_self]
  rw [maximumf_apply, addf_apply, mulf_apply]
  rw [broadcastTo_apply x2 _ (ix2 p q) (ix2 p (0 : Fin 1)) (fun a => by
    match a with
    | ⟨0, _⟩ => rfl
    | ⟨1, _⟩ => rfl)]
  rfl

/-- The block's column sum of `y` at column `q`: the sum over the block's 2000 rows. -/
theorem k7_pay2_apply (x0 x1 : Vec Ideal S2000x128 .f32) (x2 : Vec Ideal S2000x1 .f32) (q : Fin 128) :
    k7_pay2 x0 x1 x2 (ix2 (0 : Fin 1) q) = ∑ p : Fin 2000, k7_pay1 x0 x1 x2 (ix2 p q) := by
  unfold k7_pay2
  refine (Cert.LibHostApply.shapeCast_row_apply _ _ q).trans ?_
  refine (Ideal.multiReduction_add_single (k7_pay1 x0 x1 x2) 0x00000000#32 reduces_S2000x128_S128 (.inl rfl) rfl (ix1 q)).trans ?_
  refine Finset.sum_congr rfl fun p _ => congrArg (k7_pay1 x0 x1 x2) (funext fun a => Fin.ext ?_)
  match a with
  | ⟨0, _⟩ => rfl
  | ⟨1, _⟩ => rfl

/-- The block's column sum of `y * y` at column `q`. -/
theorem k7_pay3_apply (x0 x1 : Vec Ideal S2000x128 .f32) (x2 : Vec Ideal S2000x1 .f32) (q : Fin 128) :
    k7_pay3 x0 x1 x2 (ix2 (0 : Fin 1) q) = ∑ p : Fin 2000, k7_pay1 x0 x1 x2 (ix2 p q) * k7_pay1 x0 x1 x2 (ix2 p q) := by
  unfold k7_pay3
  refine (Cert.LibHostApply.shapeCast_row_apply _ _ q).trans ?_
  refine (Ideal.multiReduction_add_single (mulf (k7_pay1 x0 x1 x2) (k7_pay1 x0 x1 x2)) 0x00000000#32 reduces_S2000x128_S128 (.inl rfl) rfl (ix1 q)).trans ?_
  refine Finset.sum_congr rfl fun p _ => ?_
  rw [mulf_apply]
  have e : (reduces_S2000x128_S128.lift (ix1 q) p : S2000x128.Idx) = ix2 p q := funext fun a => Fin.ext (by
    match a with
    | ⟨0, _⟩ => rfl
    | ⟨1, _⟩ => rfl)
  rw [e]
  rfl

/-! ## The blocks as rows of the arrays -/

/-- The block index of each of the four row-blocked windows at grid point `t` is `(t, 0)`. -/
theorem idx_facts7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = t.val ∧ win7_3.index t (1 : Fin 2) = 0 :=
  (by decide +kernel : ∀ t : Fin grid7.N, _)

section Blocks
variable {F : FTy → Type} [FloatOps F]
variable (V : (c : Dev nD) → (b : Ref sig .tc) → Buf (Elt F) ((c : Thread nD τ).loc b))

/-- Entry `x` of window 0's block at grid point `t` is the array's entry at row `2000 t + x 0`, column `x 1`. -/
theorem iblk7_0_apply (c : Dev nD) (t : Fin cfg7.N) (x : S2000x128.Idx) (k : S50000x128.Idx)
    (hk0 : (k 0).val = 2000 * t.val + (x 0).val) (hk1 : (k 1).val = (x 1).val) :
    (iblk7 V c 0 t : Vec F S2000x128 .f32) x = (V c (Pipeline.arrRef spec7 0) : S50000x128.Idx → Elt F .f32) k := by
  obtain ⟨e0, e1, -⟩ := idx_facts7 t
  unfold iblk7
  rw [View.read_apply]
  show V c (Pipeline.arrRef spec7 0) _ = V c (Pipeline.arrRef spec7 0) _
  congr 1
  funext a
  apply Fin.ext
  match a with
  | ⟨0, _⟩ => show win7_0.index t 0 * 2000 + 1 * (x 0).val = (k 0).val; rw [e0, hk0]; omega
  | ⟨1, _⟩ => show win7_0.index t 1 * 128 + 1 * (x 1).val = (k 1).val; rw [e1, hk1]; omega

/-- The same for window 1, -/
theorem iblk7_1_apply (c : Dev nD) (t : Fin cfg7.N) (x : S2000x128.Idx) (k : S50000x128.Idx)
    (hk0 : (k 0).val = 2000 * t.val + (x 0).val) (hk1 : (k 1).val = (x 1).val) :
    (iblk7 V c 1 t : Vec F S2000x128 .f32) x = (V c (Pipeline.arrRef spec7 1) : S50000x128.Idx → Elt F .f32) k := by
  obtain ⟨-, -, e0, e1, -⟩ := idx_facts7 t
  unfold iblk7
  rw [View.read_apply]
  show V c (Pipeline.arrRef spec7 1) _ = V c (Pipeline.arrRef spec7 1) _
  congr 1
  funext a
  apply Fin.ext
  match a with
  | ⟨0, _⟩ => show win7_1.index t 0 * 2000 + 1 * (x 0).val = (k 0).val; rw [e0, hk0]; omega
  | ⟨1, _⟩ => show win7_1.index t 1 * 128 + 1 * (x 1).val = (k 1).val; rw [e1, hk1]; omega

/-- and for the one-column window 2. -/
theorem iblk7_2_apply (c : Dev nD) (t : Fin cfg7.N) (x : S2000x1.Idx) (k : S50000x1.Idx)
    (hk0 : (k 0).val = 2000 * t.val + (x 0).val) (hk1 : (k 1).val = (x 1).val) :
    (iblk7 V c 2 t : Vec F S2000x1 .f32) x = (V c (Pipeline.arrRef spec7 2) : S50000x1.Idx → Elt F .f32) k := by
  obtain ⟨-, -, -, -, e0, e1, -⟩ := idx_facts7 t
  unfold iblk7
  rw [View.read_apply]
  show V c (Pipeline.arrRef spec7 2) _ = V c (Pipeline.arrRef spec7 2) _
  congr 1
  funext a
  apply Fin.ext
  match a with
  | ⟨0, _⟩ => show win7_2.index t 0 * 2000 + 1 * (x 0).val = (k 0).val; rw [e0, hk0]; omega
  | ⟨1, _⟩ => show win7_2.index t 1 * 1 + 1 * (x 1).val = (k 1).val; rw [e1, hk1]; omega

end Blocks

/-! ## The specification's `y` read at an entry -/

/-- `relu128 (pre128 h a ws)` at row `r`, column `q`: `max (a + h * ws r) 0` of the entries there. -/
theorem specY7_apply (h a : (⟨Cert.Spec.S50000x128, .f32⟩ : BufTy).Contents (Elt Ideal))
    (ws : (⟨Cert.Spec.S50000, .f32⟩ : BufTy).Contents (Elt Ideal)) (r : Fin 50000) (q : Fin 128) :
    Cert.Spec.relu128 (Cert.Spec.pre128 h a ws) (ix2 r q)
      = max (a (ix2 r q) + h (ix2 r q) * ws (ix1 r)) (Ideal.ofBits .f32 0x00000000#32) := by
  unfold Cert.Spec.relu128 Cert.Spec.pre128
  rw [maximumf_apply, addf_apply, mulf_apply, Cert.LibHostApply.broadcastInDim_cols_apply,
    Cert.LibHostApply.broadcastInDim_col_apply, Cert.LibHostApply.broadcastInDim_scalar_apply, constant_apply]

section AtIdeal
variable (V : (c : Dev nD) → (b : Ref sig .tc) → Buf (Elt Ideal) ((c : Thread nD τ).loc b))

/-- The specification's `y` from the arrays the region finds: the aggregate in window 0, the dense layer's output in
    window 1, and the self weights `ws`, which window 2 holds as a column. -/
abbrev Y7 (c : Dev nD) (ws : Cert.Spec.S50000.Idx → Ideal .f32) : Cert.Spec.S50000x128.Idx → Ideal .f32 :=
  Cert.Spec.relu128 (Cert.Spec.pre128 (V c (Pipeline.arrRef spec7 1)) (V c (Pipeline.arrRef spec7 0)) ws)

/-- An entry of the body's `y` at grid point `t`, row `p` of the block, is the specification's `y` at row
    `2000 t + p` of the array. -/
theorem blockY7 (c : Dev nD) (ws : Cert.Spec.S50000.Idx → Ideal .f32) (hsc : S50000.ShapeCasts S50000x1)
    (hds : (V c (Pipeline.arrRef spec7 2) : S50000x1.Idx → Ideal .f32) = shapeCast S50000x1 ws hsc)
    (t : Fin cfg7.N) (p : Fin 2000) (q : Fin 128) (r : Fin 50000) (hr : r.val = 2000 * t.val + p.val) :
    k7_pay1 (iblk7 V c 0 t) (iblk7 V c 1 t) (iblk7 V c 2 t) (ix2 p q) = Y7 V c ws (ix2 r q) := by
  refine (k7_pay1_apply (iblk7 V c 0 t) (iblk7 V c 1 t) (iblk7 V c 2 t) p q).trans ?_
  refine Eq.trans ?_ (specY7_apply (V c (Pipeline.arrRef spec7 1)) (V c (Pipeline.arrRef spec7 0)) ws r q).symm
  rw [iblk7_0_apply V c t (ix2 p q) (ix2 r q) hr rfl, iblk7_1_apply V c t (ix2 p q) (ix2 r q) hr rfl,
    iblk7_2_apply V c t (ix2 p (0 : Fin 1)) (ix2 r (0 : Fin 1)) hr rfl, hds, Cert.LibHostApply.shapeCast_col_apply]

/-- The same over any index of the block and the index of the array under it. -/
theorem blockY7_idx (c : Dev nD) (ws : Cert.Spec.S50000.Idx → Ideal .f32) (hsc : S50000.ShapeCasts S50000x1)
    (hds : (V c (Pipeline.arrRef spec7 2) : S50000x1.Idx → Ideal .f32) = shapeCast S50000x1 ws hsc)
    (t : Fin cfg7.N) (y : S2000x128.Idx) (k : S50000x128.Idx)
    (hk0 : (k 0).val = 2000 * t.val + (y 0).val) (hk1 : (k 1).val = (y 1).val) :
    k7_pay1 (iblk7 V c 0 t) (iblk7 V c 1 t) (iblk7 V c 2 t) y = Y7 V c ws k := by
  obtain ⟨p, q, rfl⟩ : ∃ (p : Fin 2000) (q : Fin 128), y = ix2 p q := ⟨y 0, y 1, eq_ix2 y⟩
  obtain ⟨r, q', rfl⟩ : ∃ (r : Fin 50000) (q' : Fin 128), k = ix2 r q' := ⟨k 0, k 1, eq_ix2 k⟩
  obtain rfl : q' = q := Fin.ext hk1
  exact blockY7 V c ws hsc hds t p q' r hk0

/-! ## Window 3: the array of `y` -/

/-- What grid point `t` writes back of `y` is block `t` of the specification's `y`. -/
theorem flushed7_3_eq (c : Dev nD) (ws : Cert.Spec.S50000.Idx → Ideal .f32) (hsc : S50000.ShapeCasts S50000x1)
    (hds : (V c (Pipeline.arrRef spec7 2) : S50000x1.Idx → Ideal .f32) = shapeCast S50000x1 ws hsc) (t : Fin cfg7.N) :
    (dat7 V c).flushed 3 t = ((cfg7.win 3).blk t).view.read (Elt Ideal) (Y7 V c ws) := by
  show (cfg7.win 3).cut (grid7.coords t) ((dat7 V c).after 3 t) = _
  rw [after7_3, out7_3_eq]
  obtain ⟨-, -, -, -, -, -, e0, e1⟩ := idx_facts7 t
  funext j
  exact blockY7_idx V c ws hsc hds t j (((cfg7.win 3).blk t).view.emb j)
    (by show win7_3.index t 0 * 2000 + 1 * (j 0).val = 2000 * t.val + (j 0).val; rw [e0]; omega)
    (by show win7_3.index t 1 * 128 + 1 * (j 1).val = (j 1).val; rw [e1]; omega)

/-- An index of the array of `y` is in grid point `t`'s block iff each coordinate is in the block's range. -/
theorem mem_blk7_3 (t : Fin cfg7.N) (i : S50000x128.Idx) :
    i ∈ ((cfg7.win 3).blk t).view.set ↔ ∀ a : Fin 2, win7_3.index t a * S2000x128.size a ≤ (i a).val ∧ (i a).val < win7_3.index t a * S2000x128.size a + S2000x128.size a := by
  show i ∈ ((View.whole main_v102_0).slice (win7_3.rect t)).set ↔ _
  rw [View.set_slice_whole, Rect.mem_set_unit]
  exact Iff.rfl

/-- The 25 blocks of 2000 rows cover the 50000 rows: row `r` is in block `r / 2000`. -/
theorem cover7_3 (i : S50000x128.Idx) :
    ∃ t : Fin cfg7.N, (cfg7.win 3).flush t = true ∧ i ∈ ((cfg7.win 3).blk t).view.set := by
  have hi0 : (i 0).val < 50000 := (i 0).isLt
  have hi1 : (i 1).val < 128 := (i 1).isLt
  have hN : cfg7.N = 25 := N_7
  have ht : (i 0).val / 2000 < cfg7.N := by rw [hN]; omega
  refine ⟨⟨(i 0).val / 2000, ht⟩, flush7_3 _, ?_⟩
  rw [mem_blk7_3]
  obtain ⟨-, -, -, -, -, -, e0, e1⟩ := idx_facts7 ⟨(i 0).val / 2000, ht⟩
  intro a
  match a with
  | ⟨0, _⟩ =>
    show win7_3.index ⟨(i 0).val / 2000, ht⟩ 0 * 2000 ≤ (i 0).val ∧ (i 0).val < win7_3.index ⟨(i 0).val / 2000, ht⟩ 0 * 2000 + 2000
    rw [e0]; dsimp only; omega
  | ⟨1, _⟩ =>
    show win7_3.index ⟨(i 0).val / 2000, ht⟩ 1 * 128 ≤ (i 1).val ∧ (i 1).val < win7_3.index ⟨(i 0).val / 2000, ht⟩ 1 * 128 + 128
    rw [e1]; omega

/-- The array of `y` after the region is the specification's `y`. -/
theorem final7_3 (c : Dev nD) (ws : Cert.Spec.S50000.Idx → Ideal .f32) (hsc : S50000.ShapeCasts S50000x1)
    (hds : (V c (Pipeline.arrRef spec7 2) : S50000x1.Idx → Ideal .f32) = shapeCast S50000x1 ws hsc) :
    (dat7 V c).arrAt 3 cfg7.N = Y7 V c ws :=
  (dat7 V c).arrAt_eq_of_cover 3 (Y7 V c ws) (fun t _ => flushed7_3_eq V c ws hsc hds t) (cover7_3)

end AtIdeal

/-! ## Windows 4 and 5: the arrays of the column sums, at any float instance -/

section Sums
variable {F : FTy → Type} [FloatOps F]
variable (V : (c : Dev nD) → (b : Ref sig .tc) → Buf (Elt F) ((c : Thread nD τ).loc b))

/-- The last grid point. -/
abbrev tlast7 : Fin cfg7.N := ⟨24, by decide⟩

/-- The running sums after the last grid point, as contents of the two one-row arrays. -/
abbrev sums7_4 (c : Dev nD) : Buf (Elt F) ((c : Thread nD τ).loc main_v102_1) := acc7_4 V c tlast7.val tlast7.isLt
abbrev sums7_5 (c : Dev nD) : Buf (Elt F) ((c : Thread nD τ).loc main_v102_2) := acc7_5 V c tlast7.val tlast7.isLt

/-- The one write-back of the sums of `y`, after the last point, writes the running sums there: the block is the
    whole one-row array. -/
theorem flushed7_4_eq (c : Dev nD) (t : Fin cfg7.N) (hf : (cfg7.win 4).flush t = true) :
    (dat7 V c).flushed 4 t = ((cfg7.win 4).blk t).view.read (Elt F) (sums7_4 V c) := by
  have hN : cfg7.N = 25 := N_7
  have h24 : t.val = 24 := by have := (flush7_4 t).mp hf; have := t.isLt; omega
  obtain rfl : t = tlast7 := Fin.ext h24
  show (cfg7.win 4).cut (grid7.coords tlast7) ((dat7 V c).after 4 tlast7) = _
  rw [after7_4]
  have hz' : (fun a => win7_4.index tlast7 a * main_v102_1.ty.shape.size a) = fun _ => 0 := funext fun a => by fin_cases a <;> decide
  exact (Memref.read_access_unit_zero (Elt F) main_v102_1 hz' (fun a => by rw [congrFun hz' a]; simp) (sums7_4 V c)).symm

theorem flushed7_5_eq (c : Dev nD) (t : Fin cfg7.N) (hf : (cfg7.win 5).flush t = true) :
    (dat7 V c).flushed 5 t = ((cfg7.win 5).blk t).view.read (Elt F) (sums7_5 V c) := by
  have hN : cfg7.N = 25 := N_7
  have h24 : t.val = 24 := by have := (flush7_5 t).mp hf; have := t.isLt; omega
  obtain rfl : t = tlast7 := Fin.ext h24
  show (cfg7.win 5).cut (grid7.coords tlast7) ((dat7 V c).after 5 tlast7) = _
  rw [after7_5]
  have hz' : (fun a => win7_5.index tlast7 a * main_v102_2.ty.shape.size a) = fun _ => 0 := funext fun a => by fin_cases a <;> decide
  exact (Memref.read_access_unit_zero (Elt F) main_v102_2 hz' (fun a => by rw [congrFun hz' a]; simp) (sums7_5 V c)).symm

/-- So the array of the sums of `y` ends holding the running sums after the last point, -/
theorem final7_4_acc (c : Dev nD) : (dat7 V c).arrAt 4 cfg7.N = sums7_4 V c :=
  (dat7 V c).arrAt_eq_of_cover 4 (sums7_4 V c) (flushed7_4_eq V c) fun i =>
    ⟨tlast7, (flush7_4 tlast7).mpr rfl, by
      show i ∈ ((View.whole main_v102_1).slice (win7_4.rect tlast7)).set
      rw [View.set_slice_whole, Rect.mem_set_unit]
      intro a
      have h0 : (i 0 : Nat) < 1 := (i 0).isLt
      have h1 : (i 1 : Nat) < 128 := (i 1).isLt
      match a with
      | ⟨0, _⟩ => show win7_4.index tlast7 0 * win7_4.size 0 ≤ (i 0 : Nat) ∧ (i 0 : Nat) < win7_4.index tlast7 0 * win7_4.size 0 + win7_4.xsize (grid7.coords tlast7) 0
                  rw [show win7_4.index tlast7 0 * win7_4.size 0 = 0 from by decide +kernel, show win7_4.xsize (grid7.coords tlast7) 0 = 1 from by decide +kernel]; omega
      | ⟨1, _⟩ => show win7_4.index tlast7 1 * win7_4.size 1 ≤ (i 1 : Nat) ∧ (i 1 : Nat) < win7_4.index tlast7 1 * win7_4.size 1 + win7_4.xsize (grid7.coords tlast7) 1
                  rw [show win7_4.index tlast7 1 * win7_4.size 1 = 0 from by decide +kernel, show win7_4.xsize (grid7.coords tlast7) 1 = 128 from by decide +kernel]; omega⟩

/-- and the array of the sums of `y * y` likewise. -/
theorem final7_5_acc (c : Dev nD) : (dat7 V c).arrAt 5 cfg7.N = sums7_5 V c :=
  (dat7 V c).arrAt_eq_of_cover 5 (sums7_5 V c) (flushed7_5_eq V c) fun i =>
    ⟨tlast7, (flush7_5 tlast7).mpr rfl, by
      show i ∈ ((View.whole main_v102_2).slice (win7_5.rect tlast7)).set
      rw [View.set_slice_whole, Rect.mem_set_unit]
      intro a
      have h0 : (i 0 : Nat) < 1 := (i 0).isLt
      have h1 : (i 1 : Nat) < 128 := (i 1).isLt
      match a with
      | ⟨0, _⟩ => show win7_5.index tlast7 0 * win7_5.size 0 ≤ (i 0 : Nat) ∧ (i 0 : Nat) < win7_5.index tlast7 0 * win7_5.size 0 + win7_5.xsize (grid7.coords tlast7) 0
                  rw [show win7_5.index tlast7 0 * win7_5.size 0 = 0 from by decide +kernel, show win7_5.xsize (grid7.coords tlast7) 0 = 1 from by decide +kernel]; omega
      | ⟨1, _⟩ => show win7_5.index tlast7 1 * win7_5.size 1 ≤ (i 1 : Nat) ∧ (i 1 : Nat) < win7_5.index tlast7 1 * win7_5.size 1 + win7_5.xsize (grid7.coords tlast7) 1
                  rw [show win7_5.index tlast7 1 * win7_5.size 1 = 0 from by decide +kernel, show win7_5.xsize (grid7.coords tlast7) 1 = 128 from by decide +kernel]; omega⟩

end Sums

/-! ## The column sums over all the rows, over the extended reals -/

section AtIdeal3
variable (V : (c : Dev nD) → (b : Ref sig .tc) → Buf (Elt Ideal) ((c : Thread nD τ).loc b))

/-- A running total over the grid whose first term is the sum, over the first block's 2000 rows, of `f` of the body's
    `y` at a fixed column, and whose every later step adds the same sum over the next block, ends, after the 25th
    block, at the sum of `f` of the specification's `y` over all 50000 rows of that column: row `2000 t + p` of the
    array is row `p` of block `t`, and 25 blocks of 2000 consecutive rows are the 50000 rows. Addition of extended
    reals is commutative and associative, so no finiteness is needed. -/
theorem acc_rows7 (c : Dev nD) (ws : Cert.Spec.S50000.Idx → Ideal .f32) (hsc : S50000.ShapeCasts S50000x1)
    (hds : (V c (Pipeline.arrRef spec7 2) : S50000x1.Idx → Ideal .f32) = shapeCast S50000x1 ws hsc)
    (q : Fin 128) (f : EReal → EReal) (a : (n : ℕ) → n < cfg7.N → EReal)
    (h0 : ∀ h, a 0 h = ∑ p : Fin 2000, f (k7_pay1 (iblk7 V c 0 ⟨0, h⟩) (iblk7 V c 1 ⟨0, h⟩) (iblk7 V c 2 ⟨0, h⟩) (ix2 p q)))
    (hs : ∀ n (h : n + 1 < cfg7.N), a (n + 1) h = a n (Nat.lt_of_succ_lt h)
      + ∑ p : Fin 2000, f (k7_pay1 (iblk7 V c 0 ⟨n + 1, h⟩) (iblk7 V c 1 ⟨n + 1, h⟩) (iblk7 V c 2 ⟨n + 1, h⟩) (ix2 p q))) :
    a tlast7.val tlast7.isLt = ∑ r : Fin 50000, f (Y7 V c ws (ix2 r q)) := by
  let g : ℕ → EReal := fun r => if h : r < 50000 then f (Y7 V c ws (ix2 ⟨r, h⟩ q)) else 0
  have hN : cfg7.N = 25 := N_7
  have hblock : ∀ (t : ℕ) (ht : t < cfg7.N),
      (∑ p : Fin 2000, f (k7_pay1 (iblk7 V c 0 ⟨t, ht⟩) (iblk7 V c 1 ⟨t, ht⟩) (iblk7 V c 2 ⟨t, ht⟩) (ix2 p q)))
        = ∑ p : Fin 2000, g (2000 * t + p.val) := by
    intro t ht
    refine Finset.sum_congr rfl fun p _ => ?_
    have hlt : 2000 * t + p.val < 50000 := by have := p.isLt; omega
    rw [show g (2000 * t + p.val) = f (Y7 V c ws (ix2 ⟨2000 * t + p.val, hlt⟩ q)) from dif_pos hlt]
    exact congrArg f (blockY7 V c ws hsc hds ⟨t, ht⟩ p q ⟨2000 * t + p.val, hlt⟩ rfl)
  have hrun := Cert.CombSums.running_sum a (fun t => ∑ p : Fin 2000, g (2000 * t + p.val))
    (fun h => (h0 h).trans (hblock 0 h))
    (fun n h => (hs n h).trans (congrArg (a n (Nat.lt_of_succ_lt h) + ·) (hblock (n + 1) h)))
  rw [hrun tlast7.val tlast7.isLt, Cert.CombSums.sum_range_blocks 25 2000 50000 rfl g]
  exact Finset.sum_congr rfl fun r _ => dif_pos r.isLt

/-- The array of the column sums of `y` after the region, at column `q`, is the host's sum over axis 0 of the
    specification's `y` at that column: both are the sum over the 50000 rows. -/
theorem final7_4 (c : Dev nD) (ws : Cert.Spec.S50000.Idx → Ideal .f32) (hsc : S50000.ShapeCasts S50000x1)
    (hds : (V c (Pipeline.arrRef spec7 2) : S50000x1.Idx → Ideal .f32) = shapeCast S50000x1 ws hsc) (q : Fin 128) :
    ((dat7 V c).arrAt 4 cfg7.N : S1x128.Idx → Ideal .f32) (ix2 (0 : Fin 1) q)
      = Host.reduceAdd (Y7 V c ws) (constant (F := Ideal) Cert.Spec.S_ .f32 0x00000000#32)
          Cert.Spec.reducesTo_S50000x128_S128_d0 Cert.Spec.h_S_ (ix1 q) := by
  rw [final7_4_acc,
    Cert.LibHostApply.reduceAdd_cols_apply_zero (Y7 V c ws) _ _ _ ((constant_apply _ _).trans Ideal.ofBits_zero_f32)]
  refine acc_rows7 V c ws hsc hds q (fun x => x) (fun n hn => acc7_4 V c n hn (ix2 (0 : Fin 1) q)) (fun h => ?_) (fun n h => ?_)
  · show acc7_4 V c 0 h (ix2 (0 : Fin 1) q) = _
    rw [acc7_4_zero, out7_4_first_eq]
    exact k7_pay2_apply _ _ _ q
  · show acc7_4 V c (n + 1) h (ix2 (0 : Fin 1) q) = acc7_4 V c n _ (ix2 (0 : Fin 1) q) + _
    rw [acc7_4_succ, out7_4_next_eq]
    exact congrArg (acc7_4 V c n (Nat.lt_of_succ_lt h) (ix2 (0 : Fin 1) q) + ·) (k7_pay2_apply _ _ _ q)

/-- The same for the column sums of `y * y`. -/
theorem final7_5 (c : Dev nD) (ws : Cert.Spec.S50000.Idx → Ideal .f32) (hsc : S50000.ShapeCasts S50000x1)
    (hds : (V c (Pipeline.arrRef spec7 2) : S50000x1.Idx → Ideal .f32) = shapeCast S50000x1 ws hsc) (q : Fin 128) :
    ((dat7 V c).arrAt 5 cfg7.N : S1x128.Idx → Ideal .f32) (ix2 (0 : Fin 1) q)
      = Host.reduceAdd (mulf (Y7 V c ws) (Y7 V c ws)) (constant (F := Ideal) Cert.Spec.S_ .f32 0x00000000#32)
          Cert.Spec.reducesTo_S50000x128_S128_d0 Cert.Spec.h_S_ (ix1 q) := by
  rw [final7_5_acc,
    Cert.LibHostApply.reduceAdd_cols_apply_zero (mulf (Y7 V c ws) (Y7 V c ws)) _ _ _ ((constant_apply _ _).trans Ideal.ofBits_zero_f32)]
  refine acc_rows7 V c ws hsc hds q (fun x => x * x) (fun n hn => acc7_5 V c n hn (ix2 (0 : Fin 1) q)) (fun h => ?_) (fun n h => ?_)
  · show acc7_5 V c 0 h (ix2 (0 : Fin 1) q) = _
    rw [acc7_5_zero, out7_5_first_eq]
    exact k7_pay3_apply _ _ _ q
  · show acc7_5 V c (n + 1) h (ix2 (0 : Fin 1) q) = acc7_5 V c n _ (ix2 (0 : Fin 1) q) + _
    rw [acc7_5_succ, out7_5_next_eq]
    exact congrArg (acc7_5 V c n (Nat.lt_of_succ_lt h) (ix2 (0 : Fin 1) q) + ·) (k7_pay3_apply _ _ _ q)

end AtIdeal3

end Cert.KernelIdeal.Gen

end
-- ==== Proof.CombValue10.lean ====
import proofs.«165059_j7095285973648_2_alg».proof.Proof.CombDat10
import proofs.«165059_j7095285973648_2_alg».proof.Proof.Spec
import proofs.«165059_j7095285973648_2_alg».proof.Proof.LibHostApply
import proofs.«165059_j7095285973648_2_alg».proof.Proof.LibStats
import proofs.«165059_j7095285973648_2_alg».proof.Proof.CombSums
import Idealize.ShloMosaic.Lib.Pipeline.Value
import Idealize.ShloMosaic.Lib.ValueIdx
import Idealize.ShloMosaic.PureOps.Ideal.Laws

/-!
# Region 10: what its three result arrays end holding

Over the extended reals. Let `agg`, `h` be the two 50000 × 256 arrays the region reads through windows 0 and 1 and
`ws` the 50000 self weights, which window 2 holds as a column. Row by row the body forms
`y = max (agg + h * ws) 0`; grid point `t` handles rows `2000 t … 2000 t + 1999`. So

* the array of `y` (window 3), written back block by block, ends as the whole 50000 × 256 array `y`;
* the one-row array of window 4 ends, at column `q`, as the sum of `y` over the 50000 rows of that column: after
  point `n` its buffer holds the sum over the first `n + 1` blocks, it is written back after the last point only,
  and 25 blocks of 2000 consecutive rows are all the rows;
* the one-row array of window 5 likewise ends as the column sums of `y * y`.

Each is stated against the specification's own terms: `y` as `relu256 (pre256 h agg ws)` and the sums as the host's
sum over axis 0 from the zero initial value.
-/

set_option maxRecDepth 16384

noncomputable section

namespace Cert.KernelIdeal.Gen

open Idealize.ShloMosaic Idealize.ShloMosaic.TcCoe Idealize.ShloMosaic.ValueIdx
open Idealize.SL.Sem
open Idealize.ShloMosaic.Pipeline (Dat)

/-! ## What each store leaves, at any float instance -/

section AnyF
variable {F : FTy → Type} [FloatOps F]

theorem hzero10 : (![0, 0] : Fin 2 → Nat) = fun _ => 0 := funext fun a => by fin_cases a <;> rfl

/-- One store over the whole block leaves its value, and a load of a whole block reads the block: the buffer of `y`
    holds the body's `y` of the three input blocks. -/
theorem out10_3_eq (x0 x1 : Vec F S2000x256 .f32) (x2 : Vec F S2000x1 .f32) : out10_3 x0 x1 x2 = k10_pay1 x0 x1 x2 := by
  unfold out10_3
  rw [View.canon_unit_zero hzero10]
  simp only [View.ld_unit_zero (S := S2000x256) hzero10, View.ld_unit_zero (S := S2000x1) hzero10]

/-- After the first point the accumulator of `y` holds the block's column sums of `y`, -/
theorem out10_4_first_eq (x0 x1 : Vec F S2000x256 .f32) (x2 : Vec F S2000x1 .f32) : out10_4_first x0 x1 x2 = k10_pay2 x0 x1 x2 := by
  unfold out10_4_first
  rw [View.canon_unit_zero hzero10]
  simp only [View.ld_unit_zero (S := S2000x256) hzero10, View.ld_unit_zero (S := S2000x1) hzero10]

/-- and that of `y * y` the block's column sums of `y * y`. -/
theorem out10_5_first_eq (x0 x1 : Vec F S2000x256 .f32) (x2 : Vec F S2000x1 .f32) : out10_5_first x0 x1 x2 = k10_pay3 x0 x1 x2 := by
  unfold out10_5_first
  rw [View.canon_unit_zero hzero10]
  simp only [View.ld_unit_zero (S := S2000x256) hzero10, View.ld_unit_zero (S := S2000x1) hzero10]

/-- After a later point an accumulator that held `a` holds `a` plus the block's column sums. -/
theorem out10_4_next_eq (x0 x1 : Vec F S2000x256 .f32) (x2 : Vec F S2000x1 .f32) (a : Vec F S1x256 .f32) :
    out10_4_next x0 x1 x2 a = addf a (k10_pay2 x0 x1 x2) := by
  unfold out10_4_next
  rw [View.canon_unit_zero hzero10]
  simp only [View.ld_unit_zero (S := S2000x256) hzero10, View.ld_unit_zero (S := S2000x1) hzero10, View.ld_unit_zero (S := S1x256) hzero10]
  unfold k10_pay4
  simp only [shapeCast_self]

theorem out10_5_next_eq (x0 x1 : Vec F S2000x256 .f32) (x2 : Vec F S2000x1 .f32) (a : Vec F S1x256 .f32) :
    out10_5_next x0 x1 x2 a = addf a (k10_pay3 x0 x1 x2) := by
  unfold out10_5_next
  rw [View.canon_unit_zero hzero10]
  simp only [View.ld_unit_zero (S := S2000x256) hzero10, View.ld_unit_zero (S := S2000x1) hzero10, View.ld_unit_zero (S := S1x256) hzero10]
  unfold k10_pay5
  simp only [shapeCast_self]

end AnyF

/-! ## The body's values read at an entry, over the extended reals -/

/-- The body's `y` at row `p`, column `q` of a block: `max (agg + h * dself) 0` of the entries there, the self weight
    read from the one column of its block. -/
theorem k10_pay1_apply (x0 x1 : Vec Ideal S2000x256 .f32) (x2 : Vec Ideal S2000x1 .f32) (p : Fin 2000) (q : Fin 256) :
    k10_pay1 x0 x1 x2 (ix2 p q) = max (x0 (ix2 p q) + x1 (ix2 p q) * x2 (ix2 p (0 : Fin 1))) (Ideal.ofBits .f32 0x00000000#32) := by
  unfold k10_pay1
  simp only [shapeCast_self]
  rw [maximumf_apply, addf_apply, mulf_apply]
  rw [broadcastTo_apply x2 _ (ix2 p q) (ix2 p (0 : Fin 1)) (fun a => by
    match a with
    | ⟨0, _⟩ => rfl
    | ⟨1, _⟩ => rfl)]
  rfl

/-- The block's column sum of `y` at column `q`: the sum over the block's 2000 rows. -/
theorem k10_pay2_apply (x0 x1 : Vec Ideal S2000x256 .f32) (x2 : Vec Ideal S2000x1 .f32) (q : Fin 256) :
    k10_pay2 x0 x1 x2 (ix2 (0 : Fin 1) q) = ∑ p : Fin 2000, k10_pay1 x0 x1 x2 (ix2 p q) := by
  unfold k10_pay2
  refine (Cert.LibHostApply.shapeCast_row_apply _ _ q).trans ?_
  refine (Ideal.multiReduction_add_single (k10_pay1 x0 x1 x2) 0x00000000#32 reduces_S2000x256_S256 (.inl rfl) rfl (ix1 q)).trans ?_
  refine Finset.sum_congr rfl fun p _ => congrArg (k10_pay1 x0 x1 x2) (funext fun a => Fin.ext ?_)
  match a with
  | ⟨0, _⟩ => rfl
  | ⟨1, _⟩ => rfl

/-- The block's column sum of `y * y` at column `q`. -/
theorem k10_pay3_apply (x0 x1 : Vec Ideal S2000x256 .f32) (x2 : Vec Ideal S2000x1 .f32) (q : Fin 256) :
    k10_pay3 x0 x1 x2 (ix2 (0 : Fin 1) q) = ∑ p : Fin 2000, k10_pay1 x0 x1 x2 (ix2 p q) * k10_pay1 x0 x1 x2 (ix2 p q) := by
  unfold k10_pay3
  refine (Cert.LibHostApply.shapeCast_row_apply _ _ q).trans ?_
  refine (Ideal.multiReduction_add_single (mulf (k10_pay1 x0 x1 x2) (k10_pay1 x0 x1 x2)) 0x00000000#32 reduces_S2000x256_S256 (.inl rfl) rfl (ix1 q)).trans ?_
  refine Finset.sum_congr rfl fun p _ => ?_
  rw [mulf_apply]
  have e : (reduces_S2000x256_S256.lift (ix1 q) p : S2000x256.Idx) = ix2 p q := funext fun a => Fin.ext (by
    match a with
    | ⟨0, _⟩ => rfl
    | ⟨1, _⟩ => rfl)
  rw [e]
  rfl

/-! ## The blocks as rows of the arrays -/

/-- The block index of each of the four row-blocked windows at grid point `t` is `(t, 0)`. -/
theorem idx_facts10 : ∀ t : Fin cfg10.N, win10_0.index t (0 : Fin 2) = t.val ∧ win10_0.index t (1 : Fin 2) = 0
    ∧ win10_1.index t (0 : Fin 2) = t.val ∧ win10_1.index t (1 : Fin 2) = 0
    ∧ win10_2.index t (0 : Fin 2) = t.val ∧ win10_2.index t (1 : Fin 2) = 0
    ∧ win10_3.index t (0 : Fin 2) = t.val ∧ win10_3.index t (1 : Fin 2) = 0 :=
  (by decide +kernel : ∀ t : Fin grid10.N, _)

section Blocks
variable {F : FTy → Type} [FloatOps F]
variable (V : (c : Dev nD) → (b : Ref sig .tc) → Buf (Elt F) ((c : Thread nD τ).loc b))

/-- Entry `x` of window 0's block at grid point `t` is the array's entry at row `2000 t + x 0`, column `x 1`. -/
theorem iblk10_0_apply (c : Dev nD) (t : Fin cfg10.N) (x : S2000x256.Idx) (k : S50000x256.Idx)
    (hk0 : (k 0).val = 2000 * t.val + (x 0).val) (hk1 : (k 1).val = (x 1).val) :
    (iblk10 V c 0 t : Vec F S2000x256 .f32) x = (V c (Pipeline.arrRef spec10 0) : S50000x256.Idx → Elt F .f32) k := by
  obtain ⟨e0, e1, -⟩ := idx_facts10 t
  unfold iblk10
  rw [View.read_apply]
  show V c (Pipeline.arrRef spec10 0) _ = V c (Pipeline.arrRef spec10 0) _
  congr 1
  funext a
  apply Fin.ext
  match a with
  | ⟨0, _⟩ => show win10_0.index t 0 * 2000 + 1 * (x 0).val = (k 0).val; rw [e0, hk0]; omega
  | ⟨1, _⟩ => show win10_0.index t 1 * 256 + 1 * (x 1).val = (k 1).val; rw [e1, hk1]; omega

/-- The same for window 1, -/
theorem iblk10_1_apply (c : Dev nD) (t : Fin cfg10.N) (x : S2000x256.Idx) (k : S50000x256.Idx)
    (hk0 : (k 0).val = 2000 * t.val + (x 0).val) (hk1 : (k 1).val = (x 1).val) :
    (iblk10 V c 1 t : Vec F S2000x256 .f32) x = (V c (Pipeline.arrRef spec10 1) : S50000x256.Idx → Elt F .f32) k := by
  obtain ⟨-, -, e0, e1, -⟩ := idx_facts10 t
  unfold iblk10
  rw [View.read_apply]
  show V c (Pipeline.arrRef spec10 1) _ = V c (Pipeline.arrRef spec10 1) _
  congr 1
  funext a
  apply Fin.ext
  match a with
  | ⟨0, _⟩ => show win10_1.index t 0 * 2000 + 1 * (x 0).val = (k 0).val; rw [e0, hk0]; omega
  | ⟨1, _⟩ => show win10_1.index t 1 * 256 + 1 * (x 1).val = (k 1).val; rw [e1, hk1]; omega

/-- and for the one-column window 2. -/
theorem iblk10_2_apply (c : Dev nD) (t : Fin cfg10.N) (x : S2000x1.Idx) (k : S50000x1.Idx)
    (hk0 : (k 0).val = 2000 * t.val + (x 0).val) (hk1 : (k 1).val = (x 1).val) :
    (iblk10 V c 2 t : Vec F S2000x1 .f32) x = (V c (Pipeline.arrRef spec10 2) : S50000x1.Idx → Elt F .f32) k := by
  obtain ⟨-, -, -, -, e0, e1, -⟩ := idx_facts10 t
  unfold iblk10
  rw [View.read_apply]
  show V c (Pipeline.arrRef spec10 2) _ = V c (Pipeline.arrRef spec10 2) _
  congr 1
  funext a
  apply Fin.ext
  match a with
  | ⟨0, _⟩ => show win10_2.index t 0 * 2000 + 1 * (x 0).val = (k 0).val; rw [e0, hk0]; omega
  | ⟨1, _⟩ => show win10_2.index t 1 * 1 + 1 * (x 1).val = (k 1).val; rw [e1, hk1]; omega

end Blocks

/-! ## The specification's `y` read at an entry -/

/-- `relu256 (pre256 h a ws)` at row `r`, column `q`: `max (a + h * ws r) 0` of the entries there. -/
theorem specY10_apply (h a : (⟨Cert.Spec.S50000x256, .f32⟩ : BufTy).Contents (Elt Ideal))
    (ws : (⟨Cert.Spec.S50000, .f32⟩ : BufTy).Contents (Elt Ideal)) (r : Fin 50000) (q : Fin 256) :
    Cert.Spec.relu256 (Cert.Spec.pre256 h a ws) (ix2 r q)
      = max (a (ix2 r q) + h (ix2 r q) * ws (ix1 r)) (Ideal.ofBits .f32 0x00000000#32) := by
  unfold Cert.Spec.relu256 Cert.Spec.pre256
  rw [maximumf_apply, addf_apply, mulf_apply, Cert.LibHostApply.broadcastInDim_cols_apply,
    Cert.LibHostApply.broadcastInDim_col_apply, Cert.LibHostApply.broadcastInDim_scalar_apply, constant_apply]

section AtIdeal
variable (V : (c : Dev nD) → (b : Ref sig .tc) → Buf (Elt Ideal) ((c : Thread nD τ).loc b))

/-- The specification's `y` from the arrays the region finds: the aggregate in window 0, the dense layer's output in
    window 1, and the self weights `ws`, which window 2 holds as a column. -/
abbrev Y10 (c : Dev nD) (ws : Cert.Spec.S50000.Idx → Ideal .f32) : Cert.Spec.S50000x256.Idx → Ideal .f32 :=
  Cert.Spec.relu256 (Cert.Spec.pre256 (V c (Pipeline.arrRef spec10 1)) (V c (Pipeline.arrRef spec10 0)) ws)

/-- An entry of the body's `y` at grid point `t`, row `p` of the block, is the specification's `y` at row
    `2000 t + p` of the array. -/
theorem blockY10 (c : Dev nD) (ws : Cert.Spec.S50000.Idx → Ideal .f32) (hsc : S50000.ShapeCasts S50000x1)
    (hds : (V c (Pipeline.arrRef spec10 2) : S50000x1.Idx → Ideal .f32) = shapeCast S50000x1 ws hsc)
    (t : Fin cfg10.N) (p : Fin 2000) (q : Fin 256) (r : Fin 50000) (hr : r.val = 2000 * t.val + p.val) :
    k10_pay1 (iblk10 V c 0 t) (iblk10 V c 1 t) (iblk10 V c 2 t) (ix2 p q) = Y10 V c ws (ix2 r q) := by
  refine (k10_pay1_apply (iblk10 V c 0 t) (iblk10 V c 1 t) (iblk10 V c 2 t) p q).trans ?_
  refine Eq.trans ?_ (specY10_apply (V c (Pipeline.arrRef spec10 1)) (V c (Pipeline.arrRef spec10 0)) ws r q).symm
  rw [iblk10_0_apply V c t (ix2 p q) (ix2 r q) hr rfl, iblk10_1_apply V c t (ix2 p q) (ix2 r q) hr rfl,
    iblk10_2_apply V c t (ix2 p (0 : Fin 1)) (ix2 r (0 : Fin 1)) hr rfl, hds, Cert.LibHostApply.shapeCast_col_apply]

/-- The same over any index of the block and the index of the array under it. -/
theorem blockY10_idx (c : Dev nD) (ws : Cert.Spec.S50000.Idx → Ideal .f32) (hsc : S50000.ShapeCasts S50000x1)
    (hds : (V c (Pipeline.arrRef spec10 2) : S50000x1.Idx → Ideal .f32) = shapeCast S50000x1 ws hsc)
    (t : Fin cfg10.N) (y : S2000x256.Idx) (k : S50000x256.Idx)
    (hk0 : (k 0).val = 2000 * t.val + (y 0).val) (hk1 : (k 1).val = (y 1).val) :
    k10_pay1 (iblk10 V c 0 t) (iblk10 V c 1 t) (iblk10 V c 2 t) y = Y10 V c ws k := by
  obtain ⟨p, q, rfl⟩ : ∃ (p : Fin 2000) (q : Fin 256), y = ix2 p q := ⟨y 0, y 1, eq_ix2 y⟩
  obtain ⟨r, q', rfl⟩ : ∃ (r : Fin 50000) (q' : Fin 256), k = ix2 r q' := ⟨k 0, k 1, eq_ix2 k⟩
  obtain rfl : q' = q := Fin.ext hk1
  exact blockY10 V c ws hsc hds t p q' r hk0

/-! ## Window 3: the array of `y` -/

/-- What grid point `t` writes back of `y` is block `t` of the specification's `y`. -/
theorem flushed10_3_eq (c : Dev nD) (ws : Cert.Spec.S50000.Idx → Ideal .f32) (hsc : S50000.ShapeCasts S50000x1)
    (hds : (V c (Pipeline.arrRef spec10 2) : S50000x1.Idx → Ideal .f32) = shapeCast S50000x1 ws hsc) (t : Fin cfg10.N) :
    (dat10 V c).flushed 3 t = ((cfg10.win 3).blk t).view.read (Elt Ideal) (Y10 V c ws) := by
  show (cfg10.win 3).cut (grid10.coords t) ((dat10 V c).after 3 t) = _
  rw [after10_3, out10_3_eq]
  obtain ⟨-, -, -, -, -, -, e0, e1⟩ := idx_facts10 t
  funext j
  exact blockY10_idx V c ws hsc hds t j (((cfg10.win 3).blk t).view.emb j)
    (by show win10_3.index t 0 * 2000 + 1 * (j 0).val = 2000 * t.val + (j 0).val; rw [e0]; omega)
    (by show win10_3.index t 1 * 256 + 1 * (j 1).val = (j 1).val; rw [e1]; omega)

/-- An index of the array of `y` is in grid point `t`'s block iff each coordinate is in the block's range. -/
theorem mem_blk10_3 (t : Fin cfg10.N) (i : S50000x256.Idx) :
    i ∈ ((cfg10.win 3).blk t).view.set ↔ ∀ a : Fin 2, win10_3.index t a * S2000x256.size a ≤ (i a).val ∧ (i a).val < win10_3.index t a * S2000x256.size a + S2000x256.size a := by
  show i ∈ ((View.whole main_v129_0).slice (win10_3.rect t)).set ↔ _
  rw [View.set_slice_whole, Rect.mem_set_unit]
  exact Iff.rfl

/-- The 25 blocks of 2000 rows cover the 50000 rows: row `r` is in block `r / 2000`. -/
theorem cover10_3 (i : S50000x256.Idx) :
    ∃ t : Fin cfg10.N, (cfg10.win 3).flush t = true ∧ i ∈ ((cfg10.win 3).blk t).view.set := by
  have hi0 : (i 0).val < 50000 := (i 0).isLt
  have hi1 : (i 1).val < 256 := (i 1).isLt
  have hN : cfg10.N = 25 := N_10
  have ht : (i 0).val / 2000 < cfg10.N := by rw [hN]; omega
  refine ⟨⟨(i 0).val / 2000, ht⟩, flush10_3 _, ?_⟩
  rw [mem_blk10_3]
  obtain ⟨-, -, -, -, -, -, e0, e1⟩ := idx_facts10 ⟨(i 0).val / 2000, ht⟩
  intro a
  match a with
  | ⟨0, _⟩ =>
    show win10_3.index ⟨(i 0).val / 2000, ht⟩ 0 * 2000 ≤ (i 0).val ∧ (i 0).val < win10_3.index ⟨(i 0).val / 2000, ht⟩ 0 * 2000 + 2000
    rw [e0]; dsimp only; omega
  | ⟨1, _⟩ =>
    show win10_3.index ⟨(i 0).val / 2000, ht⟩ 1 * 256 ≤ (i 1).val ∧ (i 1).val < win10_3.index ⟨(i 0).val / 2000, ht⟩ 1 * 256 + 256
    rw [e1]; omega

/-- The array of `y` after the region is the specification's `y`. -/
theorem final10_3 (c : Dev nD) (ws : Cert.Spec.S50000.Idx → Ideal .f32) (hsc : S50000.ShapeCasts S50000x1)
    (hds : (V c (Pipeline.arrRef spec10 2) : S50000x1.Idx → Ideal .f32) = shapeCast S50000x1 ws hsc) :
    (dat10 V c).arrAt 3 cfg10.N = Y10 V c ws :=
  (dat10 V c).arrAt_eq_of_cover 3 (Y10 V c ws) (fun t _ => flushed10_3_eq V c ws hsc hds t) (cover10_3)

end AtIdeal

/-! ## Windows 4 and 5: the arrays of the column sums, at any float instance -/

section Sums
variable {F : FTy → Type} [FloatOps F]
variable (V : (c : Dev nD) → (b : Ref sig .tc) → Buf (Elt F) ((c : Thread nD τ).loc b))

/-- The last grid point. -/
abbrev tlast10 : Fin cfg10.N := ⟨24, by decide⟩

/-- The running sums after the last grid point, as contents of the two one-row arrays. -/
abbrev sums10_4 (c : Dev nD) : Buf (Elt F) ((c : Thread nD τ).loc main_v129_1) := acc10_4 V c tlast10.val tlast10.isLt
abbrev sums10_5 (c : Dev nD) : Buf (Elt F) ((c : Thread nD τ).loc main_v129_2) := acc10_5 V c tlast10.val tlast10.isLt

/-- The one write-back of the sums of `y`, after the last point, writes the running sums there: the block is the
    whole one-row array. -/
theorem flushed10_4_eq (c : Dev nD) (t : Fin cfg10.N) (hf : (cfg10.win 4).flush t = true) :
    (dat10 V c).flushed 4 t = ((cfg10.win 4).blk t).view.read (Elt F) (sums10_4 V c) := by
  have hN : cfg10.N = 25 := N_10
  have h24 : t.val = 24 := by have := (flush10_4 t).mp hf; have := t.isLt; omega
  obtain rfl : t = tlast10 := Fin.ext h24
  show (cfg10.win 4).cut (grid10.coords tlast10) ((dat10 V c).after 4 tlast10) = _
  rw [after10_4]
  have hz' : (fun a => win10_4.index tlast10 a * main_v129_1.ty.shape.size a) = fun _ => 0 := funext fun a => by fin_cases a <;> decide
  exact (Memref.read_access_unit_zero (Elt F) main_v129_1 hz' (fun a => by rw [congrFun hz' a]; simp) (sums10_4 V c)).symm

theorem flushed10_5_eq (c : Dev nD) (t : Fin cfg10.N) (hf : (cfg10.win 5).flush t = true) :
    (dat10 V c).flushed 5 t = ((cfg10.win 5).blk t).view.read (Elt F) (sums10_5 V c) := by
  have hN : cfg10.N = 25 := N_10
  have h24 : t.val = 24 := by have := (flush10_5 t).mp hf; have := t.isLt; omega
  obtain rfl : t = tlast10 := Fin.ext h24
  show (cfg10.win 5).cut (grid10.coords tlast10) ((dat10 V c).after 5 tlast10) = _
  rw [after10_5]
  have hz' : (fun a => win10_5.index tlast10 a * main_v129_2.ty.shape.size a) = fun _ => 0 := funext fun a => by fin_cases a <;> decide
  exact (Memref.read_access_unit_zero (Elt F) main_v129_2 hz' (fun a => by rw [congrFun hz' a]; simp) (sums10_5 V c)).symm

/-- So the array of the sums of `y` ends holding the running sums after the last point, -/
theorem final10_4_acc (c : Dev nD) : (dat10 V c).arrAt 4 cfg10.N = sums10_4 V c :=
  (dat10 V c).arrAt_eq_of_cover 4 (sums10_4 V c) (flushed10_4_eq V c) fun i =>
    ⟨tlast10, (flush10_4 tlast10).mpr rfl, by
      show i ∈ ((View.whole main_v129_1).slice (win10_4.rect tlast10)).set
      rw [View.set_slice_whole, Rect.mem_set_unit]
      intro a
      have h0 : (i 0 : Nat) < 1 := (i 0).isLt
      have h1 : (i 1 : Nat) < 256 := (i 1).isLt
      match a with
      | ⟨0, _⟩ => show win10_4.index tlast10 0 * win10_4.size 0 ≤ (i 0 : Nat) ∧ (i 0 : Nat) < win10_4.index tlast10 0 * win10_4.size 0 + win10_4.xsize (grid10.coords tlast10) 0
                  rw [show win10_4.index tlast10 0 * win10_4.size 0 = 0 from by decide +kernel, show win10_4.xsize (grid10.coords tlast10) 0 = 1 from by decide +kernel]; omega
      | ⟨1, _⟩ => show win10_4.index tlast10 1 * win10_4.size 1 ≤ (i 1 : Nat) ∧ (i 1 : Nat) < win10_4.index tlast10 1 * win10_4.size 1 + win10_4.xsize (grid10.coords tlast10) 1
                  rw [show win10_4.index tlast10 1 * win10_4.size 1 = 0 from by decide +kernel, show win10_4.xsize (grid10.coords tlast10) 1 = 256 from by decide +kernel]; omega⟩

/-- and the array of the sums of `y * y` likewise. -/
theorem final10_5_acc (c : Dev nD) : (dat10 V c).arrAt 5 cfg10.N = sums10_5 V c :=
  (dat10 V c).arrAt_eq_of_cover 5 (sums10_5 V c) (flushed10_5_eq V c) fun i =>
    ⟨tlast10, (flush10_5 tlast10).mpr rfl, by
      show i ∈ ((View.whole main_v129_2).slice (win10_5.rect tlast10)).set
      rw [View.set_slice_whole, Rect.mem_set_unit]
      intro a
      have h0 : (i 0 : Nat) < 1 := (i 0).isLt
      have h1 : (i 1 : Nat) < 256 := (i 1).isLt
      match a with
      | ⟨0, _⟩ => show win10_5.index tlast10 0 * win10_5.size 0 ≤ (i 0 : Nat) ∧ (i 0 : Nat) < win10_5.index tlast10 0 * win10_5.size 0 + win10_5.xsize (grid10.coords tlast10) 0
                  rw [show win10_5.index tlast10 0 * win10_5.size 0 = 0 from by decide +kernel, show win10_5.xsize (grid10.coords tlast10) 0 = 1 from by decide +kernel]; omega
      | ⟨1, _⟩ => show win10_5.index tlast10 1 * win10_5.size 1 ≤ (i 1 : Nat) ∧ (i 1 : Nat) < win10_5.index tlast10 1 * win10_5.size 1 + win10_5.xsize (grid10.coords tlast10) 1
                  rw [show win10_5.index tlast10 1 * win10_5.size 1 = 0 from by decide +kernel, show win10_5.xsize (grid10.coords tlast10) 1 = 256 from by decide +kernel]; omega⟩

end Sums

/-! ## The column sums over all the rows, over the extended reals -/

section AtIdeal3
variable (V : (c : Dev nD) → (b : Ref sig .tc) → Buf (Elt Ideal) ((c : Thread nD τ).loc b))

/-- A running total over the grid whose first term is the sum, over the first block's 2000 rows, of `f` of the body's
    `y` at a fixed column, and whose every later step adds the same sum over the next block, ends, after the 25th
    block, at the sum of `f` of the specification's `y` over all 50000 rows of that column: row `2000 t + p` of the
    array is row `p` of block `t`, and 25 blocks of 2000 consecutive rows are the 50000 rows. Addition of extended
    reals is commutative and associative, so no finiteness is needed. -/
theorem acc_rows10 (c : Dev nD) (ws : Cert.Spec.S50000.Idx → Ideal .f32) (hsc : S50000.ShapeCasts S50000x1)
    (hds : (V c (Pipeline.arrRef spec10 2) : S50000x1.Idx → Ideal .f32) = shapeCast S50000x1 ws hsc)
    (q : Fin 256) (f : EReal → EReal) (a : (n : ℕ) → n < cfg10.N → EReal)
    (h0 : ∀ h, a 0 h = ∑ p : Fin 2000, f (k10_pay1 (iblk10 V c 0 ⟨0, h⟩) (iblk10 V c 1 ⟨0, h⟩) (iblk10 V c 2 ⟨0, h⟩) (ix2 p q)))
    (hs : ∀ n (h : n + 1 < cfg10.N), a (n + 1) h = a n (Nat.lt_of_succ_lt h)
      + ∑ p : Fin 2000, f (k10_pay1 (iblk10 V c 0 ⟨n + 1, h⟩) (iblk10 V c 1 ⟨n + 1, h⟩) (iblk10 V c 2 ⟨n + 1, h⟩) (ix2 p q))) :
    a tlast10.val tlast10.isLt = ∑ r : Fin 50000, f (Y10 V c ws (ix2 r q)) := by
  let g : ℕ → EReal := fun r => if h : r < 50000 then f (Y10 V c ws (ix2 ⟨r, h⟩ q)) else 0
  have hN : cfg10.N = 25 := N_10
  have hblock : ∀ (t : ℕ) (ht : t < cfg10.N),
      (∑ p : Fin 2000, f (k10_pay1 (iblk10 V c 0 ⟨t, ht⟩) (iblk10 V c 1 ⟨t, ht⟩) (iblk10 V c 2 ⟨t, ht⟩) (ix2 p q)))
        = ∑ p : Fin 2000, g (2000 * t + p.val) := by
    intro t ht
    refine Finset.sum_congr rfl fun p _ => ?_
    have hlt : 2000 * t + p.val < 50000 := by have := p.isLt; omega
    rw [show g (2000 * t + p.val) = f (Y10 V c ws (ix2 ⟨2000 * t + p.val, hlt⟩ q)) from dif_pos hlt]
    exact congrArg f (blockY10 V c ws hsc hds ⟨t, ht⟩ p q ⟨2000 * t + p.val, hlt⟩ rfl)
  have hrun := Cert.CombSums.running_sum a (fun t => ∑ p : Fin 2000, g (2000 * t + p.val))
    (fun h => (h0 h).trans (hblock 0 h))
    (fun n h => (hs n h).trans (congrArg (a n (Nat.lt_of_succ_lt h) + ·) (hblock (n + 1) h)))
  rw [hrun tlast10.val tlast10.isLt, Cert.CombSums.sum_range_blocks 25 2000 50000 rfl g]
  exact Finset.sum_congr rfl fun r _ => dif_pos r.isLt

/-- The array of the column sums of `y` after the region, at column `q`, is the host's sum over axis 0 of the
    specification's `y` at that column: both are the sum over the 50000 rows. -/
theorem final10_4 (c : Dev nD) (ws : Cert.Spec.S50000.Idx → Ideal .f32) (hsc : S50000.ShapeCasts S50000x1)
    (hds : (V c (Pipeline.arrRef spec10 2) : S50000x1.Idx → Ideal .f32) = shapeCast S50000x1 ws hsc) (q : Fin 256) :
    ((dat10 V c).arrAt 4 cfg10.N : S1x256.Idx → Ideal .f32) (ix2 (0 : Fin 1) q)
      = Host.reduceAdd (Y10 V c ws) (constant (F := Ideal) Cert.Spec.S_ .f32 0x00000000#32)
          Cert.Spec.reducesTo_S50000x256_S256_d0 Cert.Spec.h_S_ (ix1 q) := by
  rw [final10_4_acc,
    Cert.LibHostApply.reduceAdd_cols_apply_zero (Y10 V c ws) _ _ _ ((constant_apply _ _).trans Ideal.ofBits_zero_f32)]
  refine acc_rows10 V c ws hsc hds q (fun x => x) (fun n hn => acc10_4 V c n hn (ix2 (0 : Fin 1) q)) (fun h => ?_) (fun n h => ?_)
  · show acc10_4 V c 0 h (ix2 (0 : Fin 1) q) = _
    rw [acc10_4_zero, out10_4_first_eq]
    exact k10_pay2_apply _ _ _ q
  · show acc10_4 V c (n + 1) h (ix2 (0 : Fin 1) q) = acc10_4 V c n _ (ix2 (0 : Fin 1) q) + _
    rw [acc10_4_succ, out10_4_next_eq]
    exact congrArg (acc10_4 V c n (Nat.lt_of_succ_lt h) (ix2 (0 : Fin 1) q) + ·) (k10_pay2_apply _ _ _ q)

/-- The same for the column sums of `y * y`. -/
theorem final10_5 (c : Dev nD) (ws : Cert.Spec.S50000.Idx → Ideal .f32) (hsc : S50000.ShapeCasts S50000x1)
    (hds : (V c (Pipeline.arrRef spec10 2) : S50000x1.Idx → Ideal .f32) = shapeCast S50000x1 ws hsc) (q : Fin 256) :
    ((dat10 V c).arrAt 5 cfg10.N : S1x256.Idx → Ideal .f32) (ix2 (0 : Fin 1) q)
      = Host.reduceAdd (mulf (Y10 V c ws) (Y10 V c ws)) (constant (F := Ideal) Cert.Spec.S_ .f32 0x00000000#32)
          Cert.Spec.reducesTo_S50000x256_S256_d0 Cert.Spec.h_S_ (ix1 q) := by
  rw [final10_5_acc,
    Cert.LibHostApply.reduceAdd_cols_apply_zero (mulf (Y10 V c ws) (Y10 V c ws)) _ _ _ ((constant_apply _ _).trans Ideal.ofBits_zero_f32)]
  refine acc_rows10 V c ws hsc hds q (fun x => x * x) (fun n hn => acc10_5 V c n hn (ix2 (0 : Fin 1) q)) (fun h => ?_) (fun n h => ?_)
  · show acc10_5 V c 0 h (ix2 (0 : Fin 1) q) = _
    rw [acc10_5_zero, out10_5_first_eq]
    exact k10_pay3_apply _ _ _ q
  · show acc10_5 V c (n + 1) h (ix2 (0 : Fin 1) q) = acc10_5 V c n _ (ix2 (0 : Fin 1) q) + _
    rw [acc10_5_succ, out10_5_next_eq]
    exact congrArg (acc10_5 V c n (Nat.lt_of_succ_lt h) (ix2 (0 : Fin 1) q) + ·) (k10_pay3_apply _ _ _ q)

end AtIdeal3

end Cert.KernelIdeal.Gen

end
-- ==== Proof.BnValue2.lean ====
import proofs.«165059_j7095285973648_2_alg».proof.Proof.Bn2
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.ShloMosaic.Tactic
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-! # What region 2 leaves in its output array

Entry `(r, q)` of the output is `g q · (y (r, q) − mean q) · rsqrt (var q + ε) + b q`, then the maximum with zero, where `mean`, `var`, `g`, `b`
are rows of 128 held as 1×128 arrays: each grid point writes the 2000 rows of its block, and the 25 blocks tile the 50000 rows. -/

/-- The row index `(0, q)` under an array index `(r, q)`. -/
def rowOf2 (i : S50000x128.Idx) : S1x128.Idx :=
  ValueIdx.ix2 (0 : Fin 1) (⟨(i 1).val, (i 1).isLt⟩ : Fin 128)

/-- The same under an index of a 2000-row block. -/
def rowOfBlk2 (j : S2000x128.Idx) : S1x128.Idx :=
  ValueIdx.ix2 (0 : Fin 1) (⟨(j 1).val, (j 1).isLt⟩ : Fin 128)

/-- The output array as one function of the region's five input arrays. -/
def bnG2 (y : S50000x128.Idx → Elt F .f32) (mu v g b : S1x128.Idx → Elt F .f32) : S50000x128.Idx → Elt F .f32 := fun i =>
  FloatOps.maximumf (FloatOps.addf (FloatOps.mulf (FloatOps.mulf (g (rowOf2 i)) (FloatOps.subf (y i) (mu (rowOf2 i)))) (FloatOps.rsqrt (FloatOps.addf (v (rowOf2 i)) (Scalar.ofBits .f32 0x3727C5AC#32)))) (b (rowOf2 i))) (Scalar.ofBits .f32 0x00000000#32)

theorem hzz2 : (![0, 0] : Fin 2 → Nat) = fun _ => 0 := funext fun a => by fin_cases a <;> rfl

/-- A row broadcast over the 2000 rows of a block, read at an index. -/
theorem bcastBlk2_apply {α : Type} (x : S1x128.Idx → α) (j : S2000x128.Idx) :
    broadcastTo S2000x128 x broadcasts_S1x128_S2000x128 j = x (rowOfBlk2 j) :=
  broadcastTo_apply x broadcasts_S1x128_S2000x128 j (rowOfBlk2 j) (fun a => by
    match a with
    | ⟨0, _⟩ => rfl
    | ⟨1, _⟩ => rfl)

/-- The body's stored value at an index of the block, from the loaded blocks. -/
theorem pay2_apply (x0 : Vec F S2000x128 .f32) (x1 x2 x3 x4 : Vec F S1x128 .f32) (j : S2000x128.Idx) :
    k2_pay1 x0 x1 x2 x3 x4 j = FloatOps.maximumf (FloatOps.addf (FloatOps.mulf (FloatOps.mulf (x3 (rowOfBlk2 j)) (FloatOps.subf (x0 j) (x1 (rowOfBlk2 j)))) (FloatOps.rsqrt (FloatOps.addf (x2 (rowOfBlk2 j)) (Scalar.ofBits .f32 0x3727C5AC#32)))) (x4 (rowOfBlk2 j))) (Scalar.ofBits .f32 0x00000000#32) := by
  unfold k2_pay1
  simp only [shapeCast_self]
  show FloatOps.maximumf (FloatOps.addf (FloatOps.mulf (FloatOps.mulf (broadcastTo S2000x128 x3 broadcasts_S1x128_S2000x128 j) (FloatOps.subf (x0 j) (broadcastTo S2000x128 x1 broadcasts_S1x128_S2000x128 j))) (broadcastTo S2000x128 (rsqrt (addf x2 (broadcast S1x128 (Scalar.ofBits .f32 0x3727C5AC#32)))) broadcasts_S1x128_S2000x128 j)) (broadcastTo S2000x128 x4 broadcasts_S1x128_S2000x128 j)) (Scalar.ofBits .f32 0x00000000#32) = _
  rw [bcastBlk2_apply, bcastBlk2_apply, bcastBlk2_apply, bcastBlk2_apply]
  rfl

/-- The printed index maps, decided over the grid: the block of `y` moves with the output's block; the four rows stay. -/
theorem idx_facts2 : ∀ t : Fin cfg2.N, win2_0.index t (0 : Fin 2) = win2_5.index t (0 : Fin 2)
    ∧ win2_0.index t (1 : Fin 2) = 0 ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) ≤ 24 :=
  (by decide +kernel : ∀ t : Fin grid2.N, _)

/-- Every block of rows is some point's. -/
theorem idx_onto2 : ∀ (q0 : Fin 25), ∃ t : Fin cfg2.N, win2_5.index t = ![q0.val, 0] :=
  (by decide +kernel : ∀ (q0 : Fin 25), ∃ t : Fin grid2.N, win2_5.index t = ![q0.val, 0])

/-- What point `t` writes back is block `t` of `bnG2` of the arrays as the region finds them. -/
theorem flushed2_eq (c : Dev nD) (t : Fin cfg2.N) :
    (dat2 V c).flushed 5 t = ((cfg2.win 5).blk t).view.read (Elt F) (bnG2 (V c main_v48_0) (V c main_v50) (V c main_v56) (V c main_v57) (V c main_v58)) := by
  show (cfg2.win 5).cut (grid2.coords t) ((dat2 V c).after 5 t) = _
  rw [after2_5]
  unfold out2
  rw [View.canon_unit_zero hzz2]
  simp only [View.ld_unit_zero (S := S2000x128) hzz2, View.ld_unit_zero (S := S1x128) hzz2]
  obtain ⟨e0, e1, e2, e3, e4, e5, e6, e7, e8, e9, e10, e11⟩ := idx_facts2 t
  funext j
  show k2_pay1 (iblk2 V c 0 t) (iblk2 V c 1 t) (iblk2 V c 2 t) (iblk2 V c 3 t) (iblk2 V c 4 t) j
    = bnG2 (V c main_v48_0) (V c main_v50) (V c main_v56) (V c main_v57) (V c main_v58) (((cfg2.win 5).blk t).view.emb j)
  rw [pay2_apply]
  have hj0 : (j 0).val < 2000 := (j 0).isLt
  have hj1 : (j 1).val < 128 := (j 1).isLt
  have hy : ((cfg2.win 0).blk t).view.emb j = ((cfg2.win 5).blk t).view.emb j := by
    funext a; apply Fin.ext
    match a with
    | ⟨0, _⟩ => show win2_0.index t (0 : Fin 2) * 2000 + 1 * (j 0).val = win2_5.index t (0 : Fin 2) * 2000 + 1 * (j 0).val; omega
    | ⟨1, _⟩ => show win2_0.index t (1 : Fin 2) * 128 + 1 * (j 1).val = win2_5.index t (1 : Fin 2) * 128 + 1 * (j 1).val; omega
  have hr1 : ((cfg2.win 1).blk t).view.emb (rowOfBlk2 j) = rowOf2 (((cfg2.win 5).blk t).view.emb j) := by
    funext a; apply Fin.ext
    match a with
    | ⟨0, _⟩ => show win2_1.index t (0 : Fin 2) * 1 + 1 * 0 = 0; omega
    | ⟨1, _⟩ => show win2_1.index t (1 : Fin 2) * 128 + 1 * (j 1).val = win2_5.index t (1 : Fin 2) * 128 + 1 * (j 1).val; omega
  have hr2 : ((cfg2.win 2).blk t).view.emb (rowOfBlk2 j) = rowOf2 (((cfg2.win 5).blk t).view.emb j) := by
    funext a; apply Fin.ext
    match a with
    | ⟨0, _⟩ => show win2_2.index t (0 : Fin 2) * 1 + 1 * 0 = 0; omega
    | ⟨1, _⟩ => show win2_2.index t (1 : Fin 2) * 128 + 1 * (j 1).val = win2_5.index t (1 : Fin 2) * 128 + 1 * (j 1).val; omega
  have hr3 : ((cfg2.win 3).blk t).view.emb (rowOfBlk2 j) = rowOf2 (((cfg2.win 5).blk t).view.emb j) := by
    funext a; apply Fin.ext
    match a with
    | ⟨0, _⟩ => show win2_3.index t (0 : Fin 2) * 1 + 1 * 0 = 0; omega
    | ⟨1, _⟩ => show win2_3.index t (1 : Fin 2) * 128 + 1 * (j 1).val = win2_5.index t (1 : Fin 2) * 128 + 1 * (j 1).val; omega
  have hr4 : ((cfg2.win 4).blk t).view.emb (rowOfBlk2 j) = rowOf2 (((cfg2.win 5).blk t).view.emb j) := by
    funext a; apply Fin.ext
    match a with
    | ⟨0, _⟩ => show win2_4.index t (0 : Fin 2) * 1 + 1 * 0 = 0; omega
    | ⟨1, _⟩ => show win2_4.index t (1 : Fin 2) * 128 + 1 * (j 1).val = win2_5.index t (1 : Fin 2) * 128 + 1 * (j 1).val; omega
  show FloatOps.maximumf (FloatOps.addf (FloatOps.mulf (FloatOps.mulf (V c main_v57 (((cfg2.win 3).blk t).view.emb (rowOfBlk2 j))) (FloatOps.subf (V c main_v48_0 (((cfg2.win 0).blk t).view.emb j)) (V c main_v50 (((cfg2.win 1).blk t).view.emb (rowOfBlk2 j))))) (FloatOps.rsqrt (FloatOps.addf (V c main_v56 (((cfg2.win 2).blk t).view.emb (rowOfBlk2 j))) (Scalar.ofBits .f32 0x3727C5AC#32)))) (V c main_v58 (((cfg2.win 4).blk t).view.emb (rowOfBlk2 j)))) (Scalar.ofBits .f32 0x00000000#32)
    = bnG2 (V c main_v48_0) (V c main_v50) (V c main_v56) (V c main_v57) (V c main_v58) (((cfg2.win 5).blk t).view.emb j)
  rw [hy, hr1, hr2, hr3, hr4]
  rfl

/-- An index of the array is in point `t`'s block iff each coordinate is in the block's range on its axis. -/
theorem mem_blk2 (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v59).slice (win2_5.rect t)).set ↔ _
  rw [View.set_slice_whole, Rect.mem_set_unit]
  exact Iff.rfl

/-- Every index of the array is in some point's block: the point whose block holds row `r` is `r / 2000`. -/
theorem covered2 (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ := idx_onto2 ⟨(i 0).val / 2000, by omega⟩
  have q0 : win2_5.index t (0 : Fin 2) = (i 0).val / 2000 := congrFun ht 0
  have q1 : win2_5.index t (1 : Fin 2) = 0 := congrFun ht 1
  refine ⟨t, flush2_5 t, ?_⟩
  rw [mem_blk2]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 128 ≤ (i 1).val ∧ (i 1).val < win2_5.index t (1 : Fin 2) * 128 + 128; omega

/-- The output array after the region, whole. -/
theorem final_bn2 (c : Dev nD) :
    (dat2 V c).arrAt 5 cfg2.N = bnG2 (V c main_v48_0) (V c main_v50) (V c main_v56) (V c main_v57) (V c main_v58) := by
  funext i
  rw [(dat2 V c).arrAt_eq_piecewise 5 _ (fun t _ => flushed2_eq V c t) i]
  exact if_pos (covered2 i)

end Cert.KernelIdeal.Gen

end
-- ==== Proof.BnValue5.lean ====
import proofs.«165059_j7095285973648_2_alg».proof.Proof.Bn5
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.ShloMosaic.Tactic
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-! # What region 5 leaves in its output array

Entry `(r, q)` of the output is `g q · (y (r, q) − mean q) · rsqrt (var q + ε) + b q`, where `mean`, `var`, `g`, `b`
are rows of 64 held as 1×64 arrays: each grid point writes the 2000 rows of its block, and the 25 blocks tile the 50000 rows. -/

/-- The row index `(0, q)` under an array index `(r, q)`. -/
def rowOf5 (i : S50000x64.Idx) : S1x64.Idx :=
  ValueIdx.ix2 (0 : Fin 1) (⟨(i 1).val, (i 1).isLt⟩ : Fin 64)

/-- The same under an index of a 2000-row block. -/
def rowOfBlk5 (j : S2000x64.Idx) : S1x64.Idx :=
  ValueIdx.ix2 (0 : Fin 1) (⟨(j 1).val, (j 1).isLt⟩ : Fin 64)

/-- The output array as one function of the region's five input arrays. -/
def bnG5 (y : S50000x64.Idx → Elt F .f32) (mu v g b : S1x64.Idx → Elt F .f32) : S50000x64.Idx → Elt F .f32 := fun i =>
  FloatOps.addf (FloatOps.mulf (FloatOps.mulf (g (rowOf5 i)) (FloatOps.subf (y i) (mu (rowOf5 i)))) (FloatOps.rsqrt (FloatOps.addf (v (rowOf5 i)) (Scalar.ofBits .f32 0x3727C5AC#32)))) (b (rowOf5 i))

theorem hzz5 : (![0, 0] : Fin 2 → Nat) = fun _ => 0 := funext fun a => by fin_cases a <;> rfl

/-- A row broadcast over the 2000 rows of a block, read at an index. -/
theorem bcastBlk5_apply {α : Type} (x : S1x64.Idx → α) (j : S2000x64.Idx) :
    broadcastTo S2000x64 x broadcasts_S1x64_S2000x64 j = x (rowOfBlk5 j) :=
  broadcastTo_apply x broadcasts_S1x64_S2000x64 j (rowOfBlk5 j) (fun a => by
    match a with
    | ⟨0, _⟩ => rfl
    | ⟨1, _⟩ => rfl)

/-- The body's stored value at an index of the block, from the loaded blocks. -/
theorem pay5_apply (x0 : Vec F S2000x64 .f32) (x1 x2 x3 x4 : Vec F S1x64 .f32) (j : S2000x64.Idx) :
    k5_pay1 x0 x1 x2 x3 x4 j = FloatOps.addf (FloatOps.mulf (FloatOps.mulf (x3 (rowOfBlk5 j)) (FloatOps.subf (x0 j) (x1 (rowOfBlk5 j)))) (FloatOps.rsqrt (FloatOps.addf (x2 (rowOfBlk5 j)) (Scalar.ofBits .f32 0x3727C5AC#32)))) (x4 (rowOfBlk5 j)) := by
  unfold k5_pay1
  simp only [shapeCast_self]
  show FloatOps.addf (FloatOps.mulf (FloatOps.mulf (broadcastTo S2000x64 x3 broadcasts_S1x64_S2000x64 j) (FloatOps.subf (x0 j) (broadcastTo S2000x64 x1 broadcasts_S1x64_S2000x64 j))) (broadcastTo S2000x64 (rsqrt (addf x2 (broadcast S1x64 (Scalar.ofBits .f32 0x3727C5AC#32)))) broadcasts_S1x64_S2000x64 j)) (broadcastTo S2000x64 x4 broadcasts_S1x64_S2000x64 j) = _
  rw [bcastBlk5_apply, bcastBlk5_apply, bcastBlk5_apply, bcastBlk5_apply]
  rfl

/-- The printed index maps, decided over the grid: the block of `y` moves with the output's block; the four rows stay. -/
theorem idx_facts5 : ∀ t : Fin cfg5.N, win5_0.index t (0 : Fin 2) = win5_5.index t (0 : Fin 2)
    ∧ win5_0.index t (1 : Fin 2) = 0 ∧ win5_5.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) ≤ 24 :=
  (by decide +kernel : ∀ t : Fin grid5.N, _)

/-- Every block of rows is some point's. -/
theorem idx_onto5 : ∀ (q0 : Fin 25), ∃ t : Fin cfg5.N, win5_5.index t = ![q0.val, 0] :=
  (by decide +kernel : ∀ (q0 : Fin 25), ∃ t : Fin grid5.N, win5_5.index t = ![q0.val, 0])

/-- What point `t` writes back is block `t` of `bnG5` of the arrays as the region finds them. -/
theorem flushed5_eq (c : Dev nD) (t : Fin cfg5.N) :
    (dat5 V c).flushed 5 t = ((cfg5.win 5).blk t).view.read (Elt F) (bnG5 (V c main_v75_0) (V c main_v77) (V c main_v83) (V c main_v84) (V c main_v85)) := by
  show (cfg5.win 5).cut (grid5.coords t) ((dat5 V c).after 5 t) = _
  rw [after5_5]
  unfold out5
  rw [View.canon_unit_zero hzz5]
  simp only [View.ld_unit_zero (S := S2000x64) hzz5, View.ld_unit_zero (S := S1x64) hzz5]
  obtain ⟨e0, e1, e2, e3, e4, e5, e6, e7, e8, e9, e10, e11⟩ := idx_facts5 t
  funext j
  show k5_pay1 (iblk5 V c 0 t) (iblk5 V c 1 t) (iblk5 V c 2 t) (iblk5 V c 3 t) (iblk5 V c 4 t) j
    = bnG5 (V c main_v75_0) (V c main_v77) (V c main_v83) (V c main_v84) (V c main_v85) (((cfg5.win 5).blk t).view.emb j)
  rw [pay5_apply]
  have hj0 : (j 0).val < 2000 := (j 0).isLt
  have hj1 : (j 1).val < 64 := (j 1).isLt
  have hy : ((cfg5.win 0).blk t).view.emb j = ((cfg5.win 5).blk t).view.emb j := by
    funext a; apply Fin.ext
    match a with
    | ⟨0, _⟩ => show win5_0.index t (0 : Fin 2) * 2000 + 1 * (j 0).val = win5_5.index t (0 : Fin 2) * 2000 + 1 * (j 0).val; omega
    | ⟨1, _⟩ => show win5_0.index t (1 : Fin 2) * 64 + 1 * (j 1).val = win5_5.index t (1 : Fin 2) * 64 + 1 * (j 1).val; omega
  have hr1 : ((cfg5.win 1).blk t).view.emb (rowOfBlk5 j) = rowOf5 (((cfg5.win 5).blk t).view.emb j) := by
    funext a; apply Fin.ext
    match a with
    | ⟨0, _⟩ => show win5_1.index t (0 : Fin 2) * 1 + 1 * 0 = 0; omega
    | ⟨1, _⟩ => show win5_1.index t (1 : Fin 2) * 64 + 1 * (j 1).val = win5_5.index t (1 : Fin 2) * 64 + 1 * (j 1).val; omega
  have hr2 : ((cfg5.win 2).blk t).view.emb (rowOfBlk5 j) = rowOf5 (((cfg5.win 5).blk t).view.emb j) := by
    funext a; apply Fin.ext
    match a with
    | ⟨0, _⟩ => show win5_2.index t (0 : Fin 2) * 1 + 1 * 0 = 0; omega
    | ⟨1, _⟩ => show win5_2.index t (1 : Fin 2) * 64 + 1 * (j 1).val = win5_5.index t (1 : Fin 2) * 64 + 1 * (j 1).val; omega
  have hr3 : ((cfg5.win 3).blk t).view.emb (rowOfBlk5 j) = rowOf5 (((cfg5.win 5).blk t).view.emb j) := by
    funext a; apply Fin.ext
    match a with
    | ⟨0, _⟩ => show win5_3.index t (0 : Fin 2) * 1 + 1 * 0 = 0; omega
    | ⟨1, _⟩ => show win5_3.index t (1 : Fin 2) * 64 + 1 * (j 1).val = win5_5.index t (1 : Fin 2) * 64 + 1 * (j 1).val; omega
  have hr4 : ((cfg5.win 4).blk t).view.emb (rowOfBlk5 j) = rowOf5 (((cfg5.win 5).blk t).view.emb j) := by
    funext a; apply Fin.ext
    match a with
    | ⟨0, _⟩ => show win5_4.index t (0 : Fin 2) * 1 + 1 * 0 = 0; omega
    | ⟨1, _⟩ => show win5_4.index t (1 : Fin 2) * 64 + 1 * (j 1).val = win5_5.index t (1 : Fin 2) * 64 + 1 * (j 1).val; omega
  show FloatOps.addf (FloatOps.mulf (FloatOps.mulf (V c main_v84 (((cfg5.win 3).blk t).view.emb (rowOfBlk5 j))) (FloatOps.subf (V c main_v75_0 (((cfg5.win 0).blk t).view.emb j)) (V c main_v77 (((cfg5.win 1).blk t).view.emb (rowOfBlk5 j))))) (FloatOps.rsqrt (FloatOps.addf (V c main_v83 (((cfg5.win 2).blk t).view.emb (rowOfBlk5 j))) (Scalar.ofBits .f32 0x3727C5AC#32)))) (V c main_v85 (((cfg5.win 4).blk t).view.emb (rowOfBlk5 j)))
    = bnG5 (V c main_v75_0) (V c main_v77) (V c main_v83) (V c main_v84) (V c main_v85) (((cfg5.win 5).blk t).view.emb j)
  rw [hy, hr1, hr2, hr3, hr4]
  rfl

/-- An index of the array is in point `t`'s block iff each coordinate is in the block's range on its axis. -/
theorem mem_blk5 (t : Fin cfg5.N) (i : S50000x64.Idx) :
    i ∈ ((cfg5.win 5).blk t).view.set ↔ ∀ a : Fin 2, win5_5.index t a * S2000x64.size a ≤ (i a).val ∧ (i a).val < win5_5.index t a * S2000x64.size a + S2000x64.size a := by
  show i ∈ ((View.whole main_v86).slice (win5_5.rect t)).set ↔ _
  rw [View.set_slice_whole, Rect.mem_set_unit]
  exact Iff.rfl

/-- Every index of the array is in some point's block: the point whose block holds row `r` is `r / 2000`. -/
theorem covered5 (i : S50000x64.Idx) : ∃ t : Fin cfg5.N, (cfg5.win 5).flush t = true ∧ i ∈ ((cfg5.win 5).blk t).view.set := by
  have hi0 : (i 0).val < 50000 := (i 0).isLt
  have hi1 : (i 1).val < 64 := (i 1).isLt
  obtain ⟨t, ht⟩ := idx_onto5 ⟨(i 0).val / 2000, by omega⟩
  have q0 : win5_5.index t (0 : Fin 2) = (i 0).val / 2000 := congrFun ht 0
  have q1 : win5_5.index t (1 : Fin 2) = 0 := congrFun ht 1
  refine ⟨t, flush5_5 t, ?_⟩
  rw [mem_blk5]
  intro a
  match a with
  | ⟨0, _⟩ => show win5_5.index t (0 : Fin 2) * 2000 ≤ (i 0).val ∧ (i 0).val < win5_5.index t (0 : Fin 2) * 2000 + 2000; omega
  | ⟨1, _⟩ => show win5_5.index t (1 : Fin 2) * 64 ≤ (i 1).val ∧ (i 1).val < win5_5.index t (1 : Fin 2) * 64 + 64; omega

/-- The output array after the region, whole. -/
theorem final_bn5 (c : Dev nD) :
    (dat5 V c).arrAt 5 cfg5.N = bnG5 (V c main_v75_0) (V c main_v77) (V c main_v83) (V c main_v84) (V c main_v85) := by
  funext i
  rw [(dat5 V c).arrAt_eq_piecewise 5 _ (fun t _ => flushed5_eq V c t) i]
  exact if_pos (covered5 i)

end Cert.KernelIdeal.Gen

end
-- ==== Proof.BnValue8.lean ====
import proofs.«165059_j7095285973648_2_alg».proof.Proof.Bn8
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.ShloMosaic.Tactic
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-! # What region 8 leaves in its output array

Entry `(r, q)` of the output is `g q · (y (r, q) − mean q) · rsqrt (var q + ε) + b q`, then the maximum with zero, where `mean`, `var`, `g`, `b`
are rows of 128 held as 1×128 arrays: each grid point writes the 2000 rows of its block, and the 25 blocks tile the 50000 rows. -/

/-- The row index `(0, q)` under an array index `(r, q)`. -/
def rowOf8 (i : S50000x128.Idx) : S1x128.Idx :=
  ValueIdx.ix2 (0 : Fin 1) (⟨(i 1).val, (i 1).isLt⟩ : Fin 128)

/-- The same under an index of a 2000-row block. -/
def rowOfBlk8 (j : S2000x128.Idx) : S1x128.Idx :=
  ValueIdx.ix2 (0 : Fin 1) (⟨(j 1).val, (j 1).isLt⟩ : Fin 128)

/-- The output array as one function of the region's five input arrays. -/
def bnG8 (y : S50000x128.Idx → Elt F .f32) (mu v g b : S1x128.Idx → Elt F .f32) : S50000x128.Idx → Elt F .f32 := fun i =>
  FloatOps.maximumf (FloatOps.addf (FloatOps.mulf (FloatOps.mulf (g (rowOf8 i)) (FloatOps.subf (y i) (mu (rowOf8 i)))) (FloatOps.rsqrt (FloatOps.addf (v (rowOf8 i)) (Scalar.ofBits .f32 0x3727C5AC#32)))) (b (rowOf8 i))) (Scalar.ofBits .f32 0x00000000#32)

theorem hzz8 : (![0, 0] : Fin 2 → Nat) = fun _ => 0 := funext fun a => by fin_cases a <;> rfl

/-- A row broadcast over the 2000 rows of a block, read at an index. -/
theorem bcastBlk8_apply {α : Type} (x : S1x128.Idx → α) (j : S2000x128.Idx) :
    broadcastTo S2000x128 x broadcasts_S1x128_S2000x128 j = x (rowOfBlk8 j) :=
  broadcastTo_apply x broadcasts_S1x128_S2000x128 j (rowOfBlk8 j) (fun a => by
    match a with
    | ⟨0, _⟩ => rfl
    | ⟨1, _⟩ => rfl)

/-- The body's stored value at an index of the block, from the loaded blocks. -/
theorem pay8_apply (x0 : Vec F S2000x128 .f32) (x1 x2 x3 x4 : Vec F S1x128 .f32) (j : S2000x128.Idx) :
    k8_pay1 x0 x1 x2 x3 x4 j = FloatOps.maximumf (FloatOps.addf (FloatOps.mulf (FloatOps.mulf (x3 (rowOfBlk8 j)) (FloatOps.subf (x0 j) (x1 (rowOfBlk8 j)))) (FloatOps.rsqrt (FloatOps.addf (x2 (rowOfBlk8 j)) (Scalar.ofBits .f32 0x3727C5AC#32)))) (x4 (rowOfBlk8 j))) (Scalar.ofBits .f32 0x00000000#32) := by
  unfold k8_pay1
  simp only [shapeCast_self]
  show FloatOps.maximumf (FloatOps.addf (FloatOps.mulf (FloatOps.mulf (broadcastTo S2000x128 x3 broadcasts_S1x128_S2000x128 j) (FloatOps.subf (x0 j) (broadcastTo S2000x128 x1 broadcasts_S1x128_S2000x128 j))) (broadcastTo S2000x128 (rsqrt (addf x2 (broadcast S1x128 (Scalar.ofBits .f32 0x3727C5AC#32)))) broadcasts_S1x128_S2000x128 j)) (broadcastTo S2000x128 x4 broadcasts_S1x128_S2000x128 j)) (Scalar.ofBits .f32 0x00000000#32) = _
  rw [bcastBlk8_apply, bcastBlk8_apply, bcastBlk8_apply, bcastBlk8_apply]
  rfl

/-- The printed index maps, decided over the grid: the block of `y` moves with the output's block; the four rows stay. -/
theorem idx_facts8 : ∀ t : Fin cfg8.N, win8_0.index t (0 : Fin 2) = win8_5.index t (0 : Fin 2)
    ∧ win8_0.index t (1 : Fin 2) = 0 ∧ win8_5.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) ≤ 24 :=
  (by decide +kernel : ∀ t : Fin grid8.N, _)

/-- Every block of rows is some point's. -/
theorem idx_onto8 : ∀ (q0 : Fin 25), ∃ t : Fin cfg8.N, win8_5.index t = ![q0.val, 0] :=
  (by decide +kernel : ∀ (q0 : Fin 25), ∃ t : Fin grid8.N, win8_5.index t = ![q0.val, 0])

/-- What point `t` writes back is block `t` of `bnG8` of the arrays as the region finds them. -/
theorem flushed8_eq (c : Dev nD) (t : Fin cfg8.N) :
    (dat8 V c).flushed 5 t = ((cfg8.win 5).blk t).view.read (Elt F) (bnG8 (V c main_v102_0) (V c main_v104) (V c main_v110) (V c main_v111) (V c main_v112)) := by
  show (cfg8.win 5).cut (grid8.coords t) ((dat8 V c).after 5 t) = _
  rw [after8_5]
  unfold out8
  rw [View.canon_unit_zero hzz8]
  simp only [View.ld_unit_zero (S := S2000x128) hzz8, View.ld_unit_zero (S := S1x128) hzz8]
  obtain ⟨e0, e1, e2, e3, e4, e5, e6, e7, e8, e9, e10, e11⟩ := idx_facts8 t
  funext j
  show k8_pay1 (iblk8 V c 0 t) (iblk8 V c 1 t) (iblk8 V c 2 t) (iblk8 V c 3 t) (iblk8 V c 4 t) j
    = bnG8 (V c main_v102_0) (V c main_v104) (V c main_v110) (V c main_v111) (V c main_v112) (((cfg8.win 5).blk t).view.emb j)
  rw [pay8_apply]
  have hj0 : (j 0).val < 2000 := (j 0).isLt
  have hj1 : (j 1).val < 128 := (j 1).isLt
  have hy : ((cfg8.win 0).blk t).view.emb j = ((cfg8.win 5).blk t).view.emb j := by
    funext a; apply Fin.ext
    match a with
    | ⟨0, _⟩ => show win8_0.index t (0 : Fin 2) * 2000 + 1 * (j 0).val = win8_5.index t (0 : Fin 2) * 2000 + 1 * (j 0).val; omega
    | ⟨1, _⟩ => show win8_0.index t (1 : Fin 2) * 128 + 1 * (j 1).val = win8_5.index t (1 : Fin 2) * 128 + 1 * (j 1).val; omega
  have hr1 : ((cfg8.win 1).blk t).view.emb (rowOfBlk8 j) = rowOf8 (((cfg8.win 5).blk t).view.emb j) := by
    funext a; apply Fin.ext
    match a with
    | ⟨0, _⟩ => show win8_1.index t (0 : Fin 2) * 1 + 1 * 0 = 0; omega
    | ⟨1, _⟩ => show win8_1.index t (1 : Fin 2) * 128 + 1 * (j 1).val = win8_5.index t (1 : Fin 2) * 128 + 1 * (j 1).val; omega
  have hr2 : ((cfg8.win 2).blk t).view.emb (rowOfBlk8 j) = rowOf8 (((cfg8.win 5).blk t).view.emb j) := by
    funext a; apply Fin.ext
    match a with
    | ⟨0, _⟩ => show win8_2.index t (0 : Fin 2) * 1 + 1 * 0 = 0; omega
    | ⟨1, _⟩ => show win8_2.index t (1 : Fin 2) * 128 + 1 * (j 1).val = win8_5.index t (1 : Fin 2) * 128 + 1 * (j 1).val; omega
  have hr3 : ((cfg8.win 3).blk t).view.emb (rowOfBlk8 j) = rowOf8 (((cfg8.win 5).blk t).view.emb j) := by
    funext a; apply Fin.ext
    match a with
    | ⟨0, _⟩ => show win8_3.index t (0 : Fin 2) * 1 + 1 * 0 = 0; omega
    | ⟨1, _⟩ => show win8_3.index t (1 : Fin 2) * 128 + 1 * (j 1).val = win8_5.index t (1 : Fin 2) * 128 + 1 * (j 1).val; omega
  have hr4 : ((cfg8.win 4).blk t).view.emb (rowOfBlk8 j) = rowOf8 (((cfg8.win 5).blk t).view.emb j) := by
    funext a; apply Fin.ext
    match a with
    | ⟨0, _⟩ => show win8_4.index t (0 : Fin 2) * 1 + 1 * 0 = 0; omega
    | ⟨1, _⟩ => show win8_4.index t (1 : Fin 2) * 128 + 1 * (j 1).val = win8_5.index t (1 : Fin 2) * 128 + 1 * (j 1).val; omega
  show FloatOps.maximumf (FloatOps.addf (FloatOps.mulf (FloatOps.mulf (V c main_v111 (((cfg8.win 3).blk t).view.emb (rowOfBlk8 j))) (FloatOps.subf (V c main_v102_0 (((cfg8.win 0).blk t).view.emb j)) (V c main_v104 (((cfg8.win 1).blk t).view.emb (rowOfBlk8 j))))) (FloatOps.rsqrt (FloatOps.addf (V c main_v110 (((cfg8.win 2).blk t).view.emb (rowOfBlk8 j))) (Scalar.ofBits .f32 0x3727C5AC#32)))) (V c main_v112 (((cfg8.win 4).blk t).view.emb (rowOfBlk8 j)))) (Scalar.ofBits .f32 0x00000000#32)
    = bnG8 (V c main_v102_0) (V c main_v104) (V c main_v110) (V c main_v111) (V c main_v112) (((cfg8.win 5).blk t).view.emb j)
  rw [hy, hr1, hr2, hr3, hr4]
  rfl

/-- An index of the array is in point `t`'s block iff each coordinate is in the block's range on its axis. -/
theorem mem_blk8 (t : Fin cfg8.N) (i : S50000x128.Idx) :
    i ∈ ((cfg8.win 5).blk t).view.set ↔ ∀ a : Fin 2, win8_5.index t a * S2000x128.size a ≤ (i a).val ∧ (i a).val < win8_5.index t a * S2000x128.size a + S2000x128.size a := by
  show i ∈ ((View.whole main_v113).slice (win8_5.rect t)).set ↔ _
  rw [View.set_slice_whole, Rect.mem_set_unit]
  exact Iff.rfl

/-- Every index of the array is in some point's block: the point whose block holds row `r` is `r / 2000`. -/
theorem covered8 (i : S50000x128.Idx) : ∃ t : Fin cfg8.N, (cfg8.win 5).flush t = true ∧ i ∈ ((cfg8.win 5).blk t).view.set := by
  have hi0 : (i 0).val < 50000 := (i 0).isLt
  have hi1 : (i 1).val < 128 := (i 1).isLt
  obtain ⟨t, ht⟩ := idx_onto8 ⟨(i 0).val / 2000, by omega⟩
  have q0 : win8_5.index t (0 : Fin 2) = (i 0).val / 2000 := congrFun ht 0
  have q1 : win8_5.index t (1 : Fin 2) = 0 := congrFun ht 1
  refine ⟨t, flush8_5 t, ?_⟩
  rw [mem_blk8]
  intro a
  match a with
  | ⟨0, _⟩ => show win8_5.index t (0 : Fin 2) * 2000 ≤ (i 0).val ∧ (i 0).val < win8_5.index t (0 : Fin 2) * 2000 + 2000; omega
  | ⟨1, _⟩ => show win8_5.index t (1 : Fin 2) * 128 ≤ (i 1).val ∧ (i 1).val < win8_5.index t (1 : Fin 2) * 128 + 128; omega

/-- The output array after the region, whole. -/
theorem final_bn8 (c : Dev nD) :
    (dat8 V c).arrAt 5 cfg8.N = bnG8 (V c main_v102_0) (V c main_v104) (V c main_v110) (V c main_v111) (V c main_v112) := by
  funext i
  rw [(dat8 V c).arrAt_eq_piecewise 5 _ (fun t _ => flushed8_eq V c t) i]
  exact if_pos (covered8 i)

end Cert.KernelIdeal.Gen

end
-- ==== Proof.BnValue11.lean ====
import proofs.«165059_j7095285973648_2_alg».proof.Proof.Bn11
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.ShloMosaic.Tactic
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-! # What region 11 leaves in its output array

Entry `(r, q)` of the output is `g q · (y (r, q) − mean q) · rsqrt (var q + ε) + b q`, where `mean`, `var`, `g`, `b`
are rows of 256 held as 1×256 arrays: each grid point writes the 2000 rows of its block, and the 25 blocks tile the 50000 rows. -/

/-- The row index `(0, q)` under an array index `(r, q)`. -/
def rowOf11 (i : S50000x256.Idx) : S1x256.Idx :=
  ValueIdx.ix2 (0 : Fin 1) (⟨(i 1).val, (i 1).isLt⟩ : Fin 256)

/-- The same under an index of a 2000-row block. -/
def rowOfBlk11 (j : S2000x256.Idx) : S1x256.Idx :=
  ValueIdx.ix2 (0 : Fin 1) (⟨(j 1).val, (j 1).isLt⟩ : Fin 256)

/-- The output array as one function of the region's five input arrays. -/
def bnG11 (y : S50000x256.Idx → Elt F .f32) (mu v g b : S1x256.Idx → Elt F .f32) : S50000x256.Idx → Elt F .f32 := fun i =>
  FloatOps.addf (FloatOps.mulf (FloatOps.mulf (g (rowOf11 i)) (FloatOps.subf (y i) (mu (rowOf11 i)))) (FloatOps.rsqrt (FloatOps.addf (v (rowOf11 i)) (Scalar.ofBits .f32 0x3727C5AC#32)))) (b (rowOf11 i))

theorem hzz11 : (![0, 0] : Fin 2 → Nat) = fun _ => 0 := funext fun a => by fin_cases a <;> rfl

/-- A row broadcast over the 2000 rows of a block, read at an index. -/
theorem bcastBlk11_apply {α : Type} (x : S1x256.Idx → α) (j : S2000x256.Idx) :
    broadcastTo S2000x256 x broadcasts_S1x256_S2000x256 j = x (rowOfBlk11 j) :=
  broadcastTo_apply x broadcasts_S1x256_S2000x256 j (rowOfBlk11 j) (fun a => by
    match a with
    | ⟨0, _⟩ => rfl
    | ⟨1, _⟩ => rfl)

/-- The body's stored value at an index of the block, from the loaded blocks. -/
theorem pay11_apply (x0 : Vec F S2000x256 .f32) (x1 x2 x3 x4 : Vec F S1x256 .f32) (j : S2000x256.Idx) :
    k11_pay1 x0 x1 x2 x3 x4 j = FloatOps.addf (FloatOps.mulf (FloatOps.mulf (x3 (rowOfBlk11 j)) (FloatOps.subf (x0 j) (x1 (rowOfBlk11 j)))) (FloatOps.rsqrt (FloatOps.addf (x2 (rowOfBlk11 j)) (Scalar.ofBits .f32 0x3727C5AC#32)))) (x4 (rowOfBlk11 j)) := by
  unfold k11_pay1
  simp only [shapeCast_self]
  show FloatOps.addf (FloatOps.mulf (FloatOps.mulf (broadcastTo S2000x256 x3 broadcasts_S1x256_S2000x256 j) (FloatOps.subf (x0 j) (broadcastTo S2000x256 x1 broadcasts_S1x256_S2000x256 j))) (broadcastTo S2000x256 (rsqrt (addf x2 (broadcast S1x256 (Scalar.ofBits .f32 0x3727C5AC#32)))) broadcasts_S1x256_S2000x256 j)) (broadcastTo S2000x256 x4 broadcasts_S1x256_S2000x256 j) = _
  rw [bcastBlk11_apply, bcastBlk11_apply, bcastBlk11_apply, bcastBlk11_apply]
  rfl

/-- The printed index maps, decided over the grid: the block of `y` moves with the output's block; the four rows stay. -/
theorem idx_facts11 : ∀ t : Fin cfg11.N, win11_0.index t (0 : Fin 2) = win11_5.index t (0 : Fin 2)
    ∧ win11_0.index t (1 : Fin 2) = 0 ∧ win11_5.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) ≤ 24 :=
  (by decide +kernel : ∀ t : Fin grid11.N, _)

/-- Every block of rows is some point's. -/
theorem idx_onto11 : ∀ (q0 : Fin 25), ∃ t : Fin cfg11.N, win11_5.index t = ![q0.val, 0] :=
  (by decide +kernel : ∀ (q0 : Fin 25), ∃ t : Fin grid11.N, win11_5.index t = ![q0.val, 0])

/-- What point `t` writes back is block `t` of `bnG11` of the arrays as the region finds them. -/
theorem flushed11_eq (c : Dev nD) (t : Fin cfg11.N) :
    (dat11 V c).flushed 5 t = ((cfg11.win 5).blk t).view.read (Elt F) (bnG11 (V c main_v129_0) (V c main_v131) (V c main_v137) (V c main_v138) (V c main_v139)) := by
  show (cfg11.win 5).cut (grid11.coords t) ((dat11 V c).after 5 t) = _
  rw [after11_5]
  unfold out11
  rw [View.canon_unit_zero hzz11]
  simp only [View.ld_unit_zero (S := S2000x256) hzz11, View.ld_unit_zero (S := S1x256) hzz11]
  obtain ⟨e0, e1, e2, e3, e4, e5, e6, e7, e8, e9, e10, e11⟩ := idx_facts11 t
  funext j
  show k11_pay1 (iblk11 V c 0 t) (iblk11 V c 1 t) (iblk11 V c 2 t) (iblk11 V c 3 t) (iblk11 V c 4 t) j
    = bnG11 (V c main_v129_0) (V c main_v131) (V c main_v137) (V c main_v138) (V c main_v139) (((cfg11.win 5).blk t).view.emb j)
  rw [pay11_apply]
  have hj0 : (j 0).val < 2000 := (j 0).isLt
  have hj1 : (j 1).val < 256 := (j 1).isLt
  have hy : ((cfg11.win 0).blk t).view.emb j = ((cfg11.win 5).blk t).view.emb j := by
    funext a; apply Fin.ext
    match a with
    | ⟨0, _⟩ => show win11_0.index t (0 : Fin 2) * 2000 + 1 * (j 0).val = win11_5.index t (0 : Fin 2) * 2000 + 1 * (j 0).val; omega
    | ⟨1, _⟩ => show win11_0.index t (1 : Fin 2) * 256 + 1 * (j 1).val = win11_5.index t (1 : Fin 2) * 256 + 1 * (j 1).val; omega
  have hr1 : ((cfg11.win 1).blk t).view.emb (rowOfBlk11 j) = rowOf11 (((cfg11.win 5).blk t).view.emb j) := by
    funext a; apply Fin.ext
    match a with
    | ⟨0, _⟩ => show win11_1.index t (0 : Fin 2) * 1 + 1 * 0 = 0; omega
    | ⟨1, _⟩ => show win11_1.index t (1 : Fin 2) * 256 + 1 * (j 1).val = win11_5.index t (1 : Fin 2) * 256 + 1 * (j 1).val; omega
  have hr2 : ((cfg11.win 2).blk t).view.emb (rowOfBlk11 j) = rowOf11 (((cfg11.win 5).blk t).view.emb j) := by
    funext a; apply Fin.ext
    match a with
    | ⟨0, _⟩ => show win11_2.index t (0 : Fin 2) * 1 + 1 * 0 = 0; omega
    | ⟨1, _⟩ => show win11_2.index t (1 : Fin 2) * 256 + 1 * (j 1).val = win11_5.index t (1 : Fin 2) * 256 + 1 * (j 1).val; omega
  have hr3 : ((cfg11.win 3).blk t).view.emb (rowOfBlk11 j) = rowOf11 (((cfg11.win 5).blk t).view.emb j) := by
    funext a; apply Fin.ext
    match a with
    | ⟨0, _⟩ => show win11_3.index t (0 : Fin 2) * 1 + 1 * 0 = 0; omega
    | ⟨1, _⟩ => show win11_3.index t (1 : Fin 2) * 256 + 1 * (j 1).val = win11_5.index t (1 : Fin 2) * 256 + 1 * (j 1).val; omega
  have hr4 : ((cfg11.win 4).blk t).view.emb (rowOfBlk11 j) = rowOf11 (((cfg11.win 5).blk t).view.emb j) := by
    funext a; apply Fin.ext
    match a with
    | ⟨0, _⟩ => show win11_4.index t (0 : Fin 2) * 1 + 1 * 0 = 0; omega
    | ⟨1, _⟩ => show win11_4.index t (1 : Fin 2) * 256 + 1 * (j 1).val = win11_5.index t (1 : Fin 2) * 256 + 1 * (j 1).val; omega
  show FloatOps.addf (FloatOps.mulf (FloatOps.mulf (V c main_v138 (((cfg11.win 3).blk t).view.emb (rowOfBlk11 j))) (FloatOps.subf (V c main_v129_0 (((cfg11.win 0).blk t).view.emb j)) (V c main_v131 (((cfg11.win 1).blk t).view.emb (rowOfBlk11 j))))) (FloatOps.rsqrt (FloatOps.addf (V c main_v137 (((cfg11.win 2).blk t).view.emb (rowOfBlk11 j))) (Scalar.ofBits .f32 0x3727C5AC#32)))) (V c main_v139 (((cfg11.win 4).blk t).view.emb (rowOfBlk11 j)))
    = bnG11 (V c main_v129_0) (V c main_v131) (V c main_v137) (V c main_v138) (V c main_v139) (((cfg11.win 5).blk t).view.emb j)
  rw [hy, hr1, hr2, hr3, hr4]
  rfl

/-- An index of the array is in point `t`'s block iff each coordinate is in the block's range on its axis. -/
theorem mem_blk11 (t : Fin cfg11.N) (i : S50000x256.Idx) :
    i ∈ ((cfg11.win 5).blk t).view.set ↔ ∀ a : Fin 2, win11_5.index t a * S2000x256.size a ≤ (i a).val ∧ (i a).val < win11_5.index t a * S2000x256.size a + S2000x256.size a := by
  show i ∈ ((View.whole main_v140).slice (win11_5.rect t)).set ↔ _
  rw [View.set_slice_whole, Rect.mem_set_unit]
  exact Iff.rfl

/-- Every index of the array is in some point's block: the point whose block holds row `r` is `r / 2000`. -/
theorem covered11 (i : S50000x256.Idx) : ∃ t : Fin cfg11.N, (cfg11.win 5).flush t = true ∧ i ∈ ((cfg11.win 5).blk t).view.set := by
  have hi0 : (i 0).val < 50000 := (i 0).isLt
  have hi1 : (i 1).val < 256 := (i 1).isLt
  obtain ⟨t, ht⟩ := idx_onto11 ⟨(i 0).val / 2000, by omega⟩
  have q0 : win11_5.index t (0 : Fin 2) = (i 0).val / 2000 := congrFun ht 0
  have q1 : win11_5.index t (1 : Fin 2) = 0 := congrFun ht 1
  refine ⟨t, flush11_5 t, ?_⟩
  rw [mem_blk11]
  intro a
  match a with
  | ⟨0, _⟩ => show win11_5.index t (0 : Fin 2) * 2000 ≤ (i 0).val ∧ (i 0).val < win11_5.index t (0 : Fin 2) * 2000 + 2000; omega
  | ⟨1, _⟩ => show win11_5.index t (1 : Fin 2) * 256 ≤ (i 1).val ∧ (i 1).val < win11_5.index t (1 : Fin 2) * 256 + 256; omega

/-- The output array after the region, whole. -/
theorem final_bn11 (c : Dev nD) :
    (dat11 V c).arrAt 5 cfg11.N = bnG11 (V c main_v129_0) (V c main_v131) (V c main_v137) (V c main_v138) (V c main_v139) := by
  funext i
  rw [(dat11 V c).arrAt_eq_piecewise 5 _ (fun t _ => flushed11_eq V c t) i]
  exact if_pos (covered11 i)

end Cert.KernelIdeal.Gen

end
-- ==== Proof.SpecStats.lean ====
import proofs.«165059_j7095285973648_2_alg».proof.Proof.SpecLaws

/-! # Means and variances read at a column

Column `f` of the mean is the sum of that column of `y` over the 50000 nodes divided by 50000; column `f` of the
variance is the sum of the squared deviations divided by 50000. For a real column the latter equals the mean of
squares minus the squared mean cut off below at zero, whatever the order in which the two sums were collected. -/

noncomputable section

namespace Cert.Spec

open Idealize.ShloMosaic Idealize.ShloMosaic.ValueIdx Finset

/-- The word of 50000.0, the number of nodes. -/
abbrev cN : EReal := Ideal.ofBits .f32 0x47435000#32

/-- `var_law` for 50000 terms and the word of 50000.0. -/
theorem var_law_nodes (l : Fin 50000 → EReal) (hl : ∀ n, ∃ r : ℝ, l n = (r : EReal)) :
    max (Ideal.div (∑ n, l n * l n) cN - Ideal.div (∑ n, l n) cN * Ideal.div (∑ n, l n) cN) 0
      = Ideal.div (∑ n, (l n - Ideal.div (∑ n, l n) cN) * (l n - Ideal.div (∑ n, l n) cN)) cN := by
  choose lr hlr using hl
  have h := var_law l lr hlr cN 50000 ofBits_50000 (by norm_num) (by norm_num)
  simp only [zero_add] at h
  exact h

/-! ### Width 128 -/

theorem mean128_apply (y : (⟨S50000x128, .f32⟩ : BufTy).Contents (Elt Ideal)) (f : Fin 128) :
    mean128 y (ix1 f) = Ideal.div (∑ n : Fin 50000, y (ix2 n f)) cN := by
  unfold mean128
  rw [hostDivf_apply, Cert.LibHostApply.reduceAdd_cols_apply_zero y _ _ _
    (show (constant (F := Ideal) S_ .f32 0x00000000#32) _ = 0 from Ideal.ofBits_zero_f32) f,
    Cert.LibHostApply.broadcastInDim_scalar_apply]
  rfl

theorem cent128_apply (y : (⟨S50000x128, .f32⟩ : BufTy).Contents (Elt Ideal)) (mu : (⟨S128, .f32⟩ : BufTy).Contents (Elt Ideal)) (n : Fin 50000) (f : Fin 128) :
    cent128 y mu (ix2 n f) = y (ix2 n f) - mu (ix1 f) := by
  unfold cent128
  rw [subf_apply, Cert.LibHostApply.broadcastInDim_rows_apply, Cert.LibHostApply.broadcastInDim_row_apply]

theorem var128_apply (y : (⟨S50000x128, .f32⟩ : BufTy).Contents (Elt Ideal)) (mu : (⟨S128, .f32⟩ : BufTy).Contents (Elt Ideal)) (f : Fin 128) :
    var128 y mu (ix1 f)
      = Ideal.div (∑ n : Fin 50000, (y (ix2 n f) - mu (ix1 f)) * (y (ix2 n f) - mu (ix1 f))) cN := by
  unfold var128
  rw [hostDivf_apply, Cert.LibHostApply.reduceAdd_cols_apply_zero _ _ _ _
    (show (constant (F := Ideal) S_ .f32 0x00000000#32) _ = 0 from Ideal.ofBits_zero_f32) f,
    Cert.LibHostApply.broadcastInDim_scalar_apply]
  simp only [mulf_apply, cent128_apply]
  rfl

/-- On a real array: column `f`'s mean of squares minus its squared mean, cut off below at zero, is the variance
    of the column about its mean. -/
theorem var128_one_pass {y : (⟨S50000x128, .f32⟩ : BufTy).Contents (Elt Ideal)} (hy : IsReal y) (f : Fin 128) :
    max (Ideal.div (∑ n : Fin 50000, y (ix2 n f) * y (ix2 n f)) cN
          - Ideal.div (∑ n : Fin 50000, y (ix2 n f)) cN * Ideal.div (∑ n : Fin 50000, y (ix2 n f)) cN) 0
      = var128 y (mean128 y) (ix1 f) := by
  rw [var128_apply, mean128_apply]
  exact var_law_nodes (fun n => y (ix2 n f)) fun n => hy _

/-! ### Width 64 -/

theorem mean64_apply (y : (⟨S50000x64, .f32⟩ : BufTy).Contents (Elt Ideal)) (f : Fin 64) :
    mean64 y (ix1 f) = Ideal.div (∑ n : Fin 50000, y (ix2 n f)) cN := by
  unfold mean64
  rw [hostDivf_apply, Cert.LibHostApply.reduceAdd_cols_apply_zero y _ _ _
    (show (constant (F := Ideal) S_ .f32 0x00000000#32) _ = 0 from Ideal.ofBits_zero_f32) f,
    Cert.LibHostApply.broadcastInDim_scalar_apply]
  rfl

theorem cent64_apply (y : (⟨S50000x64, .f32⟩ : BufTy).Contents (Elt Ideal)) (mu : (⟨S64, .f32⟩ : BufTy).Contents (Elt Ideal)) (n : Fin 50000) (f : Fin 64) :
    cent64 y mu (ix2 n f) = y (ix2 n f) - mu (ix1 f) := by
  unfold cent64
  rw [subf_apply, Cert.LibHostApply.broadcastInDim_rows_apply, Cert.LibHostApply.broadcastInDim_row_apply]

theorem var64_apply (y : (⟨S50000x64, .f32⟩ : BufTy).Contents (Elt Ideal)) (mu : (⟨S64, .f32⟩ : BufTy).Contents (Elt Ideal)) (f : Fin 64) :
    var64 y mu (ix1 f)
      = Ideal.div (∑ n : Fin 50000, (y (ix2 n f) - mu (ix1 f)) * (y (ix2 n f) - mu (ix1 f))) cN := by
  unfold var64
  rw [hostDivf_apply, Cert.LibHostApply.reduceAdd_cols_apply_zero _ _ _ _
    (show (constant (F := Ideal) S_ .f32 0x00000000#32) _ = 0 from Ideal.ofBits_zero_f32) f,
    Cert.LibHostApply.broadcastInDim_scalar_apply]
  simp only [mulf_apply, cent64_apply]
  rfl

/-- On a real array: column `f`'s mean of squares minus its squared mean, cut off below at zero, is the variance
    of the column about its mean. -/
theorem var64_one_pass {y : (⟨S50000x64, .f32⟩ : BufTy).Contents (Elt Ideal)} (hy : IsReal y) (f : Fin 64) :
    max (Ideal.div (∑ n : Fin 50000, y (ix2 n f) * y (ix2 n f)) cN
          - Ideal.div (∑ n : Fin 50000, y (ix2 n f)) cN * Ideal.div (∑ n : Fin 50000, y (ix2 n f)) cN) 0
      = var64 y (mean64 y) (ix1 f) := by
  rw [var64_apply, mean64_apply]
  exact var_law_nodes (fun n => y (ix2 n f)) fun n => hy _

/-! ### Width 256 -/

theorem mean256_apply (y : (⟨S50000x256, .f32⟩ : BufTy).Contents (Elt Ideal)) (f : Fin 256) :
    mean256 y (ix1 f) = Ideal.div (∑ n : Fin 50000, y (ix2 n f)) cN := by
  unfold mean256
  rw [hostDivf_apply, Cert.LibHostApply.reduceAdd_cols_apply_zero y _ _ _
    (show (constant (F := Ideal) S_ .f32 0x00000000#32) _ = 0 from Ideal.ofBits_zero_f32) f,
    Cert.LibHostApply.broadcastInDim_scalar_apply]
  rfl

theorem cent256_apply (y : (⟨S50000x256, .f32⟩ : BufTy).Contents (Elt Ideal)) (mu : (⟨S256, .f32⟩ : BufTy).Contents (Elt Ideal)) (n : Fin 50000) (f : Fin 256) :
    cent256 y mu (ix2 n f) = y (ix2 n f) - mu (ix1 f) := by
  unfold cent256
  rw [subf_apply, Cert.LibHostApply.broadcastInDim_rows_apply, Cert.LibHostApply.broadcastInDim_row_apply]

theorem var256_apply (y : (⟨S50000x256, .f32⟩ : BufTy).Contents (Elt Ideal)) (mu : (⟨S256, .f32⟩ : BufTy).Contents (Elt Ideal)) (f : Fin 256) :
    var256 y mu (ix1 f)
      = Ideal.div (∑ n : Fin 50000, (y (ix2 n f) - mu (ix1 f)) * (y (ix2 n f) - mu (ix1 f))) cN := by
  unfold var256
  rw [hostDivf_apply, Cert.LibHostApply.reduceAdd_cols_apply_zero _ _ _ _
    (show (constant (F := Ideal) S_ .f32 0x00000000#32) _ = 0 from Ideal.ofBits_zero_f32) f,
    Cert.LibHostApply.broadcastInDim_scalar_apply]
  simp only [mulf_apply, cent256_apply]
  rfl

/-- On a real array: column `f`'s mean of squares minus its squared mean, cut off below at zero, is the variance
    of the column about its mean. -/
theorem var256_one_pass {y : (⟨S50000x256, .f32⟩ : BufTy).Contents (Elt Ideal)} (hy : IsReal y) (f : Fin 256) :
    max (Ideal.div (∑ n : Fin 50000, y (ix2 n f) * y (ix2 n f)) cN
          - Ideal.div (∑ n : Fin 50000, y (ix2 n f)) cN * Ideal.div (∑ n : Fin 50000, y (ix2 n f)) cN) 0
      = var256 y (mean256 y) (ix1 f) := by
  rw [var256_apply, mean256_apply]
  exact var_law_nodes (fun n => y (ix2 n f)) fun n => hy _

end Cert.Spec

end
-- ==== Proof.SpecApply.lean ====
import proofs.«165059_j7095285973648_2_alg».proof.Proof.SpecStats

/-! # The pointwise stages read at an entry

Entry `(n, f)` of a layer's linear map is the dot product of row `n` of the input with column `f` of the weights
plus the bias at `f`; of the pre-activation, the aggregate's entry plus the linear map's entry times the node's
own weight; of the rectification, the larger of the entry and zero; of the normalisation,
`g f * (y (n, f) - mu f) * (1 / sqrt (v f + eps)) + beta f`. -/

noncomputable section

namespace Cert.Spec

open Idealize.ShloMosaic Idealize.ShloMosaic.ValueIdx Finset

/-- The small positive word added to a variance under the square root. -/
abbrev cEps : EReal := Ideal.ofBits .f32 0x3727C5AC#32

theorem h1_apply (x : (⟨S50000x256, .f32⟩ : BufTy).Contents (Elt Ideal)) (Wt : (⟨S256x128, .f32⟩ : BufTy).Contents (Elt Ideal)) (b : (⟨S128, .f32⟩ : BufTy).Contents (Elt Ideal)) (n : Fin 50000) (f : Fin 128) :
    h1 x Wt b (ix2 n f) = (∑ k : Fin 256, x (ix2 n k) * Wt (ix2 k f)) + b (ix1 f) := by
  unfold h1
  rw [addf_apply, Cert.LibHostApply.broadcastInDim_rows_apply, Cert.LibHostApply.broadcastInDim_row_apply]
  exact congrArg (· + b (ix1 f))
    (Cert.LibHostApply.dotGeneral_mm_apply dot_S50000x256_S256x128_S50000x128_1_0_0_1_n_n_wf none x Wt n f)

theorem h2_apply (x : (⟨S50000x128, .f32⟩ : BufTy).Contents (Elt Ideal)) (Wt : (⟨S128x64, .f32⟩ : BufTy).Contents (Elt Ideal)) (b : (⟨S64, .f32⟩ : BufTy).Contents (Elt Ideal)) (n : Fin 50000) (f : Fin 64) :
    h2 x Wt b (ix2 n f) = (∑ k : Fin 128, x (ix2 n k) * Wt (ix2 k f)) + b (ix1 f) := by
  unfold h2
  rw [addf_apply, Cert.LibHostApply.broadcastInDim_rows_apply, Cert.LibHostApply.broadcastInDim_row_apply]
  exact congrArg (· + b (ix1 f))
    (Cert.LibHostApply.dotGeneral_mm_apply dot_S50000x128_S128x64_S50000x64_1_0_0_1_n_n_wf none x Wt n f)

theorem h3_apply (x : (⟨S50000x64, .f32⟩ : BufTy).Contents (Elt Ideal)) (Wt : (⟨S64x128, .f32⟩ : BufTy).Contents (Elt Ideal)) (b : (⟨S128, .f32⟩ : BufTy).Contents (Elt Ideal)) (n : Fin 50000) (f : Fin 128) :
    h3 x Wt b (ix2 n f) = (∑ k : Fin 64, x (ix2 n k) * Wt (ix2 k f)) + b (ix1 f) := by
  unfold h3
  rw [addf_apply, Cert.LibHostApply.broadcastInDim_rows_apply, Cert.LibHostApply.broadcastInDim_row_apply]
  exact congrArg (· + b (ix1 f))
    (Cert.LibHostApply.dotGeneral_mm_apply dot_S50000x64_S64x128_S50000x128_1_0_0_1_n_n_wf none x Wt n f)

theorem h4_apply (x : (⟨S50000x128, .f32⟩ : BufTy).Contents (Elt Ideal)) (Wt : (⟨S128x256, .f32⟩ : BufTy).Contents (Elt Ideal)) (b : (⟨S256, .f32⟩ : BufTy).Contents (Elt Ideal)) (n : Fin 50000) (f : Fin 256) :
    h4 x Wt b (ix2 n f) = (∑ k : Fin 128, x (ix2 n k) * Wt (ix2 k f)) + b (ix1 f) := by
  unfold h4
  rw [addf_apply, Cert.LibHostApply.broadcastInDim_rows_apply, Cert.LibHostApply.broadcastInDim_row_apply]
  exact congrArg (· + b (ix1 f))
    (Cert.LibHostApply.dotGeneral_mm_apply dot_S50000x128_S128x256_S50000x256_1_0_0_1_n_n_wf none x Wt n f)

/-! ### Width 128 -/

theorem pre128_apply (h a : (⟨S50000x128, .f32⟩ : BufTy).Contents (Elt Ideal)) (ws : (⟨S50000, .f32⟩ : BufTy).Contents (Elt Ideal)) (n : Fin 50000) (f : Fin 128) :
    pre128 h a ws (ix2 n f) = a (ix2 n f) + h (ix2 n f) * ws (ix1 n) := by
  unfold pre128
  rw [addf_apply, mulf_apply, Cert.LibHostApply.broadcastInDim_cols_apply, Cert.LibHostApply.broadcastInDim_col_apply]

theorem relu128_apply (z : (⟨S50000x128, .f32⟩ : BufTy).Contents (Elt Ideal)) (i : S50000x128.Idx) : relu128 z i = max (z i) 0 := by
  unfold relu128
  rw [maximumf_apply, Cert.LibHostApply.broadcastInDim_scalar_apply]
  exact congrArg (max (z i)) Ideal.ofBits_zero_f32

theorem bn128_apply (y : (⟨S50000x128, .f32⟩ : BufTy).Contents (Elt Ideal)) (mu v g beta : (⟨S128, .f32⟩ : BufTy).Contents (Elt Ideal)) (n : Fin 50000) (f : Fin 128) :
    bn128 y mu v g beta (ix2 n f)
      = g (ix1 f) * (y (ix2 n f) - mu (ix1 f)) * Ideal.rsqrt (v (ix1 f) + cEps) + beta (ix1 f) := by
  unfold bn128
  rw [addf_apply, mulf_apply, mulf_apply, cent128_apply,
    Cert.LibHostApply.broadcastInDim_rows_apply, Cert.LibHostApply.broadcastInDim_row_apply,
    Cert.LibHostApply.broadcastInDim_rows_apply, Cert.LibHostApply.broadcastInDim_row_apply,
    Cert.LibHostApply.broadcastInDim_rows_apply, Cert.LibHostApply.broadcastInDim_row_apply]
  rfl

/-! ### Width 64 -/

theorem pre64_apply (h a : (⟨S50000x64, .f32⟩ : BufTy).Contents (Elt Ideal)) (ws : (⟨S50000, .f32⟩ : BufTy).Contents (Elt Ideal)) (n : Fin 50000) (f : Fin 64) :
    pre64 h a ws (ix2 n f) = a (ix2 n f) + h (ix2 n f) * ws (ix1 n) := by
  unfold pre64
  rw [addf_apply, mulf_apply, Cert.LibHostApply.broadcastInDim_cols_apply, Cert.LibHostApply.broadcastInDim_col_apply]

theorem relu64_apply (z : (⟨S50000x64, .f32⟩ : BufTy).Contents (Elt Ideal)) (i : S50000x64.Idx) : relu64 z i = max (z i) 0 := by
  unfold relu64
  rw [maximumf_apply, Cert.LibHostApply.broadcastInDim_scalar_apply]
  exact congrArg (max (z i)) Ideal.ofBits_zero_f32

theorem bn64_apply (y : (⟨S50000x64, .f32⟩ : BufTy).Contents (Elt Ideal)) (mu v g beta : (⟨S64, .f32⟩ : BufTy).Contents (Elt Ideal)) (n : Fin 50000) (f : Fin 64) :
    bn64 y mu v g beta (ix2 n f)
      = g (ix1 f) * (y (ix2 n f) - mu (ix1 f)) * Ideal.rsqrt (v (ix1 f) + cEps) + beta (ix1 f) := by
  unfold bn64
  rw [addf_apply, mulf_apply, mulf_apply, cent64_apply,
    Cert.LibHostApply.broadcastInDim_rows_apply, Cert.LibHostApply.broadcastInDim_row_apply,
    Cert.LibHostApply.broadcastInDim_rows_apply, Cert.LibHostApply.broadcastInDim_row_apply,
    Cert.LibHostApply.broadcastInDim_rows_apply, Cert.LibHostApply.broadcastInDim_row_apply]
  rfl

/-! ### Width 256 -/

theorem pre256_apply (h a : (⟨S50000x256, .f32⟩ : BufTy).Contents (Elt Ideal)) (ws : (⟨S50000, .f32⟩ : BufTy).Contents (Elt Ideal)) (n : Fin 50000) (f : Fin 256) :
    pre256 h a ws (ix2 n f) = a (ix2 n f) + h (ix2 n f) * ws (ix1 n) := by
  unfold pre256
  rw [addf_apply, mulf_apply, Cert.LibHostApply.broadcastInDim_cols_apply, Cert.LibHostApply.broadcastInDim_col_apply]

theorem relu256_apply (z : (⟨S50000x256, .f32⟩ : BufTy).Contents (Elt Ideal)) (i : S50000x256.Idx) : relu256 z i = max (z i) 0 := by
  unfold relu256
  rw [maximumf_apply, Cert.LibHostApply.broadcastInDim_scalar_apply]
  exact congrArg (max (z i)) Ideal.ofBits_zero_f32

theorem bn256_apply (y : (⟨S50000x256, .f32⟩ : BufTy).Contents (Elt Ideal)) (mu v g beta : (⟨S256, .f32⟩ : BufTy).Contents (Elt Ideal)) (n : Fin 50000) (f : Fin 256) :
    bn256 y mu v g beta (ix2 n f)
      = g (ix1 f) * (y (ix2 n f) - mu (ix1 f)) * Ideal.rsqrt (v (ix1 f) + cEps) + beta (ix1 f) := by
  unfold bn256
  rw [addf_apply, mulf_apply, mulf_apply, cent256_apply,
    Cert.LibHostApply.broadcastInDim_rows_apply, Cert.LibHostApply.broadcastInDim_row_apply,
    Cert.LibHostApply.broadcastInDim_rows_apply, Cert.LibHostApply.broadcastInDim_row_apply,
    Cert.LibHostApply.broadcastInDim_rows_apply, Cert.LibHostApply.broadcastInDim_row_apply]
  rfl

end Cert.Spec

end
-- ==== Proof.LayerBridge2.lean ====
import proofs.«165059_j7095285973648_2_alg».proof.Proof.BnValue2
import proofs.«165059_j7095285973648_2_alg».proof.Proof.KHost
import proofs.«165059_j7095285973648_2_alg».proof.Proof.SpecApply

/-! # The normalising launch of width 128 against the network's stage

The launch computes, entry by entry, `g q * (y (r, q) - mean q) * (1 / sqrt (var q + eps)) + beta q` and then the maximum with zero, with
`mean = s / 50000` and `var = max (q / 50000 - mean * mean) 0` from the accumulated column sums `s` and sums of
squares `q`. When `y` holds real numbers and `s`, `q` are the column sums of `y` and of `y * y`, that variance is the
mean squared deviation, so the launch's array is the network's rectified normalisation of `y`. -/

noncomputable section

namespace Cert.KernelIdeal.Gen

open Idealize.ShloMosaic Idealize.ShloMosaic.ValueIdx Finset

theorem bridge2 (Y : (⟨S50000x128, .f32⟩ : BufTy).Contents (Elt Ideal)) (hY : Cert.Spec.IsReal Y)
    (S Q : (⟨S1x128, .f32⟩ : BufTy).Contents (Elt Ideal))
    (hS : ∀ q : Fin 128, S (ix2 (0 : Fin 1) q) = Host.reduceAdd Y (constant (F := Ideal) Cert.Spec.S_ .f32 0x00000000#32) Cert.Spec.reducesTo_S50000x128_S128_d0 Cert.Spec.h_S_ (ix1 q))
    (hQ : ∀ q : Fin 128, Q (ix2 (0 : Fin 1) q) = Host.reduceAdd (mulf Y Y) (constant (F := Ideal) Cert.Spec.S_ .f32 0x00000000#32) Cert.Spec.reducesTo_S50000x128_S128_d0 Cert.Spec.h_S_ (ix1 q))
    (g beta : (⟨S128, .f32⟩ : BufTy).Contents (Elt Ideal)) :
    bnG2 Y (kmean128 S) (kvar128 S Q) (krow128 g) (krow128 beta)
      = Cert.Spec.relu128 (Cert.Spec.bn128 Y (Cert.Spec.mean128 Y) (Cert.Spec.var128 Y (Cert.Spec.mean128 Y)) g beta) := by
  have hS' : ∀ q : Fin 128, S (ix2 (0 : Fin 1) q) = ∑ n : Fin 50000, Y (ix2 n q) := fun q =>
    (hS q).trans (Cert.LibHostApply.reduceAdd_cols_apply_zero Y _ _ _
      (show (constant (F := Ideal) Cert.Spec.S_ .f32 0x00000000#32) _ = 0 from Ideal.ofBits_zero_f32) q)
  have hQ' : ∀ q : Fin 128, Q (ix2 (0 : Fin 1) q) = ∑ n : Fin 50000, Y (ix2 n q) * Y (ix2 n q) := fun q =>
    (hQ q).trans (Cert.LibHostApply.reduceAdd_cols_apply_zero (mulf Y Y) _ _ _
      (show (constant (F := Ideal) Cert.Spec.S_ .f32 0x00000000#32) _ = 0 from Ideal.ofBits_zero_f32) q)
  funext i
  obtain ⟨n, f, rfl⟩ : ∃ (n : Fin 50000) (f : Fin 128), i = ix2 n f := ⟨i 0, i 1, eq_ix2 i⟩
  rw [Cert.Spec.relu128_apply, Cert.Spec.bn128_apply, ← Cert.Spec.var128_one_pass hY f, Cert.Spec.mean128_apply,
    ← hS' f, ← hQ' f]
  have h0 : Ideal.ofBits .f32 0x00000000#32 = 0 := Ideal.ofBits_zero_f32
  have hg : krow128 g (rowOf2 (ix2 n f)) = g (ix1 f) := by
    show shapeCast (⟨2, ![1, 128]⟩ : Shape) g _ (ix2 (0 : Fin 1) f) = _
    exact Cert.LibHostApply.shapeCast_row_apply g _ f
  have hb : krow128 beta (rowOf2 (ix2 n f)) = beta (ix1 f) := by
    show shapeCast (⟨2, ![1, 128]⟩ : Shape) beta _ (ix2 (0 : Fin 1) f) = _
    exact Cert.LibHostApply.shapeCast_row_apply beta _ f
  show max (krow128 g (rowOf2 (ix2 n f)) * (Y (ix2 n f) - Ideal.div (S (ix2 (0 : Fin 1) f)) Cert.Spec.cN)
        * Ideal.rsqrt (max (Ideal.div (Q (ix2 (0 : Fin 1) f)) Cert.Spec.cN
            - Ideal.div (S (ix2 (0 : Fin 1) f)) Cert.Spec.cN * Ideal.div (S (ix2 (0 : Fin 1) f)) Cert.Spec.cN) (Ideal.ofBits .f32 0x00000000#32) + Cert.Spec.cEps)
        + krow128 beta (rowOf2 (ix2 n f))) (Ideal.ofBits .f32 0x00000000#32) = _
  rw [hg, hb, h0]

end Cert.KernelIdeal.Gen

end
-- ==== Proof.LayerBridge5.lean ====
import proofs.«165059_j7095285973648_2_alg».proof.Proof.BnValue5
import proofs.«165059_j7095285973648_2_alg».proof.Proof.KHost
import proofs.«165059_j7095285973648_2_alg».proof.Proof.SpecApply

/-! # The normalising launch of width 64 against the network's stage

The launch computes, entry by entry, `g q * (y (r, q) - mean q) * (1 / sqrt (var q + eps)) + beta q`, with
`mean = s / 50000` and `var = max (q / 50000 - mean * mean) 0` from the accumulated column sums `s` and sums of
squares `q`. When `y` holds real numbers and `s`, `q` are the column sums of `y` and of `y * y`, that variance is the
mean squared deviation, so the launch's array is the network's normalisation of `y`. -/

noncomputable section

namespace Cert.KernelIdeal.Gen

open Idealize.ShloMosaic Idealize.ShloMosaic.ValueIdx Finset

theorem bridge5 (Y : (⟨S50000x64, .f32⟩ : BufTy).Contents (Elt Ideal)) (hY : Cert.Spec.IsReal Y)
    (S Q : (⟨S1x64, .f32⟩ : BufTy).Contents (Elt Ideal))
    (hS : ∀ q : Fin 64, S (ix2 (0 : Fin 1) q) = Host.reduceAdd Y (constant (F := Ideal) Cert.Spec.S_ .f32 0x00000000#32) Cert.Spec.reducesTo_S50000x64_S64_d0 Cert.Spec.h_S_ (ix1 q))
    (hQ : ∀ q : Fin 64, Q (ix2 (0 : Fin 1) q) = Host.reduceAdd (mulf Y Y) (constant (F := Ideal) Cert.Spec.S_ .f32 0x00000000#32) Cert.Spec.reducesTo_S50000x64_S64_d0 Cert.Spec.h_S_ (ix1 q))
    (g beta : (⟨S64, .f32⟩ : BufTy).Contents (Elt Ideal)) :
    bnG5 Y (kmean64 S) (kvar64 S Q) (krow64 g) (krow64 beta)
      = Cert.Spec.bn64 Y (Cert.Spec.mean64 Y) (Cert.Spec.var64 Y (Cert.Spec.mean64 Y)) g beta := by
  have hS' : ∀ q : Fin 64, S (ix2 (0 : Fin 1) q) = ∑ n : Fin 50000, Y (ix2 n q) := fun q =>
    (hS q).trans (Cert.LibHostApply.reduceAdd_cols_apply_zero Y _ _ _
      (show (constant (F := Ideal) Cert.Spec.S_ .f32 0x00000000#32) _ = 0 from Ideal.ofBits_zero_f32) q)
  have hQ' : ∀ q : Fin 64, Q (ix2 (0 : Fin 1) q) = ∑ n : Fin 50000, Y (ix2 n q) * Y (ix2 n q) := fun q =>
    (hQ q).trans (Cert.LibHostApply.reduceAdd_cols_apply_zero (mulf Y Y) _ _ _
      (show (constant (F := Ideal) Cert.Spec.S_ .f32 0x00000000#32) _ = 0 from Ideal.ofBits_zero_f32) q)
  funext i
  obtain ⟨n, f, rfl⟩ : ∃ (n : Fin 50000) (f : Fin 64), i = ix2 n f := ⟨i 0, i 1, eq_ix2 i⟩
  rw [Cert.Spec.bn64_apply, ← Cert.Spec.var64_one_pass hY f, Cert.Spec.mean64_apply,
    ← hS' f, ← hQ' f]
  have h0 : Ideal.ofBits .f32 0x00000000#32 = 0 := Ideal.ofBits_zero_f32
  have hg : krow64 g (rowOf5 (ix2 n f)) = g (ix1 f) := by
    show shapeCast (⟨2, ![1, 64]⟩ : Shape) g _ (ix2 (0 : Fin 1) f) = _
    exact Cert.LibHostApply.shapeCast_row_apply g _ f
  have hb : krow64 beta (rowOf5 (ix2 n f)) = beta (ix1 f) := by
    show shapeCast (⟨2, ![1, 64]⟩ : Shape) beta _ (ix2 (0 : Fin 1) f) = _
    exact Cert.LibHostApply.shapeCast_row_apply beta _ f
  show krow64 g (rowOf5 (ix2 n f)) * (Y (ix2 n f) - Ideal.div (S (ix2 (0 : Fin 1) f)) Cert.Spec.cN)
        * Ideal.rsqrt (max (Ideal.div (Q (ix2 (0 : Fin 1) f)) Cert.Spec.cN
            - Ideal.div (S (ix2 (0 : Fin 1) f)) Cert.Spec.cN * Ideal.div (S (ix2 (0 : Fin 1) f)) Cert.Spec.cN) (Ideal.ofBits .f32 0x00000000#32) + Cert.Spec.cEps)
        + krow64 beta (rowOf5 (ix2 n f)) = _
  rw [hg, hb, h0]

end Cert.KernelIdeal.Gen

end
-- ==== Proof.LayerBridge8.lean ====
import proofs.«165059_j7095285973648_2_alg».proof.Proof.BnValue8
import proofs.«165059_j7095285973648_2_alg».proof.Proof.KHost
import proofs.«165059_j7095285973648_2_alg».proof.Proof.SpecApply

/-! # The normalising launch of width 128 against the network's stage

The launch computes, entry by entry, `g q * (y (r, q) - mean q) * (1 / sqrt (var q + eps)) + beta q` and then the maximum with zero, with
`mean = s / 50000` and `var = max (q / 50000 - mean * mean) 0` from the accumulated column sums `s` and sums of
squares `q`. When `y` holds real numbers and `s`, `q` are the column sums of `y` and of `y * y`, that variance is the
mean squared deviation, so the launch's array is the network's rectified normalisation of `y`. -/

noncomputable section

namespace Cert.KernelIdeal.Gen

open Idealize.ShloMosaic Idealize.ShloMosaic.ValueIdx Finset

theorem bridge8 (Y : (⟨S50000x128, .f32⟩ : BufTy).Contents (Elt Ideal)) (hY : Cert.Spec.IsReal Y)
    (S Q : (⟨S1x128, .f32⟩ : BufTy).Contents (Elt Ideal))
    (hS : ∀ q : Fin 128, S (ix2 (0 : Fin 1) q) = Host.reduceAdd Y (constant (F := Ideal) Cert.Spec.S_ .f32 0x00000000#32) Cert.Spec.reducesTo_S50000x128_S128_d0 Cert.Spec.h_S_ (ix1 q))
    (hQ : ∀ q : Fin 128, Q (ix2 (0 : Fin 1) q) = Host.reduceAdd (mulf Y Y) (constant (F := Ideal) Cert.Spec.S_ .f32 0x00000000#32) Cert.Spec.reducesTo_S50000x128_S128_d0 Cert.Spec.h_S_ (ix1 q))
    (g beta : (⟨S128, .f32⟩ : BufTy).Contents (Elt Ideal)) :
    bnG8 Y (kmean128 S) (kvar128 S Q) (krow128 g) (krow128 beta)
      = Cert.Spec.relu128 (Cert.Spec.bn128 Y (Cert.Spec.mean128 Y) (Cert.Spec.var128 Y (Cert.Spec.mean128 Y)) g beta) := by
  have hS' : ∀ q : Fin 128, S (ix2 (0 : Fin 1) q) = ∑ n : Fin 50000, Y (ix2 n q) := fun q =>
    (hS q).trans (Cert.LibHostApply.reduceAdd_cols_apply_zero Y _ _ _
      (show (constant (F := Ideal) Cert.Spec.S_ .f32 0x00000000#32) _ = 0 from Ideal.ofBits_zero_f32) q)
  have hQ' : ∀ q : Fin 128, Q (ix2 (0 : Fin 1) q) = ∑ n : Fin 50000, Y (ix2 n q) * Y (ix2 n q) := fun q =>
    (hQ q).trans (Cert.LibHostApply.reduceAdd_cols_apply_zero (mulf Y Y) _ _ _
      (show (constant (F := Ideal) Cert.Spec.S_ .f32 0x00000000#32) _ = 0 from Ideal.ofBits_zero_f32) q)
  funext i
  obtain ⟨n, f, rfl⟩ : ∃ (n : Fin 50000) (f : Fin 128), i = ix2 n f := ⟨i 0, i 1, eq_ix2 i⟩
  rw [Cert.Spec.relu128_apply, Cert.Spec.bn128_apply, ← Cert.Spec.var128_one_pass hY f, Cert.Spec.mean128_apply,
    ← hS' f, ← hQ' f]
  have h0 : Ideal.ofBits .f32 0x00000000#32 = 0 := Ideal.ofBits_zero_f32
  have hg : krow128 g (rowOf8 (ix2 n f)) = g (ix1 f) := by
    show shapeCast (⟨2, ![1, 128]⟩ : Shape) g _ (ix2 (0 : Fin 1) f) = _
    exact Cert.LibHostApply.shapeCast_row_apply g _ f
  have hb : krow128 beta (rowOf8 (ix2 n f)) = beta (ix1 f) := by
    show shapeCast (⟨2, ![1, 128]⟩ : Shape) beta _ (ix2 (0 : Fin 1) f) = _
    exact Cert.LibHostApply.shapeCast_row_apply beta _ f
  show max (krow128 g (rowOf8 (ix2 n f)) * (Y (ix2 n f) - Ideal.div (S (ix2 (0 : Fin 1) f)) Cert.Spec.cN)
        * Ideal.rsqrt (max (Ideal.div (Q (ix2 (0 : Fin 1) f)) Cert.Spec.cN
            - Ideal.div (S (ix2 (0 : Fin 1) f)) Cert.Spec.cN * Ideal.div (S (ix2 (0 : Fin 1) f)) Cert.Spec.cN) (Ideal.ofBits .f32 0x00000000#32) + Cert.Spec.cEps)
        + krow128 beta (rowOf8 (ix2 n f))) (Ideal.ofBits .f32 0x00000000#32) = _
  rw [hg, hb, h0]

end Cert.KernelIdeal.Gen

end
-- ==== Proof.LayerBridge11.lean ====
import proofs.«165059_j7095285973648_2_alg».proof.Proof.BnValue11
import proofs.«165059_j7095285973648_2_alg».proof.Proof.KHost
import proofs.«165059_j7095285973648_2_alg».proof.Proof.SpecApply

/-! # The normalising launch of width 256 against the network's stage

The launch computes, entry by entry, `g q * (y (r, q) - mean q) * (1 / sqrt (var q + eps)) + beta q`, with
`mean = s / 50000` and `var = max (q / 50000 - mean * mean) 0` from the accumulated column sums `s` and sums of
squares `q`. When `y` holds real numbers and `s`, `q` are the column sums of `y` and of `y * y`, that variance is the
mean squared deviation, so the launch's array is the network's normalisation of `y`. -/

noncomputable section

namespace Cert.KernelIdeal.Gen

open Idealize.ShloMosaic Idealize.ShloMosaic.ValueIdx Finset

theorem bridge11 (Y : (⟨S50000x256, .f32⟩ : BufTy).Contents (Elt Ideal)) (hY : Cert.Spec.IsReal Y)
    (S Q : (⟨S1x256, .f32⟩ : BufTy).Contents (Elt Ideal))
    (hS : ∀ q : Fin 256, S (ix2 (0 : Fin 1) q) = Host.reduceAdd Y (constant (F := Ideal) Cert.Spec.S_ .f32 0x00000000#32) Cert.Spec.reducesTo_S50000x256_S256_d0 Cert.Spec.h_S_ (ix1 q))
    (hQ : ∀ q : Fin 256, Q (ix2 (0 : Fin 1) q) = Host.reduceAdd (mulf Y Y) (constant (F := Ideal) Cert.Spec.S_ .f32 0x00000000#32) Cert.Spec.reducesTo_S50000x256_S256_d0 Cert.Spec.h_S_ (ix1 q))
    (g beta : (⟨S256, .f32⟩ : BufTy).Contents (Elt Ideal)) :
    bnG11 Y (kmean256 S) (kvar256 S Q) (krow256 g) (krow256 beta)
      = Cert.Spec.bn256 Y (Cert.Spec.mean256 Y) (Cert.Spec.var256 Y (Cert.Spec.mean256 Y)) g beta := by
  have hS' : ∀ q : Fin 256, S (ix2 (0 : Fin 1) q) = ∑ n : Fin 50000, Y (ix2 n q) := fun q =>
    (hS q).trans (Cert.LibHostApply.reduceAdd_cols_apply_zero Y _ _ _
      (show (constant (F := Ideal) Cert.Spec.S_ .f32 0x00000000#32) _ = 0 from Ideal.ofBits_zero_f32) q)
  have hQ' : ∀ q : Fin 256, Q (ix2 (0 : Fin 1) q) = ∑ n : Fin 50000, Y (ix2 n q) * Y (ix2 n q) := fun q =>
    (hQ q).trans (Cert.LibHostApply.reduceAdd_cols_apply_zero (mulf Y Y) _ _ _
      (show (constant (F := Ideal) Cert.Spec.S_ .f32 0x00000000#32) _ = 0 from Ideal.ofBits_zero_f32) q)
  funext i
  obtain ⟨n, f, rfl⟩ : ∃ (n : Fin 50000) (f : Fin 256), i = ix2 n f := ⟨i 0, i 1, eq_ix2 i⟩
  rw [Cert.Spec.bn256_apply, ← Cert.Spec.var256_one_pass hY f, Cert.Spec.mean256_apply,
    ← hS' f, ← hQ' f]
  have h0 : Ideal.ofBits .f32 0x00000000#32 = 0 := Ideal.ofBits_zero_f32
  have hg : krow256 g (rowOf11 (ix2 n f)) = g (ix1 f) := by
    show shapeCast (⟨2, ![1, 256]⟩ : Shape) g _ (ix2 (0 : Fin 1) f) = _
    exact Cert.LibHostApply.shapeCast_row_apply g _ f
  have hb : krow256 beta (rowOf11 (ix2 n f)) = beta (ix1 f) := by
    show shapeCast (⟨2, ![1, 256]⟩ : Shape) beta _ (ix2 (0 : Fin 1) f) = _
    exact Cert.LibHostApply.shapeCast_row_apply beta _ f
  show krow256 g (rowOf11 (ix2 n f)) * (Y (ix2 n f) - Ideal.div (S (ix2 (0 : Fin 1) f)) Cert.Spec.cN)
        * Ideal.rsqrt (max (Ideal.div (Q (ix2 (0 : Fin 1) f)) Cert.Spec.cN
            - Ideal.div (S (ix2 (0 : Fin 1) f)) Cert.Spec.cN * Ideal.div (S (ix2 (0 : Fin 1) f)) Cert.Spec.cN) (Ideal.ofBits .f32 0x00000000#32) + Cert.Spec.cEps)
        + krow256 beta (rowOf11 (ix2 n f)) = _
  rw [hg, hb, h0]

end Cert.KernelIdeal.Gen

end
-- ==== Proof.KValue.lean ====
import proofs.«165059_j7095285973648_2_alg».proof.Proof.UStep
import proofs.«165059_j7095285973648_2_alg».proof.Proof.KHost
import proofs.«165059_j7095285973648_2_alg».proof.Proof.KArgs
import proofs.«165059_j7095285973648_2_alg».proof.Proof.SpecLaws
import proofs.«165059_j7095285973648_2_alg».proof.Proof.LinValue0
import proofs.«165059_j7095285973648_2_alg».proof.Proof.LinValue3
import proofs.«165059_j7095285973648_2_alg».proof.Proof.LinValue6
import proofs.«165059_j7095285973648_2_alg».proof.Proof.LinValue9
import proofs.«165059_j7095285973648_2_alg».proof.Proof.CombValue1
import proofs.«165059_j7095285973648_2_alg».proof.Proof.CombValue4
import proofs.«165059_j7095285973648_2_alg».proof.Proof.CombValue7
import proofs.«165059_j7095285973648_2_alg».proof.Proof.CombValue10
import proofs.«165059_j7095285973648_2_alg».proof.Proof.BnValue2
import proofs.«165059_j7095285973648_2_alg».proof.Proof.BnValue5
import proofs.«165059_j7095285973648_2_alg».proof.Proof.BnValue8
import proofs.«165059_j7095285973648_2_alg».proof.Proof.BnValue11
import proofs.«165059_j7095285973648_2_alg».proof.Proof.LayerBridge2
import proofs.«165059_j7095285973648_2_alg».proof.Proof.LayerBridge5
import proofs.«165059_j7095285973648_2_alg».proof.Proof.LayerBridge8
import proofs.«165059_j7095285973648_2_alg».proof.Proof.LayerBridge11
import Idealize.ShloMosaic.Lib.StableHlo.Run

set_option maxRecDepth 16384

noncomputable section

namespace Cert.KernelIdeal.Gen

open Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ)

/-! # What the idealized kernel computes

Item by item, the buffers the program's twenty-four items leave are the stages of the specification: each dense
layer's output is `H`, each aggregation `A`, each combine-and-clamp region's output `Y` with its column sums and sums of
squares, each normalisation's output `O`. Only the last step of a layer uses that the inputs are real numbers: there
the kernel's variance `max (E[y²] − E[y]², 0)` meets the specification's `E[(y − E[y])²]`. -/

/-! ## Layer 1 (width 128) -/

/-- The dense layer's output array is the specification's `H1`. -/
theorem l1_H (c : Dev nD) : U2 m c main_v34 = Cert.Spec.H1 (kargs m c) := by
  have e : U2 m c main_v34 = (dat0 (atTc (U1 m)) c).arrAt 3 cfg0.N := (hF0 m c 3).symm
  have hb : atTc (U1 m) c main_v33 = krow128 (V0 m c main_arg3) :=
    (hs0_v33 (V0 m c)).trans (congrArg krow128 rfl)
  rw [e, final_lin0 (atTc (U1 m)) c (V0 m c main_arg3) hb,
    (show atTc (U1 m) c main_arg0 = V0 m c main_arg0 from (ustep0 m c main_arg0 (by decide))),
    (show atTc (U1 m) c main_arg2 = V0 m c main_arg2 from (ustep0 m c main_arg2 (by decide)))]
  rfl

/-- The aggregated messages are the specification's `A1`. -/
theorem l1_A (c : Dev nD) : U3 m c main_v47 = Cert.Spec.A1 (kargs m c) := by
  have e := hs1_v47 (U2 m c)
  have h1 : U2 m c main_v1 = Cert.Spec.src (V0 m c main_arg1) := ((ustep1 m c main_v1 (by decide))).trans (hs0_v1 (V0 m c))
  have h3 : U2 m c main_v3 = Cert.Spec.dst (V0 m c main_arg1) := ((ustep1 m c main_v3 (by decide))).trans (hs0_v3 (V0 m c))
  have h30 : U2 m c main_v30 = Cert.Spec.dsd (V0 m c main_arg1) := ((ustep1 m c main_v30 (by decide))).trans (hs0_v30 (V0 m c))
  rw [h1, h3, h30, l1_H m c] at e
  exact e

/-- The region that adds the self-loop term and clamps at zero leaves the specification's `Y1`. -/
theorem l1_Y (c : Dev nD) : U4 m c main_v48_0 = Cert.Spec.Y1 (kargs m c) := by
  have e : U4 m c main_v48_0 = (dat1 (atTc (U3 m)) c).arrAt 3 cfg1.N := (hF1 m c 3).symm
  have hds : (atTc (U3 m) c (Pipeline.arrRef spec1 2) : S50000x1.Idx → Ideal .f32) = shapeCast S50000x1 (Cert.Spec.dself (V0 m c main_arg1)) shapeCasts_S50000_S50000x1 :=
    (((ustep2 m c main_v32 (by decide)).trans (ustep1 m c main_v32 (by decide)))).trans (hs0_v32 (V0 m c))
  rw [e, final1_3 (atTc (U3 m)) c (Cert.Spec.dself (V0 m c main_arg1)) shapeCasts_S50000_S50000x1 hds]
  show Cert.Spec.relu128 (Cert.Spec.pre128 (U3 m c main_v34) (U3 m c main_v47) (Cert.Spec.dself (V0 m c main_arg1))) = _
  rw [l1_A m c, (show U3 m c main_v34 = Cert.Spec.H1 (kargs m c) from ((ustep2 m c main_v34 (by decide))).trans (l1_H m c))]
  rfl

/-- The two accumulators end holding, column by column, the sums of `Y1` and of its squares over all rows. -/
theorem l1_S (c : Dev nD) (q : Fin 128) : (U4 m c main_v48_1 : S1x128.Idx → Ideal .f32) (ix2 (0 : Fin 1) q)
    = Host.reduceAdd (Cert.Spec.Y1 (kargs m c)) (constant (F := Ideal) Cert.Spec.S_ .f32 0x00000000#32) Cert.Spec.reducesTo_S50000x128_S128_d0 Cert.Spec.h_S_ (ix1 q) := by
  have e : U4 m c main_v48_1 = (dat1 (atTc (U3 m)) c).arrAt 4 cfg1.N := (hF1 m c 4).symm
  have hds : (atTc (U3 m) c (Pipeline.arrRef spec1 2) : S50000x1.Idx → Ideal .f32) = shapeCast S50000x1 (Cert.Spec.dself (V0 m c main_arg1)) shapeCasts_S50000_S50000x1 :=
    (((ustep2 m c main_v32 (by decide)).trans (ustep1 m c main_v32 (by decide)))).trans (hs0_v32 (V0 m c))
  have hY : (dat1 (atTc (U3 m)) c).arrAt 3 cfg1.N = Cert.Spec.Y1 (kargs m c) := (hF1 m c 3).trans (l1_Y m c)
  rw [e, final1_4 (atTc (U3 m)) c (Cert.Spec.dself (V0 m c main_arg1)) shapeCasts_S50000_S50000x1 hds q,
    ← final1_3 (atTc (U3 m)) c (Cert.Spec.dself (V0 m c main_arg1)) shapeCasts_S50000_S50000x1 hds, hY]

theorem l1_Q (c : Dev nD) (q : Fin 128) : (U4 m c main_v48_2 : S1x128.Idx → Ideal .f32) (ix2 (0 : Fin 1) q)
    = Host.reduceAdd (mulf (Cert.Spec.Y1 (kargs m c)) (Cert.Spec.Y1 (kargs m c))) (constant (F := Ideal) Cert.Spec.S_ .f32 0x00000000#32) Cert.Spec.reducesTo_S50000x128_S128_d0 Cert.Spec.h_S_ (ix1 q) := by
  have e : U4 m c main_v48_2 = (dat1 (atTc (U3 m)) c).arrAt 5 cfg1.N := (hF1 m c 5).symm
  have hds : (atTc (U3 m) c (Pipeline.arrRef spec1 2) : S50000x1.Idx → Ideal .f32) = shapeCast S50000x1 (Cert.Spec.dself (V0 m c main_arg1)) shapeCasts_S50000_S50000x1 :=
    (((ustep2 m c main_v32 (by decide)).trans (ustep1 m c main_v32 (by decide)))).trans (hs0_v32 (V0 m c))
  have hY : (dat1 (atTc (U3 m)) c).arrAt 3 cfg1.N = Cert.Spec.Y1 (kargs m c) := (hF1 m c 3).trans (l1_Y m c)
  rw [e, final1_5 (atTc (U3 m)) c (Cert.Spec.dself (V0 m c main_arg1)) shapeCasts_S50000_S50000x1 hds q,
    ← final1_3 (atTc (U3 m)) c (Cert.Spec.dself (V0 m c main_arg1)) shapeCasts_S50000_S50000x1 hds, hY]

/-- The normalisation region leaves the specification's `O1`: here the one-pass variance the kernel computes meets
    the two-pass variance of the specification, which needs every entry of `Y1` to be a real number. -/
theorem l1_O (c : Dev nD) (hR : Cert.Spec.RealArgs (kargs m c)) : U6 m c main_v59 = Cert.Spec.O1 (kargs m c) := by
  have e : U6 m c main_v59 = (dat2 (atTc (U5 m)) c).arrAt 5 cfg2.N := (hF2 m c 5).symm
  rw [e, final_bn2 (atTc (U5 m)) c]
  show bnG2 (U5 m c main_v48_0) (U5 m c main_v50) (U5 m c main_v56) (U5 m c main_v57) (U5 m c main_v58) = _
  rw [(show U5 m c main_v50 = _ from hs2_v50 (U4 m c)), (show U5 m c main_v56 = _ from hs2_v56 (U4 m c)),
    (show U5 m c main_v57 = _ from hs2_v57 (U4 m c)), (show U5 m c main_v58 = _ from hs2_v58 (U4 m c)),
    (show U5 m c main_v48_0 = Cert.Spec.Y1 (kargs m c) from ((ustep4 m c main_v48_0 (by decide))).trans (l1_Y m c)),
    (show U4 m c main_arg4 = V0 m c main_arg4 from ((ustep3 m c main_arg4 (by decide)).trans ((ustep2 m c main_arg4 (by decide)).trans ((ustep1 m c main_arg4 (by decide)).trans (ustep0 m c main_arg4 (by decide)))))),
    (show U4 m c main_arg5 = V0 m c main_arg5 from ((ustep3 m c main_arg5 (by decide)).trans ((ustep2 m c main_arg5 (by decide)).trans ((ustep1 m c main_arg5 (by decide)).trans (ustep0 m c main_arg5 (by decide))))))]
  exact bridge2 (Cert.Spec.Y1 (kargs m c)) (Cert.Spec.real_Y1 hR) (U4 m c main_v48_1) (U4 m c main_v48_2)
    (fun q => l1_S m c q) (fun q => l1_Q m c q) (V0 m c main_arg4) (V0 m c main_arg5)

/-! ## Layer 2 (width 64) -/

/-- The dense layer's output array is the specification's `H2`. -/
theorem l2_H (c : Dev nD) (hR : Cert.Spec.RealArgs (kargs m c)) : U8 m c main_v61 = Cert.Spec.H2 (kargs m c) := by
  have e : U8 m c main_v61 = (dat3 (atTc (U7 m)) c).arrAt 3 cfg3.N := (hF3 m c 3).symm
  have hb : atTc (U7 m) c main_v60 = krow64 (V0 m c main_arg7) :=
    (hs3_v60 (U6 m c)).trans (congrArg krow64 ((ustep5 m c main_arg7 (by decide)).trans ((ustep4 m c main_arg7 (by decide)).trans ((ustep3 m c main_arg7 (by decide)).trans ((ustep2 m c main_arg7 (by decide)).trans ((ustep1 m c main_arg7 (by decide)).trans (ustep0 m c main_arg7 (by decide))))))))
  rw [e, final_lin3 (atTc (U7 m)) c (V0 m c main_arg7) hb,
    (show atTc (U7 m) c main_v59 = Cert.Spec.O1 (kargs m c) from ((ustep6 m c main_v59 (by decide))).trans (l1_O m c hR)),
    (show atTc (U7 m) c main_arg6 = V0 m c main_arg6 from ((ustep6 m c main_arg6 (by decide)).trans ((ustep5 m c main_arg6 (by decide)).trans ((ustep4 m c main_arg6 (by decide)).trans ((ustep3 m c main_arg6 (by decide)).trans ((ustep2 m c main_arg6 (by decide)).trans ((ustep1 m c main_arg6 (by decide)).trans (ustep0 m c main_arg6 (by decide)))))))))]
  rfl

/-- The aggregated messages are the specification's `A2`. -/
theorem l2_A (c : Dev nD) (hR : Cert.Spec.RealArgs (kargs m c)) : U9 m c main_v74 = Cert.Spec.A2 (kargs m c) := by
  have e := hs4_v74 (U8 m c)
  have h1 : U8 m c main_v1 = Cert.Spec.src (V0 m c main_arg1) := (((ustep7 m c main_v1 (by decide)).trans ((ustep6 m c main_v1 (by decide)).trans ((ustep5 m c main_v1 (by decide)).trans ((ustep4 m c main_v1 (by decide)).trans ((ustep3 m c main_v1 (by decide)).trans ((ustep2 m c main_v1 (by decide)).trans (ustep1 m c main_v1 (by decide))))))))).trans (hs0_v1 (V0 m c))
  have h3 : U8 m c main_v3 = Cert.Spec.dst (V0 m c main_arg1) := (((ustep7 m c main_v3 (by decide)).trans ((ustep6 m c main_v3 (by decide)).trans ((ustep5 m c main_v3 (by decide)).trans ((ustep4 m c main_v3 (by decide)).trans ((ustep3 m c main_v3 (by decide)).trans ((ustep2 m c main_v3 (by decide)).trans (ustep1 m c main_v3 (by decide))))))))).trans (hs0_v3 (V0 m c))
  have h30 : U8 m c main_v30 = Cert.Spec.dsd (V0 m c main_arg1) := (((ustep7 m c main_v30 (by decide)).trans ((ustep6 m c main_v30 (by decide)).trans ((ustep5 m c main_v30 (by decide)).trans ((ustep4 m c main_v30 (by decide)).trans ((ustep3 m c main_v30 (by decide)).trans ((ustep2 m c main_v30 (by decide)).trans (ustep1 m c main_v30 (by decide))))))))).trans (hs0_v30 (V0 m c))
  rw [h1, h3, h30, l2_H m c hR] at e
  exact e

/-- The region that adds the self-loop term and clamps at zero leaves the specification's `Y2`. -/
theorem l2_Y (c : Dev nD) (hR : Cert.Spec.RealArgs (kargs m c)) : U10 m c main_v75_0 = Cert.Spec.Y2 (kargs m c) := by
  have e : U10 m c main_v75_0 = (dat4 (atTc (U9 m)) c).arrAt 3 cfg4.N := (hF4 m c 3).symm
  have hds : (atTc (U9 m) c (Pipeline.arrRef spec4 2) : S50000x1.Idx → Ideal .f32) = shapeCast S50000x1 (Cert.Spec.dself (V0 m c main_arg1)) shapeCasts_S50000_S50000x1 :=
    (((ustep8 m c main_v32 (by decide)).trans ((ustep7 m c main_v32 (by decide)).trans ((ustep6 m c main_v32 (by decide)).trans ((ustep5 m c main_v32 (by decide)).trans ((ustep4 m c main_v32 (by decide)).trans ((ustep3 m c main_v32 (by decide)).trans ((ustep2 m c main_v32 (by decide)).trans (ustep1 m c main_v32 (by decide)))))))))).trans (hs0_v32 (V0 m c))
  rw [e, final4_3 (atTc (U9 m)) c (Cert.Spec.dself (V0 m c main_arg1)) shapeCasts_S50000_S50000x1 hds]
  show Cert.Spec.relu64 (Cert.Spec.pre64 (U9 m c main_v61) (U9 m c main_v74) (Cert.Spec.dself (V0 m c main_arg1))) = _
  rw [l2_A m c hR, (show U9 m c main_v61 = Cert.Spec.H2 (kargs m c) from ((ustep8 m c main_v61 (by decide))).trans (l2_H m c hR))]
  rfl

/-- The two accumulators end holding, column by column, the sums of `Y2` and of its squares over all rows. -/
theorem l2_S (c : Dev nD) (hR : Cert.Spec.RealArgs (kargs m c)) (q : Fin 64) : (U10 m c main_v75_1 : S1x64.Idx → Ideal .f32) (ix2 (0 : Fin 1) q)
    = Host.reduceAdd (Cert.Spec.Y2 (kargs m c)) (constant (F := Ideal) Cert.Spec.S_ .f32 0x00000000#32) Cert.Spec.reducesTo_S50000x64_S64_d0 Cert.Spec.h_S_ (ix1 q) := by
  have e : U10 m c main_v75_1 = (dat4 (atTc (U9 m)) c).arrAt 4 cfg4.N := (hF4 m c 4).symm
  have hds : (atTc (U9 m) c (Pipeline.arrRef spec4 2) : S50000x1.Idx → Ideal .f32) = shapeCast S50000x1 (Cert.Spec.dself (V0 m c main_arg1)) shapeCasts_S50000_S50000x1 :=
    (((ustep8 m c main_v32 (by decide)).trans ((ustep7 m c main_v32 (by decide)).trans ((ustep6 m c main_v32 (by decide)).trans ((ustep5 m c main_v32 (by decide)).trans ((ustep4 m c main_v32 (by decide)).trans ((ustep3 m c main_v32 (by decide)).trans ((ustep2 m c main_v32 (by decide)).trans (ustep1 m c main_v32 (by decide)))))))))).trans (hs0_v32 (V0 m c))
  have hY : (dat4 (atTc (U9 m)) c).arrAt 3 cfg4.N = Cert.Spec.Y2 (kargs m c) := (hF4 m c 3).trans (l2_Y m c hR)
  rw [e, final4_4 (atTc (U9 m)) c (Cert.Spec.dself (V0 m c main_arg1)) shapeCasts_S50000_S50000x1 hds q,
    ← final4_3 (atTc (U9 m)) c (Cert.Spec.dself (V0 m c main_arg1)) shapeCasts_S50000_S50000x1 hds, hY]

theorem l2_Q (c : Dev nD) (hR : Cert.Spec.RealArgs (kargs m c)) (q : Fin 64) : (U10 m c main_v75_2 : S1x64.Idx → Ideal .f32) (ix2 (0 : Fin 1) q)
    = Host.reduceAdd (mulf (Cert.Spec.Y2 (kargs m c)) (Cert.Spec.Y2 (kargs m c))) (constant (F := Ideal) Cert.Spec.S_ .f32 0x00000000#32) Cert.Spec.reducesTo_S50000x64_S64_d0 Cert.Spec.h_S_ (ix1 q) := by
  have e : U10 m c main_v75_2 = (dat4 (atTc (U9 m)) c).arrAt 5 cfg4.N := (hF4 m c 5).symm
  have hds : (atTc (U9 m) c (Pipeline.arrRef spec4 2) : S50000x1.Idx → Ideal .f32) = shapeCast S50000x1 (Cert.Spec.dself (V0 m c main_arg1)) shapeCasts_S50000_S50000x1 :=
    (((ustep8 m c main_v32 (by decide)).trans ((ustep7 m c main_v32 (by decide)).trans ((ustep6 m c main_v32 (by decide)).trans ((ustep5 m c main_v32 (by decide)).trans ((ustep4 m c main_v32 (by decide)).trans ((ustep3 m c main_v32 (by decide)).trans ((ustep2 m c main_v32 (by decide)).trans (ustep1 m c main_v32 (by decide)))))))))).trans (hs0_v32 (V0 m c))
  have hY : (dat4 (atTc (U9 m)) c).arrAt 3 cfg4.N = Cert.Spec.Y2 (kargs m c) := (hF4 m c 3).trans (l2_Y m c hR)
  rw [e, final4_5 (atTc (U9 m)) c (Cert.Spec.dself (V0 m c main_arg1)) shapeCasts_S50000_S50000x1 hds q,
    ← final4_3 (atTc (U9 m)) c (Cert.Spec.dself (V0 m c main_arg1)) shapeCasts_S50000_S50000x1 hds, hY]

/-- The normalisation region leaves the specification's `O2`: here the one-pass variance the kernel computes meets
    the two-pass variance of the specification, which needs every entry of `Y2` to be a real number. -/
theorem l2_O (c : Dev nD) (hR : Cert.Spec.RealArgs (kargs m c)) : U12 m c main_v86 = Cert.Spec.O2 (kargs m c) := by
  have e : U12 m c main_v86 = (dat5 (atTc (U11 m)) c).arrAt 5 cfg5.N := (hF5 m c 5).symm
  rw [e, final_bn5 (atTc (U11 m)) c]
  show bnG5 (U11 m c main_v75_0) (U11 m c main_v77) (U11 m c main_v83) (U11 m c main_v84) (U11 m c main_v85) = _
  rw [(show U11 m c main_v77 = _ from hs5_v77 (U10 m c)), (show U11 m c main_v83 = _ from hs5_v83 (U10 m c)),
    (show U11 m c main_v84 = _ from hs5_v84 (U10 m c)), (show U11 m c main_v85 = _ from hs5_v85 (U10 m c)),
    (show U11 m c main_v75_0 = Cert.Spec.Y2 (kargs m c) from ((ustep10 m c main_v75_0 (by decide))).trans (l2_Y m c hR)),
    (show U10 m c main_arg8 = V0 m c main_arg8 from ((ustep9 m c main_arg8 (by decide)).trans ((ustep8 m c main_arg8 (by decide)).trans ((ustep7 m c main_arg8 (by decide)).trans ((ustep6 m c main_arg8 (by decide)).trans ((ustep5 m c main_arg8 (by decide)).trans ((ustep4 m c main_arg8 (by decide)).trans ((ustep3 m c main_arg8 (by decide)).trans ((ustep2 m c main_arg8 (by decide)).trans ((ustep1 m c main_arg8 (by decide)).trans (ustep0 m c main_arg8 (by decide)))))))))))),
    (show U10 m c main_arg9 = V0 m c main_arg9 from ((ustep9 m c main_arg9 (by decide)).trans ((ustep8 m c main_arg9 (by decide)).trans ((ustep7 m c main_arg9 (by decide)).trans ((ustep6 m c main_arg9 (by decide)).trans ((ustep5 m c main_arg9 (by decide)).trans ((ustep4 m c main_arg9 (by decide)).trans ((ustep3 m c main_arg9 (by decide)).trans ((ustep2 m c main_arg9 (by decide)).trans ((ustep1 m c main_arg9 (by decide)).trans (ustep0 m c main_arg9 (by decide))))))))))))]
  exact bridge5 (Cert.Spec.Y2 (kargs m c)) (Cert.Spec.real_Y2 hR) (U10 m c main_v75_1) (U10 m c main_v75_2)
    (fun q => l2_S m c hR q) (fun q => l2_Q m c hR q) (V0 m c main_arg8) (V0 m c main_arg9)

/-! ## Layer 3 (width 128) -/

/-- The dense layer's output array is the specification's `H3`. -/
theorem l3_H (c : Dev nD) (hR : Cert.Spec.RealArgs (kargs m c)) : U14 m c main_v88 = Cert.Spec.H3 (kargs m c) := by
  have e : U14 m c main_v88 = (dat6 (atTc (U13 m)) c).arrAt 3 cfg6.N := (hF6 m c 3).symm
  have hb : atTc (U13 m) c main_v87 = krow128 (V0 m c main_arg11) :=
    (hs6_v87 (U12 m c)).trans (congrArg krow128 ((ustep11 m c main_arg11 (by decide)).trans ((ustep10 m c main_arg11 (by decide)).trans ((ustep9 m c main_arg11 (by decide)).trans ((ustep8 m c main_arg11 (by decide)).trans ((ustep7 m c main_arg11 (by decide)).trans ((ustep6 m c main_arg11 (by decide)).trans ((ustep5 m c main_arg11 (by decide)).trans ((ustep4 m c main_arg11 (by decide)).trans ((ustep3 m c main_arg11 (by decide)).trans ((ustep2 m c main_arg11 (by decide)).trans ((ustep1 m c main_arg11 (by decide)).trans (ustep0 m c main_arg11 (by decide))))))))))))))
  rw [e, final_lin6 (atTc (U13 m)) c (V0 m c main_arg11) hb,
    (show atTc (U13 m) c main_v86 = Cert.Spec.O2 (kargs m c) from ((ustep12 m c main_v86 (by decide))).trans (l2_O m c hR)),
    (show atTc (U13 m) c main_arg10 = V0 m c main_arg10 from ((ustep12 m c main_arg10 (by decide)).trans ((ustep11 m c main_arg10 (by decide)).trans ((ustep10 m c main_arg10 (by decide)).trans ((ustep9 m c main_arg10 (by decide)).trans ((ustep8 m c main_arg10 (by decide)).trans ((ustep7 m c main_arg10 (by decide)).trans ((ustep6 m c main_arg10 (by decide)).trans ((ustep5 m c main_arg10 (by decide)).trans ((ustep4 m c main_arg10 (by decide)).trans ((ustep3 m c main_arg10 (by decide)).trans ((ustep2 m c main_arg10 (by decide)).trans ((ustep1 m c main_arg10 (by decide)).trans (ustep0 m c main_arg10 (by decide)))))))))))))))]
  rfl

/-- The aggregated messages are the specification's `A3`. -/
theorem l3_A (c : Dev nD) (hR : Cert.Spec.RealArgs (kargs m c)) : U15 m c main_v101 = Cert.Spec.A3 (kargs m c) := by
  have e := hs7_v101 (U14 m c)
  have h1 : U14 m c main_v1 = Cert.Spec.src (V0 m c main_arg1) := (((ustep13 m c main_v1 (by decide)).trans ((ustep12 m c main_v1 (by decide)).trans ((ustep11 m c main_v1 (by decide)).trans ((ustep10 m c main_v1 (by decide)).trans ((ustep9 m c main_v1 (by decide)).trans ((ustep8 m c main_v1 (by decide)).trans ((ustep7 m c main_v1 (by decide)).trans ((ustep6 m c main_v1 (by decide)).trans ((ustep5 m c main_v1 (by decide)).trans ((ustep4 m c main_v1 (by decide)).trans ((ustep3 m c main_v1 (by decide)).trans ((ustep2 m c main_v1 (by decide)).trans (ustep1 m c main_v1 (by decide))))))))))))))).trans (hs0_v1 (V0 m c))
  have h3 : U14 m c main_v3 = Cert.Spec.dst (V0 m c main_arg1) := (((ustep13 m c main_v3 (by decide)).trans ((ustep12 m c main_v3 (by decide)).trans ((ustep11 m c main_v3 (by decide)).trans ((ustep10 m c main_v3 (by decide)).trans ((ustep9 m c main_v3 (by decide)).trans ((ustep8 m c main_v3 (by decide)).trans ((ustep7 m c main_v3 (by decide)).trans ((ustep6 m c main_v3 (by decide)).trans ((ustep5 m c main_v3 (by decide)).trans ((ustep4 m c main_v3 (by decide)).trans ((ustep3 m c main_v3 (by decide)).trans ((ustep2 m c main_v3 (by decide)).trans (ustep1 m c main_v3 (by decide))))))))))))))).trans (hs0_v3 (V0 m c))
  have h30 : U14 m c main_v30 = Cert.Spec.dsd (V0 m c main_arg1) := (((ustep13 m c main_v30 (by decide)).trans ((ustep12 m c main_v30 (by decide)).trans ((ustep11 m c main_v30 (by decide)).trans ((ustep10 m c main_v30 (by decide)).trans ((ustep9 m c main_v30 (by decide)).trans ((ustep8 m c main_v30 (by decide)).trans ((ustep7 m c main_v30 (by decide)).trans ((ustep6 m c main_v30 (by decide)).trans ((ustep5 m c main_v30 (by decide)).trans ((ustep4 m c main_v30 (by decide)).trans ((ustep3 m c main_v30 (by decide)).trans ((ustep2 m c main_v30 (by decide)).trans (ustep1 m c main_v30 (by decide))))))))))))))).trans (hs0_v30 (V0 m c))
  rw [h1, h3, h30, l3_H m c hR] at e
  exact e

/-- The region that adds the self-loop term and clamps at zero leaves the specification's `Y3`. -/
theorem l3_Y (c : Dev nD) (hR : Cert.Spec.RealArgs (kargs m c)) : U16 m c main_v102_0 = Cert.Spec.Y3 (kargs m c) := by
  have e : U16 m c main_v102_0 = (dat7 (atTc (U15 m)) c).arrAt 3 cfg7.N := (hF7 m c 3).symm
  have hds : (atTc (U15 m) c (Pipeline.arrRef spec7 2) : S50000x1.Idx → Ideal .f32) = shapeCast S50000x1 (Cert.Spec.dself (V0 m c main_arg1)) shapeCasts_S50000_S50000x1 :=
    (((ustep14 m c main_v32 (by decide)).trans ((ustep13 m c main_v32 (by decide)).trans ((ustep12 m c main_v32 (by decide)).trans ((ustep11 m c main_v32 (by decide)).trans ((ustep10 m c main_v32 (by decide)).trans ((ustep9 m c main_v32 (by decide)).trans ((ustep8 m c main_v32 (by decide)).trans ((ustep7 m c main_v32 (by decide)).trans ((ustep6 m c main_v32 (by decide)).trans ((ustep5 m c main_v32 (by decide)).trans ((ustep4 m c main_v32 (by decide)).trans ((ustep3 m c main_v32 (by decide)).trans ((ustep2 m c main_v32 (by decide)).trans (ustep1 m c main_v32 (by decide)))))))))))))))).trans (hs0_v32 (V0 m c))
  rw [e, final7_3 (atTc (U15 m)) c (Cert.Spec.dself (V0 m c main_arg1)) shapeCasts_S50000_S50000x1 hds]
  show Cert.Spec.relu128 (Cert.Spec.pre128 (U15 m c main_v88) (U15 m c main_v101) (Cert.Spec.dself (V0 m c main_arg1))) = _
  rw [l3_A m c hR, (show U15 m c main_v88 = Cert.Spec.H3 (kargs m c) from ((ustep14 m c main_v88 (by decide))).trans (l3_H m c hR))]
  rfl

/-- The two accumulators end holding, column by column, the sums of `Y3` and of its squares over all rows. -/
theorem l3_S (c : Dev nD) (hR : Cert.Spec.RealArgs (kargs m c)) (q : Fin 128) : (U16 m c main_v102_1 : S1x128.Idx → Ideal .f32) (ix2 (0 : Fin 1) q)
    = Host.reduceAdd (Cert.Spec.Y3 (kargs m c)) (constant (F := Ideal) Cert.Spec.S_ .f32 0x00000000#32) Cert.Spec.reducesTo_S50000x128_S128_d0 Cert.Spec.h_S_ (ix1 q) := by
  have e : U16 m c main_v102_1 = (dat7 (atTc (U15 m)) c).arrAt 4 cfg7.N := (hF7 m c 4).symm
  have hds : (atTc (U15 m) c (Pipeline.arrRef spec7 2) : S50000x1.Idx → Ideal .f32) = shapeCast S50000x1 (Cert.Spec.dself (V0 m c main_arg1)) shapeCasts_S50000_S50000x1 :=
    (((ustep14 m c main_v32 (by decide)).trans ((ustep13 m c main_v32 (by decide)).trans ((ustep12 m c main_v32 (by decide)).trans ((ustep11 m c main_v32 (by decide)).trans ((ustep10 m c main_v32 (by decide)).trans ((ustep9 m c main_v32 (by decide)).trans ((ustep8 m c main_v32 (by decide)).trans ((ustep7 m c main_v32 (by decide)).trans ((ustep6 m c main_v32 (by decide)).trans ((ustep5 m c main_v32 (by decide)).trans ((ustep4 m c main_v32 (by decide)).trans ((ustep3 m c main_v32 (by decide)).trans ((ustep2 m c main_v32 (by decide)).trans (ustep1 m c main_v32 (by decide)))))))))))))))).trans (hs0_v32 (V0 m c))
  have hY : (dat7 (atTc (U15 m)) c).arrAt 3 cfg7.N = Cert.Spec.Y3 (kargs m c) := (hF7 m c 3).trans (l3_Y m c hR)
  rw [e, final7_4 (atTc (U15 m)) c (Cert.Spec.dself (V0 m c main_arg1)) shapeCasts_S50000_S50000x1 hds q,
    ← final7_3 (atTc (U15 m)) c (Cert.Spec.dself (V0 m c main_arg1)) shapeCasts_S50000_S50000x1 hds, hY]

theorem l3_Q (c : Dev nD) (hR : Cert.Spec.RealArgs (kargs m c)) (q : Fin 128) : (U16 m c main_v102_2 : S1x128.Idx → Ideal .f32) (ix2 (0 : Fin 1) q)
    = Host.reduceAdd (mulf (Cert.Spec.Y3 (kargs m c)) (Cert.Spec.Y3 (kargs m c))) (constant (F := Ideal) Cert.Spec.S_ .f32 0x00000000#32) Cert.Spec.reducesTo_S50000x128_S128_d0 Cert.Spec.h_S_ (ix1 q) := by
  have e : U16 m c main_v102_2 = (dat7 (atTc (U15 m)) c).arrAt 5 cfg7.N := (hF7 m c 5).symm
  have hds : (atTc (U15 m) c (Pipeline.arrRef spec7 2) : S50000x1.Idx → Ideal .f32) = shapeCast S50000x1 (Cert.Spec.dself (V0 m c main_arg1)) shapeCasts_S50000_S50000x1 :=
    (((ustep14 m c main_v32 (by decide)).trans ((ustep13 m c main_v32 (by decide)).trans ((ustep12 m c main_v32 (by decide)).trans ((ustep11 m c main_v32 (by decide)).trans ((ustep10 m c main_v32 (by decide)).trans ((ustep9 m c main_v32 (by decide)).trans ((ustep8 m c main_v32 (by decide)).trans ((ustep7 m c main_v32 (by decide)).trans ((ustep6 m c main_v32 (by decide)).trans ((ustep5 m c main_v32 (by decide)).trans ((ustep4 m c main_v32 (by decide)).trans ((ustep3 m c main_v32 (by decide)).trans ((ustep2 m c main_v32 (by decide)).trans (ustep1 m c main_v32 (by decide)))))))))))))))).trans (hs0_v32 (V0 m c))
  have hY : (dat7 (atTc (U15 m)) c).arrAt 3 cfg7.N = Cert.Spec.Y3 (kargs m c) := (hF7 m c 3).trans (l3_Y m c hR)
  rw [e, final7_5 (atTc (U15 m)) c (Cert.Spec.dself (V0 m c main_arg1)) shapeCasts_S50000_S50000x1 hds q,
    ← final7_3 (atTc (U15 m)) c (Cert.Spec.dself (V0 m c main_arg1)) shapeCasts_S50000_S50000x1 hds, hY]

/-- The normalisation region leaves the specification's `O3`: here the one-pass variance the kernel computes meets
    the two-pass variance of the specification, which needs every entry of `Y3` to be a real number. -/
theorem l3_O (c : Dev nD) (hR : Cert.Spec.RealArgs (kargs m c)) : U18 m c main_v113 = Cert.Spec.O3 (kargs m c) := by
  have e : U18 m c main_v113 = (dat8 (atTc (U17 m)) c).arrAt 5 cfg8.N := (hF8 m c 5).symm
  rw [e, final_bn8 (atTc (U17 m)) c]
  show bnG8 (U17 m c main_v102_0) (U17 m c main_v104) (U17 m c main_v110) (U17 m c main_v111) (U17 m c main_v112) = _
  rw [(show U17 m c main_v104 = _ from hs8_v104 (U16 m c)), (show U17 m c main_v110 = _ from hs8_v110 (U16 m c)),
    (show U17 m c main_v111 = _ from hs8_v111 (U16 m c)), (show U17 m c main_v112 = _ from hs8_v112 (U16 m c)),
    (show U17 m c main_v102_0 = Cert.Spec.Y3 (kargs m c) from ((ustep16 m c main_v102_0 (by decide))).trans (l3_Y m c hR)),
    (show U16 m c main_arg12 = V0 m c main_arg12 from ((ustep15 m c main_arg12 (by decide)).trans ((ustep14 m c main_arg12 (by decide)).trans ((ustep13 m c main_arg12 (by decide)).trans ((ustep12 m c main_arg12 (by decide)).trans ((ustep11 m c main_arg12 (by decide)).trans ((ustep10 m c main_arg12 (by decide)).trans ((ustep9 m c main_arg12 (by decide)).trans ((ustep8 m c main_arg12 (by decide)).trans ((ustep7 m c main_arg12 (by decide)).trans ((ustep6 m c main_arg12 (by decide)).trans ((ustep5 m c main_arg12 (by decide)).trans ((ustep4 m c main_arg12 (by decide)).trans ((ustep3 m c main_arg12 (by decide)).trans ((ustep2 m c main_arg12 (by decide)).trans ((ustep1 m c main_arg12 (by decide)).trans (ustep0 m c main_arg12 (by decide)))))))))))))))))),
    (show U16 m c main_arg13 = V0 m c main_arg13 from ((ustep15 m c main_arg13 (by decide)).trans ((ustep14 m c main_arg13 (by decide)).trans ((ustep13 m c main_arg13 (by decide)).trans ((ustep12 m c main_arg13 (by decide)).trans ((ustep11 m c main_arg13 (by decide)).trans ((ustep10 m c main_arg13 (by decide)).trans ((ustep9 m c main_arg13 (by decide)).trans ((ustep8 m c main_arg13 (by decide)).trans ((ustep7 m c main_arg13 (by decide)).trans ((ustep6 m c main_arg13 (by decide)).trans ((ustep5 m c main_arg13 (by decide)).trans ((ustep4 m c main_arg13 (by decide)).trans ((ustep3 m c main_arg13 (by decide)).trans ((ustep2 m c main_arg13 (by decide)).trans ((ustep1 m c main_arg13 (by decide)).trans (ustep0 m c main_arg13 (by decide))))))))))))))))))]
  exact bridge8 (Cert.Spec.Y3 (kargs m c)) (Cert.Spec.real_Y3 hR) (U16 m c main_v102_1) (U16 m c main_v102_2)
    (fun q => l3_S m c hR q) (fun q => l3_Q m c hR q) (V0 m c main_arg12) (V0 m c main_arg13)

/-! ## Layer 4 (width 256) -/

/-- The dense layer's output array is the specification's `H4`. -/
theorem l4_H (c : Dev nD) (hR : Cert.Spec.RealArgs (kargs m c)) : U20 m c main_v115 = Cert.Spec.H4 (kargs m c) := by
  have e : U20 m c main_v115 = (dat9 (atTc (U19 m)) c).arrAt 3 cfg9.N := (hF9 m c 3).symm
  have hb : atTc (U19 m) c main_v114 = krow256 (V0 m c main_arg15) :=
    (hs9_v114 (U18 m c)).trans (congrArg krow256 ((ustep17 m c main_arg15 (by decide)).trans ((ustep16 m c main_arg15 (by decide)).trans ((ustep15 m c main_arg15 (by decide)).trans ((ustep14 m c main_arg15 (by decide)).trans ((ustep13 m c main_arg15 (by decide)).trans ((ustep12 m c main_arg15 (by decide)).trans ((ustep11 m c main_arg15 (by decide)).trans ((ustep10 m c main_arg15 (by decide)).trans ((ustep9 m c main_arg15 (by decide)).trans ((ustep8 m c main_arg15 (by decide)).trans ((ustep7 m c main_arg15 (by decide)).trans ((ustep6 m c main_arg15 (by decide)).trans ((ustep5 m c main_arg15 (by decide)).trans ((ustep4 m c main_arg15 (by decide)).trans ((ustep3 m c main_arg15 (by decide)).trans ((ustep2 m c main_arg15 (by decide)).trans ((ustep1 m c main_arg15 (by decide)).trans (ustep0 m c main_arg15 (by decide))))))))))))))))))))
  rw [e, final_lin9 (atTc (U19 m)) c (V0 m c main_arg15) hb,
    (show atTc (U19 m) c main_v113 = Cert.Spec.O3 (kargs m c) from ((ustep18 m c main_v113 (by decide))).trans (l3_O m c hR)),
    (show atTc (U19 m) c main_arg14 = V0 m c main_arg14 from ((ustep18 m c main_arg14 (by decide)).trans ((ustep17 m c main_arg14 (by decide)).trans ((ustep16 m c main_arg14 (by decide)).trans ((ustep15 m c main_arg14 (by decide)).trans ((ustep14 m c main_arg14 (by decide)).trans ((ustep13 m c main_arg14 (by decide)).trans ((ustep12 m c main_arg14 (by decide)).trans ((ustep11 m c main_arg14 (by decide)).trans ((ustep10 m c main_arg14 (by decide)).trans ((ustep9 m c main_arg14 (by decide)).trans ((ustep8 m c main_arg14 (by decide)).trans ((ustep7 m c main_arg14 (by decide)).trans ((ustep6 m c main_arg14 (by decide)).trans ((ustep5 m c main_arg14 (by decide)).trans ((ustep4 m c main_arg14 (by decide)).trans ((ustep3 m c main_arg14 (by decide)).trans ((ustep2 m c main_arg14 (by decide)).trans ((ustep1 m c main_arg14 (by decide)).trans (ustep0 m c main_arg14 (by decide)))))))))))))))))))))]
  rfl

/-- The aggregated messages are the specification's `A4`. -/
theorem l4_A (c : Dev nD) (hR : Cert.Spec.RealArgs (kargs m c)) : U21 m c main_v128 = Cert.Spec.A4 (kargs m c) := by
  have e := hs10_v128 (U20 m c)
  have h1 : U20 m c main_v1 = Cert.Spec.src (V0 m c main_arg1) := (((ustep19 m c main_v1 (by decide)).trans ((ustep18 m c main_v1 (by decide)).trans ((ustep17 m c main_v1 (by decide)).trans ((ustep16 m c main_v1 (by decide)).trans ((ustep15 m c main_v1 (by decide)).trans ((ustep14 m c main_v1 (by decide)).trans ((ustep13 m c main_v1 (by decide)).trans ((ustep12 m c main_v1 (by decide)).trans ((ustep11 m c main_v1 (by decide)).trans ((ustep10 m c main_v1 (by decide)).trans ((ustep9 m c main_v1 (by decide)).trans ((ustep8 m c main_v1 (by decide)).trans ((ustep7 m c main_v1 (by decide)).trans ((ustep6 m c main_v1 (by decide)).trans ((ustep5 m c main_v1 (by decide)).trans ((ustep4 m c main_v1 (by decide)).trans ((ustep3 m c main_v1 (by decide)).trans ((ustep2 m c main_v1 (by decide)).trans (ustep1 m c main_v1 (by decide))))))))))))))))))))).trans (hs0_v1 (V0 m c))
  have h3 : U20 m c main_v3 = Cert.Spec.dst (V0 m c main_arg1) := (((ustep19 m c main_v3 (by decide)).trans ((ustep18 m c main_v3 (by decide)).trans ((ustep17 m c main_v3 (by decide)).trans ((ustep16 m c main_v3 (by decide)).trans ((ustep15 m c main_v3 (by decide)).trans ((ustep14 m c main_v3 (by decide)).trans ((ustep13 m c main_v3 (by decide)).trans ((ustep12 m c main_v3 (by decide)).trans ((ustep11 m c main_v3 (by decide)).trans ((ustep10 m c main_v3 (by decide)).trans ((ustep9 m c main_v3 (by decide)).trans ((ustep8 m c main_v3 (by decide)).trans ((ustep7 m c main_v3 (by decide)).trans ((ustep6 m c main_v3 (by decide)).trans ((ustep5 m c main_v3 (by decide)).trans ((ustep4 m c main_v3 (by decide)).trans ((ustep3 m c main_v3 (by decide)).trans ((ustep2 m c main_v3 (by decide)).trans (ustep1 m c main_v3 (by decide))))))))))))))))))))).trans (hs0_v3 (V0 m c))
  have h30 : U20 m c main_v30 = Cert.Spec.dsd (V0 m c main_arg1) := (((ustep19 m c main_v30 (by decide)).trans ((ustep18 m c main_v30 (by decide)).trans ((ustep17 m c main_v30 (by decide)).trans ((ustep16 m c main_v30 (by decide)).trans ((ustep15 m c main_v30 (by decide)).trans ((ustep14 m c main_v30 (by decide)).trans ((ustep13 m c main_v30 (by decide)).trans ((ustep12 m c main_v30 (by decide)).trans ((ustep11 m c main_v30 (by decide)).trans ((ustep10 m c main_v30 (by decide)).trans ((ustep9 m c main_v30 (by decide)).trans ((ustep8 m c main_v30 (by decide)).trans ((ustep7 m c main_v30 (by decide)).trans ((ustep6 m c main_v30 (by decide)).trans ((ustep5 m c main_v30 (by decide)).trans ((ustep4 m c main_v30 (by decide)).trans ((ustep3 m c main_v30 (by decide)).trans ((ustep2 m c main_v30 (by decide)).trans (ustep1 m c main_v30 (by decide))))))))))))))))))))).trans (hs0_v30 (V0 m c))
  rw [h1, h3, h30, l4_H m c hR] at e
  exact e

/-- The region that adds the self-loop term and clamps at zero leaves the specification's `Y4`. -/
theorem l4_Y (c : Dev nD) (hR : Cert.Spec.RealArgs (kargs m c)) : U22 m c main_v129_0 = Cert.Spec.Y4 (kargs m c) := by
  have e : U22 m c main_v129_0 = (dat10 (atTc (U21 m)) c).arrAt 3 cfg10.N := (hF10 m c 3).symm
  have hds : (atTc (U21 m) c (Pipeline.arrRef spec10 2) : S50000x1.Idx → Ideal .f32) = shapeCast S50000x1 (Cert.Spec.dself (V0 m c main_arg1)) shapeCasts_S50000_S50000x1 :=
    (((ustep20 m c main_v32 (by decide)).trans ((ustep19 m c main_v32 (by decide)).trans ((ustep18 m c main_v32 (by decide)).trans ((ustep17 m c main_v32 (by decide)).trans ((ustep16 m c main_v32 (by decide)).trans ((ustep15 m c main_v32 (by decide)).trans ((ustep14 m c main_v32 (by decide)).trans ((ustep13 m c main_v32 (by decide)).trans ((ustep12 m c main_v32 (by decide)).trans ((ustep11 m c main_v32 (by decide)).trans ((ustep10 m c main_v32 (by decide)).trans ((ustep9 m c main_v32 (by decide)).trans ((ustep8 m c main_v32 (by decide)).trans ((ustep7 m c main_v32 (by decide)).trans ((ustep6 m c main_v32 (by decide)).trans ((ustep5 m c main_v32 (by decide)).trans ((ustep4 m c main_v32 (by decide)).trans ((ustep3 m c main_v32 (by decide)).trans ((ustep2 m c main_v32 (by decide)).trans (ustep1 m c main_v32 (by decide)))))))))))))))))))))).trans (hs0_v32 (V0 m c))
  rw [e, final10_3 (atTc (U21 m)) c (Cert.Spec.dself (V0 m c main_arg1)) shapeCasts_S50000_S50000x1 hds]
  show Cert.Spec.relu256 (Cert.Spec.pre256 (U21 m c main_v115) (U21 m c main_v128) (Cert.Spec.dself (V0 m c main_arg1))) = _
  rw [l4_A m c hR, (show U21 m c main_v115 = Cert.Spec.H4 (kargs m c) from ((ustep20 m c main_v115 (by decide))).trans (l4_H m c hR))]
  rfl

/-- The two accumulators end holding, column by column, the sums of `Y4` and of its squares over all rows. -/
theorem l4_S (c : Dev nD) (hR : Cert.Spec.RealArgs (kargs m c)) (q : Fin 256) : (U22 m c main_v129_1 : S1x256.Idx → Ideal .f32) (ix2 (0 : Fin 1) q)
    = Host.reduceAdd (Cert.Spec.Y4 (kargs m c)) (constant (F := Ideal) Cert.Spec.S_ .f32 0x00000000#32) Cert.Spec.reducesTo_S50000x256_S256_d0 Cert.Spec.h_S_ (ix1 q) := by
  have e : U22 m c main_v129_1 = (dat10 (atTc (U21 m)) c).arrAt 4 cfg10.N := (hF10 m c 4).symm
  have hds : (atTc (U21 m) c (Pipeline.arrRef spec10 2) : S50000x1.Idx → Ideal .f32) = shapeCast S50000x1 (Cert.Spec.dself (V0 m c main_arg1)) shapeCasts_S50000_S50000x1 :=
    (((ustep20 m c main_v32 (by decide)).trans ((ustep19 m c main_v32 (by decide)).trans ((ustep18 m c main_v32 (by decide)).trans ((ustep17 m c main_v32 (by decide)).trans ((ustep16 m c main_v32 (by decide)).trans ((ustep15 m c main_v32 (by decide)).trans ((ustep14 m c main_v32 (by decide)).trans ((ustep13 m c main_v32 (by decide)).trans ((ustep12 m c main_v32 (by decide)).trans ((ustep11 m c main_v32 (by decide)).trans ((ustep10 m c main_v32 (by decide)).trans ((ustep9 m c main_v32 (by decide)).trans ((ustep8 m c main_v32 (by decide)).trans ((ustep7 m c main_v32 (by decide)).trans ((ustep6 m c main_v32 (by decide)).trans ((ustep5 m c main_v32 (by decide)).trans ((ustep4 m c main_v32 (by decide)).trans ((ustep3 m c main_v32 (by decide)).trans ((ustep2 m c main_v32 (by decide)).trans (ustep1 m c main_v32 (by decide)))))))))))))))))))))).trans (hs0_v32 (V0 m c))
  have hY : (dat10 (atTc (U21 m)) c).arrAt 3 cfg10.N = Cert.Spec.Y4 (kargs m c) := (hF10 m c 3).trans (l4_Y m c hR)
  rw [e, final10_4 (atTc (U21 m)) c (Cert.Spec.dself (V0 m c main_arg1)) shapeCasts_S50000_S50000x1 hds q,
    ← final10_3 (atTc (U21 m)) c (Cert.Spec.dself (V0 m c main_arg1)) shapeCasts_S50000_S50000x1 hds, hY]

theorem l4_Q (c : Dev nD) (hR : Cert.Spec.RealArgs (kargs m c)) (q : Fin 256) : (U22 m c main_v129_2 : S1x256.Idx → Ideal .f32) (ix2 (0 : Fin 1) q)
    = Host.reduceAdd (mulf (Cert.Spec.Y4 (kargs m c)) (Cert.Spec.Y4 (kargs m c))) (constant (F := Ideal) Cert.Spec.S_ .f32 0x00000000#32) Cert.Spec.reducesTo_S50000x256_S256_d0 Cert.Spec.h_S_ (ix1 q) := by
  have e : U22 m c main_v129_2 = (dat10 (atTc (U21 m)) c).arrAt 5 cfg10.N := (hF10 m c 5).symm
  have hds : (atTc (U21 m) c (Pipeline.arrRef spec10 2) : S50000x1.Idx → Ideal .f32) = shapeCast S50000x1 (Cert.Spec.dself (V0 m c main_arg1)) shapeCasts_S50000_S50000x1 :=
    (((ustep20 m c main_v32 (by decide)).trans ((ustep19 m c main_v32 (by decide)).trans ((ustep18 m c main_v32 (by decide)).trans ((ustep17 m c main_v32 (by decide)).trans ((ustep16 m c main_v32 (by decide)).trans ((ustep15 m c main_v32 (by decide)).trans ((ustep14 m c main_v32 (by decide)).trans ((ustep13 m c main_v32 (by decide)).trans ((ustep12 m c main_v32 (by decide)).trans ((ustep11 m c main_v32 (by decide)).trans ((ustep10 m c main_v32 (by decide)).trans ((ustep9 m c main_v32 (by decide)).trans ((ustep8 m c main_v32 (by decide)).trans ((ustep7 m c main_v32 (by decide)).trans ((ustep6 m c main_v32 (by decide)).trans ((ustep5 m c main_v32 (by decide)).trans ((ustep4 m c main_v32 (by decide)).trans ((ustep3 m c main_v32 (by decide)).trans ((ustep2 m c main_v32 (by decide)).trans (ustep1 m c main_v32 (by decide)))))))))))))))))))))).trans (hs0_v32 (V0 m c))
  have hY : (dat10 (atTc (U21 m)) c).arrAt 3 cfg10.N = Cert.Spec.Y4 (kargs m c) := (hF10 m c 3).trans (l4_Y m c hR)
  rw [e, final10_5 (atTc (U21 m)) c (Cert.Spec.dself (V0 m c main_arg1)) shapeCasts_S50000_S50000x1 hds q,
    ← final10_3 (atTc (U21 m)) c (Cert.Spec.dself (V0 m c main_arg1)) shapeCasts_S50000_S50000x1 hds, hY]

/-- The normalisation region leaves the specification's `O4`: here the one-pass variance the kernel computes meets
    the two-pass variance of the specification, which needs every entry of `Y4` to be a real number. -/
theorem l4_O (c : Dev nD) (hR : Cert.Spec.RealArgs (kargs m c)) : U24 m c main_v140 = Cert.Spec.O4 (kargs m c) := by
  have e : U24 m c main_v140 = (dat11 (atTc (U23 m)) c).arrAt 5 cfg11.N := (hF11 m c 5).symm
  rw [e, final_bn11 (atTc (U23 m)) c]
  show bnG11 (U23 m c main_v129_0) (U23 m c main_v131) (U23 m c main_v137) (U23 m c main_v138) (U23 m c main_v139) = _
  rw [(show U23 m c main_v131 = _ from hs11_v131 (U22 m c)), (show U23 m c main_v137 = _ from hs11_v137 (U22 m c)),
    (show U23 m c main_v138 = _ from hs11_v138 (U22 m c)), (show U23 m c main_v139 = _ from hs11_v139 (U22 m c)),
    (show U23 m c main_v129_0 = Cert.Spec.Y4 (kargs m c) from ((ustep22 m c main_v129_0 (by decide))).trans (l4_Y m c hR)),
    (show U22 m c main_arg16 = V0 m c main_arg16 from ((ustep21 m c main_arg16 (by decide)).trans ((ustep20 m c main_arg16 (by decide)).trans ((ustep19 m c main_arg16 (by decide)).trans ((ustep18 m c main_arg16 (by decide)).trans ((ustep17 m c main_arg16 (by decide)).trans ((ustep16 m c main_arg16 (by decide)).trans ((ustep15 m c main_arg16 (by decide)).trans ((ustep14 m c main_arg16 (by decide)).trans ((ustep13 m c main_arg16 (by decide)).trans ((ustep12 m c main_arg16 (by decide)).trans ((ustep11 m c main_arg16 (by decide)).trans ((ustep10 m c main_arg16 (by decide)).trans ((ustep9 m c main_arg16 (by decide)).trans ((ustep8 m c main_arg16 (by decide)).trans ((ustep7 m c main_arg16 (by decide)).trans ((ustep6 m c main_arg16 (by decide)).trans ((ustep5 m c main_arg16 (by decide)).trans ((ustep4 m c main_arg16 (by decide)).trans ((ustep3 m c main_arg16 (by decide)).trans ((ustep2 m c main_arg16 (by decide)).trans ((ustep1 m c main_arg16 (by decide)).trans (ustep0 m c main_arg16 (by decide)))))))))))))))))))))))),
    (show U22 m c main_arg17 = V0 m c main_arg17 from ((ustep21 m c main_arg17 (by decide)).trans ((ustep20 m c main_arg17 (by decide)).trans ((ustep19 m c main_arg17 (by decide)).trans ((ustep18 m c main_arg17 (by decide)).trans ((ustep17 m c main_arg17 (by decide)).trans ((ustep16 m c main_arg17 (by decide)).trans ((ustep15 m c main_arg17 (by decide)).trans ((ustep14 m c main_arg17 (by decide)).trans ((ustep13 m c main_arg17 (by decide)).trans ((ustep12 m c main_arg17 (by decide)).trans ((ustep11 m c main_arg17 (by decide)).trans ((ustep10 m c main_arg17 (by decide)).trans ((ustep9 m c main_arg17 (by decide)).trans ((ustep8 m c main_arg17 (by decide)).trans ((ustep7 m c main_arg17 (by decide)).trans ((ustep6 m c main_arg17 (by decide)).trans ((ustep5 m c main_arg17 (by decide)).trans ((ustep4 m c main_arg17 (by decide)).trans ((ustep3 m c main_arg17 (by decide)).trans ((ustep2 m c main_arg17 (by decide)).trans ((ustep1 m c main_arg17 (by decide)).trans (ustep0 m c main_arg17 (by decide))))))))))))))))))))))))]
  exact bridge11 (Cert.Spec.Y4 (kargs m c)) (Cert.Spec.real_Y4 hR) (U22 m c main_v129_1) (U22 m c main_v129_2)
    (fun q => l4_S m c hR q) (fun q => l4_Q m c hR q) (V0 m c main_arg16) (V0 m c main_arg17)

/-! ## The three results -/

/-- At the end the three result buffers hold the specification's `O4`, `O1` and `O2` of the argument arrays. -/
theorem kernel_results (c : Dev nD) (hR : Cert.Spec.RealArgs (kargs m c)) :
    U24 m c main_v140 = Cert.Spec.O4 (kargs m c) ∧ U24 m c main_v59 = Cert.Spec.O1 (kargs m c) ∧ U24 m c main_v86 = Cert.Spec.O2 (kargs m c) :=
  ⟨l4_O m c hR, (((ustep23 m c main_v59 (by decide)).trans ((ustep22 m c main_v59 (by decide)).trans ((ustep21 m c main_v59 (by decide)).trans ((ustep20 m c main_v59 (by decide)).trans ((ustep19 m c main_v59 (by decide)).trans ((ustep18 m c main_v59 (by decide)).trans ((ustep17 m c main_v59 (by decide)).trans ((ustep16 m c main_v59 (by decide)).trans ((ustep15 m c main_v59 (by decide)).trans ((ustep14 m c main_v59 (by decide)).trans ((ustep13 m c main_v59 (by decide)).trans ((ustep12 m c main_v59 (by decide)).trans ((ustep11 m c main_v59 (by decide)).trans ((ustep10 m c main_v59 (by decide)).trans ((ustep9 m c main_v59 (by decide)).trans ((ustep8 m c main_v59 (by decide)).trans ((ustep7 m c main_v59 (by decide)).trans (ustep6 m c main_v59 (by decide)))))))))))))))))))).trans (l1_O m c hR), (((ustep23 m c main_v86 (by decide)).trans ((ustep22 m c main_v86 (by decide)).trans ((ustep21 m c main_v86 (by decide)).trans ((ustep20 m c main_v86 (by decide)).trans ((ustep19 m c main_v86 (by decide)).trans ((ustep18 m c main_v86 (by decide)).trans ((ustep17 m c main_v86 (by decide)).trans ((ustep16 m c main_v86 (by decide)).trans ((ustep15 m c main_v86 (by decide)).trans ((ustep14 m c main_v86 (by decide)).trans ((ustep13 m c main_v86 (by decide)).trans (ustep12 m c main_v86 (by decide)))))))))))))).trans (l2_O m c hR)⟩

end Cert.KernelIdeal.Gen

end
-- ==== Proof.Algebraic.lean ====
import proofs.«165059_j7095285973648_2_alg».proof.Defs
import proofs.«165059_j7095285973648_2_alg».proof.Proof.AsmFrame
import proofs.«165059_j7095285973648_2_alg».proof.Proof.KValue
import proofs.«165059_j7095285973648_2_alg».proof.Proof.Comb1
import proofs.«165059_j7095285973648_2_alg».proof.Proof.Comb4
import proofs.«165059_j7095285973648_2_alg».proof.Proof.Comb7
import proofs.«165059_j7095285973648_2_alg».proof.Proof.Comb10
import proofs.«165059_j7095285973648_2_alg».proof.Proof.KArgs
import proofs.«165059_j7095285973648_2_alg».proof.Proof.RefRun

/-! # The two idealized programs compute the same network

Both programs, run from memories that agree on the eighteen arguments, end with their three results at the
network's outputs `Spec.O4`, `Spec.O1`, `Spec.O2` of those arguments. The kernel program's run, launch by launch,
ends with every buffer at the composed value of its host stretches and launches, and under the precondition — the
float arguments are real numbers — those values are the network's stages; the reference program's run ends at the
same stages by reading its operations off in order. The arguments end as they were launched. -/

noncomputable section

namespace Cert.KernelIdeal.Gen

open Idealize.ShloMosaic Idealize.ShloMosaic.TcCoe Idealize.SL.Sem

theorem algebraic : Cert.algebraic_KernelIdeal_ReferenceIdeal :=
  fun m ρ m' ρ' hpre hagree =>
  ⟨fun c => Cert.Spec.O4 (kargs m c), fun c => Cert.Spec.O1 (kargs m c), fun c => Cert.Spec.O2 (kargs m c),
    (θ_run Cert.KernelIdeal.defs _ _).mono (fun r h c =>
      ⟨(h c (Proc.devRef .tc main_v140) (Finset.mem_filter.mpr ⟨StableHlo.devRef_mem_tcRefs main_v140, by decide⟩)).trans (kernel_results m c (realKArgs m hpre c)).1,
        (h c (Proc.devRef .tc main_v59) (Finset.mem_filter.mpr ⟨StableHlo.devRef_mem_tcRefs main_v59, by decide⟩)).trans (kernel_results m c (realKArgs m hpre c)).2.1,
        (h c (Proc.devRef .tc main_v86) (Finset.mem_filter.mpr ⟨StableHlo.devRef_mem_tcRefs main_v86, by decide⟩)).trans (kernel_results m c (realKArgs m hpre c)).2.2,
        (h c (Proc.devRef .tc main_arg0) (Finset.mem_filter.mpr ⟨StableHlo.devRef_mem_tcRefs main_arg0, by decide⟩)).trans
          ((congrFun (V24_eq m c) _).symm.trans (V24_main_arg0 m (outs m) c)),
        (h c (Proc.devRef .tc main_arg1) (Finset.mem_filter.mpr ⟨StableHlo.devRef_mem_tcRefs main_arg1, by decide⟩)).trans
          ((congrFun (V24_eq m c) _).symm.trans (V24_main_arg1 m (outs m) c)),
        (h c (Proc.devRef .tc main_arg2) (Finset.mem_filter.mpr ⟨StableHlo.devRef_mem_tcRefs main_arg2, by decide⟩)).trans
          ((congrFun (V24_eq m c) _).symm.trans (V24_main_arg2 m (outs m) c)),
        (h c (Proc.devRef .tc main_arg3) (Finset.mem_filter.mpr ⟨StableHlo.devRef_mem_tcRefs main_arg3, by decide⟩)).trans
          ((congrFun (V24_eq m c) _).symm.trans (V24_main_arg3 m (outs m) c)),
        (h c (Proc.devRef .tc main_arg4) (Finset.mem_filter.mpr ⟨StableHlo.devRef_mem_tcRefs main_arg4, by decide⟩)).trans
          ((congrFun (V24_eq m c) _).symm.trans (V24_main_arg4 m (outs m) c)),
        (h c (Proc.devRef .tc main_arg5) (Finset.mem_filter.mpr ⟨StableHlo.devRef_mem_tcRefs main_arg5, by decide⟩)).trans
          ((congrFun (V24_eq m c) _).symm.trans (V24_main_arg5 m (outs m) c)),
        (h c (Proc.devRef .tc main_arg6) (Finset.mem_filter.mpr ⟨StableHlo.devRef_mem_tcRefs main_arg6, by decide⟩)).trans
          ((congrFun (V24_eq m c) _).symm.trans (V24_main_arg6 m (outs m) c)),
        (h c (Proc.devRef .tc main_arg7) (Finset.mem_filter.mpr ⟨StableHlo.devRef_mem_tcRefs main_arg7, by decide⟩)).trans
          ((congrFun (V24_eq m c) _).symm.trans (V24_main_arg7 m (outs m) c)),
        (h c (Proc.devRef .tc main_arg8) (Finset.mem_filter.mpr ⟨StableHlo.devRef_mem_tcRefs main_arg8, by decide⟩)).trans
          ((congrFun (V24_eq m c) _).symm.trans (V24_main_arg8 m (outs m) c)),
        (h c (Proc.devRef .tc main_arg9) (Finset.mem_filter.mpr ⟨StableHlo.devRef_mem_tcRefs main_arg9, by decide⟩)).trans
          ((congrFun (V24_eq m c) _).symm.trans (V24_main_arg9 m (outs m) c)),
        (h c (Proc.devRef .tc main_arg10) (Finset.mem_filter.mpr ⟨StableHlo.devRef_mem_tcRefs main_arg10, by decide⟩)).trans
          ((congrFun (V24_eq m c) _).symm.trans (V24_main_arg10 m (outs m) c)),
        (h c (Proc.devRef .tc main_arg11) (Finset.mem_filter.mpr ⟨StableHlo.devRef_mem_tcRefs main_arg11, by decide⟩)).trans
          ((congrFun (V24_eq m c) _).symm.trans (V24_main_arg11 m (outs m) c)),
        (h c (Proc.devRef .tc main_arg12) (Finset.mem_filter.mpr ⟨StableHlo.devRef_mem_tcRefs main_arg12, by decide⟩)).trans
          ((congrFun (V24_eq m c) _).symm.trans (V24_main_arg12 m (outs m) c)),
        (h c (Proc.devRef .tc main_arg13) (Finset.mem_filter.mpr ⟨StableHlo.devRef_mem_tcRefs main_arg13, by decide⟩)).trans
          ((congrFun (V24_eq m c) _).symm.trans (V24_main_arg13 m (outs m) c)),
        (h c (Proc.devRef .tc main_arg14) (Finset.mem_filter.mpr ⟨StableHlo.devRef_mem_tcRefs main_arg14, by decide⟩)).trans
          ((congrFun (V24_eq m c) _).symm.trans (V24_main_arg14 m (outs m) c)),
        (h c (Proc.devRef .tc main_arg15) (Finset.mem_filter.mpr ⟨StableHlo.devRef_mem_tcRefs main_arg15, by decide⟩)).trans
          ((congrFun (V24_eq m c) _).symm.trans (V24_main_arg15 m (outs m) c)),
        (h c (Proc.devRef .tc main_arg16) (Finset.mem_filter.mpr ⟨StableHlo.devRef_mem_tcRefs main_arg16, by decide⟩)).trans
          ((congrFun (V24_eq m c) _).symm.trans (V24_main_arg16 m (outs m) c)),
        (h c (Proc.devRef .tc main_arg17) (Finset.mem_filter.mpr ⟨StableHlo.devRef_mem_tcRefs main_arg17, by decide⟩)).trans
          ((congrFun (V24_eq m c) _).symm.trans (V24_main_arg17 m (outs m) c))⟩)
      (run_of_bodies (F := Ideal) m ρ (fun c => body_obligation1 _ c) (fun c => body_obligation4 _ c)
        (fun c => body_obligation7 _ c) (fun c => body_obligation10 _ c)),
    (θ_run Cert.ReferenceIdeal.defs _ _).mono (fun r h c =>
      ⟨(h c).1.trans (congrArg Cert.Spec.O4 (args_agree m m' c (hagree c))),
        (h c).2.1.trans (congrArg Cert.Spec.O1 (args_agree m m' c (hagree c))),
        (h c).2.2.1.trans (congrArg Cert.Spec.O2 (args_agree m m' c (hagree c))),
        (h c).2.2.2⟩)
      (Cert.ReferenceIdeal.RefRun.run (F := Ideal) m' ρ')⟩

end Cert.KernelIdeal.Gen

end
-- ==== Proof.lean ====
/- The proof of `Cert.Claim` for a four-layer graph-convolution auto-encoder over 50000 nodes and 800000 edges.

   Each layer is a linear map (one launch over 25 blocks of 2000 rows), an aggregate over incoming edges (host
   gather and scatter-add), a rectified combination whose launch also collects the column sums and sums of squares
   of its output across the 25 blocks, and a batch normalisation from those sums. The three frames: the two kernel
   programs run launch by launch, every launch inside its windows, and end with their arguments unchanged; the
   reference is a straight line of host operations. The idealized kernel program is the kernel program's own text
   read in exact arithmetic (no operation was rewritten), so there is nothing to preserve.
   For the algebraic claim both idealized programs are shown to end at the same stage functions of the eighteen
   arguments (`Cert.Spec`). The one law used: the kernel computes a column's variance as the mean of squares minus
   the squared mean, cut off below at zero, the reference as the mean squared deviation; these agree on real
   numbers, and under the precondition (every float input finite) every stage holds real numbers — a degree is one
   plus a count, so its reciprocal square root is a positive real, and a variance plus the small positive word
   under the second square root is positive. -/
import proofs.«165059_j7095285973648_2_alg».proof.Defs
import proofs.«165059_j7095285973648_2_alg».proof.Proof.Gen.Kernel
import proofs.«165059_j7095285973648_2_alg».proof.Proof.Gen.Kernel.Skeleton
import proofs.«165059_j7095285973648_2_alg».proof.Proof.Gen.Kernel.Launch
import proofs.«165059_j7095285973648_2_alg».proof.Proof.Gen.Kernel.Regions
import proofs.«165059_j7095285973648_2_alg».proof.Proof.Gen.Kernel.Points
import proofs.«165059_j7095285973648_2_alg».proof.Proof.Gen.KernelIdeal
import proofs.«165059_j7095285973648_2_alg».proof.Proof.Gen.KernelIdeal.Skeleton
import proofs.«165059_j7095285973648_2_alg».proof.Proof.Gen.KernelIdeal.Launch
import proofs.«165059_j7095285973648_2_alg».proof.Proof.Gen.KernelIdeal.Regions
import proofs.«165059_j7095285973648_2_alg».proof.Proof.Gen.KernelIdeal.Points
import proofs.«165059_j7095285973648_2_alg».proof.Proof.Gen.ReferenceIdeal
import proofs.«165059_j7095285973648_2_alg».proof.Proof.Gen.Pre_finite_inputs
import Idealize.ShloMosaic.Adequacy
import Idealize.ShloMosaic.Init
import proofs.«165059_j7095285973648_2_alg».proof.Proof.Frames
import proofs.«165059_j7095285973648_2_alg».proof.Proof.RefFrame
import proofs.«165059_j7095285973648_2_alg».proof.Proof.Algebraic

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Frames.frame_k, Cert.Frames.frame_ki, Cert.ReferenceIdeal.RefRun.frame_ri, trivial, Cert.KernelIdeal.Gen.algebraic⟩

end Cert.Proof

end
